-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v509)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v509) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v783) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000000x3 : Shape := ⟨3, ![1, 2000000, 3]⟩
abbrev S_ : Shape := ⟨0, ![]⟩

class Facts : Prop where
  bcast_S_S1x2000000x3 : S_.BroadcastsInDim S1x2000000x3 (![] : Fin 0 → Fin S1x2000000x3.rank)
  reducesTo_S1x2000000x3_S_d0_1_2 : S1x2000000x3.ReducesTo [0, 1, 2] S_
  h_S_ : 0 < S_.numel

variable [Facts]

def fn {F : FTy → Type} [FloatOps F] (main_arg0 : FVec F S1x2000000x3 .f32) (main_arg1 : FVec F S1x2000000x3 .f32) (main_arg2 : FVec F S1x2000000x3 .f32) : IVec S_ 1 :=
  let main_v0 : FVec F S1x2000000x3 .f32 := Host.absf main_arg0
  let main_cst : FVec F S_ .f32 := constant S_ .f32 0x7F800000#32
  let main_v1 : FVec F S1x2000000x3 .f32 := broadcastInDim S1x2000000x3 ![] bcast_S_S1x2000000x3 main_cst
  let main_v2 : IVec S1x2000000x3 1 := cmpf .olt main_v0 main_v1
  let main_c : IVec S_ 1 := constantI S_ 1 1#1
  let main_v3 : IVec S_ 1 := (fun x v => Host.reduce IntOp.andi x v reducesTo_S1x2000000x3_S_d0_1_2 h_S_) main_v2 main_c
  let main_v4 : FVec F S1x2000000x3 .f32 := Host.absf main_arg1
  let main_cst_0 : FVec F S_ .f32 := constant S_ .f32 0x7F800000#32
  let main_v5 : FVec F S1x2000000x3 .f32 := broadcastInDim S1x2000000x3 ![] bcast_S_S1x2000000x3 main_cst_0
  let main_v6 : IVec S1x2000000x3 1 := cmpf .olt main_v4 main_v5
  let main_c_1 : IVec S_ 1 := constantI S_ 1 1#1
  let main_v7 : IVec S_ 1 := (fun x v => Host.reduce IntOp.andi x v reducesTo_S1x2000000x3_S_d0_1_2 h_S_) main_v6 main_c_1
  let main_v8 : IVec S_ 1 := andi main_v3 main_v7
  let main_v9 : FVec F S1x2000000x3 .f32 := Host.absf main_arg2
  let main_cst_2 : FVec F S_ .f32 := constant S_ .f32 0x7F800000#32
  let main_v10 : FVec F S1x2000000x3 .f32 := broadcastInDim S1x2000000x3 ![] bcast_S_S1x2000000x3 main_cst_2
  let main_v11 : IVec S1x2000000x3 1 := cmpf .olt main_v9 main_v10
  let main_c_3 : IVec S_ 1 := constantI S_ 1 1#1
  let main_v12 : IVec S_ 1 := (fun x v => Host.reduce IntOp.andi x v reducesTo_S1x2000000x3_S_d0_1_2 h_S_) main_v11 main_c_3
  let main_v13 : IVec S_ 1 := andi main_v8 main_v12
  main_v13
-- ==== Kernel.lean ====
abbrev S1x2000000x3 : Shape := ⟨3, ![1, 2000000, 3]⟩
abbrev S2000000x3 : Shape := ⟨2, ![2000000, 3]⟩
abbrev S2000000x1 : Shape := ⟨2, ![2000000, 1]⟩
abbrev S2000000 : Shape := ⟨1, ![2000000]⟩
abbrev S_ : Shape := ⟨0, ![]⟩
abbrev S2031616 : Shape := ⟨1, ![2031616]⟩
abbrev S15872x128 : Shape := ⟨2, ![15872, 128]⟩
abbrev S512x128 : Shape := ⟨2, ![512, 128]⟩
abbrev S16252928 : Shape := ⟨1, ![16252928]⟩
abbrev S32505856 : Shape := ⟨1, ![32505856]⟩
abbrev S4194304 : Shape := ⟨1, ![4194304]⟩
abbrev S32505856x1 : Shape := ⟨2, ![32505856, 1]⟩
abbrev S2097152 : Shape := ⟨1, ![2097152]⟩
abbrev S16384x128 : Shape := ⟨2, ![16384, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩

abbrev nBuf : Space → Nat
  | .hbm => 772
  | .vmem => 48
  | .smem => 0
  | _ => 0

abbrev hbmTy0_0 (i : Nat) : BufTy := match i % 128 with
  | 0 => ⟨S1x2000000x3, .f32⟩
  | 1 => ⟨S1x2000000x3, .f32⟩
  | 2 => ⟨S1x2000000x3, .f32⟩
  | 3 => ⟨S2000000x3, .f32⟩
  | 4 => ⟨S2000000x3, .f32⟩
  | 5 => ⟨S2000000x3, .f32⟩
  | 6 => ⟨S2000000x1, .f32⟩
  | 7 => ⟨S2000000, .f32⟩
  | 8 => ⟨S_, .f32⟩
  | 9 => ⟨S_, .f32⟩
  | 10 => ⟨S2031616, .f32⟩
  | 11 => ⟨S15872x128, .f32⟩
  | 12 => ⟨S2000000x1, .f32⟩
  | 13 => ⟨S2000000, .f32⟩
  | 14 => ⟨S_, .f32⟩
  | 15 => ⟨S_, .f32⟩
  | 16 => ⟨S2031616, .f32⟩
  | 17 => ⟨S15872x128, .f32⟩
  | 18 => ⟨S2000000x1, .f32⟩
  | 19 => ⟨S2000000, .f32⟩
  | 20 => ⟨S_, .f32⟩
  | 21 => ⟨S_, .f32⟩
  | 22 => ⟨S2031616, .f32⟩
  | 23 => ⟨S15872x128, .f32⟩
  | 24 => ⟨S2000000x1, .f32⟩
  | 25 => ⟨S2000000, .f32⟩
  | 26 => ⟨S_, .f32⟩
  | 27 => ⟨S_, .f32⟩
  | 28 => ⟨S2031616, .f32⟩
  | 29 => ⟨S15872x128, .f32⟩
  | 30 => ⟨S2000000x1, .f32⟩
  | 31 => ⟨S2000000, .f32⟩
  | 32 => ⟨S_, .f32⟩
  | 33 => ⟨S_, .f32⟩
  | 34 => ⟨S2031616, .f32⟩
  | 35 => ⟨S15872x128, .f32⟩
  | 36 => ⟨S2000000x1, .f32⟩
  | 37 => ⟨S2000000, .f32⟩
  | 38 => ⟨S_, .f32⟩
  | 39 => ⟨S_, .f32⟩
  | 40 => ⟨S2031616, .f32⟩
  | 41 => ⟨S15872x128, .f32⟩
  | 42 => ⟨S2000000x1, .f32⟩
  | 43 => ⟨S2000000, .f32⟩
  | 44 => ⟨S_, .f32⟩
  | 45 => ⟨S_, .f32⟩
  | 46 => ⟨S2031616, .f32⟩
  | 47 => ⟨S15872x128, .f32⟩
  | 48 => ⟨S2000000x1, .f32⟩
  | 49 => ⟨S2000000, .f32⟩
  | 50 => ⟨S_, .f32⟩
  | 51 => ⟨S_, .f32⟩
  | 52 => ⟨S2031616, .f32⟩
  | 53 => ⟨S15872x128, .f32⟩
  | 54 => ⟨S2000000x1, .f32⟩
  | 55 => ⟨S2000000, .f32⟩
  | 56 => ⟨S_, .f32⟩
  | 57 => ⟨S_, .f32⟩
  | 58 => ⟨S2031616, .f32⟩
  | 59 => ⟨S15872x128, .f32⟩
  | 60 => ⟨S15872x128, .i32⟩
  | 61 => ⟨S15872x128, .i32⟩
  | 62 => ⟨S15872x128, .i32⟩
  | 63 => ⟨S15872x128, .f32⟩
  | 64 => ⟨S15872x128, .f32⟩
  | 65 => ⟨S15872x128, .f32⟩
  | 66 => ⟨S15872x128, .i32⟩
  | 67 => ⟨S15872x128, .i32⟩
  | 68 => ⟨S15872x128, .i32⟩
  | 69 => ⟨S15872x128, .f32⟩
  | 70 => ⟨S15872x128, .f32⟩
  | 71 => ⟨S15872x128, .f32⟩
  | 72 => ⟨S_, .f32⟩
  | 73 => ⟨S15872x128, .f32⟩
  | 74 => ⟨S15872x128, .f32⟩
  | 75 => ⟨S_, .i32⟩
  | 76 => ⟨S15872x128, .i32⟩
  | 77 => ⟨S15872x128, .i32⟩
  | 78 => ⟨S_, .i32⟩
  | 79 => ⟨S15872x128, .i32⟩
  | 80 => ⟨S15872x128, .i1⟩
  | 81 => ⟨S_, .i32⟩
  | 82 => ⟨S15872x128, .i32⟩
  | 83 => ⟨S15872x128, .i1⟩
  | 84 => ⟨S15872x128, .i1⟩
  | 85 => ⟨S_, .f32⟩
  | 86 => ⟨S15872x128, .f32⟩
  | 87 => ⟨S15872x128, .f32⟩
  | 88 => ⟨S_, .i32⟩
  | 89 => ⟨S15872x128, .i32⟩
  | 90 => ⟨S15872x128, .i32⟩
  | 91 => ⟨S_, .i32⟩
  | 92 => ⟨S15872x128, .i32⟩
  | 93 => ⟨S15872x128, .i1⟩
  | 94 => ⟨S_, .i32⟩
  | 95 => ⟨S15872x128, .i32⟩
  | 96 => ⟨S15872x128, .i1⟩
  | 97 => ⟨S15872x128, .i1⟩
  | 98 => ⟨S_, .f32⟩
  | 99 => ⟨S15872x128, .f32⟩
  | 100 => ⟨S15872x128, .f32⟩
  | 101 => ⟨S_, .i32⟩
  | 102 => ⟨S15872x128, .i32⟩
  | 103 => ⟨S15872x128, .i32⟩
  | 104 => ⟨S_, .i32⟩
  | 105 => ⟨S15872x128, .i32⟩
  | 106 => ⟨S15872x128, .i1⟩
  | 107 => ⟨S_, .i32⟩
  | 108 => ⟨S15872x128, .i32⟩
  | 109 => ⟨S15872x128, .i1⟩
  | 110 => ⟨S15872x128, .i1⟩
  | 111 => ⟨S15872x128, .i1⟩
  | 112 => ⟨S15872x128, .i1⟩
  | 113 => ⟨S_, .i32⟩
  | 114 => ⟨S15872x128, .i32⟩
  | 115 => ⟨S15872x128, .i32⟩
  | 116 => ⟨S15872x128, .i32⟩
  | 117 => ⟨S_, .i32⟩
  | 118 => ⟨S15872x128, .i32⟩
  | 119 => ⟨S15872x128, .i32⟩
  | 120 => ⟨S15872x128, .i32⟩
  | 121 => ⟨S_, .i32⟩
  | 122 => ⟨S_, .i32⟩
  | 123 => ⟨S15872x128, .i32⟩
  | 124 => ⟨S15872x128, .i32⟩
  | 125 => ⟨S15872x128, .f32⟩
  | 126 => ⟨S15872x128, .f32⟩
  | 127 => ⟨S_, .f32⟩
  | _ => ⟨S1x2000000x3, .f32⟩

abbrev hbmTy0_1 (i : Nat) : BufTy := match i % 128 with
  | 0 => ⟨S_, .f32⟩
  | 1 => ⟨S15872x128, .f32⟩
  | 2 => ⟨S15872x128, .f32⟩
  | 3 => ⟨S2031616, .i32⟩
  | 4 => ⟨S2031616, .f32⟩
  | 5 => ⟨S_, .i32⟩
  | 6 => ⟨S15872x128, .i32⟩
  | 7 => ⟨S15872x128, .i32⟩
  | 8 => ⟨S_, .i32⟩
  | 9 => ⟨S15872x128, .i32⟩
  | 10 => ⟨S15872x128, .i1⟩
  | 11 => ⟨S_, .i32⟩
  | 12 => ⟨S15872x128, .i32⟩
  | 13 => ⟨S15872x128, .i1⟩
  | 14 => ⟨S15872x128, .i1⟩
  | 15 => ⟨S15872x128, .i1⟩
  | 16 => ⟨S15872x128, .i1⟩
  | 17 => ⟨S_, .i32⟩
  | 18 => ⟨S15872x128, .i32⟩
  | 19 => ⟨S15872x128, .i32⟩
  | 20 => ⟨S15872x128, .i32⟩
  | 21 => ⟨S_, .i32⟩
  | 22 => ⟨S15872x128, .i32⟩
  | 23 => ⟨S15872x128, .i32⟩
  | 24 => ⟨S15872x128, .i32⟩
  | 25 => ⟨S_, .i32⟩
  | 26 => ⟨S_, .i32⟩
  | 27 => ⟨S15872x128, .i32⟩
  | 28 => ⟨S15872x128, .i32⟩
  | 29 => ⟨S15872x128, .f32⟩
  | 30 => ⟨S15872x128, .f32⟩
  | 31 => ⟨S_, .f32⟩
  | 32 => ⟨S_, .f32⟩
  | 33 => ⟨S15872x128, .f32⟩
  | 34 => ⟨S15872x128, .f32⟩
  | 35 => ⟨S2031616, .i32⟩
  | 36 => ⟨S2031616, .f32⟩
  | 37 => ⟨S_, .i32⟩
  | 38 => ⟨S15872x128, .i32⟩
  | 39 => ⟨S15872x128, .i32⟩
  | 40 => ⟨S_, .i32⟩
  | 41 => ⟨S15872x128, .i32⟩
  | 42 => ⟨S15872x128, .i1⟩
  | 43 => ⟨S_, .i32⟩
  | 44 => ⟨S15872x128, .i32⟩
  | 45 => ⟨S15872x128, .i1⟩
  | 46 => ⟨S15872x128, .i1⟩
  | 47 => ⟨S_, .f32⟩
  | 48 => ⟨S15872x128, .f32⟩
  | 49 => ⟨S15872x128, .f32⟩
  | 50 => ⟨S_, .i32⟩
  | 51 => ⟨S15872x128, .i32⟩
  | 52 => ⟨S15872x128, .i32⟩
  | 53 => ⟨S_, .i32⟩
  | 54 => ⟨S15872x128, .i32⟩
  | 55 => ⟨S15872x128, .i1⟩
  | 56 => ⟨S_, .i32⟩
  | 57 => ⟨S15872x128, .i32⟩
  | 58 => ⟨S15872x128, .i1⟩
  | 59 => ⟨S15872x128, .i1⟩
  | 60 => ⟨S15872x128, .i1⟩
  | 61 => ⟨S15872x128, .i1⟩
  | 62 => ⟨S_, .i32⟩
  | 63 => ⟨S15872x128, .i32⟩
  | 64 => ⟨S15872x128, .i32⟩
  | 65 => ⟨S15872x128, .i32⟩
  | 66 => ⟨S_, .i32⟩
  | 67 => ⟨S15872x128, .i32⟩
  | 68 => ⟨S15872x128, .i32⟩
  | 69 => ⟨S15872x128, .i32⟩
  | 70 => ⟨S_, .i32⟩
  | 71 => ⟨S_, .i32⟩
  | 72 => ⟨S15872x128, .i32⟩
  | 73 => ⟨S15872x128, .i32⟩
  | 74 => ⟨S15872x128, .f32⟩
  | 75 => ⟨S15872x128, .f32⟩
  | 76 => ⟨S_, .f32⟩
  | 77 => ⟨S_, .f32⟩
  | 78 => ⟨S15872x128, .f32⟩
  | 79 => ⟨S15872x128, .f32⟩
  | 80 => ⟨S2031616, .i32⟩
  | 81 => ⟨S2031616, .f32⟩
  | 82 => ⟨S_, .i32⟩
  | 83 => ⟨S15872x128, .i32⟩
  | 84 => ⟨S15872x128, .i32⟩
  | 85 => ⟨S_, .i32⟩
  | 86 => ⟨S15872x128, .i32⟩
  | 87 => ⟨S15872x128, .i1⟩
  | 88 => ⟨S_, .i32⟩
  | 89 => ⟨S15872x128, .i32⟩
  | 90 => ⟨S15872x128, .i1⟩
  | 91 => ⟨S15872x128, .i1⟩
  | 92 => ⟨S15872x128, .i1⟩
  | 93 => ⟨S15872x128, .i1⟩
  | 94 => ⟨S_, .i32⟩
  | 95 => ⟨S15872x128, .i32⟩
  | 96 => ⟨S15872x128, .i32⟩
  | 97 => ⟨S15872x128, .i32⟩
  | 98 => ⟨S_, .i32⟩
  | 99 => ⟨S15872x128, .i32⟩
  | 100 => ⟨S15872x128, .i32⟩
  | 101 => ⟨S15872x128, .i32⟩
  | 102 => ⟨S_, .i32⟩
  | 103 => ⟨S_, .i32⟩
  | 104 => ⟨S15872x128, .i32⟩
  | 105 => ⟨S15872x128, .i32⟩
  | 106 => ⟨S15872x128, .f32⟩
  | 107 => ⟨S15872x128, .f32⟩
  | 108 => ⟨S_, .f32⟩
  | 109 => ⟨S_, .f32⟩
  | 110 => ⟨S15872x128, .f32⟩
  | 111 => ⟨S15872x128, .f32⟩
  | 112 => ⟨S2031616, .i32⟩
  | 113 => ⟨S2031616, .f32⟩
  | 114 => ⟨S_, .i32⟩
  | 115 => ⟨S15872x128, .i32⟩
  | 116 => ⟨S15872x128, .i32⟩
  | 117 => ⟨S_, .i32⟩
  | 118 => ⟨S15872x128, .i32⟩
  | 119 => ⟨S15872x128, .i1⟩
  | 120 => ⟨S_, .i32⟩
  | 121 => ⟨S15872x128, .i32⟩
  | 122 => ⟨S15872x128, .i1⟩
  | 123 => ⟨S15872x128, .i1⟩
  | 124 => ⟨S_, .f32⟩
  | 125 => ⟨S15872x128, .f32⟩
  | 126 => ⟨S15872x128, .f32⟩
  | 127 => ⟨S_, .i32⟩
  | _ => ⟨S1x2000000x3, .f32⟩

abbrev hbmTy0_2 (i : Nat) : BufTy := match i % 128 with
  | 0 => ⟨S15872x128, .i32⟩
  | 1 => ⟨S15872x128, .i32⟩
  | 2 => ⟨S_, .i32⟩
  | 3 => ⟨S15872x128, .i32⟩
  | 4 => ⟨S15872x128, .i1⟩
  | 5 => ⟨S_, .i32⟩
  | 6 => ⟨S15872x128, .i32⟩
  | 7 => ⟨S15872x128, .i1⟩
  | 8 => ⟨S15872x128, .i1⟩
  | 9 => ⟨S_, .f32⟩
  | 10 => ⟨S15872x128, .f32⟩
  | 11 => ⟨S15872x128, .f32⟩
  | 12 => ⟨S_, .i32⟩
  | 13 => ⟨S15872x128, .i32⟩
  | 14 => ⟨S15872x128, .i32⟩
  | 15 => ⟨S_, .i32⟩
  | 16 => ⟨S15872x128, .i32⟩
  | 17 => ⟨S15872x128, .i1⟩
  | 18 => ⟨S_, .i32⟩
  | 19 => ⟨S15872x128, .i32⟩
  | 20 => ⟨S15872x128, .i1⟩
  | 21 => ⟨S15872x128, .i1⟩
  | 22 => ⟨S15872x128, .i1⟩
  | 23 => ⟨S15872x128, .i1⟩
  | 24 => ⟨S_, .i32⟩
  | 25 => ⟨S15872x128, .i32⟩
  | 26 => ⟨S15872x128, .i32⟩
  | 27 => ⟨S15872x128, .i32⟩
  | 28 => ⟨S_, .i32⟩
  | 29 => ⟨S15872x128, .i32⟩
  | 30 => ⟨S15872x128, .i32⟩
  | 31 => ⟨S15872x128, .i32⟩
  | 32 => ⟨S_, .i32⟩
  | 33 => ⟨S_, .i32⟩
  | 34 => ⟨S15872x128, .i32⟩
  | 35 => ⟨S15872x128, .i32⟩
  | 36 => ⟨S15872x128, .f32⟩
  | 37 => ⟨S15872x128, .f32⟩
  | 38 => ⟨S_, .f32⟩
  | 39 => ⟨S_, .f32⟩
  | 40 => ⟨S15872x128, .f32⟩
  | 41 => ⟨S15872x128, .f32⟩
  | 42 => ⟨S2031616, .i32⟩
  | 43 => ⟨S2031616, .f32⟩
  | 44 => ⟨S_, .i32⟩
  | 45 => ⟨S15872x128, .i32⟩
  | 46 => ⟨S15872x128, .i32⟩
  | 47 => ⟨S_, .i32⟩
  | 48 => ⟨S15872x128, .i32⟩
  | 49 => ⟨S15872x128, .i1⟩
  | 50 => ⟨S_, .i32⟩
  | 51 => ⟨S15872x128, .i32⟩
  | 52 => ⟨S15872x128, .i1⟩
  | 53 => ⟨S15872x128, .i1⟩
  | 54 => ⟨S15872x128, .i1⟩
  | 55 => ⟨S15872x128, .i1⟩
  | 56 => ⟨S_, .i32⟩
  | 57 => ⟨S15872x128, .i32⟩
  | 58 => ⟨S15872x128, .i32⟩
  | 59 => ⟨S15872x128, .i32⟩
  | 60 => ⟨S_, .i32⟩
  | 61 => ⟨S15872x128, .i32⟩
  | 62 => ⟨S15872x128, .i32⟩
  | 63 => ⟨S15872x128, .i32⟩
  | 64 => ⟨S_, .i32⟩
  | 65 => ⟨S_, .i32⟩
  | 66 => ⟨S15872x128, .i32⟩
  | 67 => ⟨S15872x128, .i32⟩
  | 68 => ⟨S15872x128, .f32⟩
  | 69 => ⟨S15872x128, .f32⟩
  | 70 => ⟨S_, .f32⟩
  | 71 => ⟨S_, .f32⟩
  | 72 => ⟨S15872x128, .f32⟩
  | 73 => ⟨S15872x128, .f32⟩
  | 74 => ⟨S2031616, .i32⟩
  | 75 => ⟨S2031616, .f32⟩
  | 76 => ⟨S_, .i32⟩
  | 77 => ⟨S15872x128, .i32⟩
  | 78 => ⟨S15872x128, .i32⟩
  | 79 => ⟨S_, .i32⟩
  | 80 => ⟨S15872x128, .i32⟩
  | 81 => ⟨S15872x128, .i1⟩
  | 82 => ⟨S_, .i32⟩
  | 83 => ⟨S15872x128, .i32⟩
  | 84 => ⟨S15872x128, .i1⟩
  | 85 => ⟨S15872x128, .i1⟩
  | 86 => ⟨S_, .f32⟩
  | 87 => ⟨S15872x128, .f32⟩
  | 88 => ⟨S15872x128, .f32⟩
  | 89 => ⟨S_, .i32⟩
  | 90 => ⟨S15872x128, .i32⟩
  | 91 => ⟨S15872x128, .i32⟩
  | 92 => ⟨S_, .i32⟩
  | 93 => ⟨S15872x128, .i32⟩
  | 94 => ⟨S15872x128, .i1⟩
  | 95 => ⟨S_, .i32⟩
  | 96 => ⟨S15872x128, .i32⟩
  | 97 => ⟨S15872x128, .i1⟩
  | 98 => ⟨S15872x128, .i1⟩
  | 99 => ⟨S15872x128, .i1⟩
  | 100 => ⟨S15872x128, .i1⟩
  | 101 => ⟨S_, .i32⟩
  | 102 => ⟨S15872x128, .i32⟩
  | 103 => ⟨S15872x128, .i32⟩
  | 104 => ⟨S15872x128, .i32⟩
  | 105 => ⟨S_, .i32⟩
  | 106 => ⟨S15872x128, .i32⟩
  | 107 => ⟨S15872x128, .i32⟩
  | 108 => ⟨S15872x128, .i32⟩
  | 109 => ⟨S_, .i32⟩
  | 110 => ⟨S_, .i32⟩
  | 111 => ⟨S15872x128, .i32⟩
  | 112 => ⟨S15872x128, .i32⟩
  | 113 => ⟨S15872x128, .f32⟩
  | 114 => ⟨S15872x128, .f32⟩
  | 115 => ⟨S_, .f32⟩
  | 116 => ⟨S_, .f32⟩
  | 117 => ⟨S15872x128, .f32⟩
  | 118 => ⟨S15872x128, .f32⟩
  | 119 => ⟨S2031616, .i32⟩
  | 120 => ⟨S2031616, .f32⟩
  | 121 => ⟨S_, .i32⟩
  | 122 => ⟨S15872x128, .i32⟩
  | 123 => ⟨S15872x128, .i32⟩
  | 124 => ⟨S_, .i32⟩
  | 125 => ⟨S15872x128, .i32⟩
  | 126 => ⟨S15872x128, .i1⟩
  | 127 => ⟨S_, .i32⟩
  | _ => ⟨S1x2000000x3, .f32⟩

abbrev hbmTy0_3 (i : Nat) : BufTy := match i % 128 with
  | 0 => ⟨S15872x128, .i32⟩
  | 1 => ⟨S15872x128, .i1⟩
  | 2 => ⟨S15872x128, .i1⟩
  | 3 => ⟨S15872x128, .i1⟩
  | 4 => ⟨S15872x128, .i1⟩
  | 5 => ⟨S_, .i32⟩
  | 6 => ⟨S15872x128, .i32⟩
  | 7 => ⟨S15872x128, .i32⟩
  | 8 => ⟨S15872x128, .i32⟩
  | 9 => ⟨S_, .i32⟩
  | 10 => ⟨S15872x128, .i32⟩
  | 11 => ⟨S15872x128, .i32⟩
  | 12 => ⟨S15872x128, .i32⟩
  | 13 => ⟨S_, .i32⟩
  | 14 => ⟨S_, .i32⟩
  | 15 => ⟨S15872x128, .i32⟩
  | 16 => ⟨S15872x128, .i32⟩
  | 17 => ⟨S15872x128, .f32⟩
  | 18 => ⟨S15872x128, .f32⟩
  | 19 => ⟨S_, .f32⟩
  | 20 => ⟨S_, .f32⟩
  | 21 => ⟨S15872x128, .f32⟩
  | 22 => ⟨S15872x128, .f32⟩
  | 23 => ⟨S2031616, .i32⟩
  | 24 => ⟨S2031616, .f32⟩
  | 25 => ⟨S16252928, .i32⟩
  | 26 => ⟨S16252928, .f32⟩
  | 27 => ⟨S_, .f32⟩
  | 28 => ⟨S15872x128, .f32⟩
  | 29 => ⟨S15872x128, .f32⟩
  | 30 => ⟨S_, .i32⟩
  | 31 => ⟨S15872x128, .i32⟩
  | 32 => ⟨S15872x128, .i32⟩
  | 33 => ⟨S_, .i32⟩
  | 34 => ⟨S15872x128, .i32⟩
  | 35 => ⟨S15872x128, .i1⟩
  | 36 => ⟨S_, .i32⟩
  | 37 => ⟨S15872x128, .i32⟩
  | 38 => ⟨S15872x128, .i1⟩
  | 39 => ⟨S15872x128, .i1⟩
  | 40 => ⟨S_, .f32⟩
  | 41 => ⟨S15872x128, .f32⟩
  | 42 => ⟨S15872x128, .f32⟩
  | 43 => ⟨S_, .i32⟩
  | 44 => ⟨S15872x128, .i32⟩
  | 45 => ⟨S15872x128, .i32⟩
  | 46 => ⟨S_, .i32⟩
  | 47 => ⟨S15872x128, .i32⟩
  | 48 => ⟨S15872x128, .i1⟩
  | 49 => ⟨S_, .i32⟩
  | 50 => ⟨S15872x128, .i32⟩
  | 51 => ⟨S15872x128, .i1⟩
  | 52 => ⟨S15872x128, .i1⟩
  | 53 => ⟨S_, .f32⟩
  | 54 => ⟨S15872x128, .f32⟩
  | 55 => ⟨S15872x128, .f32⟩
  | 56 => ⟨S_, .i32⟩
  | 57 => ⟨S15872x128, .i32⟩
  | 58 => ⟨S15872x128, .i32⟩
  | 59 => ⟨S_, .i32⟩
  | 60 => ⟨S15872x128, .i32⟩
  | 61 => ⟨S15872x128, .i1⟩
  | 62 => ⟨S_, .i32⟩
  | 63 => ⟨S15872x128, .i32⟩
  | 64 => ⟨S15872x128, .i1⟩
  | 65 => ⟨S15872x128, .i1⟩
  | 66 => ⟨S15872x128, .i1⟩
  | 67 => ⟨S15872x128, .i1⟩
  | 68 => ⟨S_, .i32⟩
  | 69 => ⟨S15872x128, .i32⟩
  | 70 => ⟨S15872x128, .i32⟩
  | 71 => ⟨S15872x128, .i32⟩
  | 72 => ⟨S_, .i32⟩
  | 73 => ⟨S15872x128, .i32⟩
  | 74 => ⟨S15872x128, .i32⟩
  | 75 => ⟨S15872x128, .i32⟩
  | 76 => ⟨S_, .i32⟩
  | 77 => ⟨S_, .i32⟩
  | 78 => ⟨S15872x128, .i32⟩
  | 79 => ⟨S15872x128, .i32⟩
  | 80 => ⟨S15872x128, .f32⟩
  | 81 => ⟨S15872x128, .f32⟩
  | 82 => ⟨S_, .f32⟩
  | 83 => ⟨S_, .f32⟩
  | 84 => ⟨S15872x128, .f32⟩
  | 85 => ⟨S15872x128, .f32⟩
  | 86 => ⟨S2031616, .i32⟩
  | 87 => ⟨S2031616, .f32⟩
  | 88 => ⟨S_, .i32⟩
  | 89 => ⟨S15872x128, .i32⟩
  | 90 => ⟨S15872x128, .i32⟩
  | 91 => ⟨S_, .i32⟩
  | 92 => ⟨S15872x128, .i32⟩
  | 93 => ⟨S15872x128, .i1⟩
  | 94 => ⟨S_, .i32⟩
  | 95 => ⟨S15872x128, .i32⟩
  | 96 => ⟨S15872x128, .i1⟩
  | 97 => ⟨S15872x128, .i1⟩
  | 98 => ⟨S15872x128, .i1⟩
  | 99 => ⟨S15872x128, .i1⟩
  | 100 => ⟨S_, .i32⟩
  | 101 => ⟨S15872x128, .i32⟩
  | 102 => ⟨S15872x128, .i32⟩
  | 103 => ⟨S15872x128, .i32⟩
  | 104 => ⟨S_, .i32⟩
  | 105 => ⟨S15872x128, .i32⟩
  | 106 => ⟨S15872x128, .i32⟩
  | 107 => ⟨S15872x128, .i32⟩
  | 108 => ⟨S_, .i32⟩
  | 109 => ⟨S_, .i32⟩
  | 110 => ⟨S15872x128, .i32⟩
  | 111 => ⟨S15872x128, .i32⟩
  | 112 => ⟨S15872x128, .f32⟩
  | 113 => ⟨S15872x128, .f32⟩
  | 114 => ⟨S_, .f32⟩
  | 115 => ⟨S_, .f32⟩
  | 116 => ⟨S15872x128, .f32⟩
  | 117 => ⟨S15872x128, .f32⟩
  | 118 => ⟨S2031616, .i32⟩
  | 119 => ⟨S2031616, .f32⟩
  | 120 => ⟨S_, .i32⟩
  | 121 => ⟨S15872x128, .i32⟩
  | 122 => ⟨S15872x128, .i32⟩
  | 123 => ⟨S_, .i32⟩
  | 124 => ⟨S15872x128, .i32⟩
  | 125 => ⟨S15872x128, .i1⟩
  | 126 => ⟨S_, .i32⟩
  | 127 => ⟨S15872x128, .i32⟩
  | _ => ⟨S1x2000000x3, .f32⟩

abbrev hbmTy0_4 (i : Nat) : BufTy := match i % 128 with
  | 0 => ⟨S15872x128, .i1⟩
  | 1 => ⟨S15872x128, .i1⟩
  | 2 => ⟨S_, .f32⟩
  | 3 => ⟨S15872x128, .f32⟩
  | 4 => ⟨S15872x128, .f32⟩
  | 5 => ⟨S_, .i32⟩
  | 6 => ⟨S15872x128, .i32⟩
  | 7 => ⟨S15872x128, .i32⟩
  | 8 => ⟨S_, .i32⟩
  | 9 => ⟨S15872x128, .i32⟩
  | 10 => ⟨S15872x128, .i1⟩
  | 11 => ⟨S_, .i32⟩
  | 12 => ⟨S15872x128, .i32⟩
  | 13 => ⟨S15872x128, .i1⟩
  | 14 => ⟨S15872x128, .i1⟩
  | 15 => ⟨S15872x128, .i1⟩
  | 16 => ⟨S15872x128, .i1⟩
  | 17 => ⟨S_, .i32⟩
  | 18 => ⟨S15872x128, .i32⟩
  | 19 => ⟨S15872x128, .i32⟩
  | 20 => ⟨S15872x128, .i32⟩
  | 21 => ⟨S_, .i32⟩
  | 22 => ⟨S15872x128, .i32⟩
  | 23 => ⟨S15872x128, .i32⟩
  | 24 => ⟨S15872x128, .i32⟩
  | 25 => ⟨S_, .i32⟩
  | 26 => ⟨S_, .i32⟩
  | 27 => ⟨S15872x128, .i32⟩
  | 28 => ⟨S15872x128, .i32⟩
  | 29 => ⟨S15872x128, .f32⟩
  | 30 => ⟨S15872x128, .f32⟩
  | 31 => ⟨S_, .f32⟩
  | 32 => ⟨S_, .f32⟩
  | 33 => ⟨S15872x128, .f32⟩
  | 34 => ⟨S15872x128, .f32⟩
  | 35 => ⟨S2031616, .i32⟩
  | 36 => ⟨S2031616, .f32⟩
  | 37 => ⟨S_, .i32⟩
  | 38 => ⟨S15872x128, .i32⟩
  | 39 => ⟨S15872x128, .i32⟩
  | 40 => ⟨S_, .i32⟩
  | 41 => ⟨S15872x128, .i32⟩
  | 42 => ⟨S15872x128, .i1⟩
  | 43 => ⟨S_, .i32⟩
  | 44 => ⟨S15872x128, .i32⟩
  | 45 => ⟨S15872x128, .i1⟩
  | 46 => ⟨S15872x128, .i1⟩
  | 47 => ⟨S15872x128, .i1⟩
  | 48 => ⟨S15872x128, .i1⟩
  | 49 => ⟨S_, .i32⟩
  | 50 => ⟨S15872x128, .i32⟩
  | 51 => ⟨S15872x128, .i32⟩
  | 52 => ⟨S15872x128, .i32⟩
  | 53 => ⟨S_, .i32⟩
  | 54 => ⟨S15872x128, .i32⟩
  | 55 => ⟨S15872x128, .i32⟩
  | 56 => ⟨S15872x128, .i32⟩
  | 57 => ⟨S_, .i32⟩
  | 58 => ⟨S_, .i32⟩
  | 59 => ⟨S15872x128, .i32⟩
  | 60 => ⟨S15872x128, .i32⟩
  | 61 => ⟨S15872x128, .f32⟩
  | 62 => ⟨S15872x128, .f32⟩
  | 63 => ⟨S_, .f32⟩
  | 64 => ⟨S_, .f32⟩
  | 65 => ⟨S15872x128, .f32⟩
  | 66 => ⟨S15872x128, .f32⟩
  | 67 => ⟨S2031616, .i32⟩
  | 68 => ⟨S2031616, .f32⟩
  | 69 => ⟨S_, .i32⟩
  | 70 => ⟨S15872x128, .i32⟩
  | 71 => ⟨S15872x128, .i32⟩
  | 72 => ⟨S_, .i32⟩
  | 73 => ⟨S15872x128, .i32⟩
  | 74 => ⟨S15872x128, .i1⟩
  | 75 => ⟨S_, .i32⟩
  | 76 => ⟨S15872x128, .i32⟩
  | 77 => ⟨S15872x128, .i1⟩
  | 78 => ⟨S15872x128, .i1⟩
  | 79 => ⟨S_, .f32⟩
  | 80 => ⟨S15872x128, .f32⟩
  | 81 => ⟨S15872x128, .f32⟩
  | 82 => ⟨S_, .i32⟩
  | 83 => ⟨S15872x128, .i32⟩
  | 84 => ⟨S15872x128, .i32⟩
  | 85 => ⟨S_, .i32⟩
  | 86 => ⟨S15872x128, .i32⟩
  | 87 => ⟨S15872x128, .i1⟩
  | 88 => ⟨S_, .i32⟩
  | 89 => ⟨S15872x128, .i32⟩
  | 90 => ⟨S15872x128, .i1⟩
  | 91 => ⟨S15872x128, .i1⟩
  | 92 => ⟨S_, .f32⟩
  | 93 => ⟨S15872x128, .f32⟩
  | 94 => ⟨S15872x128, .f32⟩
  | 95 => ⟨S_, .i32⟩
  | 96 => ⟨S15872x128, .i32⟩
  | 97 => ⟨S15872x128, .i32⟩
  | 98 => ⟨S_, .i32⟩
  | 99 => ⟨S15872x128, .i32⟩
  | 100 => ⟨S15872x128, .i1⟩
  | 101 => ⟨S_, .i32⟩
  | 102 => ⟨S15872x128, .i32⟩
  | 103 => ⟨S15872x128, .i1⟩
  | 104 => ⟨S15872x128, .i1⟩
  | 105 => ⟨S15872x128, .i1⟩
  | 106 => ⟨S15872x128, .i1⟩
  | 107 => ⟨S_, .i32⟩
  | 108 => ⟨S15872x128, .i32⟩
  | 109 => ⟨S15872x128, .i32⟩
  | 110 => ⟨S15872x128, .i32⟩
  | 111 => ⟨S_, .i32⟩
  | 112 => ⟨S15872x128, .i32⟩
  | 113 => ⟨S15872x128, .i32⟩
  | 114 => ⟨S15872x128, .i32⟩
  | 115 => ⟨S_, .i32⟩
  | 116 => ⟨S_, .i32⟩
  | 117 => ⟨S15872x128, .i32⟩
  | 118 => ⟨S15872x128, .i32⟩
  | 119 => ⟨S15872x128, .f32⟩
  | 120 => ⟨S15872x128, .f32⟩
  | 121 => ⟨S_, .f32⟩
  | 122 => ⟨S_, .f32⟩
  | 123 => ⟨S15872x128, .f32⟩
  | 124 => ⟨S15872x128, .f32⟩
  | 125 => ⟨S2031616, .i32⟩
  | 126 => ⟨S2031616, .f32⟩
  | 127 => ⟨S_, .i32⟩
  | _ => ⟨S1x2000000x3, .f32⟩

abbrev hbmTy0_5 (i : Nat) : BufTy := match i % 128 with
  | 0 => ⟨S15872x128, .i32⟩
  | 1 => ⟨S15872x128, .i32⟩
  | 2 => ⟨S_, .i32⟩
  | 3 => ⟨S15872x128, .i32⟩
  | 4 => ⟨S15872x128, .i1⟩
  | 5 => ⟨S_, .i32⟩
  | 6 => ⟨S15872x128, .i32⟩
  | 7 => ⟨S15872x128, .i1⟩
  | 8 => ⟨S15872x128, .i1⟩
  | 9 => ⟨S15872x128, .i1⟩
  | 10 => ⟨S15872x128, .i1⟩
  | 11 => ⟨S_, .i32⟩
  | 12 => ⟨S15872x128, .i32⟩
  | 13 => ⟨S15872x128, .i32⟩
  | 14 => ⟨S15872x128, .i32⟩
  | 15 => ⟨S_, .i32⟩
  | 16 => ⟨S15872x128, .i32⟩
  | 17 => ⟨S15872x128, .i32⟩
  | 18 => ⟨S15872x128, .i32⟩
  | 19 => ⟨S_, .i32⟩
  | 20 => ⟨S_, .i32⟩
  | 21 => ⟨S15872x128, .i32⟩
  | 22 => ⟨S15872x128, .i32⟩
  | 23 => ⟨S15872x128, .f32⟩
  | 24 => ⟨S15872x128, .f32⟩
  | 25 => ⟨S_, .f32⟩
  | 26 => ⟨S_, .f32⟩
  | 27 => ⟨S15872x128, .f32⟩
  | 28 => ⟨S15872x128, .f32⟩
  | 29 => ⟨S2031616, .i32⟩
  | 30 => ⟨S2031616, .f32⟩
  | 31 => ⟨S_, .i32⟩
  | 32 => ⟨S15872x128, .i32⟩
  | 33 => ⟨S15872x128, .i32⟩
  | 34 => ⟨S_, .i32⟩
  | 35 => ⟨S15872x128, .i32⟩
  | 36 => ⟨S15872x128, .i1⟩
  | 37 => ⟨S_, .i32⟩
  | 38 => ⟨S15872x128, .i32⟩
  | 39 => ⟨S15872x128, .i1⟩
  | 40 => ⟨S15872x128, .i1⟩
  | 41 => ⟨S_, .f32⟩
  | 42 => ⟨S15872x128, .f32⟩
  | 43 => ⟨S15872x128, .f32⟩
  | 44 => ⟨S_, .i32⟩
  | 45 => ⟨S15872x128, .i32⟩
  | 46 => ⟨S15872x128, .i32⟩
  | 47 => ⟨S_, .i32⟩
  | 48 => ⟨S15872x128, .i32⟩
  | 49 => ⟨S15872x128, .i1⟩
  | 50 => ⟨S_, .i32⟩
  | 51 => ⟨S15872x128, .i32⟩
  | 52 => ⟨S15872x128, .i1⟩
  | 53 => ⟨S15872x128, .i1⟩
  | 54 => ⟨S15872x128, .i1⟩
  | 55 => ⟨S15872x128, .i1⟩
  | 56 => ⟨S_, .i32⟩
  | 57 => ⟨S15872x128, .i32⟩
  | 58 => ⟨S15872x128, .i32⟩
  | 59 => ⟨S15872x128, .i32⟩
  | 60 => ⟨S_, .i32⟩
  | 61 => ⟨S15872x128, .i32⟩
  | 62 => ⟨S15872x128, .i32⟩
  | 63 => ⟨S15872x128, .i32⟩
  | 64 => ⟨S_, .i32⟩
  | 65 => ⟨S_, .i32⟩
  | 66 => ⟨S15872x128, .i32⟩
  | 67 => ⟨S15872x128, .i32⟩
  | 68 => ⟨S15872x128, .f32⟩
  | 69 => ⟨S15872x128, .f32⟩
  | 70 => ⟨S_, .f32⟩
  | 71 => ⟨S_, .f32⟩
  | 72 => ⟨S15872x128, .f32⟩
  | 73 => ⟨S15872x128, .f32⟩
  | 74 => ⟨S2031616, .i32⟩
  | 75 => ⟨S2031616, .f32⟩
  | 76 => ⟨S_, .i32⟩
  | 77 => ⟨S15872x128, .i32⟩
  | 78 => ⟨S15872x128, .i32⟩
  | 79 => ⟨S_, .i32⟩
  | 80 => ⟨S15872x128, .i32⟩
  | 81 => ⟨S15872x128, .i1⟩
  | 82 => ⟨S_, .i32⟩
  | 83 => ⟨S15872x128, .i32⟩
  | 84 => ⟨S15872x128, .i1⟩
  | 85 => ⟨S15872x128, .i1⟩
  | 86 => ⟨S15872x128, .i1⟩
  | 87 => ⟨S15872x128, .i1⟩
  | 88 => ⟨S_, .i32⟩
  | 89 => ⟨S15872x128, .i32⟩
  | 90 => ⟨S15872x128, .i32⟩
  | 91 => ⟨S15872x128, .i32⟩
  | 92 => ⟨S_, .i32⟩
  | 93 => ⟨S15872x128, .i32⟩
  | 94 => ⟨S15872x128, .i32⟩
  | 95 => ⟨S15872x128, .i32⟩
  | 96 => ⟨S_, .i32⟩
  | 97 => ⟨S_, .i32⟩
  | 98 => ⟨S15872x128, .i32⟩
  | 99 => ⟨S15872x128, .i32⟩
  | 100 => ⟨S15872x128, .f32⟩
  | 101 => ⟨S15872x128, .f32⟩
  | 102 => ⟨S_, .f32⟩
  | 103 => ⟨S_, .f32⟩
  | 104 => ⟨S15872x128, .f32⟩
  | 105 => ⟨S15872x128, .f32⟩
  | 106 => ⟨S2031616, .i32⟩
  | 107 => ⟨S2031616, .f32⟩
  | 108 => ⟨S16252928, .i32⟩
  | 109 => ⟨S16252928, .f32⟩
  | 110 => ⟨S_, .i32⟩
  | 111 => ⟨S16252928, .i32⟩
  | 112 => ⟨S16252928, .i32⟩
  | 113 => ⟨S32505856, .i32⟩
  | 114 => ⟨S32505856, .f32⟩
  | 115 => ⟨S_, .f32⟩
  | 116 => ⟨S4194304, .f32⟩
  | 117 => ⟨S_, .i32⟩
  | 118 => ⟨S32505856, .i32⟩
  | 119 => ⟨S32505856, .i1⟩
  | 120 => ⟨S_, .i32⟩
  | 121 => ⟨S32505856, .i32⟩
  | 122 => ⟨S32505856, .i32⟩
  | 123 => ⟨S32505856, .i32⟩
  | 124 => ⟨S32505856x1, .i32⟩
  | 125 => ⟨S4194304, .f32⟩
  | 126 => ⟨S2097152, .f32⟩
  | 127 => ⟨S2097152, .f32⟩
  | _ => ⟨S1x2000000x3, .f32⟩

abbrev hbmTy0_6 (i : Nat) : BufTy := match i % 128 with
  | 0 => ⟨S16384x128, .f32⟩
  | 1 => ⟨S16384x128, .f32⟩
  | 2 => ⟨S1x1, .f32⟩
  | 3 => ⟨S_, .f32⟩
  | _ => ⟨S1x2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x2000000x3, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .i32⟩
  | .local _ .vmem, ⟨19, _⟩ => ⟨S512x128, .i32⟩
  | .local _ .vmem, ⟨20, _⟩ => ⟨S512x128, .i32⟩
  | .local _ .vmem, ⟨21, _⟩ => ⟨S512x128, .i32⟩
  | .local _ .vmem, ⟨22, _⟩ => ⟨S512x128, .i32⟩
  | .local _ .vmem, ⟨23, _⟩ => ⟨S512x128, .i32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .i32⟩
  | .local _ .vmem, ⟨31, _⟩ => ⟨S512x128, .i32⟩
  | .local _ .vmem, ⟨32, _⟩ => ⟨S512x128, .i32⟩
  | .local _ .vmem, ⟨33, _⟩ => ⟨S512x128, .i32⟩
  | .local _ .vmem, ⟨34, _⟩ => ⟨S512x128, .i32⟩
  | .local _ .vmem, ⟨35, _⟩ => ⟨S512x128, .i32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S4096x128, .f32⟩
  | .local _ .vmem, ⟨43, _⟩ => ⟨S4096x128, .f32⟩
  | .local _ .vmem, ⟨44, _⟩ => ⟨S4096x128, .f32⟩
  | .local _ .vmem, ⟨45, _⟩ => ⟨S4096x128, .f32⟩
  | .local _ .vmem, ⟨46, _⟩ => ⟨S1x1, .f32⟩
  | .local _ .vmem, ⟨47, _⟩ => ⟨S1x1, .f32⟩
  | _, _ => ⟨S1x2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call3_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call4_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_call5_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_call6_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_call7_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_call8_v0 : Ref sig .tc := ⟨.hbm, 57, rfl⟩
abbrev main_v37 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v39_2 : Ref sig .tc := ⟨.hbm, 62, rfl⟩
abbrev main_v39_3 : Ref sig .tc := ⟨.hbm, 63, rfl⟩
abbrev main_v39_4 : Ref sig .tc := ⟨.hbm, 64, rfl⟩
abbrev main_v39_5 : Ref sig .tc := ⟨.hbm, 65, rfl⟩
abbrev main_v39_6 : Ref sig .tc := ⟨.hbm, 66, rfl⟩
abbrev main_v39_7 : Ref sig .tc := ⟨.hbm, 67, rfl⟩
abbrev main_v39_8 : Ref sig .tc := ⟨.hbm, 68, rfl⟩
abbrev main_v39_9 : Ref sig .tc := ⟨.hbm, 69, rfl⟩
abbrev main_v39_10 : Ref sig .tc := ⟨.hbm, 70, rfl⟩
abbrev main_v39_11 : Ref sig .tc := ⟨.hbm, 71, rfl⟩
abbrev main_cst_8 : Ref sig .tc := ⟨.hbm, 72, rfl⟩
abbrev main_v40 : Ref sig .tc := ⟨.hbm, 73, rfl⟩
abbrev main_v41 : Ref sig .tc := ⟨.hbm, 74, rfl⟩
abbrev main_c : Ref sig .tc := ⟨.hbm, 75, rfl⟩
abbrev main_v42 : Ref sig .tc := ⟨.hbm, 76, rfl⟩
abbrev main_v43 : Ref sig .tc := ⟨.hbm, 77, rfl⟩
abbrev main_c_9 : Ref sig .tc := ⟨.hbm, 78, rfl⟩
abbrev main_v44 : Ref sig .tc := ⟨.hbm, 79, rfl⟩
abbrev main_v45 : Ref sig .tc := ⟨.hbm, 80, rfl⟩
abbrev main_c_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_v50 : Ref sig .tc := ⟨.hbm, 87, rfl⟩
abbrev main_c_12 : Ref sig .tc := ⟨.hbm, 88, rfl⟩
abbrev main_v51 : Ref sig .tc := ⟨.hbm, 89, rfl⟩
abbrev main_v52 : Ref sig .tc := ⟨.hbm, 90, rfl⟩
abbrev main_c_13 : Ref sig .tc := ⟨.hbm, 91, rfl⟩
abbrev main_v53 : Ref sig .tc := ⟨.hbm, 92, rfl⟩
abbrev main_v54 : Ref sig .tc := ⟨.hbm, 93, rfl⟩
abbrev main_c_14 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_15 : Ref sig .tc := ⟨.hbm, 98, rfl⟩
abbrev main_v58 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_c_17 : Ref sig .tc := ⟨.hbm, 104, rfl⟩
abbrev main_v62 : Ref sig .tc := ⟨.hbm, 105, rfl⟩
abbrev main_v63 : Ref sig .tc := ⟨.hbm, 106, rfl⟩
abbrev main_c_18 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_19 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_20 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_21 : Ref sig .tc := ⟨.hbm, 121, rfl⟩
abbrev main_call9_v0 : Ref sig .tc := ⟨.hbm, 122, rfl⟩
abbrev main_call9_v1 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_22 : Ref sig .tc := ⟨.hbm, 127, rfl⟩
abbrev main_call10_v0 : Ref sig .tc := ⟨.hbm, 128, rfl⟩
abbrev main_call10_v1 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_23 : Ref sig .tc := ⟨.hbm, 133, rfl⟩
abbrev main_v81 : Ref sig .tc := ⟨.hbm, 134, rfl⟩
abbrev main_v82 : Ref sig .tc := ⟨.hbm, 135, rfl⟩
abbrev main_c_24 : Ref sig .tc := ⟨.hbm, 136, rfl⟩
abbrev main_v83 : Ref sig .tc := ⟨.hbm, 137, rfl⟩
abbrev main_v84 : Ref sig .tc := ⟨.hbm, 138, rfl⟩
abbrev main_c_25 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_26 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_27 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_28 : Ref sig .tc := ⟨.hbm, 153, rfl⟩
abbrev main_call11_v0 : Ref sig .tc := ⟨.hbm, 154, rfl⟩
abbrev main_call11_v1 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_29 : Ref sig .tc := ⟨.hbm, 159, rfl⟩
abbrev main_call12_v0 : Ref sig .tc := ⟨.hbm, 160, rfl⟩
abbrev main_call12_v1 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_c_30 : Ref sig .tc := ⟨.hbm, 165, rfl⟩
abbrev main_v102 : Ref sig .tc := ⟨.hbm, 166, rfl⟩
abbrev main_v103 : Ref sig .tc := ⟨.hbm, 167, rfl⟩
abbrev main_c_31 : Ref sig .tc := ⟨.hbm, 168, rfl⟩
abbrev main_v104 : Ref sig .tc := ⟨.hbm, 169, rfl⟩
abbrev main_v105 : Ref sig .tc := ⟨.hbm, 170, rfl⟩
abbrev main_c_32 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_33 : Ref sig .tc := ⟨.hbm, 175, rfl⟩
abbrev main_v109 : Ref sig .tc := ⟨.hbm, 176, rfl⟩
abbrev main_v110 : Ref sig .tc := ⟨.hbm, 177, rfl⟩
abbrev main_c_34 : Ref sig .tc := ⟨.hbm, 178, rfl⟩
abbrev main_v111 : Ref sig .tc := ⟨.hbm, 179, rfl⟩
abbrev main_v112 : Ref sig .tc := ⟨.hbm, 180, rfl⟩
abbrev main_c_35 : Ref sig .tc := ⟨.hbm, 181, rfl⟩
abbrev main_v113 : Ref sig .tc := ⟨.hbm, 182, rfl⟩
abbrev main_v114 : Ref sig .tc := ⟨.hbm, 183, rfl⟩
abbrev main_c_36 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_c_37 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_c_38 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_c_39 : Ref sig .tc := ⟨.hbm, 198, rfl⟩
abbrev main_call13_v0 : Ref sig .tc := ⟨.hbm, 199, rfl⟩
abbrev main_call13_v1 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_40 : Ref sig .tc := ⟨.hbm, 204, rfl⟩
abbrev main_call14_v0 : Ref sig .tc := ⟨.hbm, 205, rfl⟩
abbrev main_call14_v1 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_c_41 : Ref sig .tc := ⟨.hbm, 210, rfl⟩
abbrev main_v132 : Ref sig .tc := ⟨.hbm, 211, rfl⟩
abbrev main_v133 : Ref sig .tc := ⟨.hbm, 212, rfl⟩
abbrev main_c_42 : Ref sig .tc := ⟨.hbm, 213, rfl⟩
abbrev main_v134 : Ref sig .tc := ⟨.hbm, 214, rfl⟩
abbrev main_v135 : Ref sig .tc := ⟨.hbm, 215, rfl⟩
abbrev main_c_43 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_c_44 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_c_45 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_c_46 : Ref sig .tc := ⟨.hbm, 230, rfl⟩
abbrev main_call15_v0 : Ref sig .tc := ⟨.hbm, 231, rfl⟩
abbrev main_call15_v1 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_cst_47 : Ref sig .tc := ⟨.hbm, 236, rfl⟩
abbrev main_call16_v0 : Ref sig .tc := ⟨.hbm, 237, rfl⟩
abbrev main_call16_v1 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_c_48 : Ref sig .tc := ⟨.hbm, 242, rfl⟩
abbrev main_v153 : Ref sig .tc := ⟨.hbm, 243, rfl⟩
abbrev main_v154 : Ref sig .tc := ⟨.hbm, 244, rfl⟩
abbrev main_c_49 : Ref sig .tc := ⟨.hbm, 245, rfl⟩
abbrev main_v155 : Ref sig .tc := ⟨.hbm, 246, rfl⟩
abbrev main_v156 : Ref sig .tc := ⟨.hbm, 247, rfl⟩
abbrev main_c_50 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_51 : Ref sig .tc := ⟨.hbm, 252, rfl⟩
abbrev main_v160 : Ref sig .tc := ⟨.hbm, 253, rfl⟩
abbrev main_v161 : Ref sig .tc := ⟨.hbm, 254, rfl⟩
abbrev main_c_52 : Ref sig .tc := ⟨.hbm, 255, rfl⟩
abbrev main_v162 : Ref sig .tc := ⟨.hbm, 256, rfl⟩
abbrev main_v163 : Ref sig .tc := ⟨.hbm, 257, rfl⟩
abbrev main_c_53 : Ref sig .tc := ⟨.hbm, 258, rfl⟩
abbrev main_v164 : Ref sig .tc := ⟨.hbm, 259, rfl⟩
abbrev main_v165 : Ref sig .tc := ⟨.hbm, 260, rfl⟩
abbrev main_c_54 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_cst_55 : Ref sig .tc := ⟨.hbm, 265, rfl⟩
abbrev main_v169 : Ref sig .tc := ⟨.hbm, 266, rfl⟩
abbrev main_v170 : Ref sig .tc := ⟨.hbm, 267, rfl⟩
abbrev main_c_56 : Ref sig .tc := ⟨.hbm, 268, rfl⟩
abbrev main_v171 : Ref sig .tc := ⟨.hbm, 269, rfl⟩
abbrev main_v172 : Ref sig .tc := ⟨.hbm, 270, rfl⟩
abbrev main_c_57 : Ref sig .tc := ⟨.hbm, 271, rfl⟩
abbrev main_v173 : Ref sig .tc := ⟨.hbm, 272, rfl⟩
abbrev main_v174 : Ref sig .tc := ⟨.hbm, 273, rfl⟩
abbrev main_c_58 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_c_59 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_c_60 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_c_61 : Ref sig .tc := ⟨.hbm, 288, rfl⟩
abbrev main_call17_v0 : Ref sig .tc := ⟨.hbm, 289, rfl⟩
abbrev main_call17_v1 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_cst_62 : Ref sig .tc := ⟨.hbm, 294, rfl⟩
abbrev main_call18_v0 : Ref sig .tc := ⟨.hbm, 295, rfl⟩
abbrev main_call18_v1 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_c_63 : Ref sig .tc := ⟨.hbm, 300, rfl⟩
abbrev main_v192 : Ref sig .tc := ⟨.hbm, 301, rfl⟩
abbrev main_v193 : Ref sig .tc := ⟨.hbm, 302, rfl⟩
abbrev main_c_64 : Ref sig .tc := ⟨.hbm, 303, rfl⟩
abbrev main_v194 : Ref sig .tc := ⟨.hbm, 304, rfl⟩
abbrev main_v195 : Ref sig .tc := ⟨.hbm, 305, rfl⟩
abbrev main_c_65 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_c_66 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_c_67 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_c_68 : Ref sig .tc := ⟨.hbm, 320, rfl⟩
abbrev main_call19_v0 : Ref sig .tc := ⟨.hbm, 321, rfl⟩
abbrev main_call19_v1 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_cst_69 : Ref sig .tc := ⟨.hbm, 326, rfl⟩
abbrev main_call20_v0 : Ref sig .tc := ⟨.hbm, 327, rfl⟩
abbrev main_call20_v1 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_c_70 : Ref sig .tc := ⟨.hbm, 332, rfl⟩
abbrev main_v213 : Ref sig .tc := ⟨.hbm, 333, rfl⟩
abbrev main_v214 : Ref sig .tc := ⟨.hbm, 334, rfl⟩
abbrev main_c_71 : Ref sig .tc := ⟨.hbm, 335, rfl⟩
abbrev main_v215 : Ref sig .tc := ⟨.hbm, 336, rfl⟩
abbrev main_v216 : Ref sig .tc := ⟨.hbm, 337, rfl⟩
abbrev main_c_72 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_cst_73 : Ref sig .tc := ⟨.hbm, 342, rfl⟩
abbrev main_v220 : Ref sig .tc := ⟨.hbm, 343, rfl⟩
abbrev main_v221 : Ref sig .tc := ⟨.hbm, 344, rfl⟩
abbrev main_c_74 : Ref sig .tc := ⟨.hbm, 345, rfl⟩
abbrev main_v222 : Ref sig .tc := ⟨.hbm, 346, rfl⟩
abbrev main_v223 : Ref sig .tc := ⟨.hbm, 347, rfl⟩
abbrev main_c_75 : Ref sig .tc := ⟨.hbm, 348, rfl⟩
abbrev main_v224 : Ref sig .tc := ⟨.hbm, 349, rfl⟩
abbrev main_v225 : Ref sig .tc := ⟨.hbm, 350, rfl⟩
abbrev main_c_76 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_c_77 : Ref sig .tc := ⟨.hbm, 357, rfl⟩
abbrev main_v231 : Ref sig .tc := ⟨.hbm, 358, rfl⟩
abbrev main_v232 : Ref sig .tc := ⟨.hbm, 359, rfl⟩
abbrev main_v233 : Ref sig .tc := ⟨.hbm, 360, rfl⟩
abbrev main_c_78 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_c_79 : Ref sig .tc := ⟨.hbm, 365, rfl⟩
abbrev main_call21_v0 : Ref sig .tc := ⟨.hbm, 366, rfl⟩
abbrev main_call21_v1 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_cst_80 : Ref sig .tc := ⟨.hbm, 371, rfl⟩
abbrev main_call22_v0 : Ref sig .tc := ⟨.hbm, 372, rfl⟩
abbrev main_call22_v1 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_c_81 : Ref sig .tc := ⟨.hbm, 377, rfl⟩
abbrev main_v243 : Ref sig .tc := ⟨.hbm, 378, rfl⟩
abbrev main_v244 : Ref sig .tc := ⟨.hbm, 379, rfl⟩
abbrev main_c_82 : Ref sig .tc := ⟨.hbm, 380, rfl⟩
abbrev main_v245 : Ref sig .tc := ⟨.hbm, 381, rfl⟩
abbrev main_v246 : Ref sig .tc := ⟨.hbm, 382, rfl⟩
abbrev main_c_83 : Ref sig .tc := ⟨.hbm, 383, rfl⟩
abbrev main_v247 : Ref sig .tc := ⟨.hbm, 384, rfl⟩
abbrev main_v248 : Ref sig .tc := ⟨.hbm, 385, rfl⟩
abbrev main_v249 : Ref sig .tc := ⟨.hbm, 386, rfl⟩
abbrev main_v250 : Ref sig .tc := ⟨.hbm, 387, rfl⟩
abbrev main_v251 : Ref sig .tc := ⟨.hbm, 388, rfl⟩
abbrev main_c_84 : Ref sig .tc := ⟨.hbm, 389, rfl⟩
abbrev main_v252 : Ref sig .tc := ⟨.hbm, 390, rfl⟩
abbrev main_v253 : Ref sig .tc := ⟨.hbm, 391, rfl⟩
abbrev main_v254 : Ref sig .tc := ⟨.hbm, 392, rfl⟩
abbrev main_c_85 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_c_86 : Ref sig .tc := ⟨.hbm, 397, rfl⟩
abbrev main_call23_v0 : Ref sig .tc := ⟨.hbm, 398, rfl⟩
abbrev main_call23_v1 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_cst_87 : Ref sig .tc := ⟨.hbm, 403, rfl⟩
abbrev main_call24_v0 : Ref sig .tc := ⟨.hbm, 404, rfl⟩
abbrev main_call24_v1 : Ref sig .tc := ⟨.hbm, 405, rfl⟩
abbrev main_v261 : Ref sig .tc := ⟨.hbm, 406, rfl⟩
abbrev main_v262 : Ref sig .tc := ⟨.hbm, 407, rfl⟩
abbrev main_v263 : Ref sig .tc := ⟨.hbm, 408, rfl⟩
abbrev main_v264 : Ref sig .tc := ⟨.hbm, 409, rfl⟩
abbrev main_v265 : Ref sig .tc := ⟨.hbm, 410, rfl⟩
abbrev main_cst_88 : Ref sig .tc := ⟨.hbm, 411, rfl⟩
abbrev main_v266 : Ref sig .tc := ⟨.hbm, 412, rfl⟩
abbrev main_v267 : Ref sig .tc := ⟨.hbm, 413, rfl⟩
abbrev main_c_89 : Ref sig .tc := ⟨.hbm, 414, rfl⟩
abbrev main_v268 : Ref sig .tc := ⟨.hbm, 415, rfl⟩
abbrev main_v269 : Ref sig .tc := ⟨.hbm, 416, rfl⟩
abbrev main_c_90 : Ref sig .tc := ⟨.hbm, 417, rfl⟩
abbrev main_v270 : Ref sig .tc := ⟨.hbm, 418, rfl⟩
abbrev main_v271 : Ref sig .tc := ⟨.hbm, 419, rfl⟩
abbrev main_c_91 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_cst_92 : Ref sig .tc := ⟨.hbm, 424, rfl⟩
abbrev main_v275 : Ref sig .tc := ⟨.hbm, 425, rfl⟩
abbrev main_v276 : Ref sig .tc := ⟨.hbm, 426, rfl⟩
abbrev main_c_93 : Ref sig .tc := ⟨.hbm, 427, rfl⟩
abbrev main_v277 : Ref sig .tc := ⟨.hbm, 428, rfl⟩
abbrev main_v278 : Ref sig .tc := ⟨.hbm, 429, rfl⟩
abbrev main_c_94 : Ref sig .tc := ⟨.hbm, 430, rfl⟩
abbrev main_v279 : Ref sig .tc := ⟨.hbm, 431, rfl⟩
abbrev main_v280 : Ref sig .tc := ⟨.hbm, 432, rfl⟩
abbrev main_c_95 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_cst_96 : Ref sig .tc := ⟨.hbm, 437, rfl⟩
abbrev main_v284 : Ref sig .tc := ⟨.hbm, 438, rfl⟩
abbrev main_v285 : Ref sig .tc := ⟨.hbm, 439, rfl⟩
abbrev main_c_97 : Ref sig .tc := ⟨.hbm, 440, rfl⟩
abbrev main_v286 : Ref sig .tc := ⟨.hbm, 441, rfl⟩
abbrev main_v287 : Ref sig .tc := ⟨.hbm, 442, rfl⟩
abbrev main_c_98 : Ref sig .tc := ⟨.hbm, 443, rfl⟩
abbrev main_v288 : Ref sig .tc := ⟨.hbm, 444, rfl⟩
abbrev main_v289 : Ref sig .tc := ⟨.hbm, 445, rfl⟩
abbrev main_c_99 : Ref sig .tc := ⟨.hbm, 446, rfl⟩
abbrev main_v290 : Ref sig .tc := ⟨.hbm, 447, rfl⟩
abbrev main_v291 : Ref sig .tc := ⟨.hbm, 448, rfl⟩
abbrev main_v292 : Ref sig .tc := ⟨.hbm, 449, rfl⟩
abbrev main_v293 : Ref sig .tc := ⟨.hbm, 450, rfl⟩
abbrev main_v294 : Ref sig .tc := ⟨.hbm, 451, rfl⟩
abbrev main_c_100 : Ref sig .tc := ⟨.hbm, 452, rfl⟩
abbrev main_v295 : Ref sig .tc := ⟨.hbm, 453, rfl⟩
abbrev main_v296 : Ref sig .tc := ⟨.hbm, 454, rfl⟩
abbrev main_v297 : Ref sig .tc := ⟨.hbm, 455, rfl⟩
abbrev main_c_101 : Ref sig .tc := ⟨.hbm, 456, rfl⟩
abbrev main_v298 : Ref sig .tc := ⟨.hbm, 457, rfl⟩
abbrev main_v299 : Ref sig .tc := ⟨.hbm, 458, rfl⟩
abbrev main_v300 : Ref sig .tc := ⟨.hbm, 459, rfl⟩
abbrev main_c_102 : Ref sig .tc := ⟨.hbm, 460, rfl⟩
abbrev main_call25_v0 : Ref sig .tc := ⟨.hbm, 461, rfl⟩
abbrev main_call25_v1 : Ref sig .tc := ⟨.hbm, 462, rfl⟩
abbrev main_v301 : Ref sig .tc := ⟨.hbm, 463, rfl⟩
abbrev main_v302 : Ref sig .tc := ⟨.hbm, 464, rfl⟩
abbrev main_v303 : Ref sig .tc := ⟨.hbm, 465, rfl⟩
abbrev main_cst_103 : Ref sig .tc := ⟨.hbm, 466, rfl⟩
abbrev main_call26_v0 : Ref sig .tc := ⟨.hbm, 467, rfl⟩
abbrev main_call26_v1 : Ref sig .tc := ⟨.hbm, 468, rfl⟩
abbrev main_v304 : Ref sig .tc := ⟨.hbm, 469, rfl⟩
abbrev main_v305 : Ref sig .tc := ⟨.hbm, 470, rfl⟩
abbrev main_v306 : Ref sig .tc := ⟨.hbm, 471, rfl⟩
abbrev main_c_104 : Ref sig .tc := ⟨.hbm, 472, rfl⟩
abbrev main_v307 : Ref sig .tc := ⟨.hbm, 473, rfl⟩
abbrev main_v308 : Ref sig .tc := ⟨.hbm, 474, rfl⟩
abbrev main_c_105 : Ref sig .tc := ⟨.hbm, 475, rfl⟩
abbrev main_v309 : Ref sig .tc := ⟨.hbm, 476, rfl⟩
abbrev main_v310 : Ref sig .tc := ⟨.hbm, 477, rfl⟩
abbrev main_c_106 : Ref sig .tc := ⟨.hbm, 478, rfl⟩
abbrev main_v311 : Ref sig .tc := ⟨.hbm, 479, rfl⟩
abbrev main_v312 : Ref sig .tc := ⟨.hbm, 480, rfl⟩
abbrev main_v313 : Ref sig .tc := ⟨.hbm, 481, rfl⟩
abbrev main_v314 : Ref sig .tc := ⟨.hbm, 482, rfl⟩
abbrev main_v315 : Ref sig .tc := ⟨.hbm, 483, rfl⟩
abbrev main_c_107 : Ref sig .tc := ⟨.hbm, 484, rfl⟩
abbrev main_v316 : Ref sig .tc := ⟨.hbm, 485, rfl⟩
abbrev main_v317 : Ref sig .tc := ⟨.hbm, 486, rfl⟩
abbrev main_v318 : Ref sig .tc := ⟨.hbm, 487, rfl⟩
abbrev main_c_108 : Ref sig .tc := ⟨.hbm, 488, rfl⟩
abbrev main_v319 : Ref sig .tc := ⟨.hbm, 489, rfl⟩
abbrev main_v320 : Ref sig .tc := ⟨.hbm, 490, rfl⟩
abbrev main_v321 : Ref sig .tc := ⟨.hbm, 491, rfl⟩
abbrev main_c_109 : Ref sig .tc := ⟨.hbm, 492, rfl⟩
abbrev main_call27_v0 : Ref sig .tc := ⟨.hbm, 493, rfl⟩
abbrev main_call27_v1 : Ref sig .tc := ⟨.hbm, 494, rfl⟩
abbrev main_v322 : Ref sig .tc := ⟨.hbm, 495, rfl⟩
abbrev main_v323 : Ref sig .tc := ⟨.hbm, 496, rfl⟩
abbrev main_v324 : Ref sig .tc := ⟨.hbm, 497, rfl⟩
abbrev main_cst_110 : Ref sig .tc := ⟨.hbm, 498, rfl⟩
abbrev main_call28_v0 : Ref sig .tc := ⟨.hbm, 499, rfl⟩
abbrev main_call28_v1 : Ref sig .tc := ⟨.hbm, 500, rfl⟩
abbrev main_v325 : Ref sig .tc := ⟨.hbm, 501, rfl⟩
abbrev main_v326 : Ref sig .tc := ⟨.hbm, 502, rfl⟩
abbrev main_v327 : Ref sig .tc := ⟨.hbm, 503, rfl⟩
abbrev main_c_111 : Ref sig .tc := ⟨.hbm, 504, rfl⟩
abbrev main_v328 : Ref sig .tc := ⟨.hbm, 505, rfl⟩
abbrev main_v329 : Ref sig .tc := ⟨.hbm, 506, rfl⟩
abbrev main_c_112 : Ref sig .tc := ⟨.hbm, 507, rfl⟩
abbrev main_v330 : Ref sig .tc := ⟨.hbm, 508, rfl⟩
abbrev main_v331 : Ref sig .tc := ⟨.hbm, 509, rfl⟩
abbrev main_c_113 : Ref sig .tc := ⟨.hbm, 510, rfl⟩
abbrev main_v332 : Ref sig .tc := ⟨.hbm, 511, rfl⟩
abbrev main_v333 : Ref sig .tc := ⟨.hbm, 512, rfl⟩
abbrev main_v334 : Ref sig .tc := ⟨.hbm, 513, rfl⟩
abbrev main_cst_114 : Ref sig .tc := ⟨.hbm, 514, rfl⟩
abbrev main_v335 : Ref sig .tc := ⟨.hbm, 515, rfl⟩
abbrev main_v336 : Ref sig .tc := ⟨.hbm, 516, rfl⟩
abbrev main_c_115 : Ref sig .tc := ⟨.hbm, 517, rfl⟩
abbrev main_v337 : Ref sig .tc := ⟨.hbm, 518, rfl⟩
abbrev main_v338 : Ref sig .tc := ⟨.hbm, 519, rfl⟩
abbrev main_c_116 : Ref sig .tc := ⟨.hbm, 520, rfl⟩
abbrev main_v339 : Ref sig .tc := ⟨.hbm, 521, rfl⟩
abbrev main_v340 : Ref sig .tc := ⟨.hbm, 522, rfl⟩
abbrev main_c_117 : Ref sig .tc := ⟨.hbm, 523, rfl⟩
abbrev main_v341 : Ref sig .tc := ⟨.hbm, 524, rfl⟩
abbrev main_v342 : Ref sig .tc := ⟨.hbm, 525, rfl⟩
abbrev main_v343 : Ref sig .tc := ⟨.hbm, 526, rfl⟩
abbrev main_v344 : Ref sig .tc := ⟨.hbm, 527, rfl⟩
abbrev main_v345 : Ref sig .tc := ⟨.hbm, 528, rfl⟩
abbrev main_c_118 : Ref sig .tc := ⟨.hbm, 529, rfl⟩
abbrev main_v346 : Ref sig .tc := ⟨.hbm, 530, rfl⟩
abbrev main_v347 : Ref sig .tc := ⟨.hbm, 531, rfl⟩
abbrev main_v348 : Ref sig .tc := ⟨.hbm, 532, rfl⟩
abbrev main_c_119 : Ref sig .tc := ⟨.hbm, 533, rfl⟩
abbrev main_v349 : Ref sig .tc := ⟨.hbm, 534, rfl⟩
abbrev main_v350 : Ref sig .tc := ⟨.hbm, 535, rfl⟩
abbrev main_v351 : Ref sig .tc := ⟨.hbm, 536, rfl⟩
abbrev main_c_120 : Ref sig .tc := ⟨.hbm, 537, rfl⟩
abbrev main_call29_v0 : Ref sig .tc := ⟨.hbm, 538, rfl⟩
abbrev main_call29_v1 : Ref sig .tc := ⟨.hbm, 539, rfl⟩
abbrev main_v352 : Ref sig .tc := ⟨.hbm, 540, rfl⟩
abbrev main_v353 : Ref sig .tc := ⟨.hbm, 541, rfl⟩
abbrev main_v354 : Ref sig .tc := ⟨.hbm, 542, rfl⟩
abbrev main_cst_121 : Ref sig .tc := ⟨.hbm, 543, rfl⟩
abbrev main_call30_v0 : Ref sig .tc := ⟨.hbm, 544, rfl⟩
abbrev main_call30_v1 : Ref sig .tc := ⟨.hbm, 545, rfl⟩
abbrev main_v355 : Ref sig .tc := ⟨.hbm, 546, rfl⟩
abbrev main_v356 : Ref sig .tc := ⟨.hbm, 547, rfl⟩
abbrev main_v357 : Ref sig .tc := ⟨.hbm, 548, rfl⟩
abbrev main_c_122 : Ref sig .tc := ⟨.hbm, 549, rfl⟩
abbrev main_v358 : Ref sig .tc := ⟨.hbm, 550, rfl⟩
abbrev main_v359 : Ref sig .tc := ⟨.hbm, 551, rfl⟩
abbrev main_c_123 : Ref sig .tc := ⟨.hbm, 552, rfl⟩
abbrev main_v360 : Ref sig .tc := ⟨.hbm, 553, rfl⟩
abbrev main_v361 : Ref sig .tc := ⟨.hbm, 554, rfl⟩
abbrev main_c_124 : Ref sig .tc := ⟨.hbm, 555, rfl⟩
abbrev main_v362 : Ref sig .tc := ⟨.hbm, 556, rfl⟩
abbrev main_v363 : Ref sig .tc := ⟨.hbm, 557, rfl⟩
abbrev main_v364 : Ref sig .tc := ⟨.hbm, 558, rfl⟩
abbrev main_v365 : Ref sig .tc := ⟨.hbm, 559, rfl⟩
abbrev main_v366 : Ref sig .tc := ⟨.hbm, 560, rfl⟩
abbrev main_c_125 : Ref sig .tc := ⟨.hbm, 561, rfl⟩
abbrev main_v367 : Ref sig .tc := ⟨.hbm, 562, rfl⟩
abbrev main_v368 : Ref sig .tc := ⟨.hbm, 563, rfl⟩
abbrev main_v369 : Ref sig .tc := ⟨.hbm, 564, rfl⟩
abbrev main_c_126 : Ref sig .tc := ⟨.hbm, 565, rfl⟩
abbrev main_v370 : Ref sig .tc := ⟨.hbm, 566, rfl⟩
abbrev main_v371 : Ref sig .tc := ⟨.hbm, 567, rfl⟩
abbrev main_v372 : Ref sig .tc := ⟨.hbm, 568, rfl⟩
abbrev main_c_127 : Ref sig .tc := ⟨.hbm, 569, rfl⟩
abbrev main_call31_v0 : Ref sig .tc := ⟨.hbm, 570, rfl⟩
abbrev main_call31_v1 : Ref sig .tc := ⟨.hbm, 571, rfl⟩
abbrev main_v373 : Ref sig .tc := ⟨.hbm, 572, rfl⟩
abbrev main_v374 : Ref sig .tc := ⟨.hbm, 573, rfl⟩
abbrev main_v375 : Ref sig .tc := ⟨.hbm, 574, rfl⟩
abbrev main_cst_128 : Ref sig .tc := ⟨.hbm, 575, rfl⟩
abbrev main_call32_v0 : Ref sig .tc := ⟨.hbm, 576, rfl⟩
abbrev main_call32_v1 : Ref sig .tc := ⟨.hbm, 577, rfl⟩
abbrev main_v376 : Ref sig .tc := ⟨.hbm, 578, rfl⟩
abbrev main_v377 : Ref sig .tc := ⟨.hbm, 579, rfl⟩
abbrev main_v378 : Ref sig .tc := ⟨.hbm, 580, rfl⟩
abbrev main_c_129 : Ref sig .tc := ⟨.hbm, 581, rfl⟩
abbrev main_v379 : Ref sig .tc := ⟨.hbm, 582, rfl⟩
abbrev main_v380 : Ref sig .tc := ⟨.hbm, 583, rfl⟩
abbrev main_c_130 : Ref sig .tc := ⟨.hbm, 584, rfl⟩
abbrev main_v381 : Ref sig .tc := ⟨.hbm, 585, rfl⟩
abbrev main_v382 : Ref sig .tc := ⟨.hbm, 586, rfl⟩
abbrev main_c_131 : Ref sig .tc := ⟨.hbm, 587, rfl⟩
abbrev main_v383 : Ref sig .tc := ⟨.hbm, 588, rfl⟩
abbrev main_v384 : Ref sig .tc := ⟨.hbm, 589, rfl⟩
abbrev main_v385 : Ref sig .tc := ⟨.hbm, 590, rfl⟩
abbrev main_cst_132 : Ref sig .tc := ⟨.hbm, 591, rfl⟩
abbrev main_v386 : Ref sig .tc := ⟨.hbm, 592, rfl⟩
abbrev main_v387 : Ref sig .tc := ⟨.hbm, 593, rfl⟩
abbrev main_c_133 : Ref sig .tc := ⟨.hbm, 594, rfl⟩
abbrev main_v388 : Ref sig .tc := ⟨.hbm, 595, rfl⟩
abbrev main_v389 : Ref sig .tc := ⟨.hbm, 596, rfl⟩
abbrev main_c_134 : Ref sig .tc := ⟨.hbm, 597, rfl⟩
abbrev main_v390 : Ref sig .tc := ⟨.hbm, 598, rfl⟩
abbrev main_v391 : Ref sig .tc := ⟨.hbm, 599, rfl⟩
abbrev main_c_135 : Ref sig .tc := ⟨.hbm, 600, rfl⟩
abbrev main_v392 : Ref sig .tc := ⟨.hbm, 601, rfl⟩
abbrev main_v393 : Ref sig .tc := ⟨.hbm, 602, rfl⟩
abbrev main_v394 : Ref sig .tc := ⟨.hbm, 603, rfl⟩
abbrev main_cst_136 : Ref sig .tc := ⟨.hbm, 604, rfl⟩
abbrev main_v395 : Ref sig .tc := ⟨.hbm, 605, rfl⟩
abbrev main_v396 : Ref sig .tc := ⟨.hbm, 606, rfl⟩
abbrev main_c_137 : Ref sig .tc := ⟨.hbm, 607, rfl⟩
abbrev main_v397 : Ref sig .tc := ⟨.hbm, 608, rfl⟩
abbrev main_v398 : Ref sig .tc := ⟨.hbm, 609, rfl⟩
abbrev main_c_138 : Ref sig .tc := ⟨.hbm, 610, rfl⟩
abbrev main_v399 : Ref sig .tc := ⟨.hbm, 611, rfl⟩
abbrev main_v400 : Ref sig .tc := ⟨.hbm, 612, rfl⟩
abbrev main_c_139 : Ref sig .tc := ⟨.hbm, 613, rfl⟩
abbrev main_v401 : Ref sig .tc := ⟨.hbm, 614, rfl⟩
abbrev main_v402 : Ref sig .tc := ⟨.hbm, 615, rfl⟩
abbrev main_v403 : Ref sig .tc := ⟨.hbm, 616, rfl⟩
abbrev main_v404 : Ref sig .tc := ⟨.hbm, 617, rfl⟩
abbrev main_v405 : Ref sig .tc := ⟨.hbm, 618, rfl⟩
abbrev main_c_140 : Ref sig .tc := ⟨.hbm, 619, rfl⟩
abbrev main_v406 : Ref sig .tc := ⟨.hbm, 620, rfl⟩
abbrev main_v407 : Ref sig .tc := ⟨.hbm, 621, rfl⟩
abbrev main_v408 : Ref sig .tc := ⟨.hbm, 622, rfl⟩
abbrev main_c_141 : Ref sig .tc := ⟨.hbm, 623, rfl⟩
abbrev main_v409 : Ref sig .tc := ⟨.hbm, 624, rfl⟩
abbrev main_v410 : Ref sig .tc := ⟨.hbm, 625, rfl⟩
abbrev main_v411 : Ref sig .tc := ⟨.hbm, 626, rfl⟩
abbrev main_c_142 : Ref sig .tc := ⟨.hbm, 627, rfl⟩
abbrev main_call33_v0 : Ref sig .tc := ⟨.hbm, 628, rfl⟩
abbrev main_call33_v1 : Ref sig .tc := ⟨.hbm, 629, rfl⟩
abbrev main_v412 : Ref sig .tc := ⟨.hbm, 630, rfl⟩
abbrev main_v413 : Ref sig .tc := ⟨.hbm, 631, rfl⟩
abbrev main_v414 : Ref sig .tc := ⟨.hbm, 632, rfl⟩
abbrev main_cst_143 : Ref sig .tc := ⟨.hbm, 633, rfl⟩
abbrev main_call34_v0 : Ref sig .tc := ⟨.hbm, 634, rfl⟩
abbrev main_call34_v1 : Ref sig .tc := ⟨.hbm, 635, rfl⟩
abbrev main_v415 : Ref sig .tc := ⟨.hbm, 636, rfl⟩
abbrev main_v416 : Ref sig .tc := ⟨.hbm, 637, rfl⟩
abbrev main_v417 : Ref sig .tc := ⟨.hbm, 638, rfl⟩
abbrev main_c_144 : Ref sig .tc := ⟨.hbm, 639, rfl⟩
abbrev main_v418 : Ref sig .tc := ⟨.hbm, 640, rfl⟩
abbrev main_v419 : Ref sig .tc := ⟨.hbm, 641, rfl⟩
abbrev main_c_145 : Ref sig .tc := ⟨.hbm, 642, rfl⟩
abbrev main_v420 : Ref sig .tc := ⟨.hbm, 643, rfl⟩
abbrev main_v421 : Ref sig .tc := ⟨.hbm, 644, rfl⟩
abbrev main_c_146 : Ref sig .tc := ⟨.hbm, 645, rfl⟩
abbrev main_v422 : Ref sig .tc := ⟨.hbm, 646, rfl⟩
abbrev main_v423 : Ref sig .tc := ⟨.hbm, 647, rfl⟩
abbrev main_v424 : Ref sig .tc := ⟨.hbm, 648, rfl⟩
abbrev main_v425 : Ref sig .tc := ⟨.hbm, 649, rfl⟩
abbrev main_v426 : Ref sig .tc := ⟨.hbm, 650, rfl⟩
abbrev main_c_147 : Ref sig .tc := ⟨.hbm, 651, rfl⟩
abbrev main_v427 : Ref sig .tc := ⟨.hbm, 652, rfl⟩
abbrev main_v428 : Ref sig .tc := ⟨.hbm, 653, rfl⟩
abbrev main_v429 : Ref sig .tc := ⟨.hbm, 654, rfl⟩
abbrev main_c_148 : Ref sig .tc := ⟨.hbm, 655, rfl⟩
abbrev main_v430 : Ref sig .tc := ⟨.hbm, 656, rfl⟩
abbrev main_v431 : Ref sig .tc := ⟨.hbm, 657, rfl⟩
abbrev main_v432 : Ref sig .tc := ⟨.hbm, 658, rfl⟩
abbrev main_c_149 : Ref sig .tc := ⟨.hbm, 659, rfl⟩
abbrev main_call35_v0 : Ref sig .tc := ⟨.hbm, 660, rfl⟩
abbrev main_call35_v1 : Ref sig .tc := ⟨.hbm, 661, rfl⟩
abbrev main_v433 : Ref sig .tc := ⟨.hbm, 662, rfl⟩
abbrev main_v434 : Ref sig .tc := ⟨.hbm, 663, rfl⟩
abbrev main_v435 : Ref sig .tc := ⟨.hbm, 664, rfl⟩
abbrev main_cst_150 : Ref sig .tc := ⟨.hbm, 665, rfl⟩
abbrev main_call36_v0 : Ref sig .tc := ⟨.hbm, 666, rfl⟩
abbrev main_call36_v1 : Ref sig .tc := ⟨.hbm, 667, rfl⟩
abbrev main_v436 : Ref sig .tc := ⟨.hbm, 668, rfl⟩
abbrev main_v437 : Ref sig .tc := ⟨.hbm, 669, rfl⟩
abbrev main_v438 : Ref sig .tc := ⟨.hbm, 670, rfl⟩
abbrev main_c_151 : Ref sig .tc := ⟨.hbm, 671, rfl⟩
abbrev main_v439 : Ref sig .tc := ⟨.hbm, 672, rfl⟩
abbrev main_v440 : Ref sig .tc := ⟨.hbm, 673, rfl⟩
abbrev main_c_152 : Ref sig .tc := ⟨.hbm, 674, rfl⟩
abbrev main_v441 : Ref sig .tc := ⟨.hbm, 675, rfl⟩
abbrev main_v442 : Ref sig .tc := ⟨.hbm, 676, rfl⟩
abbrev main_c_153 : Ref sig .tc := ⟨.hbm, 677, rfl⟩
abbrev main_v443 : Ref sig .tc := ⟨.hbm, 678, rfl⟩
abbrev main_v444 : Ref sig .tc := ⟨.hbm, 679, rfl⟩
abbrev main_v445 : Ref sig .tc := ⟨.hbm, 680, rfl⟩
abbrev main_cst_154 : Ref sig .tc := ⟨.hbm, 681, rfl⟩
abbrev main_v446 : Ref sig .tc := ⟨.hbm, 682, rfl⟩
abbrev main_v447 : Ref sig .tc := ⟨.hbm, 683, rfl⟩
abbrev main_c_155 : Ref sig .tc := ⟨.hbm, 684, rfl⟩
abbrev main_v448 : Ref sig .tc := ⟨.hbm, 685, rfl⟩
abbrev main_v449 : Ref sig .tc := ⟨.hbm, 686, rfl⟩
abbrev main_c_156 : Ref sig .tc := ⟨.hbm, 687, rfl⟩
abbrev main_v450 : Ref sig .tc := ⟨.hbm, 688, rfl⟩
abbrev main_v451 : Ref sig .tc := ⟨.hbm, 689, rfl⟩
abbrev main_c_157 : Ref sig .tc := ⟨.hbm, 690, rfl⟩
abbrev main_v452 : Ref sig .tc := ⟨.hbm, 691, rfl⟩
abbrev main_v453 : Ref sig .tc := ⟨.hbm, 692, rfl⟩
abbrev main_v454 : Ref sig .tc := ⟨.hbm, 693, rfl⟩
abbrev main_v455 : Ref sig .tc := ⟨.hbm, 694, rfl⟩
abbrev main_v456 : Ref sig .tc := ⟨.hbm, 695, rfl⟩
abbrev main_c_158 : Ref sig .tc := ⟨.hbm, 696, rfl⟩
abbrev main_v457 : Ref sig .tc := ⟨.hbm, 697, rfl⟩
abbrev main_v458 : Ref sig .tc := ⟨.hbm, 698, rfl⟩
abbrev main_v459 : Ref sig .tc := ⟨.hbm, 699, rfl⟩
abbrev main_c_159 : Ref sig .tc := ⟨.hbm, 700, rfl⟩
abbrev main_v460 : Ref sig .tc := ⟨.hbm, 701, rfl⟩
abbrev main_v461 : Ref sig .tc := ⟨.hbm, 702, rfl⟩
abbrev main_v462 : Ref sig .tc := ⟨.hbm, 703, rfl⟩
abbrev main_c_160 : Ref sig .tc := ⟨.hbm, 704, rfl⟩
abbrev main_call37_v0 : Ref sig .tc := ⟨.hbm, 705, rfl⟩
abbrev main_call37_v1 : Ref sig .tc := ⟨.hbm, 706, rfl⟩
abbrev main_v463 : Ref sig .tc := ⟨.hbm, 707, rfl⟩
abbrev main_v464 : Ref sig .tc := ⟨.hbm, 708, rfl⟩
abbrev main_v465 : Ref sig .tc := ⟨.hbm, 709, rfl⟩
abbrev main_cst_161 : Ref sig .tc := ⟨.hbm, 710, rfl⟩
abbrev main_call38_v0 : Ref sig .tc := ⟨.hbm, 711, rfl⟩
abbrev main_call38_v1 : Ref sig .tc := ⟨.hbm, 712, rfl⟩
abbrev main_v466 : Ref sig .tc := ⟨.hbm, 713, rfl⟩
abbrev main_v467 : Ref sig .tc := ⟨.hbm, 714, rfl⟩
abbrev main_v468 : Ref sig .tc := ⟨.hbm, 715, rfl⟩
abbrev main_c_162 : Ref sig .tc := ⟨.hbm, 716, rfl⟩
abbrev main_v469 : Ref sig .tc := ⟨.hbm, 717, rfl⟩
abbrev main_v470 : Ref sig .tc := ⟨.hbm, 718, rfl⟩
abbrev main_c_163 : Ref sig .tc := ⟨.hbm, 719, rfl⟩
abbrev main_v471 : Ref sig .tc := ⟨.hbm, 720, rfl⟩
abbrev main_v472 : Ref sig .tc := ⟨.hbm, 721, rfl⟩
abbrev main_c_164 : Ref sig .tc := ⟨.hbm, 722, rfl⟩
abbrev main_v473 : Ref sig .tc := ⟨.hbm, 723, rfl⟩
abbrev main_v474 : Ref sig .tc := ⟨.hbm, 724, rfl⟩
abbrev main_v475 : Ref sig .tc := ⟨.hbm, 725, rfl⟩
abbrev main_v476 : Ref sig .tc := ⟨.hbm, 726, rfl⟩
abbrev main_v477 : Ref sig .tc := ⟨.hbm, 727, rfl⟩
abbrev main_c_165 : Ref sig .tc := ⟨.hbm, 728, rfl⟩
abbrev main_v478 : Ref sig .tc := ⟨.hbm, 729, rfl⟩
abbrev main_v479 : Ref sig .tc := ⟨.hbm, 730, rfl⟩
abbrev main_v480 : Ref sig .tc := ⟨.hbm, 731, rfl⟩
abbrev main_c_166 : Ref sig .tc := ⟨.hbm, 732, rfl⟩
abbrev main_v481 : Ref sig .tc := ⟨.hbm, 733, rfl⟩
abbrev main_v482 : Ref sig .tc := ⟨.hbm, 734, rfl⟩
abbrev main_v483 : Ref sig .tc := ⟨.hbm, 735, rfl⟩
abbrev main_c_167 : Ref sig .tc := ⟨.hbm, 736, rfl⟩
abbrev main_call39_v0 : Ref sig .tc := ⟨.hbm, 737, rfl⟩
abbrev main_call39_v1 : Ref sig .tc := ⟨.hbm, 738, rfl⟩
abbrev main_v484 : Ref sig .tc := ⟨.hbm, 739, rfl⟩
abbrev main_v485 : Ref sig .tc := ⟨.hbm, 740, rfl⟩
abbrev main_v486 : Ref sig .tc := ⟨.hbm, 741, rfl⟩
abbrev main_cst_168 : Ref sig .tc := ⟨.hbm, 742, rfl⟩
abbrev main_call40_v0 : Ref sig .tc := ⟨.hbm, 743, rfl⟩
abbrev main_call40_v1 : Ref sig .tc := ⟨.hbm, 744, rfl⟩
abbrev main_v487 : Ref sig .tc := ⟨.hbm, 745, rfl⟩
abbrev main_v488 : Ref sig .tc := ⟨.hbm, 746, rfl⟩
abbrev main_v489 : Ref sig .tc := ⟨.hbm, 747, rfl⟩
abbrev main_v490 : Ref sig .tc := ⟨.hbm, 748, rfl⟩
abbrev main_v491 : Ref sig .tc := ⟨.hbm, 749, rfl⟩
abbrev main_c_169 : Ref sig .tc := ⟨.hbm, 750, rfl⟩
abbrev main_v492 : Ref sig .tc := ⟨.hbm, 751, rfl⟩
abbrev main_v493 : Ref sig .tc := ⟨.hbm, 752, rfl⟩
abbrev main_v494 : Ref sig .tc := ⟨.hbm, 753, rfl⟩
abbrev main_v495 : Ref sig .tc := ⟨.hbm, 754, rfl⟩
abbrev main_cst_170 : Ref sig .tc := ⟨.hbm, 755, rfl⟩
abbrev main_v496 : Ref sig .tc := ⟨.hbm, 756, rfl⟩
abbrev main_c_171 : Ref sig .tc := ⟨.hbm, 757, rfl⟩
abbrev main_v497 : Ref sig .tc := ⟨.hbm, 758, rfl⟩
abbrev main_v498 : Ref sig .tc := ⟨.hbm, 759, rfl⟩
abbrev main_c_172 : Ref sig .tc := ⟨.hbm, 760, rfl⟩
abbrev main_v499 : Ref sig .tc := ⟨.hbm, 761, rfl⟩
abbrev main_v500 : Ref sig .tc := ⟨.hbm, 762, rfl⟩
abbrev main_v501 : Ref sig .tc := ⟨.hbm, 763, rfl⟩
abbrev main_v502 : Ref sig .tc := ⟨.hbm, 764, rfl⟩
abbrev main_v503 : Ref sig .tc := ⟨.hbm, 765, rfl⟩
abbrev main_v504 : Ref sig .tc := ⟨.hbm, 766, rfl⟩
abbrev main_v505 : Ref sig .tc := ⟨.hbm, 767, rfl⟩
abbrev main_v506 : Ref sig .tc := ⟨.hbm, 768, rfl⟩
abbrev main_v507 : Ref sig .tc := ⟨.hbm, 769, rfl⟩
abbrev main_v508 : Ref sig .tc := ⟨.hbm, 770, rfl⟩
abbrev main_v509 : Ref sig .tc := ⟨.hbm, 771, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc1_stg0_0 : Ref sig .tc := ⟨.vmem, 42, rfl⟩
abbrev cc1_stg0_1 : Ref sig .tc := ⟨.vmem, 43, rfl⟩
abbrev cc1_stg1_0 : Ref sig .tc := ⟨.vmem, 44, rfl⟩
abbrev cc1_stg1_1 : Ref sig .tc := ⟨.vmem, 45, rfl⟩
abbrev cc1_stg2_0 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc1_sem0_0 : DmaSem sig := 42
abbrev cc1_sem0_1 : DmaSem sig := 43
abbrev cc1_sem1_0 : DmaSem sig := 44
abbrev cc1_sem1_1 : DmaSem sig := 45
abbrev cc1_sem2_0 : DmaSem sig := 46

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v28 : BitVec 1 := Scalar.cmpi .eq arg0 c3_i32
  let v29 : BitVec 32 := Scalar.extui v28
  let c0_i32_13 : BitVec 32 := 0#32
  let v30 : BitVec 1 := Scalar.cmpi .ne v29 c0_i32_13
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S1x2000000x3_S2000000x3 : S1x2000000x3.ShapeCasts S2000000x3
  slices_S2000000x3_S2000000x1_0_0 : S2000000x3.Slices ![0, 0] S2000000x1
  shapeCasts_S2000000x1_S2000000 : S2000000x1.ShapeCasts S2000000
  pads_S2000000_S2031616_0316160 : S2000000.Pads (![0] : Fin 1 → Nat) ![31616] ![0] S2031616
  h_S_ : 0 < S_.numel
  shapeCasts_S2031616_S15872x128 : S2031616.ShapeCasts S15872x128
  slices_S2000000x3_S2000000x1_0_1 : S2000000x3.Slices ![0, 1] S2000000x1
  slices_S2000000x3_S2000000x1_0_2 : S2000000x3.Slices ![0, 2] S2000000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bcast_S_S15872x128 : S_.BroadcastsInDim S15872x128 (![] : Fin 0 → Fin S15872x128.rank)
  shapeCasts_S15872x128_S2031616 : S15872x128.ShapeCasts S2031616
  concatenates_S2031616_S2031616_S2031616_S2031616_S2031616_S2031616_S2031616_S2031616_S16252928_d0 : Shape.Concatenates [S2031616, S2031616, S2031616, S2031616, S2031616, S2031616, S2031616, S2031616] S16252928 0
  bcast_S_S16252928 : S_.BroadcastsInDim S16252928 (![] : Fin 0 → Fin S16252928.rank)
  concatenates_S16252928_S16252928_S32505856_d0 : Shape.Concatenates [S16252928, S16252928] S32505856 0
  bcast_S_S4194304 : S_.BroadcastsInDim S4194304 (![] : Fin 0 → Fin S4194304.rank)
  bcast_S_S32505856 : S_.BroadcastsInDim S32505856 (![] : Fin 0 → Fin S32505856.rank)
  bcast_S32505856_S32505856x1_0 : S32505856.BroadcastsInDim S32505856x1 (![0] : Fin 1 → Fin S32505856x1.rank)
  slices_S4194304_S2097152_0 : S4194304.Slices ![0] S2097152
  slices_S4194304_S2097152_2097152 : S4194304.Slices ![2097152] S2097152
  shapeCasts_S2097152_S16384x128 : S2097152.ShapeCasts S16384x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  scatter_S4194304_S32505856x1_S32505856_n_0_0_1_wf : ScatterDims.WF S4194304 S32505856x1 S32505856 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S15872x128.size a
  hwx0_0 : ∀ i : grid0.Coords, EltTy.bits .f32 = 32 ∨ (Rect.block (s := S15872x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S15872x128.size a
  hwx0_1 : ∀ i : grid0.Coords, EltTy.bits .f32 = 32 ∨ (Rect.block (s := S15872x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S15872x128.size a
  hwx0_2 : ∀ i : grid0.Coords, EltTy.bits .f32 = 32 ∨ (Rect.block (s := S15872x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S15872x128.size a
  hwx0_3 : ∀ i : grid0.Coords, EltTy.bits .f32 = 32 ∨ (Rect.block (s := S15872x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S15872x128.size a
  hwx0_4 : ∀ i : grid0.Coords, EltTy.bits .f32 = 32 ∨ (Rect.block (s := S15872x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S15872x128.size a
  hwx0_5 : ∀ i : grid0.Coords, EltTy.bits .f32 = 32 ∨ (Rect.block (s := S15872x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S15872x128.size a
  hwx0_6 : ∀ i : grid0.Coords, EltTy.bits .f32 = 32 ∨ (Rect.block (s := S15872x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S15872x128.size a
  hwx0_7 : ∀ i : grid0.Coords, EltTy.bits .f32 = 32 ∨ (Rect.block (s := S15872x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S15872x128.size a
  hwx0_8 : ∀ i : grid0.Coords, EltTy.bits .f32 = 32 ∨ (Rect.block (s := S15872x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S15872x128.size a
  hwx0_9 : ∀ i : grid0.Coords, EltTy.bits .i32 = 32 ∨ (Rect.block (s := S15872x128) S512x128.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S15872x128.size a
  hwx0_10 : ∀ i : grid0.Coords, EltTy.bits .i32 = 32 ∨ (Rect.block (s := S15872x128) S512x128.size (cc0_transform_10 i) (hinb0_10 i)).WholeWords (EltTy.packing .i32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S15872x128.size a
  hwx0_11 : ∀ i : grid0.Coords, EltTy.bits .i32 = 32 ∨ (Rect.block (s := S15872x128) S512x128.size (cc0_transform_11 i) (hinb0_11 i)).WholeWords (EltTy.packing .i32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S15872x128.size a
  hwx0_12 : ∀ i : grid0.Coords, EltTy.bits .f32 = 32 ∨ (Rect.block (s := S15872x128) S512x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x128.size a ≤ S15872x128.size a
  hwx0_13 : ∀ i : grid0.Coords, EltTy.bits .f32 = 32 ∨ (Rect.block (s := S15872x128) S512x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x128.size a ≤ S15872x128.size a
  hwx0_14 : ∀ i : grid0.Coords, EltTy.bits .f32 = 32 ∨ (Rect.block (s := S15872x128) S512x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S15872x128.size a
  hwx0_15 : ∀ i : grid0.Coords, EltTy.bits .i32 = 32 ∨ (Rect.block (s := S15872x128) S512x128.size (cc0_transform_15 i) (hinb0_15 i)).WholeWords (EltTy.packing .i32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x128.size a ≤ S15872x128.size a
  hwx0_16 : ∀ i : grid0.Coords, EltTy.bits .i32 = 32 ∨ (Rect.block (s := S15872x128) S512x128.size (cc0_transform_16 i) (hinb0_16 i)).WholeWords (EltTy.packing .i32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x128.size a ≤ S15872x128.size a
  hwx0_17 : ∀ i : grid0.Coords, EltTy.bits .i32 = 32 ∨ (Rect.block (s := S15872x128) S512x128.size (cc0_transform_17 i) (hinb0_17 i)).WholeWords (EltTy.packing .i32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x128.size a ≤ S15872x128.size a
  hwx0_18 : ∀ i : grid0.Coords, EltTy.bits .f32 = 32 ∨ (Rect.block (s := S15872x128) S512x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x128.size a ≤ S15872x128.size a
  hwx0_19 : ∀ i : grid0.Coords, EltTy.bits .f32 = 32 ∨ (Rect.block (s := S15872x128) S512x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x128.size a ≤ S15872x128.size a
  hwx0_20 : ∀ i : grid0.Coords, EltTy.bits .f32 = 32 ∨ (Rect.block (s := S15872x128) S512x128.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x128.size a
  hwx1_0 : ∀ i : grid1.Coords, EltTy.bits .f32 = 32 ∨ (Rect.block (s := S16384x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x128.size a
  hwx1_1 : ∀ i : grid1.Coords, EltTy.bits .f32 = 32 ∨ (Rect.block (s := S16384x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def scatter_S4194304_S32505856x1_S32505856_n_0_0_1 : ScatterDims S4194304 S32505856x1 S32505856 where
  updateWindowDims := []
  insertedWindowDims := [0]
  scatterDimsToOperandDims := [0]
  indexVectorDim := 1
  wf := scatter_S4194304_S32505856x1_S32505856_n_0_0_1_wf

abbrev win0_0 : Pipeline.Window sig grid0 :=
  Pipeline.Window.ofSpec (Memref.whole main_v6) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34) S512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v38) S512x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v39_0) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v39_1) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v39_2) S512x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v39_3) S512x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v39_4) S512x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v39_5) S512x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v39_6) S512x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v39_7) S512x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v39_8) S512x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v39_9) S512x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v39_10) S512x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v39_11) S512x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_v506) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v507) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v508) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1x2000000x3 : Shape := ⟨3, ![1, 2000000, 3]⟩
abbrev S2000000x3 : Shape := ⟨2, ![2000000, 3]⟩
abbrev S_ : Shape := ⟨0, ![]⟩
abbrev S2000000 : Shape := ⟨1, ![2000000]⟩
abbrev S2000000x1 : Shape := ⟨2, ![2000000, 1]⟩
abbrev S2097152 : Shape := ⟨1, ![2097152]⟩
abbrev S128x128x128 : Shape := ⟨3, ![128, 128, 128]⟩

abbrev nBuf : Space → Nat
  | .hbm => 1137
  | .vmem => 0
  | .smem => 0
  | _ => 0

abbrev hbmTy0_0 (i : Nat) : BufTy := match i % 128 with
  | 0 => ⟨S1x2000000x3, .f32⟩
  | 1 => ⟨S1x2000000x3, .f32⟩
  | 2 => ⟨S1x2000000x3, .f32⟩
  | 3 => ⟨S1x2000000x3, .f32⟩
  | 4 => ⟨S2000000x3, .f32⟩
  | 5 => ⟨S1x2000000x3, .f32⟩
  | 6 => ⟨S2000000x3, .f32⟩
  | 7 => ⟨S_, .f32⟩
  | 8 => ⟨S2000000, .f32⟩
  | 9 => ⟨S2000000x1, .f32⟩
  | 10 => ⟨S2000000, .f32⟩
  | 11 => ⟨S_, .f32⟩
  | 12 => ⟨S2000000, .f32⟩
  | 13 => ⟨S2000000, .f32⟩
  | 14 => ⟨S_, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000x1, .f32⟩
  | 24 => ⟨S2000000, .f32⟩
  | 25 => ⟨S_, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S_, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000x1, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S2000000, .f32⟩
  | 53 => ⟨S2000000, .f32⟩
  | 54 => ⟨S2000000, .f32⟩
  | 55 => ⟨S2000000, .f32⟩
  | 56 => ⟨S2000000, .f32⟩
  | 57 => ⟨S2000000, .i32⟩
  | 58 => ⟨S2000000, .i32⟩
  | 59 => ⟨S2000000, .i32⟩
  | 60 => ⟨S_, .f32⟩
  | 61 => ⟨S2097152, .f32⟩
  | 62 => ⟨S_, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S_, .f32⟩
  | 69 => ⟨S2000000, .f32⟩
  | 70 => ⟨S2000000, .f32⟩
  | 71 => ⟨S_, .i32⟩
  | 72 => ⟨S2000000, .i32⟩
  | 73 => ⟨S2000000, .i32⟩
  | 74 => ⟨S_, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i1⟩
  | 86 => ⟨S2000000, .i1⟩
  | 87 => ⟨S_, .i32⟩
  | 88 => ⟨S2000000, .i32⟩
  | 89 => ⟨S2000000, .i1⟩
  | 90 => ⟨S2000000, .i1⟩
  | 91 => ⟨S_, .i32⟩
  | 92 => ⟨S2000000, .i32⟩
  | 93 => ⟨S2000000, .i1⟩
  | 94 => ⟨S2000000, .i1⟩
  | 95 => ⟨S_, .i32⟩
  | 96 => ⟨S2000000, .i32⟩
  | 97 => ⟨S2000000, .i1⟩
  | 98 => ⟨S2000000, .i1⟩
  | 99 => ⟨S_, .i32⟩
  | 100 => ⟨S2000000, .i32⟩
  | 101 => ⟨S2000000, .i1⟩
  | 102 => ⟨S2000000, .i1⟩
  | 103 => ⟨S_, .i32⟩
  | 104 => ⟨S2000000, .i32⟩
  | 105 => ⟨S2000000, .i32⟩
  | 106 => ⟨S2000000, .i32⟩
  | 107 => ⟨S_, .i32⟩
  | 108 => ⟨S2000000, .i32⟩
  | 109 => ⟨S2000000, .i32⟩
  | 110 => ⟨S2000000, .i32⟩
  | 111 => ⟨S_, .i32⟩
  | 112 => ⟨S_, .i32⟩
  | 113 => ⟨S2000000, .i32⟩
  | 114 => ⟨S2000000, .i32⟩
  | 115 => ⟨S2000000, .f32⟩
  | 116 => ⟨S2000000, .f32⟩
  | 117 => ⟨S2000000, .f32⟩
  | 118 => ⟨S_, .f32⟩
  | 119 => ⟨S_, .f32⟩
  | 120 => ⟨S2000000, .f32⟩
  | 121 => ⟨S2000000, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S1x2000000x3, .f32⟩

abbrev hbmTy0_1 (i : Nat) : BufTy := match i % 128 with
  | 0 => ⟨S2000000, .i32⟩
  | 1 => ⟨S2000000x1, .i32⟩
  | 2 => ⟨S2097152, .f32⟩
  | 3 => ⟨S_, .i32⟩
  | 4 => ⟨S2000000, .i32⟩
  | 5 => ⟨S2000000, .i32⟩
  | 6 => ⟨S_, .i32⟩
  | 7 => ⟨S2000000, .i32⟩
  | 8 => ⟨S2000000, .i32⟩
  | 9 => ⟨S_, .i32⟩
  | 10 => ⟨S2000000, .i32⟩
  | 11 => ⟨S2000000, .i32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i1⟩
  | 18 => ⟨S2000000, .i1⟩
  | 19 => ⟨S_, .i32⟩
  | 20 => ⟨S2000000, .i32⟩
  | 21 => ⟨S2000000, .i1⟩
  | 22 => ⟨S2000000, .i1⟩
  | 23 => ⟨S_, .i32⟩
  | 24 => ⟨S2000000, .i32⟩
  | 25 => ⟨S2000000, .i1⟩
  | 26 => ⟨S2000000, .i1⟩
  | 27 => ⟨S_, .i32⟩
  | 28 => ⟨S2000000, .i32⟩
  | 29 => ⟨S2000000, .i1⟩
  | 30 => ⟨S2000000, .i1⟩
  | 31 => ⟨S_, .i32⟩
  | 32 => ⟨S2000000, .i32⟩
  | 33 => ⟨S2000000, .i1⟩
  | 34 => ⟨S2000000, .i1⟩
  | 35 => ⟨S_, .i32⟩
  | 36 => ⟨S2000000, .i32⟩
  | 37 => ⟨S2000000, .i32⟩
  | 38 => ⟨S2000000, .i32⟩
  | 39 => ⟨S_, .i32⟩
  | 40 => ⟨S2000000, .i32⟩
  | 41 => ⟨S2000000, .i32⟩
  | 42 => ⟨S2000000, .i32⟩
  | 43 => ⟨S_, .i32⟩
  | 44 => ⟨S_, .i32⟩
  | 45 => ⟨S2000000, .i32⟩
  | 46 => ⟨S2000000, .i32⟩
  | 47 => ⟨S2000000, .f32⟩
  | 48 => ⟨S2000000, .f32⟩
  | 49 => ⟨S2000000, .f32⟩
  | 50 => ⟨S_, .f32⟩
  | 51 => ⟨S_, .f32⟩
  | 52 => ⟨S2000000, .f32⟩
  | 53 => ⟨S2000000, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2097152, .f32⟩
  | 63 => ⟨S_, .f32⟩
  | 64 => ⟨S2000000, .f32⟩
  | 65 => ⟨S2000000, .f32⟩
  | 66 => ⟨S_, .i32⟩
  | 67 => ⟨S2000000, .i32⟩
  | 68 => ⟨S2000000, .i32⟩
  | 69 => ⟨S_, .i32⟩
  | 70 => ⟨S2000000, .i32⟩
  | 71 => ⟨S2000000, .i32⟩
  | 72 => ⟨S_, .i32⟩
  | 73 => ⟨S2000000, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i1⟩
  | 81 => ⟨S2000000, .i1⟩
  | 82 => ⟨S_, .i32⟩
  | 83 => ⟨S2000000, .i32⟩
  | 84 => ⟨S2000000, .i1⟩
  | 85 => ⟨S2000000, .i1⟩
  | 86 => ⟨S_, .i32⟩
  | 87 => ⟨S2000000, .i32⟩
  | 88 => ⟨S2000000, .i1⟩
  | 89 => ⟨S2000000, .i1⟩
  | 90 => ⟨S_, .i32⟩
  | 91 => ⟨S2000000, .i32⟩
  | 92 => ⟨S2000000, .i1⟩
  | 93 => ⟨S2000000, .i1⟩
  | 94 => ⟨S_, .i32⟩
  | 95 => ⟨S2000000, .i32⟩
  | 96 => ⟨S2000000, .i1⟩
  | 97 => ⟨S2000000, .i1⟩
  | 98 => ⟨S_, .i32⟩
  | 99 => ⟨S2000000, .i32⟩
  | 100 => ⟨S2000000, .i32⟩
  | 101 => ⟨S2000000, .i32⟩
  | 102 => ⟨S_, .i32⟩
  | 103 => ⟨S2000000, .i32⟩
  | 104 => ⟨S2000000, .i32⟩
  | 105 => ⟨S2000000, .i32⟩
  | 106 => ⟨S_, .i32⟩
  | 107 => ⟨S_, .i32⟩
  | 108 => ⟨S2000000, .i32⟩
  | 109 => ⟨S2000000, .i32⟩
  | 110 => ⟨S2000000, .f32⟩
  | 111 => ⟨S2000000, .f32⟩
  | 112 => ⟨S2000000, .f32⟩
  | 113 => ⟨S_, .f32⟩
  | 114 => ⟨S_, .f32⟩
  | 115 => ⟨S2000000, .f32⟩
  | 116 => ⟨S2000000, .f32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S2000000x1, .i32⟩
  | 125 => ⟨S2097152, .f32⟩
  | 126 => ⟨S_, .i32⟩
  | 127 => ⟨S2000000, .i32⟩
  | _ => ⟨S1x2000000x3, .f32⟩

abbrev hbmTy0_2 (i : Nat) : BufTy := match i % 128 with
  | 0 => ⟨S2000000, .i32⟩
  | 1 => ⟨S_, .i32⟩
  | 2 => ⟨S2000000, .i32⟩
  | 3 => ⟨S2000000, .i32⟩
  | 4 => ⟨S_, .i32⟩
  | 5 => ⟨S2000000, .i32⟩
  | 6 => ⟨S2000000, .i32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i1⟩
  | 13 => ⟨S2000000, .i1⟩
  | 14 => ⟨S_, .i32⟩
  | 15 => ⟨S2000000, .i32⟩
  | 16 => ⟨S2000000, .i1⟩
  | 17 => ⟨S2000000, .i1⟩
  | 18 => ⟨S_, .i32⟩
  | 19 => ⟨S2000000, .i32⟩
  | 20 => ⟨S2000000, .i1⟩
  | 21 => ⟨S2000000, .i1⟩
  | 22 => ⟨S_, .i32⟩
  | 23 => ⟨S2000000, .i32⟩
  | 24 => ⟨S2000000, .i1⟩
  | 25 => ⟨S2000000, .i1⟩
  | 26 => ⟨S_, .i32⟩
  | 27 => ⟨S2000000, .i32⟩
  | 28 => ⟨S2000000, .i1⟩
  | 29 => ⟨S2000000, .i1⟩
  | 30 => ⟨S_, .i32⟩
  | 31 => ⟨S2000000, .i32⟩
  | 32 => ⟨S2000000, .i32⟩
  | 33 => ⟨S2000000, .i32⟩
  | 34 => ⟨S_, .i32⟩
  | 35 => ⟨S2000000, .i32⟩
  | 36 => ⟨S2000000, .i32⟩
  | 37 => ⟨S2000000, .i32⟩
  | 38 => ⟨S_, .i32⟩
  | 39 => ⟨S_, .i32⟩
  | 40 => ⟨S2000000, .i32⟩
  | 41 => ⟨S2000000, .i32⟩
  | 42 => ⟨S2000000, .f32⟩
  | 43 => ⟨S2000000, .f32⟩
  | 44 => ⟨S2000000, .f32⟩
  | 45 => ⟨S_, .f32⟩
  | 46 => ⟨S_, .f32⟩
  | 47 => ⟨S2000000, .f32⟩
  | 48 => ⟨S2000000, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2097152, .f32⟩
  | 58 => ⟨S_, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S_, .i32⟩
  | 65 => ⟨S2000000, .i32⟩
  | 66 => ⟨S2000000, .i32⟩
  | 67 => ⟨S_, .i32⟩
  | 68 => ⟨S2000000, .i32⟩
  | 69 => ⟨S2000000, .i32⟩
  | 70 => ⟨S_, .i32⟩
  | 71 => ⟨S2000000, .i32⟩
  | 72 => ⟨S2000000, .i32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i1⟩
  | 79 => ⟨S2000000, .i1⟩
  | 80 => ⟨S_, .i32⟩
  | 81 => ⟨S2000000, .i32⟩
  | 82 => ⟨S2000000, .i1⟩
  | 83 => ⟨S2000000, .i1⟩
  | 84 => ⟨S_, .i32⟩
  | 85 => ⟨S2000000, .i32⟩
  | 86 => ⟨S2000000, .i1⟩
  | 87 => ⟨S2000000, .i1⟩
  | 88 => ⟨S_, .i32⟩
  | 89 => ⟨S2000000, .i32⟩
  | 90 => ⟨S2000000, .i1⟩
  | 91 => ⟨S2000000, .i1⟩
  | 92 => ⟨S_, .i32⟩
  | 93 => ⟨S2000000, .i32⟩
  | 94 => ⟨S2000000, .i1⟩
  | 95 => ⟨S2000000, .i1⟩
  | 96 => ⟨S_, .i32⟩
  | 97 => ⟨S2000000, .i32⟩
  | 98 => ⟨S2000000, .i32⟩
  | 99 => ⟨S2000000, .i32⟩
  | 100 => ⟨S_, .i32⟩
  | 101 => ⟨S2000000, .i32⟩
  | 102 => ⟨S2000000, .i32⟩
  | 103 => ⟨S2000000, .i32⟩
  | 104 => ⟨S_, .i32⟩
  | 105 => ⟨S_, .i32⟩
  | 106 => ⟨S2000000, .i32⟩
  | 107 => ⟨S2000000, .i32⟩
  | 108 => ⟨S2000000, .f32⟩
  | 109 => ⟨S2000000, .f32⟩
  | 110 => ⟨S2000000, .f32⟩
  | 111 => ⟨S_, .f32⟩
  | 112 => ⟨S_, .f32⟩
  | 113 => ⟨S2000000, .f32⟩
  | 114 => ⟨S2000000, .f32⟩
  | 115 => ⟨S_, .i32⟩
  | 116 => ⟨S2000000, .i32⟩
  | 117 => ⟨S2000000, .i1⟩
  | 118 => ⟨S_, .i32⟩
  | 119 => ⟨S2000000, .i32⟩
  | 120 => ⟨S2000000, .i32⟩
  | 121 => ⟨S2000000, .i32⟩
  | 122 => ⟨S2000000x1, .i32⟩
  | 123 => ⟨S2097152, .f32⟩
  | 124 => ⟨S_, .i32⟩
  | 125 => ⟨S2000000, .i32⟩
  | 126 => ⟨S2000000, .i32⟩
  | 127 => ⟨S_, .i32⟩
  | _ => ⟨S1x2000000x3, .f32⟩

abbrev hbmTy0_3 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i32⟩
  | 5 => ⟨S_, .i32⟩
  | 6 => ⟨S2000000, .i32⟩
  | 7 => ⟨S2000000, .i1⟩
  | 8 => ⟨S_, .i32⟩
  | 9 => ⟨S2000000, .i32⟩
  | 10 => ⟨S2000000, .i1⟩
  | 11 => ⟨S2000000, .i1⟩
  | 12 => ⟨S_, .i32⟩
  | 13 => ⟨S2000000, .i32⟩
  | 14 => ⟨S2000000, .i1⟩
  | 15 => ⟨S2000000, .i1⟩
  | 16 => ⟨S_, .i32⟩
  | 17 => ⟨S2000000, .i32⟩
  | 18 => ⟨S2000000, .i1⟩
  | 19 => ⟨S2000000, .i1⟩
  | 20 => ⟨S_, .i32⟩
  | 21 => ⟨S2000000, .i32⟩
  | 22 => ⟨S2000000, .i1⟩
  | 23 => ⟨S2000000, .i1⟩
  | 24 => ⟨S_, .i32⟩
  | 25 => ⟨S2000000, .i32⟩
  | 26 => ⟨S2000000, .i1⟩
  | 27 => ⟨S2000000, .i1⟩
  | 28 => ⟨S_, .i32⟩
  | 29 => ⟨S2000000, .i32⟩
  | 30 => ⟨S2000000, .i32⟩
  | 31 => ⟨S2000000, .i32⟩
  | 32 => ⟨S_, .i32⟩
  | 33 => ⟨S2000000, .i32⟩
  | 34 => ⟨S2000000, .i32⟩
  | 35 => ⟨S2000000, .i32⟩
  | 36 => ⟨S_, .i32⟩
  | 37 => ⟨S_, .i32⟩
  | 38 => ⟨S2000000, .i32⟩
  | 39 => ⟨S2000000, .i32⟩
  | 40 => ⟨S2000000, .f32⟩
  | 41 => ⟨S2000000, .f32⟩
  | 42 => ⟨S2000000, .f32⟩
  | 43 => ⟨S_, .f32⟩
  | 44 => ⟨S_, .f32⟩
  | 45 => ⟨S2000000, .f32⟩
  | 46 => ⟨S2000000, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2097152, .f32⟩
  | 56 => ⟨S_, .f32⟩
  | 57 => ⟨S2000000, .f32⟩
  | 58 => ⟨S2000000, .f32⟩
  | 59 => ⟨S_, .i32⟩
  | 60 => ⟨S2000000, .i32⟩
  | 61 => ⟨S2000000, .i32⟩
  | 62 => ⟨S_, .i32⟩
  | 63 => ⟨S2000000, .i32⟩
  | 64 => ⟨S2000000, .i32⟩
  | 65 => ⟨S_, .i32⟩
  | 66 => ⟨S2000000, .i32⟩
  | 67 => ⟨S2000000, .i32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i1⟩
  | 74 => ⟨S2000000, .i1⟩
  | 75 => ⟨S_, .i32⟩
  | 76 => ⟨S2000000, .i32⟩
  | 77 => ⟨S2000000, .i1⟩
  | 78 => ⟨S2000000, .i1⟩
  | 79 => ⟨S_, .i32⟩
  | 80 => ⟨S2000000, .i32⟩
  | 81 => ⟨S2000000, .i1⟩
  | 82 => ⟨S2000000, .i1⟩
  | 83 => ⟨S_, .i32⟩
  | 84 => ⟨S2000000, .i32⟩
  | 85 => ⟨S2000000, .i1⟩
  | 86 => ⟨S2000000, .i1⟩
  | 87 => ⟨S_, .i32⟩
  | 88 => ⟨S2000000, .i32⟩
  | 89 => ⟨S2000000, .i1⟩
  | 90 => ⟨S2000000, .i1⟩
  | 91 => ⟨S_, .i32⟩
  | 92 => ⟨S2000000, .i32⟩
  | 93 => ⟨S2000000, .i32⟩
  | 94 => ⟨S2000000, .i32⟩
  | 95 => ⟨S_, .i32⟩
  | 96 => ⟨S2000000, .i32⟩
  | 97 => ⟨S2000000, .i32⟩
  | 98 => ⟨S2000000, .i32⟩
  | 99 => ⟨S_, .i32⟩
  | 100 => ⟨S_, .i32⟩
  | 101 => ⟨S2000000, .i32⟩
  | 102 => ⟨S2000000, .i32⟩
  | 103 => ⟨S2000000, .f32⟩
  | 104 => ⟨S2000000, .f32⟩
  | 105 => ⟨S2000000, .f32⟩
  | 106 => ⟨S_, .f32⟩
  | 107 => ⟨S_, .f32⟩
  | 108 => ⟨S2000000, .f32⟩
  | 109 => ⟨S2000000, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2097152, .f32⟩
  | 119 => ⟨S_, .i32⟩
  | 120 => ⟨S2000000, .i32⟩
  | 121 => ⟨S2000000, .i32⟩
  | 122 => ⟨S_, .i32⟩
  | 123 => ⟨S2000000, .i32⟩
  | 124 => ⟨S2000000, .i32⟩
  | 125 => ⟨S_, .i32⟩
  | 126 => ⟨S2000000, .i32⟩
  | 127 => ⟨S2000000, .i32⟩
  | _ => ⟨S1x2000000x3, .f32⟩

abbrev hbmTy0_4 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i1⟩
  | 6 => ⟨S2000000, .i1⟩
  | 7 => ⟨S_, .i32⟩
  | 8 => ⟨S2000000, .i32⟩
  | 9 => ⟨S2000000, .i1⟩
  | 10 => ⟨S2000000, .i1⟩
  | 11 => ⟨S_, .i32⟩
  | 12 => ⟨S2000000, .i32⟩
  | 13 => ⟨S2000000, .i1⟩
  | 14 => ⟨S2000000, .i1⟩
  | 15 => ⟨S_, .i32⟩
  | 16 => ⟨S2000000, .i32⟩
  | 17 => ⟨S2000000, .i1⟩
  | 18 => ⟨S2000000, .i1⟩
  | 19 => ⟨S_, .i32⟩
  | 20 => ⟨S2000000, .i32⟩
  | 21 => ⟨S2000000, .i1⟩
  | 22 => ⟨S2000000, .i1⟩
  | 23 => ⟨S_, .i32⟩
  | 24 => ⟨S2000000, .i32⟩
  | 25 => ⟨S2000000, .i32⟩
  | 26 => ⟨S2000000, .i32⟩
  | 27 => ⟨S_, .i32⟩
  | 28 => ⟨S2000000, .i32⟩
  | 29 => ⟨S2000000, .i32⟩
  | 30 => ⟨S2000000, .i32⟩
  | 31 => ⟨S_, .i32⟩
  | 32 => ⟨S_, .i32⟩
  | 33 => ⟨S2000000, .i32⟩
  | 34 => ⟨S2000000, .i32⟩
  | 35 => ⟨S2000000, .f32⟩
  | 36 => ⟨S2000000, .f32⟩
  | 37 => ⟨S2000000, .f32⟩
  | 38 => ⟨S_, .f32⟩
  | 39 => ⟨S_, .f32⟩
  | 40 => ⟨S2000000, .f32⟩
  | 41 => ⟨S2000000, .f32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S2097152, .f32⟩
  | 51 => ⟨S128x128x128, .f32⟩
  | 52 => ⟨S2000000x1, .f32⟩
  | 53 => ⟨S2000000, .f32⟩
  | 54 => ⟨S_, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S2000000x1, .f32⟩
  | 67 => ⟨S2000000, .f32⟩
  | 68 => ⟨S_, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S2000000x1, .f32⟩
  | 81 => ⟨S2000000, .f32⟩
  | 82 => ⟨S_, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S_, .f32⟩
  | 89 => ⟨S2000000, .f32⟩
  | 90 => ⟨S2000000, .f32⟩
  | 91 => ⟨S_, .f32⟩
  | 92 => ⟨S2000000, .f32⟩
  | 93 => ⟨S2000000, .f32⟩
  | 94 => ⟨S2000000, .f32⟩
  | 95 => ⟨S2000000, .f32⟩
  | 96 => ⟨S2000000, .f32⟩
  | 97 => ⟨S2000000, .f32⟩
  | 98 => ⟨S2000000, .f32⟩
  | 99 => ⟨S2000000, .f32⟩
  | 100 => ⟨S2000000, .i32⟩
  | 101 => ⟨S2000000, .i32⟩
  | 102 => ⟨S2000000, .i32⟩
  | 103 => ⟨S_, .f32⟩
  | 104 => ⟨S2097152, .f32⟩
  | 105 => ⟨S_, .f32⟩
  | 106 => ⟨S2000000, .f32⟩
  | 107 => ⟨S2000000, .f32⟩
  | 108 => ⟨S_, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S_, .i32⟩
  | 115 => ⟨S2000000, .i32⟩
  | 116 => ⟨S2000000, .i32⟩
  | 117 => ⟨S_, .i32⟩
  | 118 => ⟨S2000000, .i32⟩
  | 119 => ⟨S2000000, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S1x2000000x3, .f32⟩

abbrev hbmTy0_5 (i : Nat) : BufTy := match i % 128 with
  | 0 => ⟨S2000000, .i1⟩
  | 1 => ⟨S2000000, .i1⟩
  | 2 => ⟨S_, .i32⟩
  | 3 => ⟨S2000000, .i32⟩
  | 4 => ⟨S2000000, .i1⟩
  | 5 => ⟨S2000000, .i1⟩
  | 6 => ⟨S_, .i32⟩
  | 7 => ⟨S2000000, .i32⟩
  | 8 => ⟨S2000000, .i1⟩
  | 9 => ⟨S2000000, .i1⟩
  | 10 => ⟨S_, .i32⟩
  | 11 => ⟨S2000000, .i32⟩
  | 12 => ⟨S2000000, .i1⟩
  | 13 => ⟨S2000000, .i1⟩
  | 14 => ⟨S_, .i32⟩
  | 15 => ⟨S2000000, .i32⟩
  | 16 => ⟨S2000000, .i1⟩
  | 17 => ⟨S2000000, .i1⟩
  | 18 => ⟨S_, .i32⟩
  | 19 => ⟨S2000000, .i32⟩
  | 20 => ⟨S2000000, .i32⟩
  | 21 => ⟨S2000000, .i32⟩
  | 22 => ⟨S_, .i32⟩
  | 23 => ⟨S2000000, .i32⟩
  | 24 => ⟨S2000000, .i32⟩
  | 25 => ⟨S2000000, .i32⟩
  | 26 => ⟨S_, .i32⟩
  | 27 => ⟨S_, .i32⟩
  | 28 => ⟨S2000000, .i32⟩
  | 29 => ⟨S2000000, .i32⟩
  | 30 => ⟨S2000000, .f32⟩
  | 31 => ⟨S2000000, .f32⟩
  | 32 => ⟨S2000000, .f32⟩
  | 33 => ⟨S_, .f32⟩
  | 34 => ⟨S_, .f32⟩
  | 35 => ⟨S2000000, .f32⟩
  | 36 => ⟨S2000000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2097152, .f32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i32⟩
  | 52 => ⟨S_, .i32⟩
  | 53 => ⟨S2000000, .i32⟩
  | 54 => ⟨S2000000, .i32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i1⟩
  | 61 => ⟨S2000000, .i1⟩
  | 62 => ⟨S_, .i32⟩
  | 63 => ⟨S2000000, .i32⟩
  | 64 => ⟨S2000000, .i1⟩
  | 65 => ⟨S2000000, .i1⟩
  | 66 => ⟨S_, .i32⟩
  | 67 => ⟨S2000000, .i32⟩
  | 68 => ⟨S2000000, .i1⟩
  | 69 => ⟨S2000000, .i1⟩
  | 70 => ⟨S_, .i32⟩
  | 71 => ⟨S2000000, .i32⟩
  | 72 => ⟨S2000000, .i1⟩
  | 73 => ⟨S2000000, .i1⟩
  | 74 => ⟨S_, .i32⟩
  | 75 => ⟨S2000000, .i32⟩
  | 76 => ⟨S2000000, .i1⟩
  | 77 => ⟨S2000000, .i1⟩
  | 78 => ⟨S_, .i32⟩
  | 79 => ⟨S2000000, .i32⟩
  | 80 => ⟨S2000000, .i32⟩
  | 81 => ⟨S2000000, .i32⟩
  | 82 => ⟨S_, .i32⟩
  | 83 => ⟨S2000000, .i32⟩
  | 84 => ⟨S2000000, .i32⟩
  | 85 => ⟨S2000000, .i32⟩
  | 86 => ⟨S_, .i32⟩
  | 87 => ⟨S_, .i32⟩
  | 88 => ⟨S2000000, .i32⟩
  | 89 => ⟨S2000000, .i32⟩
  | 90 => ⟨S2000000, .f32⟩
  | 91 => ⟨S2000000, .f32⟩
  | 92 => ⟨S2000000, .f32⟩
  | 93 => ⟨S_, .f32⟩
  | 94 => ⟨S_, .f32⟩
  | 95 => ⟨S2000000, .f32⟩
  | 96 => ⟨S2000000, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2097152, .f32⟩
  | 106 => ⟨S_, .f32⟩
  | 107 => ⟨S2000000, .f32⟩
  | 108 => ⟨S2000000, .f32⟩
  | 109 => ⟨S_, .i32⟩
  | 110 => ⟨S2000000, .i32⟩
  | 111 => ⟨S2000000, .i32⟩
  | 112 => ⟨S_, .i32⟩
  | 113 => ⟨S2000000, .i32⟩
  | 114 => ⟨S2000000, .i32⟩
  | 115 => ⟨S_, .i32⟩
  | 116 => ⟨S2000000, .i32⟩
  | 117 => ⟨S2000000, .i32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i1⟩
  | 124 => ⟨S2000000, .i1⟩
  | 125 => ⟨S_, .i32⟩
  | 126 => ⟨S2000000, .i32⟩
  | 127 => ⟨S2000000, .i1⟩
  | _ => ⟨S1x2000000x3, .f32⟩

abbrev hbmTy0_6 (i : Nat) : BufTy := match i % 128 with
  | 0 => ⟨S2000000, .i1⟩
  | 1 => ⟨S_, .i32⟩
  | 2 => ⟨S2000000, .i32⟩
  | 3 => ⟨S2000000, .i1⟩
  | 4 => ⟨S2000000, .i1⟩
  | 5 => ⟨S_, .i32⟩
  | 6 => ⟨S2000000, .i32⟩
  | 7 => ⟨S2000000, .i1⟩
  | 8 => ⟨S2000000, .i1⟩
  | 9 => ⟨S_, .i32⟩
  | 10 => ⟨S2000000, .i32⟩
  | 11 => ⟨S2000000, .i1⟩
  | 12 => ⟨S2000000, .i1⟩
  | 13 => ⟨S_, .i32⟩
  | 14 => ⟨S2000000, .i32⟩
  | 15 => ⟨S2000000, .i32⟩
  | 16 => ⟨S2000000, .i32⟩
  | 17 => ⟨S_, .i32⟩
  | 18 => ⟨S2000000, .i32⟩
  | 19 => ⟨S2000000, .i32⟩
  | 20 => ⟨S2000000, .i32⟩
  | 21 => ⟨S_, .i32⟩
  | 22 => ⟨S_, .i32⟩
  | 23 => ⟨S2000000, .i32⟩
  | 24 => ⟨S2000000, .i32⟩
  | 25 => ⟨S2000000, .f32⟩
  | 26 => ⟨S2000000, .f32⟩
  | 27 => ⟨S2000000, .f32⟩
  | 28 => ⟨S_, .f32⟩
  | 29 => ⟨S_, .f32⟩
  | 30 => ⟨S2000000, .f32⟩
  | 31 => ⟨S2000000, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2097152, .f32⟩
  | 41 => ⟨S_, .i32⟩
  | 42 => ⟨S2000000, .i32⟩
  | 43 => ⟨S2000000, .i32⟩
  | 44 => ⟨S_, .i32⟩
  | 45 => ⟨S2000000, .i32⟩
  | 46 => ⟨S2000000, .i32⟩
  | 47 => ⟨S_, .i32⟩
  | 48 => ⟨S2000000, .i32⟩
  | 49 => ⟨S2000000, .i32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i1⟩
  | 56 => ⟨S2000000, .i1⟩
  | 57 => ⟨S_, .i32⟩
  | 58 => ⟨S2000000, .i32⟩
  | 59 => ⟨S2000000, .i1⟩
  | 60 => ⟨S2000000, .i1⟩
  | 61 => ⟨S_, .i32⟩
  | 62 => ⟨S2000000, .i32⟩
  | 63 => ⟨S2000000, .i1⟩
  | 64 => ⟨S2000000, .i1⟩
  | 65 => ⟨S_, .i32⟩
  | 66 => ⟨S2000000, .i32⟩
  | 67 => ⟨S2000000, .i1⟩
  | 68 => ⟨S2000000, .i1⟩
  | 69 => ⟨S_, .i32⟩
  | 70 => ⟨S2000000, .i32⟩
  | 71 => ⟨S2000000, .i1⟩
  | 72 => ⟨S2000000, .i1⟩
  | 73 => ⟨S_, .i32⟩
  | 74 => ⟨S2000000, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S2000000, .i32⟩
  | 81 => ⟨S_, .i32⟩
  | 82 => ⟨S_, .i32⟩
  | 83 => ⟨S2000000, .i32⟩
  | 84 => ⟨S2000000, .i32⟩
  | 85 => ⟨S2000000, .f32⟩
  | 86 => ⟨S2000000, .f32⟩
  | 87 => ⟨S2000000, .f32⟩
  | 88 => ⟨S_, .f32⟩
  | 89 => ⟨S_, .f32⟩
  | 90 => ⟨S2000000, .f32⟩
  | 91 => ⟨S2000000, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2097152, .f32⟩
  | 101 => ⟨S_, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S_, .i32⟩
  | 108 => ⟨S2000000, .i32⟩
  | 109 => ⟨S2000000, .i32⟩
  | 110 => ⟨S_, .i32⟩
  | 111 => ⟨S2000000, .i32⟩
  | 112 => ⟨S2000000, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i1⟩
  | 122 => ⟨S2000000, .i1⟩
  | 123 => ⟨S_, .i32⟩
  | 124 => ⟨S2000000, .i32⟩
  | 125 => ⟨S2000000, .i1⟩
  | 126 => ⟨S2000000, .i1⟩
  | 127 => ⟨S_, .i32⟩
  | _ => ⟨S1x2000000x3, .f32⟩

abbrev hbmTy0_7 (i : Nat) : BufTy := match i % 128 with
  | 0 => ⟨S2000000, .i32⟩
  | 1 => ⟨S2000000, .i1⟩
  | 2 => ⟨S2000000, .i1⟩
  | 3 => ⟨S_, .i32⟩
  | 4 => ⟨S2000000, .i32⟩
  | 5 => ⟨S2000000, .i1⟩
  | 6 => ⟨S2000000, .i1⟩
  | 7 => ⟨S_, .i32⟩
  | 8 => ⟨S2000000, .i32⟩
  | 9 => ⟨S2000000, .i1⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i32⟩
  | 18 => ⟨S2000000, .i32⟩
  | 19 => ⟨S_, .i32⟩
  | 20 => ⟨S_, .i32⟩
  | 21 => ⟨S2000000, .i32⟩
  | 22 => ⟨S2000000, .i32⟩
  | 23 => ⟨S2000000, .f32⟩
  | 24 => ⟨S2000000, .f32⟩
  | 25 => ⟨S2000000, .f32⟩
  | 26 => ⟨S_, .f32⟩
  | 27 => ⟨S_, .f32⟩
  | 28 => ⟨S2000000, .f32⟩
  | 29 => ⟨S2000000, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2097152, .f32⟩
  | 39 => ⟨S_, .i32⟩
  | 40 => ⟨S2000000, .i32⟩
  | 41 => ⟨S2000000, .i32⟩
  | 42 => ⟨S_, .i32⟩
  | 43 => ⟨S2000000, .i32⟩
  | 44 => ⟨S2000000, .i32⟩
  | 45 => ⟨S_, .i32⟩
  | 46 => ⟨S2000000, .i32⟩
  | 47 => ⟨S2000000, .i32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i1⟩
  | 54 => ⟨S2000000, .i1⟩
  | 55 => ⟨S_, .i32⟩
  | 56 => ⟨S2000000, .i32⟩
  | 57 => ⟨S2000000, .i1⟩
  | 58 => ⟨S2000000, .i1⟩
  | 59 => ⟨S_, .i32⟩
  | 60 => ⟨S2000000, .i32⟩
  | 61 => ⟨S2000000, .i1⟩
  | 62 => ⟨S2000000, .i1⟩
  | 63 => ⟨S_, .i32⟩
  | 64 => ⟨S2000000, .i32⟩
  | 65 => ⟨S2000000, .i1⟩
  | 66 => ⟨S2000000, .i1⟩
  | 67 => ⟨S_, .i32⟩
  | 68 => ⟨S2000000, .i32⟩
  | 69 => ⟨S2000000, .i1⟩
  | 70 => ⟨S2000000, .i1⟩
  | 71 => ⟨S_, .i32⟩
  | 72 => ⟨S2000000, .i32⟩
  | 73 => ⟨S2000000, .i32⟩
  | 74 => ⟨S2000000, .i32⟩
  | 75 => ⟨S_, .i32⟩
  | 76 => ⟨S2000000, .i32⟩
  | 77 => ⟨S2000000, .i32⟩
  | 78 => ⟨S2000000, .i32⟩
  | 79 => ⟨S_, .i32⟩
  | 80 => ⟨S_, .i32⟩
  | 81 => ⟨S2000000, .i32⟩
  | 82 => ⟨S2000000, .i32⟩
  | 83 => ⟨S2000000, .f32⟩
  | 84 => ⟨S2000000, .f32⟩
  | 85 => ⟨S2000000, .f32⟩
  | 86 => ⟨S_, .f32⟩
  | 87 => ⟨S_, .f32⟩
  | 88 => ⟨S2000000, .f32⟩
  | 89 => ⟨S2000000, .f32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2097152, .f32⟩
  | 99 => ⟨S_, .f32⟩
  | 100 => ⟨S2000000, .f32⟩
  | 101 => ⟨S2000000, .f32⟩
  | 102 => ⟨S_, .i32⟩
  | 103 => ⟨S2000000, .i32⟩
  | 104 => ⟨S2000000, .i32⟩
  | 105 => ⟨S_, .i32⟩
  | 106 => ⟨S2000000, .i32⟩
  | 107 => ⟨S2000000, .i32⟩
  | 108 => ⟨S_, .i32⟩
  | 109 => ⟨S2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i1⟩
  | 117 => ⟨S2000000, .i1⟩
  | 118 => ⟨S_, .i32⟩
  | 119 => ⟨S2000000, .i32⟩
  | 120 => ⟨S2000000, .i1⟩
  | 121 => ⟨S2000000, .i1⟩
  | 122 => ⟨S_, .i32⟩
  | 123 => ⟨S2000000, .i32⟩
  | 124 => ⟨S2000000, .i1⟩
  | 125 => ⟨S2000000, .i1⟩
  | 126 => ⟨S_, .i32⟩
  | 127 => ⟨S2000000, .i32⟩
  | _ => ⟨S1x2000000x3, .f32⟩

abbrev hbmTy0_8 (i : Nat) : BufTy := match i % 128 with
  | 0 => ⟨S2000000, .i1⟩
  | 1 => ⟨S2000000, .i1⟩
  | 2 => ⟨S_, .i32⟩
  | 3 => ⟨S2000000, .i32⟩
  | 4 => ⟨S2000000, .i1⟩
  | 5 => ⟨S2000000, .i1⟩
  | 6 => ⟨S_, .i32⟩
  | 7 => ⟨S2000000, .i32⟩
  | 8 => ⟨S2000000, .i32⟩
  | 9 => ⟨S2000000, .i32⟩
  | 10 => ⟨S_, .i32⟩
  | 11 => ⟨S2000000, .i32⟩
  | 12 => ⟨S2000000, .i32⟩
  | 13 => ⟨S2000000, .i32⟩
  | 14 => ⟨S_, .i32⟩
  | 15 => ⟨S_, .i32⟩
  | 16 => ⟨S2000000, .i32⟩
  | 17 => ⟨S2000000, .i32⟩
  | 18 => ⟨S2000000, .f32⟩
  | 19 => ⟨S2000000, .f32⟩
  | 20 => ⟨S2000000, .f32⟩
  | 21 => ⟨S_, .f32⟩
  | 22 => ⟨S_, .f32⟩
  | 23 => ⟨S2000000, .f32⟩
  | 24 => ⟨S2000000, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2097152, .f32⟩
  | 34 => ⟨S_, .i32⟩
  | 35 => ⟨S2000000, .i32⟩
  | 36 => ⟨S2000000, .i32⟩
  | 37 => ⟨S_, .i32⟩
  | 38 => ⟨S2000000, .i32⟩
  | 39 => ⟨S2000000, .i32⟩
  | 40 => ⟨S_, .i32⟩
  | 41 => ⟨S2000000, .i32⟩
  | 42 => ⟨S2000000, .i32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i1⟩
  | 49 => ⟨S2000000, .i1⟩
  | 50 => ⟨S_, .i32⟩
  | 51 => ⟨S2000000, .i32⟩
  | 52 => ⟨S2000000, .i1⟩
  | 53 => ⟨S2000000, .i1⟩
  | 54 => ⟨S_, .i32⟩
  | 55 => ⟨S2000000, .i32⟩
  | 56 => ⟨S2000000, .i1⟩
  | 57 => ⟨S2000000, .i1⟩
  | 58 => ⟨S_, .i32⟩
  | 59 => ⟨S2000000, .i32⟩
  | 60 => ⟨S2000000, .i1⟩
  | 61 => ⟨S2000000, .i1⟩
  | 62 => ⟨S_, .i32⟩
  | 63 => ⟨S2000000, .i32⟩
  | 64 => ⟨S2000000, .i1⟩
  | 65 => ⟨S2000000, .i1⟩
  | 66 => ⟨S_, .i32⟩
  | 67 => ⟨S2000000, .i32⟩
  | 68 => ⟨S2000000, .i32⟩
  | 69 => ⟨S2000000, .i32⟩
  | 70 => ⟨S_, .i32⟩
  | 71 => ⟨S2000000, .i32⟩
  | 72 => ⟨S2000000, .i32⟩
  | 73 => ⟨S2000000, .i32⟩
  | 74 => ⟨S_, .i32⟩
  | 75 => ⟨S_, .i32⟩
  | 76 => ⟨S2000000, .i32⟩
  | 77 => ⟨S2000000, .i32⟩
  | 78 => ⟨S2000000, .f32⟩
  | 79 => ⟨S2000000, .f32⟩
  | 80 => ⟨S2000000, .f32⟩
  | 81 => ⟨S_, .f32⟩
  | 82 => ⟨S_, .f32⟩
  | 83 => ⟨S2000000, .f32⟩
  | 84 => ⟨S2000000, .f32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S2000000x1, .i32⟩
  | 93 => ⟨S2097152, .f32⟩
  | 94 => ⟨S128x128x128, .f32⟩
  | 95 => ⟨S128x128x128, .f32⟩
  | 96 => ⟨S128x128x128, .f32⟩
  | 97 => ⟨S_, .f32⟩
  | 98 => ⟨S128x128x128, .f32⟩
  | 99 => ⟨S128x128x128, .i1⟩
  | 100 => ⟨S_, .f32⟩
  | 101 => ⟨S128x128x128, .f32⟩
  | 102 => ⟨S128x128x128, .f32⟩
  | 103 => ⟨S128x128x128, .f32⟩
  | 104 => ⟨S_, .f32⟩
  | 105 => ⟨S128x128x128, .f32⟩
  | 106 => ⟨S128x128x128, .f32⟩
  | 107 => ⟨S_, .f32⟩
  | 108 => ⟨S128x128x128, .f32⟩
  | 109 => ⟨S128x128x128, .f32⟩
  | 110 => ⟨S128x128x128, .f32⟩
  | 111 => ⟨S_, .f32⟩
  | 112 => ⟨S_, .f32⟩
  | _ => ⟨S1x2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x2000000x3, .f32⟩

abbrev bufTy : (tb : Table) → Fin (tcTables nBuf tb) → BufTy
  | .hbm, ⟨i, _⟩ => hbmTy i
  | _, _ => ⟨S1x2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_v51 : Ref sig .tc := ⟨.hbm, 72, rfl⟩
abbrev main_v52 : Ref sig .tc := ⟨.hbm, 73, rfl⟩
abbrev main_c_16 : Ref sig .tc := ⟨.hbm, 74, rfl⟩
abbrev main_v53 : Ref sig .tc := ⟨.hbm, 75, rfl⟩
abbrev main_v54 : Ref sig .tc := ⟨.hbm, 76, rfl⟩
abbrev main_c_17 : Ref sig .tc := ⟨.hbm, 77, rfl⟩
abbrev main_v55 : Ref sig .tc := ⟨.hbm, 78, rfl⟩
abbrev main_v56 : Ref sig .tc := ⟨.hbm, 79, rfl⟩
abbrev main_c_18 : Ref sig .tc := ⟨.hbm, 80, rfl⟩
abbrev main_v57 : Ref sig .tc := ⟨.hbm, 81, rfl⟩
abbrev main_v58 : Ref sig .tc := ⟨.hbm, 82, rfl⟩
abbrev main_c_19 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_20 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_21 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_23 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_25 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_26 : Ref sig .tc := ⟨.hbm, 111, rfl⟩
abbrev main_call0_v0 : Ref sig .tc := ⟨.hbm, 112, rfl⟩
abbrev main_call0_v1 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_27 : Ref sig .tc := ⟨.hbm, 118, rfl⟩
abbrev main_call1_v0 : Ref sig .tc := ⟨.hbm, 119, rfl⟩
abbrev main_call1_v1 : Ref sig .tc := ⟨.hbm, 120, rfl⟩
abbrev main_v84 : Ref sig .tc := ⟨.hbm, 121, rfl⟩
abbrev main_c_28 : Ref sig .tc := ⟨.hbm, 122, rfl⟩
abbrev main_v85 : Ref sig .tc := ⟨.hbm, 123, rfl⟩
abbrev main_v86 : Ref sig .tc := ⟨.hbm, 124, rfl⟩
abbrev main_c_29 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_30 : Ref sig .tc := ⟨.hbm, 131, rfl⟩
abbrev main_v92 : Ref sig .tc := ⟨.hbm, 132, rfl⟩
abbrev main_v93 : Ref sig .tc := ⟨.hbm, 133, rfl⟩
abbrev main_c_31 : Ref sig .tc := ⟨.hbm, 134, rfl⟩
abbrev main_v94 : Ref sig .tc := ⟨.hbm, 135, rfl⟩
abbrev main_v95 : Ref sig .tc := ⟨.hbm, 136, rfl⟩
abbrev main_c_32 : Ref sig .tc := ⟨.hbm, 137, rfl⟩
abbrev main_v96 : Ref sig .tc := ⟨.hbm, 138, rfl⟩
abbrev main_v97 : Ref sig .tc := ⟨.hbm, 139, rfl⟩
abbrev main_c_33 : Ref sig .tc := ⟨.hbm, 140, rfl⟩
abbrev main_v98 : Ref sig .tc := ⟨.hbm, 141, rfl⟩
abbrev main_v99 : Ref sig .tc := ⟨.hbm, 142, rfl⟩
abbrev main_c_34 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_35 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_36 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_c_37 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_38 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_39 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_40 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_41 : Ref sig .tc := ⟨.hbm, 171, rfl⟩
abbrev main_call2_v0 : Ref sig .tc := ⟨.hbm, 172, rfl⟩
abbrev main_call2_v1 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_42 : Ref sig .tc := ⟨.hbm, 178, rfl⟩
abbrev main_call3_v0 : Ref sig .tc := ⟨.hbm, 179, rfl⟩
abbrev main_call3_v1 : Ref sig .tc := ⟨.hbm, 180, rfl⟩
abbrev main_v125 : Ref sig .tc := ⟨.hbm, 181, rfl⟩
abbrev main_c_43 : Ref sig .tc := ⟨.hbm, 182, rfl⟩
abbrev main_v126 : Ref sig .tc := ⟨.hbm, 183, rfl⟩
abbrev main_v127 : Ref sig .tc := ⟨.hbm, 184, rfl⟩
abbrev main_c_44 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_45 : Ref sig .tc := ⟨.hbm, 191, rfl⟩
abbrev main_v133 : Ref sig .tc := ⟨.hbm, 192, rfl⟩
abbrev main_v134 : Ref sig .tc := ⟨.hbm, 193, rfl⟩
abbrev main_c_46 : Ref sig .tc := ⟨.hbm, 194, rfl⟩
abbrev main_v135 : Ref sig .tc := ⟨.hbm, 195, rfl⟩
abbrev main_v136 : Ref sig .tc := ⟨.hbm, 196, rfl⟩
abbrev main_c_47 : Ref sig .tc := ⟨.hbm, 197, rfl⟩
abbrev main_v137 : Ref sig .tc := ⟨.hbm, 198, rfl⟩
abbrev main_v138 : Ref sig .tc := ⟨.hbm, 199, rfl⟩
abbrev main_c_48 : Ref sig .tc := ⟨.hbm, 200, rfl⟩
abbrev main_v139 : Ref sig .tc := ⟨.hbm, 201, rfl⟩
abbrev main_v140 : Ref sig .tc := ⟨.hbm, 202, rfl⟩
abbrev main_c_49 : Ref sig .tc := ⟨.hbm, 203, rfl⟩
abbrev main_v141 : Ref sig .tc := ⟨.hbm, 204, rfl⟩
abbrev main_v142 : Ref sig .tc := ⟨.hbm, 205, rfl⟩
abbrev main_c_50 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_c_51 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_c_52 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_c_53 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_c_54 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_c_55 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_c_56 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_c_57 : Ref sig .tc := ⟨.hbm, 234, rfl⟩
abbrev main_call4_v0 : Ref sig .tc := ⟨.hbm, 235, rfl⟩
abbrev main_call4_v1 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_58 : Ref sig .tc := ⟨.hbm, 241, rfl⟩
abbrev main_call5_v0 : Ref sig .tc := ⟨.hbm, 242, rfl⟩
abbrev main_call5_v1 : Ref sig .tc := ⟨.hbm, 243, rfl⟩
abbrev main_v168 : Ref sig .tc := ⟨.hbm, 244, rfl⟩
abbrev main_c_59 : Ref sig .tc := ⟨.hbm, 245, rfl⟩
abbrev main_v169 : Ref sig .tc := ⟨.hbm, 246, rfl⟩
abbrev main_v170 : Ref sig .tc := ⟨.hbm, 247, rfl⟩
abbrev main_c_60 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_c_61 : Ref sig .tc := ⟨.hbm, 254, rfl⟩
abbrev main_v176 : Ref sig .tc := ⟨.hbm, 255, rfl⟩
abbrev main_v177 : Ref sig .tc := ⟨.hbm, 256, rfl⟩
abbrev main_c_62 : Ref sig .tc := ⟨.hbm, 257, rfl⟩
abbrev main_v178 : Ref sig .tc := ⟨.hbm, 258, rfl⟩
abbrev main_v179 : Ref sig .tc := ⟨.hbm, 259, rfl⟩
abbrev main_c_63 : Ref sig .tc := ⟨.hbm, 260, rfl⟩
abbrev main_v180 : Ref sig .tc := ⟨.hbm, 261, rfl⟩
abbrev main_v181 : Ref sig .tc := ⟨.hbm, 262, rfl⟩
abbrev main_c_64 : Ref sig .tc := ⟨.hbm, 263, rfl⟩
abbrev main_v182 : Ref sig .tc := ⟨.hbm, 264, rfl⟩
abbrev main_v183 : Ref sig .tc := ⟨.hbm, 265, rfl⟩
abbrev main_c_65 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_c_66 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_c_67 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_c_68 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_c_69 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_c_70 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_c_71 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_c_72 : Ref sig .tc := ⟨.hbm, 294, rfl⟩
abbrev main_call6_v0 : Ref sig .tc := ⟨.hbm, 295, rfl⟩
abbrev main_call6_v1 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_cst_73 : Ref sig .tc := ⟨.hbm, 301, rfl⟩
abbrev main_call7_v0 : Ref sig .tc := ⟨.hbm, 302, rfl⟩
abbrev main_call7_v1 : Ref sig .tc := ⟨.hbm, 303, rfl⟩
abbrev main_v209 : Ref sig .tc := ⟨.hbm, 304, rfl⟩
abbrev main_c_74 : Ref sig .tc := ⟨.hbm, 305, rfl⟩
abbrev main_v210 : Ref sig .tc := ⟨.hbm, 306, rfl⟩
abbrev main_v211 : Ref sig .tc := ⟨.hbm, 307, rfl⟩
abbrev main_c_75 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_cst_76 : Ref sig .tc := ⟨.hbm, 314, rfl⟩
abbrev main_v217 : Ref sig .tc := ⟨.hbm, 315, rfl⟩
abbrev main_v218 : Ref sig .tc := ⟨.hbm, 316, rfl⟩
abbrev main_cst_77 : Ref sig .tc := ⟨.hbm, 317, rfl⟩
abbrev main_v219 : Ref sig .tc := ⟨.hbm, 318, rfl⟩
abbrev main_v220 : Ref sig .tc := ⟨.hbm, 319, rfl⟩
abbrev main_c_78 : Ref sig .tc := ⟨.hbm, 320, rfl⟩
abbrev main_v221 : Ref sig .tc := ⟨.hbm, 321, rfl⟩
abbrev main_v222 : Ref sig .tc := ⟨.hbm, 322, rfl⟩
abbrev main_c_79 : Ref sig .tc := ⟨.hbm, 323, rfl⟩
abbrev main_v223 : Ref sig .tc := ⟨.hbm, 324, rfl⟩
abbrev main_v224 : Ref sig .tc := ⟨.hbm, 325, rfl⟩
abbrev main_c_80 : Ref sig .tc := ⟨.hbm, 326, rfl⟩
abbrev main_v225 : Ref sig .tc := ⟨.hbm, 327, rfl⟩
abbrev main_v226 : Ref sig .tc := ⟨.hbm, 328, rfl⟩
abbrev main_c_81 : Ref sig .tc := ⟨.hbm, 329, rfl⟩
abbrev main_v227 : Ref sig .tc := ⟨.hbm, 330, rfl⟩
abbrev main_v228 : Ref sig .tc := ⟨.hbm, 331, rfl⟩
abbrev main_c_82 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_c_83 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_c_84 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_c_85 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_c_86 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_c_87 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_c_88 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_c_89 : Ref sig .tc := ⟨.hbm, 360, rfl⟩
abbrev main_call8_v0 : Ref sig .tc := ⟨.hbm, 361, rfl⟩
abbrev main_call8_v1 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_cst_90 : Ref sig .tc := ⟨.hbm, 367, rfl⟩
abbrev main_call9_v0 : Ref sig .tc := ⟨.hbm, 368, rfl⟩
abbrev main_call9_v1 : Ref sig .tc := ⟨.hbm, 369, rfl⟩
abbrev main_v254 : Ref sig .tc := ⟨.hbm, 370, rfl⟩
abbrev main_c_91 : Ref sig .tc := ⟨.hbm, 371, rfl⟩
abbrev main_v255 : Ref sig .tc := ⟨.hbm, 372, rfl⟩
abbrev main_v256 : Ref sig .tc := ⟨.hbm, 373, rfl⟩
abbrev main_c_92 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_c_93 : Ref sig .tc := ⟨.hbm, 380, rfl⟩
abbrev main_v262 : Ref sig .tc := ⟨.hbm, 381, rfl⟩
abbrev main_v263 : Ref sig .tc := ⟨.hbm, 382, rfl⟩
abbrev main_c_94 : Ref sig .tc := ⟨.hbm, 383, rfl⟩
abbrev main_v264 : Ref sig .tc := ⟨.hbm, 384, rfl⟩
abbrev main_v265 : Ref sig .tc := ⟨.hbm, 385, rfl⟩
abbrev main_c_95 : Ref sig .tc := ⟨.hbm, 386, rfl⟩
abbrev main_v266 : Ref sig .tc := ⟨.hbm, 387, rfl⟩
abbrev main_v267 : Ref sig .tc := ⟨.hbm, 388, rfl⟩
abbrev main_c_96 : Ref sig .tc := ⟨.hbm, 389, rfl⟩
abbrev main_v268 : Ref sig .tc := ⟨.hbm, 390, rfl⟩
abbrev main_v269 : Ref sig .tc := ⟨.hbm, 391, rfl⟩
abbrev main_c_97 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_c_98 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_c_99 : Ref sig .tc := ⟨.hbm, 400, rfl⟩
abbrev main_v276 : Ref sig .tc := ⟨.hbm, 401, rfl⟩
abbrev main_v277 : Ref sig .tc := ⟨.hbm, 402, rfl⟩
abbrev main_v278 : Ref sig .tc := ⟨.hbm, 403, rfl⟩
abbrev main_c_100 : Ref sig .tc := ⟨.hbm, 404, rfl⟩
abbrev main_v279 : Ref sig .tc := ⟨.hbm, 405, rfl⟩
abbrev main_v280 : Ref sig .tc := ⟨.hbm, 406, rfl⟩
abbrev main_v281 : Ref sig .tc := ⟨.hbm, 407, rfl⟩
abbrev main_c_101 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_c_102 : Ref sig .tc := ⟨.hbm, 412, rfl⟩
abbrev main_v285 : Ref sig .tc := ⟨.hbm, 413, rfl⟩
abbrev main_v286 : Ref sig .tc := ⟨.hbm, 414, rfl⟩
abbrev main_v287 : Ref sig .tc := ⟨.hbm, 415, rfl⟩
abbrev main_c_103 : Ref sig .tc := ⟨.hbm, 416, rfl⟩
abbrev main_v288 : Ref sig .tc := ⟨.hbm, 417, rfl⟩
abbrev main_v289 : Ref sig .tc := ⟨.hbm, 418, rfl⟩
abbrev main_v290 : Ref sig .tc := ⟨.hbm, 419, rfl⟩
abbrev main_c_104 : Ref sig .tc := ⟨.hbm, 420, rfl⟩
abbrev main_call10_v0 : Ref sig .tc := ⟨.hbm, 421, rfl⟩
abbrev main_call10_v1 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_cst_105 : Ref sig .tc := ⟨.hbm, 427, rfl⟩
abbrev main_call11_v0 : Ref sig .tc := ⟨.hbm, 428, rfl⟩
abbrev main_call11_v1 : Ref sig .tc := ⟨.hbm, 429, rfl⟩
abbrev main_v295 : Ref sig .tc := ⟨.hbm, 430, rfl⟩
abbrev main_c_106 : Ref sig .tc := ⟨.hbm, 431, rfl⟩
abbrev main_v296 : Ref sig .tc := ⟨.hbm, 432, rfl⟩
abbrev main_v297 : Ref sig .tc := ⟨.hbm, 433, rfl⟩
abbrev main_c_107 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_v301 : Ref sig .tc := ⟨.hbm, 438, rfl⟩
abbrev main_v302 : Ref sig .tc := ⟨.hbm, 439, rfl⟩
abbrev main_cst_108 : Ref sig .tc := ⟨.hbm, 440, rfl⟩
abbrev main_v303 : Ref sig .tc := ⟨.hbm, 441, rfl⟩
abbrev main_v304 : Ref sig .tc := ⟨.hbm, 442, rfl⟩
abbrev main_c_109 : Ref sig .tc := ⟨.hbm, 443, rfl⟩
abbrev main_v305 : Ref sig .tc := ⟨.hbm, 444, rfl⟩
abbrev main_v306 : Ref sig .tc := ⟨.hbm, 445, rfl⟩
abbrev main_c_110 : Ref sig .tc := ⟨.hbm, 446, rfl⟩
abbrev main_v307 : Ref sig .tc := ⟨.hbm, 447, rfl⟩
abbrev main_v308 : Ref sig .tc := ⟨.hbm, 448, rfl⟩
abbrev main_c_111 : Ref sig .tc := ⟨.hbm, 449, rfl⟩
abbrev main_v309 : Ref sig .tc := ⟨.hbm, 450, rfl⟩
abbrev main_v310 : Ref sig .tc := ⟨.hbm, 451, rfl⟩
abbrev main_c_112 : Ref sig .tc := ⟨.hbm, 452, rfl⟩
abbrev main_v311 : Ref sig .tc := ⟨.hbm, 453, rfl⟩
abbrev main_v312 : Ref sig .tc := ⟨.hbm, 454, rfl⟩
abbrev main_c_113 : Ref sig .tc := ⟨.hbm, 455, rfl⟩
abbrev main_v313 : Ref sig .tc := ⟨.hbm, 456, rfl⟩
abbrev main_v314 : Ref sig .tc := ⟨.hbm, 457, rfl⟩
abbrev main_v315 : Ref sig .tc := ⟨.hbm, 458, rfl⟩
abbrev main_c_114 : Ref sig .tc := ⟨.hbm, 459, rfl⟩
abbrev main_v316 : Ref sig .tc := ⟨.hbm, 460, rfl⟩
abbrev main_v317 : Ref sig .tc := ⟨.hbm, 461, rfl⟩
abbrev main_v318 : Ref sig .tc := ⟨.hbm, 462, rfl⟩
abbrev main_c_115 : Ref sig .tc := ⟨.hbm, 463, rfl⟩
abbrev main_v319 : Ref sig .tc := ⟨.hbm, 464, rfl⟩
abbrev main_v320 : Ref sig .tc := ⟨.hbm, 465, rfl⟩
abbrev main_v321 : Ref sig .tc := ⟨.hbm, 466, rfl⟩
abbrev main_c_116 : Ref sig .tc := ⟨.hbm, 467, rfl⟩
abbrev main_v322 : Ref sig .tc := ⟨.hbm, 468, rfl⟩
abbrev main_v323 : Ref sig .tc := ⟨.hbm, 469, rfl⟩
abbrev main_v324 : Ref sig .tc := ⟨.hbm, 470, rfl⟩
abbrev main_c_117 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_c_118 : Ref sig .tc := ⟨.hbm, 475, rfl⟩
abbrev main_v328 : Ref sig .tc := ⟨.hbm, 476, rfl⟩
abbrev main_v329 : Ref sig .tc := ⟨.hbm, 477, rfl⟩
abbrev main_v330 : Ref sig .tc := ⟨.hbm, 478, rfl⟩
abbrev main_c_119 : Ref sig .tc := ⟨.hbm, 479, rfl⟩
abbrev main_v331 : Ref sig .tc := ⟨.hbm, 480, rfl⟩
abbrev main_v332 : Ref sig .tc := ⟨.hbm, 481, rfl⟩
abbrev main_v333 : Ref sig .tc := ⟨.hbm, 482, rfl⟩
abbrev main_c_120 : Ref sig .tc := ⟨.hbm, 483, rfl⟩
abbrev main_call12_v0 : Ref sig .tc := ⟨.hbm, 484, rfl⟩
abbrev main_call12_v1 : Ref sig .tc := ⟨.hbm, 485, rfl⟩
abbrev main_v334 : Ref sig .tc := ⟨.hbm, 486, rfl⟩
abbrev main_v335 : Ref sig .tc := ⟨.hbm, 487, rfl⟩
abbrev main_v336 : Ref sig .tc := ⟨.hbm, 488, rfl⟩
abbrev main_v337 : Ref sig .tc := ⟨.hbm, 489, rfl⟩
abbrev main_cst_121 : Ref sig .tc := ⟨.hbm, 490, rfl⟩
abbrev main_call13_v0 : Ref sig .tc := ⟨.hbm, 491, rfl⟩
abbrev main_call13_v1 : Ref sig .tc := ⟨.hbm, 492, rfl⟩
abbrev main_v338 : Ref sig .tc := ⟨.hbm, 493, rfl⟩
abbrev main_c_122 : Ref sig .tc := ⟨.hbm, 494, rfl⟩
abbrev main_v339 : Ref sig .tc := ⟨.hbm, 495, rfl⟩
abbrev main_v340 : Ref sig .tc := ⟨.hbm, 496, rfl⟩
abbrev main_c_123 : Ref sig .tc := ⟨.hbm, 497, rfl⟩
abbrev main_v341 : Ref sig .tc := ⟨.hbm, 498, rfl⟩
abbrev main_v342 : Ref sig .tc := ⟨.hbm, 499, rfl⟩
abbrev main_v343 : Ref sig .tc := ⟨.hbm, 500, rfl⟩
abbrev main_v344 : Ref sig .tc := ⟨.hbm, 501, rfl⟩
abbrev main_v345 : Ref sig .tc := ⟨.hbm, 502, rfl⟩
abbrev main_c_124 : Ref sig .tc := ⟨.hbm, 503, rfl⟩
abbrev main_v346 : Ref sig .tc := ⟨.hbm, 504, rfl⟩
abbrev main_v347 : Ref sig .tc := ⟨.hbm, 505, rfl⟩
abbrev main_c_125 : Ref sig .tc := ⟨.hbm, 506, rfl⟩
abbrev main_v348 : Ref sig .tc := ⟨.hbm, 507, rfl⟩
abbrev main_v349 : Ref sig .tc := ⟨.hbm, 508, rfl⟩
abbrev main_c_126 : Ref sig .tc := ⟨.hbm, 509, rfl⟩
abbrev main_v350 : Ref sig .tc := ⟨.hbm, 510, rfl⟩
abbrev main_v351 : Ref sig .tc := ⟨.hbm, 511, rfl⟩
abbrev main_c_127 : Ref sig .tc := ⟨.hbm, 512, rfl⟩
abbrev main_v352 : Ref sig .tc := ⟨.hbm, 513, rfl⟩
abbrev main_v353 : Ref sig .tc := ⟨.hbm, 514, rfl⟩
abbrev main_c_128 : Ref sig .tc := ⟨.hbm, 515, rfl⟩
abbrev main_v354 : Ref sig .tc := ⟨.hbm, 516, rfl⟩
abbrev main_v355 : Ref sig .tc := ⟨.hbm, 517, rfl⟩
abbrev main_v356 : Ref sig .tc := ⟨.hbm, 518, rfl⟩
abbrev main_c_129 : Ref sig .tc := ⟨.hbm, 519, rfl⟩
abbrev main_v357 : Ref sig .tc := ⟨.hbm, 520, rfl⟩
abbrev main_v358 : Ref sig .tc := ⟨.hbm, 521, rfl⟩
abbrev main_v359 : Ref sig .tc := ⟨.hbm, 522, rfl⟩
abbrev main_c_130 : Ref sig .tc := ⟨.hbm, 523, rfl⟩
abbrev main_v360 : Ref sig .tc := ⟨.hbm, 524, rfl⟩
abbrev main_v361 : Ref sig .tc := ⟨.hbm, 525, rfl⟩
abbrev main_v362 : Ref sig .tc := ⟨.hbm, 526, rfl⟩
abbrev main_c_131 : Ref sig .tc := ⟨.hbm, 527, rfl⟩
abbrev main_v363 : Ref sig .tc := ⟨.hbm, 528, rfl⟩
abbrev main_v364 : Ref sig .tc := ⟨.hbm, 529, rfl⟩
abbrev main_v365 : Ref sig .tc := ⟨.hbm, 530, rfl⟩
abbrev main_c_132 : Ref sig .tc := ⟨.hbm, 531, rfl⟩
abbrev main_v366 : Ref sig .tc := ⟨.hbm, 532, rfl⟩
abbrev main_v367 : Ref sig .tc := ⟨.hbm, 533, rfl⟩
abbrev main_v368 : Ref sig .tc := ⟨.hbm, 534, rfl⟩
abbrev main_c_133 : Ref sig .tc := ⟨.hbm, 535, rfl⟩
abbrev main_v369 : Ref sig .tc := ⟨.hbm, 536, rfl⟩
abbrev main_v370 : Ref sig .tc := ⟨.hbm, 537, rfl⟩
abbrev main_v371 : Ref sig .tc := ⟨.hbm, 538, rfl⟩
abbrev main_c_134 : Ref sig .tc := ⟨.hbm, 539, rfl⟩
abbrev main_v372 : Ref sig .tc := ⟨.hbm, 540, rfl⟩
abbrev main_v373 : Ref sig .tc := ⟨.hbm, 541, rfl⟩
abbrev main_v374 : Ref sig .tc := ⟨.hbm, 542, rfl⟩
abbrev main_c_135 : Ref sig .tc := ⟨.hbm, 543, rfl⟩
abbrev main_call14_v0 : Ref sig .tc := ⟨.hbm, 544, rfl⟩
abbrev main_call14_v1 : Ref sig .tc := ⟨.hbm, 545, rfl⟩
abbrev main_v375 : Ref sig .tc := ⟨.hbm, 546, rfl⟩
abbrev main_v376 : Ref sig .tc := ⟨.hbm, 547, rfl⟩
abbrev main_v377 : Ref sig .tc := ⟨.hbm, 548, rfl⟩
abbrev main_v378 : Ref sig .tc := ⟨.hbm, 549, rfl⟩
abbrev main_cst_136 : Ref sig .tc := ⟨.hbm, 550, rfl⟩
abbrev main_call15_v0 : Ref sig .tc := ⟨.hbm, 551, rfl⟩
abbrev main_call15_v1 : Ref sig .tc := ⟨.hbm, 552, rfl⟩
abbrev main_v379 : Ref sig .tc := ⟨.hbm, 553, rfl⟩
abbrev main_c_137 : Ref sig .tc := ⟨.hbm, 554, rfl⟩
abbrev main_v380 : Ref sig .tc := ⟨.hbm, 555, rfl⟩
abbrev main_v381 : Ref sig .tc := ⟨.hbm, 556, rfl⟩
abbrev main_c_138 : Ref sig .tc := ⟨.hbm, 557, rfl⟩
abbrev main_v382 : Ref sig .tc := ⟨.hbm, 558, rfl⟩
abbrev main_v383 : Ref sig .tc := ⟨.hbm, 559, rfl⟩
abbrev main_v384 : Ref sig .tc := ⟨.hbm, 560, rfl⟩
abbrev main_v385 : Ref sig .tc := ⟨.hbm, 561, rfl⟩
abbrev main_v386 : Ref sig .tc := ⟨.hbm, 562, rfl⟩
abbrev main_v387 : Ref sig .tc := ⟨.hbm, 563, rfl⟩
abbrev main_v388 : Ref sig .tc := ⟨.hbm, 564, rfl⟩
abbrev main_v389 : Ref sig .tc := ⟨.hbm, 565, rfl⟩
abbrev main_cst_139 : Ref sig .tc := ⟨.hbm, 566, rfl⟩
abbrev main_v390 : Ref sig .tc := ⟨.hbm, 567, rfl⟩
abbrev main_v391 : Ref sig .tc := ⟨.hbm, 568, rfl⟩
abbrev main_cst_140 : Ref sig .tc := ⟨.hbm, 569, rfl⟩
abbrev main_v392 : Ref sig .tc := ⟨.hbm, 570, rfl⟩
abbrev main_v393 : Ref sig .tc := ⟨.hbm, 571, rfl⟩
abbrev main_cst_141 : Ref sig .tc := ⟨.hbm, 572, rfl⟩
abbrev main_v394 : Ref sig .tc := ⟨.hbm, 573, rfl⟩
abbrev main_v395 : Ref sig .tc := ⟨.hbm, 574, rfl⟩
abbrev main_cst_142 : Ref sig .tc := ⟨.hbm, 575, rfl⟩
abbrev main_v396 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩
abbrev main_cst_143 : Ref sig .tc := ⟨.hbm, 580, rfl⟩
abbrev main_v400 : Ref sig .tc := ⟨.hbm, 581, rfl⟩
abbrev main_v401 : Ref sig .tc := ⟨.hbm, 582, rfl⟩
abbrev main_cst_144 : Ref sig .tc := ⟨.hbm, 583, rfl⟩
abbrev main_v402 : Ref sig .tc := ⟨.hbm, 584, rfl⟩
abbrev main_v403 : Ref sig .tc := ⟨.hbm, 585, rfl⟩
abbrev main_cst_145 : Ref sig .tc := ⟨.hbm, 586, rfl⟩
abbrev main_v404 : Ref sig .tc := ⟨.hbm, 587, rfl⟩
abbrev main_v405 : Ref sig .tc := ⟨.hbm, 588, rfl⟩
abbrev main_cst_146 : Ref sig .tc := ⟨.hbm, 589, rfl⟩
abbrev main_v406 : Ref sig .tc := ⟨.hbm, 590, rfl⟩
abbrev main_v407 : Ref sig .tc := ⟨.hbm, 591, rfl⟩
abbrev main_v408 : Ref sig .tc := ⟨.hbm, 592, rfl⟩
abbrev main_v409 : Ref sig .tc := ⟨.hbm, 593, rfl⟩
abbrev main_cst_147 : Ref sig .tc := ⟨.hbm, 594, rfl⟩
abbrev main_v410 : Ref sig .tc := ⟨.hbm, 595, rfl⟩
abbrev main_v411 : Ref sig .tc := ⟨.hbm, 596, rfl⟩
abbrev main_cst_148 : Ref sig .tc := ⟨.hbm, 597, rfl⟩
abbrev main_v412 : Ref sig .tc := ⟨.hbm, 598, rfl⟩
abbrev main_v413 : Ref sig .tc := ⟨.hbm, 599, rfl⟩
abbrev main_cst_149 : Ref sig .tc := ⟨.hbm, 600, rfl⟩
abbrev main_v414 : Ref sig .tc := ⟨.hbm, 601, rfl⟩
abbrev main_v415 : Ref sig .tc := ⟨.hbm, 602, rfl⟩
abbrev main_cst_150 : Ref sig .tc := ⟨.hbm, 603, rfl⟩
abbrev main_v416 : Ref sig .tc := ⟨.hbm, 604, rfl⟩
abbrev main_v417 : Ref sig .tc := ⟨.hbm, 605, rfl⟩
abbrev main_v418 : Ref sig .tc := ⟨.hbm, 606, rfl⟩
abbrev main_v419 : Ref sig .tc := ⟨.hbm, 607, rfl⟩
abbrev main_v420 : Ref sig .tc := ⟨.hbm, 608, rfl⟩
abbrev main_v421 : Ref sig .tc := ⟨.hbm, 609, rfl⟩
abbrev main_v422 : Ref sig .tc := ⟨.hbm, 610, rfl⟩
abbrev main_v423 : Ref sig .tc := ⟨.hbm, 611, rfl⟩
abbrev main_v424 : Ref sig .tc := ⟨.hbm, 612, rfl⟩
abbrev main_v425 : Ref sig .tc := ⟨.hbm, 613, rfl⟩
abbrev main_v426 : Ref sig .tc := ⟨.hbm, 614, rfl⟩
abbrev main_cst_151 : Ref sig .tc := ⟨.hbm, 615, rfl⟩
abbrev main_v427 : Ref sig .tc := ⟨.hbm, 616, rfl⟩
abbrev main_cst_152 : Ref sig .tc := ⟨.hbm, 617, rfl⟩
abbrev main_v428 : Ref sig .tc := ⟨.hbm, 618, rfl⟩
abbrev main_v429 : Ref sig .tc := ⟨.hbm, 619, rfl⟩
abbrev main_cst_153 : Ref sig .tc := ⟨.hbm, 620, rfl⟩
abbrev main_v430 : Ref sig .tc := ⟨.hbm, 621, rfl⟩
abbrev main_v431 : Ref sig .tc := ⟨.hbm, 622, rfl⟩
abbrev main_cst_154 : Ref sig .tc := ⟨.hbm, 623, rfl⟩
abbrev main_v432 : Ref sig .tc := ⟨.hbm, 624, rfl⟩
abbrev main_v433 : Ref sig .tc := ⟨.hbm, 625, rfl⟩
abbrev main_c_155 : Ref sig .tc := ⟨.hbm, 626, rfl⟩
abbrev main_v434 : Ref sig .tc := ⟨.hbm, 627, rfl⟩
abbrev main_v435 : Ref sig .tc := ⟨.hbm, 628, rfl⟩
abbrev main_c_156 : Ref sig .tc := ⟨.hbm, 629, rfl⟩
abbrev main_v436 : Ref sig .tc := ⟨.hbm, 630, rfl⟩
abbrev main_v437 : Ref sig .tc := ⟨.hbm, 631, rfl⟩
abbrev main_c_157 : Ref sig .tc := ⟨.hbm, 632, rfl⟩
abbrev main_v438 : Ref sig .tc := ⟨.hbm, 633, rfl⟩
abbrev main_v439 : Ref sig .tc := ⟨.hbm, 634, rfl⟩
abbrev main_c_158 : Ref sig .tc := ⟨.hbm, 635, rfl⟩
abbrev main_v440 : Ref sig .tc := ⟨.hbm, 636, rfl⟩
abbrev main_v441 : Ref sig .tc := ⟨.hbm, 637, rfl⟩
abbrev main_c_159 : Ref sig .tc := ⟨.hbm, 638, rfl⟩
abbrev main_v442 : Ref sig .tc := ⟨.hbm, 639, rfl⟩
abbrev main_v443 : Ref sig .tc := ⟨.hbm, 640, rfl⟩
abbrev main_v444 : Ref sig .tc := ⟨.hbm, 641, rfl⟩
abbrev main_c_160 : Ref sig .tc := ⟨.hbm, 642, rfl⟩
abbrev main_v445 : Ref sig .tc := ⟨.hbm, 643, rfl⟩
abbrev main_v446 : Ref sig .tc := ⟨.hbm, 644, rfl⟩
abbrev main_v447 : Ref sig .tc := ⟨.hbm, 645, rfl⟩
abbrev main_c_161 : Ref sig .tc := ⟨.hbm, 646, rfl⟩
abbrev main_v448 : Ref sig .tc := ⟨.hbm, 647, rfl⟩
abbrev main_v449 : Ref sig .tc := ⟨.hbm, 648, rfl⟩
abbrev main_v450 : Ref sig .tc := ⟨.hbm, 649, rfl⟩
abbrev main_c_162 : Ref sig .tc := ⟨.hbm, 650, rfl⟩
abbrev main_v451 : Ref sig .tc := ⟨.hbm, 651, rfl⟩
abbrev main_v452 : Ref sig .tc := ⟨.hbm, 652, rfl⟩
abbrev main_v453 : Ref sig .tc := ⟨.hbm, 653, rfl⟩
abbrev main_c_163 : Ref sig .tc := ⟨.hbm, 654, rfl⟩
abbrev main_v454 : Ref sig .tc := ⟨.hbm, 655, rfl⟩
abbrev main_v455 : Ref sig .tc := ⟨.hbm, 656, rfl⟩
abbrev main_v456 : Ref sig .tc := ⟨.hbm, 657, rfl⟩
abbrev main_c_164 : Ref sig .tc := ⟨.hbm, 658, rfl⟩
abbrev main_v457 : Ref sig .tc := ⟨.hbm, 659, rfl⟩
abbrev main_v458 : Ref sig .tc := ⟨.hbm, 660, rfl⟩
abbrev main_v459 : Ref sig .tc := ⟨.hbm, 661, rfl⟩
abbrev main_c_165 : Ref sig .tc := ⟨.hbm, 662, rfl⟩
abbrev main_v460 : Ref sig .tc := ⟨.hbm, 663, rfl⟩
abbrev main_v461 : Ref sig .tc := ⟨.hbm, 664, rfl⟩
abbrev main_v462 : Ref sig .tc := ⟨.hbm, 665, rfl⟩
abbrev main_c_166 : Ref sig .tc := ⟨.hbm, 666, rfl⟩
abbrev main_call16_v0 : Ref sig .tc := ⟨.hbm, 667, rfl⟩
abbrev main_call16_v1 : Ref sig .tc := ⟨.hbm, 668, rfl⟩
abbrev main_v463 : Ref sig .tc := ⟨.hbm, 669, rfl⟩
abbrev main_v464 : Ref sig .tc := ⟨.hbm, 670, rfl⟩
abbrev main_v465 : Ref sig .tc := ⟨.hbm, 671, rfl⟩
abbrev main_v466 : Ref sig .tc := ⟨.hbm, 672, rfl⟩
abbrev main_cst_167 : Ref sig .tc := ⟨.hbm, 673, rfl⟩
abbrev main_call17_v0 : Ref sig .tc := ⟨.hbm, 674, rfl⟩
abbrev main_call17_v1 : Ref sig .tc := ⟨.hbm, 675, rfl⟩
abbrev main_v467 : Ref sig .tc := ⟨.hbm, 676, rfl⟩
abbrev main_c_168 : Ref sig .tc := ⟨.hbm, 677, rfl⟩
abbrev main_v468 : Ref sig .tc := ⟨.hbm, 678, rfl⟩
abbrev main_v469 : Ref sig .tc := ⟨.hbm, 679, rfl⟩
abbrev main_c_169 : Ref sig .tc := ⟨.hbm, 680, rfl⟩
abbrev main_v470 : Ref sig .tc := ⟨.hbm, 681, rfl⟩
abbrev main_v471 : Ref sig .tc := ⟨.hbm, 682, rfl⟩
abbrev main_v472 : Ref sig .tc := ⟨.hbm, 683, rfl⟩
abbrev main_v473 : Ref sig .tc := ⟨.hbm, 684, rfl⟩
abbrev main_v474 : Ref sig .tc := ⟨.hbm, 685, rfl⟩
abbrev main_c_170 : Ref sig .tc := ⟨.hbm, 686, rfl⟩
abbrev main_v475 : Ref sig .tc := ⟨.hbm, 687, rfl⟩
abbrev main_v476 : Ref sig .tc := ⟨.hbm, 688, rfl⟩
abbrev main_c_171 : Ref sig .tc := ⟨.hbm, 689, rfl⟩
abbrev main_v477 : Ref sig .tc := ⟨.hbm, 690, rfl⟩
abbrev main_v478 : Ref sig .tc := ⟨.hbm, 691, rfl⟩
abbrev main_c_172 : Ref sig .tc := ⟨.hbm, 692, rfl⟩
abbrev main_v479 : Ref sig .tc := ⟨.hbm, 693, rfl⟩
abbrev main_v480 : Ref sig .tc := ⟨.hbm, 694, rfl⟩
abbrev main_c_173 : Ref sig .tc := ⟨.hbm, 695, rfl⟩
abbrev main_v481 : Ref sig .tc := ⟨.hbm, 696, rfl⟩
abbrev main_v482 : Ref sig .tc := ⟨.hbm, 697, rfl⟩
abbrev main_c_174 : Ref sig .tc := ⟨.hbm, 698, rfl⟩
abbrev main_v483 : Ref sig .tc := ⟨.hbm, 699, rfl⟩
abbrev main_v484 : Ref sig .tc := ⟨.hbm, 700, rfl⟩
abbrev main_v485 : Ref sig .tc := ⟨.hbm, 701, rfl⟩
abbrev main_c_175 : Ref sig .tc := ⟨.hbm, 702, rfl⟩
abbrev main_v486 : Ref sig .tc := ⟨.hbm, 703, rfl⟩
abbrev main_v487 : Ref sig .tc := ⟨.hbm, 704, rfl⟩
abbrev main_v488 : Ref sig .tc := ⟨.hbm, 705, rfl⟩
abbrev main_c_176 : Ref sig .tc := ⟨.hbm, 706, rfl⟩
abbrev main_v489 : Ref sig .tc := ⟨.hbm, 707, rfl⟩
abbrev main_v490 : Ref sig .tc := ⟨.hbm, 708, rfl⟩
abbrev main_v491 : Ref sig .tc := ⟨.hbm, 709, rfl⟩
abbrev main_c_177 : Ref sig .tc := ⟨.hbm, 710, rfl⟩
abbrev main_v492 : Ref sig .tc := ⟨.hbm, 711, rfl⟩
abbrev main_v493 : Ref sig .tc := ⟨.hbm, 712, rfl⟩
abbrev main_v494 : Ref sig .tc := ⟨.hbm, 713, rfl⟩
abbrev main_c_178 : Ref sig .tc := ⟨.hbm, 714, rfl⟩
abbrev main_v495 : Ref sig .tc := ⟨.hbm, 715, rfl⟩
abbrev main_v496 : Ref sig .tc := ⟨.hbm, 716, rfl⟩
abbrev main_v497 : Ref sig .tc := ⟨.hbm, 717, rfl⟩
abbrev main_c_179 : Ref sig .tc := ⟨.hbm, 718, rfl⟩
abbrev main_v498 : Ref sig .tc := ⟨.hbm, 719, rfl⟩
abbrev main_v499 : Ref sig .tc := ⟨.hbm, 720, rfl⟩
abbrev main_v500 : Ref sig .tc := ⟨.hbm, 721, rfl⟩
abbrev main_c_180 : Ref sig .tc := ⟨.hbm, 722, rfl⟩
abbrev main_v501 : Ref sig .tc := ⟨.hbm, 723, rfl⟩
abbrev main_v502 : Ref sig .tc := ⟨.hbm, 724, rfl⟩
abbrev main_v503 : Ref sig .tc := ⟨.hbm, 725, rfl⟩
abbrev main_c_181 : Ref sig .tc := ⟨.hbm, 726, rfl⟩
abbrev main_call18_v0 : Ref sig .tc := ⟨.hbm, 727, rfl⟩
abbrev main_call18_v1 : Ref sig .tc := ⟨.hbm, 728, rfl⟩
abbrev main_v504 : Ref sig .tc := ⟨.hbm, 729, rfl⟩
abbrev main_v505 : Ref sig .tc := ⟨.hbm, 730, rfl⟩
abbrev main_v506 : Ref sig .tc := ⟨.hbm, 731, rfl⟩
abbrev main_v507 : Ref sig .tc := ⟨.hbm, 732, rfl⟩
abbrev main_cst_182 : Ref sig .tc := ⟨.hbm, 733, rfl⟩
abbrev main_call19_v0 : Ref sig .tc := ⟨.hbm, 734, rfl⟩
abbrev main_call19_v1 : Ref sig .tc := ⟨.hbm, 735, rfl⟩
abbrev main_v508 : Ref sig .tc := ⟨.hbm, 736, rfl⟩
abbrev main_c_183 : Ref sig .tc := ⟨.hbm, 737, rfl⟩
abbrev main_v509 : Ref sig .tc := ⟨.hbm, 738, rfl⟩
abbrev main_v510 : Ref sig .tc := ⟨.hbm, 739, rfl⟩
abbrev main_c_184 : Ref sig .tc := ⟨.hbm, 740, rfl⟩
abbrev main_v511 : Ref sig .tc := ⟨.hbm, 741, rfl⟩
abbrev main_v512 : Ref sig .tc := ⟨.hbm, 742, rfl⟩
abbrev main_v513 : Ref sig .tc := ⟨.hbm, 743, rfl⟩
abbrev main_v514 : Ref sig .tc := ⟨.hbm, 744, rfl⟩
abbrev main_v515 : Ref sig .tc := ⟨.hbm, 745, rfl⟩
abbrev main_cst_185 : Ref sig .tc := ⟨.hbm, 746, rfl⟩
abbrev main_v516 : Ref sig .tc := ⟨.hbm, 747, rfl⟩
abbrev main_v517 : Ref sig .tc := ⟨.hbm, 748, rfl⟩
abbrev main_c_186 : Ref sig .tc := ⟨.hbm, 749, rfl⟩
abbrev main_v518 : Ref sig .tc := ⟨.hbm, 750, rfl⟩
abbrev main_v519 : Ref sig .tc := ⟨.hbm, 751, rfl⟩
abbrev main_c_187 : Ref sig .tc := ⟨.hbm, 752, rfl⟩
abbrev main_v520 : Ref sig .tc := ⟨.hbm, 753, rfl⟩
abbrev main_v521 : Ref sig .tc := ⟨.hbm, 754, rfl⟩
abbrev main_c_188 : Ref sig .tc := ⟨.hbm, 755, rfl⟩
abbrev main_v522 : Ref sig .tc := ⟨.hbm, 756, rfl⟩
abbrev main_v523 : Ref sig .tc := ⟨.hbm, 757, rfl⟩
abbrev main_c_189 : Ref sig .tc := ⟨.hbm, 758, rfl⟩
abbrev main_v524 : Ref sig .tc := ⟨.hbm, 759, rfl⟩
abbrev main_v525 : Ref sig .tc := ⟨.hbm, 760, rfl⟩
abbrev main_c_190 : Ref sig .tc := ⟨.hbm, 761, rfl⟩
abbrev main_v526 : Ref sig .tc := ⟨.hbm, 762, rfl⟩
abbrev main_v527 : Ref sig .tc := ⟨.hbm, 763, rfl⟩
abbrev main_v528 : Ref sig .tc := ⟨.hbm, 764, rfl⟩
abbrev main_c_191 : Ref sig .tc := ⟨.hbm, 765, rfl⟩
abbrev main_v529 : Ref sig .tc := ⟨.hbm, 766, rfl⟩
abbrev main_v530 : Ref sig .tc := ⟨.hbm, 767, rfl⟩
abbrev main_v531 : Ref sig .tc := ⟨.hbm, 768, rfl⟩
abbrev main_c_192 : Ref sig .tc := ⟨.hbm, 769, rfl⟩
abbrev main_v532 : Ref sig .tc := ⟨.hbm, 770, rfl⟩
abbrev main_v533 : Ref sig .tc := ⟨.hbm, 771, rfl⟩
abbrev main_v534 : Ref sig .tc := ⟨.hbm, 772, rfl⟩
abbrev main_c_193 : Ref sig .tc := ⟨.hbm, 773, rfl⟩
abbrev main_v535 : Ref sig .tc := ⟨.hbm, 774, rfl⟩
abbrev main_v536 : Ref sig .tc := ⟨.hbm, 775, rfl⟩
abbrev main_v537 : Ref sig .tc := ⟨.hbm, 776, rfl⟩
abbrev main_c_194 : Ref sig .tc := ⟨.hbm, 777, rfl⟩
abbrev main_v538 : Ref sig .tc := ⟨.hbm, 778, rfl⟩
abbrev main_v539 : Ref sig .tc := ⟨.hbm, 779, rfl⟩
abbrev main_v540 : Ref sig .tc := ⟨.hbm, 780, rfl⟩
abbrev main_c_195 : Ref sig .tc := ⟨.hbm, 781, rfl⟩
abbrev main_v541 : Ref sig .tc := ⟨.hbm, 782, rfl⟩
abbrev main_v542 : Ref sig .tc := ⟨.hbm, 783, rfl⟩
abbrev main_v543 : Ref sig .tc := ⟨.hbm, 784, rfl⟩
abbrev main_c_196 : Ref sig .tc := ⟨.hbm, 785, rfl⟩
abbrev main_v544 : Ref sig .tc := ⟨.hbm, 786, rfl⟩
abbrev main_v545 : Ref sig .tc := ⟨.hbm, 787, rfl⟩
abbrev main_v546 : Ref sig .tc := ⟨.hbm, 788, rfl⟩
abbrev main_c_197 : Ref sig .tc := ⟨.hbm, 789, rfl⟩
abbrev main_call20_v0 : Ref sig .tc := ⟨.hbm, 790, rfl⟩
abbrev main_call20_v1 : Ref sig .tc := ⟨.hbm, 791, rfl⟩
abbrev main_v547 : Ref sig .tc := ⟨.hbm, 792, rfl⟩
abbrev main_v548 : Ref sig .tc := ⟨.hbm, 793, rfl⟩
abbrev main_v549 : Ref sig .tc := ⟨.hbm, 794, rfl⟩
abbrev main_v550 : Ref sig .tc := ⟨.hbm, 795, rfl⟩
abbrev main_cst_198 : Ref sig .tc := ⟨.hbm, 796, rfl⟩
abbrev main_call21_v0 : Ref sig .tc := ⟨.hbm, 797, rfl⟩
abbrev main_call21_v1 : Ref sig .tc := ⟨.hbm, 798, rfl⟩
abbrev main_v551 : Ref sig .tc := ⟨.hbm, 799, rfl⟩
abbrev main_c_199 : Ref sig .tc := ⟨.hbm, 800, rfl⟩
abbrev main_v552 : Ref sig .tc := ⟨.hbm, 801, rfl⟩
abbrev main_v553 : Ref sig .tc := ⟨.hbm, 802, rfl⟩
abbrev main_c_200 : Ref sig .tc := ⟨.hbm, 803, rfl⟩
abbrev main_v554 : Ref sig .tc := ⟨.hbm, 804, rfl⟩
abbrev main_v555 : Ref sig .tc := ⟨.hbm, 805, rfl⟩
abbrev main_v556 : Ref sig .tc := ⟨.hbm, 806, rfl⟩
abbrev main_v557 : Ref sig .tc := ⟨.hbm, 807, rfl⟩
abbrev main_v558 : Ref sig .tc := ⟨.hbm, 808, rfl⟩
abbrev main_c_201 : Ref sig .tc := ⟨.hbm, 809, rfl⟩
abbrev main_v559 : Ref sig .tc := ⟨.hbm, 810, rfl⟩
abbrev main_v560 : Ref sig .tc := ⟨.hbm, 811, rfl⟩
abbrev main_c_202 : Ref sig .tc := ⟨.hbm, 812, rfl⟩
abbrev main_v561 : Ref sig .tc := ⟨.hbm, 813, rfl⟩
abbrev main_v562 : Ref sig .tc := ⟨.hbm, 814, rfl⟩
abbrev main_c_203 : Ref sig .tc := ⟨.hbm, 815, rfl⟩
abbrev main_v563 : Ref sig .tc := ⟨.hbm, 816, rfl⟩
abbrev main_v564 : Ref sig .tc := ⟨.hbm, 817, rfl⟩
abbrev main_c_204 : Ref sig .tc := ⟨.hbm, 818, rfl⟩
abbrev main_v565 : Ref sig .tc := ⟨.hbm, 819, rfl⟩
abbrev main_v566 : Ref sig .tc := ⟨.hbm, 820, rfl⟩
abbrev main_c_205 : Ref sig .tc := ⟨.hbm, 821, rfl⟩
abbrev main_v567 : Ref sig .tc := ⟨.hbm, 822, rfl⟩
abbrev main_v568 : Ref sig .tc := ⟨.hbm, 823, rfl⟩
abbrev main_v569 : Ref sig .tc := ⟨.hbm, 824, rfl⟩
abbrev main_c_206 : Ref sig .tc := ⟨.hbm, 825, rfl⟩
abbrev main_v570 : Ref sig .tc := ⟨.hbm, 826, rfl⟩
abbrev main_v571 : Ref sig .tc := ⟨.hbm, 827, rfl⟩
abbrev main_v572 : Ref sig .tc := ⟨.hbm, 828, rfl⟩
abbrev main_c_207 : Ref sig .tc := ⟨.hbm, 829, rfl⟩
abbrev main_v573 : Ref sig .tc := ⟨.hbm, 830, rfl⟩
abbrev main_v574 : Ref sig .tc := ⟨.hbm, 831, rfl⟩
abbrev main_v575 : Ref sig .tc := ⟨.hbm, 832, rfl⟩
abbrev main_c_208 : Ref sig .tc := ⟨.hbm, 833, rfl⟩
abbrev main_v576 : Ref sig .tc := ⟨.hbm, 834, rfl⟩
abbrev main_v577 : Ref sig .tc := ⟨.hbm, 835, rfl⟩
abbrev main_v578 : Ref sig .tc := ⟨.hbm, 836, rfl⟩
abbrev main_c_209 : Ref sig .tc := ⟨.hbm, 837, rfl⟩
abbrev main_v579 : Ref sig .tc := ⟨.hbm, 838, rfl⟩
abbrev main_v580 : Ref sig .tc := ⟨.hbm, 839, rfl⟩
abbrev main_v581 : Ref sig .tc := ⟨.hbm, 840, rfl⟩
abbrev main_c_210 : Ref sig .tc := ⟨.hbm, 841, rfl⟩
abbrev main_v582 : Ref sig .tc := ⟨.hbm, 842, rfl⟩
abbrev main_v583 : Ref sig .tc := ⟨.hbm, 843, rfl⟩
abbrev main_v584 : Ref sig .tc := ⟨.hbm, 844, rfl⟩
abbrev main_c_211 : Ref sig .tc := ⟨.hbm, 845, rfl⟩
abbrev main_v585 : Ref sig .tc := ⟨.hbm, 846, rfl⟩
abbrev main_v586 : Ref sig .tc := ⟨.hbm, 847, rfl⟩
abbrev main_v587 : Ref sig .tc := ⟨.hbm, 848, rfl⟩
abbrev main_c_212 : Ref sig .tc := ⟨.hbm, 849, rfl⟩
abbrev main_call22_v0 : Ref sig .tc := ⟨.hbm, 850, rfl⟩
abbrev main_call22_v1 : Ref sig .tc := ⟨.hbm, 851, rfl⟩
abbrev main_v588 : Ref sig .tc := ⟨.hbm, 852, rfl⟩
abbrev main_v589 : Ref sig .tc := ⟨.hbm, 853, rfl⟩
abbrev main_v590 : Ref sig .tc := ⟨.hbm, 854, rfl⟩
abbrev main_v591 : Ref sig .tc := ⟨.hbm, 855, rfl⟩
abbrev main_cst_213 : Ref sig .tc := ⟨.hbm, 856, rfl⟩
abbrev main_call23_v0 : Ref sig .tc := ⟨.hbm, 857, rfl⟩
abbrev main_call23_v1 : Ref sig .tc := ⟨.hbm, 858, rfl⟩
abbrev main_v592 : Ref sig .tc := ⟨.hbm, 859, rfl⟩
abbrev main_c_214 : Ref sig .tc := ⟨.hbm, 860, rfl⟩
abbrev main_v593 : Ref sig .tc := ⟨.hbm, 861, rfl⟩
abbrev main_v594 : Ref sig .tc := ⟨.hbm, 862, rfl⟩
abbrev main_c_215 : Ref sig .tc := ⟨.hbm, 863, rfl⟩
abbrev main_v595 : Ref sig .tc := ⟨.hbm, 864, rfl⟩
abbrev main_v596 : Ref sig .tc := ⟨.hbm, 865, rfl⟩
abbrev main_v597 : Ref sig .tc := ⟨.hbm, 866, rfl⟩
abbrev main_v598 : Ref sig .tc := ⟨.hbm, 867, rfl⟩
abbrev main_v599 : Ref sig .tc := ⟨.hbm, 868, rfl⟩
abbrev main_cst_216 : Ref sig .tc := ⟨.hbm, 869, rfl⟩
abbrev main_v600 : Ref sig .tc := ⟨.hbm, 870, rfl⟩
abbrev main_v601 : Ref sig .tc := ⟨.hbm, 871, rfl⟩
abbrev main_cst_217 : Ref sig .tc := ⟨.hbm, 872, rfl⟩
abbrev main_v602 : Ref sig .tc := ⟨.hbm, 873, rfl⟩
abbrev main_v603 : Ref sig .tc := ⟨.hbm, 874, rfl⟩
abbrev main_c_218 : Ref sig .tc := ⟨.hbm, 875, rfl⟩
abbrev main_v604 : Ref sig .tc := ⟨.hbm, 876, rfl⟩
abbrev main_v605 : Ref sig .tc := ⟨.hbm, 877, rfl⟩
abbrev main_c_219 : Ref sig .tc := ⟨.hbm, 878, rfl⟩
abbrev main_v606 : Ref sig .tc := ⟨.hbm, 879, rfl⟩
abbrev main_v607 : Ref sig .tc := ⟨.hbm, 880, rfl⟩
abbrev main_c_220 : Ref sig .tc := ⟨.hbm, 881, rfl⟩
abbrev main_v608 : Ref sig .tc := ⟨.hbm, 882, rfl⟩
abbrev main_v609 : Ref sig .tc := ⟨.hbm, 883, rfl⟩
abbrev main_c_221 : Ref sig .tc := ⟨.hbm, 884, rfl⟩
abbrev main_v610 : Ref sig .tc := ⟨.hbm, 885, rfl⟩
abbrev main_v611 : Ref sig .tc := ⟨.hbm, 886, rfl⟩
abbrev main_c_222 : Ref sig .tc := ⟨.hbm, 887, rfl⟩
abbrev main_v612 : Ref sig .tc := ⟨.hbm, 888, rfl⟩
abbrev main_v613 : Ref sig .tc := ⟨.hbm, 889, rfl⟩
abbrev main_v614 : Ref sig .tc := ⟨.hbm, 890, rfl⟩
abbrev main_c_223 : Ref sig .tc := ⟨.hbm, 891, rfl⟩
abbrev main_v615 : Ref sig .tc := ⟨.hbm, 892, rfl⟩
abbrev main_v616 : Ref sig .tc := ⟨.hbm, 893, rfl⟩
abbrev main_v617 : Ref sig .tc := ⟨.hbm, 894, rfl⟩
abbrev main_c_224 : Ref sig .tc := ⟨.hbm, 895, rfl⟩
abbrev main_v618 : Ref sig .tc := ⟨.hbm, 896, rfl⟩
abbrev main_v619 : Ref sig .tc := ⟨.hbm, 897, rfl⟩
abbrev main_v620 : Ref sig .tc := ⟨.hbm, 898, rfl⟩
abbrev main_c_225 : Ref sig .tc := ⟨.hbm, 899, rfl⟩
abbrev main_v621 : Ref sig .tc := ⟨.hbm, 900, rfl⟩
abbrev main_v622 : Ref sig .tc := ⟨.hbm, 901, rfl⟩
abbrev main_v623 : Ref sig .tc := ⟨.hbm, 902, rfl⟩
abbrev main_c_226 : Ref sig .tc := ⟨.hbm, 903, rfl⟩
abbrev main_v624 : Ref sig .tc := ⟨.hbm, 904, rfl⟩
abbrev main_v625 : Ref sig .tc := ⟨.hbm, 905, rfl⟩
abbrev main_v626 : Ref sig .tc := ⟨.hbm, 906, rfl⟩
abbrev main_c_227 : Ref sig .tc := ⟨.hbm, 907, rfl⟩
abbrev main_v627 : Ref sig .tc := ⟨.hbm, 908, rfl⟩
abbrev main_v628 : Ref sig .tc := ⟨.hbm, 909, rfl⟩
abbrev main_v629 : Ref sig .tc := ⟨.hbm, 910, rfl⟩
abbrev main_c_228 : Ref sig .tc := ⟨.hbm, 911, rfl⟩
abbrev main_v630 : Ref sig .tc := ⟨.hbm, 912, rfl⟩
abbrev main_v631 : Ref sig .tc := ⟨.hbm, 913, rfl⟩
abbrev main_v632 : Ref sig .tc := ⟨.hbm, 914, rfl⟩
abbrev main_c_229 : Ref sig .tc := ⟨.hbm, 915, rfl⟩
abbrev main_call24_v0 : Ref sig .tc := ⟨.hbm, 916, rfl⟩
abbrev main_call24_v1 : Ref sig .tc := ⟨.hbm, 917, rfl⟩
abbrev main_v633 : Ref sig .tc := ⟨.hbm, 918, rfl⟩
abbrev main_v634 : Ref sig .tc := ⟨.hbm, 919, rfl⟩
abbrev main_v635 : Ref sig .tc := ⟨.hbm, 920, rfl⟩
abbrev main_v636 : Ref sig .tc := ⟨.hbm, 921, rfl⟩
abbrev main_cst_230 : Ref sig .tc := ⟨.hbm, 922, rfl⟩
abbrev main_call25_v0 : Ref sig .tc := ⟨.hbm, 923, rfl⟩
abbrev main_call25_v1 : Ref sig .tc := ⟨.hbm, 924, rfl⟩
abbrev main_v637 : Ref sig .tc := ⟨.hbm, 925, rfl⟩
abbrev main_c_231 : Ref sig .tc := ⟨.hbm, 926, rfl⟩
abbrev main_v638 : Ref sig .tc := ⟨.hbm, 927, rfl⟩
abbrev main_v639 : Ref sig .tc := ⟨.hbm, 928, rfl⟩
abbrev main_c_232 : Ref sig .tc := ⟨.hbm, 929, rfl⟩
abbrev main_v640 : Ref sig .tc := ⟨.hbm, 930, rfl⟩
abbrev main_v641 : Ref sig .tc := ⟨.hbm, 931, rfl⟩
abbrev main_v642 : Ref sig .tc := ⟨.hbm, 932, rfl⟩
abbrev main_v643 : Ref sig .tc := ⟨.hbm, 933, rfl⟩
abbrev main_v644 : Ref sig .tc := ⟨.hbm, 934, rfl⟩
abbrev main_c_233 : Ref sig .tc := ⟨.hbm, 935, rfl⟩
abbrev main_v645 : Ref sig .tc := ⟨.hbm, 936, rfl⟩
abbrev main_v646 : Ref sig .tc := ⟨.hbm, 937, rfl⟩
abbrev main_c_234 : Ref sig .tc := ⟨.hbm, 938, rfl⟩
abbrev main_v647 : Ref sig .tc := ⟨.hbm, 939, rfl⟩
abbrev main_v648 : Ref sig .tc := ⟨.hbm, 940, rfl⟩
abbrev main_c_235 : Ref sig .tc := ⟨.hbm, 941, rfl⟩
abbrev main_v649 : Ref sig .tc := ⟨.hbm, 942, rfl⟩
abbrev main_v650 : Ref sig .tc := ⟨.hbm, 943, rfl⟩
abbrev main_c_236 : Ref sig .tc := ⟨.hbm, 944, rfl⟩
abbrev main_v651 : Ref sig .tc := ⟨.hbm, 945, rfl⟩
abbrev main_v652 : Ref sig .tc := ⟨.hbm, 946, rfl⟩
abbrev main_c_237 : Ref sig .tc := ⟨.hbm, 947, rfl⟩
abbrev main_v653 : Ref sig .tc := ⟨.hbm, 948, rfl⟩
abbrev main_v654 : Ref sig .tc := ⟨.hbm, 949, rfl⟩
abbrev main_v655 : Ref sig .tc := ⟨.hbm, 950, rfl⟩
abbrev main_c_238 : Ref sig .tc := ⟨.hbm, 951, rfl⟩
abbrev main_v656 : Ref sig .tc := ⟨.hbm, 952, rfl⟩
abbrev main_v657 : Ref sig .tc := ⟨.hbm, 953, rfl⟩
abbrev main_v658 : Ref sig .tc := ⟨.hbm, 954, rfl⟩
abbrev main_c_239 : Ref sig .tc := ⟨.hbm, 955, rfl⟩
abbrev main_v659 : Ref sig .tc := ⟨.hbm, 956, rfl⟩
abbrev main_v660 : Ref sig .tc := ⟨.hbm, 957, rfl⟩
abbrev main_v661 : Ref sig .tc := ⟨.hbm, 958, rfl⟩
abbrev main_c_240 : Ref sig .tc := ⟨.hbm, 959, rfl⟩
abbrev main_v662 : Ref sig .tc := ⟨.hbm, 960, rfl⟩
abbrev main_v663 : Ref sig .tc := ⟨.hbm, 961, rfl⟩
abbrev main_v664 : Ref sig .tc := ⟨.hbm, 962, rfl⟩
abbrev main_c_241 : Ref sig .tc := ⟨.hbm, 963, rfl⟩
abbrev main_v665 : Ref sig .tc := ⟨.hbm, 964, rfl⟩
abbrev main_v666 : Ref sig .tc := ⟨.hbm, 965, rfl⟩
abbrev main_v667 : Ref sig .tc := ⟨.hbm, 966, rfl⟩
abbrev main_c_242 : Ref sig .tc := ⟨.hbm, 967, rfl⟩
abbrev main_v668 : Ref sig .tc := ⟨.hbm, 968, rfl⟩
abbrev main_v669 : Ref sig .tc := ⟨.hbm, 969, rfl⟩
abbrev main_v670 : Ref sig .tc := ⟨.hbm, 970, rfl⟩
abbrev main_c_243 : Ref sig .tc := ⟨.hbm, 971, rfl⟩
abbrev main_v671 : Ref sig .tc := ⟨.hbm, 972, rfl⟩
abbrev main_v672 : Ref sig .tc := ⟨.hbm, 973, rfl⟩
abbrev main_v673 : Ref sig .tc := ⟨.hbm, 974, rfl⟩
abbrev main_c_244 : Ref sig .tc := ⟨.hbm, 975, rfl⟩
abbrev main_call26_v0 : Ref sig .tc := ⟨.hbm, 976, rfl⟩
abbrev main_call26_v1 : Ref sig .tc := ⟨.hbm, 977, rfl⟩
abbrev main_v674 : Ref sig .tc := ⟨.hbm, 978, rfl⟩
abbrev main_v675 : Ref sig .tc := ⟨.hbm, 979, rfl⟩
abbrev main_v676 : Ref sig .tc := ⟨.hbm, 980, rfl⟩
abbrev main_v677 : Ref sig .tc := ⟨.hbm, 981, rfl⟩
abbrev main_cst_245 : Ref sig .tc := ⟨.hbm, 982, rfl⟩
abbrev main_call27_v0 : Ref sig .tc := ⟨.hbm, 983, rfl⟩
abbrev main_call27_v1 : Ref sig .tc := ⟨.hbm, 984, rfl⟩
abbrev main_v678 : Ref sig .tc := ⟨.hbm, 985, rfl⟩
abbrev main_c_246 : Ref sig .tc := ⟨.hbm, 986, rfl⟩
abbrev main_v679 : Ref sig .tc := ⟨.hbm, 987, rfl⟩
abbrev main_v680 : Ref sig .tc := ⟨.hbm, 988, rfl⟩
abbrev main_c_247 : Ref sig .tc := ⟨.hbm, 989, rfl⟩
abbrev main_v681 : Ref sig .tc := ⟨.hbm, 990, rfl⟩
abbrev main_v682 : Ref sig .tc := ⟨.hbm, 991, rfl⟩
abbrev main_v683 : Ref sig .tc := ⟨.hbm, 992, rfl⟩
abbrev main_v684 : Ref sig .tc := ⟨.hbm, 993, rfl⟩
abbrev main_v685 : Ref sig .tc := ⟨.hbm, 994, rfl⟩
abbrev main_cst_248 : Ref sig .tc := ⟨.hbm, 995, rfl⟩
abbrev main_v686 : Ref sig .tc := ⟨.hbm, 996, rfl⟩
abbrev main_v687 : Ref sig .tc := ⟨.hbm, 997, rfl⟩
abbrev main_c_249 : Ref sig .tc := ⟨.hbm, 998, rfl⟩
abbrev main_v688 : Ref sig .tc := ⟨.hbm, 999, rfl⟩
abbrev main_v689 : Ref sig .tc := ⟨.hbm, 1000, rfl⟩
abbrev main_c_250 : Ref sig .tc := ⟨.hbm, 1001, rfl⟩
abbrev main_v690 : Ref sig .tc := ⟨.hbm, 1002, rfl⟩
abbrev main_v691 : Ref sig .tc := ⟨.hbm, 1003, rfl⟩
abbrev main_c_251 : Ref sig .tc := ⟨.hbm, 1004, rfl⟩
abbrev main_v692 : Ref sig .tc := ⟨.hbm, 1005, rfl⟩
abbrev main_v693 : Ref sig .tc := ⟨.hbm, 1006, rfl⟩
abbrev main_c_252 : Ref sig .tc := ⟨.hbm, 1007, rfl⟩
abbrev main_v694 : Ref sig .tc := ⟨.hbm, 1008, rfl⟩
abbrev main_v695 : Ref sig .tc := ⟨.hbm, 1009, rfl⟩
abbrev main_c_253 : Ref sig .tc := ⟨.hbm, 1010, rfl⟩
abbrev main_v696 : Ref sig .tc := ⟨.hbm, 1011, rfl⟩
abbrev main_v697 : Ref sig .tc := ⟨.hbm, 1012, rfl⟩
abbrev main_v698 : Ref sig .tc := ⟨.hbm, 1013, rfl⟩
abbrev main_c_254 : Ref sig .tc := ⟨.hbm, 1014, rfl⟩
abbrev main_v699 : Ref sig .tc := ⟨.hbm, 1015, rfl⟩
abbrev main_v700 : Ref sig .tc := ⟨.hbm, 1016, rfl⟩
abbrev main_v701 : Ref sig .tc := ⟨.hbm, 1017, rfl⟩
abbrev main_c_255 : Ref sig .tc := ⟨.hbm, 1018, rfl⟩
abbrev main_v702 : Ref sig .tc := ⟨.hbm, 1019, rfl⟩
abbrev main_v703 : Ref sig .tc := ⟨.hbm, 1020, rfl⟩
abbrev main_v704 : Ref sig .tc := ⟨.hbm, 1021, rfl⟩
abbrev main_c_256 : Ref sig .tc := ⟨.hbm, 1022, rfl⟩
abbrev main_v705 : Ref sig .tc := ⟨.hbm, 1023, rfl⟩
abbrev main_v706 : Ref sig .tc := ⟨.hbm, 1024, rfl⟩
abbrev main_v707 : Ref sig .tc := ⟨.hbm, 1025, rfl⟩
abbrev main_c_257 : Ref sig .tc := ⟨.hbm, 1026, rfl⟩
abbrev main_v708 : Ref sig .tc := ⟨.hbm, 1027, rfl⟩
abbrev main_v709 : Ref sig .tc := ⟨.hbm, 1028, rfl⟩
abbrev main_v710 : Ref sig .tc := ⟨.hbm, 1029, rfl⟩
abbrev main_c_258 : Ref sig .tc := ⟨.hbm, 1030, rfl⟩
abbrev main_v711 : Ref sig .tc := ⟨.hbm, 1031, rfl⟩
abbrev main_v712 : Ref sig .tc := ⟨.hbm, 1032, rfl⟩
abbrev main_v713 : Ref sig .tc := ⟨.hbm, 1033, rfl⟩
abbrev main_c_259 : Ref sig .tc := ⟨.hbm, 1034, rfl⟩
abbrev main_v714 : Ref sig .tc := ⟨.hbm, 1035, rfl⟩
abbrev main_v715 : Ref sig .tc := ⟨.hbm, 1036, rfl⟩
abbrev main_v716 : Ref sig .tc := ⟨.hbm, 1037, rfl⟩
abbrev main_c_260 : Ref sig .tc := ⟨.hbm, 1038, rfl⟩
abbrev main_call28_v0 : Ref sig .tc := ⟨.hbm, 1039, rfl⟩
abbrev main_call28_v1 : Ref sig .tc := ⟨.hbm, 1040, rfl⟩
abbrev main_v717 : Ref sig .tc := ⟨.hbm, 1041, rfl⟩
abbrev main_v718 : Ref sig .tc := ⟨.hbm, 1042, rfl⟩
abbrev main_v719 : Ref sig .tc := ⟨.hbm, 1043, rfl⟩
abbrev main_v720 : Ref sig .tc := ⟨.hbm, 1044, rfl⟩
abbrev main_cst_261 : Ref sig .tc := ⟨.hbm, 1045, rfl⟩
abbrev main_call29_v0 : Ref sig .tc := ⟨.hbm, 1046, rfl⟩
abbrev main_call29_v1 : Ref sig .tc := ⟨.hbm, 1047, rfl⟩
abbrev main_v721 : Ref sig .tc := ⟨.hbm, 1048, rfl⟩
abbrev main_c_262 : Ref sig .tc := ⟨.hbm, 1049, rfl⟩
abbrev main_v722 : Ref sig .tc := ⟨.hbm, 1050, rfl⟩
abbrev main_v723 : Ref sig .tc := ⟨.hbm, 1051, rfl⟩
abbrev main_c_263 : Ref sig .tc := ⟨.hbm, 1052, rfl⟩
abbrev main_v724 : Ref sig .tc := ⟨.hbm, 1053, rfl⟩
abbrev main_v725 : Ref sig .tc := ⟨.hbm, 1054, rfl⟩
abbrev main_v726 : Ref sig .tc := ⟨.hbm, 1055, rfl⟩
abbrev main_v727 : Ref sig .tc := ⟨.hbm, 1056, rfl⟩
abbrev main_v728 : Ref sig .tc := ⟨.hbm, 1057, rfl⟩
abbrev main_c_264 : Ref sig .tc := ⟨.hbm, 1058, rfl⟩
abbrev main_v729 : Ref sig .tc := ⟨.hbm, 1059, rfl⟩
abbrev main_v730 : Ref sig .tc := ⟨.hbm, 1060, rfl⟩
abbrev main_c_265 : Ref sig .tc := ⟨.hbm, 1061, rfl⟩
abbrev main_v731 : Ref sig .tc := ⟨.hbm, 1062, rfl⟩
abbrev main_v732 : Ref sig .tc := ⟨.hbm, 1063, rfl⟩
abbrev main_c_266 : Ref sig .tc := ⟨.hbm, 1064, rfl⟩
abbrev main_v733 : Ref sig .tc := ⟨.hbm, 1065, rfl⟩
abbrev main_v734 : Ref sig .tc := ⟨.hbm, 1066, rfl⟩
abbrev main_c_267 : Ref sig .tc := ⟨.hbm, 1067, rfl⟩
abbrev main_v735 : Ref sig .tc := ⟨.hbm, 1068, rfl⟩
abbrev main_v736 : Ref sig .tc := ⟨.hbm, 1069, rfl⟩
abbrev main_c_268 : Ref sig .tc := ⟨.hbm, 1070, rfl⟩
abbrev main_v737 : Ref sig .tc := ⟨.hbm, 1071, rfl⟩
abbrev main_v738 : Ref sig .tc := ⟨.hbm, 1072, rfl⟩
abbrev main_v739 : Ref sig .tc := ⟨.hbm, 1073, rfl⟩
abbrev main_c_269 : Ref sig .tc := ⟨.hbm, 1074, rfl⟩
abbrev main_v740 : Ref sig .tc := ⟨.hbm, 1075, rfl⟩
abbrev main_v741 : Ref sig .tc := ⟨.hbm, 1076, rfl⟩
abbrev main_v742 : Ref sig .tc := ⟨.hbm, 1077, rfl⟩
abbrev main_c_270 : Ref sig .tc := ⟨.hbm, 1078, rfl⟩
abbrev main_v743 : Ref sig .tc := ⟨.hbm, 1079, rfl⟩
abbrev main_v744 : Ref sig .tc := ⟨.hbm, 1080, rfl⟩
abbrev main_v745 : Ref sig .tc := ⟨.hbm, 1081, rfl⟩
abbrev main_c_271 : Ref sig .tc := ⟨.hbm, 1082, rfl⟩
abbrev main_v746 : Ref sig .tc := ⟨.hbm, 1083, rfl⟩
abbrev main_v747 : Ref sig .tc := ⟨.hbm, 1084, rfl⟩
abbrev main_v748 : Ref sig .tc := ⟨.hbm, 1085, rfl⟩
abbrev main_c_272 : Ref sig .tc := ⟨.hbm, 1086, rfl⟩
abbrev main_v749 : Ref sig .tc := ⟨.hbm, 1087, rfl⟩
abbrev main_v750 : Ref sig .tc := ⟨.hbm, 1088, rfl⟩
abbrev main_v751 : Ref sig .tc := ⟨.hbm, 1089, rfl⟩
abbrev main_c_273 : Ref sig .tc := ⟨.hbm, 1090, rfl⟩
abbrev main_v752 : Ref sig .tc := ⟨.hbm, 1091, rfl⟩
abbrev main_v753 : Ref sig .tc := ⟨.hbm, 1092, rfl⟩
abbrev main_v754 : Ref sig .tc := ⟨.hbm, 1093, rfl⟩
abbrev main_c_274 : Ref sig .tc := ⟨.hbm, 1094, rfl⟩
abbrev main_v755 : Ref sig .tc := ⟨.hbm, 1095, rfl⟩
abbrev main_v756 : Ref sig .tc := ⟨.hbm, 1096, rfl⟩
abbrev main_v757 : Ref sig .tc := ⟨.hbm, 1097, rfl⟩
abbrev main_c_275 : Ref sig .tc := ⟨.hbm, 1098, rfl⟩
abbrev main_call30_v0 : Ref sig .tc := ⟨.hbm, 1099, rfl⟩
abbrev main_call30_v1 : Ref sig .tc := ⟨.hbm, 1100, rfl⟩
abbrev main_v758 : Ref sig .tc := ⟨.hbm, 1101, rfl⟩
abbrev main_v759 : Ref sig .tc := ⟨.hbm, 1102, rfl⟩
abbrev main_v760 : Ref sig .tc := ⟨.hbm, 1103, rfl⟩
abbrev main_v761 : Ref sig .tc := ⟨.hbm, 1104, rfl⟩
abbrev main_cst_276 : Ref sig .tc := ⟨.hbm, 1105, rfl⟩
abbrev main_call31_v0 : Ref sig .tc := ⟨.hbm, 1106, rfl⟩
abbrev main_call31_v1 : Ref sig .tc := ⟨.hbm, 1107, rfl⟩
abbrev main_v762 : Ref sig .tc := ⟨.hbm, 1108, rfl⟩
abbrev main_c_277 : Ref sig .tc := ⟨.hbm, 1109, rfl⟩
abbrev main_v763 : Ref sig .tc := ⟨.hbm, 1110, rfl⟩
abbrev main_v764 : Ref sig .tc := ⟨.hbm, 1111, rfl⟩
abbrev main_c_278 : Ref sig .tc := ⟨.hbm, 1112, rfl⟩
abbrev main_v765 : Ref sig .tc := ⟨.hbm, 1113, rfl⟩
abbrev main_v766 : Ref sig .tc := ⟨.hbm, 1114, rfl⟩
abbrev main_v767 : Ref sig .tc := ⟨.hbm, 1115, rfl⟩
abbrev main_v768 : Ref sig .tc := ⟨.hbm, 1116, rfl⟩
abbrev main_v769 : Ref sig .tc := ⟨.hbm, 1117, rfl⟩
abbrev main_v770 : Ref sig .tc := ⟨.hbm, 1118, rfl⟩
abbrev main_v771 : Ref sig .tc := ⟨.hbm, 1119, rfl⟩
abbrev main_v772 : Ref sig .tc := ⟨.hbm, 1120, rfl⟩
abbrev main_cst_279 : Ref sig .tc := ⟨.hbm, 1121, rfl⟩
abbrev main_v773 : Ref sig .tc := ⟨.hbm, 1122, rfl⟩
abbrev main_v774 : Ref sig .tc := ⟨.hbm, 1123, rfl⟩
abbrev main_cst_280 : Ref sig .tc := ⟨.hbm, 1124, rfl⟩
abbrev main_v775 : Ref sig .tc := ⟨.hbm, 1125, rfl⟩
abbrev main_v776 : Ref sig .tc := ⟨.hbm, 1126, rfl⟩
abbrev main_v777 : Ref sig .tc := ⟨.hbm, 1127, rfl⟩
abbrev main_cst_281 : Ref sig .tc := ⟨.hbm, 1128, rfl⟩
abbrev main_v778 : Ref sig .tc := ⟨.hbm, 1129, rfl⟩
abbrev main_v779 : Ref sig .tc := ⟨.hbm, 1130, rfl⟩
abbrev main_cst_282 : Ref sig .tc := ⟨.hbm, 1131, rfl⟩
abbrev main_v780 : Ref sig .tc := ⟨.hbm, 1132, rfl⟩
abbrev main_v781 : Ref sig .tc := ⟨.hbm, 1133, rfl⟩
abbrev main_v782 : Ref sig .tc := ⟨.hbm, 1134, rfl⟩
abbrev main_cst_283 : Ref sig .tc := ⟨.hbm, 1135, rfl⟩
abbrev main_v783 : Ref sig .tc := ⟨.hbm, 1136, rfl⟩

abbrev nD : Nat := 1
abbrev τ : Topo := Topo.v7x

variable {F : FTy → Type} [FloatOps F]

class Facts₀ : Prop where
  shapeCasts_S1x2000000x3_S2000000x3 : S1x2000000x3.ShapeCasts S2000000x3
  bcast_S_S2000000 : S_.BroadcastsInDim S2000000 (![] : Fin 0 → Fin S2000000.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2097152 : S_.BroadcastsInDim S2097152 (![] : Fin 0 → Fin S2097152.rank)
  bcast_S2000000_S2000000x1_0 : S2000000.BroadcastsInDim S2000000x1 (![0] : Fin 1 → Fin S2000000x1.rank)
  shapeCasts_S2097152_S128x128x128 : S2097152.ShapeCasts S128x128x128
  bcast_S_S128x128x128 : S_.BroadcastsInDim S128x128x128 (![] : Fin 0 → Fin S128x128x128.rank)
  reducesTo_S128x128x128_S_d0_1_2 : S128x128x128.ReducesTo [0, 1, 2] S_
  h_S_ : 0 < S_.numel
  scatter_S2097152_S2000000x1_S2000000_n_0_0_1_wf : ScatterDims.WF S2097152 S2000000x1 S2000000 [] [0] [0] 1

variable [Facts₀]

def scatter_S2097152_S2000000x1_S2000000_n_0_0_1 : ScatterDims S2097152 S2000000x1 S2000000 where
  updateWindowDims := []
  insertedWindowDims := [0]
  scatterDimsToOperandDims := [0]
  indexVectorDim := 1
  wf := scatter_S2097152_S2000000x1_S2000000_n_0_0_1_wf

class Facts : Prop extends Facts₀ where

variable [Facts]
-- ==== Proof.KRunCond.lean ====
/-
  The run of the two-region program with every unscoped buffer read at the end.

  The conditional frame of the program's 87 items states, from one segment record per kernel region pinned to the
  valuations `V19 → V20` and `V85 → V86`, that every weakly fair execution terminates with the argument arrays as
  launched. The same run says more: the last thread state holds EVERY unscoped buffer at the last valuation `V87`, so
  the final memory can be read at each of them. This module states that stronger conclusion, with the same hypotheses
  and the same proof up to the last reading (which keeps all of `pointsTo_read_all`'s conclusion instead of three of
  its instances). It does not depend on what the regions' proof data are.
-/
import proofs.«106138_j14714557956152_2_alg».proof.Proof.KernelRegionsP

set_option maxRecDepth 65536

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch lemma's conclusion matches this statement up to unfolding plain definitions inside types; the run
-- equation (the program is the run of its 87 segments) holds by definition
set_option maxHeartbeats 16000000 in
set_option backward.isDefEq.respectTransparency.types false in
/-- THE CONDITIONAL RUN. Under the conditional frame's hypotheses — rest states `E` the launch makes on every core
    (`hE0`) and that end owing nothing (`hE2`), contents `outs` the regions leave, proof data, and per region a segment
    record entered from the thread state before it and left at the one after it — every weakly fair execution of @main
    from memory `m` with zero counters terminates, and in every final memory each core's every unscoped buffer holds
    what the last valuation `V87 m outs c` says. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V19 m c) ∗ E 0 c) ⊢ R0.pre c)
    (hpost0 : ∀ c : Dev nD, R0.post c ⊢ iprop(StableHlo.held (c : Thread nD τ) (Pipeline.ucRefs τ sig) (V20 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V85 m outs c) ∗ E 1 c) ⊢ R1.pre c)
    (hpost1 : ∀ c : Dev nD, R1.post c ⊢ iprop(StableHlo.held (c : Thread nD τ) (Pipeline.ucRefs τ sig) (V86 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V87 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rw [show main (F := F) c = Seg.run (segs m outs 𝒱₀ L lv E ι pdats R0 R1 c) from (main_chain c).trans (by chain_rfl)])
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V87 m outs c))
    (hch := fun c => ⟨.rfl, .rfl, .rfl, .rfl, .rfl, .rfl, .rfl, .rfl, .rfl, .rfl, .rfl, .rfl, .rfl, .rfl, .rfl, .rfl, .rfl, .rfl, .rfl, hpre0 c, hpost0 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre1 c, hpost1 c, sep_mono .rfl (hE2 c)⟩)
    (hinit := ?_) (QY := fun c s => ∀ b ∈ Pipeline.ucRefs τ sig, s.mem (((c : Thread nD τ)).1, b) = V87 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V87 m outs c) s')
    isplitl [Hh] <;> iassumption

end Cert.Kernel.Hand

end
-- ==== Proof.KVal.lean ====
/- The contents of the TensorCore's unscoped buffers, core by core: the parameter both regions' proof data are stated at. -/
import proofs.«106138_j14714557956152_2_alg».proof.Proof.Gen.Kernel.Launch
import proofs.«106138_j14714557956152_2_alg».proof.Proof.Gen.Kernel.Skeleton
import proofs.«106138_j14714557956152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of every TensorCore buffer on every core. -/
abbrev Val (F : FTy → Type) [FloatOps F] : Type := (c : Dev nD) → (b : Ref sig .tc) → Buf (Elt F) ((c : Thread nD τ).loc b)

end Cert.Kernel.Hand

end
-- ==== Proof.KRegion0.lean ====
/- Region 0 (the first kernel launch: per-point base cells and fractions) at a parameter V, the TensorCore's buffer
   contents when the region is entered: each window's block at a point, what the body leaves in each output window's
   buffer as a function of the nine input blocks, the body's triple, the region's proof data and its body obligation.
   Generic in the float model F. -/
import proofs.«106138_j14714557956152_2_alg».proof.Proof.Gen.Kernel.Launch
import proofs.«106138_j14714557956152_2_alg».proof.Proof.Gen.Kernel.Skeleton
import proofs.«106138_j14714557956152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106138_j14714557956152_2_alg».proof.Proof.KVal
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Val F)

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
    data whose array is V's and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block as one rectangle: every load and every store of the body is of it. -/
abbrev r0 : Rect S512x128 := Rect.unit (s := S512x128) ![0, 0] S512x128.size inb_S512x128_S512x128_0_0

/-! ## What the body leaves in each output window's buffer

    Over the nine input blocks x0 … x8 (base x, y, z; first set's displacement x, y, z; second set's x, y, z): the one
    store into the window, as a single piece covering the buffer. Windows 9–11 / 12–14 are the first set's base cells
    and fractions along x, y, z; windows 15–17 / 18–20 the second set's. -/
def out0_9 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay8 (View.ld x0 r0) (View.ld x3 r0)⟩]
def out0_10 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay12 (View.ld x1 r0) (View.ld x4 r0)⟩]
def out0_11 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay17 (k0_pay4 (View.ld x2 r0) (View.ld x5 r0)) (k0_pay13 (F := F))⟩]
def out0_12 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay7 (View.ld x0 r0) (View.ld x3 r0)⟩]
def out0_13 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay11 (View.ld x1 r0) (View.ld x4 r0)⟩]
def out0_14 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay16 (k0_pay4 (View.ld x2 r0) (View.ld x5 r0)) (k0_pay13 (F := F))⟩]
def out0_15 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay25 (k0_pay20 (k0_pay1 (View.ld x0 r0)) (View.ld x6 r0)) (k0_pay21 (F := F))⟩]
def out0_16 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay29 (k0_pay18 (k0_pay2 (View.ld x1 r0)) (View.ld x7 r0))⟩]
def out0_17 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay33 (k0_pay19 (k0_pay3 (View.ld x2 r0)) (View.ld x8 r0))⟩]
def out0_18 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay24 (k0_pay20 (k0_pay1 (View.ld x0 r0)) (View.ld x6 r0)) (k0_pay21 (F := F))⟩]
def out0_19 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay28 (k0_pay18 (k0_pay2 (View.ld x1 r0)) (View.ld x7 r0))⟩]
def out0_20 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay32 (k0_pay19 (k0_pay3 (View.ld x2 r0)) (View.ld x8 r0))⟩]

/-- One store of the whole block tiles the buffer, so it covers it. -/
theorem cover0 {e : EltTy} (p : Vec F S512x128 e) (y : S512x128.Idx) :
    ∃ pc ∈ ([⟨r0, p⟩] : List (View.Piece (Elt F) S512x128 e)), y ∈ pc.1.set :=
  View.cover_of_tiled [⟨r0, p⟩] S512x128.size (by rfl) y

/-! ## The body's triple -/

set_option maxHeartbeats 4000000 in
/-- The kernel body on whole staging memrefs, the inputs' at read contents x0 … x8 and the outputs' at anything, runs
    to the continuation holding the inputs' as they were and each output's at out0_w of the inputs'. -/
theorem sound_kernel0 (c : Dev nD) (E : Set ℕ) (i : grid0.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .i32) (harg10 : arg10.IsWhole) (arg11 : Memref sig .tc .vmem S512x128 .i32) (harg11 : arg11.IsWhole) (arg12 : Memref sig .tc .vmem S512x128 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .i32) (harg16 : arg16.IsWhole) (arg17 : Memref sig .tc .vmem S512x128 .i32) (harg17 : arg17.IsWhole) (arg18 : Memref sig .tc .vmem S512x128 .i32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole)
    (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8) ∗ owns (c : Thread nD τ) arg21 fullShare (out0_20 x0 x1 x2 x3 x4 x5 x6 x7 x8)) -∗ K ⟨⟩))
      ⊢ wp frame (wpE (defs₀ (F := F)) Variants.none c none) E (cc0__splat_inputs_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__splat_inputs_kernel_eq_skeleton]; unfold cc0__splat_inputs_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0 _)
  isplitl [H10]
  · iexists _; isplitr
    swap; · iexact H10
    ipureintro
    exact View.read_writes_eq_canon _ _ _ (cover0 _)
  isplitl [H11]
  · iexists _; isplitr
    swap; · iexact H11
    ipureintro
    exact View.read_writes_eq_canon _ _ _ (cover0 _)
  isplitl [H12]
  · iexists _; isplitr
    swap; · iexact H12
    ipureintro
    exact View.read_writes_eq_canon _ _ _ (cover0 _)
  isplitl [H13]
  · iexists _; isplitr
    swap; · iexact H13
    ipureintro
    exact View.read_writes_eq_canon _ _ _ (cover0 _)
  isplitl [H14]
  · iexists _; isplitr
    swap; · iexact H14
    ipureintro
    exact View.read_writes_eq_canon _ _ _ (cover0 _)
  isplitl [H15]
  · iexists _; isplitr
    swap; · iexact H15
    ipureintro
    exact View.read_writes_eq_canon _ _ _ (cover0 _)
  isplitl [H16]
  · iexists _; isplitr
    swap; · iexact H16
    ipureintro
    exact View.read_writes_eq_canon _ _ _ (cover0 _)
  isplitl [H17]
  · iexists _; isplitr
    swap; · iexact H17
    ipureintro
    exact View.read_writes_eq_canon _ _ _ (cover0 _)
  isplitl [H18]
  · iexists _; isplitr
    swap; · iexact H18
    ipureintro
    exact View.read_writes_eq_canon _ _ _ (cover0 _)
  isplitl [H19]
  · iexists _; isplitr
    swap; · iexact H19
    ipureintro
    exact View.read_writes_eq_canon _ _ _ (cover0 _)
  iexists _; isplitr
  swap; · iexact H20
  ipureintro
  exact View.read_writes_eq_canon _ _ _ (cover0 _)

/-! ## The region's proof data -/

/-- The proof data of the region on core c: the arrays as the region finds them (V); after the body at point t each
    input's buffer at its block and each output's at out0_w of the nine input blocks; the invariant is the scoped rest and
    the random-number state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨_ + 21, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Its invariant is the same at every point. -/
theorem Phi0 (c : Dev nD) (t) : (dat0 V c).Φ t = Pipeline.ΦA spec0 c := rfl

/-- It holds every array in full. -/
theorem q0 (c : Dev nD) (w) : (dat0 V c).q w = fullShare := rfl

/-- The core owes nothing at any point. -/
theorem owed0 (c : Dev nD) (t) (g) : (dat0 V c).owed t g = 0 := rfl

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t))

set_option maxHeartbeats 4000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel0 c Set.univ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- Region 1 (the Huber sum over a grid of 4 points with a carried one-cell accumulator): its half of the frame —
   the body's run in each of its three control cases, what the output block and the accumulator hold after each
   point, the proof data, the body obligation, and the invariant's two ends. Generic in the float type. -/
import proofs.«106138_j14714557956152_2_alg».proof.Proof.KVal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Val F)

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place (the window is uncut, fetched at every point, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The first conditional's condition (the grid coordinate is 0), from the coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the grid coordinate is 3), from the coordinates. -/
abbrev cond1_1 (i : grid1.Coords) : Prop := k1_cond2 i = 1#1
/-- It holds at the last point only. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point the output is idle (nothing is stored into it) and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At the two middle points too. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last point the output is live: the accumulator is copied into it. -/
theorem liveAt1_2_C : ∀ t : Fin cfg1.N, ¬cond1_0 (grid1.coords t) → cond1_1 (grid1.coords t) → cfg1.idle 2 (grid1.coords t) = false := by decide +kernel

/-! ## The memrefs the body is called with -/

/-- The output window's one staging buffer, through which its contents are stated. -/
abbrev VO1_2 : View sig .tc .vmem S1x1 .f32 := (Memref.whole cc1_stg2_0 : Memref sig .tc .vmem S1x1 .f32).view
/-- Each window's current staging memref at point `t`, and its wholeness. -/
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped one-cell buffer of the kernel's own, carried from point to point. -/
abbrev scM1_0 : Memref sig .tc .vmem S1x1 .f32 := Memref.whole cc1_scratch0
abbrev VS1_0 : View sig .tc .vmem S1x1 .f32 := scM1_0.view

/-- The scoped buffers of the program other than this region's staging buffers and its accumulator, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The region's base invariant with the accumulator as a memref owned at some contents. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

/-! ## The body's run, case by case -/

set_option maxHeartbeats 1000000 in
/-- CASE A (the first point: the reset is taken, the copy-out is not). On whole staging memrefs — the inputs at their
    contents, the idle output at contents handed back untouched, the accumulator at anything — the body runs to the
    continuation holding the inputs as they were and the accumulator with its pieces written (last first); the pieces
    are the witness the run finds. -/
noncomputable def kernelRun1_A (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__huber_kernel i arg1 harg1 arg2 harg2 arg3 harg3 arg4 harg4) K } := by
  refine ⟨[], ?_, fun xi2 E K => ?run⟩
  case run =>
    simp only [cc1__huber_kernel_eq_skeleton]; unfold cc1__huber_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (the two middle points: neither branch is taken). As case A, the accumulator now at the contents the point
    before left. -/
noncomputable def kernelRun1_B (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__huber_kernel i arg1 harg1 arg2 harg2 arg3 harg3 arg4 harg4) K } := by
  refine ⟨[], ?_, fun xi2 E K => ?run⟩
  case run =>
    simp only [cc1__huber_kernel_eq_skeleton]; unfold cc1__huber_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the copy-out is taken). The output's staging memref is taken at anything and handed back
    with its pieces written. -/
noncomputable def kernelRun1_C (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__huber_kernel i arg1 harg1 arg2 harg2 arg3 harg3 arg4 harg4) K } := by
  refine ⟨?_, ?_, fun E K => ?run⟩
  case run =>
    simp only [cc1__huber_kernel_eq_skeleton]; unfold cc1__huber_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the output's staging buffer and in the accumulator -/

/-- Case A stores nothing into the output: no pieces — a placeholder nothing consults (the window is idle there). -/
def out1_A_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) : Vec F S1x1 .f32 :=
  VO1_2.read (Elt F) (VO1_2.writes (Elt F) VO1_2.junk (kernelRun1_A c i arg1 harg1 arg2 harg2 arg3 harg3 arg4 harg4 hc0 hc1 x0 x1).1)

/-- Case A's pieces for the accumulator cover it. -/
theorem scover1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What case A leaves in the accumulator: its pieces read back over junk. -/
def sout1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) : Vec F S1x1 .f32 :=
  VS1_0.read (Elt F) (VS1_0.writes (Elt F) VS1_0.junk (kernelRun1_A c i arg1 harg1 arg2 harg2 arg3 harg3 arg4 harg4 hc0 hc1 x0 x1).2.1)

/-- Case B stores nothing into the output either. -/
def out1_B_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

/-- Case B's pieces for the accumulator cover it. -/
theorem scover1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

/-- What case B leaves in the accumulator. -/
def sout1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- Case C's one store into the output covers its block. -/
theorem cover1_C_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

/-- What case C leaves in the output's staging buffer. -/
def out1_C_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

/-- Case C's pieces for the accumulator cover it. -/
theorem scover1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

/-- What case C leaves in the accumulator. -/
def sout1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## What the output and the accumulator hold after each point -/

/-- THE ACCUMULATION: what the output's staging buffer and the accumulator hold after the body at position `n` (a pair:
    the output, then the accumulator) — the case the closed forms select at `n`, run at the point's memrefs and input
    blocks, the accumulator read at what this leaves at `n - 1`. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by have hN : n + 1 < 4 := lt_of_lt_of_eq hn (show cfg1.N = 4 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the base one (the accumulator at anything);
    afterwards the accumulator at what the point before left in it, the other scoped buffers at anything, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-! ## The proof data -/

/-- Region 1's proof data at the entry contents `V`: the arrays as the region finds them; after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q1 (c : Dev nD) (w) : (dat1 V c).q w = fullShare := rfl
theorem owed1 (c : Dev nD) (t) (g) : (dat1 V c).owed t g = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the first point) and takes
    it back at this point's contents; the other scoped buffers and the generator register pass through untouched; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · exfalso; omega
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the base one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 4 := N_1; omega)

end Cert.Kernel.Hand

end
-- ==== Proof.LibRefNe.lean ====
/-
  References with different index numbers are different.

  A reference is a memory space, an index among that space's buffers, and a proof that the processor names it. Two
  references of one space whose indices are different numbers are different references: comparing them costs one
  comparison of numerals.
-/
import Idealize.ShloMosaic.Lib.StableHlo.Run

namespace Cert.LibRefNe

open Idealize.ShloMosaic

/-- Two references of one memory space with different index numbers are different. -/
theorem ref_ne_of_idx {sig : RefSig} {κ : Kind} {s : Space} {i j : Fin (sig.nNear κ s)}
    (hi : sig.names κ s i = true) (hj : sig.names κ s j = true) (h : i.val ≠ j.val) :
    (⟨s, i, hi⟩ : Ref sig κ) ≠ ⟨s, j, hj⟩ :=
  fun e => h (congrArg (fun r : Ref sig κ => r.idx.val) e)

end Cert.LibRefNe
-- ==== Proof.KRun.lean ====
/-
  The run of the two-region program: what the regions leave, the regions as segments, and the launch.

  Between two of @main's 87 items a core holds every unscoped buffer at a valuation: the launch contents, then each
  host stretch folded over it, and at a kernel region the contents the region leaves in the arrays it may change. This
  module chooses those contents — each region's arrays at what its pipeline's write-backs leave
  (`Dat.arrAt … N`: an input as entered, an output with every point's block written), every other buffer as entered —,
  proves the two kernel regions' segment records between the valuations before and after them, and concludes the run:
  every weakly fair execution terminates, and the final memory holds every unscoped buffer at the last valuation.
-/
import proofs.«106138_j14714557956152_2_alg».proof.Proof.KRunCond
import proofs.«106138_j14714557956152_2_alg».proof.Proof.KRegion0
import proofs.«106138_j14714557956152_2_alg».proof.Proof.KRegion1
import proofs.«106138_j14714557956152_2_alg».proof.Proof.LibRefNe

set_option maxRecDepth 65536

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- The arrays region 0 writes: its twelve outputs. -/
abbrev outRefs0 : List (Ref sig .tc) := [main_v39_0, main_v39_1, main_v39_2, main_v39_3, main_v39_4, main_v39_5, main_v39_6, main_v39_7, main_v39_8, main_v39_9, main_v39_10, main_v39_11]

/-- Core `c`'s buffers when region 0 is entered, read at the TensorCore's references. -/
abbrev E19 : Val F := fun c b => V19 m c b

/-- At region 0's exit: its arrays at what the pipeline leaves, every other buffer as entered. -/
def W20 (c : Dev nD) : Valuation τ sig (Elt F) :=
  Pipeline.withArrays spec0 c (V19 m c) fun w => (dat0 (E19 m) c).arrAt w cfg0.N

theorem W20_arr (c : Dev nD) (w : Fin cfg0.W) :
    W20 m c (Proc.devRef .tc (Pipeline.arrRef spec0 w)) = (dat0 (E19 m) c).arrAt w cfg0.N := by
  unfold W20; exact Pipeline.withArrays_arr spec0 launch0.win.arr_inj c _ _ w

/-- What region 0 leaves, as the unknowns of the valuations: every buffer read off `W20`. -/
def outsA : Outs (F := F) := fun _ r c => W20 m c (Proc.devRef .tc r)

/-- Core `c`'s buffers when region 1 is entered (the host stretches between the regions folded over region 0's exit
    contents), read at the TensorCore's references. -/
abbrev E85 : Val F := fun c b => V85 m (outsA m) c b

/-- At region 1's exit: its arrays at what the pipeline leaves, every other buffer as entered. -/
def W86 (c : Dev nD) : Valuation τ sig (Elt F) :=
  Pipeline.withArrays spec1 c (V85 m (outsA m) c) fun w => (dat1 (E85 m) c).arrAt w cfg1.N

theorem W86_arr (c : Dev nD) (w : Fin cfg1.W) :
    W86 m c (Proc.devRef .tc (Pipeline.arrRef spec1 w)) = (dat1 (E85 m) c).arrAt w cfg1.N := by
  unfold W86; exact Pipeline.withArrays_arr spec1 launch1.win.arr_inj c _ _ w

/-- WHAT THE REGIONS LEAVE: after item 19 (region 0) a buffer read off `W20`, after item 85 (region 1) off `W86`. -/
def outs : Outs (F := F) := fun J r c =>
  if J ≤ 20 then W20 m c (Proc.devRef .tc r) else W86 m c (Proc.devRef .tc r)

theorem outs_at20 (r : Ref sig .tc) (c : Dev nD) : outs m 20 r c = W20 m c (Proc.devRef .tc r) := if_pos (by decide)
theorem outs_at86 (r : Ref sig .tc) (c : Dev nD) : outs m 86 r c = W86 m c (Proc.devRef .tc r) := if_neg (by decide)

/-! ### The valuation after region 0 at each of its outputs: the update chain read at one reference -/

theorem V20_at_0 (o : Outs (F := F)) (c : Dev nD) : V20 m o c main_v39_0 = o 20 main_v39_0 c :=
  (Function.update_of_ne ((StableHlo.devRef_ne_of_ne (Cert.LibRefNe.ref_ne_of_idx rfl rfl (by decide)) : (Proc.devRef .tc main_v39_0 : DevRef τ sig) ≠ Proc.devRef .tc main_v39_11)) _ _).trans ((Function.update_of_ne ((StableHlo.devRef_ne_of_ne (Cert.LibRefNe.ref_ne_of_idx rfl rfl (by decide)) : (Proc.devRef .tc main_v39_0 : DevRef τ sig) ≠ Proc.devRef .tc main_v39_10)) _ _).trans ((Function.update_of_ne ((StableHlo.devRef_ne_of_ne (Cert.LibRefNe.ref_ne_of_idx rfl rfl (by decide)) : (Proc.devRef .tc main_v39_0 : DevRef τ sig) ≠ Proc.devRef .tc main_v39_9)) _ _).trans ((Function.update_of_ne ((StableHlo.devRef_ne_of_ne (Cert.LibRefNe.ref_ne_of_idx rfl rfl (by decide)) : (Proc.devRef .tc main_v39_0 : DevRef τ sig) ≠ Proc.devRef .tc main_v39_8)) _ _).trans ((Function.update_of_ne ((StableHlo.devRef_ne_of_ne (Cert.LibRefNe.ref_ne_of_idx rfl rfl (by decide)) : (Proc.devRef .tc main_v39_0 : DevRef τ sig) ≠ Proc.devRef .tc main_v39_7)) _ _).trans ((Function.update_of_ne ((StableHlo.devRef_ne_of_ne (Cert.LibRefNe.ref_ne_of_idx rfl rfl (by decide)) : (Proc.devRef .tc main_v39_0 : DevRef τ sig) ≠ Proc.devRef .tc main_v39_6)) _ _).trans ((Function.update_of_ne ((StableHlo.devRef_ne_of_ne (Cert.LibRefNe.ref_ne_of_idx rfl rfl (by decide)) : (Proc.devRef .tc main_v39_0 : DevRef τ sig) ≠ Proc.devRef .tc main_v39_5)) _ _).trans ((Function.update_of_ne ((StableHlo.devRef_ne_of_ne (Cert.LibRefNe.ref_ne_of_idx rfl rfl (by decide)) : (Proc.devRef .tc main_v39_0 : DevRef τ sig) ≠ Proc.devRef .tc main_v39_4)) _ _).trans ((Function.update_of_ne ((StableHlo.devRef_ne_of_ne (Cert.LibRefNe.ref_ne_of_idx rfl rfl (by decide)) : (Proc.devRef .tc main_v39_0 : DevRef τ sig) ≠ Proc.devRef .tc main_v39_3)) _ _).trans ((Function.update_of_ne ((StableHlo.devRef_ne_of_ne (Cert.LibRefNe.ref_ne_of_idx rfl rfl (by decide)) : (Proc.devRef .tc main_v39_0 : DevRef τ sig) ≠ Proc.devRef .tc main_v39_2)) _ _).trans ((Function.update_of_ne ((StableHlo.devRef_ne_of_ne (Cert.LibRefNe.ref_ne_of_idx rfl rfl (by decide)) : (Proc.devRef .tc main_v39_0 : DevRef τ sig) ≠ Proc.devRef .tc main_v39_1)) _ _).trans (Function.update_self _ _ _)))))))))))
theorem V20_at_1 (o : Outs (F := F)) (c : Dev nD) : V20 m o c main_v39_1 = o 20 main_v39_1 c :=
  (Function.update_of_ne ((StableHlo.devRef_ne_of_ne (Cert.LibRefNe.ref_ne_of_idx rfl rfl (by decide)) : (Proc.devRef .tc main_v39_1 : DevRef τ sig) ≠ Proc.devRef .tc main_v39_11)) _ _).trans ((Function.update_of_ne ((StableHlo.devRef_ne_of_ne (Cert.LibRefNe.ref_ne_of_idx rfl rfl (by decide)) : (Proc.devRef .tc main_v39_1 : DevRef τ sig) ≠ Proc.devRef .tc main_v39_10)) _ _).trans ((Function.update_of_ne ((StableHlo.devRef_ne_of_ne (Cert.LibRefNe.ref_ne_of_idx rfl rfl (by decide)) : (Proc.devRef .tc main_v39_1 : DevRef τ sig) ≠ Proc.devRef .tc main_v39_9)) _ _).trans ((Function.update_of_ne ((StableHlo.devRef_ne_of_ne (Cert.LibRefNe.ref_ne_of_idx rfl rfl (by decide)) : (Proc.devRef .tc main_v39_1 : DevRef τ sig) ≠ Proc.devRef .tc main_v39_8)) _ _).trans ((Function.update_of_ne ((StableHlo.devRef_ne_of_ne (Cert.LibRefNe.ref_ne_of_idx rfl rfl (by decide)) : (Proc.devRef .tc main_v39_1 : DevRef τ sig) ≠ Proc.devRef .tc main_v39_7)) _ _).trans ((Function.update_of_ne ((StableHlo.devRef_ne_of_ne (Cert.LibRefNe.ref_ne_of_idx rfl rfl (by decide)) : (Proc.devRef .tc main_v39_1 : DevRef τ sig) ≠ Proc.devRef .tc main_v39_6)) _ _).trans ((Function.update_of_ne ((StableHlo.devRef_ne_of_ne (Cert.LibRefNe.ref_ne_of_idx rfl rfl (by decide)) : (Proc.devRef .tc main_v39_1 : DevRef τ sig) ≠ Proc.devRef .tc main_v39_5)) _ _).trans ((Function.update_of_ne ((StableHlo.devRef_ne_of_ne (Cert.LibRefNe.ref_ne_of_idx rfl rfl (by decide)) : (Proc.devRef .tc main_v39_1 : DevRef τ sig) ≠ Proc.devRef .tc main_v39_4)) _ _).trans ((Function.update_of_ne ((StableHlo.devRef_ne_of_ne (Cert.LibRefNe.ref_ne_of_idx rfl rfl (by decide)) : (Proc.devRef .tc main_v39_1 : DevRef τ sig) ≠ Proc.devRef .tc main_v39_3)) _ _).trans ((Function.update_of_ne ((StableHlo.devRef_ne_of_ne (Cert.LibRefNe.ref_ne_of_idx rfl rfl (by decide)) : (Proc.devRef .tc main_v39_1 : DevRef τ sig) ≠ Proc.devRef .tc main_v39_2)) _ _).trans (Function.update_self _ _ _))))))))))
theorem V20_at_2 (o : Outs (F := F)) (c : Dev nD) : V20 m o c main_v39_2 = o 20 main_v39_2 c :=
  (Function.update_of_ne ((StableHlo.devRef_ne_of_ne (Cert.LibRefNe.ref_ne_of_idx rfl rfl (by decide)) : (Proc.devRef .tc main_v39_2 : DevRef τ sig) ≠ Proc.devRef .tc main_v39_11)) _ _).trans ((Function.update_of_ne ((StableHlo.devRef_ne_of_ne (Cert.LibRefNe.ref_ne_of_idx rfl rfl (by decide)) : (Proc.devRef .tc main_v39_2 : DevRef τ sig) ≠ Proc.devRef .tc main_v39_10)) _ _).trans ((Function.update_of_ne ((StableHlo.devRef_ne_of_ne (Cert.LibRefNe.ref_ne_of_idx rfl rfl (by decide)) : (Proc.devRef .tc main_v39_2 : DevRef τ sig) ≠ Proc.devRef .tc main_v39_9)) _ _).trans ((Function.update_of_ne ((StableHlo.devRef_ne_of_ne (Cert.LibRefNe.ref_ne_of_idx rfl rfl (by decide)) : (Proc.devRef .tc main_v39_2 : DevRef τ sig) ≠ Proc.devRef .tc main_v39_8)) _ _).trans ((Function.update_of_ne ((StableHlo.devRef_ne_of_ne (Cert.LibRefNe.ref_ne_of_idx rfl rfl (by decide)) : (Proc.devRef .tc main_v39_2 : DevRef τ sig) ≠ Proc.devRef .tc main_v39_7)) _ _).trans ((Function.update_of_ne ((StableHlo.devRef_ne_of_ne (Cert.LibRefNe.ref_ne_of_idx rfl rfl (by decide)) : (Proc.devRef .tc main_v39_2 : DevRef τ sig) ≠ Proc.devRef .tc main_v39_6)) _ _).trans ((Function.update_of_ne ((StableHlo.devRef_ne_of_ne (Cert.LibRefNe.ref_ne_of_idx rfl rfl (by decide)) : (Proc.devRef .tc main_v39_2 : DevRef τ sig) ≠ Proc.devRef .tc main_v39_5)) _ _).trans ((Function.update_of_ne ((StableHlo.devRef_ne_of_ne (Cert.LibRefNe.ref_ne_of_idx rfl rfl (by decide)) : (Proc.devRef .tc main_v39_2 : DevRef τ sig) ≠ Proc.devRef .tc main_v39_4)) _ _).trans ((Function.update_of_ne ((StableHlo.devRef_ne_of_ne (Cert.LibRefNe.ref_ne_of_idx rfl rfl (by decide)) : (Proc.devRef .tc main_v39_2 : DevRef τ sig) ≠ Proc.devRef .tc main_v39_3)) _ _).trans (Function.update_self _ _ _)))))))))
theorem V20_at_3 (o : Outs (F := F)) (c : Dev nD) : V20 m o c main_v39_3 = o 20 main_v39_3 c :=
  (Function.update_of_ne ((StableHlo.devRef_ne_of_ne (Cert.LibRefNe.ref_ne_of_idx rfl rfl (by decide)) : (Proc.devRef .tc main_v39_3 : DevRef τ sig) ≠ Proc.devRef .tc main_v39_11)) _ _).trans ((Function.update_of_ne ((StableHlo.devRef_ne_of_ne (Cert.LibRefNe.ref_ne_of_idx rfl rfl (by decide)) : (Proc.devRef .tc main_v39_3 : DevRef τ sig) ≠ Proc.devRef .tc main_v39_10)) _ _).trans ((Function.update_of_ne ((StableHlo.devRef_ne_of_ne (Cert.LibRefNe.ref_ne_of_idx rfl rfl (by decide)) : (Proc.devRef .tc main_v39_3 : DevRef τ sig) ≠ Proc.devRef .tc main_v39_9)) _ _).trans ((Function.update_of_ne ((StableHlo.devRef_ne_of_ne (Cert.LibRefNe.ref_ne_of_idx rfl rfl (by decide)) : (Proc.devRef .tc main_v39_3 : DevRef τ sig) ≠ Proc.devRef .tc main_v39_8)) _ _).trans ((Function.update_of_ne ((StableHlo.devRef_ne_of_ne (Cert.LibRefNe.ref_ne_of_idx rfl rfl (by decide)) : (Proc.devRef .tc main_v39_3 : DevRef τ sig) ≠ Proc.devRef .tc main_v39_7)) _ _).trans ((Function.update_of_ne ((StableHlo.devRef_ne_of_ne (Cert.LibRefNe.ref_ne_of_idx rfl rfl (by decide)) : (Proc.devRef .tc main_v39_3 : DevRef τ sig) ≠ Proc.devRef .tc main_v39_6)) _ _).trans ((Function.update_of_ne ((StableHlo.devRef_ne_of_ne (Cert.LibRefNe.ref_ne_of_idx rfl rfl (by decide)) : (Proc.devRef .tc main_v39_3 : DevRef τ sig) ≠ Proc.devRef .tc main_v39_5)) _ _).trans ((Function.update_of_ne ((StableHlo.devRef_ne_of_ne (Cert.LibRefNe.ref_ne_of_idx rfl rfl (by decide)) : (Proc.devRef .tc main_v39_3 : DevRef τ sig) ≠ Proc.devRef .tc main_v39_4)) _ _).trans (Function.update_self _ _ _))))))))
theorem V20_at_4 (o : Outs (F := F)) (c : Dev nD) : V20 m o c main_v39_4 = o 20 main_v39_4 c :=
  (Function.update_of_ne ((StableHlo.devRef_ne_of_ne (Cert.LibRefNe.ref_ne_of_idx rfl rfl (by decide)) : (Proc.devRef .tc main_v39_4 : DevRef τ sig) ≠ Proc.devRef .tc main_v39_11)) _ _).trans ((Function.update_of_ne ((StableHlo.devRef_ne_of_ne (Cert.LibRefNe.ref_ne_of_idx rfl rfl (by decide)) : (Proc.devRef .tc main_v39_4 : DevRef τ sig) ≠ Proc.devRef .tc main_v39_10)) _ _).trans ((Function.update_of_ne ((StableHlo.devRef_ne_of_ne (Cert.LibRefNe.ref_ne_of_idx rfl rfl (by decide)) : (Proc.devRef .tc main_v39_4 : DevRef τ sig) ≠ Proc.devRef .tc main_v39_9)) _ _).trans ((Function.update_of_ne ((StableHlo.devRef_ne_of_ne (Cert.LibRefNe.ref_ne_of_idx rfl rfl (by decide)) : (Proc.devRef .tc main_v39_4 : DevRef τ sig) ≠ Proc.devRef .tc main_v39_8)) _ _).trans ((Function.update_of_ne ((StableHlo.devRef_ne_of_ne (Cert.LibRefNe.ref_ne_of_idx rfl rfl (by decide)) : (Proc.devRef .tc main_v39_4 : DevRef τ sig) ≠ Proc.devRef .tc main_v39_7)) _ _).trans ((Function.update_of_ne ((StableHlo.devRef_ne_of_ne (Cert.LibRefNe.ref_ne_of_idx rfl rfl (by decide)) : (Proc.devRef .tc main_v39_4 : DevRef τ sig) ≠ Proc.devRef .tc main_v39_6)) _ _).trans ((Function.update_of_ne ((StableHlo.devRef_ne_of_ne (Cert.LibRefNe.ref_ne_of_idx rfl rfl (by decide)) : (Proc.devRef .tc main_v39_4 : DevRef τ sig) ≠ Proc.devRef .tc main_v39_5)) _ _).trans (Function.update_self _ _ _)))))))
theorem V20_at_5 (o : Outs (F := F)) (c : Dev nD) : V20 m o c main_v39_5 = o 20 main_v39_5 c :=
  (Function.update_of_ne ((StableHlo.devRef_ne_of_ne (Cert.LibRefNe.ref_ne_of_idx rfl rfl (by decide)) : (Proc.devRef .tc main_v39_5 : DevRef τ sig) ≠ Proc.devRef .tc main_v39_11)) _ _).trans ((Function.update_of_ne ((StableHlo.devRef_ne_of_ne (Cert.LibRefNe.ref_ne_of_idx rfl rfl (by decide)) : (Proc.devRef .tc main_v39_5 : DevRef τ sig) ≠ Proc.devRef .tc main_v39_10)) _ _).trans ((Function.update_of_ne ((StableHlo.devRef_ne_of_ne (Cert.LibRefNe.ref_ne_of_idx rfl rfl (by decide)) : (Proc.devRef .tc main_v39_5 : DevRef τ sig) ≠ Proc.devRef .tc main_v39_9)) _ _).trans ((Function.update_of_ne ((StableHlo.devRef_ne_of_ne (Cert.LibRefNe.ref_ne_of_idx rfl rfl (by decide)) : (Proc.devRef .tc main_v39_5 : DevRef τ sig) ≠ Proc.devRef .tc main_v39_8)) _ _).trans ((Function.update_of_ne ((StableHlo.devRef_ne_of_ne (Cert.LibRefNe.ref_ne_of_idx rfl rfl (by decide)) : (Proc.devRef .tc main_v39_5 : DevRef τ sig) ≠ Proc.devRef .tc main_v39_7)) _ _).trans ((Function.update_of_ne ((StableHlo.devRef_ne_of_ne (Cert.LibRefNe.ref_ne_of_idx rfl rfl (by decide)) : (Proc.devRef .tc main_v39_5 : DevRef τ sig) ≠ Proc.devRef .tc main_v39_6)) _ _).trans (Function.update_self _ _ _))))))
theorem V20_at_6 (o : Outs (F := F)) (c : Dev nD) : V20 m o c main_v39_6 = o 20 main_v39_6 c :=
  (Function.update_of_ne ((StableHlo.devRef_ne_of_ne (Cert.LibRefNe.ref_ne_of_idx rfl rfl (by decide)) : (Proc.devRef .tc main_v39_6 : DevRef τ sig) ≠ Proc.devRef .tc main_v39_11)) _ _).trans ((Function.update_of_ne ((StableHlo.devRef_ne_of_ne (Cert.LibRefNe.ref_ne_of_idx rfl rfl (by decide)) : (Proc.devRef .tc main_v39_6 : DevRef τ sig) ≠ Proc.devRef .tc main_v39_10)) _ _).trans ((Function.update_of_ne ((StableHlo.devRef_ne_of_ne (Cert.LibRefNe.ref_ne_of_idx rfl rfl (by decide)) : (Proc.devRef .tc main_v39_6 : DevRef τ sig) ≠ Proc.devRef .tc main_v39_9)) _ _).trans ((Function.update_of_ne ((StableHlo.devRef_ne_of_ne (Cert.LibRefNe.ref_ne_of_idx rfl rfl (by decide)) : (Proc.devRef .tc main_v39_6 : DevRef τ sig) ≠ Proc.devRef .tc main_v39_8)) _ _).trans ((Function.update_of_ne ((StableHlo.devRef_ne_of_ne (Cert.LibRefNe.ref_ne_of_idx rfl rfl (by decide)) : (Proc.devRef .tc main_v39_6 : DevRef τ sig) ≠ Proc.devRef .tc main_v39_7)) _ _).trans (Function.update_self _ _ _)))))
theorem V20_at_7 (o : Outs (F := F)) (c : Dev nD) : V20 m o c main_v39_7 = o 20 main_v39_7 c :=
  (Function.update_of_ne ((StableHlo.devRef_ne_of_ne (Cert.LibRefNe.ref_ne_of_idx rfl rfl (by decide)) : (Proc.devRef .tc main_v39_7 : DevRef τ sig) ≠ Proc.devRef .tc main_v39_11)) _ _).trans ((Function.update_of_ne ((StableHlo.devRef_ne_of_ne (Cert.LibRefNe.ref_ne_of_idx rfl rfl (by decide)) : (Proc.devRef .tc main_v39_7 : DevRef τ sig) ≠ Proc.devRef .tc main_v39_10)) _ _).trans ((Function.update_of_ne ((StableHlo.devRef_ne_of_ne (Cert.LibRefNe.ref_ne_of_idx rfl rfl (by decide)) : (Proc.devRef .tc main_v39_7 : DevRef τ sig) ≠ Proc.devRef .tc main_v39_9)) _ _).trans ((Function.update_of_ne ((StableHlo.devRef_ne_of_ne (Cert.LibRefNe.ref_ne_of_idx rfl rfl (by decide)) : (Proc.devRef .tc main_v39_7 : DevRef τ sig) ≠ Proc.devRef .tc main_v39_8)) _ _).trans (Function.update_self _ _ _))))
theorem V20_at_8 (o : Outs (F := F)) (c : Dev nD) : V20 m o c main_v39_8 = o 20 main_v39_8 c :=
  (Function.update_of_ne ((StableHlo.devRef_ne_of_ne (Cert.LibRefNe.ref_ne_of_idx rfl rfl (by decide)) : (Proc.devRef .tc main_v39_8 : DevRef τ sig) ≠ Proc.devRef .tc main_v39_11)) _ _).trans ((Function.update_of_ne ((StableHlo.devRef_ne_of_ne (Cert.LibRefNe.ref_ne_of_idx rfl rfl (by decide)) : (Proc.devRef .tc main_v39_8 : DevRef τ sig) ≠ Proc.devRef .tc main_v39_10)) _ _).trans ((Function.update_of_ne ((StableHlo.devRef_ne_of_ne (Cert.LibRefNe.ref_ne_of_idx rfl rfl (by decide)) : (Proc.devRef .tc main_v39_8 : DevRef τ sig) ≠ Proc.devRef .tc main_v39_9)) _ _).trans (Function.update_self _ _ _)))
theorem V20_at_9 (o : Outs (F := F)) (c : Dev nD) : V20 m o c main_v39_9 = o 20 main_v39_9 c :=
  (Function.update_of_ne ((StableHlo.devRef_ne_of_ne (Cert.LibRefNe.ref_ne_of_idx rfl rfl (by decide)) : (Proc.devRef .tc main_v39_9 : DevRef τ sig) ≠ Proc.devRef .tc main_v39_11)) _ _).trans ((Function.update_of_ne ((StableHlo.devRef_ne_of_ne (Cert.LibRefNe.ref_ne_of_idx rfl rfl (by decide)) : (Proc.devRef .tc main_v39_9 : DevRef τ sig) ≠ Proc.devRef .tc main_v39_10)) _ _).trans (Function.update_self _ _ _))
theorem V20_at_10 (o : Outs (F := F)) (c : Dev nD) : V20 m o c main_v39_10 = o 20 main_v39_10 c :=
  (Function.update_of_ne ((StableHlo.devRef_ne_of_ne (Cert.LibRefNe.ref_ne_of_idx rfl rfl (by decide)) : (Proc.devRef .tc main_v39_10 : DevRef τ sig) ≠ Proc.devRef .tc main_v39_11)) _ _).trans (Function.update_self _ _ _)
theorem V20_at_11 (o : Outs (F := F)) (c : Dev nD) : V20 m o c main_v39_11 = o 20 main_v39_11 c :=
  Function.update_self _ _ _

/-- After region 0 each of its outputs holds what `outs` says at item 20. -/
theorem V20_mem (o : Outs (F := F)) (c : Dev nD) : ∀ r ∈ outRefs0, V20 m o c r = o 20 r c := by
  intro r hr
  simp only [List.mem_cons, List.not_mem_nil, or_false] at hr
  rcases hr with rfl | rfl | rfl | rfl | rfl | rfl | rfl | rfl | rfl | rfl | rfl | rfl
  exacts [V20_at_0 m o c, V20_at_1 m o c, V20_at_2 m o c, V20_at_3 m o c, V20_at_4 m o c, V20_at_5 m o c, V20_at_6 m o c, V20_at_7 m o c, V20_at_8 m o c, V20_at_9 m o c, V20_at_10 m o c, V20_at_11 m o c]

/-- The valuation after region 0 reads `outs` at item 20 only. -/
theorem V20_outs (c : Dev nD) : V20 m (outs m) c = V20 m (outsA m) c := by
  show Function.update (Function.update (Function.update (Function.update (Function.update (Function.update (Function.update (Function.update (Function.update (Function.update (Function.update (Function.update (V19 m c) main_v39_0 (outs m 20 main_v39_0 c)) main_v39_1 (outs m 20 main_v39_1 c)) main_v39_2 (outs m 20 main_v39_2 c)) main_v39_3 (outs m 20 main_v39_3 c)) main_v39_4 (outs m 20 main_v39_4 c)) main_v39_5 (outs m 20 main_v39_5 c)) main_v39_6 (outs m 20 main_v39_6 c)) main_v39_7 (outs m 20 main_v39_7 c)) main_v39_8 (outs m 20 main_v39_8 c)) main_v39_9 (outs m 20 main_v39_9 c)) main_v39_10 (outs m 20 main_v39_10 c)) main_v39_11 (outs m 20 main_v39_11 c) = _
  simp only [outs_at20]
  rfl

/-- The valuation region 1 is entered from reads `outs` at item 20 only (the host stretches are the same fold). -/
theorem V85_outs (c : Dev nD) : V85 m (outs m) c = V85 m (outsA m) c :=
  congrArg (fun v : Valuation τ sig (Elt F) => StableHlo.after hostOps1_64 (StableHlo.after hostOps1_63 (StableHlo.after hostOps1_62 (StableHlo.after hostOps1_61 (StableHlo.after hostOps1_60 (StableHlo.after hostOps1_59 (StableHlo.after hostOps1_58 (StableHlo.after hostOps1_57 (StableHlo.after hostOps1_56 (StableHlo.after hostOps1_55 (StableHlo.after hostOps1_54 (StableHlo.after hostOps1_53 (StableHlo.after hostOps1_52 (StableHlo.after hostOps1_51 (StableHlo.after hostOps1_50 (StableHlo.after hostOps1_49 (StableHlo.after hostOps1_48 (StableHlo.after hostOps1_47 (StableHlo.after hostOps1_46 (StableHlo.after hostOps1_45 (StableHlo.after hostOps1_44 (StableHlo.after hostOps1_43 (StableHlo.after hostOps1_42 (StableHlo.after hostOps1_41 (StableHlo.after hostOps1_40 (StableHlo.after hostOps1_39 (StableHlo.after hostOps1_38 (StableHlo.after hostOps1_37 (StableHlo.after hostOps1_36 (StableHlo.after hostOps1_35 (StableHlo.after hostOps1_34 (StableHlo.after hostOps1_33 (StableHlo.after hostOps1_32 (StableHlo.after hostOps1_31 (StableHlo.after hostOps1_30 (StableHlo.after hostOps1_29 (StableHlo.after hostOps1_28 (StableHlo.after hostOps1_27 (StableHlo.after hostOps1_26 (StableHlo.after hostOps1_25 (StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v)))))))))))))))))))))))))))))))))))))))))))))))))))))))))))))))))) (V20_outs m c)

/-! ### Region 0's arrays and the rest at its exit -/

/-- Region 0's output windows' arrays are the twelve outputs, its input windows' arrays are none of them. -/
theorem isOut_mem0 : ∀ w : Fin 21, (cfg0.win w).isOut = true → Pipeline.arrRef spec0 w ∈ outRefs0 := by decide
theorem notOut_notMem0 : ∀ w : Fin 21, (cfg0.win w).isOut = false → Pipeline.arrRef spec0 w ∉ outRefs0 := by decide
theorem out_is_arr0 : ∀ b ∈ outRefs0, ∃ w : Fin 21, Pipeline.arrRef spec0 w = b := by decide

/-- After region 0 each of its arrays holds what the pipeline leaves: an output by the update chain, an input (which
    the region does not change) as entered. -/
theorem outs_20 (c : Dev nD) (w : Fin cfg0.W) :
    V20 m (outs m) c (Pipeline.arrRef spec0 w) = (dat0 (fun c b => V19 m c b) c).arrAt w cfg0.N := by
  by_cases h : (cfg0.win w).isOut = true
  · exact (V20_mem m (outs m) c _ (isOut_mem0 w h)).trans ((outs_at20 m _ c).trans (W20_arr m c w))
  · have h' : (cfg0.win w).isOut = false := by simpa using h
    exact (V20_of m (outs m) c _ (notOut_notMem0 w h')).trans
      (((dat0 (E19 m) c).arrAt_in w h' _).trans (A_eq0 (E19 m) c w)).symm

/-- Off region 0's arrays the valuation after it is the one before it. -/
theorem hrest0 (c : Dev nD) : ∀ b : Ref sig .tc, b ∉ Finset.univ.image (Pipeline.arrRef spec0) →
    V20 m (outs m) c b = V19 m c b :=
  fun b hb => V20_of m (outs m) c b fun hmem =>
    let ⟨w, e⟩ := out_is_arr0 b hmem
    hb (Finset.mem_image.mpr ⟨w, Finset.mem_univ _, e⟩)

/-! ### Region 1's arrays and the rest at its exit -/

theorem V86_at (o : Outs (F := F)) (c : Dev nD) : V86 m o c main_v508 = o 86 main_v508 c :=
  Function.update_self _ _ _

theorem isOut_eq1 : ∀ w : Fin 3, (cfg1.win w).isOut = true → Pipeline.arrRef spec1 w = main_v508 := by decide
theorem notOut_ne1 : ∀ w : Fin 3, (cfg1.win w).isOut = false → Pipeline.arrRef spec1 w ∉ ([main_v508] : List (Ref sig .tc)) := by decide
theorem arr1_2 : Pipeline.arrRef spec1 2 = main_v508 := by decide

/-- After region 1 each of its arrays holds what the pipeline leaves. -/
theorem hF1 (c : Dev nD) (w : Fin cfg1.W) :
    (dat1 (E85 m) c).arrAt w cfg1.N = V86 m (outs m) c (Pipeline.arrRef spec1 w) := by
  by_cases h : (cfg1.win w).isOut = true
  · have e := isOut_eq1 w h
    refine ((W86_arr m c w).symm.trans ?_)
    rw [e]
    exact ((V86_at m (outs m) c).trans (outs_at86 m _ c)).symm
  · have h' : (cfg1.win w).isOut = false := by simpa using h
    exact (((dat1 (E85 m) c).arrAt_in w h' _).trans (A_eq1 (E85 m) c w)).trans
      ((V86_of m (outs m) c _ (notOut_ne1 w h')).trans (congrFun (V85_outs m c) _)).symm

/-- Off region 1's arrays the valuation after it is the one before it. -/
theorem hrest1 (c : Dev nD) : ∀ b : Ref sig .tc, b ∉ Finset.univ.image (Pipeline.arrRef spec1) →
    V86 m (outs m) c b = V85 m (outsA m) c b :=
  fun b hb => (V86_of m (outs m) c b fun hmem =>
    hb (Finset.mem_image.mpr ⟨2, Finset.mem_univ _, by
      rw [List.mem_singleton] at hmem; exact arr1_2.trans hmem.symm⟩)).trans (congrFun (V85_outs m c) _)

/-- The proof data of region 1 may be read at either spelling of its entry contents. -/
theorem E85_outs : (fun c b => V85 m (outs m) c b : Val F) = E85 m :=
  funext fun c => funext fun b => congrFun (V85_outs m c) _

/-- After region 1 its output holds what the pipeline leaves. -/
theorem outs_86 (c : Dev nD) :
    V86 m (outs m) c main_v508 = (dat1 (fun c b => V85 m (outs m) c b) c).arrAt 2 cfg1.N := by
  rw [E85_outs]
  exact (hF1 m c 2).symm

/-! ## The proof data family and the thread state -/

/-- Every pipeline's proof data, each at its region's entry contents — a literal `match`, so that the family at a
    numeral reduces to the region's own data. -/
def pdats : (p : Fin 2) → (c : Dev nD) → Dat τ (Elt F) Unit ℕ (UR sig nD τ) ℕ (cfgs p) c
  | ⟨0, _⟩ => fun c => dat0 (E19 m) c
  | ⟨1, _⟩ => fun c => dat1 (E85 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library lemma is stated over the pinned configuration: its statement matches this one up to unfolding plain
-- definitions inside types
set_option backward.isDefEq.respectTransparency.types false in
/-- REGION 0 over the thread state: entered from every unscoped buffer at `V19`, left at `V20` (what the next host
    stretch is entered from). Its arrays split out of the unscoped buffers and put back at the exit contents; the
    generator register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E19 m) c).loose
  hwaits := Pipeline.hwaits_of_owed_zero _ _ _ _ L lv 0 fun c t => funext fun g => owed0 (E19 m) c t g
  pre c := iprop(StableHlo.held (c : Thread nD τ) (Pipeline.ucRefs τ sig) (V19 m c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E19 m c)
  hentry c := by
    rw [Pipeline.ownSems0_none]
    have hsplit := Pipeline.arrays_of_unscopedBufs (p := 0) (pcfgs (F := F)) adm (pdats m) launch0.win launch0.arr_whole c
      ((pdats m 0 c).share_full fun w => q0 (E19 m) c w) (E19 m c) fun w => A_eq0 (E19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (E19 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (E19 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (E19 m) c w)
      (E19 m c) (fun b => V20 m (outs m) c b) ((pdats m 0 c).arrAt · cfg0.N) (fun w => (outs_20 m c w).symm) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `V85`, left at `V86` (what the last host
    stretch is entered from). As region 0, except that its invariant carries the kernel's scratch accumulator: the
    class invariant enters it at the first point and is given back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E85 m) c).loose
  hwaits := Pipeline.hwaits_of_owed_zero _ _ _ _ L lv 1 fun c t => funext fun g => owed1 (E85 m) c t g
  pre c := iprop(StableHlo.held (c : Thread nD τ) (Pipeline.ucRefs τ sig) (V85 m (outsA m) c) ∗ R c)
  post c := iprop(StableHlo.held (c : Thread nD τ) (Pipeline.ucRefs τ sig) (V86 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E85 m c)
  hentry c := by
    rw [Pipeline.ownSems0_none]
    have hsplit := Pipeline.arrays_of_unscopedBufs (p := 1) (pcfgs (F := F)) adm (pdats m) launch1.win launch1.arr_whole c
      ((pdats m 1 c).share_full fun w => q1 (E85 m) c w) (E85 m c) fun w => A_eq1 (E85 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E85 m) c)
    unfold Pipeline.ΦA
    iintro ⟨Hp, -, Hr⟩
    isplitl [Hr]; · iexact Hr
    iexact Hp
  hout c := by
    rw [Pipeline.ownSems0_none]
    refine BIBase.Entails.trans (hout1 (E85 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1 (E85 m) c w)
      (E85 m c) (fun b => V86 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the conditional run's conclusion matches this statement up to unfolding plain definitions inside types
set_option backward.isDefEq.respectTransparency.types false in
/-- THE RUN. At the compiled mesh, from any memory with zero counters, every weakly fair execution of @main on the
    TensorCores terminates, nothing faulting, and every final state holds each core's every unscoped buffer at the last
    valuation `V87 m (outs m) c`: the launch memory folded through the host stretches, each region's arrays at what its
    pipeline leaves. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V87 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V85_outs]; exact .rfl) (fun c => .rfl)

/-- THE FRAME: every weakly fair execution terminates and every final state has the three argument arrays as launched
    (no host stretch writes an argument and no region may change one, so the last valuation reads back to the launch
    memory at each). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (V87_main_arg0 m (outs m) c),
     (h c _ (mem_uc main_arg1 (by decide))).trans (V87_main_arg1 m (outs m) c),
     (h c _ (mem_uc main_arg2 (by decide))).trans (V87_main_arg2 m (outs m) c)⟩) (run m ρ)

/-- THE RUN, READ AT THE RESULT: the final state holds the program's result buffer at the last valuation, and the
    three argument arrays as launched. -/
theorem run_value (ρ : Dev nD → PrngReg) :
    θ_run defs (onTc (τ := τ) (main (F := F))) ⟨m, fun _ => 0, ρ⟩ (fun r => ∀ c : Dev nD,
      r.2.mem ((c.tc : Thread nD τ).loc main_v509) = V87 m (outs m) c main_v509
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v509 (by decide)),
     (h c _ (mem_uc main_arg0 (by decide))).trans (V87_main_arg0 m (outs m) c),
     (h c _ (mem_uc main_arg1 (by decide))).trans (V87_main_arg1 m (outs m) c),
     (h c _ (mem_uc main_arg2 (by decide))).trans (V87_main_arg2 m (outs m) c)⟩) (run m ρ)

end Cert.Kernel.Hand

end
-- ==== Proof.KIRunCond.lean ====
/-
  The run of the two-region program with every unscoped buffer read at the end.

  The conditional frame of the program's 87 items states, from one segment record per kernel region pinned to the
  valuations `V19 → V20` and `V85 → V86`, that every weakly fair execution terminates with the argument arrays as
  launched. The same run says more: the last thread state holds EVERY unscoped buffer at the last valuation `V87`, so
  the final memory can be read at each of them. This module states that stronger conclusion, with the same hypotheses
  and the same proof up to the last reading (which keeps all of `pointsTo_read_all`'s conclusion instead of three of
  its instances). It does not depend on what the regions' proof data are.
-/
import proofs.«106138_j14714557956152_2_alg».proof.Proof.KernelIdealRegionsP

set_option maxRecDepth 65536

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch lemma's conclusion matches this statement up to unfolding plain definitions inside types; the run
-- equation (the program is the run of its 87 segments) holds by definition
set_option maxHeartbeats 16000000 in
set_option backward.isDefEq.respectTransparency.types false in
/-- THE CONDITIONAL RUN. Under the conditional frame's hypotheses — rest states `E` the launch makes on every core
    (`hE0`) and that end owing nothing (`hE2`), contents `outs` the regions leave, proof data, and per region a segment
    record entered from the thread state before it and left at the one after it — every weakly fair execution of @main
    from memory `m` with zero counters terminates, and in every final memory each core's every unscoped buffer holds
    what the last valuation `V87 m outs c` says. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V19 m c) ∗ E 0 c) ⊢ R0.pre c)
    (hpost0 : ∀ c : Dev nD, R0.post c ⊢ iprop(StableHlo.held (c : Thread nD τ) (Pipeline.ucRefs τ sig) (V20 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V85 m outs c) ∗ E 1 c) ⊢ R1.pre c)
    (hpost1 : ∀ c : Dev nD, R1.post c ⊢ iprop(StableHlo.held (c : Thread nD τ) (Pipeline.ucRefs τ sig) (V86 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V87 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rw [show main (F := F) c = Seg.run (segs m outs 𝒱₀ L lv E ι pdats R0 R1 c) from (main_chain c).trans (by chain_rfl)])
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V87 m outs c))
    (hch := fun c => ⟨.rfl, .rfl, .rfl, .rfl, .rfl, .rfl, .rfl, .rfl, .rfl, .rfl, .rfl, .rfl, .rfl, .rfl, .rfl, .rfl, .rfl, .rfl, .rfl, hpre0 c, hpost0 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre1 c, hpost1 c, sep_mono .rfl (hE2 c)⟩)
    (hinit := ?_) (QY := fun c s => ∀ b ∈ Pipeline.ucRefs τ sig, s.mem (((c : Thread nD τ)).1, b) = V87 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V87 m outs c) s')
    isplitl [Hh] <;> iassumption

end Cert.KernelIdeal.Hand

end
-- ==== Proof.KIVal.lean ====
/- The contents of the TensorCore's unscoped buffers, core by core: the parameter both regions' proof data are stated at. -/
import proofs.«106138_j14714557956152_2_alg».proof.Proof.Gen.KernelIdeal.Launch
import proofs.«106138_j14714557956152_2_alg».proof.Proof.Gen.KernelIdeal.Skeleton
import proofs.«106138_j14714557956152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of every TensorCore buffer on every core. -/
abbrev Val (F : FTy → Type) [FloatOps F] : Type := (c : Dev nD) → (b : Ref sig .tc) → Buf (Elt F) ((c : Thread nD τ).loc b)

end Cert.KernelIdeal.Hand

end
-- ==== Proof.KIRegion0.lean ====
/- Region 0 (the first kernel launch: per-point base cells and fractions) at a parameter V, the TensorCore's buffer
   contents when the region is entered: each window's block at a point, what the body leaves in each output window's
   buffer as a function of the nine input blocks, the body's triple, the region's proof data and its body obligation.
   Generic in the float model F. -/
import proofs.«106138_j14714557956152_2_alg».proof.Proof.Gen.KernelIdeal.Launch
import proofs.«106138_j14714557956152_2_alg».proof.Proof.Gen.KernelIdeal.Skeleton
import proofs.«106138_j14714557956152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106138_j14714557956152_2_alg».proof.Proof.KIVal
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Val F)

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
    data whose array is V's and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block as one rectangle: every load and every store of the body is of it. -/
abbrev r0 : Rect S512x128 := Rect.unit (s := S512x128) ![0, 0] S512x128.size inb_S512x128_S512x128_0_0

/-! ## What the body leaves in each output window's buffer

    Over the nine input blocks x0 … x8 (base x, y, z; first set's displacement x, y, z; second set's x, y, z): the one
    store into the window, as a single piece covering the buffer. Windows 9–11 / 12–14 are the first set's base cells
    and fractions along x, y, z; windows 15–17 / 18–20 the second set's. -/
def out0_9 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay8 (View.ld x0 r0) (View.ld x3 r0)⟩]
def out0_10 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay12 (View.ld x1 r0) (View.ld x4 r0)⟩]
def out0_11 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay17 (k0_pay4 (View.ld x2 r0) (View.ld x5 r0)) (k0_pay13 (F := F))⟩]
def out0_12 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay7 (View.ld x0 r0) (View.ld x3 r0)⟩]
def out0_13 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay11 (View.ld x1 r0) (View.ld x4 r0)⟩]
def out0_14 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay16 (k0_pay4 (View.ld x2 r0) (View.ld x5 r0)) (k0_pay13 (F := F))⟩]
def out0_15 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay25 (k0_pay20 (k0_pay1 (View.ld x0 r0)) (View.ld x6 r0)) (k0_pay21 (F := F))⟩]
def out0_16 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay29 (k0_pay18 (k0_pay2 (View.ld x1 r0)) (View.ld x7 r0))⟩]
def out0_17 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .i32 :=
  View.canon [⟨r0, k0_pay33 (k0_pay19 (k0_pay3 (View.ld x2 r0)) (View.ld x8 r0))⟩]
def out0_18 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay24 (k0_pay20 (k0_pay1 (View.ld x0 r0)) (View.ld x6 r0)) (k0_pay21 (F := F))⟩]
def out0_19 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay28 (k0_pay18 (k0_pay2 (View.ld x1 r0)) (View.ld x7 r0))⟩]
def out0_20 (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) : Vec F S512x128 .f32 :=
  View.canon [⟨r0, k0_pay32 (k0_pay19 (k0_pay3 (View.ld x2 r0)) (View.ld x8 r0))⟩]

/-- One store of the whole block tiles the buffer, so it covers it. -/
theorem cover0 {e : EltTy} (p : Vec F S512x128 e) (y : S512x128.Idx) :
    ∃ pc ∈ ([⟨r0, p⟩] : List (View.Piece (Elt F) S512x128 e)), y ∈ pc.1.set :=
  View.cover_of_tiled [⟨r0, p⟩] S512x128.size (by rfl) y

/-! ## The body's triple -/

set_option maxHeartbeats 4000000 in
/-- The kernel body on whole staging memrefs, the inputs' at read contents x0 … x8 and the outputs' at anything, runs
    to the continuation holding the inputs' as they were and each output's at out0_w of the inputs'. -/
theorem sound_kernel0 (c : Dev nD) (E : Set ℕ) (i : grid0.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .i32) (harg10 : arg10.IsWhole) (arg11 : Memref sig .tc .vmem S512x128 .i32) (harg11 : arg11.IsWhole) (arg12 : Memref sig .tc .vmem S512x128 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .i32) (harg16 : arg16.IsWhole) (arg17 : Memref sig .tc .vmem S512x128 .i32) (harg17 : arg17.IsWhole) (arg18 : Memref sig .tc .vmem S512x128 .i32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole)
    (x0 : Vec F S512x128 .f32) (x1 : Vec F S512x128 .f32) (x2 : Vec F S512x128 .f32) (x3 : Vec F S512x128 .f32) (x4 : Vec F S512x128 .f32) (x5 : Vec F S512x128 .f32) (x6 : Vec F S512x128 .f32) (x7 : Vec F S512x128 .f32) (x8 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8) ∗ owns (c : Thread nD τ) arg21 fullShare (out0_20 x0 x1 x2 x3 x4 x5 x6 x7 x8)) -∗ K ⟨⟩))
      ⊢ wp frame (wpE (defs₀ (F := F)) Variants.none c none) E (cc0__splat_inputs_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__splat_inputs_kernel_eq_skeleton]; unfold cc0__splat_inputs_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0 _)
  isplitl [H10]
  · iexists _; isplitr
    swap; · iexact H10
    ipureintro
    exact View.read_writes_eq_canon _ _ _ (cover0 _)
  isplitl [H11]
  · iexists _; isplitr
    swap; · iexact H11
    ipureintro
    exact View.read_writes_eq_canon _ _ _ (cover0 _)
  isplitl [H12]
  · iexists _; isplitr
    swap; · iexact H12
    ipureintro
    exact View.read_writes_eq_canon _ _ _ (cover0 _)
  isplitl [H13]
  · iexists _; isplitr
    swap; · iexact H13
    ipureintro
    exact View.read_writes_eq_canon _ _ _ (cover0 _)
  isplitl [H14]
  · iexists _; isplitr
    swap; · iexact H14
    ipureintro
    exact View.read_writes_eq_canon _ _ _ (cover0 _)
  isplitl [H15]
  · iexists _; isplitr
    swap; · iexact H15
    ipureintro
    exact View.read_writes_eq_canon _ _ _ (cover0 _)
  isplitl [H16]
  · iexists _; isplitr
    swap; · iexact H16
    ipureintro
    exact View.read_writes_eq_canon _ _ _ (cover0 _)
  isplitl [H17]
  · iexists _; isplitr
    swap; · iexact H17
    ipureintro
    exact View.read_writes_eq_canon _ _ _ (cover0 _)
  isplitl [H18]
  · iexists _; isplitr
    swap; · iexact H18
    ipureintro
    exact View.read_writes_eq_canon _ _ _ (cover0 _)
  isplitl [H19]
  · iexists _; isplitr
    swap; · iexact H19
    ipureintro
    exact View.read_writes_eq_canon _ _ _ (cover0 _)
  iexists _; isplitr
  swap; · iexact H20
  ipureintro
  exact View.read_writes_eq_canon _ _ _ (cover0 _)

/-! ## The region's proof data -/

/-- The proof data of the region on core c: the arrays as the region finds them (V); after the body at point t each
    input's buffer at its block and each output's at out0_w of the nine input blocks; the invariant is the scoped rest and
    the random-number state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨_ + 21, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Its invariant is the same at every point. -/
theorem Phi0 (c : Dev nD) (t) : (dat0 V c).Φ t = Pipeline.ΦA spec0 c := rfl

/-- It holds every array in full. -/
theorem q0 (c : Dev nD) (w) : (dat0 V c).q w = fullShare := rfl

/-- The core owes nothing at any point. -/
theorem owed0 (c : Dev nD) (t) (g) : (dat0 V c).owed t g = 0 := rfl

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t))

set_option maxHeartbeats 4000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel0 c Set.univ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/- Region 1 (the Huber sum over a grid of 4 points with a carried one-cell accumulator): its half of the frame —
   the body's run in each of its three control cases, what the output block and the accumulator hold after each
   point, the proof data, the body obligation, and the invariant's two ends. Generic in the float type. -/
import proofs.«106138_j14714557956152_2_alg».proof.Proof.KIVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Val F)

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place (the window is uncut, fetched at every point, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The first conditional's condition (the grid coordinate is 0), from the coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the grid coordinate is 3), from the coordinates. -/
abbrev cond1_1 (i : grid1.Coords) : Prop := k1_cond2 i = 1#1
/-- It holds at the last point only. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point the output is idle (nothing is stored into it) and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At the two middle points too. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last point the output is live: the accumulator is copied into it. -/
theorem liveAt1_2_C : ∀ t : Fin cfg1.N, ¬cond1_0 (grid1.coords t) → cond1_1 (grid1.coords t) → cfg1.idle 2 (grid1.coords t) = false := by decide +kernel

/-! ## The memrefs the body is called with -/

/-- The output window's one staging buffer, through which its contents are stated. -/
abbrev VO1_2 : View sig .tc .vmem S1x1 .f32 := (Memref.whole cc1_stg2_0 : Memref sig .tc .vmem S1x1 .f32).view
/-- Each window's current staging memref at point `t`, and its wholeness. -/
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped one-cell buffer of the kernel's own, carried from point to point. -/
abbrev scM1_0 : Memref sig .tc .vmem S1x1 .f32 := Memref.whole cc1_scratch0
abbrev VS1_0 : View sig .tc .vmem S1x1 .f32 := scM1_0.view

/-- The scoped buffers of the program other than this region's staging buffers and its accumulator, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The region's base invariant with the accumulator as a memref owned at some contents. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

/-! ## The body's run, case by case -/

set_option maxHeartbeats 1000000 in
/-- CASE A (the first point: the reset is taken, the copy-out is not). On whole staging memrefs — the inputs at their
    contents, the idle output at contents handed back untouched, the accumulator at anything — the body runs to the
    continuation holding the inputs as they were and the accumulator with its pieces written (last first); the pieces
    are the witness the run finds. -/
noncomputable def kernelRun1_A (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__huber_kernel i arg1 harg1 arg2 harg2 arg3 harg3 arg4 harg4) K } := by
  refine ⟨[], ?_, fun xi2 E K => ?run⟩
  case run =>
    simp only [cc1__huber_kernel_eq_skeleton]; unfold cc1__huber_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (the two middle points: neither branch is taken). As case A, the accumulator now at the contents the point
    before left. -/
noncomputable def kernelRun1_B (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__huber_kernel i arg1 harg1 arg2 harg2 arg3 harg3 arg4 harg4) K } := by
  refine ⟨[], ?_, fun xi2 E K => ?run⟩
  case run =>
    simp only [cc1__huber_kernel_eq_skeleton]; unfold cc1__huber_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the copy-out is taken). The output's staging memref is taken at anything and handed back
    with its pieces written. -/
noncomputable def kernelRun1_C (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__huber_kernel i arg1 harg1 arg2 harg2 arg3 harg3 arg4 harg4) K } := by
  refine ⟨?_, ?_, fun E K => ?run⟩
  case run =>
    simp only [cc1__huber_kernel_eq_skeleton]; unfold cc1__huber_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the output's staging buffer and in the accumulator -/

/-- Case A stores nothing into the output: no pieces — a placeholder nothing consults (the window is idle there). -/
def out1_A_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) : Vec F S1x1 .f32 :=
  VO1_2.read (Elt F) (VO1_2.writes (Elt F) VO1_2.junk (kernelRun1_A c i arg1 harg1 arg2 harg2 arg3 harg3 arg4 harg4 hc0 hc1 x0 x1).1)

/-- Case A's pieces for the accumulator cover it. -/
theorem scover1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What case A leaves in the accumulator: its pieces read back over junk. -/
def sout1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S4096x128 .f32) (x1 : Vec F S4096x128 .f32) : Vec F S1x1 .f32 :=
  VS1_0.read (Elt F) (VS1_0.writes (Elt F) VS1_0.junk (kernelRun1_A c i arg1 harg1 arg2 harg2 arg3 harg3 arg4 harg4 hc0 hc1 x0 x1).2.1)

/-- Case B stores nothing into the output either. -/
def out1_B_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

/-- Case B's pieces for the accumulator cover it. -/
theorem scover1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

/-- What case B leaves in the accumulator. -/
def sout1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S4096x128 .f32) (x1 : Vec F S4096x128 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- Case C's one store into the output covers its block. -/
theorem cover1_C_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

/-- What case C leaves in the output's staging buffer. -/
def out1_C_2 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

/-- Case C's pieces for the accumulator cover it. -/
theorem scover1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

/-- What case C leaves in the accumulator. -/
def sout1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S4096x128 .f32) (x1 : Vec F S4096x128 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## What the output and the accumulator hold after each point -/

/-- THE ACCUMULATION: what the output's staging buffer and the accumulator hold after the body at position `n` (a pair:
    the output, then the accumulator) — the case the closed forms select at `n`, run at the point's memrefs and input
    blocks, the accumulator read at what this leaves at `n - 1`. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by have hN : n + 1 < 4 := lt_of_lt_of_eq hn (show cfg1.N = 4 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the base one (the accumulator at anything);
    afterwards the accumulator at what the point before left in it, the other scoped buffers at anything, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-! ## The proof data -/

/-- Region 1's proof data at the entry contents `V`: the arrays as the region finds them; after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q1 (c : Dev nD) (w) : (dat1 V c).q w = fullShare := rfl
theorem owed1 (c : Dev nD) (t) (g) : (dat1 V c).owed t g = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the first point) and takes
    it back at this point's contents; the other scoped buffers and the generator register pass through untouched; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · exfalso; omega
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the base one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 4 := N_1; omega)

end Cert.KernelIdeal.Hand

end
-- ==== Proof.KIRun.lean ====
/-
  The run of the two-region program: what the regions leave, the regions as segments, and the launch.

  Between two of @main's 87 items a core holds every unscoped buffer at a valuation: the launch contents, then each
  host stretch folded over it, and at a kernel region the contents the region leaves in the arrays it may change. This
  module chooses those contents — each region's arrays at what its pipeline's write-backs leave
  (`Dat.arrAt … N`: an input as entered, an output with every point's block written), every other buffer as entered —,
  proves the two kernel regions' segment records between the valuations before and after them, and concludes the run:
  every weakly fair execution terminates, and the final memory holds every unscoped buffer at the last valuation.
-/
import proofs.«106138_j14714557956152_2_alg».proof.Proof.KIRunCond
import proofs.«106138_j14714557956152_2_alg».proof.Proof.KIRegion0
import proofs.«106138_j14714557956152_2_alg».proof.Proof.KIRegion1
import proofs.«106138_j14714557956152_2_alg».proof.Proof.LibRefNe

set_option maxRecDepth 65536

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- The arrays region 0 writes: its twelve outputs. -/
abbrev outRefs0 : List (Ref sig .tc) := [main_v39_0, main_v39_1, main_v39_2, main_v39_3, main_v39_4, main_v39_5, main_v39_6, main_v39_7, main_v39_8, main_v39_9, main_v39_10, main_v39_11]

/-- Core `c`'s buffers when region 0 is entered, read at the TensorCore's references. -/
abbrev E19 : Val F := fun c b => V19 m c b

/-- At region 0's exit: its arrays at what the pipeline leaves, every other buffer as entered. -/
def W20 (c : Dev nD) : Valuation τ sig (Elt F) :=
  Pipeline.withArrays spec0 c (V19 m c) fun w => (dat0 (E19 m) c).arrAt w cfg0.N

theorem W20_arr (c : Dev nD) (w : Fin cfg0.W) :
    W20 m c (Proc.devRef .tc (Pipeline.arrRef spec0 w)) = (dat0 (E19 m) c).arrAt w cfg0.N := by
  unfold W20; exact Pipeline.withArrays_arr spec0 launch0.win.arr_inj c _ _ w

/-- What region 0 leaves, as the unknowns of the valuations: every buffer read off `W20`. -/
def outsA : Outs (F := F) := fun _ r c => W20 m c (Proc.devRef .tc r)

/-- Core `c`'s buffers when region 1 is entered (the host stretches between the regions folded over region 0's exit
    contents), read at the TensorCore's references. -/
abbrev E85 : Val F := fun c b => V85 m (outsA m) c b

/-- At region 1's exit: its arrays at what the pipeline leaves, every other buffer as entered. -/
def W86 (c : Dev nD) : Valuation τ sig (Elt F) :=
  Pipeline.withArrays spec1 c (V85 m (outsA m) c) fun w => (dat1 (E85 m) c).arrAt w cfg1.N

theorem W86_arr (c : Dev nD) (w : Fin cfg1.W) :
    W86 m c (Proc.devRef .tc (Pipeline.arrRef spec1 w)) = (dat1 (E85 m) c).arrAt w cfg1.N := by
  unfold W86; exact Pipeline.withArrays_arr spec1 launch1.win.arr_inj c _ _ w

/-- WHAT THE REGIONS LEAVE: after item 19 (region 0) a buffer read off `W20`, after item 85 (region 1) off `W86`. -/
def outs : Outs (F := F) := fun J r c =>
  if J ≤ 20 then W20 m c (Proc.devRef .tc r) else W86 m c (Proc.devRef .tc r)

theorem outs_at20 (r : Ref sig .tc) (c : Dev nD) : outs m 20 r c = W20 m c (Proc.devRef .tc r) := if_pos (by decide)
theorem outs_at86 (r : Ref sig .tc) (c : Dev nD) : outs m 86 r c = W86 m c (Proc.devRef .tc r) := if_neg (by decide)

/-! ### The valuation after region 0 at each of its outputs: the update chain read at one reference -/

theorem V20_at_0 (o : Outs (F := F)) (c : Dev nD) : V20 m o c main_v39_0 = o 20 main_v39_0 c :=
  (Function.update_of_ne ((StableHlo.devRef_ne_of_ne (Cert.LibRefNe.ref_ne_of_idx rfl rfl (by decide)) : (Proc.devRef .tc main_v39_0 : DevRef τ sig) ≠ Proc.devRef .tc main_v39_11)) _ _).trans ((Function.update_of_ne ((StableHlo.devRef_ne_of_ne (Cert.LibRefNe.ref_ne_of_idx rfl rfl (by decide)) : (Proc.devRef .tc main_v39_0 : DevRef τ sig) ≠ Proc.devRef .tc main_v39_10)) _ _).trans ((Function.update_of_ne ((StableHlo.devRef_ne_of_ne (Cert.LibRefNe.ref_ne_of_idx rfl rfl (by decide)) : (Proc.devRef .tc main_v39_0 : DevRef τ sig) ≠ Proc.devRef .tc main_v39_9)) _ _).trans ((Function.update_of_ne ((StableHlo.devRef_ne_of_ne (Cert.LibRefNe.ref_ne_of_idx rfl rfl (by decide)) : (Proc.devRef .tc main_v39_0 : DevRef τ sig) ≠ Proc.devRef .tc main_v39_8)) _ _).trans ((Function.update_of_ne ((StableHlo.devRef_ne_of_ne (Cert.LibRefNe.ref_ne_of_idx rfl rfl (by decide)) : (Proc.devRef .tc main_v39_0 : DevRef τ sig) ≠ Proc.devRef .tc main_v39_7)) _ _).trans ((Function.update_of_ne ((StableHlo.devRef_ne_of_ne (Cert.LibRefNe.ref_ne_of_idx rfl rfl (by decide)) : (Proc.devRef .tc main_v39_0 : DevRef τ sig) ≠ Proc.devRef .tc main_v39_6)) _ _).trans ((Function.update_of_ne ((StableHlo.devRef_ne_of_ne (Cert.LibRefNe.ref_ne_of_idx rfl rfl (by decide)) : (Proc.devRef .tc main_v39_0 : DevRef τ sig) ≠ Proc.devRef .tc main_v39_5)) _ _).trans ((Function.update_of_ne ((StableHlo.devRef_ne_of_ne (Cert.LibRefNe.ref_ne_of_idx rfl rfl (by decide)) : (Proc.devRef .tc main_v39_0 : DevRef τ sig) ≠ Proc.devRef .tc main_v39_4)) _ _).trans ((Function.update_of_ne ((StableHlo.devRef_ne_of_ne (Cert.LibRefNe.ref_ne_of_idx rfl rfl (by decide)) : (Proc.devRef .tc main_v39_0 : DevRef τ sig) ≠ Proc.devRef .tc main_v39_3)) _ _).trans ((Function.update_of_ne ((StableHlo.devRef_ne_of_ne (Cert.LibRefNe.ref_ne_of_idx rfl rfl (by decide)) : (Proc.devRef .tc main_v39_0 : DevRef τ sig) ≠ Proc.devRef .tc main_v39_2)) _ _).trans ((Function.update_of_ne ((StableHlo.devRef_ne_of_ne (Cert.LibRefNe.ref_ne_of_idx rfl rfl (by decide)) : (Proc.devRef .tc main_v39_0 : DevRef τ sig) ≠ Proc.devRef .tc main_v39_1)) _ _).trans (Function.update_self _ _ _)))))))))))
theorem V20_at_1 (o : Outs (F := F)) (c : Dev nD) : V20 m o c main_v39_1 = o 20 main_v39_1 c :=
  (Function.update_of_ne ((StableHlo.devRef_ne_of_ne (Cert.LibRefNe.ref_ne_of_idx rfl rfl (by decide)) : (Proc.devRef .tc main_v39_1 : DevRef τ sig) ≠ Proc.devRef .tc main_v39_11)) _ _).trans ((Function.update_of_ne ((StableHlo.devRef_ne_of_ne (Cert.LibRefNe.ref_ne_of_idx rfl rfl (by decide)) : (Proc.devRef .tc main_v39_1 : DevRef τ sig) ≠ Proc.devRef .tc main_v39_10)) _ _).trans ((Function.update_of_ne ((StableHlo.devRef_ne_of_ne (Cert.LibRefNe.ref_ne_of_idx rfl rfl (by decide)) : (Proc.devRef .tc main_v39_1 : DevRef τ sig) ≠ Proc.devRef .tc main_v39_9)) _ _).trans ((Function.update_of_ne ((StableHlo.devRef_ne_of_ne (Cert.LibRefNe.ref_ne_of_idx rfl rfl (by decide)) : (Proc.devRef .tc main_v39_1 : DevRef τ sig) ≠ Proc.devRef .tc main_v39_8)) _ _).trans ((Function.update_of_ne ((StableHlo.devRef_ne_of_ne (Cert.LibRefNe.ref_ne_of_idx rfl rfl (by decide)) : (Proc.devRef .tc main_v39_1 : DevRef τ sig) ≠ Proc.devRef .tc main_v39_7)) _ _).trans ((Function.update_of_ne ((StableHlo.devRef_ne_of_ne (Cert.LibRefNe.ref_ne_of_idx rfl rfl (by decide)) : (Proc.devRef .tc main_v39_1 : DevRef τ sig) ≠ Proc.devRef .tc main_v39_6)) _ _).trans ((Function.update_of_ne ((StableHlo.devRef_ne_of_ne (Cert.LibRefNe.ref_ne_of_idx rfl rfl (by decide)) : (Proc.devRef .tc main_v39_1 : DevRef τ sig) ≠ Proc.devRef .tc main_v39_5)) _ _).trans ((Function.update_of_ne ((StableHlo.devRef_ne_of_ne (Cert.LibRefNe.ref_ne_of_idx rfl rfl (by decide)) : (Proc.devRef .tc main_v39_1 : DevRef τ sig) ≠ Proc.devRef .tc main_v39_4)) _ _).trans ((Function.update_of_ne ((StableHlo.devRef_ne_of_ne (Cert.LibRefNe.ref_ne_of_idx rfl rfl (by decide)) : (Proc.devRef .tc main_v39_1 : DevRef τ sig) ≠ Proc.devRef .tc main_v39_3)) _ _).trans ((Function.update_of_ne ((StableHlo.devRef_ne_of_ne (Cert.LibRefNe.ref_ne_of_idx rfl rfl (by decide)) : (Proc.devRef .tc main_v39_1 : DevRef τ sig) ≠ Proc.devRef .tc main_v39_2)) _ _).trans (Function.update_self _ _ _))))))))))
theorem V20_at_2 (o : Outs (F := F)) (c : Dev nD) : V20 m o c main_v39_2 = o 20 main_v39_2 c :=
  (Function.update_of_ne ((StableHlo.devRef_ne_of_ne (Cert.LibRefNe.ref_ne_of_idx rfl rfl (by decide)) : (Proc.devRef .tc main_v39_2 : DevRef τ sig) ≠ Proc.devRef .tc main_v39_11)) _ _).trans ((Function.update_of_ne ((StableHlo.devRef_ne_of_ne (Cert.LibRefNe.ref_ne_of_idx rfl rfl (by decide)) : (Proc.devRef .tc main_v39_2 : DevRef τ sig) ≠ Proc.devRef .tc main_v39_10)) _ _).trans ((Function.update_of_ne ((StableHlo.devRef_ne_of_ne (Cert.LibRefNe.ref_ne_of_idx rfl rfl (by decide)) : (Proc.devRef .tc main_v39_2 : DevRef τ sig) ≠ Proc.devRef .tc main_v39_9)) _ _).trans ((Function.update_of_ne ((StableHlo.devRef_ne_of_ne (Cert.LibRefNe.ref_ne_of_idx rfl rfl (by decide)) : (Proc.devRef .tc main_v39_2 : DevRef τ sig) ≠ Proc.devRef .tc main_v39_8)) _ _).trans ((Function.update_of_ne ((StableHlo.devRef_ne_of_ne (Cert.LibRefNe.ref_ne_of_idx rfl rfl (by decide)) : (Proc.devRef .tc main_v39_2 : DevRef τ sig) ≠ Proc.devRef .tc main_v39_7)) _ _).trans ((Function.update_of_ne ((StableHlo.devRef_ne_of_ne (Cert.LibRefNe.ref_ne_of_idx rfl rfl (by decide)) : (Proc.devRef .tc main_v39_2 : DevRef τ sig) ≠ Proc.devRef .tc main_v39_6)) _ _).trans ((Function.update_of_ne ((StableHlo.devRef_ne_of_ne (Cert.LibRefNe.ref_ne_of_idx rfl rfl (by decide)) : (Proc.devRef .tc main_v39_2 : DevRef τ sig) ≠ Proc.devRef .tc main_v39_5)) _ _).trans ((Function.update_of_ne ((StableHlo.devRef_ne_of_ne (Cert.LibRefNe.ref_ne_of_idx rfl rfl (by decide)) : (Proc.devRef .tc main_v39_2 : DevRef τ sig) ≠ Proc.devRef .tc main_v39_4)) _ _).trans ((Function.update_of_ne ((StableHlo.devRef_ne_of_ne (Cert.LibRefNe.ref_ne_of_idx rfl rfl (by decide)) : (Proc.devRef .tc main_v39_2 : DevRef τ sig) ≠ Proc.devRef .tc main_v39_3)) _ _).trans (Function.update_self _ _ _)))))))))
theorem V20_at_3 (o : Outs (F := F)) (c : Dev nD) : V20 m o c main_v39_3 = o 20 main_v39_3 c :=
  (Function.update_of_ne ((StableHlo.devRef_ne_of_ne (Cert.LibRefNe.ref_ne_of_idx rfl rfl (by decide)) : (Proc.devRef .tc main_v39_3 : DevRef τ sig) ≠ Proc.devRef .tc main_v39_11)) _ _).trans ((Function.update_of_ne ((StableHlo.devRef_ne_of_ne (Cert.LibRefNe.ref_ne_of_idx rfl rfl (by decide)) : (Proc.devRef .tc main_v39_3 : DevRef τ sig) ≠ Proc.devRef .tc main_v39_10)) _ _).trans ((Function.update_of_ne ((StableHlo.devRef_ne_of_ne (Cert.LibRefNe.ref_ne_of_idx rfl rfl (by decide)) : (Proc.devRef .tc main_v39_3 : DevRef τ sig) ≠ Proc.devRef .tc main_v39_9)) _ _).trans ((Function.update_of_ne ((StableHlo.devRef_ne_of_ne (Cert.LibRefNe.ref_ne_of_idx rfl rfl (by decide)) : (Proc.devRef .tc main_v39_3 : DevRef τ sig) ≠ Proc.devRef .tc main_v39_8)) _ _).trans ((Function.update_of_ne ((StableHlo.devRef_ne_of_ne (Cert.LibRefNe.ref_ne_of_idx rfl rfl (by decide)) : (Proc.devRef .tc main_v39_3 : DevRef τ sig) ≠ Proc.devRef .tc main_v39_7)) _ _).trans ((Function.update_of_ne ((StableHlo.devRef_ne_of_ne (Cert.LibRefNe.ref_ne_of_idx rfl rfl (by decide)) : (Proc.devRef .tc main_v39_3 : DevRef τ sig) ≠ Proc.devRef .tc main_v39_6)) _ _).trans ((Function.update_of_ne ((StableHlo.devRef_ne_of_ne (Cert.LibRefNe.ref_ne_of_idx rfl rfl (by decide)) : (Proc.devRef .tc main_v39_3 : DevRef τ sig) ≠ Proc.devRef .tc main_v39_5)) _ _).trans ((Function.update_of_ne ((StableHlo.devRef_ne_of_ne (Cert.LibRefNe.ref_ne_of_idx rfl rfl (by decide)) : (Proc.devRef .tc main_v39_3 : DevRef τ sig) ≠ Proc.devRef .tc main_v39_4)) _ _).trans (Function.update_self _ _ _))))))))
theorem V20_at_4 (o : Outs (F := F)) (c : Dev nD) : V20 m o c main_v39_4 = o 20 main_v39_4 c :=
  (Function.update_of_ne ((StableHlo.devRef_ne_of_ne (Cert.LibRefNe.ref_ne_of_idx rfl rfl (by decide)) : (Proc.devRef .tc main_v39_4 : DevRef τ sig) ≠ Proc.devRef .tc main_v39_11)) _ _).trans ((Function.update_of_ne ((StableHlo.devRef_ne_of_ne (Cert.LibRefNe.ref_ne_of_idx rfl rfl (by decide)) : (Proc.devRef .tc main_v39_4 : DevRef τ sig) ≠ Proc.devRef .tc main_v39_10)) _ _).trans ((Function.update_of_ne ((StableHlo.devRef_ne_of_ne (Cert.LibRefNe.ref_ne_of_idx rfl rfl (by decide)) : (Proc.devRef .tc main_v39_4 : DevRef τ sig) ≠ Proc.devRef .tc main_v39_9)) _ _).trans ((Function.update_of_ne ((StableHlo.devRef_ne_of_ne (Cert.LibRefNe.ref_ne_of_idx rfl rfl (by decide)) : (Proc.devRef .tc main_v39_4 : DevRef τ sig) ≠ Proc.devRef .tc main_v39_8)) _ _).trans ((Function.update_of_ne ((StableHlo.devRef_ne_of_ne (Cert.LibRefNe.ref_ne_of_idx rfl rfl (by decide)) : (Proc.devRef .tc main_v39_4 : DevRef τ sig) ≠ Proc.devRef .tc main_v39_7)) _ _).trans ((Function.update_of_ne ((StableHlo.devRef_ne_of_ne (Cert.LibRefNe.ref_ne_of_idx rfl rfl (by decide)) : (Proc.devRef .tc main_v39_4 : DevRef τ sig) ≠ Proc.devRef .tc main_v39_6)) _ _).trans ((Function.update_of_ne ((StableHlo.devRef_ne_of_ne (Cert.LibRefNe.ref_ne_of_idx rfl rfl (by decide)) : (Proc.devRef .tc main_v39_4 : DevRef τ sig) ≠ Proc.devRef .tc main_v39_5)) _ _).trans (Function.update_self _ _ _)))))))
theorem V20_at_5 (o : Outs (F := F)) (c : Dev nD) : V20 m o c main_v39_5 = o 20 main_v39_5 c :=
  (Function.update_of_ne ((StableHlo.devRef_ne_of_ne (Cert.LibRefNe.ref_ne_of_idx rfl rfl (by decide)) : (Proc.devRef .tc main_v39_5 : DevRef τ sig) ≠ Proc.devRef .tc main_v39_11)) _ _).trans ((Function.update_of_ne ((StableHlo.devRef_ne_of_ne (Cert.LibRefNe.ref_ne_of_idx rfl rfl (by decide)) : (Proc.devRef .tc main_v39_5 : DevRef τ sig) ≠ Proc.devRef .tc main_v39_10)) _ _).trans ((Function.update_of_ne ((StableHlo.devRef_ne_of_ne (Cert.LibRefNe.ref_ne_of_idx rfl rfl (by decide)) : (Proc.devRef .tc main_v39_5 : DevRef τ sig) ≠ Proc.devRef .tc main_v39_9)) _ _).trans ((Function.update_of_ne ((StableHlo.devRef_ne_of_ne (Cert.LibRefNe.ref_ne_of_idx rfl rfl (by decide)) : (Proc.devRef .tc main_v39_5 : DevRef τ sig) ≠ Proc.devRef .tc main_v39_8)) _ _).trans ((Function.update_of_ne ((StableHlo.devRef_ne_of_ne (Cert.LibRefNe.ref_ne_of_idx rfl rfl (by decide)) : (Proc.devRef .tc main_v39_5 : DevRef τ sig) ≠ Proc.devRef .tc main_v39_7)) _ _).trans ((Function.update_of_ne ((StableHlo.devRef_ne_of_ne (Cert.LibRefNe.ref_ne_of_idx rfl rfl (by decide)) : (Proc.devRef .tc main_v39_5 : DevRef τ sig) ≠ Proc.devRef .tc main_v39_6)) _ _).trans (Function.update_self _ _ _))))))
theorem V20_at_6 (o : Outs (F := F)) (c : Dev nD) : V20 m o c main_v39_6 = o 20 main_v39_6 c :=
  (Function.update_of_ne ((StableHlo.devRef_ne_of_ne (Cert.LibRefNe.ref_ne_of_idx rfl rfl (by decide)) : (Proc.devRef .tc main_v39_6 : DevRef τ sig) ≠ Proc.devRef .tc main_v39_11)) _ _).trans ((Function.update_of_ne ((StableHlo.devRef_ne_of_ne (Cert.LibRefNe.ref_ne_of_idx rfl rfl (by decide)) : (Proc.devRef .tc main_v39_6 : DevRef τ sig) ≠ Proc.devRef .tc main_v39_10)) _ _).trans ((Function.update_of_ne ((StableHlo.devRef_ne_of_ne (Cert.LibRefNe.ref_ne_of_idx rfl rfl (by decide)) : (Proc.devRef .tc main_v39_6 : DevRef τ sig) ≠ Proc.devRef .tc main_v39_9)) _ _).trans ((Function.update_of_ne ((StableHlo.devRef_ne_of_ne (Cert.LibRefNe.ref_ne_of_idx rfl rfl (by decide)) : (Proc.devRef .tc main_v39_6 : DevRef τ sig) ≠ Proc.devRef .tc main_v39_8)) _ _).trans ((Function.update_of_ne ((StableHlo.devRef_ne_of_ne (Cert.LibRefNe.ref_ne_of_idx rfl rfl (by decide)) : (Proc.devRef .tc main_v39_6 : DevRef τ sig) ≠ Proc.devRef .tc main_v39_7)) _ _).trans (Function.update_self _ _ _)))))
theorem V20_at_7 (o : Outs (F := F)) (c : Dev nD) : V20 m o c main_v39_7 = o 20 main_v39_7 c :=
  (Function.update_of_ne ((StableHlo.devRef_ne_of_ne (Cert.LibRefNe.ref_ne_of_idx rfl rfl (by decide)) : (Proc.devRef .tc main_v39_7 : DevRef τ sig) ≠ Proc.devRef .tc main_v39_11)) _ _).trans ((Function.update_of_ne ((StableHlo.devRef_ne_of_ne (Cert.LibRefNe.ref_ne_of_idx rfl rfl (by decide)) : (Proc.devRef .tc main_v39_7 : DevRef τ sig) ≠ Proc.devRef .tc main_v39_10)) _ _).trans ((Function.update_of_ne ((StableHlo.devRef_ne_of_ne (Cert.LibRefNe.ref_ne_of_idx rfl rfl (by decide)) : (Proc.devRef .tc main_v39_7 : DevRef τ sig) ≠ Proc.devRef .tc main_v39_9)) _ _).trans ((Function.update_of_ne ((StableHlo.devRef_ne_of_ne (Cert.LibRefNe.ref_ne_of_idx rfl rfl (by decide)) : (Proc.devRef .tc main_v39_7 : DevRef τ sig) ≠ Proc.devRef .tc main_v39_8)) _ _).trans (Function.update_self _ _ _))))
theorem V20_at_8 (o : Outs (F := F)) (c : Dev nD) : V20 m o c main_v39_8 = o 20 main_v39_8 c :=
  (Function.update_of_ne ((StableHlo.devRef_ne_of_ne (Cert.LibRefNe.ref_ne_of_idx rfl rfl (by decide)) : (Proc.devRef .tc main_v39_8 : DevRef τ sig) ≠ Proc.devRef .tc main_v39_11)) _ _).trans ((Function.update_of_ne ((StableHlo.devRef_ne_of_ne (Cert.LibRefNe.ref_ne_of_idx rfl rfl (by decide)) : (Proc.devRef .tc main_v39_8 : DevRef τ sig) ≠ Proc.devRef .tc main_v39_10)) _ _).trans ((Function.update_of_ne ((StableHlo.devRef_ne_of_ne (Cert.LibRefNe.ref_ne_of_idx rfl rfl (by decide)) : (Proc.devRef .tc main_v39_8 : DevRef τ sig) ≠ Proc.devRef .tc main_v39_9)) _ _).trans (Function.update_self _ _ _)))
theorem V20_at_9 (o : Outs (F := F)) (c : Dev nD) : V20 m o c main_v39_9 = o 20 main_v39_9 c :=
  (Function.update_of_ne ((StableHlo.devRef_ne_of_ne (Cert.LibRefNe.ref_ne_of_idx rfl rfl (by decide)) : (Proc.devRef .tc main_v39_9 : DevRef τ sig) ≠ Proc.devRef .tc main_v39_11)) _ _).trans ((Function.update_of_ne ((StableHlo.devRef_ne_of_ne (Cert.LibRefNe.ref_ne_of_idx rfl rfl (by decide)) : (Proc.devRef .tc main_v39_9 : DevRef τ sig) ≠ Proc.devRef .tc main_v39_10)) _ _).trans (Function.update_self _ _ _))
theorem V20_at_10 (o : Outs (F := F)) (c : Dev nD) : V20 m o c main_v39_10 = o 20 main_v39_10 c :=
  (Function.update_of_ne ((StableHlo.devRef_ne_of_ne (Cert.LibRefNe.ref_ne_of_idx rfl rfl (by decide)) : (Proc.devRef .tc main_v39_10 : DevRef τ sig) ≠ Proc.devRef .tc main_v39_11)) _ _).trans (Function.update_self _ _ _)
theorem V20_at_11 (o : Outs (F := F)) (c : Dev nD) : V20 m o c main_v39_11 = o 20 main_v39_11 c :=
  Function.update_self _ _ _

/-- After region 0 each of its outputs holds what `outs` says at item 20. -/
theorem V20_mem (o : Outs (F := F)) (c : Dev nD) : ∀ r ∈ outRefs0, V20 m o c r = o 20 r c := by
  intro r hr
  simp only [List.mem_cons, List.not_mem_nil, or_false] at hr
  rcases hr with rfl | rfl | rfl | rfl | rfl | rfl | rfl | rfl | rfl | rfl | rfl | rfl
  exacts [V20_at_0 m o c, V20_at_1 m o c, V20_at_2 m o c, V20_at_3 m o c, V20_at_4 m o c, V20_at_5 m o c, V20_at_6 m o c, V20_at_7 m o c, V20_at_8 m o c, V20_at_9 m o c, V20_at_10 m o c, V20_at_11 m o c]

/-- The valuation after region 0 reads `outs` at item 20 only. -/
theorem V20_outs (c : Dev nD) : V20 m (outs m) c = V20 m (outsA m) c := by
  show Function.update (Function.update (Function.update (Function.update (Function.update (Function.update (Function.update (Function.update (Function.update (Function.update (Function.update (Function.update (V19 m c) main_v39_0 (outs m 20 main_v39_0 c)) main_v39_1 (outs m 20 main_v39_1 c)) main_v39_2 (outs m 20 main_v39_2 c)) main_v39_3 (outs m 20 main_v39_3 c)) main_v39_4 (outs m 20 main_v39_4 c)) main_v39_5 (outs m 20 main_v39_5 c)) main_v39_6 (outs m 20 main_v39_6 c)) main_v39_7 (outs m 20 main_v39_7 c)) main_v39_8 (outs m 20 main_v39_8 c)) main_v39_9 (outs m 20 main_v39_9 c)) main_v39_10 (outs m 20 main_v39_10 c)) main_v39_11 (outs m 20 main_v39_11 c) = _
  simp only [outs_at20]
  rfl

/-- The valuation region 1 is entered from reads `outs` at item 20 only (the host stretches are the same fold). -/
theorem V85_outs (c : Dev nD) : V85 m (outs m) c = V85 m (outsA m) c :=
  congrArg (fun v : Valuation τ sig (Elt F) => StableHlo.after hostOps1_64 (StableHlo.after hostOps1_63 (StableHlo.after hostOps1_62 (StableHlo.after hostOps1_61 (StableHlo.after hostOps1_60 (StableHlo.after hostOps1_59 (StableHlo.after hostOps1_58 (StableHlo.after hostOps1_57 (StableHlo.after hostOps1_56 (StableHlo.after hostOps1_55 (StableHlo.after hostOps1_54 (StableHlo.after hostOps1_53 (StableHlo.after hostOps1_52 (StableHlo.after hostOps1_51 (StableHlo.after hostOps1_50 (StableHlo.after hostOps1_49 (StableHlo.after hostOps1_48 (StableHlo.after hostOps1_47 (StableHlo.after hostOps1_46 (StableHlo.after hostOps1_45 (StableHlo.after hostOps1_44 (StableHlo.after hostOps1_43 (StableHlo.after hostOps1_42 (StableHlo.after hostOps1_41 (StableHlo.after hostOps1_40 (StableHlo.after hostOps1_39 (StableHlo.after hostOps1_38 (StableHlo.after hostOps1_37 (StableHlo.after hostOps1_36 (StableHlo.after hostOps1_35 (StableHlo.after hostOps1_34 (StableHlo.after hostOps1_33 (StableHlo.after hostOps1_32 (StableHlo.after hostOps1_31 (StableHlo.after hostOps1_30 (StableHlo.after hostOps1_29 (StableHlo.after hostOps1_28 (StableHlo.after hostOps1_27 (StableHlo.after hostOps1_26 (StableHlo.after hostOps1_25 (StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v)))))))))))))))))))))))))))))))))))))))))))))))))))))))))))))))))) (V20_outs m c)

/-! ### Region 0's arrays and the rest at its exit -/

/-- Region 0's output windows' arrays are the twelve outputs, its input windows' arrays are none of them. -/
theorem isOut_mem0 : ∀ w : Fin 21, (cfg0.win w).isOut = true → Pipeline.arrRef spec0 w ∈ outRefs0 := by decide
theorem notOut_notMem0 : ∀ w : Fin 21, (cfg0.win w).isOut = false → Pipeline.arrRef spec0 w ∉ outRefs0 := by decide
theorem out_is_arr0 : ∀ b ∈ outRefs0, ∃ w : Fin 21, Pipeline.arrRef spec0 w = b := by decide

/-- After region 0 each of its arrays holds what the pipeline leaves: an output by the update chain, an input (which
    the region does not change) as entered. -/
theorem outs_20 (c : Dev nD) (w : Fin cfg0.W) :
    V20 m (outs m) c (Pipeline.arrRef spec0 w) = (dat0 (fun c b => V19 m c b) c).arrAt w cfg0.N := by
  by_cases h : (cfg0.win w).isOut = true
  · exact (V20_mem m (outs m) c _ (isOut_mem0 w h)).trans ((outs_at20 m _ c).trans (W20_arr m c w))
  · have h' : (cfg0.win w).isOut = false := by simpa using h
    exact (V20_of m (outs m) c _ (notOut_notMem0 w h')).trans
      (((dat0 (E19 m) c).arrAt_in w h' _).trans (A_eq0 (E19 m) c w)).symm

/-- Off region 0's arrays the valuation after it is the one before it. -/
theorem hrest0 (c : Dev nD) : ∀ b : Ref sig .tc, b ∉ Finset.univ.image (Pipeline.arrRef spec0) →
    V20 m (outs m) c b = V19 m c b :=
  fun b hb => V20_of m (outs m) c b fun hmem =>
    let ⟨w, e⟩ := out_is_arr0 b hmem
    hb (Finset.mem_image.mpr ⟨w, Finset.mem_univ _, e⟩)

/-! ### Region 1's arrays and the rest at its exit -/

theorem V86_at (o : Outs (F := F)) (c : Dev nD) : V86 m o c main_v508 = o 86 main_v508 c :=
  Function.update_self _ _ _

theorem isOut_eq1 : ∀ w : Fin 3, (cfg1.win w).isOut = true → Pipeline.arrRef spec1 w = main_v508 := by decide
theorem notOut_ne1 : ∀ w : Fin 3, (cfg1.win w).isOut = false → Pipeline.arrRef spec1 w ∉ ([main_v508] : List (Ref sig .tc)) := by decide
theorem arr1_2 : Pipeline.arrRef spec1 2 = main_v508 := by decide

/-- After region 1 each of its arrays holds what the pipeline leaves. -/
theorem hF1 (c : Dev nD) (w : Fin cfg1.W) :
    (dat1 (E85 m) c).arrAt w cfg1.N = V86 m (outs m) c (Pipeline.arrRef spec1 w) := by
  by_cases h : (cfg1.win w).isOut = true
  · have e := isOut_eq1 w h
    refine ((W86_arr m c w).symm.trans ?_)
    rw [e]
    exact ((V86_at m (outs m) c).trans (outs_at86 m _ c)).symm
  · have h' : (cfg1.win w).isOut = false := by simpa using h
    exact (((dat1 (E85 m) c).arrAt_in w h' _).trans (A_eq1 (E85 m) c w)).trans
      ((V86_of m (outs m) c _ (notOut_ne1 w h')).trans (congrFun (V85_outs m c) _)).symm

/-- Off region 1's arrays the valuation after it is the one before it. -/
theorem hrest1 (c : Dev nD) : ∀ b : Ref sig .tc, b ∉ Finset.univ.image (Pipeline.arrRef spec1) →
    V86 m (outs m) c b = V85 m (outsA m) c b :=
  fun b hb => (V86_of m (outs m) c b fun hmem =>
    hb (Finset.mem_image.mpr ⟨2, Finset.mem_univ _, by
      rw [List.mem_singleton] at hmem; exact arr1_2.trans hmem.symm⟩)).trans (congrFun (V85_outs m c) _)

/-- The proof data of region 1 may be read at either spelling of its entry contents. -/
theorem E85_outs : (fun c b => V85 m (outs m) c b : Val F) = E85 m :=
  funext fun c => funext fun b => congrFun (V85_outs m c) _

/-- After region 1 its output holds what the pipeline leaves. -/
theorem outs_86 (c : Dev nD) :
    V86 m (outs m) c main_v508 = (dat1 (fun c b => V85 m (outs m) c b) c).arrAt 2 cfg1.N := by
  rw [E85_outs]
  exact (hF1 m c 2).symm

/-! ## The proof data family and the thread state -/

/-- Every pipeline's proof data, each at its region's entry contents — a literal `match`, so that the family at a
    numeral reduces to the region's own data. -/
def pdats : (p : Fin 2) → (c : Dev nD) → Dat τ (Elt F) Unit ℕ (UR sig nD τ) ℕ (cfgs p) c
  | ⟨0, _⟩ => fun c => dat0 (E19 m) c
  | ⟨1, _⟩ => fun c => dat1 (E85 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library lemma is stated over the pinned configuration: its statement matches this one up to unfolding plain
-- definitions inside types
set_option backward.isDefEq.respectTransparency.types false in
/-- REGION 0 over the thread state: entered from every unscoped buffer at `V19`, left at `V20` (what the next host
    stretch is entered from). Its arrays split out of the unscoped buffers and put back at the exit contents; the
    generator register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E19 m) c).loose
  hwaits := Pipeline.hwaits_of_owed_zero _ _ _ _ L lv 0 fun c t => funext fun g => owed0 (E19 m) c t g
  pre c := iprop(StableHlo.held (c : Thread nD τ) (Pipeline.ucRefs τ sig) (V19 m c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E19 m c)
  hentry c := by
    rw [Pipeline.ownSems0_none]
    have hsplit := Pipeline.arrays_of_unscopedBufs (p := 0) (pcfgs (F := F)) adm (pdats m) launch0.win launch0.arr_whole c
      ((pdats m 0 c).share_full fun w => q0 (E19 m) c w) (E19 m c) fun w => A_eq0 (E19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (E19 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (E19 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (E19 m) c w)
      (E19 m c) (fun b => V20 m (outs m) c b) ((pdats m 0 c).arrAt · cfg0.N) (fun w => (outs_20 m c w).symm) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `V85`, left at `V86` (what the last host
    stretch is entered from). As region 0, except that its invariant carries the kernel's scratch accumulator: the
    class invariant enters it at the first point and is given back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E85 m) c).loose
  hwaits := Pipeline.hwaits_of_owed_zero _ _ _ _ L lv 1 fun c t => funext fun g => owed1 (E85 m) c t g
  pre c := iprop(StableHlo.held (c : Thread nD τ) (Pipeline.ucRefs τ sig) (V85 m (outsA m) c) ∗ R c)
  post c := iprop(StableHlo.held (c : Thread nD τ) (Pipeline.ucRefs τ sig) (V86 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E85 m c)
  hentry c := by
    rw [Pipeline.ownSems0_none]
    have hsplit := Pipeline.arrays_of_unscopedBufs (p := 1) (pcfgs (F := F)) adm (pdats m) launch1.win launch1.arr_whole c
      ((pdats m 1 c).share_full fun w => q1 (E85 m) c w) (E85 m c) fun w => A_eq1 (E85 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E85 m) c)
    unfold Pipeline.ΦA
    iintro ⟨Hp, -, Hr⟩
    isplitl [Hr]; · iexact Hr
    iexact Hp
  hout c := by
    rw [Pipeline.ownSems0_none]
    refine BIBase.Entails.trans (hout1 (E85 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1 (E85 m) c w)
      (E85 m c) (fun b => V86 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the conditional run's conclusion matches this statement up to unfolding plain definitions inside types
set_option backward.isDefEq.respectTransparency.types false in
/-- THE RUN. At the compiled mesh, from any memory with zero counters, every weakly fair execution of @main on the
    TensorCores terminates, nothing faulting, and every final state holds each core's every unscoped buffer at the last
    valuation `V87 m (outs m) c`: the launch memory folded through the host stretches, each region's arrays at what its
    pipeline leaves. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V87 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V85_outs]; exact .rfl) (fun c => .rfl)

/-- THE FRAME: every weakly fair execution terminates and every final state has the three argument arrays as launched
    (no host stretch writes an argument and no region may change one, so the last valuation reads back to the launch
    memory at each). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (V87_main_arg0 m (outs m) c),
     (h c _ (mem_uc main_arg1 (by decide))).trans (V87_main_arg1 m (outs m) c),
     (h c _ (mem_uc main_arg2 (by decide))).trans (V87_main_arg2 m (outs m) c)⟩) (run m ρ)

/-- THE RUN, READ AT THE RESULT: the final state holds the program's result buffer at the last valuation, and the
    three argument arrays as launched. -/
theorem run_value (ρ : Dev nD → PrngReg) :
    θ_run defs (onTc (τ := τ) (main (F := F))) ⟨m, fun _ => 0, ρ⟩ (fun r => ∀ c : Dev nD,
      r.2.mem ((c.tc : Thread nD τ).loc main_v509) = V87 m (outs m) c main_v509
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v509 (by decide)),
     (h c _ (mem_uc main_arg0 (by decide))).trans (V87_main_arg0 m (outs m) c),
     (h c _ (mem_uc main_arg1 (by decide))).trans (V87_main_arg1 m (outs m) c),
     (h c _ (mem_uc main_arg2 (by decide))).trans (V87_main_arg2 m (outs m) c)⟩) (run m ρ)

end Cert.KernelIdeal.Hand

end
-- ==== Proof.Spec.lean ====
/-
  The mathematics both programs compute, as plain functions on extended reals and 32-bit words.

  A point set is N = 2,000,000 points with normalized coordinates; each point is the sum of a base coordinate and a
  displacement. A coordinate u is unnormalized to t = ((u + 1)·128 − 1)·½; its base cell is ⌊t⌋ read as a signed word and its
  fraction is t − ⌊t⌋. A point touches the 8 corners (dz, dy, dx) ∈ {0,1}³ of its base cell; corner k = 4·dz + 2·dy + dx
  is valid when all three of its cell coordinates lie in 0 ≤ · < 128, its flat index is ((z·128 + y)·128 + x) when valid
  and 0 otherwise, and its weight the product of the three per-axis weights (the fraction when the offset is 1, one
  minus the fraction when it is 0) when valid and 0 otherwise. The splat of a point set is, at voxel v, the sum over
  the corners and the points of the weights whose flat index is v. The loss is the sum over the 128³ voxels of the
  Huber function of the difference of the two splats.
-/
import Idealize.ShloMosaic.PureOps.Ideal
import Idealize.ShloMosaic.Lib.ValueIdx

noncomputable section

open scoped BigOperators

namespace Cert.Spec

open Idealize.ShloMosaic

/-- The float literals of both programs, as their exact values. -/
abbrev c0 : Ideal .f32 := Ideal.ofBits .f32 0x00000000#32
abbrev c1 : Ideal .f32 := Ideal.ofBits .f32 0x3F800000#32
abbrev c128 : Ideal .f32 := Ideal.ofBits .f32 0x43000000#32
abbrev chalf : Ideal .f32 := Ideal.ofBits .f32 0x3F000000#32
abbrev cm2 : Ideal .f32 := Ideal.ofBits .f32 0xC0000000#32

/-- A normalized coordinate (base plus displacement) unnormalized to voxel units. -/
def tco (a b : Ideal .f32) : Ideal .f32 := ((a + b + c1) * c128 - c1) * chalf
/-- The floor, on the extended reals. -/
def flo (x : Ideal .f32) : Ideal .f32 := Ideal.liftRound Int.floor x
/-- The base cell coordinate as a signed word. -/
def base (a b : Ideal .f32) : BitVec 32 := Ideal.fptosi 32 (flo (tco a b))
/-- The fraction inside the cell. -/
def frac (a b : Ideal .f32) : Ideal .f32 := tco a b - flo (tco a b)

/-- What a point contributes: its base cell and the three fractions. -/
structure Pt where
  x0 : BitVec 32
  y0 : BitVec 32
  z0 : BitVec 32
  fx : Ideal .f32
  fy : Ideal .f32
  fz : Ideal .f32

/-- The point whose normalized coordinates are ax + bx, ay + by, az + bz. -/
def mkPt (ax bx ay by_ az bz : Ideal .f32) : Pt :=
  ⟨base ax bx, base ay by_, base az bz, frac ax bx, frac ay by_, frac az bz⟩

/-- Corner k's offset along x, y, z: k = 4·dz + 2·dy + dx. -/
def dxOf (k : Fin 8) : Bool := k.val % 2 = 1
def dyOf (k : Fin 8) : Bool := (k.val / 2) % 2 = 1
def dzOf (k : Fin 8) : Bool := k.val / 4 = 1

/-- The offset as a word. -/
def off (b : Bool) : BitVec 32 := if b then 1#32 else 0#32
/-- The per-axis weight: the fraction at offset 1, one minus it at offset 0. -/
def wsel (b : Bool) (f : Ideal .f32) : Ideal .f32 := if b then f else c1 - f

/-- A cell coordinate is inside the grid: 0 ≤ · < 128, signed. -/
def inGrid (a : BitVec 32) : BitVec 1 := Scalar.cmpi .sge a 0#32 &&& Scalar.cmpi .slt a 128#32

/-- Corner k of a point is valid: z, y and x inside the grid (in that order). -/
def cvalid (k : Fin 8) (P : Pt) : BitVec 1 :=
  (inGrid (P.z0 + off (dzOf k)) &&& inGrid (P.y0 + off (dyOf k))) &&& inGrid (P.x0 + off (dxOf k))

/-- Corner k's flat voxel index, 0 when invalid. -/
def cidx (k : Fin 8) (P : Pt) : BitVec 32 :=
  Scalar.select (cvalid k P)
    (((P.z0 + off (dzOf k)) * 128#32 + (P.y0 + off (dyOf k))) * 128#32 + (P.x0 + off (dxOf k))) 0#32

/-- Corner k's weight, 0 when invalid. -/
def cw (k : Fin 8) (P : Pt) : Ideal .f32 :=
  Scalar.select (cvalid k P) ((wsel (dxOf k) P.fx * wsel (dyOf k) P.fy) * wsel (dzOf k) P.fz) c0

/-- The splat of a point set at voxel v: the weights of the corners that land on v, summed over corners and points. -/
def splat (pts : Fin 2000000 → Pt) (v : Fin 2097152) : Ideal .f32 :=
  ∑ k : Fin 8, ∑ p : Fin 2000000, if (cidx k (pts p)).toInt = (v.val : ℤ) then cw k (pts p) else 0

/-- The Huber function with threshold one. -/
def hub (d : Ideal .f32) : Ideal .f32 :=
  Scalar.select (Ideal.cmp .ole (max d (-d)) c1) ((chalf * d) * d) (c1 * (max d (-d) - chalf))

/-- The loss: the Huber function of the difference of two splats, summed over the voxels. -/
def loss (P G : Fin 2000000 → Pt) : Ideal .f32 :=
  ∑ v : Fin 2097152, hub (splat P v - splat G v)

end Cert.Spec

end
-- ==== Proof.KIValue0.lean ====
/- The twelve arrays the first region writes, index by index: the base cells and fractions of the two point sets, as the
   specification states them, of the region-entry contents of the nine coordinate arrays. At the exact float model. -/
import proofs.«106138_j14714557956152_2_alg».proof.Proof.KIRegion0
import proofs.«106138_j14714557956152_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

/-! ## The payloads at an index -/

/-- The zero offsets of the whole-block rectangle, as a constant function. -/
theorem hz0 : (![0, 0] : Fin 2 → Nat) = fun _ => 0 := funext fun a => by fin_cases a <;> rfl

section Point
variable (a b : Vec Ideal S512x128 .f32) (j : S512x128.Idx)

/-! Each stored value at an index is the specification's base cell or fraction of the two coordinates there: the body's
    operations are pointwise, its shape casts are to the same shape, and its literals are the specification's. The four
    forms differ only in how the body groups the same operations. -/

theorem pay8_apply : k0_pay8 a b j = Cert.Spec.base (a j) (b j) := by
  unfold k0_pay8 k0_pay6 k0_pay5 k0_pay1; simp only [shapeCast_self]; rfl
theorem pay7_apply : k0_pay7 a b j = Cert.Spec.frac (a j) (b j) := by
  unfold k0_pay7 k0_pay6 k0_pay5 k0_pay1; simp only [shapeCast_self]; rfl
theorem pay12_apply : k0_pay12 a b j = Cert.Spec.base (a j) (b j) := by
  unfold k0_pay12 k0_pay10 k0_pay9 k0_pay2; simp only [shapeCast_self]; rfl
theorem pay11_apply : k0_pay11 a b j = Cert.Spec.frac (a j) (b j) := by
  unfold k0_pay11 k0_pay10 k0_pay9 k0_pay2; simp only [shapeCast_self]; rfl
theorem pay17_apply : k0_pay17 (k0_pay4 a b) (k0_pay13 (F := Ideal)) j = Cert.Spec.base (a j) (b j) := by
  unfold k0_pay17 k0_pay15 k0_pay14 k0_pay13 k0_pay4 k0_pay3; simp only [shapeCast_self]; rfl
theorem pay16_apply : k0_pay16 (k0_pay4 a b) (k0_pay13 (F := Ideal)) j = Cert.Spec.frac (a j) (b j) := by
  unfold k0_pay16 k0_pay15 k0_pay14 k0_pay13 k0_pay4 k0_pay3; simp only [shapeCast_self]; rfl
theorem pay25_apply : k0_pay25 (k0_pay20 (k0_pay1 a) b) (k0_pay21 (F := Ideal)) j = Cert.Spec.base (a j) (b j) := by
  unfold k0_pay25 k0_pay23 k0_pay22 k0_pay21 k0_pay20 k0_pay1; simp only [shapeCast_self]; rfl
theorem pay24_apply : k0_pay24 (k0_pay20 (k0_pay1 a) b) (k0_pay21 (F := Ideal)) j = Cert.Spec.frac (a j) (b j) := by
  unfold k0_pay24 k0_pay23 k0_pay22 k0_pay21 k0_pay20 k0_pay1; simp only [shapeCast_self]; rfl
theorem pay29_apply : k0_pay29 (k0_pay18 (k0_pay2 a) b) j = Cert.Spec.base (a j) (b j) := by
  unfold k0_pay29 k0_pay27 k0_pay26 k0_pay18 k0_pay2; simp only [shapeCast_self]; rfl
theorem pay28_apply : k0_pay28 (k0_pay18 (k0_pay2 a) b) j = Cert.Spec.frac (a j) (b j) := by
  unfold k0_pay28 k0_pay27 k0_pay26 k0_pay18 k0_pay2; simp only [shapeCast_self]; rfl
theorem pay33_apply : k0_pay33 (k0_pay19 (k0_pay3 a) b) j = Cert.Spec.base (a j) (b j) := by
  unfold k0_pay33 k0_pay31 k0_pay30 k0_pay19 k0_pay3; simp only [shapeCast_self]; rfl
theorem pay32_apply : k0_pay32 (k0_pay19 (k0_pay3 a) b) j = Cert.Spec.frac (a j) (b j) := by
  unfold k0_pay32 k0_pay31 k0_pay30 k0_pay19 k0_pay3; simp only [shapeCast_self]; rfl

end Point

/-! ## What the body leaves in each output buffer, at an index

    The one store covers the buffer, so the buffer holds the stored value; the loads are of whole blocks. -/
theorem out0_9_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_9 x0 x1 x2 x3 x4 x5 x6 x7 x8 j = Cert.Spec.base (x0 j) (x3 j) := by
  unfold out0_9
  rw [View.canon_unit_zero hz0]
  simp only [View.ld_unit_zero (S := S512x128) hz0]
  exact pay8_apply _ _ _
theorem out0_10_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_10 x0 x1 x2 x3 x4 x5 x6 x7 x8 j = Cert.Spec.base (x1 j) (x4 j) := by
  unfold out0_10
  rw [View.canon_unit_zero hz0]
  simp only [View.ld_unit_zero (S := S512x128) hz0]
  exact pay12_apply _ _ _
theorem out0_11_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_11 x0 x1 x2 x3 x4 x5 x6 x7 x8 j = Cert.Spec.base (x2 j) (x5 j) := by
  unfold out0_11
  rw [View.canon_unit_zero hz0]
  simp only [View.ld_unit_zero (S := S512x128) hz0]
  exact pay17_apply _ _ _
theorem out0_12_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_12 x0 x1 x2 x3 x4 x5 x6 x7 x8 j = Cert.Spec.frac (x0 j) (x3 j) := by
  unfold out0_12
  rw [View.canon_unit_zero hz0]
  simp only [View.ld_unit_zero (S := S512x128) hz0]
  exact pay7_apply _ _ _
theorem out0_13_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_13 x0 x1 x2 x3 x4 x5 x6 x7 x8 j = Cert.Spec.frac (x1 j) (x4 j) := by
  unfold out0_13
  rw [View.canon_unit_zero hz0]
  simp only [View.ld_unit_zero (S := S512x128) hz0]
  exact pay11_apply _ _ _
theorem out0_14_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_14 x0 x1 x2 x3 x4 x5 x6 x7 x8 j = Cert.Spec.frac (x2 j) (x5 j) := by
  unfold out0_14
  rw [View.canon_unit_zero hz0]
  simp only [View.ld_unit_zero (S := S512x128) hz0]
  exact pay16_apply _ _ _
theorem out0_15_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_15 x0 x1 x2 x3 x4 x5 x6 x7 x8 j = Cert.Spec.base (x0 j) (x6 j) := by
  unfold out0_15
  rw [View.canon_unit_zero hz0]
  simp only [View.ld_unit_zero (S := S512x128) hz0]
  exact pay25_apply _ _ _
theorem out0_16_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_16 x0 x1 x2 x3 x4 x5 x6 x7 x8 j = Cert.Spec.base (x1 j) (x7 j) := by
  unfold out0_16
  rw [View.canon_unit_zero hz0]
  simp only [View.ld_unit_zero (S := S512x128) hz0]
  exact pay29_apply _ _ _
theorem out0_17_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_17 x0 x1 x2 x3 x4 x5 x6 x7 x8 j = Cert.Spec.base (x2 j) (x8 j) := by
  unfold out0_17
  rw [View.canon_unit_zero hz0]
  simp only [View.ld_unit_zero (S := S512x128) hz0]
  exact pay33_apply _ _ _
theorem out0_18_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_18 x0 x1 x2 x3 x4 x5 x6 x7 x8 j = Cert.Spec.frac (x0 j) (x6 j) := by
  unfold out0_18
  rw [View.canon_unit_zero hz0]
  simp only [View.ld_unit_zero (S := S512x128) hz0]
  exact pay24_apply _ _ _
theorem out0_19_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_19 x0 x1 x2 x3 x4 x5 x6 x7 x8 j = Cert.Spec.frac (x1 j) (x7 j) := by
  unfold out0_19
  rw [View.canon_unit_zero hz0]
  simp only [View.ld_unit_zero (S := S512x128) hz0]
  exact pay28_apply _ _ _
theorem out0_20_apply (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (j : S512x128.Idx) :
    out0_20 x0 x1 x2 x3 x4 x5 x6 x7 x8 j = Cert.Spec.frac (x2 j) (x8 j) := by
  unfold out0_20
  rw [View.canon_unit_zero hz0]
  simp only [View.ld_unit_zero (S := S512x128) hz0]
  exact pay32_apply _ _ _

/-! ## From blocks to the arrays -/

variable (V : Val Ideal)

/-- Every window's block at point t is block (t, 0) of its array: the index maps, decided over the grid. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0
    ∧ win0_20.index t (0 : Fin 2) = t.val ∧ win0_20.index t (1 : Fin 2) = 0 :=
  (by decide +kernel : ∀ t : Fin grid0.N, _)

/-- The array index of block t's local index y: row t·512 + y₀, lane y₁. -/
def rowIdx (t : Fin cfg0.N) (y : S512x128.Idx) : S15872x128.Idx :=
  ix2 ⟨t.val * 512 + (y 0).val, by
      have ht : t.val < 31 := lt_of_lt_of_eq t.isLt N_0
      have hy : (y 0).val < 512 := (y 0).isLt
      omega⟩
    ⟨(y 1).val, (y 1).isLt⟩

/-! Each window's block at point t sits in its array at rowIdx t: a block's coordinate is its block index times the block's
    extent plus the coordinate inside the block. -/
theorem emb0_0 (t : Fin cfg0.N) (y : S512x128.Idx) : ((cfg0.win 0).blk t).view.emb y = rowIdx t y := by
  have e0 : win0_0.index t (0 : Fin 2) = t.val := by have h := idx_facts0 t; exact h.1
  have e1 : win0_0.index t (1 : Fin 2) = 0 := by have h := idx_facts0 t; exact h.2.1
  funext a; apply Fin.ext
  match a with
  | ⟨0, _⟩ => show win0_0.index t (0 : Fin 2) * 512 + 1 * (y 0).val = t.val * 512 + (y 0).val; omega
  | ⟨1, _⟩ => show win0_0.index t (1 : Fin 2) * 128 + 1 * (y 1).val = (y 1).val; omega
theorem emb0_1 (t : Fin cfg0.N) (y : S512x128.Idx) : ((cfg0.win 1).blk t).view.emb y = rowIdx t y := by
  have e0 : win0_1.index t (0 : Fin 2) = t.val := by have h := idx_facts0 t; exact h.2.2.1
  have e1 : win0_1.index t (1 : Fin 2) = 0 := by have h := idx_facts0 t; exact h.2.2.2.1
  funext a; apply Fin.ext
  match a with
  | ⟨0, _⟩ => show win0_1.index t (0 : Fin 2) * 512 + 1 * (y 0).val = t.val * 512 + (y 0).val; omega
  | ⟨1, _⟩ => show win0_1.index t (1 : Fin 2) * 128 + 1 * (y 1).val = (y 1).val; omega
theorem emb0_2 (t : Fin cfg0.N) (y : S512x128.Idx) : ((cfg0.win 2).blk t).view.emb y = rowIdx t y := by
  have e0 : win0_2.index t (0 : Fin 2) = t.val := by have h := idx_facts0 t; exact h.2.2.2.2.1
  have e1 : win0_2.index t (1 : Fin 2) = 0 := by have h := idx_facts0 t; exact h.2.2.2.2.2.1
  funext a; apply Fin.ext
  match a with
  | ⟨0, _⟩ => show win0_2.index t (0 : Fin 2) * 512 + 1 * (y 0).val = t.val * 512 + (y 0).val; omega
  | ⟨1, _⟩ => show win0_2.index t (1 : Fin 2) * 128 + 1 * (y 1).val = (y 1).val; omega
theorem emb0_3 (t : Fin cfg0.N) (y : S512x128.Idx) : ((cfg0.win 3).blk t).view.emb y = rowIdx t y := by
  have e0 : win0_3.index t (0 : Fin 2) = t.val := by have h := idx_facts0 t; exact h.2.2.2.2.2.2.1
  have e1 : win0_3.index t (1 : Fin 2) = 0 := by have h := idx_facts0 t; exact h.2.2.2.2.2.2.2.1
  funext a; apply Fin.ext
  match a with
  | ⟨0, _⟩ => show win0_3.index t (0 : Fin 2) * 512 + 1 * (y 0).val = t.val * 512 + (y 0).val; omega
  | ⟨1, _⟩ => show win0_3.index t (1 : Fin 2) * 128 + 1 * (y 1).val = (y 1).val; omega
theorem emb0_4 (t : Fin cfg0.N) (y : S512x128.Idx) : ((cfg0.win 4).blk t).view.emb y = rowIdx t y := by
  have e0 : win0_4.index t (0 : Fin 2) = t.val := by have h := idx_facts0 t; exact h.2.2.2.2.2.2.2.2.1
  have e1 : win0_4.index t (1 : Fin 2) = 0 := by have h := idx_facts0 t; exact h.2.2.2.2.2.2.2.2.2.1
  funext a; apply Fin.ext
  match a with
  | ⟨0, _⟩ => show win0_4.index t (0 : Fin 2) * 512 + 1 * (y 0).val = t.val * 512 + (y 0).val; omega
  | ⟨1, _⟩ => show win0_4.index t (1 : Fin 2) * 128 + 1 * (y 1).val = (y 1).val; omega
theorem emb0_5 (t : Fin cfg0.N) (y : S512x128.Idx) : ((cfg0.win 5).blk t).view.emb y = rowIdx t y := by
  have e0 : win0_5.index t (0 : Fin 2) = t.val := by have h := idx_facts0 t; exact h.2.2.2.2.2.2.2.2.2.2.1
  have e1 : win0_5.index t (1 : Fin 2) = 0 := by have h := idx_facts0 t; exact h.2.2.2.2.2.2.2.2.2.2.2.1
  funext a; apply Fin.ext
  match a with
  | ⟨0, _⟩ => show win0_5.index t (0 : Fin 2) * 512 + 1 * (y 0).val = t.val * 512 + (y 0).val; omega
  | ⟨1, _⟩ => show win0_5.index t (1 : Fin 2) * 128 + 1 * (y 1).val = (y 1).val; omega
theorem emb0_6 (t : Fin cfg0.N) (y : S512x128.Idx) : ((cfg0.win 6).blk t).view.emb y = rowIdx t y := by
  have e0 : win0_6.index t (0 : Fin 2) = t.val := by have h := idx_facts0 t; exact h.2.2.2.2.2.2.2.2.2.2.2.2.1
  have e1 : win0_6.index t (1 : Fin 2) = 0 := by have h := idx_facts0 t; exact h.2.2.2.2.2.2.2.2.2.2.2.2.2.1
  funext a; apply Fin.ext
  match a with
  | ⟨0, _⟩ => show win0_6.index t (0 : Fin 2) * 512 + 1 * (y 0).val = t.val * 512 + (y 0).val; omega
  | ⟨1, _⟩ => show win0_6.index t (1 : Fin 2) * 128 + 1 * (y 1).val = (y 1).val; omega
theorem emb0_7 (t : Fin cfg0.N) (y : S512x128.Idx) : ((cfg0.win 7).blk t).view.emb y = rowIdx t y := by
  have e0 : win0_7.index t (0 : Fin 2) = t.val := by have h := idx_facts0 t; exact h.2.2.2.2.2.2.2.2.2.2.2.2.2.2.1
  have e1 : win0_7.index t (1 : Fin 2) = 0 := by have h := idx_facts0 t; exact h.2.2.2.2.2.2.2.2.2.2.2.2.2.2.2.1
  funext a; apply Fin.ext
  match a with
  | ⟨0, _⟩ => show win0_7.index t (0 : Fin 2) * 512 + 1 * (y 0).val = t.val * 512 + (y 0).val; omega
  | ⟨1, _⟩ => show win0_7.index t (1 : Fin 2) * 128 + 1 * (y 1).val = (y 1).val; omega
theorem emb0_8 (t : Fin cfg0.N) (y : S512x128.Idx) : ((cfg0.win 8).blk t).view.emb y = rowIdx t y := by
  have e0 : win0_8.index t (0 : Fin 2) = t.val := by have h := idx_facts0 t; exact h.2.2.2.2.2.2.2.2.2.2.2.2.2.2.2.2.1
  have e1 : win0_8.index t (1 : Fin 2) = 0 := by have h := idx_facts0 t; exact h.2.2.2.2.2.2.2.2.2.2.2.2.2.2.2.2.2.1
  funext a; apply Fin.ext
  match a with
  | ⟨0, _⟩ => show win0_8.index t (0 : Fin 2) * 512 + 1 * (y 0).val = t.val * 512 + (y 0).val; omega
  | ⟨1, _⟩ => show win0_8.index t (1 : Fin 2) * 128 + 1 * (y 1).val = (y 1).val; omega
theorem emb0_9 (t : Fin cfg0.N) (y : S512x128.Idx) : ((cfg0.win 9).blk t).view.emb y = rowIdx t y := by
  have e0 : win0_9.index t (0 : Fin 2) = t.val := by have h := idx_facts0 t; exact h.2.2.2.2.2.2.2.2.2.2.2.2.2.2.2.2.2.2.1
  have e1 : win0_9.index t (1 : Fin 2) = 0 := by have h := idx_facts0 t; exact h.2.2.2.2.2.2.2.2.2.2.2.2.2.2.2.2.2.2.2.1
  funext a; apply Fin.ext
  match a with
  | ⟨0, _⟩ => show win0_9.index t (0 : Fin 2) * 512 + 1 * (y 0).val = t.val * 512 + (y 0).val; omega
  | ⟨1, _⟩ => show win0_9.index t (1 : Fin 2) * 128 + 1 * (y 1).val = (y 1).val; omega
theorem emb0_10 (t : Fin cfg0.N) (y : S512x128.Idx) : ((cfg0.win 10).blk t).view.emb y = rowIdx t y := by
  have e0 : win0_10.index t (0 : Fin 2) = t.val := by have h := idx_facts0 t; exact h.2.2.2.2.2.2.2.2.2.2.2.2.2.2.2.2.2.2.2.2.1
  have e1 : win0_10.index t (1 : Fin 2) = 0 := by have h := idx_facts0 t; exact h.2.2.2.2.2.2.2.2.2.2.2.2.2.2.2.2.2.2.2.2.2.1
  funext a; apply Fin.ext
  match a with
  | ⟨0, _⟩ => show win0_10.index t (0 : Fin 2) * 512 + 1 * (y 0).val = t.val * 512 + (y 0).val; omega
  | ⟨1, _⟩ => show win0_10.index t (1 : Fin 2) * 128 + 1 * (y 1).val = (y 1).val; omega
theorem emb0_11 (t : Fin cfg0.N) (y : S512x128.Idx) : ((cfg0.win 11).blk t).view.emb y = rowIdx t y := by
  have e0 : win0_11.index t (0 : Fin 2) = t.val := by have h := idx_facts0 t; exact h.2.2.2.2.2.2.2.2.2.2.2.2.2.2.2.2.2.2.2.2.2.2.1
  have e1 : win0_11.index t (1 : Fin 2) = 0 := by have h := idx_facts0 t; exact h.2.2.2.2.2.2.2.2.2.2.2.2.2.2.2.2.2.2.2.2.2.2.2.1
  funext a; apply Fin.ext
  match a with
  | ⟨0, _⟩ => show win0_11.index t (0 : Fin 2) * 512 + 1 * (y 0).val = t.val * 512 + (y 0).val; omega
  | ⟨1, _⟩ => show win0_11.index t (1 : Fin 2) * 128 + 1 * (y 1).val = (y 1).val; omega
theorem emb0_12 (t : Fin cfg0.N) (y : S512x128.Idx) : ((cfg0.win 12).blk t).view.emb y = rowIdx t y := by
  have e0 : win0_12.index t (0 : Fin 2) = t.val := by have h := idx_facts0 t; exact h.2.2.2.2.2.2.2.2.2.2.2.2.2.2.2.2.2.2.2.2.2.2.2.2.1
  have e1 : win0_12.index t (1 : Fin 2) = 0 := by have h := idx_facts0 t; exact h.2.2.2.2.2.2.2.2.2.2.2.2.2.2.2.2.2.2.2.2.2.2.2.2.2.1
  funext a; apply Fin.ext
  match a with
  | ⟨0, _⟩ => show win0_12.index t (0 : Fin 2) * 512 + 1 * (y 0).val = t.val * 512 + (y 0).val; omega
  | ⟨1, _⟩ => show win0_12.index t (1 : Fin 2) * 128 + 1 * (y 1).val = (y 1).val; omega
theorem emb0_13 (t : Fin cfg0.N) (y : S512x128.Idx) : ((cfg0.win 13).blk t).view.emb y = rowIdx t y := by
  have e0 : win0_13.index t (0 : Fin 2) = t.val := by have h := idx_facts0 t; exact h.2.2.2.2.2.2.2.2.2.2.2.2.2.2.2.2.2.2.2.2.2.2.2.2.2.2.1
  have e1 : win0_13.index t (1 : Fin 2) = 0 := by have h := idx_facts0 t; exact h.2.2.2.2.2.2.2.2.2.2.2.2.2.2.2.2.2.2.2.2.2.2.2.2.2.2.2.1
  funext a; apply Fin.ext
  match a with
  | ⟨0, _⟩ => show win0_13.index t (0 : Fin 2) * 512 + 1 * (y 0).val = t.val * 512 + (y 0).val; omega
  | ⟨1, _⟩ => show win0_13.index t (1 : Fin 2) * 128 + 1 * (y 1).val = (y 1).val; omega
theorem emb0_14 (t : Fin cfg0.N) (y : S512x128.Idx) : ((cfg0.win 14).blk t).view.emb y = rowIdx t y := by
  have e0 : win0_14.index t (0 : Fin 2) = t.val := by have h := idx_facts0 t; exact h.2.2.2.2.2.2.2.2.2.2.2.2.2.2.2.2.2.2.2.2.2.2.2.2.2.2.2.2.1
  have e1 : win0_14.index t (1 : Fin 2) = 0 := by have h := idx_facts0 t; exact h.2.2.2.2.2.2.2.2.2.2.2.2.2.2.2.2.2.2.2.2.2.2.2.2.2.2.2.2.2.1
  funext a; apply Fin.ext
  match a with
  | ⟨0, _⟩ => show win0_14.index t (0 : Fin 2) * 512 + 1 * (y 0).val = t.val * 512 + (y 0).val; omega
  | ⟨1, _⟩ => show win0_14.index t (1 : Fin 2) * 128 + 1 * (y 1).val = (y 1).val; omega
theorem emb0_15 (t : Fin cfg0.N) (y : S512x128.Idx) : ((cfg0.win 15).blk t).view.emb y = rowIdx t y := by
  have e0 : win0_15.index t (0 : Fin 2) = t.val := by have h := idx_facts0 t; exact h.2.2.2.2.2.2.2.2.2.2.2.2.2.2.2.2.2.2.2.2.2.2.2.2.2.2.2.2.2.2.1
  have e1 : win0_15.index t (1 : Fin 2) = 0 := by have h := idx_facts0 t; exact h.2.2.2.2.2.2.2.2.2.2.2.2.2.2.2.2.2.2.2.2.2.2.2.2.2.2.2.2.2.2.2.1
  funext a; apply Fin.ext
  match a with
  | ⟨0, _⟩ => show win0_15.index t (0 : Fin 2) * 512 + 1 * (y 0).val = t.val * 512 + (y 0).val; omega
  | ⟨1, _⟩ => show win0_15.index t (1 : Fin 2) * 128 + 1 * (y 1).val = (y 1).val; omega
theorem emb0_16 (t : Fin cfg0.N) (y : S512x128.Idx) : ((cfg0.win 16).blk t).view.emb y = rowIdx t y := by
  have e0 : win0_16.index t (0 : Fin 2) = t.val := by have h := idx_facts0 t; exact h.2.2.2.2.2.2.2.2.2.2.2.2.2.2.2.2.2.2.2.2.2.2.2.2.2.2.2.2.2.2.2.2.1
  have e1 : win0_16.index t (1 : Fin 2) = 0 := by have h := idx_facts0 t; exact h.2.2.2.2.2.2.2.2.2.2.2.2.2.2.2.2.2.2.2.2.2.2.2.2.2.2.2.2.2.2.2.2.2.1
  funext a; apply Fin.ext
  match a with
  | ⟨0, _⟩ => show win0_16.index t (0 : Fin 2) * 512 + 1 * (y 0).val = t.val * 512 + (y 0).val; omega
  | ⟨1, _⟩ => show win0_16.index t (1 : Fin 2) * 128 + 1 * (y 1).val = (y 1).val; omega
theorem emb0_17 (t : Fin cfg0.N) (y : S512x128.Idx) : ((cfg0.win 17).blk t).view.emb y = rowIdx t y := by
  have e0 : win0_17.index t (0 : Fin 2) = t.val := by have h := idx_facts0 t; exact h.2.2.2.2.2.2.2.2.2.2.2.2.2.2.2.2.2.2.2.2.2.2.2.2.2.2.2.2.2.2.2.2.2.2.1
  have e1 : win0_17.index t (1 : Fin 2) = 0 := by have h := idx_facts0 t; exact h.2.2.2.2.2.2.2.2.2.2.2.2.2.2.2.2.2.2.2.2.2.2.2.2.2.2.2.2.2.2.2.2.2.2.2.1
  funext a; apply Fin.ext
  match a with
  | ⟨0, _⟩ => show win0_17.index t (0 : Fin 2) * 512 + 1 * (y 0).val = t.val * 512 + (y 0).val; omega
  | ⟨1, _⟩ => show win0_17.index t (1 : Fin 2) * 128 + 1 * (y 1).val = (y 1).val; omega
theorem emb0_18 (t : Fin cfg0.N) (y : S512x128.Idx) : ((cfg0.win 18).blk t).view.emb y = rowIdx t y := by
  have e0 : win0_18.index t (0 : Fin 2) = t.val := by have h := idx_facts0 t; exact h.2.2.2.2.2.2.2.2.2.2.2.2.2.2.2.2.2.2.2.2.2.2.2.2.2.2.2.2.2.2.2.2.2.2.2.2.1
  have e1 : win0_18.index t (1 : Fin 2) = 0 := by have h := idx_facts0 t; exact h.2.2.2.2.2.2.2.2.2.2.2.2.2.2.2.2.2.2.2.2.2.2.2.2.2.2.2.2.2.2.2.2.2.2.2.2.2.1
  funext a; apply Fin.ext
  match a with
  | ⟨0, _⟩ => show win0_18.index t (0 : Fin 2) * 512 + 1 * (y 0).val = t.val * 512 + (y 0).val; omega
  | ⟨1, _⟩ => show win0_18.index t (1 : Fin 2) * 128 + 1 * (y 1).val = (y 1).val; omega
theorem emb0_19 (t : Fin cfg0.N) (y : S512x128.Idx) : ((cfg0.win 19).blk t).view.emb y = rowIdx t y := by
  have e0 : win0_19.index t (0 : Fin 2) = t.val := by have h := idx_facts0 t; exact h.2.2.2.2.2.2.2.2.2.2.2.2.2.2.2.2.2.2.2.2.2.2.2.2.2.2.2.2.2.2.2.2.2.2.2.2.2.2.1
  have e1 : win0_19.index t (1 : Fin 2) = 0 := by have h := idx_facts0 t; exact h.2.2.2.2.2.2.2.2.2.2.2.2.2.2.2.2.2.2.2.2.2.2.2.2.2.2.2.2.2.2.2.2.2.2.2.2.2.2.2.1
  funext a; apply Fin.ext
  match a with
  | ⟨0, _⟩ => show win0_19.index t (0 : Fin 2) * 512 + 1 * (y 0).val = t.val * 512 + (y 0).val; omega
  | ⟨1, _⟩ => show win0_19.index t (1 : Fin 2) * 128 + 1 * (y 1).val = (y 1).val; omega
theorem emb0_20 (t : Fin cfg0.N) (y : S512x128.Idx) : ((cfg0.win 20).blk t).view.emb y = rowIdx t y := by
  have e0 : win0_20.index t (0 : Fin 2) = t.val := by have h := idx_facts0 t; exact h.2.2.2.2.2.2.2.2.2.2.2.2.2.2.2.2.2.2.2.2.2.2.2.2.2.2.2.2.2.2.2.2.2.2.2.2.2.2.2.2.1
  have e1 : win0_20.index t (1 : Fin 2) = 0 := by have h := idx_facts0 t; exact h.2.2.2.2.2.2.2.2.2.2.2.2.2.2.2.2.2.2.2.2.2.2.2.2.2.2.2.2.2.2.2.2.2.2.2.2.2.2.2.2.2
  funext a; apply Fin.ext
  match a with
  | ⟨0, _⟩ => show win0_20.index t (0 : Fin 2) * 512 + 1 * (y 0).val = t.val * 512 + (y 0).val; omega
  | ⟨1, _⟩ => show win0_20.index t (1 : Fin 2) * 128 + 1 * (y 1).val = (y 1).val; omega

/-! Each input window's block read at a local index is its array, as the region finds it, at rowIdx t. -/
theorem iblk0_0_apply (c : Dev nD) (t : Fin cfg0.N) (y : S512x128.Idx) :
    iblk0 V c 0 t y = (V c main_v6 : S15872x128.Idx → Ideal .f32) (rowIdx t y) := by
  show (V c main_v6 : S15872x128.Idx → Ideal .f32) (((cfg0.win 0).blk t).view.emb y) = _
  rw [emb0_0]
theorem iblk0_1_apply (c : Dev nD) (t : Fin cfg0.N) (y : S512x128.Idx) :
    iblk0 V c 1 t y = (V c main_v10 : S15872x128.Idx → Ideal .f32) (rowIdx t y) := by
  show (V c main_v10 : S15872x128.Idx → Ideal .f32) (((cfg0.win 1).blk t).view.emb y) = _
  rw [emb0_1]
theorem iblk0_2_apply (c : Dev nD) (t : Fin cfg0.N) (y : S512x128.Idx) :
    iblk0 V c 2 t y = (V c main_v14 : S15872x128.Idx → Ideal .f32) (rowIdx t y) := by
  show (V c main_v14 : S15872x128.Idx → Ideal .f32) (((cfg0.win 2).blk t).view.emb y) = _
  rw [emb0_2]
theorem iblk0_3_apply (c : Dev nD) (t : Fin cfg0.N) (y : S512x128.Idx) :
    iblk0 V c 3 t y = (V c main_v18 : S15872x128.Idx → Ideal .f32) (rowIdx t y) := by
  show (V c main_v18 : S15872x128.Idx → Ideal .f32) (((cfg0.win 3).blk t).view.emb y) = _
  rw [emb0_3]
theorem iblk0_4_apply (c : Dev nD) (t : Fin cfg0.N) (y : S512x128.Idx) :
    iblk0 V c 4 t y = (V c main_v22 : S15872x128.Idx → Ideal .f32) (rowIdx t y) := by
  show (V c main_v22 : S15872x128.Idx → Ideal .f32) (((cfg0.win 4).blk t).view.emb y) = _
  rw [emb0_4]
theorem iblk0_5_apply (c : Dev nD) (t : Fin cfg0.N) (y : S512x128.Idx) :
    iblk0 V c 5 t y = (V c main_v26 : S15872x128.Idx → Ideal .f32) (rowIdx t y) := by
  show (V c main_v26 : S15872x128.Idx → Ideal .f32) (((cfg0.win 5).blk t).view.emb y) = _
  rw [emb0_5]
theorem iblk0_6_apply (c : Dev nD) (t : Fin cfg0.N) (y : S512x128.Idx) :
    iblk0 V c 6 t y = (V c main_v30 : S15872x128.Idx → Ideal .f32) (rowIdx t y) := by
  show (V c main_v30 : S15872x128.Idx → Ideal .f32) (((cfg0.win 6).blk t).view.emb y) = _
  rw [emb0_6]
theorem iblk0_7_apply (c : Dev nD) (t : Fin cfg0.N) (y : S512x128.Idx) :
    iblk0 V c 7 t y = (V c main_v34 : S15872x128.Idx → Ideal .f32) (rowIdx t y) := by
  show (V c main_v34 : S15872x128.Idx → Ideal .f32) (((cfg0.win 7).blk t).view.emb y) = _
  rw [emb0_7]
theorem iblk0_8_apply (c : Dev nD) (t : Fin cfg0.N) (y : S512x128.Idx) :
    iblk0 V c 8 t y = (V c main_v38 : S15872x128.Idx → Ideal .f32) (rowIdx t y) := by
  show (V c main_v38 : S15872x128.Idx → Ideal .f32) (((cfg0.win 8).blk t).view.emb y) = _
  rw [emb0_8]

/-- The base cells, resp. the fractions, of two coordinate arrays, index by index. -/
abbrev Gbase (A B : S15872x128.Idx → Ideal .f32) : S15872x128.Idx → BitVec 32 := fun i => Cert.Spec.base (A i) (B i)
abbrev Gfrac (A B : S15872x128.Idx → Ideal .f32) : S15872x128.Idx → Ideal .f32 := fun i => Cert.Spec.frac (A i) (B i)

/-! What point t writes back of an output window is block t of that function of the two coordinate arrays the window's
    value reads, as the region finds them. -/
theorem flushed0_9 (c : Dev nD) (t : Fin cfg0.N) :
    (dat0 V c).flushed 9 t = ((cfg0.win 9).blk t).view.read (Elt Ideal) (Gbase (V c main_v6) (V c main_v18)) := by
  show (cfg0.win 9).cut (grid0.coords t) ((dat0 V c).after 9 t) = _
  rw [after0_9]
  funext y
  show out0_9 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.base ((V c main_v6 : S15872x128.Idx → Ideal .f32) (((cfg0.win 9).blk t).view.emb y)) ((V c main_v18 : S15872x128.Idx → Ideal .f32) (((cfg0.win 9).blk t).view.emb y))
  rw [emb0_9]
  refine (out0_9_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_0_apply, iblk0_3_apply]
theorem flushed0_10 (c : Dev nD) (t : Fin cfg0.N) :
    (dat0 V c).flushed 10 t = ((cfg0.win 10).blk t).view.read (Elt Ideal) (Gbase (V c main_v10) (V c main_v22)) := by
  show (cfg0.win 10).cut (grid0.coords t) ((dat0 V c).after 10 t) = _
  rw [after0_10]
  funext y
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.base ((V c main_v10 : S15872x128.Idx → Ideal .f32) (((cfg0.win 10).blk t).view.emb y)) ((V c main_v22 : S15872x128.Idx → Ideal .f32) (((cfg0.win 10).blk t).view.emb y))
  rw [emb0_10]
  refine (out0_10_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_1_apply, iblk0_4_apply]
theorem flushed0_11 (c : Dev nD) (t : Fin cfg0.N) :
    (dat0 V c).flushed 11 t = ((cfg0.win 11).blk t).view.read (Elt Ideal) (Gbase (V c main_v14) (V c main_v26)) := by
  show (cfg0.win 11).cut (grid0.coords t) ((dat0 V c).after 11 t) = _
  rw [after0_11]
  funext y
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.base ((V c main_v14 : S15872x128.Idx → Ideal .f32) (((cfg0.win 11).blk t).view.emb y)) ((V c main_v26 : S15872x128.Idx → Ideal .f32) (((cfg0.win 11).blk t).view.emb y))
  rw [emb0_11]
  refine (out0_11_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_2_apply, iblk0_5_apply]
theorem flushed0_12 (c : Dev nD) (t : Fin cfg0.N) :
    (dat0 V c).flushed 12 t = ((cfg0.win 12).blk t).view.read (Elt Ideal) (Gfrac (V c main_v6) (V c main_v18)) := by
  show (cfg0.win 12).cut (grid0.coords t) ((dat0 V c).after 12 t) = _
  rw [after0_12]
  funext y
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.frac ((V c main_v6 : S15872x128.Idx → Ideal .f32) (((cfg0.win 12).blk t).view.emb y)) ((V c main_v18 : S15872x128.Idx → Ideal .f32) (((cfg0.win 12).blk t).view.emb y))
  rw [emb0_12]
  refine (out0_12_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_0_apply, iblk0_3_apply]
theorem flushed0_13 (c : Dev nD) (t : Fin cfg0.N) :
    (dat0 V c).flushed 13 t = ((cfg0.win 13).blk t).view.read (Elt Ideal) (Gfrac (V c main_v10) (V c main_v22)) := by
  show (cfg0.win 13).cut (grid0.coords t) ((dat0 V c).after 13 t) = _
  rw [after0_13]
  funext y
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.frac ((V c main_v10 : S15872x128.Idx → Ideal .f32) (((cfg0.win 13).blk t).view.emb y)) ((V c main_v22 : S15872x128.Idx → Ideal .f32) (((cfg0.win 13).blk t).view.emb y))
  rw [emb0_13]
  refine (out0_13_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_1_apply, iblk0_4_apply]
theorem flushed0_14 (c : Dev nD) (t : Fin cfg0.N) :
    (dat0 V c).flushed 14 t = ((cfg0.win 14).blk t).view.read (Elt Ideal) (Gfrac (V c main_v14) (V c main_v26)) := by
  show (cfg0.win 14).cut (grid0.coords t) ((dat0 V c).after 14 t) = _
  rw [after0_14]
  funext y
  show out0_14 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.frac ((V c main_v14 : S15872x128.Idx → Ideal .f32) (((cfg0.win 14).blk t).view.emb y)) ((V c main_v26 : S15872x128.Idx → Ideal .f32) (((cfg0.win 14).blk t).view.emb y))
  rw [emb0_14]
  refine (out0_14_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_2_apply, iblk0_5_apply]
theorem flushed0_15 (c : Dev nD) (t : Fin cfg0.N) :
    (dat0 V c).flushed 15 t = ((cfg0.win 15).blk t).view.read (Elt Ideal) (Gbase (V c main_v6) (V c main_v30)) := by
  show (cfg0.win 15).cut (grid0.coords t) ((dat0 V c).after 15 t) = _
  rw [after0_15]
  funext y
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.base ((V c main_v6 : S15872x128.Idx → Ideal .f32) (((cfg0.win 15).blk t).view.emb y)) ((V c main_v30 : S15872x128.Idx → Ideal .f32) (((cfg0.win 15).blk t).view.emb y))
  rw [emb0_15]
  refine (out0_15_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_0_apply, iblk0_6_apply]
theorem flushed0_16 (c : Dev nD) (t : Fin cfg0.N) :
    (dat0 V c).flushed 16 t = ((cfg0.win 16).blk t).view.read (Elt Ideal) (Gbase (V c main_v10) (V c main_v34)) := by
  show (cfg0.win 16).cut (grid0.coords t) ((dat0 V c).after 16 t) = _
  rw [after0_16]
  funext y
  show out0_16 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.base ((V c main_v10 : S15872x128.Idx → Ideal .f32) (((cfg0.win 16).blk t).view.emb y)) ((V c main_v34 : S15872x128.Idx → Ideal .f32) (((cfg0.win 16).blk t).view.emb y))
  rw [emb0_16]
  refine (out0_16_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_1_apply, iblk0_7_apply]
theorem flushed0_17 (c : Dev nD) (t : Fin cfg0.N) :
    (dat0 V c).flushed 17 t = ((cfg0.win 17).blk t).view.read (Elt Ideal) (Gbase (V c main_v14) (V c main_v38)) := by
  show (cfg0.win 17).cut (grid0.coords t) ((dat0 V c).after 17 t) = _
  rw [after0_17]
  funext y
  show out0_17 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.base ((V c main_v14 : S15872x128.Idx → Ideal .f32) (((cfg0.win 17).blk t).view.emb y)) ((V c main_v38 : S15872x128.Idx → Ideal .f32) (((cfg0.win 17).blk t).view.emb y))
  rw [emb0_17]
  refine (out0_17_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_2_apply, iblk0_8_apply]
theorem flushed0_18 (c : Dev nD) (t : Fin cfg0.N) :
    (dat0 V c).flushed 18 t = ((cfg0.win 18).blk t).view.read (Elt Ideal) (Gfrac (V c main_v6) (V c main_v30)) := by
  show (cfg0.win 18).cut (grid0.coords t) ((dat0 V c).after 18 t) = _
  rw [after0_18]
  funext y
  show out0_18 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.frac ((V c main_v6 : S15872x128.Idx → Ideal .f32) (((cfg0.win 18).blk t).view.emb y)) ((V c main_v30 : S15872x128.Idx → Ideal .f32) (((cfg0.win 18).blk t).view.emb y))
  rw [emb0_18]
  refine (out0_18_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_0_apply, iblk0_6_apply]
theorem flushed0_19 (c : Dev nD) (t : Fin cfg0.N) :
    (dat0 V c).flushed 19 t = ((cfg0.win 19).blk t).view.read (Elt Ideal) (Gfrac (V c main_v10) (V c main_v34)) := by
  show (cfg0.win 19).cut (grid0.coords t) ((dat0 V c).after 19 t) = _
  rw [after0_19]
  funext y
  show out0_19 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.frac ((V c main_v10 : S15872x128.Idx → Ideal .f32) (((cfg0.win 19).blk t).view.emb y)) ((V c main_v34 : S15872x128.Idx → Ideal .f32) (((cfg0.win 19).blk t).view.emb y))
  rw [emb0_19]
  refine (out0_19_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_1_apply, iblk0_7_apply]
theorem flushed0_20 (c : Dev nD) (t : Fin cfg0.N) :
    (dat0 V c).flushed 20 t = ((cfg0.win 20).blk t).view.read (Elt Ideal) (Gfrac (V c main_v14) (V c main_v38)) := by
  show (cfg0.win 20).cut (grid0.coords t) ((dat0 V c).after 20 t) = _
  rw [after0_20]
  funext y
  show out0_20 (iblk0 V c 0 t) (iblk0 V c 1 t) (iblk0 V c 2 t) (iblk0 V c 3 t) (iblk0 V c 4 t) (iblk0 V c 5 t) (iblk0 V c 6 t) (iblk0 V c 7 t) (iblk0 V c 8 t) y
    = Cert.Spec.frac ((V c main_v14 : S15872x128.Idx → Ideal .f32) (((cfg0.win 20).blk t).view.emb y)) ((V c main_v38 : S15872x128.Idx → Ideal .f32) (((cfg0.win 20).blk t).view.emb y))
  rw [emb0_20]
  refine (out0_20_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  rw [iblk0_2_apply, iblk0_8_apply]

/-! An index of an output array is in point t's block iff each coordinate is in the block's range on its axis. -/
theorem mem_blk0_9 (t : Fin cfg0.N) (i : S15872x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v39_0).slice (win0_9.rect t)).set ↔ _
  rw [View.set_slice_whole, Rect.mem_set_unit]
  exact Iff.rfl
theorem mem_blk0_10 (t : Fin cfg0.N) (i : S15872x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v39_1).slice (win0_10.rect t)).set ↔ _
  rw [View.set_slice_whole, Rect.mem_set_unit]
  exact Iff.rfl
theorem mem_blk0_11 (t : Fin cfg0.N) (i : S15872x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v39_2).slice (win0_11.rect t)).set ↔ _
  rw [View.set_slice_whole, Rect.mem_set_unit]
  exact Iff.rfl
theorem mem_blk0_12 (t : Fin cfg0.N) (i : S15872x128.Idx) :
    i ∈ ((cfg0.win 12).blk t).view.set ↔ ∀ a : Fin 2, win0_12.index t a * S512x128.size a ≤ (i a).val ∧ (i a).val < win0_12.index t a * S512x128.size a + S512x128.size a := by
  show i ∈ ((View.whole main_v39_3).slice (win0_12.rect t)).set ↔ _
  rw [View.set_slice_whole, Rect.mem_set_unit]
  exact Iff.rfl
theorem mem_blk0_13 (t : Fin cfg0.N) (i : S15872x128.Idx) :
    i ∈ ((cfg0.win 13).blk t).view.set ↔ ∀ a : Fin 2, win0_13.index t a * S512x128.size a ≤ (i a).val ∧ (i a).val < win0_13.index t a * S512x128.size a + S512x128.size a := by
  show i ∈ ((View.whole main_v39_4).slice (win0_13.rect t)).set ↔ _
  rw [View.set_slice_whole, Rect.mem_set_unit]
  exact Iff.rfl
theorem mem_blk0_14 (t : Fin cfg0.N) (i : S15872x128.Idx) :
    i ∈ ((cfg0.win 14).blk t).view.set ↔ ∀ a : Fin 2, win0_14.index t a * S512x128.size a ≤ (i a).val ∧ (i a).val < win0_14.index t a * S512x128.size a + S512x128.size a := by
  show i ∈ ((View.whole main_v39_5).slice (win0_14.rect t)).set ↔ _
  rw [View.set_slice_whole, Rect.mem_set_unit]
  exact Iff.rfl
theorem mem_blk0_15 (t : Fin cfg0.N) (i : S15872x128.Idx) :
    i ∈ ((cfg0.win 15).blk t).view.set ↔ ∀ a : Fin 2, win0_15.index t a * S512x128.size a ≤ (i a).val ∧ (i a).val < win0_15.index t a * S512x128.size a + S512x128.size a := by
  show i ∈ ((View.whole main_v39_6).slice (win0_15.rect t)).set ↔ _
  rw [View.set_slice_whole, Rect.mem_set_unit]
  exact Iff.rfl
theorem mem_blk0_16 (t : Fin cfg0.N) (i : S15872x128.Idx) :
    i ∈ ((cfg0.win 16).blk t).view.set ↔ ∀ a : Fin 2, win0_16.index t a * S512x128.size a ≤ (i a).val ∧ (i a).val < win0_16.index t a * S512x128.size a + S512x128.size a := by
  show i ∈ ((View.whole main_v39_7).slice (win0_16.rect t)).set ↔ _
  rw [View.set_slice_whole, Rect.mem_set_unit]
  exact Iff.rfl
theorem mem_blk0_17 (t : Fin cfg0.N) (i : S15872x128.Idx) :
    i ∈ ((cfg0.win 17).blk t).view.set ↔ ∀ a : Fin 2, win0_17.index t a * S512x128.size a ≤ (i a).val ∧ (i a).val < win0_17.index t a * S512x128.size a + S512x128.size a := by
  show i ∈ ((View.whole main_v39_8).slice (win0_17.rect t)).set ↔ _
  rw [View.set_slice_whole, Rect.mem_set_unit]
  exact Iff.rfl
theorem mem_blk0_18 (t : Fin cfg0.N) (i : S15872x128.Idx) :
    i ∈ ((cfg0.win 18).blk t).view.set ↔ ∀ a : Fin 2, win0_18.index t a * S512x128.size a ≤ (i a).val ∧ (i a).val < win0_18.index t a * S512x128.size a + S512x128.size a := by
  show i ∈ ((View.whole main_v39_9).slice (win0_18.rect t)).set ↔ _
  rw [View.set_slice_whole, Rect.mem_set_unit]
  exact Iff.rfl
theorem mem_blk0_19 (t : Fin cfg0.N) (i : S15872x128.Idx) :
    i ∈ ((cfg0.win 19).blk t).view.set ↔ ∀ a : Fin 2, win0_19.index t a * S512x128.size a ≤ (i a).val ∧ (i a).val < win0_19.index t a * S512x128.size a + S512x128.size a := by
  show i ∈ ((View.whole main_v39_10).slice (win0_19.rect t)).set ↔ _
  rw [View.set_slice_whole, Rect.mem_set_unit]
  exact Iff.rfl
theorem mem_blk0_20 (t : Fin cfg0.N) (i : S15872x128.Idx) :
    i ∈ ((cfg0.win 20).blk t).view.set ↔ ∀ a : Fin 2, win0_20.index t a * S512x128.size a ≤ (i a).val ∧ (i a).val < win0_20.index t a * S512x128.size a + S512x128.size a := by
  show i ∈ ((View.whole main_v39_11).slice (win0_20.rect t)).set ↔ _
  rw [View.set_slice_whole, Rect.mem_set_unit]
  exact Iff.rfl

/-! Every index of an output array is in some point's block: row r lies in block r / 512. -/
theorem cover0_9 (i : S15872x128.Idx) : ∃ t : Fin cfg0.N, (cfg0.win 9).flush t = true ∧ i ∈ ((cfg0.win 9).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_9.index t (0 : Fin 2) = (i 0).val / 512 := by have h := idx_facts0 t; exact h.2.2.2.2.2.2.2.2.2.2.2.2.2.2.2.2.2.2.1
  have e1 : win0_9.index t (1 : Fin 2) = 0 := by have h := idx_facts0 t; exact h.2.2.2.2.2.2.2.2.2.2.2.2.2.2.2.2.2.2.2.1
  refine ⟨t, flush0_9 t, ?_⟩
  rw [mem_blk0_9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 128 ≤ (i 1).val ∧ (i 1).val < win0_9.index t (1 : Fin 2) * 128 + 128; omega
theorem cover0_10 (i : S15872x128.Idx) : ∃ t : Fin cfg0.N, (cfg0.win 10).flush t = true ∧ i ∈ ((cfg0.win 10).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_10.index t (0 : Fin 2) = (i 0).val / 512 := by have h := idx_facts0 t; exact h.2.2.2.2.2.2.2.2.2.2.2.2.2.2.2.2.2.2.2.2.1
  have e1 : win0_10.index t (1 : Fin 2) = 0 := by have h := idx_facts0 t; exact h.2.2.2.2.2.2.2.2.2.2.2.2.2.2.2.2.2.2.2.2.2.1
  refine ⟨t, flush0_10 t, ?_⟩
  rw [mem_blk0_10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 128 ≤ (i 1).val ∧ (i 1).val < win0_10.index t (1 : Fin 2) * 128 + 128; omega
theorem cover0_11 (i : S15872x128.Idx) : ∃ t : Fin cfg0.N, (cfg0.win 11).flush t = true ∧ i ∈ ((cfg0.win 11).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_11.index t (0 : Fin 2) = (i 0).val / 512 := by have h := idx_facts0 t; exact h.2.2.2.2.2.2.2.2.2.2.2.2.2.2.2.2.2.2.2.2.2.2.1
  have e1 : win0_11.index t (1 : Fin 2) = 0 := by have h := idx_facts0 t; exact h.2.2.2.2.2.2.2.2.2.2.2.2.2.2.2.2.2.2.2.2.2.2.2.1
  refine ⟨t, flush0_11 t, ?_⟩
  rw [mem_blk0_11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega
theorem cover0_12 (i : S15872x128.Idx) : ∃ t : Fin cfg0.N, (cfg0.win 12).flush t = true ∧ i ∈ ((cfg0.win 12).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_12.index t (0 : Fin 2) = (i 0).val / 512 := by have h := idx_facts0 t; exact h.2.2.2.2.2.2.2.2.2.2.2.2.2.2.2.2.2.2.2.2.2.2.2.2.1
  have e1 : win0_12.index t (1 : Fin 2) = 0 := by have h := idx_facts0 t; exact h.2.2.2.2.2.2.2.2.2.2.2.2.2.2.2.2.2.2.2.2.2.2.2.2.2.1
  refine ⟨t, flush0_12 t, ?_⟩
  rw [mem_blk0_12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 128 ≤ (i 1).val ∧ (i 1).val < win0_12.index t (1 : Fin 2) * 128 + 128; omega
theorem cover0_13 (i : S15872x128.Idx) : ∃ t : Fin cfg0.N, (cfg0.win 13).flush t = true ∧ i ∈ ((cfg0.win 13).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_13.index t (0 : Fin 2) = (i 0).val / 512 := by have h := idx_facts0 t; exact h.2.2.2.2.2.2.2.2.2.2.2.2.2.2.2.2.2.2.2.2.2.2.2.2.2.2.1
  have e1 : win0_13.index t (1 : Fin 2) = 0 := by have h := idx_facts0 t; exact h.2.2.2.2.2.2.2.2.2.2.2.2.2.2.2.2.2.2.2.2.2.2.2.2.2.2.2.1
  refine ⟨t, flush0_13 t, ?_⟩
  rw [mem_blk0_13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 128 ≤ (i 1).val ∧ (i 1).val < win0_13.index t (1 : Fin 2) * 128 + 128; omega
theorem cover0_14 (i : S15872x128.Idx) : ∃ t : Fin cfg0.N, (cfg0.win 14).flush t = true ∧ i ∈ ((cfg0.win 14).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_14.index t (0 : Fin 2) = (i 0).val / 512 := by have h := idx_facts0 t; exact h.2.2.2.2.2.2.2.2.2.2.2.2.2.2.2.2.2.2.2.2.2.2.2.2.2.2.2.2.1
  have e1 : win0_14.index t (1 : Fin 2) = 0 := by have h := idx_facts0 t; exact h.2.2.2.2.2.2.2.2.2.2.2.2.2.2.2.2.2.2.2.2.2.2.2.2.2.2.2.2.2.1
  refine ⟨t, flush0_14 t, ?_⟩
  rw [mem_blk0_14]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 128 ≤ (i 1).val ∧ (i 1).val < win0_14.index t (1 : Fin 2) * 128 + 128; omega
theorem cover0_15 (i : S15872x128.Idx) : ∃ t : Fin cfg0.N, (cfg0.win 15).flush t = true ∧ i ∈ ((cfg0.win 15).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_15.index t (0 : Fin 2) = (i 0).val / 512 := by have h := idx_facts0 t; exact h.2.2.2.2.2.2.2.2.2.2.2.2.2.2.2.2.2.2.2.2.2.2.2.2.2.2.2.2.2.2.1
  have e1 : win0_15.index t (1 : Fin 2) = 0 := by have h := idx_facts0 t; exact h.2.2.2.2.2.2.2.2.2.2.2.2.2.2.2.2.2.2.2.2.2.2.2.2.2.2.2.2.2.2.2.1
  refine ⟨t, flush0_15 t, ?_⟩
  rw [mem_blk0_15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 128 ≤ (i 1).val ∧ (i 1).val < win0_15.index t (1 : Fin 2) * 128 + 128; omega
theorem cover0_16 (i : S15872x128.Idx) : ∃ t : Fin cfg0.N, (cfg0.win 16).flush t = true ∧ i ∈ ((cfg0.win 16).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_16.index t (0 : Fin 2) = (i 0).val / 512 := by have h := idx_facts0 t; exact h.2.2.2.2.2.2.2.2.2.2.2.2.2.2.2.2.2.2.2.2.2.2.2.2.2.2.2.2.2.2.2.2.1
  have e1 : win0_16.index t (1 : Fin 2) = 0 := by have h := idx_facts0 t; exact h.2.2.2.2.2.2.2.2.2.2.2.2.2.2.2.2.2.2.2.2.2.2.2.2.2.2.2.2.2.2.2.2.2.1
  refine ⟨t, flush0_16 t, ?_⟩
  rw [mem_blk0_16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 128 ≤ (i 1).val ∧ (i 1).val < win0_16.index t (1 : Fin 2) * 128 + 128; omega
theorem cover0_17 (i : S15872x128.Idx) : ∃ t : Fin cfg0.N, (cfg0.win 17).flush t = true ∧ i ∈ ((cfg0.win 17).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_17.index t (0 : Fin 2) = (i 0).val / 512 := by have h := idx_facts0 t; exact h.2.2.2.2.2.2.2.2.2.2.2.2.2.2.2.2.2.2.2.2.2.2.2.2.2.2.2.2.2.2.2.2.2.2.1
  have e1 : win0_17.index t (1 : Fin 2) = 0 := by have h := idx_facts0 t; exact h.2.2.2.2.2.2.2.2.2.2.2.2.2.2.2.2.2.2.2.2.2.2.2.2.2.2.2.2.2.2.2.2.2.2.2.1
  refine ⟨t, flush0_17 t, ?_⟩
  rw [mem_blk0_17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 128 ≤ (i 1).val ∧ (i 1).val < win0_17.index t (1 : Fin 2) * 128 + 128; omega
theorem cover0_18 (i : S15872x128.Idx) : ∃ t : Fin cfg0.N, (cfg0.win 18).flush t = true ∧ i ∈ ((cfg0.win 18).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_18.index t (0 : Fin 2) = (i 0).val / 512 := by have h := idx_facts0 t; exact h.2.2.2.2.2.2.2.2.2.2.2.2.2.2.2.2.2.2.2.2.2.2.2.2.2.2.2.2.2.2.2.2.2.2.2.2.1
  have e1 : win0_18.index t (1 : Fin 2) = 0 := by have h := idx_facts0 t; exact h.2.2.2.2.2.2.2.2.2.2.2.2.2.2.2.2.2.2.2.2.2.2.2.2.2.2.2.2.2.2.2.2.2.2.2.2.2.1
  refine ⟨t, flush0_18 t, ?_⟩
  rw [mem_blk0_18]
  intro a
  match a with
  | ⟨0, _⟩ => show win0_18.index t (0 : Fin 2) * 512 ≤ (i 0).val ∧ (i 0).val < win0_18.index t (0 : Fin 2) * 512 + 512; omega
  | ⟨1, _⟩ => show win0_18.index t (1 : Fin 2) * 128 ≤ (i 1).val ∧ (i 1).val < win0_18.index t (1 : Fin 2) * 128 + 128; omega
theorem cover0_19 (i : S15872x128.Idx) : ∃ t : Fin cfg0.N, (cfg0.win 19).flush t = true ∧ i ∈ ((cfg0.win 19).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_19.index t (0 : Fin 2) = (i 0).val / 512 := by have h := idx_facts0 t; exact h.2.2.2.2.2.2.2.2.2.2.2.2.2.2.2.2.2.2.2.2.2.2.2.2.2.2.2.2.2.2.2.2.2.2.2.2.2.2.1
  have e1 : win0_19.index t (1 : Fin 2) = 0 := by have h := idx_facts0 t; exact h.2.2.2.2.2.2.2.2.2.2.2.2.2.2.2.2.2.2.2.2.2.2.2.2.2.2.2.2.2.2.2.2.2.2.2.2.2.2.2.1
  refine ⟨t, flush0_19 t, ?_⟩
  rw [mem_blk0_19]
  intro a
  match a with
  | ⟨0, _⟩ => show win0_19.index t (0 : Fin 2) * 512 ≤ (i 0).val ∧ (i 0).val < win0_19.index t (0 : Fin 2) * 512 + 512; omega
  | ⟨1, _⟩ => show win0_19.index t (1 : Fin 2) * 128 ≤ (i 1).val ∧ (i 1).val < win0_19.index t (1 : Fin 2) * 128 + 128; omega
theorem cover0_20 (i : S15872x128.Idx) : ∃ t : Fin cfg0.N, (cfg0.win 20).flush t = true ∧ i ∈ ((cfg0.win 20).blk t).view.set := by
  have hi0 : (i 0).val < 15872 := (i 0).isLt
  have hi1 : (i 1).val < 128 := (i 1).isLt
  let t : Fin cfg0.N := ⟨(i 0).val / 512, lt_of_lt_of_eq (by omega : (i 0).val / 512 < 31) N_0.symm⟩
  have e0 : win0_20.index t (0 : Fin 2) = (i 0).val / 512 := by have h := idx_facts0 t; exact h.2.2.2.2.2.2.2.2.2.2.2.2.2.2.2.2.2.2.2.2.2.2.2.2.2.2.2.2.2.2.2.2.2.2.2.2.2.2.2.2.1
  have e1 : win0_20.index t (1 : Fin 2) = 0 := by have h := idx_facts0 t; exact h.2.2.2.2.2.2.2.2.2.2.2.2.2.2.2.2.2.2.2.2.2.2.2.2.2.2.2.2.2.2.2.2.2.2.2.2.2.2.2.2.2
  refine ⟨t, flush0_20 t, ?_⟩
  rw [mem_blk0_20]
  intro a
  match a with
  | ⟨0, _⟩ => show win0_20.index t (0 : Fin 2) * 512 ≤ (i 0).val ∧ (i 0).val < win0_20.index t (0 : Fin 2) * 512 + 512; omega
  | ⟨1, _⟩ => show win0_20.index t (1 : Fin 2) * 128 ≤ (i 1).val ∧ (i 1).val < win0_20.index t (1 : Fin 2) * 128 + 128; omega

/-! ## The arrays after the region -/

/-! Each output array ends holding its function of the two coordinate arrays, everywhere. -/
theorem arr0_9 (c : Dev nD) : (dat0 V c).arrAt 9 cfg0.N = Gbase (V c main_v6) (V c main_v18) :=
  (dat0 V c).arrAt_eq_of_cover 9 (Gbase (V c main_v6) (V c main_v18)) (fun t _ => flushed0_9 V c t) cover0_9
theorem arr0_10 (c : Dev nD) : (dat0 V c).arrAt 10 cfg0.N = Gbase (V c main_v10) (V c main_v22) :=
  (dat0 V c).arrAt_eq_of_cover 10 (Gbase (V c main_v10) (V c main_v22)) (fun t _ => flushed0_10 V c t) cover0_10
theorem arr0_11 (c : Dev nD) : (dat0 V c).arrAt 11 cfg0.N = Gbase (V c main_v14) (V c main_v26) :=
  (dat0 V c).arrAt_eq_of_cover 11 (Gbase (V c main_v14) (V c main_v26)) (fun t _ => flushed0_11 V c t) cover0_11
theorem arr0_12 (c : Dev nD) : (dat0 V c).arrAt 12 cfg0.N = Gfrac (V c main_v6) (V c main_v18) :=
  (dat0 V c).arrAt_eq_of_cover 12 (Gfrac (V c main_v6) (V c main_v18)) (fun t _ => flushed0_12 V c t) cover0_12
theorem arr0_13 (c : Dev nD) : (dat0 V c).arrAt 13 cfg0.N = Gfrac (V c main_v10) (V c main_v22) :=
  (dat0 V c).arrAt_eq_of_cover 13 (Gfrac (V c main_v10) (V c main_v22)) (fun t _ => flushed0_13 V c t) cover0_13
theorem arr0_14 (c : Dev nD) : (dat0 V c).arrAt 14 cfg0.N = Gfrac (V c main_v14) (V c main_v26) :=
  (dat0 V c).arrAt_eq_of_cover 14 (Gfrac (V c main_v14) (V c main_v26)) (fun t _ => flushed0_14 V c t) cover0_14
theorem arr0_15 (c : Dev nD) : (dat0 V c).arrAt 15 cfg0.N = Gbase (V c main_v6) (V c main_v30) :=
  (dat0 V c).arrAt_eq_of_cover 15 (Gbase (V c main_v6) (V c main_v30)) (fun t _ => flushed0_15 V c t) cover0_15
theorem arr0_16 (c : Dev nD) : (dat0 V c).arrAt 16 cfg0.N = Gbase (V c main_v10) (V c main_v34) :=
  (dat0 V c).arrAt_eq_of_cover 16 (Gbase (V c main_v10) (V c main_v34)) (fun t _ => flushed0_16 V c t) cover0_16
theorem arr0_17 (c : Dev nD) : (dat0 V c).arrAt 17 cfg0.N = Gbase (V c main_v14) (V c main_v38) :=
  (dat0 V c).arrAt_eq_of_cover 17 (Gbase (V c main_v14) (V c main_v38)) (fun t _ => flushed0_17 V c t) cover0_17
theorem arr0_18 (c : Dev nD) : (dat0 V c).arrAt 18 cfg0.N = Gfrac (V c main_v6) (V c main_v30) :=
  (dat0 V c).arrAt_eq_of_cover 18 (Gfrac (V c main_v6) (V c main_v30)) (fun t _ => flushed0_18 V c t) cover0_18
theorem arr0_19 (c : Dev nD) : (dat0 V c).arrAt 19 cfg0.N = Gfrac (V c main_v10) (V c main_v34) :=
  (dat0 V c).arrAt_eq_of_cover 19 (Gfrac (V c main_v10) (V c main_v34)) (fun t _ => flushed0_19 V c t) cover0_19
theorem arr0_20 (c : Dev nD) : (dat0 V c).arrAt 20 cfg0.N = Gfrac (V c main_v14) (V c main_v38) :=
  (dat0 V c).arrAt_eq_of_cover 20 (Gfrac (V c main_v14) (V c main_v38)) (fun t _ => flushed0_20 V c t) cover0_20

/-! ## The region's arrays, read -/

/-- The windows 0 … 8 are inputs. -/
theorem isOut0_in : ∀ w : Fin cfg0.W, w.val < 9 → (cfg0.win w).isOut = false := by decide

/-- An input array is after the region what it was at its entry. -/
theorem arr0_in (c : Dev nD) (w : Fin cfg0.W) (hw : w.val < 9) : (dat0 V c).arrAt w cfg0.N = V c (Pipeline.arrRef spec0 w) :=
  ((dat0 V c).arrAt_in w (isOut0_in w hw) cfg0.N).trans (A_eq0 V c w)

/-- The first set's point at array index i: base coordinates plus the first displacement, as the region finds them. -/
abbrev ptP (c : Dev nD) (i : S15872x128.Idx) : Cert.Spec.Pt :=
  Cert.Spec.mkPt ((V c main_v6 : S15872x128.Idx → Ideal .f32) i) ((V c main_v18 : S15872x128.Idx → Ideal .f32) i) ((V c main_v10 : S15872x128.Idx → Ideal .f32) i) ((V c main_v22 : S15872x128.Idx → Ideal .f32) i) ((V c main_v14 : S15872x128.Idx → Ideal .f32) i) ((V c main_v26 : S15872x128.Idx → Ideal .f32) i)

/-- The second set's point at array index i: base coordinates plus the second displacement. -/
abbrev ptG (c : Dev nD) (i : S15872x128.Idx) : Cert.Spec.Pt :=
  Cert.Spec.mkPt ((V c main_v6 : S15872x128.Idx → Ideal .f32) i) ((V c main_v30 : S15872x128.Idx → Ideal .f32) i) ((V c main_v10 : S15872x128.Idx → Ideal .f32) i) ((V c main_v34 : S15872x128.Idx → Ideal .f32) i) ((V c main_v14 : S15872x128.Idx → Ideal .f32) i) ((V c main_v38 : S15872x128.Idx → Ideal .f32) i)

/-- After the region, the arrays of windows 9 … 14 hold at (r, l) the base cell and the fractions of the first set's point there. -/
theorem region0_value_p (c : Dev nD) (r : Fin 15872) (l : Fin 128) :
    ((dat0 V c).arrAt 9 cfg0.N : S15872x128.Idx → BitVec 32) (ix2 r l) = (ptP V c (ix2 r l)).x0
    ∧ ((dat0 V c).arrAt 10 cfg0.N : S15872x128.Idx → BitVec 32) (ix2 r l) = (ptP V c (ix2 r l)).y0
    ∧ ((dat0 V c).arrAt 11 cfg0.N : S15872x128.Idx → BitVec 32) (ix2 r l) = (ptP V c (ix2 r l)).z0
    ∧ ((dat0 V c).arrAt 12 cfg0.N : S15872x128.Idx → Ideal .f32) (ix2 r l) = (ptP V c (ix2 r l)).fx
    ∧ ((dat0 V c).arrAt 13 cfg0.N : S15872x128.Idx → Ideal .f32) (ix2 r l) = (ptP V c (ix2 r l)).fy
    ∧ ((dat0 V c).arrAt 14 cfg0.N : S15872x128.Idx → Ideal .f32) (ix2 r l) = (ptP V c (ix2 r l)).fz :=
  ⟨congrFun (arr0_9 V c) _, congrFun (arr0_10 V c) _, congrFun (arr0_11 V c) _,
    congrFun (arr0_12 V c) _, congrFun (arr0_13 V c) _, congrFun (arr0_14 V c) _⟩

/-- After the region, the arrays of windows 15 … 20 hold at (r, l) the base cell and the fractions of the second set's point there. -/
theorem region0_value_g (c : Dev nD) (r : Fin 15872) (l : Fin 128) :
    ((dat0 V c).arrAt 15 cfg0.N : S15872x128.Idx → BitVec 32) (ix2 r l) = (ptG V c (ix2 r l)).x0
    ∧ ((dat0 V c).arrAt 16 cfg0.N : S15872x128.Idx → BitVec 32) (ix2 r l) = (ptG V c (ix2 r l)).y0
    ∧ ((dat0 V c).arrAt 17 cfg0.N : S15872x128.Idx → BitVec 32) (ix2 r l) = (ptG V c (ix2 r l)).z0
    ∧ ((dat0 V c).arrAt 18 cfg0.N : S15872x128.Idx → Ideal .f32) (ix2 r l) = (ptG V c (ix2 r l)).fx
    ∧ ((dat0 V c).arrAt 19 cfg0.N : S15872x128.Idx → Ideal .f32) (ix2 r l) = (ptG V c (ix2 r l)).fy
    ∧ ((dat0 V c).arrAt 20 cfg0.N : S15872x128.Idx → Ideal .f32) (ix2 r l) = (ptG V c (ix2 r l)).fz :=
  ⟨congrFun (arr0_15 V c) _, congrFun (arr0_16 V c) _, congrFun (arr0_17 V c) _,
    congrFun (arr0_18 V c) _, congrFun (arr0_19 V c) _, congrFun (arr0_20 V c) _⟩

end Cert.KernelIdeal.Hand

end
-- ==== Proof.KIValue1.lean ====
/- The value of region 1 at the exact reading: the one cell of its output array after the region is the sum over the
   four row blocks, the rows and the lanes of the Huber function of the difference of its two input arrays. -/
import proofs.«106138_j14714557956152_2_alg».proof.Proof.KIRegion1
import proofs.«106138_j14714557956152_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx
open scoped BigOperators

section generic
variable {F : FTy → Type} [FloatOps F]

theorem hz2 : (![0, 0] : Fin 2 → Nat) = fun _ => 0 := funext fun a => by fin_cases a <;> rfl

/-- CASE B's value: the accumulator holding `xs` is left at the body's one covering store — the block's Huber sum
    added to `xs` —, its loads reading the whole buffers. -/
theorem sout_B (c : Dev nD) (i : grid1.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond1_0 i) (hc1 : ¬cond1_1 i)
    (x0 x1 : Vec F S4096x128 .f32) (xs : Vec F S1x1 .f32) :
    sout1_B_0 c i a1 h1 a2 h2 a3 h3 a4 h4 hc0 hc1 x0 x1 xs = k1_pay2 x0 x1 xs := by
  unfold sout1_B_0
  rw [View.read_writes_eq_canon _ _ _ (scover1_B_0 c i a1 h1 a2 h2 a3 h3 a4 h4 hc0 hc1 x0 x1 xs)]
  unfold kernelRun1_B
  dsimp only
  rw [View.canon_unit_zero hz2]
  simp only [View.readAt_eq_ld, h1.read_unread, h2.read_unread, h4.read_unread, View.ld_unit_zero (S := S4096x128) hz2, View.ld_unit_zero (S := S1x1) hz2]

/-- CASE A's value: the accumulator is reset to the zero cell, read back, and left at the block's Huber sum added to it. -/
theorem sout_A (c : Dev nD) (i : grid1.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : cond1_0 i) (hc1 : ¬cond1_1 i)
    (x0 x1 : Vec F S4096x128 .f32) :
    sout1_A_0 c i a1 h1 a2 h2 a3 h3 a4 h4 hc0 hc1 x0 x1 = k1_pay2 x0 x1 k1_pay1 := by
  unfold sout1_A_0
  rw [View.read_writes_eq_canon _ _ _ (scover1_A_0 c i a1 h1 a2 h2 a3 h3 a4 h4 hc0 hc1 x0 x1)]
  unfold kernelRun1_A
  dsimp only
  sl_unfold_words
  rw [View.canon_cons_unit_zero (S := S1x1) hz2, View.readCov_unit_zero (S := S1x1) _ hz2]
  simp only [View.readAt_eq_ld, h1.read_unread, h2.read_unread, View.ld_unit_zero (S := S4096x128) hz2]

/-- CASE C's value in the accumulator: as case B. -/
theorem sout_C (c : Dev nD) (i : grid1.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond1_0 i) (hc1 : cond1_1 i)
    (x0 x1 : Vec F S4096x128 .f32) (xs : Vec F S1x1 .f32) :
    sout1_C_0 c i a1 h1 a2 h2 a3 h3 a4 h4 hc0 hc1 x0 x1 xs = k1_pay2 x0 x1 xs := by
  unfold sout1_C_0
  rw [View.read_writes_eq_canon _ _ _ (scover1_C_0 c i a1 h1 a2 h2 a3 h3 a4 h4 hc0 hc1 x0 x1 xs)]
  unfold kernelRun1_C
  dsimp only
  sl_unfold_words
  rw [View.canon_unit_zero (S := S1x1) hz2]
  simp only [View.readAt_eq_ld, h1.read_unread, h2.read_unread, h4.read_unread, View.ld_unit_zero (S := S4096x128) hz2, View.ld_unit_zero (S := S1x1) hz2]

/-- CASE C's value in the output block: the accumulator's new contents, copied. -/
theorem out_C (c : Dev nD) (i : grid1.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond1_0 i) (hc1 : cond1_1 i)
    (x0 x1 : Vec F S4096x128 .f32) (xs : Vec F S1x1 .f32) :
    out1_C_2 c i a1 h1 a2 h2 a3 h3 a4 h4 hc0 hc1 x0 x1 xs = k1_pay2 x0 x1 xs := by
  unfold out1_C_2
  rw [View.read_writes_eq_canon _ _ _ (cover1_C_2 c i a1 h1 a2 h2 a3 h3 a4 h4 hc0 hc1 x0 x1 xs)]
  unfold kernelRun1_C
  dsimp only
  sl_unfold_words
  rw [View.canon_unit_zero (S := S1x1) hz2, View.readCov_unit_zero (S := S1x1) _ hz2]
  simp only [View.readAt_eq_ld, h1.read_unread, h2.read_unread, h4.read_unread, View.ld_unit_zero (S := S4096x128) hz2, View.ld_unit_zero (S := S1x1) hz2]
end generic

/-! ## The body's payload at the exact reading -/

section casts
variable {α : Type}

/-- A one-element vector cast to one row and one column reads its element. -/
theorem cast_1_11 (x : S1.Idx → α) (h : S1.ShapeCasts S1x1) : shapeCast S1x1 x h (ix2 0 0) = x (ix1 0) :=
  shapeCast_apply x h _ _ (by rw [Shape.rowMajor_val_two, Shape.rowMajor_val_one]; rfl)

/-- A vector of 4096 cast to a column reads, at row `r`, its element `r`. -/
theorem cast_col (x : S4096.Idx → α) (h : S4096.ShapeCasts S4096x1) (r : Fin 4096) :
    shapeCast S4096x1 x h (ix2 r 0) = x (ix1 r) :=
  shapeCast_apply x h _ _ (by
    rw [Shape.rowMajor_val_two, Shape.rowMajor_val_one]
    show r.val = r.val * 1 + 0
    omega)
end casts

/-- The sum over the lanes: at row `r`, the sum over the 128 lanes of the source. -/
theorem lane_sum (src : FVec Ideal S4096x128 .f32) (h : S4096x128.Reduces [1] S4096) (hφ : FKind.Formats .f32)
    (hacc : (0x00000000#32 : BitVec 32) = FKind.add.neutral .f32 hφ) (r : Fin 4096) :
    multiReduction .add [1] S4096 src 0x00000000#32 h hφ hacc (ix1 r) = ∑ l : Fin 128, src (ix2 r l) := by
  refine (Ideal.multiReduction_add_single src 0x00000000#32 h hφ hacc (ix1 r)).trans ?_
  refine Finset.sum_congr rfl fun l _ => congrArg src ?_
  funext a
  match a with
  | ⟨0, _⟩ => exact Fin.ext rfl
  | ⟨1, _⟩ => exact Fin.ext rfl

/-- The sum over the rows of a column: the sum over its 4096 rows. -/
theorem row_sum (src : FVec Ideal S4096x1 .f32) (h : S4096x1.Reduces [0] S1) (hφ : FKind.Formats .f32)
    (hacc : (0x00000000#32 : BitVec 32) = FKind.add.neutral .f32 hφ) :
    multiReduction .add [0] S1 src 0x00000000#32 h hφ hacc (ix1 0) = ∑ r : Fin 4096, src (ix2 r 0) := by
  refine (Ideal.multiReduction_add_single src 0x00000000#32 h hφ hacc (ix1 0)).trans ?_
  refine Finset.sum_congr rfl fun r _ => congrArg src ?_
  funext a
  match a with
  | ⟨0, _⟩ => exact Fin.ext rfl
  | ⟨1, _⟩ => exact Fin.ext rfl

/-- The sum over a block's rows and lanes of the Huber function of two blocks' difference. -/
def hubSum (x y : S4096x128.Idx → Ideal .f32) : Ideal .f32 :=
  ∑ r : Fin 4096, ∑ l : Fin 128, Cert.Spec.hub (x (ix2 r l) - y (ix2 r l))

/-- What the body stores into the accumulator holding `s`, read at its one cell: `s` plus the sum over the block's rows
    and lanes of the Huber function of the two inputs' difference. -/
theorem pay2_apply (x0 x1 : Vec Ideal S4096x128 .f32) (s : Vec Ideal S1x1 .f32) :
    (k1_pay2 x0 x1 s : FVec Ideal S1x1 .f32) (ix2 0 0)
      = s (ix2 0 0) + hubSum x0 x1 := by
  unfold k1_pay2 hubSum
  dsimp only
  simp only [shapeCast_self]
  refine (addf_apply _ _ _).trans ?_
  refine congrArg (s (ix2 0 0) + ·) ?_
  refine (cast_1_11 _ _).trans ?_
  refine (row_sum _ _ _ _).trans ?_
  refine Finset.sum_congr rfl fun r _ => ?_
  refine (cast_col _ _ r).trans ?_
  refine (lane_sum _ _ _ _ r).trans ?_
  refine Finset.sum_congr rfl fun l _ => ?_
  rfl

/-! ## An input array is never written -/

section inputs
variable {F : FTy → Type} [FloatOps F]

/-- The two input arrays are, after the region, what they were when it was entered. -/
theorem arr1_in (V : Val F) (c : Dev nD) (w : Fin cfg1.W) (hw : w.val < 2) :
    (dat1 V c).arrAt w cfg1.N = V c (Pipeline.arrRef spec1 w) := by
  have hin : (cfg1.win w).isOut = false := by
    match w, hw with
    | ⟨0, _⟩, _ => rfl
    | ⟨1, _⟩, _ => rfl
  exact ((dat1 V c).arrAt_in w hin _).trans (A_eq1 V c w)
end inputs

/-! ## The blocks, the running sum, the result -/

section exact

/-- Region 1's two input arrays at the entry contents, as functions of the row and the lane. -/
abbrev in506 (V : Val Ideal) (c : Dev nD) : S16384x128.Idx → Ideal .f32 := V c main_v506
abbrev in507 (V : Val Ideal) (c : Dev nD) : S16384x128.Idx → Ideal .f32 := V c main_v507

variable (V : Val Ideal)

/-- The two inputs' block index at point `t`: row block `t`, the one column block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Input 0's block at point `t`, at row `r` and lane `l`, is the array at row `4096·t + r`. -/
theorem iblk1_0_apply (c : Dev nD) (t : Fin cfg1.N) (r : Fin 4096) (l : Fin 128) (hr : t.val * 4096 + r.val < 16384) :
    (iblk1 V c 0 t : S4096x128.Idx → Ideal .f32) (ix2 r l)
      = in506 V c (ix2 ⟨t.val * 4096 + r.val, hr⟩ l) := by
  obtain ⟨e0, e1, e2, e3⟩ := idx_facts1 t
  show in506 V c (((cfg1.win 0).blk t).view.emb (ix2 r l)) = _
  refine congrArg _ ?_
  funext a; apply Fin.ext
  match a with
  | ⟨0, _⟩ => show win1_0.index t (0 : Fin 2) * 4096 + 1 * r.val = t.val * 4096 + r.val; omega
  | ⟨1, _⟩ => show win1_0.index t (1 : Fin 2) * 128 + 1 * l.val = l.val; omega

/-- The same for input 1. -/
theorem iblk1_1_apply (c : Dev nD) (t : Fin cfg1.N) (r : Fin 4096) (l : Fin 128) (hr : t.val * 4096 + r.val < 16384) :
    (iblk1 V c 1 t : S4096x128.Idx → Ideal .f32) (ix2 r l)
      = in507 V c (ix2 ⟨t.val * 4096 + r.val, hr⟩ l) := by
  obtain ⟨e0, e1, e2, e3⟩ := idx_facts1 t
  show in507 V c (((cfg1.win 1).blk t).view.emb (ix2 r l)) = _
  refine congrArg _ ?_
  funext a; apply Fin.ext
  match a with
  | ⟨0, _⟩ => show win1_1.index t (0 : Fin 2) * 4096 + 1 * r.val = t.val * 4096 + r.val; omega
  | ⟨1, _⟩ => show win1_1.index t (1 : Fin 2) * 128 + 1 * l.val = l.val; omega

/-- The Huber sum of the block at point `t`. -/
def blockSum (c : Dev nD) (t : Fin cfg1.N) : Ideal .f32 :=
  hubSum (iblk1 V c 0 t) (iblk1 V c 1 t)

/-- The running sum after point `n`: zero plus the first block's sum, then each later block's added. -/
def acc (c : Dev nD) : (n : ℕ) → n < cfg1.N → Ideal .f32
  | 0, h => 0 + blockSum V c ⟨0, h⟩
  | n + 1, h => acc c n (Nat.lt_of_succ_lt h) + blockSum V c ⟨n + 1, h⟩

/-- The cell the reset stores is zero. -/
theorem pay1_apply : (k1_pay1 : FVec Ideal S1x1 .f32) (ix2 0 0) = 0 := by
  unfold k1_pay1
  (try dsimp only)
  simp only [shapeCast_self]
  exact Ideal.ofBits_zero_f32

/-- The accumulator after point `n` holds the running sum — by induction on the point. -/
theorem acc_eq (c : Dev nD) : ∀ (n : ℕ) (h : n < cfg1.N), (outsAt1 V c n h).2 (ix2 0 0) = acc V c n h
  | 0, h => by
    rw [outsAt1_A V c ⟨0, h⟩ rfl (by show ¬(0 % 4 = 3); decide)]
    dsimp only
    refine (congrFun (sout_A c _ _ _ _ _ _ _ _ _ _ _ _ _) (ix2 0 0)).trans ?_
    refine (pay2_apply _ _ _).trans ?_
    exact congrArg (· + blockSum V c ⟨0, h⟩) pay1_apply
  | n + 1, h => by
    have hN : cfg1.N = 4 := N_1
    have h0 : ¬(⟨n + 1, h⟩ : Fin cfg1.N).val % 4 = 0 := by dsimp only; omega
    by_cases h1 : (⟨n + 1, h⟩ : Fin cfg1.N).val % 4 = 3
    · rw [outsAt1_C V c ⟨n + 1, h⟩ h0 h1]
      dsimp only
      refine (congrFun (sout_C c _ _ _ _ _ _ _ _ _ _ _ _ _ _) (ix2 0 0)).trans ?_
      refine (pay2_apply _ _ _).trans ?_
      exact congrArg (· + blockSum V c ⟨n + 1, h⟩) (acc_eq c n _)
    · rw [outsAt1_B V c ⟨n + 1, h⟩ h0 h1]
      dsimp only
      refine (congrFun (sout_B c _ _ _ _ _ _ _ _ _ _ _ _ _ _) (ix2 0 0)).trans ?_
      refine (pay2_apply _ _ _).trans ?_
      exact congrArg (· + blockSum V c ⟨n + 1, h⟩) (acc_eq c n _)

/-- At the last point the output block receives the accumulator's new contents: the running sum after it. -/
theorem out3_eq (c : Dev nD) (h3 : 3 < cfg1.N) : (outsAt1 V c 3 h3).1 (ix2 0 0) = acc V c 3 h3 := by
  have h0 : ¬(⟨3, h3⟩ : Fin cfg1.N).val % 4 = 0 := by show ¬(3 % 4 = 0); decide
  have h1 : (⟨3, h3⟩ : Fin cfg1.N).val % 4 = 3 := rfl
  rw [outsAt1_C V c ⟨3, h3⟩ h0 h1]
  dsimp only
  refine (congrFun (out_C c _ _ _ _ _ _ _ _ _ _ _ _ _ _) (ix2 0 0)).trans ?_
  refine (pay2_apply _ _ _).trans ?_
  exact congrArg (· + blockSum V c ⟨3, h3⟩) (acc_eq V c 2 _)

/-- A block's Huber sum, read off the two arrays. -/
theorem blockSum_eq (c : Dev nD) (k : ℕ) (hk : k < cfg1.N) (hk4 : k < 4) :
    blockSum V c ⟨k, hk⟩ = ∑ r : Fin 4096, ∑ l : Fin 128,
        Cert.Spec.hub (in506 V c (ix2 ⟨k * 4096 + r.val, by omega⟩ l) - in507 V c (ix2 ⟨k * 4096 + r.val, by omega⟩ l)) := by
  unfold blockSum hubSum
  refine Finset.sum_congr rfl fun r _ => Finset.sum_congr rfl fun l _ => ?_
  exact congrArg₂ (fun a b : Ideal .f32 => Cert.Spec.hub (a - b))
    (iblk1_0_apply V c ⟨k, hk⟩ r l (by show k * 4096 + r.val < 16384; omega))
    (iblk1_1_apply V c ⟨k, hk⟩ r l (by show k * 4096 + r.val < 16384; omega))

/-- The running sum after the last point is the sum over the four blocks. -/
theorem acc3_eq (c : Dev nD) (h3 : 3 < cfg1.N) :
    acc V c 3 h3 = ∑ t : Fin 4, ∑ r : Fin 4096, ∑ l : Fin 128,
        Cert.Spec.hub (in506 V c (ix2 ⟨t.val * 4096 + r.val, by omega⟩ l) - in507 V c (ix2 ⟨t.val * 4096 + r.val, by omega⟩ l)) := by
  rw [Fin.sum_univ_four]
  show ((0 + blockSum V c ⟨0, _⟩) + blockSum V c ⟨1, _⟩ + blockSum V c ⟨2, _⟩) + blockSum V c ⟨3, _⟩ = _
  rw [zero_add, blockSum_eq V c 0 _ (by decide), blockSum_eq V c 1 _ (by decide), blockSum_eq V c 2 _ (by decide), blockSum_eq V c 3 _ (by decide)]
  rfl

/-- The result: the output block after the last point, as contents of the output array (its one block is the array). -/
abbrev result1 (c : Dev nD) : Buf (Elt Ideal) ((c : Thread nD τ).loc main_v508) :=
  (outsAt1 V c 3 (by rw [show cfg1.N = 4 from N_1]; decide)).1

/-- The one write-back, at the last point, writes it. -/
theorem flushed1_eq (c : Dev nD) (t : Fin cfg1.N) (hf : (cfg1.win 2).flush t = true) :
    (dat1 V c).flushed 2 t = ((cfg1.win 2).blk t).view.read (Elt Ideal) (result1 V c) := by
  have hN : cfg1.N = 4 := N_1
  have h3 : t.val = 3 := by have := (flush1_2 t).mp hf; have := t.isLt; omega
  obtain rfl : t = t1_3 := Fin.ext h3
  show (cfg1.win 2).cut (grid1.coords t1_3) ((dat1 V c).after 2 t1_3) = _
  rw [after1_2]
  have hz' : (fun a => win1_2.index t1_3 a * main_v508.ty.shape.size a) = fun _ => 0 := funext fun a => by fin_cases a <;> decide
  exact (Memref.read_access_unit_zero (Elt Ideal) main_v508 hz' (fun a => by rw [congrFun hz' a]; simp) (result1 V c)).symm

/-- So the output array ends holding it: the last point's block covers the array. -/
theorem final1 (c : Dev nD) : (dat1 V c).arrAt 2 cfg1.N = result1 V c :=
  (dat1 V c).arrAt_eq_of_cover 2 (result1 V c) (flushed1_eq V c) fun i =>
    ⟨t1_3, (flush1_2 t1_3).mpr rfl, by
      show i ∈ ((View.whole main_v508).slice (win1_2.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_3 0 * win1_2.size 0 ≤ (i 0 : Nat) ∧ (i 0 : Nat) < win1_2.index t1_3 0 * win1_2.size 0 + win1_2.xsize (grid1.coords t1_3) 0
                  rw [show win1_2.index t1_3 0 * win1_2.size 0 = 0 from by decide +kernel, show win1_2.xsize (grid1.coords t1_3) 0 = 1 from by decide +kernel]; omega
      | ⟨1, _⟩ => show win1_2.index t1_3 1 * win1_2.size 1 ≤ (i 1 : Nat) ∧ (i 1 : Nat) < win1_2.index t1_3 1 * win1_2.size 1 + win1_2.xsize (grid1.coords t1_3) 1
                  rw [show win1_2.index t1_3 1 * win1_2.size 1 = 0 from by decide +kernel, show win1_2.xsize (grid1.coords t1_3) 1 = 1 from by decide +kernel]; omega⟩

/-- Region 1's output array after the region, as a function of its one row and one column. -/
abbrev out508 (V : Val Ideal) (c : Dev nD) : S1x1.Idx → Ideal .f32 := (dat1 V c).arrAt 2 cfg1.N

/-- It is what the last point left in the output block. -/
theorem out508_eq (c : Dev nD) (h3 : 3 < cfg1.N) : out508 V c = (outsAt1 V c 3 h3).1 := final1 V c

/-- The output block after the last point, at its one cell: the sum over the four blocks. -/
theorem last_value (c : Dev nD) (h3 : 3 < cfg1.N) : (outsAt1 V c 3 h3).1 (ix2 0 0) = ∑ t : Fin 4, ∑ r : Fin 4096, ∑ l : Fin 128,
          Cert.Spec.hub (in506 V c (ix2 ⟨t.val * 4096 + r.val, by omega⟩ l) - in507 V c (ix2 ⟨t.val * 4096 + r.val, by omega⟩ l)) :=
  (out3_eq V c h3).trans (acc3_eq V c h3)

/-- THE VALUE of region 1: the one cell of its output array after the region is the sum, over the four row blocks, the
    rows and the lanes, of the Huber function of the difference of the two input arrays as the region finds them. -/
theorem out508_value (V : Val Ideal) (c : Dev nD) :
    out508 V c (ix2 0 0) = ∑ t : Fin 4, ∑ r : Fin 4096, ∑ l : Fin 128,
          Cert.Spec.hub (in506 V c (ix2 ⟨t.val * 4096 + r.val, by omega⟩ l) - in507 V c (ix2 ⟨t.val * 4096 + r.val, by omega⟩ l)) :=
  have h3 : 3 < cfg1.N := by rw [show cfg1.N = 4 from N_1]; decide
  (congrFun (out508_eq V c h3) (ix2 0 0)).trans (last_value V c h3)

-- (reading the array's dependent buffer type as a function of the row and the column walks the signature's table)
set_option maxHeartbeats 400000 in
/-- The same with the array spelt out. -/
theorem region1_value (V : Val Ideal) (c : Dev nD) :
    ((dat1 V c).arrAt 2 cfg1.N : S1x1.Idx → Ideal .f32) (ix2 0 0) = ∑ t : Fin 4, ∑ r : Fin 4096, ∑ l : Fin 128,
          Cert.Spec.hub (in506 V c (ix2 ⟨t.val * 4096 + r.val, by omega⟩ l) - in507 V c (ix2 ⟨t.val * 4096 + r.val, by omega⟩ l)) :=
  out508_value V c
end exact

end Cert.KernelIdeal.Hand

end
-- ==== Proof.KIHostMidLib.lean ====
/-
  Shared lemmas for reading the host operations between the two kernel regions: the fold of the sixty-five host stretches
  over the contents the first region leaves, a reader for one buffer after the fold, the read of an eight-piece
  concatenation at a position, and the two point sets' base cells and fractions as points of the specification.
-/
import proofs.«106138_j14714557956152_2_alg».proof.Proof.KernelIdealRegionsP
import proofs.«106138_j14714557956152_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 65536

noncomputable section

namespace Cert.KernelIdeal.Hand

open Cert.KernelIdeal Cert.KernelIdeal.Gen Cert.KernelIdeal.GenP Idealize.ShloMosaic Idealize.ShloMosaic.ValueIdx
open Idealize.ShloMosaic.TcCoe
open Idealize.ShloMosaic.StableHlo (after after_cons after_nil)

/-! # Reading the host stretches between the two kernel regions

The sixty-five host stretches between the two regions are folded, in order, over the contents the first region leaves.
A buffer a stretch does not write is read through it in one step; a buffer it writes is read operation by operation. -/

/-- The fold over a line of operations, read at a buffer, one operation at a time. -/
theorem after_cons_app (op : HloOp τ sig (Elt Ideal)) (ops : List (HloOp τ sig (Elt Ideal))) (V : Valuation τ sig (Elt Ideal))
    (b : DevRef τ sig) : StableHlo.after (op :: ops) V b = StableHlo.after ops (op.result V) b := rfl
theorem after_nil_app (V : Valuation τ sig (Elt Ideal)) (b : DevRef τ sig) : StableHlo.after [] V b = V b := rfl

/-! A stretch leaves every buffer it does not write as it was. -/
theorem skip_0 (W : Valuation τ sig (Elt Ideal)) {r : Ref sig .tc} (h : r ∉ hostOps1_W) :
    StableHlo.after (no_index hostOps1) W (no_index (Proc.devRef .tc r)) = W (Proc.devRef .tc r) :=
  StableHlo.after_of_writes_sub hostOps1 W hostOps1_writes h
theorem skip_1 (W : Valuation τ sig (Elt Ideal)) {r : Ref sig .tc} (h : r ∉ hostOps1_1_W) :
    StableHlo.after (no_index hostOps1_1) W (no_index (Proc.devRef .tc r)) = W (Proc.devRef .tc r) :=
  StableHlo.after_of_writes_sub hostOps1_1 W hostOps1_1_writes h
theorem skip_2 (W : Valuation τ sig (Elt Ideal)) {r : Ref sig .tc} (h : r ∉ hostOps1_2_W) :
    StableHlo.after (no_index hostOps1_2) W (no_index (Proc.devRef .tc r)) = W (Proc.devRef .tc r) :=
  StableHlo.after_of_writes_sub hostOps1_2 W hostOps1_2_writes h
theorem skip_3 (W : Valuation τ sig (Elt Ideal)) {r : Ref sig .tc} (h : r ∉ hostOps1_3_W) :
    StableHlo.after (no_index hostOps1_3) W (no_index (Proc.devRef .tc r)) = W (Proc.devRef .tc r) :=
  StableHlo.after_of_writes_sub hostOps1_3 W hostOps1_3_writes h
theorem skip_4 (W : Valuation τ sig (Elt Ideal)) {r : Ref sig .tc} (h : r ∉ hostOps1_4_W) :
    StableHlo.after (no_index hostOps1_4) W (no_index (Proc.devRef .tc r)) = W (Proc.devRef .tc r) :=
  StableHlo.after_of_writes_sub hostOps1_4 W hostOps1_4_writes h
theorem skip_5 (W : Valuation τ sig (Elt Ideal)) {r : Ref sig .tc} (h : r ∉ hostOps1_5_W) :
    StableHlo.after (no_index hostOps1_5) W (no_index (Proc.devRef .tc r)) = W (Proc.devRef .tc r) :=
  StableHlo.after_of_writes_sub hostOps1_5 W hostOps1_5_writes h
theorem skip_6 (W : Valuation τ sig (Elt Ideal)) {r : Ref sig .tc} (h : r ∉ hostOps1_6_W) :
    StableHlo.after (no_index hostOps1_6) W (no_index (Proc.devRef .tc r)) = W (Proc.devRef .tc r) :=
  StableHlo.after_of_writes_sub hostOps1_6 W hostOps1_6_writes h
theorem skip_7 (W : Valuation τ sig (Elt Ideal)) {r : Ref sig .tc} (h : r ∉ hostOps1_7_W) :
    StableHlo.after (no_index hostOps1_7) W (no_index (Proc.devRef .tc r)) = W (Proc.devRef .tc r) :=
  StableHlo.after_of_writes_sub hostOps1_7 W hostOps1_7_writes h
theorem skip_8 (W : Valuation τ sig (Elt Ideal)) {r : Ref sig .tc} (h : r ∉ hostOps1_8_W) :
    StableHlo.after (no_index hostOps1_8) W (no_index (Proc.devRef .tc r)) = W (Proc.devRef .tc r) :=
  StableHlo.after_of_writes_sub hostOps1_8 W hostOps1_8_writes h
theorem skip_9 (W : Valuation τ sig (Elt Ideal)) {r : Ref sig .tc} (h : r ∉ hostOps1_9_W) :
    StableHlo.after (no_index hostOps1_9) W (no_index (Proc.devRef .tc r)) = W (Proc.devRef .tc r) :=
  StableHlo.after_of_writes_sub hostOps1_9 W hostOps1_9_writes h
theorem skip_10 (W : Valuation τ sig (Elt Ideal)) {r : Ref sig .tc} (h : r ∉ hostOps1_10_W) :
    StableHlo.after (no_index hostOps1_10) W (no_index (Proc.devRef .tc r)) = W (Proc.devRef .tc r) :=
  StableHlo.after_of_writes_sub hostOps1_10 W hostOps1_10_writes h
theorem skip_11 (W : Valuation τ sig (Elt Ideal)) {r : Ref sig .tc} (h : r ∉ hostOps1_11_W) :
    StableHlo.after (no_index hostOps1_11) W (no_index (Proc.devRef .tc r)) = W (Proc.devRef .tc r) :=
  StableHlo.after_of_writes_sub hostOps1_11 W hostOps1_11_writes h
theorem skip_12 (W : Valuation τ sig (Elt Ideal)) {r : Ref sig .tc} (h : r ∉ hostOps1_12_W) :
    StableHlo.after (no_index hostOps1_12) W (no_index (Proc.devRef .tc r)) = W (Proc.devRef .tc r) :=
  StableHlo.after_of_writes_sub hostOps1_12 W hostOps1_12_writes h
theorem skip_13 (W : Valuation τ sig (Elt Ideal)) {r : Ref sig .tc} (h : r ∉ hostOps1_13_W) :
    StableHlo.after (no_index hostOps1_13) W (no_index (Proc.devRef .tc r)) = W (Proc.devRef .tc r) :=
  StableHlo.after_of_writes_sub hostOps1_13 W hostOps1_13_writes h
theorem skip_14 (W : Valuation τ sig (Elt Ideal)) {r : Ref sig .tc} (h : r ∉ hostOps1_14_W) :
    StableHlo.after (no_index hostOps1_14) W (no_index (Proc.devRef .tc r)) = W (Proc.devRef .tc r) :=
  StableHlo.after_of_writes_sub hostOps1_14 W hostOps1_14_writes h
theorem skip_15 (W : Valuation τ sig (Elt Ideal)) {r : Ref sig .tc} (h : r ∉ hostOps1_15_W) :
    StableHlo.after (no_index hostOps1_15) W (no_index (Proc.devRef .tc r)) = W (Proc.devRef .tc r) :=
  StableHlo.after_of_writes_sub hostOps1_15 W hostOps1_15_writes h
theorem skip_16 (W : Valuation τ sig (Elt Ideal)) {r : Ref sig .tc} (h : r ∉ hostOps1_16_W) :
    StableHlo.after (no_index hostOps1_16) W (no_index (Proc.devRef .tc r)) = W (Proc.devRef .tc r) :=
  StableHlo.after_of_writes_sub hostOps1_16 W hostOps1_16_writes h
theorem skip_17 (W : Valuation τ sig (Elt Ideal)) {r : Ref sig .tc} (h : r ∉ hostOps1_17_W) :
    StableHlo.after (no_index hostOps1_17) W (no_index (Proc.devRef .tc r)) = W (Proc.devRef .tc r) :=
  StableHlo.after_of_writes_sub hostOps1_17 W hostOps1_17_writes h
theorem skip_18 (W : Valuation τ sig (Elt Ideal)) {r : Ref sig .tc} (h : r ∉ hostOps1_18_W) :
    StableHlo.after (no_index hostOps1_18) W (no_index (Proc.devRef .tc r)) = W (Proc.devRef .tc r) :=
  StableHlo.after_of_writes_sub hostOps1_18 W hostOps1_18_writes h
theorem skip_19 (W : Valuation τ sig (Elt Ideal)) {r : Ref sig .tc} (h : r ∉ hostOps1_19_W) :
    StableHlo.after (no_index hostOps1_19) W (no_index (Proc.devRef .tc r)) = W (Proc.devRef .tc r) :=
  StableHlo.after_of_writes_sub hostOps1_19 W hostOps1_19_writes h
theorem skip_20 (W : Valuation τ sig (Elt Ideal)) {r : Ref sig .tc} (h : r ∉ hostOps1_20_W) :
    StableHlo.after (no_index hostOps1_20) W (no_index (Proc.devRef .tc r)) = W (Proc.devRef .tc r) :=
  StableHlo.after_of_writes_sub hostOps1_20 W hostOps1_20_writes h
theorem skip_21 (W : Valuation τ sig (Elt Ideal)) {r : Ref sig .tc} (h : r ∉ hostOps1_21_W) :
    StableHlo.after (no_index hostOps1_21) W (no_index (Proc.devRef .tc r)) = W (Proc.devRef .tc r) :=
  StableHlo.after_of_writes_sub hostOps1_21 W hostOps1_21_writes h
theorem skip_22 (W : Valuation τ sig (Elt Ideal)) {r : Ref sig .tc} (h : r ∉ hostOps1_22_W) :
    StableHlo.after (no_index hostOps1_22) W (no_index (Proc.devRef .tc r)) = W (Proc.devRef .tc r) :=
  StableHlo.after_of_writes_sub hostOps1_22 W hostOps1_22_writes h
theorem skip_23 (W : Valuation τ sig (Elt Ideal)) {r : Ref sig .tc} (h : r ∉ hostOps1_23_W) :
    StableHlo.after (no_index hostOps1_23) W (no_index (Proc.devRef .tc r)) = W (Proc.devRef .tc r) :=
  StableHlo.after_of_writes_sub hostOps1_23 W hostOps1_23_writes h
theorem skip_24 (W : Valuation τ sig (Elt Ideal)) {r : Ref sig .tc} (h : r ∉ hostOps1_24_W) :
    StableHlo.after (no_index hostOps1_24) W (no_index (Proc.devRef .tc r)) = W (Proc.devRef .tc r) :=
  StableHlo.after_of_writes_sub hostOps1_24 W hostOps1_24_writes h
theorem skip_25 (W : Valuation τ sig (Elt Ideal)) {r : Ref sig .tc} (h : r ∉ hostOps1_25_W) :
    StableHlo.after (no_index hostOps1_25) W (no_index (Proc.devRef .tc r)) = W (Proc.devRef .tc r) :=
  StableHlo.after_of_writes_sub hostOps1_25 W hostOps1_25_writes h
theorem skip_26 (W : Valuation τ sig (Elt Ideal)) {r : Ref sig .tc} (h : r ∉ hostOps1_26_W) :
    StableHlo.after (no_index hostOps1_26) W (no_index (Proc.devRef .tc r)) = W (Proc.devRef .tc r) :=
  StableHlo.after_of_writes_sub hostOps1_26 W hostOps1_26_writes h
theorem skip_27 (W : Valuation τ sig (Elt Ideal)) {r : Ref sig .tc} (h : r ∉ hostOps1_27_W) :
    StableHlo.after (no_index hostOps1_27) W (no_index (Proc.devRef .tc r)) = W (Proc.devRef .tc r) :=
  StableHlo.after_of_writes_sub hostOps1_27 W hostOps1_27_writes h
theorem skip_28 (W : Valuation τ sig (Elt Ideal)) {r : Ref sig .tc} (h : r ∉ hostOps1_28_W) :
    StableHlo.after (no_index hostOps1_28) W (no_index (Proc.devRef .tc r)) = W (Proc.devRef .tc r) :=
  StableHlo.after_of_writes_sub hostOps1_28 W hostOps1_28_writes h
theorem skip_29 (W : Valuation τ sig (Elt Ideal)) {r : Ref sig .tc} (h : r ∉ hostOps1_29_W) :
    StableHlo.after (no_index hostOps1_29) W (no_index (Proc.devRef .tc r)) = W (Proc.devRef .tc r) :=
  StableHlo.after_of_writes_sub hostOps1_29 W hostOps1_29_writes h
theorem skip_30 (W : Valuation τ sig (Elt Ideal)) {r : Ref sig .tc} (h : r ∉ hostOps1_30_W) :
    StableHlo.after (no_index hostOps1_30) W (no_index (Proc.devRef .tc r)) = W (Proc.devRef .tc r) :=
  StableHlo.after_of_writes_sub hostOps1_30 W hostOps1_30_writes h
theorem skip_31 (W : Valuation τ sig (Elt Ideal)) {r : Ref sig .tc} (h : r ∉ hostOps1_31_W) :
    StableHlo.after (no_index hostOps1_31) W (no_index (Proc.devRef .tc r)) = W (Proc.devRef .tc r) :=
  StableHlo.after_of_writes_sub hostOps1_31 W hostOps1_31_writes h
theorem skip_32 (W : Valuation τ sig (Elt Ideal)) {r : Ref sig .tc} (h : r ∉ hostOps1_32_W) :
    StableHlo.after (no_index hostOps1_32) W (no_index (Proc.devRef .tc r)) = W (Proc.devRef .tc r) :=
  StableHlo.after_of_writes_sub hostOps1_32 W hostOps1_32_writes h
theorem skip_33 (W : Valuation τ sig (Elt Ideal)) {r : Ref sig .tc} (h : r ∉ hostOps1_33_W) :
    StableHlo.after (no_index hostOps1_33) W (no_index (Proc.devRef .tc r)) = W (Proc.devRef .tc r) :=
  StableHlo.after_of_writes_sub hostOps1_33 W hostOps1_33_writes h
theorem skip_34 (W : Valuation τ sig (Elt Ideal)) {r : Ref sig .tc} (h : r ∉ hostOps1_34_W) :
    StableHlo.after (no_index hostOps1_34) W (no_index (Proc.devRef .tc r)) = W (Proc.devRef .tc r) :=
  StableHlo.after_of_writes_sub hostOps1_34 W hostOps1_34_writes h
theorem skip_35 (W : Valuation τ sig (Elt Ideal)) {r : Ref sig .tc} (h : r ∉ hostOps1_35_W) :
    StableHlo.after (no_index hostOps1_35) W (no_index (Proc.devRef .tc r)) = W (Proc.devRef .tc r) :=
  StableHlo.after_of_writes_sub hostOps1_35 W hostOps1_35_writes h
theorem skip_36 (W : Valuation τ sig (Elt Ideal)) {r : Ref sig .tc} (h : r ∉ hostOps1_36_W) :
    StableHlo.after (no_index hostOps1_36) W (no_index (Proc.devRef .tc r)) = W (Proc.devRef .tc r) :=
  StableHlo.after_of_writes_sub hostOps1_36 W hostOps1_36_writes h
theorem skip_37 (W : Valuation τ sig (Elt Ideal)) {r : Ref sig .tc} (h : r ∉ hostOps1_37_W) :
    StableHlo.after (no_index hostOps1_37) W (no_index (Proc.devRef .tc r)) = W (Proc.devRef .tc r) :=
  StableHlo.after_of_writes_sub hostOps1_37 W hostOps1_37_writes h
theorem skip_38 (W : Valuation τ sig (Elt Ideal)) {r : Ref sig .tc} (h : r ∉ hostOps1_38_W) :
    StableHlo.after (no_index hostOps1_38) W (no_index (Proc.devRef .tc r)) = W (Proc.devRef .tc r) :=
  StableHlo.after_of_writes_sub hostOps1_38 W hostOps1_38_writes h
theorem skip_39 (W : Valuation τ sig (Elt Ideal)) {r : Ref sig .tc} (h : r ∉ hostOps1_39_W) :
    StableHlo.after (no_index hostOps1_39) W (no_index (Proc.devRef .tc r)) = W (Proc.devRef .tc r) :=
  StableHlo.after_of_writes_sub hostOps1_39 W hostOps1_39_writes h
theorem skip_40 (W : Valuation τ sig (Elt Ideal)) {r : Ref sig .tc} (h : r ∉ hostOps1_40_W) :
    StableHlo.after (no_index hostOps1_40) W (no_index (Proc.devRef .tc r)) = W (Proc.devRef .tc r) :=
  StableHlo.after_of_writes_sub hostOps1_40 W hostOps1_40_writes h
theorem skip_41 (W : Valuation τ sig (Elt Ideal)) {r : Ref sig .tc} (h : r ∉ hostOps1_41_W) :
    StableHlo.after (no_index hostOps1_41) W (no_index (Proc.devRef .tc r)) = W (Proc.devRef .tc r) :=
  StableHlo.after_of_writes_sub hostOps1_41 W hostOps1_41_writes h
theorem skip_42 (W : Valuation τ sig (Elt Ideal)) {r : Ref sig .tc} (h : r ∉ hostOps1_42_W) :
    StableHlo.after (no_index hostOps1_42) W (no_index (Proc.devRef .tc r)) = W (Proc.devRef .tc r) :=
  StableHlo.after_of_writes_sub hostOps1_42 W hostOps1_42_writes h
theorem skip_43 (W : Valuation τ sig (Elt Ideal)) {r : Ref sig .tc} (h : r ∉ hostOps1_43_W) :
    StableHlo.after (no_index hostOps1_43) W (no_index (Proc.devRef .tc r)) = W (Proc.devRef .tc r) :=
  StableHlo.after_of_writes_sub hostOps1_43 W hostOps1_43_writes h
theorem skip_44 (W : Valuation τ sig (Elt Ideal)) {r : Ref sig .tc} (h : r ∉ hostOps1_44_W) :
    StableHlo.after (no_index hostOps1_44) W (no_index (Proc.devRef .tc r)) = W (Proc.devRef .tc r) :=
  StableHlo.after_of_writes_sub hostOps1_44 W hostOps1_44_writes h
theorem skip_45 (W : Valuation τ sig (Elt Ideal)) {r : Ref sig .tc} (h : r ∉ hostOps1_45_W) :
    StableHlo.after (no_index hostOps1_45) W (no_index (Proc.devRef .tc r)) = W (Proc.devRef .tc r) :=
  StableHlo.after_of_writes_sub hostOps1_45 W hostOps1_45_writes h
theorem skip_46 (W : Valuation τ sig (Elt Ideal)) {r : Ref sig .tc} (h : r ∉ hostOps1_46_W) :
    StableHlo.after (no_index hostOps1_46) W (no_index (Proc.devRef .tc r)) = W (Proc.devRef .tc r) :=
  StableHlo.after_of_writes_sub hostOps1_46 W hostOps1_46_writes h
theorem skip_47 (W : Valuation τ sig (Elt Ideal)) {r : Ref sig .tc} (h : r ∉ hostOps1_47_W) :
    StableHlo.after (no_index hostOps1_47) W (no_index (Proc.devRef .tc r)) = W (Proc.devRef .tc r) :=
  StableHlo.after_of_writes_sub hostOps1_47 W hostOps1_47_writes h
theorem skip_48 (W : Valuation τ sig (Elt Ideal)) {r : Ref sig .tc} (h : r ∉ hostOps1_48_W) :
    StableHlo.after (no_index hostOps1_48) W (no_index (Proc.devRef .tc r)) = W (Proc.devRef .tc r) :=
  StableHlo.after_of_writes_sub hostOps1_48 W hostOps1_48_writes h
theorem skip_49 (W : Valuation τ sig (Elt Ideal)) {r : Ref sig .tc} (h : r ∉ hostOps1_49_W) :
    StableHlo.after (no_index hostOps1_49) W (no_index (Proc.devRef .tc r)) = W (Proc.devRef .tc r) :=
  StableHlo.after_of_writes_sub hostOps1_49 W hostOps1_49_writes h
theorem skip_50 (W : Valuation τ sig (Elt Ideal)) {r : Ref sig .tc} (h : r ∉ hostOps1_50_W) :
    StableHlo.after (no_index hostOps1_50) W (no_index (Proc.devRef .tc r)) = W (Proc.devRef .tc r) :=
  StableHlo.after_of_writes_sub hostOps1_50 W hostOps1_50_writes h
theorem skip_51 (W : Valuation τ sig (Elt Ideal)) {r : Ref sig .tc} (h : r ∉ hostOps1_51_W) :
    StableHlo.after (no_index hostOps1_51) W (no_index (Proc.devRef .tc r)) = W (Proc.devRef .tc r) :=
  StableHlo.after_of_writes_sub hostOps1_51 W hostOps1_51_writes h
theorem skip_52 (W : Valuation τ sig (Elt Ideal)) {r : Ref sig .tc} (h : r ∉ hostOps1_52_W) :
    StableHlo.after (no_index hostOps1_52) W (no_index (Proc.devRef .tc r)) = W (Proc.devRef .tc r) :=
  StableHlo.after_of_writes_sub hostOps1_52 W hostOps1_52_writes h
theorem skip_53 (W : Valuation τ sig (Elt Ideal)) {r : Ref sig .tc} (h : r ∉ hostOps1_53_W) :
    StableHlo.after (no_index hostOps1_53) W (no_index (Proc.devRef .tc r)) = W (Proc.devRef .tc r) :=
  StableHlo.after_of_writes_sub hostOps1_53 W hostOps1_53_writes h
theorem skip_54 (W : Valuation τ sig (Elt Ideal)) {r : Ref sig .tc} (h : r ∉ hostOps1_54_W) :
    StableHlo.after (no_index hostOps1_54) W (no_index (Proc.devRef .tc r)) = W (Proc.devRef .tc r) :=
  StableHlo.after_of_writes_sub hostOps1_54 W hostOps1_54_writes h
theorem skip_55 (W : Valuation τ sig (Elt Ideal)) {r : Ref sig .tc} (h : r ∉ hostOps1_55_W) :
    StableHlo.after (no_index hostOps1_55) W (no_index (Proc.devRef .tc r)) = W (Proc.devRef .tc r) :=
  StableHlo.after_of_writes_sub hostOps1_55 W hostOps1_55_writes h
theorem skip_56 (W : Valuation τ sig (Elt Ideal)) {r : Ref sig .tc} (h : r ∉ hostOps1_56_W) :
    StableHlo.after (no_index hostOps1_56) W (no_index (Proc.devRef .tc r)) = W (Proc.devRef .tc r) :=
  StableHlo.after_of_writes_sub hostOps1_56 W hostOps1_56_writes h
theorem skip_57 (W : Valuation τ sig (Elt Ideal)) {r : Ref sig .tc} (h : r ∉ hostOps1_57_W) :
    StableHlo.after (no_index hostOps1_57) W (no_index (Proc.devRef .tc r)) = W (Proc.devRef .tc r) :=
  StableHlo.after_of_writes_sub hostOps1_57 W hostOps1_57_writes h
theorem skip_58 (W : Valuation τ sig (Elt Ideal)) {r : Ref sig .tc} (h : r ∉ hostOps1_58_W) :
    StableHlo.after (no_index hostOps1_58) W (no_index (Proc.devRef .tc r)) = W (Proc.devRef .tc r) :=
  StableHlo.after_of_writes_sub hostOps1_58 W hostOps1_58_writes h
theorem skip_59 (W : Valuation τ sig (Elt Ideal)) {r : Ref sig .tc} (h : r ∉ hostOps1_59_W) :
    StableHlo.after (no_index hostOps1_59) W (no_index (Proc.devRef .tc r)) = W (Proc.devRef .tc r) :=
  StableHlo.after_of_writes_sub hostOps1_59 W hostOps1_59_writes h
theorem skip_60 (W : Valuation τ sig (Elt Ideal)) {r : Ref sig .tc} (h : r ∉ hostOps1_60_W) :
    StableHlo.after (no_index hostOps1_60) W (no_index (Proc.devRef .tc r)) = W (Proc.devRef .tc r) :=
  StableHlo.after_of_writes_sub hostOps1_60 W hostOps1_60_writes h
theorem skip_61 (W : Valuation τ sig (Elt Ideal)) {r : Ref sig .tc} (h : r ∉ hostOps1_61_W) :
    StableHlo.after (no_index hostOps1_61) W (no_index (Proc.devRef .tc r)) = W (Proc.devRef .tc r) :=
  StableHlo.after_of_writes_sub hostOps1_61 W hostOps1_61_writes h
theorem skip_62 (W : Valuation τ sig (Elt Ideal)) {r : Ref sig .tc} (h : r ∉ hostOps1_62_W) :
    StableHlo.after (no_index hostOps1_62) W (no_index (Proc.devRef .tc r)) = W (Proc.devRef .tc r) :=
  StableHlo.after_of_writes_sub hostOps1_62 W hostOps1_62_writes h
theorem skip_63 (W : Valuation τ sig (Elt Ideal)) {r : Ref sig .tc} (h : r ∉ hostOps1_63_W) :
    StableHlo.after (no_index hostOps1_63) W (no_index (Proc.devRef .tc r)) = W (Proc.devRef .tc r) :=
  StableHlo.after_of_writes_sub hostOps1_63 W hostOps1_63_writes h
theorem skip_64 (W : Valuation τ sig (Elt Ideal)) {r : Ref sig .tc} (h : r ∉ hostOps1_64_W) :
    StableHlo.after (no_index hostOps1_64) W (no_index (Proc.devRef .tc r)) = W (Proc.devRef .tc r) :=
  StableHlo.after_of_writes_sub hostOps1_64 W hostOps1_64_writes h

/-- The contents after the sixty-five stretches, from the contents `W` the first region leaves. -/
def chain (W : Valuation τ sig (Elt Ideal)) : Valuation τ sig (Elt Ideal) :=
  StableHlo.after hostOps1_64 (StableHlo.after hostOps1_63 (StableHlo.after hostOps1_62 (StableHlo.after hostOps1_61 (StableHlo.after hostOps1_60 (StableHlo.after hostOps1_59 (StableHlo.after hostOps1_58 (StableHlo.after hostOps1_57 (StableHlo.after hostOps1_56 (StableHlo.after hostOps1_55 (StableHlo.after hostOps1_54 (StableHlo.after hostOps1_53 (StableHlo.after hostOps1_52 (StableHlo.after hostOps1_51 (StableHlo.after hostOps1_50 (StableHlo.after hostOps1_49 (StableHlo.after hostOps1_48 (StableHlo.after hostOps1_47 (StableHlo.after hostOps1_46 (StableHlo.after hostOps1_45 (StableHlo.after hostOps1_44 (StableHlo.after hostOps1_43 (StableHlo.after hostOps1_42 (StableHlo.after hostOps1_41 (StableHlo.after hostOps1_40 (StableHlo.after hostOps1_39 (StableHlo.after hostOps1_38 (StableHlo.after hostOps1_37 (StableHlo.after hostOps1_36 (StableHlo.after hostOps1_35 (StableHlo.after hostOps1_34 (StableHlo.after hostOps1_33 (StableHlo.after hostOps1_32 (StableHlo.after hostOps1_31 (StableHlo.after hostOps1_30 (StableHlo.after hostOps1_29 (StableHlo.after hostOps1_28 (StableHlo.after hostOps1_27 (StableHlo.after hostOps1_26 (StableHlo.after hostOps1_25 (StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W)))))))))))))))))))))))))))))))))))))))))))))))))))))))))))))))))

/-! Entry `i` of a literal family of eight. -/
theorem vec8_0 {α : Type} (a0 a1 a2 a3 a4 a5 a6 a7 : α) : (![a0, a1, a2, a3, a4, a5, a6, a7] : Fin 8 → α) 0 = a0 := rfl
theorem vec8_1 {α : Type} (a0 a1 a2 a3 a4 a5 a6 a7 : α) : (![a0, a1, a2, a3, a4, a5, a6, a7] : Fin 8 → α) 1 = a1 := rfl
theorem vec8_2 {α : Type} (a0 a1 a2 a3 a4 a5 a6 a7 : α) : (![a0, a1, a2, a3, a4, a5, a6, a7] : Fin 8 → α) 2 = a2 := rfl
theorem vec8_3 {α : Type} (a0 a1 a2 a3 a4 a5 a6 a7 : α) : (![a0, a1, a2, a3, a4, a5, a6, a7] : Fin 8 → α) 3 = a3 := rfl
theorem vec8_4 {α : Type} (a0 a1 a2 a3 a4 a5 a6 a7 : α) : (![a0, a1, a2, a3, a4, a5, a6, a7] : Fin 8 → α) 4 = a4 := rfl
theorem vec8_5 {α : Type} (a0 a1 a2 a3 a4 a5 a6 a7 : α) : (![a0, a1, a2, a3, a4, a5, a6, a7] : Fin 8 → α) 5 = a5 := rfl
theorem vec8_6 {α : Type} (a0 a1 a2 a3 a4 a5 a6 a7 : α) : (![a0, a1, a2, a3, a4, a5, a6, a7] : Fin 8 → α) 6 = a6 := rfl
theorem vec8_7 {α : Type} (a0 a1 a2 a3 a4 a5 a6 a7 : α) : (![a0, a1, a2, a3, a4, a5, a6, a7] : Fin 8 → α) 7 = a7 := rfl

open Idealize.ShloMosaic.StableHlo in
/-- Reads a buffer after the stretches down to the first region's contents: whole stretches that do not write it are
    passed in one step, the others operation by operation. -/
macro "host_read" : tactic =>
  `(tactic| (simp (disch := decide) only [↓skip_0, ↓skip_1, ↓skip_2, ↓skip_3, ↓skip_4, ↓skip_5, ↓skip_6, ↓skip_7, ↓skip_8, ↓skip_9, ↓skip_10, ↓skip_11, ↓skip_12, ↓skip_13, ↓skip_14, ↓skip_15, ↓skip_16, ↓skip_17, ↓skip_18, ↓skip_19, ↓skip_20, ↓skip_21, ↓skip_22, ↓skip_23, ↓skip_24, ↓skip_25, ↓skip_26, ↓skip_27, ↓skip_28, ↓skip_29, ↓skip_30, ↓skip_31, ↓skip_32, ↓skip_33, ↓skip_34, ↓skip_35, ↓skip_36, ↓skip_37, ↓skip_38, ↓skip_39, ↓skip_40, ↓skip_41, ↓skip_42, ↓skip_43, ↓skip_44, ↓skip_45, ↓skip_46, ↓skip_47, ↓skip_48, ↓skip_49, ↓skip_50, ↓skip_51, ↓skip_52, ↓skip_53, ↓skip_54, ↓skip_55, ↓skip_56, ↓skip_57, ↓skip_58, ↓skip_59, ↓skip_60, ↓skip_61, ↓skip_62, ↓skip_63, ↓skip_64,
      after_cons_app, after_nil_app, vec8_0, vec8_1, vec8_2, vec8_3, vec8_4, vec8_5, vec8_6, vec8_7,
      nullary_result', unary_result', binary_result', ternary_result', quaternary_result', reshape_result', nary_result',
      nullary_result_ne', unary_result_ne', binary_result_ne', ternary_result_ne', quaternary_result_ne', reshape_result_ne',
      nary_result_ne']))

open Idealize.ShloMosaic.StableHlo in
/-- The same reader without the entries of literal families: it stops at the operands of an eight-piece concatenation. -/
macro "host_read_top" : tactic =>
  `(tactic| (simp (disch := decide) only [↓skip_0, ↓skip_1, ↓skip_2, ↓skip_3, ↓skip_4, ↓skip_5, ↓skip_6, ↓skip_7, ↓skip_8, ↓skip_9, ↓skip_10, ↓skip_11, ↓skip_12, ↓skip_13, ↓skip_14, ↓skip_15, ↓skip_16, ↓skip_17, ↓skip_18, ↓skip_19, ↓skip_20, ↓skip_21, ↓skip_22, ↓skip_23, ↓skip_24, ↓skip_25, ↓skip_26, ↓skip_27, ↓skip_28, ↓skip_29, ↓skip_30, ↓skip_31, ↓skip_32, ↓skip_33, ↓skip_34, ↓skip_35, ↓skip_36, ↓skip_37, ↓skip_38, ↓skip_39, ↓skip_40, ↓skip_41, ↓skip_42, ↓skip_43, ↓skip_44, ↓skip_45, ↓skip_46, ↓skip_47, ↓skip_48, ↓skip_49, ↓skip_50, ↓skip_51, ↓skip_52, ↓skip_53, ↓skip_54, ↓skip_55, ↓skip_56, ↓skip_57, ↓skip_58, ↓skip_59, ↓skip_60, ↓skip_61, ↓skip_62, ↓skip_63, ↓skip_64,
      after_cons_app, after_nil_app,
      nullary_result', unary_result', binary_result', ternary_result', quaternary_result', reshape_result', nary_result',
      nullary_result_ne', unary_result_ne', binary_result_ne', ternary_result_ne', quaternary_result_ne', reshape_result_ne',
      nary_result_ne']))

/-- Eight pieces of one length laid end to end, read at position `k · 2031616 + q`: piece `k` at `q`. -/
theorem concat8_apply {α : Type} (u : Fin 8 → (S2031616.Idx → α))
    (h : Shape.Concatenates (([⟨S2031616, u 0⟩, ⟨S2031616, u 1⟩, ⟨S2031616, u 2⟩, ⟨S2031616, u 3⟩, ⟨S2031616, u 4⟩,
      ⟨S2031616, u 5⟩, ⟨S2031616, u 6⟩, ⟨S2031616, u 7⟩] : List ((s : Shape) × (s.Idx → α))).map (·.1)) S16252928 0)
    (k : Fin 8) (q : Fin 2031616) (hkq : k.val * 2031616 + q.val < 16252928) :
    concatenate S16252928 0 [⟨S2031616, u 0⟩, ⟨S2031616, u 1⟩, ⟨S2031616, u 2⟩, ⟨S2031616, u 3⟩, ⟨S2031616, u 4⟩,
      ⟨S2031616, u 5⟩, ⟨S2031616, u 6⟩, ⟨S2031616, u 7⟩] h (ix1 ⟨k.val * 2031616 + q.val, hkq⟩) = u k (ix1 q) := by
  refine concatenate_ofFn_apply (t := S16252928) (s₁ := S2031616) (0 : Fin 1) u h rfl 2031616 rfl
    (ix1 ⟨k.val * 2031616 + q.val, hkq⟩) k ?_ (ix1 q) ?_ ?_
  · show (k.val * 2031616 + q.val) / 2031616 = k.val
    have := q.isLt; omega
  · show q.val = (k.val * 2031616 + q.val) % 2031616
    have := q.isLt; omega
  · intro b hb
    exfalso; apply hb; apply Fin.ext
    have h1 : b.val < 1 := b.isLt
    show b.val = 0
    omega

/-- Eight pieces of one length laid end to end, read at position `k · 2031616 + q`: piece `k` at `q` (the pieces given one by one). -/
theorem concat8_pick {α : Type} (u0 u1 u2 u3 u4 u5 u6 u7 : S2031616.Idx → α)
    (h : Shape.Concatenates (([⟨S2031616, u0⟩, ⟨S2031616, u1⟩, ⟨S2031616, u2⟩, ⟨S2031616, u3⟩, ⟨S2031616, u4⟩,
      ⟨S2031616, u5⟩, ⟨S2031616, u6⟩, ⟨S2031616, u7⟩] : List ((s : Shape) × (s.Idx → α))).map (·.1)) S16252928 0)
    (k : Fin 8) (q : Fin 2031616) (hkq : k.val * 2031616 + q.val < 16252928) :
    concatenate S16252928 0 [⟨S2031616, u0⟩, ⟨S2031616, u1⟩, ⟨S2031616, u2⟩, ⟨S2031616, u3⟩, ⟨S2031616, u4⟩,
      ⟨S2031616, u5⟩, ⟨S2031616, u6⟩, ⟨S2031616, u7⟩] h (ix1 ⟨k.val * 2031616 + q.val, hkq⟩)
      = (![u0, u1, u2, u3, u4, u5, u6, u7] : Fin 8 → S2031616.Idx → α) k (ix1 q) :=
  concat8_apply (![u0, u1, u2, u3, u4, u5, u6, u7] : Fin 8 → S2031616.Idx → α) h k q hkq

/-- The row-major re-laying of a [15872, 128] array as a vector, read at flat position `q`: the array at row `q / 128`,
    column `q % 128`. -/
theorem reshape_at {α : Type} (X : S15872x128.Idx → α) (h : S15872x128.ShapeCasts S2031616) (q : Fin 2031616) :
    shapeCast S2031616 X h (ix1 q) = X (ix2 ⟨q.val / 128, by omega⟩ ⟨q.val % 128, Nat.mod_lt _ (by decide)⟩) := by
  refine shapeCast_apply X h (ix1 q) (ix2 ⟨q.val / 128, by omega⟩ ⟨q.val % 128, Nat.mod_lt _ (by decide)⟩) ?_
  rw [Shape.rowMajor_val_two, Shape.rowMajor_val_one]
  show q.val / 128 * 128 + q.val % 128 = q.val
  omega

/-- The first point set's base cell and fractions at flat position `q`, from the contents `W` the first region leaves. -/
def PtOfP (W : Valuation τ sig (Elt Ideal)) (q : Fin 2031616) : Cert.Spec.Pt :=
  ⟨(W (Proc.devRef .tc main_v39_0) : S15872x128.Idx → BitVec 32) (ix2 ⟨q.val / 128, by omega⟩ ⟨q.val % 128, Nat.mod_lt _ (by decide)⟩),
   (W (Proc.devRef .tc main_v39_1) : S15872x128.Idx → BitVec 32) (ix2 ⟨q.val / 128, by omega⟩ ⟨q.val % 128, Nat.mod_lt _ (by decide)⟩),
   (W (Proc.devRef .tc main_v39_2) : S15872x128.Idx → BitVec 32) (ix2 ⟨q.val / 128, by omega⟩ ⟨q.val % 128, Nat.mod_lt _ (by decide)⟩),
   (W (Proc.devRef .tc main_v39_3) : S15872x128.Idx → Ideal .f32) (ix2 ⟨q.val / 128, by omega⟩ ⟨q.val % 128, Nat.mod_lt _ (by decide)⟩),
   (W (Proc.devRef .tc main_v39_4) : S15872x128.Idx → Ideal .f32) (ix2 ⟨q.val / 128, by omega⟩ ⟨q.val % 128, Nat.mod_lt _ (by decide)⟩),
   (W (Proc.devRef .tc main_v39_5) : S15872x128.Idx → Ideal .f32) (ix2 ⟨q.val / 128, by omega⟩ ⟨q.val % 128, Nat.mod_lt _ (by decide)⟩)⟩

/-- The second point set's. -/
def PtOfG (W : Valuation τ sig (Elt Ideal)) (q : Fin 2031616) : Cert.Spec.Pt :=
  ⟨(W (Proc.devRef .tc main_v39_6) : S15872x128.Idx → BitVec 32) (ix2 ⟨q.val / 128, by omega⟩ ⟨q.val % 128, Nat.mod_lt _ (by decide)⟩),
   (W (Proc.devRef .tc main_v39_7) : S15872x128.Idx → BitVec 32) (ix2 ⟨q.val / 128, by omega⟩ ⟨q.val % 128, Nat.mod_lt _ (by decide)⟩),
   (W (Proc.devRef .tc main_v39_8) : S15872x128.Idx → BitVec 32) (ix2 ⟨q.val / 128, by omega⟩ ⟨q.val % 128, Nat.mod_lt _ (by decide)⟩),
   (W (Proc.devRef .tc main_v39_9) : S15872x128.Idx → Ideal .f32) (ix2 ⟨q.val / 128, by omega⟩ ⟨q.val % 128, Nat.mod_lt _ (by decide)⟩),
   (W (Proc.devRef .tc main_v39_10) : S15872x128.Idx → Ideal .f32) (ix2 ⟨q.val / 128, by omega⟩ ⟨q.val % 128, Nat.mod_lt _ (by decide)⟩),
   (W (Proc.devRef .tc main_v39_11) : S15872x128.Idx → Ideal .f32) (ix2 ⟨q.val / 128, by omega⟩ ⟨q.val % 128, Nat.mod_lt _ (by decide)⟩)⟩

end Cert.KernelIdeal.Hand
end
-- ==== Proof.KIHostMidPi.lean ====
/- The first point set's eight corner index vectors, laid end to end, read at a position: the specification's corner index. -/
import proofs.«106138_j14714557956152_2_alg».proof.Proof.KIHostMidLib

set_option maxRecDepth 65536

noncomputable section

namespace Cert.KernelIdeal.Hand

open Cert.KernelIdeal Cert.KernelIdeal.Gen Cert.KernelIdeal.GenP Idealize.ShloMosaic Idealize.ShloMosaic.ValueIdx
open Idealize.ShloMosaic.TcCoe

set_option maxHeartbeats 1000000000 in
/-- After the sixty-five host stretches, from any contents `W` the first region leaves: position `k · 2031616 + q` of the
    eight corner vectors laid end to end is corner `k` of the point at flat position `q`. Each piece is the row-major
    re-laying of a [15872, 128] array, read at row `q / 128`, column `q % 128`; there the host operations are the
    specification's scalar operations, in the same grouping. -/
theorem mid_idx_p_W (W : Valuation τ sig (Elt Ideal)) (k : Fin 8) (q : Fin 2031616) (hkq : k.val * 2031616 + q.val < 16252928) :
    (chain W (Proc.devRef .tc main_v264) : S16252928.Idx → BitVec 32) (ix1 ⟨k.val * 2031616 + q.val, hkq⟩)
      = Cert.Spec.cidx k (PtOfP W q) := by
  unfold chain
  host_read_top
  refine (concat8_pick _ _ _ _ _ _ _ _ _ k q hkq).trans ?_
  clear hkq
  match k with
  | 0 => host_read; exact (reshape_at _ _ q).trans rfl
  | 1 => host_read; exact (reshape_at _ _ q).trans rfl
  | 2 => host_read; exact (reshape_at _ _ q).trans rfl
  | 3 => host_read; exact (reshape_at _ _ q).trans rfl
  | 4 => host_read; exact (reshape_at _ _ q).trans rfl
  | 5 => host_read; exact (reshape_at _ _ q).trans rfl
  | 6 => host_read; exact (reshape_at _ _ q).trans rfl
  | 7 => host_read; exact (reshape_at _ _ q).trans rfl

end Cert.KernelIdeal.Hand
end
-- ==== Proof.KIHostMidPw.lean ====
/- The first point set's eight corner weight vectors, laid end to end, read at a position: the specification's corner weight. -/
import proofs.«106138_j14714557956152_2_alg».proof.Proof.KIHostMidLib

set_option maxRecDepth 65536

noncomputable section

namespace Cert.KernelIdeal.Hand

open Cert.KernelIdeal Cert.KernelIdeal.Gen Cert.KernelIdeal.GenP Idealize.ShloMosaic Idealize.ShloMosaic.ValueIdx
open Idealize.ShloMosaic.TcCoe

set_option maxHeartbeats 1000000000 in
/-- After the sixty-five host stretches, from any contents `W` the first region leaves: position `k · 2031616 + q` of the
    eight corner vectors laid end to end is corner `k` of the point at flat position `q`. Each piece is the row-major
    re-laying of a [15872, 128] array, read at row `q / 128`, column `q % 128`; there the host operations are the
    specification's scalar operations, in the same grouping. -/
theorem mid_w_p_W (W : Valuation τ sig (Elt Ideal)) (k : Fin 8) (q : Fin 2031616) (hkq : k.val * 2031616 + q.val < 16252928) :
    (chain W (Proc.devRef .tc main_v265) : S16252928.Idx → Ideal .f32) (ix1 ⟨k.val * 2031616 + q.val, hkq⟩)
      = Cert.Spec.cw k (PtOfP W q) := by
  unfold chain
  host_read_top
  refine (concat8_pick _ _ _ _ _ _ _ _ _ k q hkq).trans ?_
  clear hkq
  match k with
  | 0 => host_read; exact (reshape_at _ _ q).trans rfl
  | 1 => host_read; exact (reshape_at _ _ q).trans rfl
  | 2 => host_read; exact (reshape_at _ _ q).trans rfl
  | 3 => host_read; exact (reshape_at _ _ q).trans rfl
  | 4 => host_read; exact (reshape_at _ _ q).trans rfl
  | 5 => host_read; exact (reshape_at _ _ q).trans rfl
  | 6 => host_read; exact (reshape_at _ _ q).trans rfl
  | 7 => host_read; exact (reshape_at _ _ q).trans rfl

end Cert.KernelIdeal.Hand
end
-- ==== Proof.KIHostMidGi.lean ====
/- The second point set's eight corner index vectors, laid end to end, read at a position: the specification's corner index. -/
import proofs.«106138_j14714557956152_2_alg».proof.Proof.KIHostMidLib

set_option maxRecDepth 65536

noncomputable section

namespace Cert.KernelIdeal.Hand

open Cert.KernelIdeal Cert.KernelIdeal.Gen Cert.KernelIdeal.GenP Idealize.ShloMosaic Idealize.ShloMosaic.ValueIdx
open Idealize.ShloMosaic.TcCoe

set_option maxHeartbeats 1000000000 in
/-- After the sixty-five host stretches, from any contents `W` the first region leaves: position `k · 2031616 + q` of the
    eight corner vectors laid end to end is corner `k` of the point at flat position `q`. Each piece is the row-major
    re-laying of a [15872, 128] array, read at row `q / 128`, column `q % 128`; there the host operations are the
    specification's scalar operations, in the same grouping. -/
theorem mid_idx_g_W (W : Valuation τ sig (Elt Ideal)) (k : Fin 8) (q : Fin 2031616) (hkq : k.val * 2031616 + q.val < 16252928) :
    (chain W (Proc.devRef .tc main_v490) : S16252928.Idx → BitVec 32) (ix1 ⟨k.val * 2031616 + q.val, hkq⟩)
      = Cert.Spec.cidx k (PtOfG W q) := by
  unfold chain
  host_read_top
  refine (concat8_pick _ _ _ _ _ _ _ _ _ k q hkq).trans ?_
  clear hkq
  match k with
  | 0 => host_read; exact (reshape_at _ _ q).trans rfl
  | 1 => host_read; exact (reshape_at _ _ q).trans rfl
  | 2 => host_read; exact (reshape_at _ _ q).trans rfl
  | 3 => host_read; exact (reshape_at _ _ q).trans rfl
  | 4 => host_read; exact (reshape_at _ _ q).trans rfl
  | 5 => host_read; exact (reshape_at _ _ q).trans rfl
  | 6 => host_read; exact (reshape_at _ _ q).trans rfl
  | 7 => host_read; exact (reshape_at _ _ q).trans rfl

end Cert.KernelIdeal.Hand
end
-- ==== Proof.KIHostMidGw.lean ====
/- The second point set's eight corner weight vectors, laid end to end, read at a position: the specification's corner weight. -/
import proofs.«106138_j14714557956152_2_alg».proof.Proof.KIHostMidLib

set_option maxRecDepth 65536

noncomputable section

namespace Cert.KernelIdeal.Hand

open Cert.KernelIdeal Cert.KernelIdeal.Gen Cert.KernelIdeal.GenP Idealize.ShloMosaic Idealize.ShloMosaic.ValueIdx
open Idealize.ShloMosaic.TcCoe

set_option maxHeartbeats 1000000000 in
/-- After the sixty-five host stretches, from any contents `W` the first region leaves: position `k · 2031616 + q` of the
    eight corner vectors laid end to end is corner `k` of the point at flat position `q`. Each piece is the row-major
    re-laying of a [15872, 128] array, read at row `q / 128`, column `q % 128`; there the host operations are the
    specification's scalar operations, in the same grouping. -/
theorem mid_w_g_W (W : Valuation τ sig (Elt Ideal)) (k : Fin 8) (q : Fin 2031616) (hkq : k.val * 2031616 + q.val < 16252928) :
    (chain W (Proc.devRef .tc main_v491) : S16252928.Idx → Ideal .f32) (ix1 ⟨k.val * 2031616 + q.val, hkq⟩)
      = Cert.Spec.cw k (PtOfG W q) := by
  unfold chain
  host_read_top
  refine (concat8_pick _ _ _ _ _ _ _ _ _ k q hkq).trans ?_
  clear hkq
  match k with
  | 0 => host_read; exact (reshape_at _ _ q).trans rfl
  | 1 => host_read; exact (reshape_at _ _ q).trans rfl
  | 2 => host_read; exact (reshape_at _ _ q).trans rfl
  | 3 => host_read; exact (reshape_at _ _ q).trans rfl
  | 4 => host_read; exact (reshape_at _ _ q).trans rfl
  | 5 => host_read; exact (reshape_at _ _ q).trans rfl
  | 6 => host_read; exact (reshape_at _ _ q).trans rfl
  | 7 => host_read; exact (reshape_at _ _ q).trans rfl

end Cert.KernelIdeal.Hand
end
-- ==== Proof.KIHostMid.lean ====
/-
  The host operations between the two kernel regions, read at the second region's entry: the two point sets' corner index
  and corner weight vectors, laid end to end, hold the specification's corner indices and weights of the points whose base
  cells and fractions the first region leaves.
-/
import proofs.«106138_j14714557956152_2_alg».proof.Proof.KIHostMidLib
import proofs.«106138_j14714557956152_2_alg».proof.Proof.KIHostMidPi
import proofs.«106138_j14714557956152_2_alg».proof.Proof.KIHostMidPw
import proofs.«106138_j14714557956152_2_alg».proof.Proof.KIHostMidGi
import proofs.«106138_j14714557956152_2_alg».proof.Proof.KIHostMidGw
set_option maxRecDepth 65536

noncomputable section

namespace Cert.KernelIdeal.Hand

open Cert.KernelIdeal Cert.KernelIdeal.Gen Cert.KernelIdeal.GenP Idealize.ShloMosaic Idealize.ShloMosaic.ValueIdx
open Idealize.ShloMosaic.TcCoe

variable (m : (ℓ : Loc nD τ sig) → Buf (Elt Ideal) ℓ) (outs : Outs (F := Ideal)) (c : Dev nD)

/-- The first point set's point at flat position `q`: base cells and fractions as the first region leaves them. -/
def PtP (q : Fin 2031616) : Cert.Spec.Pt := PtOfP (V20 m outs c) q
/-- The second point set's. -/
def PtG (q : Fin 2031616) : Cert.Spec.Pt := PtOfG (V20 m outs c) q

/-- The contents at the second region's entry are the sixty-five stretches folded over the first region's exit contents. -/
theorem V85_eq_chain : V85 m outs c = chain (V20 m outs c) := rfl

theorem mid_idx_p (k : Fin 8) (q : Fin 2031616) :
    (V85 m outs c main_v264 : S16252928.Idx → BitVec 32) (ix1 ⟨k.val * 2031616 + q.val, by omega⟩)
      = Cert.Spec.cidx k (PtP m outs c q) :=
  mid_idx_p_W (V20 m outs c) k q _

theorem mid_w_p (k : Fin 8) (q : Fin 2031616) :
    (V85 m outs c main_v265 : S16252928.Idx → Ideal .f32) (ix1 ⟨k.val * 2031616 + q.val, by omega⟩)
      = Cert.Spec.cw k (PtP m outs c q) :=
  mid_w_p_W (V20 m outs c) k q _

theorem mid_idx_g (k : Fin 8) (q : Fin 2031616) :
    (V85 m outs c main_v490 : S16252928.Idx → BitVec 32) (ix1 ⟨k.val * 2031616 + q.val, by omega⟩)
      = Cert.Spec.cidx k (PtG m outs c q) :=
  mid_idx_g_W (V20 m outs c) k q _

theorem mid_w_g (k : Fin 8) (q : Fin 2031616) :
    (V85 m outs c main_v491 : S16252928.Idx → Ideal .f32) (ix1 ⟨k.val * 2031616 + q.val, by omega⟩)
      = Cert.Spec.cw k (PtG m outs c q) :=
  mid_w_g_W (V20 m outs c) k q _

end Cert.KernelIdeal.Hand
end
-- ==== Proof.LibScatterColumn.lean ====
/-
  A scatter of scalars into a one-axis operand, read through its dimension record.

  The record: the updates are a vector of `n` scalars (no update window axes), the operand has one axis of `V`
  positions and that axis is an inserted window axis, the scatter indices are an `[n, 1]` column whose second axis
  is the index vector (of one component, naming operand axis 0). Then update `j` lands at the position that the
  index word in row `j` of the column denotes READ SIGNED, when that is within `0 ≤ · < V`, and is dropped otherwise:
  `resultIdx?_column`. The landing map `land V` depends on the word alone — not on `n` — so two scatters of
  different lengths into the same operand land equal words at equal positions.
-/
import Idealize.ShloMosaic.PureOps.Ideal
import Idealize.ShloMosaic.Lib.ValueIdx

namespace Cert.Splat
open Idealize.ShloMosaic Idealize.ShloMosaic.ValueIdx

/-- Where a signed index word lands in a one-axis operand of `V` elements: at that position when it is in range. -/
def land (V : Nat) {w : Nat} (b : BitVec w) : Option (⟨1, ![V]⟩ : Shape).Idx :=
  if h : 0 ≤ b.toInt ∧ b.toInt < (V : Int) then some (ix1 ⟨b.toInt.toNat, by omega⟩) else none

/-- Update `j` of a scatter of `n` scalars through an `[n, 1]` index column into a one-axis operand lands where the
    word in row `j` says. -/
theorem resultIdx?_column {V n w : Nat}
    (wf : ScatterDims.WF ⟨1, ![V]⟩ ⟨2, ![n, 1]⟩ ⟨1, ![n]⟩ [] [0] [0] 1)
    (j : (⟨1, ![n]⟩ : Shape).Idx) (idx : IVec ⟨2, ![n, 1]⟩ w) :
    (⟨[], [0], [0], 1, wf⟩ : ScatterDims ⟨1, ![V]⟩ ⟨2, ![n, 1]⟩ ⟨1, ![n]⟩).resultIdx? j idx
      = land V (idx (ix2 (j 0) 0)) := by
  have hw : ∀ a, (⟨[], [0], [0], 1, wf⟩ : ScatterDims ⟨1, ![V]⟩ ⟨2, ![n, 1]⟩ ⟨1, ![n]⟩).window j a = 0 := by
    intro a
    unfold ScatterDims.window
    rw [dif_neg]
    simp [ScatterDims.sKept, Shape.kept, List.finRange]
  have hs : ∀ a, (⟨[], [0], [0], 1, wf⟩ : ScatterDims ⟨1, ![V]⟩ ⟨2, ![n, 1]⟩ ⟨1, ![n]⟩).start j idx a = (idx (ix2 (j 0) 0)).toInt := by
    intro a
    unfold ScatterDims.start
    have ha : a ∈ ([0] : List (Fin 1)) := by simp [Subsingleton.elim a 0]
    rw [dif_pos ha]
    congr 2
    funext b
    have ha0 : a = 0 := Subsingleton.elim _ _
    subst ha0
    refine Fin.ext ?_
    unfold ScatterDims.siIdx
    by_cases hb : b.val = 1
    · rw [dif_pos hb]
      have hb1 : b = 1 := Fin.ext hb
      subst hb1
      simp
      rfl
    · rw [dif_neg hb]
      have hb0 : b = 0 := Fin.ext (by have hlt : b.val < 2 := b.isLt; show b.val = 0; omega)
      subst hb0
      unfold ScatterDims.siCoord
      simp only [Fin.coe_cast]
      exact congrArg (fun x => (j x).val) (Subsingleton.elim _ _)
  unfold ScatterDims.resultIdx? land
  simp only [hw, hs]
  by_cases h : 0 ≤ (idx (ix2 (j 0) 0)).toInt ∧ (idx (ix2 (j 0) 0)).toInt < (V : Int)
  · have h' : ∀ a : Fin 1, 0 ≤ (idx (ix2 (j 0) 0)).toInt + ((0 : Nat) : Int) ∧ (idx (ix2 (j 0) 0)).toInt + ((0 : Nat) : Int) < ((![V] a : Nat) : Int) := by
      intro a
      have ha0 : a = 0 := Subsingleton.elim _ _
      subst ha0
      simpa using h
    rw [dif_pos h', dif_pos h]
    refine congrArg some (funext fun a => ?_)
    have ha0 : a = 0 := Subsingleton.elim _ _
    subst ha0
    refine Fin.ext ?_
    simp
  · have h' : ¬ ∀ a : Fin 1, 0 ≤ (idx (ix2 (j 0) 0)).toInt + ((0 : Nat) : Int) ∧ (idx (ix2 (j 0) 0)).toInt + ((0 : Nat) : Int) < ((![V] a : Nat) : Int) := by
      intro hh
      exact h (by simpa using hh 0)
    rw [dif_neg h', dif_neg h]

end Cert.Splat
-- ==== Proof.LibScatterColumnRead.lean ====
/-
  A scatter-add of scalars into a one-axis operand, read at an entry.

  The updates are a vector of n scalars, the operand a vector of V entries, the scatter indices an [n, 1] column.
  Update e lands on the entry that the e-th index word denotes READ SIGNED when that lies in 0 ≤ · < V, and is
  dropped otherwise; so entry v of the result is the operand's entry v plus the sum of the updates whose signed
  index is v (scatterAdd_column_apply). With every update equal to one this counts the edges into node v.
-/
import proofs.«106138_j14714557956152_2_alg».proof.Proof.LibScatterColumn
import Idealize.ShloMosaic.PureOps.Ideal
import Idealize.ShloMosaic.Lib.ValueIdx

noncomputable section

open scoped BigOperators

namespace Cert.LibScatterColumnRead

open Idealize.ShloMosaic Idealize.ShloMosaic.ValueIdx

/-- A rank-one index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A signed index word lands on position v exactly when its signed value is v. -/
theorem land_eq_some_iff {V w : Nat} (b : BitVec w) (v : Fin V) :
    Cert.Splat.land V b = some (ix1 v) ↔ b.toInt = (v.val : ℤ) := by
  unfold Cert.Splat.land
  split
  · rename_i h
    rw [Option.some.injEq]
    constructor
    · intro hg
      have h1 : b.toInt.toNat = v.val := congrArg (fun i : (⟨1, ![V]⟩ : Shape).Idx => (i 0).val) hg
      omega
    · intro hb
      refine congrArg ix1 (Fin.ext ?_)
      show b.toInt.toNat = v.val
      omega
  · rename_i h
    constructor
    · intro hn
      exact absurd hn (by simp)
    · intro hb
      have hv := v.isLt
      exact absurd ⟨by omega, by omega⟩ h

/-- Entry v of a scatter-add of n scalars through a column of start indices is the operand's entry plus the sum
    of the updates whose start index, taken signed, is v. -/
theorem scatterAdd_column_apply {V n w : Nat} (wf : ScatterDims.WF ⟨1, ![V]⟩ ⟨2, ![n, 1]⟩ ⟨1, ![n]⟩ [] [0] [0] 1)
    (z : (⟨1, ![V]⟩ : Shape).Idx → EReal) (idx : IVec ⟨2, ![n, 1]⟩ w) (u : (⟨1, ![n]⟩ : Shape).Idx → EReal) (v : Fin V) :
    Ideal.hostScatterAdd (⟨[], [0], [0], 1, wf⟩ : ScatterDims ⟨1, ![V]⟩ ⟨2, ![n, 1]⟩ ⟨1, ![n]⟩) z idx u (ix1 v)
      = z (ix1 v) + ∑ e : Fin n, if (idx (ix2 e 0)).toInt = (v.val : ℤ) then u (ix1 e) else 0 := by
  unfold Ideal.hostScatterAdd
  congr 1
  rw [Finset.sum_filter, sum_idx1]
  refine Finset.sum_congr rfl (fun e _ => ?_)
  beta_reduce
  have hr : (⟨[], [0], [0], 1, wf⟩ : ScatterDims ⟨1, ![V]⟩ ⟨2, ![n, 1]⟩ ⟨1, ![n]⟩).resultIdx? (ix1 e) idx
      = Cert.Splat.land V (idx (ix2 e 0)) := Cert.Splat.resultIdx?_column wf (ix1 e) idx
  rw [hr]
  by_cases hc : (idx (ix2 e 0)).toInt = (v.val : ℤ)
  · rw [if_pos hc, if_pos ((land_eq_some_iff _ v).mpr hc)]
  · rw [if_neg hc, if_neg (fun h => hc ((land_eq_some_iff _ v).mp h))]

end Cert.LibScatterColumnRead

end
-- ==== Proof.KIHostPre.lean ====
/-
  The kernel program's host operations before its first kernel call, read entry by entry.

  Each argument is a [1, 2000000, 3] array. Column a of it, padded from 2,000,000 to 2,031,616 entries with a sentinel
  (−2 for the coordinates, 0 for the two registrations) and re-laid [15872, 128] row-major, holds at (r, l) the
  argument's entry (0, r·128 + l, a) when r·128 + l < 2,000,000 and the sentinel otherwise.
-/
import proofs.«106138_j14714557956152_2_alg».proof.Proof.KernelIdealRegionsP
import proofs.«106138_j14714557956152_2_alg».proof.Proof.Spec
import proofs.«106138_j14714557956152_2_alg».proof.Proof.LibScatterColumnRead
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.PureOps.Ideal.Laws

set_option maxRecDepth 65536
set_option maxHeartbeats 4000000

noncomputable section

open scoped BigOperators

namespace Cert.KernelIdeal.Hand

open Cert.KernelIdeal Cert.KernelIdeal.Gen Cert.KernelIdeal.GenP
open Idealize.ShloMosaic Idealize.ShloMosaic.ValueIdx Idealize.ShloMosaic.TcCoe

variable (m : (ℓ : Loc nD τ sig) → Buf (Elt Ideal) ℓ)

/-! ## The host operations before the first kernel call

Each of the three [1, 2000000, 3] arguments is re-laid [2000000, 3]; each of its three columns is cut out, padded from
2,000,000 to 2,031,616 entries with a sentinel and re-laid [15872, 128]. -/

/-- Column `col` of a [1, 2000000, 3] array, padded with `z` to 2031616 entries and laid out [15872, 128] row-major:
    entry (r, l) is the array's entry r·128 + l of that column when it exists, and the padding value otherwise. -/
theorem padcol_apply {α : Type} (A : S1x2000000x3.Idx → α) (off : Fin 2 → Nat) (col : Fin 3) (hoff0 : off 0 = 0) (hoff1 : off 1 = col.val)
    (hs : S2000000x3.Slices off S2000000x1) (z : S_.Idx → α) (r : Fin 15872) (l : Fin 128) :
    shapeCast S15872x128 (pad S2031616 ![0] ![31616] ![0]
        (shapeCast S2000000 (extractStridedSlice S2000000x1 off (shapeCast S2000000x3 A shapeCasts_S1x2000000x3_S2000000x3) hs) shapeCasts_S2000000x1_S2000000)
        z pads_S2000000_S2031616_0316160 h_S_) shapeCasts_S2031616_S15872x128 (ix2 r l)
      = if h : r.val * 128 + l.val < 2000000 then A (ix3 0 ⟨r.val * 128 + l.val, h⟩ col) else z ix0 := by
  have hq : r.val * 128 + l.val < 2031616 := by have := r.isLt; have := l.isLt; omega
  refine (shapeCast_apply _ _ (ix2 r l) (ix1 ⟨r.val * 128 + l.val, hq⟩) ?_).trans ?_
  · rw [Shape.rowMajor_val_one, Shape.rowMajor_val_two]; rfl
  by_cases h : r.val * 128 + l.val < 2000000
  · rw [dif_pos h]
    refine (pad_apply_of_inside _ _ _ _ _ _ _ (ix1 ⟨r.val * 128 + l.val, hq⟩) (ix1 ⟨r.val * 128 + l.val, h⟩) ?_).trans ?_
    · intro a
      match a with
      | ⟨0, _⟩ => show r.val * 128 + l.val = 0 + (r.val * 128 + l.val) * (0 + 1); omega
    refine (shapeCast_apply _ _ _ (ix2 ⟨r.val * 128 + l.val, h⟩ (0 : Fin 1)) ?_).trans ?_
    · rw [Shape.rowMajor_val_one, Shape.rowMajor_val_two]; show (r.val * 128 + l.val) * 1 + 0 = r.val * 128 + l.val; omega
    refine (extractStridedSlice_apply off _ hs _ (ix2 ⟨r.val * 128 + l.val, h⟩ col) ?_).trans ?_
    · intro a
      match a with
      | ⟨0, _⟩ => show r.val * 128 + l.val = off 0 + (r.val * 128 + l.val); rw [hoff0]; omega
      | ⟨1, _⟩ => show col.val = off 1 + 0; rw [hoff1]; omega
    refine shapeCast_apply _ _ _ (ix3 0 ⟨r.val * 128 + l.val, h⟩ col) ?_
    rw [Shape.rowMajor_val_two, Shape.rowMajor_val_three]
    show ((0 * 2000000 + (r.val * 128 + l.val)) * 3 + col.val) = (r.val * 128 + l.val) * 3 + col.val
    omega
  · rw [dif_neg h]
    refine (pad_apply_of_not_inside _ _ _ _ _ _ _ (ix1 ⟨r.val * 128 + l.val, hq⟩) (0 : Fin 1) ?_).trans (congrArg z (eq_ix0 _))
    intro hin
    have h3 : (r.val * 128 + l.val - 0) / (0 + 1) < 2000000 := hin.2.2
    omega

/-- The chain of host operations on one column, as one term over the re-laid argument. -/
abbrev colTerm (X : S2000000x3.Idx → Ideal .f32) (off : Fin 2 → Nat) (hs : S2000000x3.Slices off S2000000x1) (b : BitVec 32) :
    S15872x128.Idx → Ideal .f32 :=
  shapeCast S15872x128 (pad S2031616 ![0] ![31616] ![0]
    (shapeCast S2000000 (extractStridedSlice S2000000x1 off X hs) shapeCasts_S2000000x1_S2000000)
    (constant (F := Ideal) S_ .f32 b) pads_S2000000_S2031616_0316160 h_S_) shapeCasts_S2031616_S15872x128

/-- The first stretch re-lays main_arg2 as [2000000, 3]. -/
theorem V1_main_v0 (c : Dev nD) : (V1 m c main_v0 : S2000000x3.Idx → Ideal .f32)
    = shapeCast S2000000x3 (m ((c : Thread nD τ).loc main_arg2) : S1x2000000x3.Idx → Ideal .f32) shapeCasts_S1x2000000x3_S2000000x3 := by
  show StableHlo.after hostOps0 (V0 m c) (Proc.devRef .tc main_v0) = _
  after_results
  rfl

/-- The first stretch re-lays main_arg0 as [2000000, 3]. -/
theorem V1_main_v1 (c : Dev nD) : (V1 m c main_v1 : S2000000x3.Idx → Ideal .f32)
    = shapeCast S2000000x3 (m ((c : Thread nD τ).loc main_arg0) : S1x2000000x3.Idx → Ideal .f32) shapeCasts_S1x2000000x3_S2000000x3 := by
  show StableHlo.after hostOps0 (V0 m c) (Proc.devRef .tc main_v1) = _
  after_results
  rfl

/-- The first stretch re-lays main_arg1 as [2000000, 3]. -/
theorem V1_main_v2 (c : Dev nD) : (V1 m c main_v2 : S2000000x3.Idx → Ideal .f32)
    = shapeCast S2000000x3 (m ((c : Thread nD τ).loc main_arg1) : S1x2000000x3.Idx → Ideal .f32) shapeCasts_S1x2000000x3_S2000000x3 := by
  show StableHlo.after hostOps0 (V0 m c) (Proc.devRef .tc main_v2) = _
  after_results
  rfl

/-- main_v6: column 0 of main_arg2, padded and re-laid. -/
theorem V19_main_v6 (c : Dev nD) : (V19 m c main_v6 : S15872x128.Idx → Ideal .f32) = colTerm (shapeCast S2000000x3 (m ((c : Thread nD τ).loc main_arg2) : S1x2000000x3.Idx → Ideal .f32) shapeCasts_S1x2000000x3_S2000000x3) ![0, 0] slices_S2000000x3_S2000000x1_0_0 0xC0000000#32 := by
  have e1 : V19 m c main_v6 = V3 m c main_v6 :=
    (V19_of m c main_v6 (by decide)).trans <| (V18_of m c main_v6 (by decide)).trans <| (V17_of m c main_v6 (by decide)).trans <| (V16_of m c main_v6 (by decide)).trans <| (V15_of m c main_v6 (by decide)).trans <| (V14_of m c main_v6 (by decide)).trans <| (V13_of m c main_v6 (by decide)).trans <| (V12_of m c main_v6 (by decide)).trans <| (V11_of m c main_v6 (by decide)).trans <| (V10_of m c main_v6 (by decide)).trans <| (V9_of m c main_v6 (by decide)).trans <| (V8_of m c main_v6 (by decide)).trans <| (V7_of m c main_v6 (by decide)).trans <| (V6_of m c main_v6 (by decide)).trans <| (V5_of m c main_v6 (by decide)).trans <| (V4_of m c main_v6 (by decide))
  rw [e1]
  show StableHlo.after hostOps0_2 (StableHlo.after hostOps0_1 (StableHlo.after hostOps0 (V0 m c))) (Proc.devRef .tc main_v6) = _
  after_results
  rfl

theorem pre_cx (c : Dev nD) (r : Fin 15872) (l : Fin 128) :
    (V19 m c main_v6 : S15872x128.Idx → Ideal .f32) (ix2 r l)
      = if h : r.val * 128 + l.val < 2000000 then (m ((c : Thread nD τ).loc main_arg2) : S1x2000000x3.Idx → Ideal .f32) (ix3 0 ⟨r.val * 128 + l.val, h⟩ 0) else Cert.Spec.cm2 := by
  rw [V19_main_v6]
  exact padcol_apply _ ![0, 0] 0 rfl rfl _ _ r l

/-- main_v10: column 1 of main_arg2, padded and re-laid. -/
theorem V19_main_v10 (c : Dev nD) : (V19 m c main_v10 : S15872x128.Idx → Ideal .f32) = colTerm (shapeCast S2000000x3 (m ((c : Thread nD τ).loc main_arg2) : S1x2000000x3.Idx → Ideal .f32) shapeCasts_S1x2000000x3_S2000000x3) ![0, 1] slices_S2000000x3_S2000000x1_0_1 0xC0000000#32 := by
  have e1 : V19 m c main_v10 = V5 m c main_v10 :=
    (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide)).trans <| (V8_of m c main_v10 (by decide)).trans <| (V7_of m c main_v10 (by decide)).trans <| (V6_of m c main_v10 (by decide))
  rw [e1]
  have e2 : (V5 m c main_v10 : S15872x128.Idx → Ideal .f32) = colTerm (V2 m c main_v0 : S2000000x3.Idx → Ideal .f32) ![0, 1] slices_S2000000x3_S2000000x1_0_1 0xC0000000#32 := by
    show StableHlo.after hostOps0_4 (StableHlo.after hostOps0_3 (StableHlo.after hostOps0_2 (V2 m c))) (Proc.devRef .tc main_v10) = _
    after_results
    rfl
  have e3 : (V2 m c main_v0 : S2000000x3.Idx → Ideal .f32) = (shapeCast S2000000x3 (m ((c : Thread nD τ).loc main_arg2) : S1x2000000x3.Idx → Ideal .f32) shapeCasts_S1x2000000x3_S2000000x3) :=
    ((V2_of m c main_v0 (by decide))).trans (V1_main_v0 m c)
  rw [e2, e3]

theorem pre_cy (c : Dev nD) (r : Fin 15872) (l : Fin 128) :
    (V19 m c main_v10 : S15872x128.Idx → Ideal .f32) (ix2 r l)
      = if h : r.val * 128 + l.val < 2000000 then (m ((c : Thread nD τ).loc main_arg2) : S1x2000000x3.Idx → Ideal .f32) (ix3 0 ⟨r.val * 128 + l.val, h⟩ 1) else Cert.Spec.cm2 := by
  rw [V19_main_v10]
  exact padcol_apply _ ![0, 1] 1 rfl rfl _ _ r l

/-- main_v14: column 2 of main_arg2, padded and re-laid. -/
theorem V19_main_v14 (c : Dev nD) : (V19 m c main_v14 : S15872x128.Idx → Ideal .f32) = colTerm (shapeCast S2000000x3 (m ((c : Thread nD τ).loc main_arg2) : S1x2000000x3.Idx → Ideal .f32) shapeCasts_S1x2000000x3_S2000000x3) ![0, 2] slices_S2000000x3_S2000000x1_0_2 0xC0000000#32 := by
  have e1 : V19 m c main_v14 = V7 m c main_v14 :=
    (V19_of m c main_v14 (by decide)).trans <| (V18_of m c main_v14 (by decide)).trans <| (V17_of m c main_v14 (by decide)).trans <| (V16_of m c main_v14 (by decide)).trans <| (V15_of m c main_v14 (by decide)).trans <| (V14_of m c main_v14 (by decide)).trans <| (V13_of m c main_v14 (by decide)).trans <| (V12_of m c main_v14 (by decide)).trans <| (V11_of m c main_v14 (by decide)).trans <| (V10_of m c main_v14 (by decide)).trans <| (V9_of m c main_v14 (by decide)).trans <| (V8_of m c main_v14 (by decide))
  rw [e1]
  have e2 : (V7 m c main_v14 : S15872x128.Idx → Ideal .f32) = colTerm (V4 m c main_v0 : S2000000x3.Idx → Ideal .f32) ![0, 2] slices_S2000000x3_S2000000x1_0_2 0xC0000000#32 := by
    show StableHlo.after hostOps0_6 (StableHlo.after hostOps0_5 (StableHlo.after hostOps0_4 (V4 m c))) (Proc.devRef .tc main_v14) = _
    after_results
    rfl
  have e3 : (V4 m c main_v0 : S2000000x3.Idx → Ideal .f32) = (shapeCast S2000000x3 (m ((c : Thread nD τ).loc main_arg2) : S1x2000000x3.Idx → Ideal .f32) shapeCasts_S1x2000000x3_S2000000x3) :=
    ((V4_of m c main_v0 (by decide)).trans <| (V3_of m c main_v0 (by decide)).trans <| (V2_of m c main_v0 (by decide))).trans (V1_main_v0 m c)
  rw [e2, e3]

theorem pre_cz (c : Dev nD) (r : Fin 15872) (l : Fin 128) :
    (V19 m c main_v14 : S15872x128.Idx → Ideal .f32) (ix2 r l)
      = if h : r.val * 128 + l.val < 2000000 then (m ((c : Thread nD τ).loc main_arg2) : S1x2000000x3.Idx → Ideal .f32) (ix3 0 ⟨r.val * 128 + l.val, h⟩ 2) else Cert.Spec.cm2 := by
  rw [V19_main_v14]
  exact padcol_apply _ ![0, 2] 2 rfl rfl _ _ r l

/-- main_v18: column 0 of main_arg0, padded and re-laid. -/
theorem V19_main_v18 (c : Dev nD) : (V19 m c main_v18 : S15872x128.Idx → Ideal .f32) = colTerm (shapeCast S2000000x3 (m ((c : Thread nD τ).loc main_arg0) : S1x2000000x3.Idx → Ideal .f32) shapeCasts_S1x2000000x3_S2000000x3) ![0, 0] slices_S2000000x3_S2000000x1_0_0 0x00000000#32 := by
  have e1 : V19 m c main_v18 = V9 m c main_v18 :=
    (V19_of m c main_v18 (by decide)).trans <| (V18_of m c main_v18 (by decide)).trans <| (V17_of m c main_v18 (by decide)).trans <| (V16_of m c main_v18 (by decide)).trans <| (V15_of m c main_v18 (by decide)).trans <| (V14_of m c main_v18 (by decide)).trans <| (V13_of m c main_v18 (by decide)).trans <| (V12_of m c main_v18 (by decide)).trans <| (V11_of m c main_v18 (by decide)).trans <| (V10_of m c main_v18 (by decide))
  rw [e1]
  have e2 : (V9 m c main_v18 : S15872x128.Idx → Ideal .f32) = colTerm (V6 m c main_v1 : S2000000x3.Idx → Ideal .f32) ![0, 0] slices_S2000000x3_S2000000x1_0_0 0x00000000#32 := by
    show StableHlo.after hostOps0_8 (StableHlo.after hostOps0_7 (StableHlo.after hostOps0_6 (V6 m c))) (Proc.devRef .tc main_v18) = _
    after_results
    rfl
  have e3 : (V6 m c main_v1 : S2000000x3.Idx → Ideal .f32) = (shapeCast S2000000x3 (m ((c : Thread nD τ).loc main_arg0) : S1x2000000x3.Idx → Ideal .f32) shapeCasts_S1x2000000x3_S2000000x3) :=
    ((V6_of m c main_v1 (by decide)).trans <| (V5_of m c main_v1 (by decide)).trans <| (V4_of m c main_v1 (by decide)).trans <| (V3_of m c main_v1 (by decide)).trans <| (V2_of m c main_v1 (by decide))).trans (V1_main_v1 m c)
  rw [e2, e3]

theorem pre_px (c : Dev nD) (r : Fin 15872) (l : Fin 128) :
    (V19 m c main_v18 : S15872x128.Idx → Ideal .f32) (ix2 r l)
      = if h : r.val * 128 + l.val < 2000000 then (m ((c : Thread nD τ).loc main_arg0) : S1x2000000x3.Idx → Ideal .f32) (ix3 0 ⟨r.val * 128 + l.val, h⟩ 0) else Cert.Spec.c0 := by
  rw [V19_main_v18]
  exact padcol_apply _ ![0, 0] 0 rfl rfl _ _ r l

/-- main_v22: column 1 of main_arg0, padded and re-laid. -/
theorem V19_main_v22 (c : Dev nD) : (V19 m c main_v22 : S15872x128.Idx → Ideal .f32) = colTerm (shapeCast S2000000x3 (m ((c : Thread nD τ).loc main_arg0) : S1x2000000x3.Idx → Ideal .f32) shapeCasts_S1x2000000x3_S2000000x3) ![0, 1] slices_S2000000x3_S2000000x1_0_1 0x00000000#32 := by
  have e1 : V19 m c main_v22 = V11 m c main_v22 :=
    (V19_of m c main_v22 (by decide)).trans <| (V18_of m c main_v22 (by decide)).trans <| (V17_of m c main_v22 (by decide)).trans <| (V16_of m c main_v22 (by decide)).trans <| (V15_of m c main_v22 (by decide)).trans <| (V14_of m c main_v22 (by decide)).trans <| (V13_of m c main_v22 (by decide)).trans <| (V12_of m c main_v22 (by decide))
  rw [e1]
  have e2 : (V11 m c main_v22 : S15872x128.Idx → Ideal .f32) = colTerm (V8 m c main_v1 : S2000000x3.Idx → Ideal .f32) ![0, 1] slices_S2000000x3_S2000000x1_0_1 0x00000000#32 := by
    show StableHlo.after hostOps0_10 (StableHlo.after hostOps0_9 (StableHlo.after hostOps0_8 (V8 m c))) (Proc.devRef .tc main_v22) = _
    after_results
    rfl
  have e3 : (V8 m c main_v1 : S2000000x3.Idx → Ideal .f32) = (shapeCast S2000000x3 (m ((c : Thread nD τ).loc main_arg0) : S1x2000000x3.Idx → Ideal .f32) shapeCasts_S1x2000000x3_S2000000x3) :=
    ((V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide))).trans (V1_main_v1 m c)
  rw [e2, e3]

theorem pre_py (c : Dev nD) (r : Fin 15872) (l : Fin 128) :
    (V19 m c main_v22 : S15872x128.Idx → Ideal .f32) (ix2 r l)
      = if h : r.val * 128 + l.val < 2000000 then (m ((c : Thread nD τ).loc main_arg0) : S1x2000000x3.Idx → Ideal .f32) (ix3 0 ⟨r.val * 128 + l.val, h⟩ 1) else Cert.Spec.c0 := by
  rw [V19_main_v22]
  exact padcol_apply _ ![0, 1] 1 rfl rfl _ _ r l

/-- main_v26: column 2 of main_arg0, padded and re-laid. -/
theorem V19_main_v26 (c : Dev nD) : (V19 m c main_v26 : S15872x128.Idx → Ideal .f32) = colTerm (shapeCast S2000000x3 (m ((c : Thread nD τ).loc main_arg0) : S1x2000000x3.Idx → Ideal .f32) shapeCasts_S1x2000000x3_S2000000x3) ![0, 2] slices_S2000000x3_S2000000x1_0_2 0x00000000#32 := by
  have e1 : V19 m c main_v26 = V13 m c main_v26 :=
    (V19_of m c main_v26 (by decide)).trans <| (V18_of m c main_v26 (by decide)).trans <| (V17_of m c main_v26 (by decide)).trans <| (V16_of m c main_v26 (by decide)).trans <| (V15_of m c main_v26 (by decide)).trans <| (V14_of m c main_v26 (by decide))
  rw [e1]
  have e2 : (V13 m c main_v26 : S15872x128.Idx → Ideal .f32) = colTerm (V10 m c main_v1 : S2000000x3.Idx → Ideal .f32) ![0, 2] slices_S2000000x3_S2000000x1_0_2 0x00000000#32 := by
    show StableHlo.after hostOps0_12 (StableHlo.after hostOps0_11 (StableHlo.after hostOps0_10 (V10 m c))) (Proc.devRef .tc main_v26) = _
    after_results
    rfl
  have e3 : (V10 m c main_v1 : S2000000x3.Idx → Ideal .f32) = (shapeCast S2000000x3 (m ((c : Thread nD τ).loc main_arg0) : S1x2000000x3.Idx → Ideal .f32) shapeCasts_S1x2000000x3_S2000000x3) :=
    ((V10_of m c main_v1 (by decide)).trans <| (V9_of m c main_v1 (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide))).trans (V1_main_v1 m c)
  rw [e2, e3]

theorem pre_pz (c : Dev nD) (r : Fin 15872) (l : Fin 128) :
    (V19 m c main_v26 : S15872x128.Idx → Ideal .f32) (ix2 r l)
      = if h : r.val * 128 + l.val < 2000000 then (m ((c : Thread nD τ).loc main_arg0) : S1x2000000x3.Idx → Ideal .f32) (ix3 0 ⟨r.val * 128 + l.val, h⟩ 2) else Cert.Spec.c0 := by
  rw [V19_main_v26]
  exact padcol_apply _ ![0, 2] 2 rfl rfl _ _ r l

/-- main_v30: column 0 of main_arg1, padded and re-laid. -/
theorem V19_main_v30 (c : Dev nD) : (V19 m c main_v30 : S15872x128.Idx → Ideal .f32) = colTerm (shapeCast S2000000x3 (m ((c : Thread nD τ).loc main_arg1) : S1x2000000x3.Idx → Ideal .f32) shapeCasts_S1x2000000x3_S2000000x3) ![0, 0] slices_S2000000x3_S2000000x1_0_0 0x00000000#32 := by
  have e1 : V19 m c main_v30 = V15 m c main_v30 :=
    (V19_of m c main_v30 (by decide)).trans <| (V18_of m c main_v30 (by decide)).trans <| (V17_of m c main_v30 (by decide)).trans <| (V16_of m c main_v30 (by decide))
  rw [e1]
  have e2 : (V15 m c main_v30 : S15872x128.Idx → Ideal .f32) = colTerm (V12 m c main_v2 : S2000000x3.Idx → Ideal .f32) ![0, 0] slices_S2000000x3_S2000000x1_0_0 0x00000000#32 := by
    show StableHlo.after hostOps0_14 (StableHlo.after hostOps0_13 (StableHlo.after hostOps0_12 (V12 m c))) (Proc.devRef .tc main_v30) = _
    after_results
    rfl
  have e3 : (V12 m c main_v2 : S2000000x3.Idx → Ideal .f32) = (shapeCast S2000000x3 (m ((c : Thread nD τ).loc main_arg1) : S1x2000000x3.Idx → Ideal .f32) shapeCasts_S1x2000000x3_S2000000x3) :=
    ((V12_of m c main_v2 (by decide)).trans <| (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide)).trans <| (V4_of m c main_v2 (by decide)).trans <| (V3_of m c main_v2 (by decide)).trans <| (V2_of m c main_v2 (by decide))).trans (V1_main_v2 m c)
  rw [e2, e3]

theorem pre_gx (c : Dev nD) (r : Fin 15872) (l : Fin 128) :
    (V19 m c main_v30 : S15872x128.Idx → Ideal .f32) (ix2 r l)
      = if h : r.val * 128 + l.val < 2000000 then (m ((c : Thread nD τ).loc main_arg1) : S1x2000000x3.Idx → Ideal .f32) (ix3 0 ⟨r.val * 128 + l.val, h⟩ 0) else Cert.Spec.c0 := by
  rw [V19_main_v30]
  exact padcol_apply _ ![0, 0] 0 rfl rfl _ _ r l

/-- main_v34: column 1 of main_arg1, padded and re-laid. -/
theorem V19_main_v34 (c : Dev nD) : (V19 m c main_v34 : S15872x128.Idx → Ideal .f32) = colTerm (shapeCast S2000000x3 (m ((c : Thread nD τ).loc main_arg1) : S1x2000000x3.Idx → Ideal .f32) shapeCasts_S1x2000000x3_S2000000x3) ![0, 1] slices_S2000000x3_S2000000x1_0_1 0x00000000#32 := by
  have e1 : V19 m c main_v34 = V17 m c main_v34 :=
    (V19_of m c main_v34 (by decide)).trans <| (V18_of m c main_v34 (by decide))
  rw [e1]
  have e2 : (V17 m c main_v34 : S15872x128.Idx → Ideal .f32) = colTerm (V14 m c main_v2 : S2000000x3.Idx → Ideal .f32) ![0, 1] slices_S2000000x3_S2000000x1_0_1 0x00000000#32 := by
    show StableHlo.after hostOps0_16 (StableHlo.after hostOps0_15 (StableHlo.after hostOps0_14 (V14 m c))) (Proc.devRef .tc main_v34) = _
    after_results
    rfl
  have e3 : (V14 m c main_v2 : S2000000x3.Idx → Ideal .f32) = (shapeCast S2000000x3 (m ((c : Thread nD τ).loc main_arg1) : S1x2000000x3.Idx → Ideal .f32) shapeCasts_S1x2000000x3_S2000000x3) :=
    ((V14_of m c main_v2 (by decide)).trans <| (V13_of m c main_v2 (by decide)).trans <| (V12_of m c main_v2 (by decide)).trans <| (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide)).trans <| (V4_of m c main_v2 (by decide)).trans <| (V3_of m c main_v2 (by decide)).trans <| (V2_of m c main_v2 (by decide))).trans (V1_main_v2 m c)
  rw [e2, e3]

theorem pre_gy (c : Dev nD) (r : Fin 15872) (l : Fin 128) :
    (V19 m c main_v34 : S15872x128.Idx → Ideal .f32) (ix2 r l)
      = if h : r.val * 128 + l.val < 2000000 then (m ((c : Thread nD τ).loc main_arg1) : S1x2000000x3.Idx → Ideal .f32) (ix3 0 ⟨r.val * 128 + l.val, h⟩ 1) else Cert.Spec.c0 := by
  rw [V19_main_v34]
  exact padcol_apply _ ![0, 1] 1 rfl rfl _ _ r l

/-- main_v38: column 2 of main_arg1, padded and re-laid. -/
theorem V19_main_v38 (c : Dev nD) : (V19 m c main_v38 : S15872x128.Idx → Ideal .f32) = colTerm (shapeCast S2000000x3 (m ((c : Thread nD τ).loc main_arg1) : S1x2000000x3.Idx → Ideal .f32) shapeCasts_S1x2000000x3_S2000000x3) ![0, 2] slices_S2000000x3_S2000000x1_0_2 0x00000000#32 := by
  have e2 : (V19 m c main_v38 : S15872x128.Idx → Ideal .f32) = colTerm (V16 m c main_v2 : S2000000x3.Idx → Ideal .f32) ![0, 2] slices_S2000000x3_S2000000x1_0_2 0x00000000#32 := by
    show StableHlo.after hostOps0_18 (StableHlo.after hostOps0_17 (StableHlo.after hostOps0_16 (V16 m c))) (Proc.devRef .tc main_v38) = _
    after_results
    rfl
  have e3 : (V16 m c main_v2 : S2000000x3.Idx → Ideal .f32) = (shapeCast S2000000x3 (m ((c : Thread nD τ).loc main_arg1) : S1x2000000x3.Idx → Ideal .f32) shapeCasts_S1x2000000x3_S2000000x3) :=
    ((V16_of m c main_v2 (by decide)).trans <| (V15_of m c main_v2 (by decide)).trans <| (V14_of m c main_v2 (by decide)).trans <| (V13_of m c main_v2 (by decide)).trans <| (V12_of m c main_v2 (by decide)).trans <| (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide)).trans <| (V4_of m c main_v2 (by decide)).trans <| (V3_of m c main_v2 (by decide)).trans <| (V2_of m c main_v2 (by decide))).trans (V1_main_v2 m c)
  rw [e2, e3]

theorem pre_gz (c : Dev nD) (r : Fin 15872) (l : Fin 128) :
    (V19 m c main_v38 : S15872x128.Idx → Ideal .f32) (ix2 r l)
      = if h : r.val * 128 + l.val < 2000000 then (m ((c : Thread nD τ).loc main_arg1) : S1x2000000x3.Idx → Ideal .f32) (ix3 0 ⟨r.val * 128 + l.val, h⟩ 2) else Cert.Spec.c0 := by
  rw [V19_main_v38]
  exact padcol_apply _ ![0, 2] 2 rfl rfl _ _ r l

end Cert.KernelIdeal.Hand
end
-- ==== Proof.KIHostScatter.lean ====
/-
  The last stretch of host operations before the second kernel call: the merged scatter-add, read entry by entry.

  The first point set's index vector (16,252,928 words) is followed by the second set's moved up by 2,097,152; the
  weight vectors are concatenated the same way. Indices below zero would be moved up by 4,194,304 (the host's
  negative-index normalization); on non-negative indices that is the identity. Zeros of 4,194,304 entries take every
  weight at its index; the two halves, re-laid [16384, 128], are the two splats: entry (r, l) of the first half is the
  sum of the weights whose index is r·128 + l, entry (r, l) of the second the sum of those whose index is
  2,097,152 + r·128 + l.
-/
import proofs.«106138_j14714557956152_2_alg».proof.Proof.KernelIdealRegionsP
import proofs.«106138_j14714557956152_2_alg».proof.Proof.Spec
import proofs.«106138_j14714557956152_2_alg».proof.Proof.LibScatterColumnRead
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run
import Idealize.ShloMosaic.PureOps.Ideal.Laws

set_option maxRecDepth 65536

noncomputable section

open scoped BigOperators

namespace Cert.KernelIdeal.Hand

open Cert.KernelIdeal Cert.KernelIdeal.Gen Cert.KernelIdeal.GenP
open Idealize.ShloMosaic Idealize.ShloMosaic.ValueIdx Idealize.ShloMosaic.TcCoe
set_option maxHeartbeats 4000000

/-- The concatenated index vector before normalization: the first set's indices, then the second set's moved up by 2097152. -/
def Icat (i264 i490 : S16252928.Idx → BitVec 32) (u : Fin 32505856) : BitVec 32 :=
  if h : u.val < 16252928 then i264 (ix1 ⟨u.val, h⟩) else i490 (ix1 ⟨u.val - 16252928, by have := u.isLt; omega⟩) + 2097152#32

/-- The concatenated weight vector. -/
def Wcat (w265 w491 : S16252928.Idx → Ideal .f32) (u : Fin 32505856) : Ideal .f32 :=
  if h : u.val < 16252928 then w265 (ix1 ⟨u.val, h⟩) else w491 (ix1 ⟨u.val - 16252928, by have := u.isLt; omega⟩)

/-- The index vector as the program builds it. -/
abbrev catI (i264 i490 : S16252928.Idx → BitVec 32) : S32505856.Idx → BitVec 32 :=
  concatenate S32505856 0 [⟨S16252928, i264⟩, ⟨S16252928, addi i490 (broadcastInDim S16252928 ![] bcast_S_S16252928 (constantI S_ 32 2097152#32))⟩]
    concatenates_S16252928_S16252928_S32505856_d0

/-- The weight vector as the program builds it. -/
abbrev catW (w265 w491 : S16252928.Idx → Ideal .f32) : S32505856.Idx → Ideal .f32 :=
  concatenate S32505856 0 [⟨S16252928, w265⟩, ⟨S16252928, w491⟩] concatenates_S16252928_S16252928_S32505856_d0

theorem catI_apply (i264 i490 : S16252928.Idx → BitVec 32) (u : Fin 32505856) : catI i264 i490 (ix1 u) = Icat i264 i490 u := by
  unfold Icat
  by_cases h : u.val < 16252928
  · rw [dif_pos h]
    exact concatenate_pair_apply_left (t := S32505856) (s₁ := S16252928) (s₂ := S16252928) 0 _ _ _ (ix1 u) rfl (ix1 (⟨u.val, h⟩ : Fin 16252928)) (fun b => by match b with | ⟨0, _⟩ => rfl)
  · rw [dif_neg h]
    have hu : u.val - 16252928 < 16252928 := by have := u.isLt; omega
    refine (concatenate_pair_apply_right (t := S32505856) (s₁ := S16252928) (s₂ := S16252928) 0 _ _ _ (ix1 u) rfl rfl (ix1 (⟨u.val - 16252928, hu⟩ : Fin 16252928))
      (fun b hb => absurd (by match b with | ⟨0, _⟩ => rfl) hb) ?_).trans ?_
    · show (u.val - 16252928) + 16252928 = u.val; omega
    · show IntOp.addi (i490 (ix1 (⟨u.val - 16252928, hu⟩ : Fin 16252928))) _ = _
      rw [broadcastInDim_scalar_apply]
      rfl

theorem catW_apply (w265 w491 : S16252928.Idx → Ideal .f32) (u : Fin 32505856) : catW w265 w491 (ix1 u) = Wcat w265 w491 u := by
  unfold Wcat
  by_cases h : u.val < 16252928
  · rw [dif_pos h]
    exact concatenate_pair_apply_left (t := S32505856) (s₁ := S16252928) (s₂ := S16252928) 0 _ _ _ (ix1 u) rfl (ix1 (⟨u.val, h⟩ : Fin 16252928)) (fun b => by match b with | ⟨0, _⟩ => rfl)
  · rw [dif_neg h]
    have hu : u.val - 16252928 < 16252928 := by have := u.isLt; omega
    refine concatenate_pair_apply_right (t := S32505856) (s₁ := S16252928) (s₂ := S16252928) 0 _ _ _ (ix1 u) rfl rfl (ix1 (⟨u.val - 16252928, hu⟩ : Fin 16252928))
      (fun b hb => absurd (by match b with | ⟨0, _⟩ => rfl) hb) ?_
    show (u.val - 16252928) + 16252928 = u.val; omega

/-- A non-negative index is left alone by the negative-index normalization. -/
theorem norm_id (x : BitVec 32) (h : 0 ≤ x.toInt) : Scalar.select (IntOp.cmpi .slt x 0#32) (IntOp.addi x 4194304#32) x = x := by
  have hs : x.slt 0#32 = false := by
    simp only [BitVec.slt, decide_eq_false_iff_not, not_lt]; simpa using h
  have hc : IntOp.cmpi .slt x 0#32 = 0#1 := by
    show BitVec.ofBool (x.slt 0#32) = 0#1
    rw [hs]; rfl
  rw [hc]; exact select_zero _ _

/-- The merged scatter as the program builds it from the two index vectors and the two weight vectors: zeros of
    4194304 entries, plus every weight at its normalized index. -/
abbrev scatTerm (i264 i490 : S16252928.Idx → BitVec 32) (w265 w491 : S16252928.Idx → Ideal .f32) : S4194304.Idx → Ideal .f32 :=
  Host.scatterAdd scatter_S4194304_S32505856x1_S32505856_n_0_0_1
    (broadcastInDim S4194304 ![] bcast_S_S4194304 (constant (F := Ideal) S_ .f32 0x00000000#32))
    (broadcastInDim S32505856x1 ![0] bcast_S32505856_S32505856x1_0
      (select (cmpi .slt (catI i264 i490) (broadcastInDim S32505856 ![] bcast_S_S32505856 (constantI S_ 32 0#32)))
        (addi (catI i264 i490) (broadcastInDim S32505856 ![] bcast_S_S32505856 (constantI S_ 32 4194304#32)))
        (catI i264 i490)))
    (catW w265 w491)

/-- The host's accumulating scatter is the exact sum, at any shapes. -/
theorem host_scatterAdd_eq {s si su : Shape} {w : Nat} (d : ScatterDims s si su) (x : FVec Ideal s .f32) (idx : IVec si w)
    (upd : FVec Ideal su .f32) : Host.scatterAdd d x idx upd = Ideal.hostScatterAdd d x idx upd := rfl

/-- The program's scatter at an entry: the operand's entry plus the updates whose index, read signed, is the entry. -/
theorem scat_apply (z : S4194304.Idx → Ideal .f32) (idx : IVec S32505856x1 32) (upd : S32505856.Idx → Ideal .f32) (v : Fin 4194304) :
    Host.scatterAdd scatter_S4194304_S32505856x1_S32505856_n_0_0_1 z idx upd (ix1 v)
      = z (ix1 v) + ∑ e : Fin 32505856, if (idx (ix2 e 0)).toInt = (v.val : ℤ) then upd (ix1 e) else 0 := by
  rw [host_scatterAdd_eq]
  exact Cert.LibScatterColumnRead.scatterAdd_column_apply (V := 4194304) (n := 32505856) (w := 32)
    scatter_S4194304_S32505856x1_S32505856_n_0_0_1_wf z idx upd v

/-- The merged scatter at an entry: zero plus the weights whose index, read signed, is the entry. -/
theorem scatTerm_apply (i264 i490 : S16252928.Idx → BitVec 32) (w265 w491 : S16252928.Idx → Ideal .f32)
    (hI : ∀ u, 0 ≤ (Icat i264 i490 u).toInt) (v : Fin 4194304) :
    scatTerm i264 i490 w265 w491 (ix1 v)
      = Cert.Spec.c0 + ∑ u : Fin 32505856, if (Icat i264 i490 u).toInt = (v.val : ℤ) then Wcat w265 w491 u else 0 := by
  refine (scat_apply _ _ _ v).trans ?_
  refine congrArg₂ (· + ·) ?_ (Finset.sum_congr rfl fun u _ => ?_)
  · rw [broadcastInDim_scalar_apply]; rfl
  · have hidx : broadcastInDim S32505856x1 ![0] bcast_S32505856_S32505856x1_0
          (select (cmpi .slt (catI i264 i490) (broadcastInDim S32505856 ![] bcast_S_S32505856 (constantI S_ 32 0#32)))
            (addi (catI i264 i490) (broadcastInDim S32505856 ![] bcast_S_S32505856 (constantI S_ 32 4194304#32)))
            (catI i264 i490)) (ix2 u 0) = Icat i264 i490 u := by
      refine (broadcastInDim_apply _ _ _ (ix2 u (0 : Fin 1)) (ix1 u) ?_).trans ?_
      · intro a
        match a with
        | ⟨0, _⟩ => rfl
      · show Scalar.select (IntOp.cmpi .slt (catI i264 i490 (ix1 u)) (broadcastInDim S32505856 ![] bcast_S_S32505856 (constantI S_ 32 0#32) (ix1 u)))
            (IntOp.addi (catI i264 i490 (ix1 u)) (broadcastInDim S32505856 ![] bcast_S_S32505856 (constantI S_ 32 4194304#32) (ix1 u)))
            (catI i264 i490 (ix1 u)) = _
        rw [broadcastInDim_scalar_apply, broadcastInDim_scalar_apply, catI_apply]
        exact norm_id _ (hI u)
    rw [hidx, catW_apply]

/-- The first half of the merged scatter, re-laid [16384, 128]. -/
theorem half0_apply (i264 i490 : S16252928.Idx → BitVec 32) (w265 w491 : S16252928.Idx → Ideal .f32)
    (hI : ∀ u, 0 ≤ (Icat i264 i490 u).toInt) (r : Fin 16384) (l : Fin 128) :
    shapeCast S16384x128 (extractStridedSlice S2097152 ![0] (scatTerm i264 i490 w265 w491) slices_S4194304_S2097152_0)
        shapeCasts_S2097152_S16384x128 (ix2 r l)
      = Cert.Spec.c0 + ∑ u : Fin 32505856,
          if (Icat i264 i490 u).toInt = ((r.val * 128 + l.val : ℕ) : ℤ) then Wcat w265 w491 u else 0 := by
  have hq : r.val * 128 + l.val < 2097152 := by have := r.isLt; have := l.isLt; omega
  refine (shapeCast_apply _ _ (ix2 r l) (ix1 (⟨r.val * 128 + l.val, hq⟩ : Fin 2097152)) ?_).trans ?_
  · rw [Shape.rowMajor_val_one, Shape.rowMajor_val_two]; rfl
  refine (extractStridedSlice_apply _ _ _ (ix1 (⟨r.val * 128 + l.val, hq⟩ : Fin 2097152))
    (ix1 (⟨r.val * 128 + l.val, by omega⟩ : Fin 4194304)) ?_).trans ?_
  · intro a
    match a with
    | ⟨0, _⟩ => show r.val * 128 + l.val = 0 + (r.val * 128 + l.val); omega
  exact scatTerm_apply i264 i490 w265 w491 hI ⟨r.val * 128 + l.val, by omega⟩

/-- The second half of the merged scatter, re-laid [16384, 128]. -/
theorem half1_apply (i264 i490 : S16252928.Idx → BitVec 32) (w265 w491 : S16252928.Idx → Ideal .f32)
    (hI : ∀ u, 0 ≤ (Icat i264 i490 u).toInt) (r : Fin 16384) (l : Fin 128) :
    shapeCast S16384x128 (extractStridedSlice S2097152 ![2097152] (scatTerm i264 i490 w265 w491) slices_S4194304_S2097152_2097152)
        shapeCasts_S2097152_S16384x128 (ix2 r l)
      = Cert.Spec.c0 + ∑ u : Fin 32505856,
          if (Icat i264 i490 u).toInt = ((2097152 + r.val * 128 + l.val : ℕ) : ℤ) then Wcat w265 w491 u else 0 := by
  have hq : r.val * 128 + l.val < 2097152 := by have := r.isLt; have := l.isLt; omega
  refine (shapeCast_apply _ _ (ix2 r l) (ix1 (⟨r.val * 128 + l.val, hq⟩ : Fin 2097152)) ?_).trans ?_
  · rw [Shape.rowMajor_val_one, Shape.rowMajor_val_two]; rfl
  refine (extractStridedSlice_apply _ _ _ (ix1 (⟨r.val * 128 + l.val, hq⟩ : Fin 2097152))
    (ix1 (⟨2097152 + r.val * 128 + l.val, by omega⟩ : Fin 4194304)) ?_).trans ?_
  · intro a
    match a with
    | ⟨0, _⟩ => show 2097152 + r.val * 128 + l.val = 2097152 + (r.val * 128 + l.val); omega
  exact scatTerm_apply i264 i490 w265 w491 hI ⟨2097152 + r.val * 128 + l.val, by omega⟩

/-! ## The stretch itself

Its first four operations build the second set's two vectors; the other twenty are read over whatever contents
the first four leave. -/

theorem tail_v506 (W : Valuation τ sig (Elt Ideal)) :
    (StableHlo.after (List.drop 4 (hostOps1_64 : List (HloOp τ sig (Elt Ideal)))) W (Proc.devRef .tc main_v506) : S16384x128.Idx → Ideal .f32)
      = shapeCast S16384x128 (extractStridedSlice S2097152 ![0]
          (scatTerm (W main_v264) (W main_v490) (W main_v265) (W main_v491)) slices_S4194304_S2097152_0) shapeCasts_S2097152_S16384x128 := by
  simp only [hostOps1_64, List.drop_succ_cons, List.drop_zero]
  after_results_simp
  rfl

theorem tail_v507 (W : Valuation τ sig (Elt Ideal)) :
    (StableHlo.after (List.drop 4 (hostOps1_64 : List (HloOp τ sig (Elt Ideal)))) W (Proc.devRef .tc main_v507) : S16384x128.Idx → Ideal .f32)
      = shapeCast S16384x128 (extractStridedSlice S2097152 ![2097152]
          (scatTerm (W main_v264) (W main_v490) (W main_v265) (W main_v491)) slices_S4194304_S2097152_2097152) shapeCasts_S2097152_S16384x128 := by
  simp only [hostOps1_64, List.drop_succ_cons, List.drop_zero]
  after_results_simp
  rfl

theorem tail_keep_main_v264 (W : Valuation τ sig (Elt Ideal)) :
    StableHlo.after (List.drop 4 (hostOps1_64 : List (HloOp τ sig (Elt Ideal)))) W (Proc.devRef .tc main_v264) = W (Proc.devRef .tc main_v264) := by
  simp only [hostOps1_64, List.drop_succ_cons, List.drop_zero]
  after_results_simp

theorem tail_keep_main_v265 (W : Valuation τ sig (Elt Ideal)) :
    StableHlo.after (List.drop 4 (hostOps1_64 : List (HloOp τ sig (Elt Ideal)))) W (Proc.devRef .tc main_v265) = W (Proc.devRef .tc main_v265) := by
  simp only [hostOps1_64, List.drop_succ_cons, List.drop_zero]
  after_results_simp

theorem tail_keep_main_v490 (W : Valuation τ sig (Elt Ideal)) :
    StableHlo.after (List.drop 4 (hostOps1_64 : List (HloOp τ sig (Elt Ideal)))) W (Proc.devRef .tc main_v490) = W (Proc.devRef .tc main_v490) := by
  simp only [hostOps1_64, List.drop_succ_cons, List.drop_zero]
  after_results_simp

theorem tail_keep_main_v491 (W : Valuation τ sig (Elt Ideal)) :
    StableHlo.after (List.drop 4 (hostOps1_64 : List (HloOp τ sig (Elt Ideal)))) W (Proc.devRef .tc main_v491) = W (Proc.devRef .tc main_v491) := by
  simp only [hostOps1_64, List.drop_succ_cons, List.drop_zero]
  after_results_simp

variable (m : (ℓ : Loc nD τ sig) → Buf (Elt Ideal) ℓ) (outs : Outs (F := Ideal))

/-- The first splat's array as the merged scatter of the four vectors the stretch ends with. -/
theorem V85_main_v506 (c : Dev nD) : (V85 m outs c main_v506 : S16384x128.Idx → Ideal .f32)
    = shapeCast S16384x128 (extractStridedSlice S2097152 ![0]
        (scatTerm (V85 m outs c main_v264) (V85 m outs c main_v490) (V85 m outs c main_v265) (V85 m outs c main_v491))
        slices_S4194304_S2097152_0) shapeCasts_S2097152_S16384x128 := by
  have e : V85 m outs c = StableHlo.after (List.drop 4 hostOps1_64) (StableHlo.after (List.take 4 hostOps1_64) (V84 m outs c)) := rfl
  generalize StableHlo.after (List.take 4 hostOps1_64) (V84 m outs c) = W at e
  rw [e, tail_v506 W, tail_keep_main_v264 W, tail_keep_main_v265 W, tail_keep_main_v490 W, tail_keep_main_v491 W]

/-- The second splat's array likewise. -/
theorem V85_main_v507 (c : Dev nD) : (V85 m outs c main_v507 : S16384x128.Idx → Ideal .f32)
    = shapeCast S16384x128 (extractStridedSlice S2097152 ![2097152]
        (scatTerm (V85 m outs c main_v264) (V85 m outs c main_v490) (V85 m outs c main_v265) (V85 m outs c main_v491))
        slices_S4194304_S2097152_2097152) shapeCasts_S2097152_S16384x128 := by
  have e : V85 m outs c = StableHlo.after (List.drop 4 hostOps1_64) (StableHlo.after (List.take 4 hostOps1_64) (V84 m outs c)) := rfl
  generalize StableHlo.after (List.take 4 hostOps1_64) (V84 m outs c) = W at e
  rw [e, tail_v507 W, tail_keep_main_v264 W, tail_keep_main_v265 W, tail_keep_main_v490 W, tail_keep_main_v491 W]

/-- Entry (r, l) of the first splat's array: the weights whose index is r·128 + l. -/
theorem scatter_value_lo (c : Dev nD)
    (hI : ∀ u, 0 ≤ (Icat (V85 m outs c main_v264) (V85 m outs c main_v490) u).toInt) (r : Fin 16384) (l : Fin 128) :
    (V85 m outs c main_v506 : S16384x128.Idx → Ideal .f32) (ix2 r l)
      = Cert.Spec.c0 + ∑ u : Fin 32505856,
          if (Icat (V85 m outs c main_v264) (V85 m outs c main_v490) u).toInt = ((r.val * 128 + l.val : ℕ) : ℤ)
          then Wcat (V85 m outs c main_v265) (V85 m outs c main_v491) u else 0 := by
  rw [V85_main_v506]
  exact half0_apply _ _ _ _ hI r l

/-- Entry (r, l) of the second splat's array: the weights whose index is 2,097,152 + r·128 + l. -/
theorem scatter_value_hi (c : Dev nD)
    (hI : ∀ u, 0 ≤ (Icat (V85 m outs c main_v264) (V85 m outs c main_v490) u).toInt) (r : Fin 16384) (l : Fin 128) :
    (V85 m outs c main_v507 : S16384x128.Idx → Ideal .f32) (ix2 r l)
      = Cert.Spec.c0 + ∑ u : Fin 32505856,
          if (Icat (V85 m outs c main_v264) (V85 m outs c main_v490) u).toInt = ((2097152 + r.val * 128 + l.val : ℕ) : ℤ)
          then Wcat (V85 m outs c main_v265) (V85 m outs c main_v491) u else 0 := by
  rw [V85_main_v507]
  exact half1_apply _ _ _ _ hI r l

/-- Both halves. -/
theorem scatter_value (c : Dev nD)
    (hI : ∀ u, 0 ≤ (Icat (V85 m outs c main_v264) (V85 m outs c main_v490) u).toInt) (r : Fin 16384) (l : Fin 128) :
    ((V85 m outs c main_v506 : S16384x128.Idx → Ideal .f32) (ix2 r l)
        = Cert.Spec.c0 + ∑ u : Fin 32505856,
            if (Icat (V85 m outs c main_v264) (V85 m outs c main_v490) u).toInt = ((r.val * 128 + l.val : ℕ) : ℤ)
            then Wcat (V85 m outs c main_v265) (V85 m outs c main_v491) u else 0)
      ∧ ((V85 m outs c main_v507 : S16384x128.Idx → Ideal .f32) (ix2 r l)
        = Cert.Spec.c0 + ∑ u : Fin 32505856,
            if (Icat (V85 m outs c main_v264) (V85 m outs c main_v490) u).toInt = ((2097152 + r.val * 128 + l.val : ℕ) : ℤ)
            then Wcat (V85 m outs c main_v265) (V85 m outs c main_v491) u else 0) :=
  ⟨scatter_value_lo m outs c hI r l, scatter_value_hi m outs c hI r l⟩

end Cert.KernelIdeal.Hand
end
-- ==== Proof.KIHostPost.lean ====
/-
  The kernel program's one host operation after its second kernel call: the [1, 1] result re-laid as a scalar.
-/
import proofs.«106138_j14714557956152_2_alg».proof.Proof.KernelIdealRegionsP
import proofs.«106138_j14714557956152_2_alg».proof.Proof.Spec
import proofs.«106138_j14714557956152_2_alg».proof.Proof.LibScatterColumnRead
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run
import Idealize.ShloMosaic.PureOps.Ideal.Laws

set_option maxRecDepth 65536

noncomputable section

open scoped BigOperators

namespace Cert.KernelIdeal.Hand

open Cert.KernelIdeal Cert.KernelIdeal.Gen Cert.KernelIdeal.GenP
open Idealize.ShloMosaic Idealize.ShloMosaic.ValueIdx Idealize.ShloMosaic.TcCoe
set_option maxHeartbeats 4000000

variable (m : (ℓ : Loc nD τ sig) → Buf (Elt Ideal) ℓ) (outs : Outs (F := Ideal))

/-- The program's scalar result is the one entry of the second kernel call's output. -/
theorem post_value (c : Dev nD) :
    (V87 m outs c main_v509 : S_.Idx → Ideal .f32) ix0 = (V86 m outs c main_v508 : S1x1.Idx → Ideal .f32) (ix2 0 0) := by
  have e : (V87 m outs c main_v509 : S_.Idx → Ideal .f32)
      = shapeCast S_ (V86 m outs c main_v508 : S1x1.Idx → Ideal .f32) shapeCasts_S1x1_S_ := by
    show StableHlo.after hostOps2 (V86 m outs c) (Proc.devRef .tc main_v509) = _
    after_results
    rfl
  rw [e]
  refine shapeCast_apply _ _ ix0 (ix2 (0 : Fin 1) (0 : Fin 1)) ?_
  rw [Shape.rowMajor_val_two]
  exact (Shape.rowMajorPi_zero _ _).symm

end Cert.KernelIdeal.Hand
end
-- ==== Proof.KIHostEnds.lean ====
/-
  The kernel program's host operations around its two kernel calls, read entry by entry: the padded columns before
  the first call, the merged scatter before the second, the scalar result after it.
-/
import proofs.«106138_j14714557956152_2_alg».proof.Proof.KIHostPre
import proofs.«106138_j14714557956152_2_alg».proof.Proof.KIHostScatter
import proofs.«106138_j14714557956152_2_alg».proof.Proof.KIHostPost
-- ==== Proof.SpecFacts.lean ====
/-
  Range facts about a corner's flat voxel index: it is 0 when the corner is invalid, and when the corner is valid its
  three cell coordinates lie in 0 ≤ · < 128, so ((z·128 + y)·128 + x) is computed without wrap-around and lies in
  0 ≤ · < 128³ = 2097152. Hence every index either program scatters with is non-negative and below the grid size, and
  the usual normalization of a negative index (adding the axis length) leaves it alone.
-/
import proofs.«106138_j14714557956152_2_alg».proof.Proof.Spec
import Idealize.ShloMosaic.Lib.Affine

namespace Cert.Spec

open Idealize.ShloMosaic

theorem inGrid_eq_one {a : BitVec 32} : inGrid a = 1#1 ↔ 0 ≤ a.toInt ∧ a.toInt < 128 := by
  unfold inGrid
  have h1 : (Scalar.cmpi .sge a 0#32 = 1#1) ↔ (0#32 : BitVec 32).toInt ≤ a.toInt := IntOp.cmpi_sge
  have h2 : (Scalar.cmpi .slt a 128#32 = 1#1) ↔ a.toInt < (128#32 : BitVec 32).toInt := IntOp.cmpi_slt
  have e0 : (0#32 : BitVec 32).toInt = 0 := by decide
  have e128 : (128#32 : BitVec 32).toInt = 128 := by decide
  rw [e0] at h1; rw [e128] at h2
  constructor
  · intro h
    have := (IntOp.andi_eq_one (c := Scalar.cmpi .sge a 0#32) (d := Scalar.cmpi .slt a 128#32)).1 h
    exact ⟨h1.1 this.1, h2.1 this.2⟩
  · intro h
    exact (IntOp.andi_eq_one (c := Scalar.cmpi .sge a 0#32) (d := Scalar.cmpi .slt a 128#32)).2 ⟨h1.2 h.1, h2.2 h.2⟩

/-- Three cell coordinates inside the grid give a flat index inside 0 ≤ · < 128³, with no wrap-around. -/
theorem lin_range {x y z : BitVec 32} (hx : 0 ≤ x.toInt ∧ x.toInt < 128) (hy : 0 ≤ y.toInt ∧ y.toInt < 128)
    (hz : 0 ≤ z.toInt ∧ z.toInt < 128) :
    ((z * 128#32 + y) * 128#32 + x).toInt = (z.toInt * 128 + y.toInt) * 128 + x.toInt := by
  have e128 : (128#32 : BitVec 32).toInt = 128 := by decide
  have h1 : (z * 128#32).toInt = z.toInt * 128 := by
    rw [BitVec.toInt_mul, e128]; apply Int.bmod_eq_of_le <;> omega
  have h2 : (z * 128#32 + y).toInt = z.toInt * 128 + y.toInt := by
    rw [BitVec.toInt_add, h1]; apply Int.bmod_eq_of_le <;> omega
  have h3 : ((z * 128#32 + y) * 128#32).toInt = (z.toInt * 128 + y.toInt) * 128 := by
    rw [BitVec.toInt_mul, h2, e128]; apply Int.bmod_eq_of_le <;> omega
  rw [BitVec.toInt_add, h3]; apply Int.bmod_eq_of_le <;> omega

theorem cvalid_eq_one {k : Fin 8} {P : Pt} (h : cvalid k P = 1#1) :
    (0 ≤ (P.z0 + off (dzOf k)).toInt ∧ (P.z0 + off (dzOf k)).toInt < 128)
    ∧ (0 ≤ (P.y0 + off (dyOf k)).toInt ∧ (P.y0 + off (dyOf k)).toInt < 128)
    ∧ (0 ≤ (P.x0 + off (dxOf k)).toInt ∧ (P.x0 + off (dxOf k)).toInt < 128) := by
  unfold cvalid at h
  have h1 := (IntOp.andi_eq_one (c := inGrid (P.z0 + off (dzOf k)) &&& inGrid (P.y0 + off (dyOf k))) (d := inGrid (P.x0 + off (dxOf k)))).1 h
  have h2 := (IntOp.andi_eq_one (c := inGrid (P.z0 + off (dzOf k))) (d := inGrid (P.y0 + off (dyOf k)))).1 h1.1
  exact ⟨inGrid_eq_one.1 h2.1, inGrid_eq_one.1 h2.2, inGrid_eq_one.1 h1.2⟩

/-- A corner's flat index, read signed, lies in 0 ≤ · < 2097152. -/
theorem cidx_range (k : Fin 8) (P : Pt) : 0 ≤ (cidx k P).toInt ∧ (cidx k P).toInt < 2097152 := by
  unfold cidx Scalar.select
  split
  · rename_i h
    obtain ⟨hz, hy, hx⟩ := cvalid_eq_one h
    rw [lin_range hx hy hz]
    constructor <;> nlinarith [hz.1, hz.2, hy.1, hy.2, hx.1, hx.2]
  · exact ⟨by decide, by decide⟩

theorem cidx_nonneg (k : Fin 8) (P : Pt) : 0 ≤ (cidx k P).toInt := (cidx_range k P).1
theorem cidx_lt (k : Fin 8) (P : Pt) : (cidx k P).toInt < 2097152 := (cidx_range k P).2

/-- The normalization of a negative index (add the axis length n when the index is negative) leaves a corner's index alone. -/
theorem cidx_norm (k : Fin 8) (P : Pt) (n : BitVec 32) :
    Scalar.select (Scalar.cmpi .slt (cidx k P) 0#32) (cidx k P + n) (cidx k P) = cidx k P := by
  unfold Scalar.select
  rw [if_neg]
  intro h
  have h' : (cidx k P).toInt < (0#32 : BitVec 32).toInt := IntOp.cmpi_slt.1 h
  have e0 : (0#32 : BitVec 32).toInt = 0 := by decide
  rw [e0] at h'
  exact absurd (cidx_nonneg k P) (by omega)

/-- A corner's index shifted by the grid size 2097152 (the second half of a doubled grid): no wrap-around. -/
theorem cidx_shift_toInt (k : Fin 8) (P : Pt) : (cidx k P + 2097152#32).toInt = (cidx k P).toInt + 2097152 := by
  have e : (2097152#32 : BitVec 32).toInt = 2097152 := by decide
  have := cidx_range k P
  rw [BitVec.toInt_add, e]; apply Int.bmod_eq_of_le <;> omega

end Cert.Spec
-- ==== Proof.SpecConsts.lean ====
/-
  The float literals of the two programs as the extended reals they denote, and the padding point.

  A padding point has base coordinates −2 and displacement 0 on every axis, so each axis unnormalizes to
  ((−2 + 0 + 1)·128 − 1)·½ = −64.5, its base cell is ⌊−64.5⌋ = −65, and both cell coordinates −65 and −64 a corner can
  take lie outside 0 ≤ · < 128: all 8 corners of a padding point are invalid, their index is 0 and their weight 0.
-/
import proofs.«106138_j14714557956152_2_alg».proof.Proof.Spec
import proofs.«106138_j14714557956152_2_alg».proof.Proof.SpecFacts

noncomputable section

namespace Cert.Spec

open Idealize.ShloMosaic

theorem c0_eq : c0 = 0 := by
  simp [c0, Ideal.ofBits, Ideal.ieee]
theorem c1_eq : c1 = 1 := by
  simp [c1, Ideal.ofBits, Ideal.ieee, -EReal.coe_mul]; norm_num
theorem c128_eq : c128 = ((128 : ℝ) : EReal) := by
  simp [c128, Ideal.ofBits, Ideal.ieee, -EReal.coe_mul]; norm_num
theorem chalf_eq : chalf = (((1 : ℝ) / 2 : ℝ) : EReal) := by
  simp [chalf, Ideal.ofBits, Ideal.ieee, -EReal.coe_mul]; norm_num
theorem cm2_eq : cm2 = ((-2 : ℝ) : EReal) := by
  simp [cm2, Ideal.ofBits, Ideal.ieee, -EReal.coe_mul]; norm_num

/-- A padding coordinate unnormalizes to −64.5. -/
theorem tco_pad : tco cm2 c0 = (((-129 : ℝ) / 2 : ℝ) : EReal) := by
  unfold tco
  rw [cm2_eq, c0_eq, c1_eq, c128_eq, chalf_eq, add_zero]
  rw [show ((1 : EReal)) = ((1 : ℝ) : EReal) from rfl]
  rw [← EReal.coe_add, ← EReal.coe_mul, ← EReal.coe_sub, ← EReal.coe_mul]
  norm_num

/-- Its base cell is −65. -/
theorem base_pad : (base cm2 c0).toInt = -65 := by
  unfold base flo
  rw [tco_pad, Ideal.liftRound_coe]
  unfold Ideal.fptosi
  rw [Ideal.toIntClamped_coe]
  have hfl : ⌊((-129 : ℝ) / 2)⌋ = -65 := by
    rw [Int.floor_eq_iff]; constructor <;> norm_num
  rw [hfl]
  norm_num [Int.ceil_intCast, Int.floor_intCast]
  decide

/-- The padding point. -/
def padPt : Pt := mkPt cm2 c0 cm2 c0 cm2 c0

/-- A cell coordinate of a padding point, −65 or −64, is outside the grid. -/
theorem inGrid_pad (b : Bool) : inGrid (base cm2 c0 + off b) = 0#1 := by
  rcases BitVec.eq_zero_or_eq_one (inGrid (base cm2 c0 + off b)) with h | h
  · exact h
  · exfalso
    have h' := (inGrid_eq_one.1 h).1
    have hb : (off b).toInt = (if b then 1 else 0) := by cases b <;> decide
    have hs : (base cm2 c0 + off b).toInt = -65 + (if b then 1 else 0) := by
      rw [BitVec.toInt_add, base_pad, hb]
      cases b <;> decide
    rw [hs] at h'
    cases b <;> simp at h'

/-- Every corner of a padding point is invalid. -/
theorem cvalid_pad (k : Fin 8) : cvalid k padPt = 0#1 := by
  unfold cvalid padPt mkPt
  simp only [inGrid_pad]
  decide

theorem cidx_pad (k : Fin 8) : cidx k padPt = 0#32 := by
  unfold cidx Scalar.select
  rw [cvalid_pad]; rfl

theorem cw_pad (k : Fin 8) : cw k padPt = 0 := by
  unfold cw Scalar.select
  rw [cvalid_pad, c0_eq]; rfl

end Cert.Spec

end
-- ==== Proof.KIPoints.lean ====
/-
  The two point sets as the kernel program's first kernel call finds them.

  The call reads nine [15872, 128] arrays; entry (q / 128, q % 128) of each, q < 2031616, belongs to padded point q. Below
  2,000,000 padded point q is point q of the argument arrays; from there on it is the padding point (base −2,
  displacement 0 on every axis), all of whose corners are invalid.
-/
import proofs.«106138_j14714557956152_2_alg».proof.Proof.KIHostPre
import proofs.«106138_j14714557956152_2_alg».proof.Proof.SpecConsts

set_option maxRecDepth 65536
set_option maxHeartbeats 4000000

noncomputable section

namespace Cert.KernelIdeal.Hand

open Cert.KernelIdeal Cert.KernelIdeal.Gen Cert.KernelIdeal.GenP
open Idealize.ShloMosaic Idealize.ShloMosaic.ValueIdx Idealize.ShloMosaic.TcCoe
open Cert.Spec

variable (m : (ℓ : Loc nD τ sig) → Buf (Elt Ideal) ℓ)

/-- Row and lane of padded point q. -/
abbrev rowOf (q : Fin 2031616) : Fin 15872 := ⟨q.val / 128, by have := q.isLt; omega⟩
abbrev laneOf (q : Fin 2031616) : Fin 128 := ⟨q.val % 128, Nat.mod_lt _ (by decide)⟩

/-- Point p of the first point set (base coordinates main_arg2, displacement main_arg0). -/
def ptsP (c : Dev nD) (p : Fin 2000000) : Pt :=
  mkPt ((m ((c : Thread nD τ).loc main_arg2) : S1x2000000x3.Idx → Ideal .f32) (ix3 0 p 0))
       ((m ((c : Thread nD τ).loc main_arg0) : S1x2000000x3.Idx → Ideal .f32) (ix3 0 p 0))
       ((m ((c : Thread nD τ).loc main_arg2) : S1x2000000x3.Idx → Ideal .f32) (ix3 0 p 1))
       ((m ((c : Thread nD τ).loc main_arg0) : S1x2000000x3.Idx → Ideal .f32) (ix3 0 p 1))
       ((m ((c : Thread nD τ).loc main_arg2) : S1x2000000x3.Idx → Ideal .f32) (ix3 0 p 2))
       ((m ((c : Thread nD τ).loc main_arg0) : S1x2000000x3.Idx → Ideal .f32) (ix3 0 p 2))

/-- Point p of the second point set (base coordinates main_arg2, displacement main_arg1). -/
def ptsG (c : Dev nD) (p : Fin 2000000) : Pt :=
  mkPt ((m ((c : Thread nD τ).loc main_arg2) : S1x2000000x3.Idx → Ideal .f32) (ix3 0 p 0))
       ((m ((c : Thread nD τ).loc main_arg1) : S1x2000000x3.Idx → Ideal .f32) (ix3 0 p 0))
       ((m ((c : Thread nD τ).loc main_arg2) : S1x2000000x3.Idx → Ideal .f32) (ix3 0 p 1))
       ((m ((c : Thread nD τ).loc main_arg1) : S1x2000000x3.Idx → Ideal .f32) (ix3 0 p 1))
       ((m ((c : Thread nD τ).loc main_arg2) : S1x2000000x3.Idx → Ideal .f32) (ix3 0 p 2))
       ((m ((c : Thread nD τ).loc main_arg1) : S1x2000000x3.Idx → Ideal .f32) (ix3 0 p 2))

/-- Padded point q of the first set, read off the call's input arrays. -/
def PP (c : Dev nD) (q : Fin 2031616) : Pt :=
  mkPt ((V19 m c main_v6 : S15872x128.Idx → Ideal .f32) (ix2 (rowOf q) (laneOf q)))
       ((V19 m c main_v18 : S15872x128.Idx → Ideal .f32) (ix2 (rowOf q) (laneOf q)))
       ((V19 m c main_v10 : S15872x128.Idx → Ideal .f32) (ix2 (rowOf q) (laneOf q)))
       ((V19 m c main_v22 : S15872x128.Idx → Ideal .f32) (ix2 (rowOf q) (laneOf q)))
       ((V19 m c main_v14 : S15872x128.Idx → Ideal .f32) (ix2 (rowOf q) (laneOf q)))
       ((V19 m c main_v26 : S15872x128.Idx → Ideal .f32) (ix2 (rowOf q) (laneOf q)))

/-- Padded point q of the second set. -/
def GG (c : Dev nD) (q : Fin 2031616) : Pt :=
  mkPt ((V19 m c main_v6 : S15872x128.Idx → Ideal .f32) (ix2 (rowOf q) (laneOf q)))
       ((V19 m c main_v30 : S15872x128.Idx → Ideal .f32) (ix2 (rowOf q) (laneOf q)))
       ((V19 m c main_v10 : S15872x128.Idx → Ideal .f32) (ix2 (rowOf q) (laneOf q)))
       ((V19 m c main_v34 : S15872x128.Idx → Ideal .f32) (ix2 (rowOf q) (laneOf q)))
       ((V19 m c main_v14 : S15872x128.Idx → Ideal .f32) (ix2 (rowOf q) (laneOf q)))
       ((V19 m c main_v38 : S15872x128.Idx → Ideal .f32) (ix2 (rowOf q) (laneOf q)))

theorem row_lane (q : Fin 2031616) : (rowOf q).val * 128 + (laneOf q).val = q.val := by
  show q.val / 128 * 128 + q.val % 128 = q.val
  omega

/-- From 2,000,000 on, a padded point is the padding point. -/
theorem PP_pad (c : Dev nD) (q : Fin 2031616) (hq : 2000000 ≤ q.val) : PP m c q = padPt := by
  have h : ¬ (rowOf q).val * 128 + (laneOf q).val < 2000000 := by rw [row_lane]; omega
  unfold PP padPt
  rw [pre_cx, pre_cy, pre_cz, pre_px, pre_py, pre_pz, dif_neg h, dif_neg h, dif_neg h, dif_neg h, dif_neg h, dif_neg h]

theorem GG_pad (c : Dev nD) (q : Fin 2031616) (hq : 2000000 ≤ q.val) : GG m c q = padPt := by
  have h : ¬ (rowOf q).val * 128 + (laneOf q).val < 2000000 := by rw [row_lane]; omega
  unfold GG padPt
  rw [pre_cx, pre_cy, pre_cz, pre_gx, pre_gy, pre_gz, dif_neg h, dif_neg h, dif_neg h, dif_neg h, dif_neg h, dif_neg h]

/-- Below 2,000,000 it is the argument arrays' point. -/
theorem PP_real (c : Dev nD) (p : Fin 2000000) : PP m c ⟨p.val, by omega⟩ = ptsP m c p := by
  have h : (rowOf ⟨p.val, by omega⟩).val * 128 + (laneOf ⟨p.val, by omega⟩).val < 2000000 := by
    rw [row_lane]; exact p.isLt
  have e : (⟨(rowOf ⟨p.val, by omega⟩).val * 128 + (laneOf ⟨p.val, by omega⟩).val, h⟩ : Fin 2000000) = p :=
    Fin.ext (row_lane ⟨p.val, by omega⟩)
  unfold PP ptsP
  rw [pre_cx, pre_cy, pre_cz, pre_px, pre_py, pre_pz, dif_pos h, dif_pos h, dif_pos h, dif_pos h, dif_pos h, dif_pos h, e]

theorem GG_real (c : Dev nD) (p : Fin 2000000) : GG m c ⟨p.val, by omega⟩ = ptsG m c p := by
  have h : (rowOf ⟨p.val, by omega⟩).val * 128 + (laneOf ⟨p.val, by omega⟩).val < 2000000 := by
    rw [row_lane]; exact p.isLt
  have e : (⟨(rowOf ⟨p.val, by omega⟩).val * 128 + (laneOf ⟨p.val, by omega⟩).val, h⟩ : Fin 2000000) = p :=
    Fin.ext (row_lane ⟨p.val, by omega⟩)
  unfold GG ptsG
  rw [pre_cx, pre_cy, pre_cz, pre_gx, pre_gy, pre_gz, dif_pos h, dif_pos h, dif_pos h, dif_pos h, dif_pos h, dif_pos h, e]

end Cert.KernelIdeal.Hand

end
-- ==== Proof.LibBlockedSum.lean ====
/-
  A finite sum over `a * b` indices taken block by block.

  In a commutative additive monoid (the extended reals with their addition among them) the sum of `f` over
  `Fin (a * b)` is the sum over the `a` blocks of the sums over each block's `b` entries, entry `q` of block `k`
  being the index `k * b + q`. No finiteness or sign condition is needed: it is a regrouping of a finite sum
  along the bijection between pairs `(k, q)` and flat indices.
-/
import Mathlib.Algebra.BigOperators.Fin
import Mathlib.Logic.Equiv.Fin.Basic

namespace Cert.Lib.BlockedSum

variable {M : Type*} [AddCommMonoid M]

/-- Entry `q` of block `k` lies among the `a * b` indices. -/
theorem blocked_lt {a b : ℕ} (k : Fin a) (q : Fin b) : k.val * b + q.val < a * b :=
  calc k.val * b + q.val < k.val * b + b := Nat.add_lt_add_left q.isLt _
    _ = (k.val + 1) * b := (Nat.succ_mul _ _).symm
    _ ≤ a * b := Nat.mul_le_mul_right _ k.isLt

/-- **A sum over `a * b` indices, block by block.** -/
theorem sum_blocked {a b : ℕ} (f : Fin (a * b) → M) :
    ∑ i : Fin (a * b), f i = ∑ k : Fin a, ∑ q : Fin b, f ⟨k.val * b + q.val, blocked_lt k q⟩ := by
  rw [← Fintype.sum_prod_type', ← finProdFinEquiv.sum_comp]
  refine Finset.sum_congr rfl fun p _ => congrArg f (Fin.ext ?_)
  show p.2.val + b * p.1.val = p.1.val * b + p.2.val
  rw [Nat.add_comm, Nat.mul_comm]

/-- The same over `Fin n` for a length `n` given as a product (so that a literal such as `4096 = 4 * 1024` need not
    be rewritten in the summand's type). -/
theorem sum_blocked_of_eq {n a b : ℕ} (h : n = a * b) (f : Fin n → M) :
    ∑ i : Fin n, f i = ∑ k : Fin a, ∑ q : Fin b, f ⟨k.val * b + q.val, h ▸ blocked_lt k q⟩ := by
  subst h
  exact sum_blocked f

end Cert.Lib.BlockedSum
-- ==== Proof.Bridge.lean ====
/-
  The regroupings that join the kernel program's arrangement to the specification.

  The kernel scatters ONE list of 16 · 2031616 updates into a doubled grid of 2 · 2097152 entries: the first 8 blocks
  of 2031616 are the first point set's corners 0..7, the last 8 the second set's with their indices shifted by 2097152;
  each block holds the 2000000 real points followed by 31616 padding points, whose corners are all invalid and so carry
  the index 0 and the weight 0. Entry v of the lower half is then the first set's splat at v and entry 2097152 + v the
  second set's: a sum over 16 · 2031616 terms taken block by block, the padding dropped, a first-set index (in
  0 ≤ · < 2097152) never meeting the upper half and a shifted second-set index (in 2097152 ≤ · < 4194304) never the
  lower. Extended-real addition is a commutative monoid, so no finiteness is used. The Huber sum over 4 blocks of
  4096 rows of 128 lanes is the sum over the 2097152 voxels, v = (t · 4096 + r) · 128 + l.
-/
import proofs.«106138_j14714557956152_2_alg».proof.Proof.Spec
import proofs.«106138_j14714557956152_2_alg».proof.Proof.SpecFacts
import proofs.«106138_j14714557956152_2_alg».proof.Proof.SpecConsts
import proofs.«106138_j14714557956152_2_alg».proof.Proof.LibBlockedSum
import Mathlib.Algebra.BigOperators.Fin

noncomputable section

open scoped BigOperators

namespace Cert.Bridge

open Cert.Spec Cert.Lib.BlockedSum Idealize.ShloMosaic

section Sums

variable {M : Type*} [AddCommMonoid M]

/-- A sum over 2031616 entries whose last 31616 vanish is the sum over the first 2000000. -/
theorem sum_padded (g : Fin 2031616 → M) (h : ∀ q : Fin 2031616, 2000000 ≤ q.val → g q = 0) :
    ∑ q, g q = ∑ p : Fin 2000000, g ⟨p.val, by omega⟩ := by
  have e := Fin.sum_univ_add (a := 2000000) (b := 31616) (f := fun i : Fin (2000000 + 31616) => g ⟨i.val, by have := i.isLt; omega⟩)
  have e1 : (∑ q, g q) = ∑ i : Fin (2000000 + 31616), g ⟨i.val, by have := i.isLt; omega⟩ := by
    refine (Fintype.sum_equiv (finCongr (by norm_num : 2031616 = 2000000 + 31616)) _ _ (fun q => ?_))
    rfl
  rw [e1, e]
  have hz : (∑ i : Fin 31616, g ⟨(Fin.natAdd 2000000 i).val, by have := (Fin.natAdd 2000000 i).isLt; omega⟩) = 0 :=
    Finset.sum_eq_zero (fun i _ => h _ (by simp [Fin.natAdd]))
  rw [hz, add_zero]
  rfl

/-- 16 blocks of 2031616, as 2 point sets of 8 corners. -/
theorem sum_sets_corners (f : Fin 32505856 → M) :
    ∑ u, f u = ∑ s : Fin 2, ∑ k : Fin 8, ∑ q : Fin 2031616,
      f ⟨(s.val * 8 + k.val) * 2031616 + q.val, by have := s.isLt; have := k.isLt; have := q.isLt; omega⟩ := by
  rw [sum_blocked_of_eq (by norm_num : 32505856 = 16 * 2031616) f]
  rw [sum_blocked_of_eq (by norm_num : 16 = 2 * 8) (fun j : Fin 16 => ∑ q : Fin 2031616, f ⟨j.val * 2031616 + q.val, _⟩)]

/-- 4 blocks of 4096 rows of 128 lanes are the 2097152 voxels. -/
theorem sum_voxels (f : Fin 2097152 → M) :
    ∑ v, f v = ∑ t : Fin 4, ∑ r : Fin 4096, ∑ l : Fin 128,
      f ⟨(t.val * 4096 + r.val) * 128 + l.val, by have := t.isLt; have := r.isLt; have := l.isLt; omega⟩ := by
  rw [sum_blocked_of_eq (by norm_num : 2097152 = 16384 * 128) f]
  rw [sum_blocked_of_eq (by norm_num : 16384 = 4 * 4096) (fun j : Fin 16384 => ∑ l : Fin 128, f ⟨j.val * 128 + l.val, _⟩)]

end Sums

section Scatter

-- The padded point data of the two sets: real points below 2000000, the padding point from there on.
variable (PP GG : Fin 2031616 → Pt)
variable (hPP : ∀ q : Fin 2031616, 2000000 ≤ q.val → PP q = padPt) (hGG : ∀ q : Fin 2031616, 2000000 ≤ q.val → GG q = padPt)

-- The merged index list and weight list: block (s, k) holds set s's corner k, the second set's indices shifted.
variable (I : Fin 32505856 → BitVec 32) (W : Fin 32505856 → Ideal .f32)
variable (hIp : ∀ (k : Fin 8) (q : Fin 2031616) (h : ((0 : Fin 2).val * 8 + k.val) * 2031616 + q.val < 32505856),
    I ⟨((0 : Fin 2).val * 8 + k.val) * 2031616 + q.val, h⟩ = cidx k (PP q))
variable (hIg : ∀ (k : Fin 8) (q : Fin 2031616) (h : ((1 : Fin 2).val * 8 + k.val) * 2031616 + q.val < 32505856),
    I ⟨((1 : Fin 2).val * 8 + k.val) * 2031616 + q.val, h⟩ = cidx k (GG q) + 2097152#32)
variable (hWp : ∀ (k : Fin 8) (q : Fin 2031616) (h : ((0 : Fin 2).val * 8 + k.val) * 2031616 + q.val < 32505856),
    W ⟨((0 : Fin 2).val * 8 + k.val) * 2031616 + q.val, h⟩ = cw k (PP q))
variable (hWg : ∀ (k : Fin 8) (q : Fin 2031616) (h : ((1 : Fin 2).val * 8 + k.val) * 2031616 + q.val < 32505856),
    W ⟨((1 : Fin 2).val * 8 + k.val) * 2031616 + q.val, h⟩ = cw k (GG q))

include hPP in
/-- One corner's block of a point set, summed with its padding, is that corner's sum over the real points. -/
theorem corner_sum (k : Fin 8) (v : ℤ) :
    (∑ q : Fin 2031616, if (cidx k (PP q)).toInt = v then cw k (PP q) else 0)
      = ∑ p : Fin 2000000, if (cidx k (PP ⟨p.val, by omega⟩)).toInt = v then cw k (PP ⟨p.val, by omega⟩) else 0 := by
  refine sum_padded (fun q => if (cidx k (PP q)).toInt = v then cw k (PP q) else 0) (fun q hq => ?_)
  show (if (cidx k (PP q)).toInt = v then cw k (PP q) else 0) = 0
  rw [hPP q hq, cw_pad, ite_self]

include hPP hIp hIg hWp in
/-- The lower half of the doubled grid holds the first set's splat. -/
theorem lower_half (v : Fin 2097152) :
    (∑ u, if (I u).toInt = (v.val : ℤ) then W u else 0) = splat (fun p => PP ⟨p.val, by omega⟩) v := by
  rw [sum_sets_corners, Fin.sum_univ_two]
  have h1 : (∑ k : Fin 8, ∑ q : Fin 2031616,
      (if (I ⟨((1 : Fin 2).val * 8 + k.val) * 2031616 + q.val, by have := k.isLt; have := q.isLt; simp; omega⟩).toInt = (v.val : ℤ)
        then W ⟨((1 : Fin 2).val * 8 + k.val) * 2031616 + q.val, by have := k.isLt; have := q.isLt; simp; omega⟩ else 0)) = 0 := by
    refine Finset.sum_eq_zero (fun k _ => Finset.sum_eq_zero (fun q _ => ?_))
    rw [hIg k q, if_neg]
    rw [cidx_shift_toInt]
    have := cidx_nonneg k (GG q); have := v.isLt; omega
  rw [h1, add_zero]
  unfold splat
  refine Finset.sum_congr rfl (fun k _ => ?_)
  rw [← corner_sum PP hPP k (v.val : ℤ)]
  refine Finset.sum_congr rfl (fun q _ => ?_)
  rw [hIp k q, hWp k q]

include hGG hIp hIg hWg in
/-- The upper half holds the second set's splat. -/
theorem upper_half (v : Fin 2097152) :
    (∑ u, if (I u).toInt = ((2097152 + v.val : ℕ) : ℤ) then W u else 0) = splat (fun p => GG ⟨p.val, by omega⟩) v := by
  rw [sum_sets_corners, Fin.sum_univ_two]
  have h0 : (∑ k : Fin 8, ∑ q : Fin 2031616,
      (if (I ⟨((0 : Fin 2).val * 8 + k.val) * 2031616 + q.val, by have := k.isLt; have := q.isLt; simp; omega⟩).toInt = ((2097152 + v.val : ℕ) : ℤ)
        then W ⟨((0 : Fin 2).val * 8 + k.val) * 2031616 + q.val, by have := k.isLt; have := q.isLt; simp; omega⟩ else 0)) = 0 := by
    refine Finset.sum_eq_zero (fun k _ => Finset.sum_eq_zero (fun q _ => ?_))
    rw [hIp k q, if_neg]
    have := cidx_lt k (PP q); push_cast; omega
  rw [h0, zero_add]
  unfold splat
  refine Finset.sum_congr rfl (fun k _ => ?_)
  rw [← corner_sum GG hGG k (v.val : ℤ)]
  refine Finset.sum_congr rfl (fun q _ => ?_)
  rw [hIg k q, hWg k q, cidx_shift_toInt]
  have e : ((cidx k (GG q)).toInt + 2097152 = ((2097152 + v.val : ℕ) : ℤ)) ↔ ((cidx k (GG q)).toInt = (v.val : ℤ)) := by
    push_cast; constructor <;> intro h <;> omega
  simp only [e]

end Scatter

end Cert.Bridge

end
-- ==== Proof.KIValue.lean ====
/-
  The kernel program's result is the specification's loss of the two point sets.

  Read backwards from the result: the scalar is the second kernel call's [1,1] output; that is the sum over 4 blocks of
  4096 rows of 128 lanes of the Huber function of the difference of its two input arrays; those are the lower and the
  upper half of one scatter-add of 16 · 2031616 updates into a doubled grid; the updates are the 8 corners' indices and
  weights of the padded points of both sets, computed from the first kernel call's twelve output arrays; those hold the
  base cells and fractions of the padded points; and the padded points are the argument arrays' points followed by
  padding points, which contribute nothing.
-/
import proofs.«106138_j14714557956152_2_alg».proof.Proof.KIRun
import proofs.«106138_j14714557956152_2_alg».proof.Proof.KIValue0
import proofs.«106138_j14714557956152_2_alg».proof.Proof.KIValue1
import proofs.«106138_j14714557956152_2_alg».proof.Proof.KIHostMid
import proofs.«106138_j14714557956152_2_alg».proof.Proof.KIHostEnds
import proofs.«106138_j14714557956152_2_alg».proof.Proof.KIPoints
import proofs.«106138_j14714557956152_2_alg».proof.Proof.Bridge

set_option maxRecDepth 65536
set_option maxHeartbeats 4000000

noncomputable section

open scoped BigOperators

namespace Cert.KernelIdeal.Hand

open Cert.KernelIdeal Cert.KernelIdeal.Gen Cert.KernelIdeal.GenP
open Idealize.ShloMosaic Idealize.ShloMosaic.ValueIdx Idealize.ShloMosaic.TcCoe
open Cert.Spec Cert.Bridge

variable (m : (ℓ : Loc nD τ sig) → Buf (Elt Ideal) ℓ)

/-! ## What the first kernel call leaves: base cells and fractions of the padded points -/

theorem V20_x0p (c : Dev nD) : (V20 m (outs m) c main_v39_0 : S15872x128.Idx → BitVec 32) = Gbase (V19 m c main_v6) (V19 m c main_v18) :=
  (outs_20 m c 9).trans (arr0_9 (E19 m) c)
theorem V20_y0p (c : Dev nD) : (V20 m (outs m) c main_v39_1 : S15872x128.Idx → BitVec 32) = Gbase (V19 m c main_v10) (V19 m c main_v22) :=
  (outs_20 m c 10).trans (arr0_10 (E19 m) c)
theorem V20_z0p (c : Dev nD) : (V20 m (outs m) c main_v39_2 : S15872x128.Idx → BitVec 32) = Gbase (V19 m c main_v14) (V19 m c main_v26) :=
  (outs_20 m c 11).trans (arr0_11 (E19 m) c)
theorem V20_fxp (c : Dev nD) : (V20 m (outs m) c main_v39_3 : S15872x128.Idx → Ideal .f32) = Gfrac (V19 m c main_v6) (V19 m c main_v18) :=
  (outs_20 m c 12).trans (arr0_12 (E19 m) c)
theorem V20_fyp (c : Dev nD) : (V20 m (outs m) c main_v39_4 : S15872x128.Idx → Ideal .f32) = Gfrac (V19 m c main_v10) (V19 m c main_v22) :=
  (outs_20 m c 13).trans (arr0_13 (E19 m) c)
theorem V20_fzp (c : Dev nD) : (V20 m (outs m) c main_v39_5 : S15872x128.Idx → Ideal .f32) = Gfrac (V19 m c main_v14) (V19 m c main_v26) :=
  (outs_20 m c 14).trans (arr0_14 (E19 m) c)
theorem V20_x0g (c : Dev nD) : (V20 m (outs m) c main_v39_6 : S15872x128.Idx → BitVec 32) = Gbase (V19 m c main_v6) (V19 m c main_v30) :=
  (outs_20 m c 15).trans (arr0_15 (E19 m) c)
theorem V20_y0g (c : Dev nD) : (V20 m (outs m) c main_v39_7 : S15872x128.Idx → BitVec 32) = Gbase (V19 m c main_v10) (V19 m c main_v34) :=
  (outs_20 m c 16).trans (arr0_16 (E19 m) c)
theorem V20_z0g (c : Dev nD) : (V20 m (outs m) c main_v39_8 : S15872x128.Idx → BitVec 32) = Gbase (V19 m c main_v14) (V19 m c main_v38) :=
  (outs_20 m c 17).trans (arr0_17 (E19 m) c)
theorem V20_fxg (c : Dev nD) : (V20 m (outs m) c main_v39_9 : S15872x128.Idx → Ideal .f32) = Gfrac (V19 m c main_v6) (V19 m c main_v30) :=
  (outs_20 m c 18).trans (arr0_18 (E19 m) c)
theorem V20_fyg (c : Dev nD) : (V20 m (outs m) c main_v39_10 : S15872x128.Idx → Ideal .f32) = Gfrac (V19 m c main_v10) (V19 m c main_v34) :=
  (outs_20 m c 19).trans (arr0_19 (E19 m) c)
theorem V20_fzg (c : Dev nD) : (V20 m (outs m) c main_v39_11 : S15872x128.Idx → Ideal .f32) = Gfrac (V19 m c main_v14) (V19 m c main_v38) :=
  (outs_20 m c 20).trans (arr0_20 (E19 m) c)

/-! ## The chain -/

/-- The padded points the host operations between the calls rebuild are the padded points of the argument arrays. -/
theorem PtP_eq (c : Dev nD) (q : Fin 2031616) : PtP m (outs m) c q = PP m c q := by
  unfold PtP PtOfP PP mkPt
  rw [V20_x0p, V20_y0p, V20_z0p, V20_fxp, V20_fyp, V20_fzp]
theorem PtG_eq (c : Dev nD) (q : Fin 2031616) : PtG m (outs m) c q = GG m c q := by
  unfold PtG PtOfG GG mkPt
  rw [V20_x0g, V20_y0g, V20_z0g, V20_fxg, V20_fyg, V20_fzg]

/-- The merged index and weight lists. -/
abbrev Iall (c : Dev nD) : Fin 32505856 → BitVec 32 := Icat (V85 m (outs m) c main_v264) (V85 m (outs m) c main_v490)
abbrev Wall (c : Dev nD) : Fin 32505856 → Ideal .f32 := Wcat (V85 m (outs m) c main_v265) (V85 m (outs m) c main_v491)

theorem Iall_p' (c : Dev nD) (s : Fin 2) (hs : s.val = 0) (k : Fin 8) (q : Fin 2031616) (h : (s.val * 8 + k.val) * 2031616 + q.val < 32505856) :
    Iall m c ⟨(s.val * 8 + k.val) * 2031616 + q.val, h⟩ = cidx k (PP m c q) := by
  have hk := k.isLt; have hq := q.isLt
  have hlt : (s.val * 8 + k.val) * 2031616 + q.val < 16252928 := by omega
  unfold Iall Icat
  rw [dif_pos hlt, ← PtP_eq, ← mid_idx_p m (outs m) c k q]
  exact congrArg _ (congrArg ix1 (Fin.ext (by show (s.val * 8 + k.val) * 2031616 + q.val = k.val * 2031616 + q.val; omega)))
theorem Wall_p' (c : Dev nD) (s : Fin 2) (hs : s.val = 0) (k : Fin 8) (q : Fin 2031616) (h : (s.val * 8 + k.val) * 2031616 + q.val < 32505856) :
    Wall m c ⟨(s.val * 8 + k.val) * 2031616 + q.val, h⟩ = cw k (PP m c q) := by
  have hk := k.isLt; have hq := q.isLt
  have hlt : (s.val * 8 + k.val) * 2031616 + q.val < 16252928 := by omega
  unfold Wall Wcat
  rw [dif_pos hlt, ← PtP_eq, ← mid_w_p m (outs m) c k q]
  exact congrArg _ (congrArg ix1 (Fin.ext (by show (s.val * 8 + k.val) * 2031616 + q.val = k.val * 2031616 + q.val; omega)))
theorem Iall_g' (c : Dev nD) (s : Fin 2) (hs : s.val = 1) (k : Fin 8) (q : Fin 2031616) (h : (s.val * 8 + k.val) * 2031616 + q.val < 32505856) :
    Iall m c ⟨(s.val * 8 + k.val) * 2031616 + q.val, h⟩ = cidx k (GG m c q) + 2097152#32 := by
  have hk := k.isLt; have hq := q.isLt
  have hge : ¬ (s.val * 8 + k.val) * 2031616 + q.val < 16252928 := by omega
  unfold Iall Icat
  rw [dif_neg hge, ← PtG_eq, ← mid_idx_g m (outs m) c k q]
  exact congrArg (· + 2097152#32) (congrArg _ (congrArg ix1 (Fin.ext (by show (s.val * 8 + k.val) * 2031616 + q.val - 16252928 = k.val * 2031616 + q.val; omega))))
theorem Wall_g' (c : Dev nD) (s : Fin 2) (hs : s.val = 1) (k : Fin 8) (q : Fin 2031616) (h : (s.val * 8 + k.val) * 2031616 + q.val < 32505856) :
    Wall m c ⟨(s.val * 8 + k.val) * 2031616 + q.val, h⟩ = cw k (GG m c q) := by
  have hk := k.isLt; have hq := q.isLt
  have hge : ¬ (s.val * 8 + k.val) * 2031616 + q.val < 16252928 := by omega
  unfold Wall Wcat
  rw [dif_neg hge, ← PtG_eq, ← mid_w_g m (outs m) c k q]
  exact congrArg _ (congrArg ix1 (Fin.ext (by show (s.val * 8 + k.val) * 2031616 + q.val - 16252928 = k.val * 2031616 + q.val; omega)))

/-- Every merged index is non-negative read signed. -/
theorem Iall_nonneg (c : Dev nD) (u : Fin 32505856) : 0 ≤ (Iall m c u).toInt := by
  obtain ⟨u, hu⟩ := u
  have hq : u % 2031616 < 2031616 := Nat.mod_lt _ (by decide)
  by_cases hs : u < 16252928
  · have hk : u / 2031616 < 8 := by omega
    have e : (⟨u, hu⟩ : Fin 32505856) = ⟨((⟨0, by decide⟩ : Fin 2).val * 8 + (⟨u / 2031616, hk⟩ : Fin 8).val) * 2031616 + (⟨u % 2031616, hq⟩ : Fin 2031616).val, by show (0 * 8 + u / 2031616) * 2031616 + u % 2031616 < 32505856; omega⟩ :=
      Fin.ext (by show u = (0 * 8 + u / 2031616) * 2031616 + u % 2031616; omega)
    rw [e, Iall_p' m c ⟨0, by decide⟩ rfl]; exact cidx_nonneg _ _
  · have hk : u / 2031616 - 8 < 8 := by omega
    have e : (⟨u, hu⟩ : Fin 32505856) = ⟨((⟨1, by decide⟩ : Fin 2).val * 8 + (⟨u / 2031616 - 8, hk⟩ : Fin 8).val) * 2031616 + (⟨u % 2031616, hq⟩ : Fin 2031616).val, by show (1 * 8 + (u / 2031616 - 8)) * 2031616 + u % 2031616 < 32505856; omega⟩ :=
      Fin.ext (by show u = (1 * 8 + (u / 2031616 - 8)) * 2031616 + u % 2031616; omega)
    rw [e, Iall_g' m c ⟨1, by decide⟩ rfl, cidx_shift_toInt]; have := cidx_nonneg (⟨u / 2031616 - 8, hk⟩ : Fin 8) (GG m c ⟨u % 2031616, hq⟩); omega

/-- The second kernel call's two input arrays are the two splats. -/
theorem in506_value (c : Dev nD) (r : Fin 16384) (l : Fin 128) :
    in506 (fun c b => V85 m (outs m) c b) c (ix2 r l)
      = splat (ptsP m c) ⟨r.val * 128 + l.val, by have := r.isLt; have := l.isLt; omega⟩ := by
  have h1 : in506 (fun c b => V85 m (outs m) c b) c (ix2 r l)
      = Cert.Spec.c0 + ∑ u : Fin 32505856, if (Iall m c u).toInt = ((r.val * 128 + l.val : ℕ) : ℤ) then Wall m c u else 0 :=
    scatter_value_lo m (outs m) c (Iall_nonneg m c) r l
  have h2 : (∑ u : Fin 32505856, if (Iall m c u).toInt = ((r.val * 128 + l.val : ℕ) : ℤ) then Wall m c u else 0)
      = splat (fun p => PP m c ⟨p.val, by omega⟩) ⟨r.val * 128 + l.val, by have := r.isLt; have := l.isLt; omega⟩ :=
    lower_half (PP m c) (GG m c) (PP_pad m c) (Iall m c) (Wall m c) (Iall_p' m c 0 rfl) (Iall_g' m c 1 rfl) (Wall_p' m c 0 rfl)
      ⟨r.val * 128 + l.val, by have := r.isLt; have := l.isLt; omega⟩
  have h3 : (fun p : Fin 2000000 => PP m c ⟨p.val, by omega⟩) = ptsP m c := funext (PP_real m c)
  rw [h1, h2, h3, c0_eq, zero_add]
theorem in507_value (c : Dev nD) (r : Fin 16384) (l : Fin 128) :
    in507 (fun c b => V85 m (outs m) c b) c (ix2 r l)
      = splat (ptsG m c) ⟨r.val * 128 + l.val, by have := r.isLt; have := l.isLt; omega⟩ := by
  have h1 : in507 (fun c b => V85 m (outs m) c b) c (ix2 r l)
      = Cert.Spec.c0 + ∑ u : Fin 32505856, if (Iall m c u).toInt = ((2097152 + r.val * 128 + l.val : ℕ) : ℤ) then Wall m c u else 0 :=
    scatter_value_hi m (outs m) c (Iall_nonneg m c) r l
  have e : ((2097152 + r.val * 128 + l.val : ℕ) : ℤ) = ((2097152 + (r.val * 128 + l.val) : ℕ) : ℤ) := by push_cast; ring
  have h2 : (∑ u : Fin 32505856, if (Iall m c u).toInt = ((2097152 + (r.val * 128 + l.val) : ℕ) : ℤ) then Wall m c u else 0)
      = splat (fun p => GG m c ⟨p.val, by omega⟩) ⟨r.val * 128 + l.val, by have := r.isLt; have := l.isLt; omega⟩ :=
    upper_half (PP m c) (GG m c) (GG_pad m c) (Iall m c) (Wall m c) (Iall_p' m c 0 rfl) (Iall_g' m c 1 rfl) (Wall_g' m c 1 rfl)
      ⟨r.val * 128 + l.val, by have := r.isLt; have := l.isLt; omega⟩
  have h3 : (fun p : Fin 2000000 => GG m c ⟨p.val, by omega⟩) = ptsG m c := funext (GG_real m c)
  rw [h1, e, h2, h3, c0_eq, zero_add]

/-- The result buffer's contents after the run, as a function on the one index of a scalar. -/
abbrev resK (c : Dev nD) : S_.Idx → Ideal .f32 := V87 m (outs m) c main_v509
abbrev buf508 (c : Dev nD) : S1x1.Idx → Ideal .f32 := V86 m (outs m) c main_v508

theorem kernel_value_at (c : Dev nD) : resK m c ix0 = loss (ptsP m c) (ptsG m c) := by
  have h1 : resK m c ix0 = buf508 m c (ix2 0 0) := post_value m (outs m) c
  have h2 : buf508 m c (ix2 0 0) = ((dat1 (fun c b => V85 m (outs m) c b) c).arrAt 2 cfg1.N : S1x1.Idx → Ideal .f32) (ix2 0 0) :=
    congrFun (outs_86 m c) _
  have h3 := region1_value (fun c b => V85 m (outs m) c b) c
  have h4 : loss (ptsP m c) (ptsG m c) = ∑ t : Fin 4, ∑ r : Fin 4096, ∑ l : Fin 128,
      hub (splat (ptsP m c) ⟨(t.val * 4096 + r.val) * 128 + l.val, by have := t.isLt; have := r.isLt; have := l.isLt; omega⟩
        - splat (ptsG m c) ⟨(t.val * 4096 + r.val) * 128 + l.val, by have := t.isLt; have := r.isLt; have := l.isLt; omega⟩) :=
    Cert.Bridge.sum_voxels (fun v => hub (splat (ptsP m c) v - splat (ptsG m c) v))
  have h5 : (∑ t : Fin 4, ∑ r : Fin 4096, ∑ l : Fin 128,
        hub (in506 (fun c b => V85 m (outs m) c b) c (ix2 ⟨t.val * 4096 + r.val, by omega⟩ l)
          - in507 (fun c b => V85 m (outs m) c b) c (ix2 ⟨t.val * 4096 + r.val, by omega⟩ l)) : Ideal .f32)
      = ∑ t : Fin 4, ∑ r : Fin 4096, ∑ l : Fin 128,
        hub (splat (ptsP m c) ⟨(t.val * 4096 + r.val) * 128 + l.val, by have := t.isLt; have := r.isLt; have := l.isLt; omega⟩
          - splat (ptsG m c) ⟨(t.val * 4096 + r.val) * 128 + l.val, by have := t.isLt; have := r.isLt; have := l.isLt; omega⟩) := by
    refine Finset.sum_congr rfl (fun t _ => Finset.sum_congr rfl (fun r _ => Finset.sum_congr rfl (fun l _ => ?_)))
    rw [in506_value m c ⟨t.val * 4096 + r.val, by have := t.isLt; have := r.isLt; omega⟩ l,
      in507_value m c ⟨t.val * 4096 + r.val, by have := t.isLt; have := r.isLt; omega⟩ l]
  exact h1.trans (h2.trans (h3.trans (h5.trans h4.symm)))

/-- THE KERNEL PROGRAM'S RESULT. -/
theorem kernel_value (c : Dev nD) :
    (V87 m (outs m) c main_v509 : S_.Idx → Ideal .f32) = fun _ => loss (ptsP m c) (ptsG m c) := by
  funext i
  have hi : i = ix0 := Subsingleton.elim (α := S_.Idx) _ _
  subst hi
  exact kernel_value_at m c

end Cert.KernelIdeal.Hand

end
-- ==== Proof.RefRunH.lean ====
/-
  The reference program's run, read against the stages of its operations.

  The reference's @main is a straight line of 1134 host operations, here listed in the eighteen stretches the printed program is cut in (at most 64 operations each). Every
  weakly fair execution of it terminates with each buffer at the fold of the operations' results over the launch contents.
  A buffer a stretch does not write passes through it unchanged, so the three argument arrays, which no operation writes,
  end as launched; and the result buffer, read backwards operation by operation — a stretch that does not write the
  buffer being read is passed in one step —, is the composition of the operations' stages, the function
  `val_main_v783` of the three argument arrays.
-/
import proofs.«106138_j14714557956152_2_alg».proof.Proof.Gen.ReferenceIdeal
import proofs.«106138_j14714557956152_2_alg».proof.Proof.RefReadP
import Idealize.ShloMosaic.Lib.StableHlo.Run

set_option maxRecDepth 65536

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The fold over a line of operations, read at a buffer, one operation at a time. -/
theorem after_cons_app (op : HloOp τ sig (Elt F)) (ops : List (HloOp τ sig (Elt F))) (V : Valuation τ sig (Elt F))
    (b : DevRef τ sig) : after (op :: ops) V b = after ops (op.result V) b := rfl
theorem after_nil_app (V : Valuation τ sig (Elt F)) (b : DevRef τ sig) : after [] V b = V b := rfl

/-- Two lines run one after the other fold as the second over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)
theorem after_append_app (l₁ l₂ : List (HloOp τ sig (Elt F))) (V : Valuation τ sig (Elt F)) (b : DevRef τ sig) :
    after (l₁ ++ l₂) V b = after l₂ (after l₁ V) b := congrFun (after_append l₁ l₂ V) b

/-- Operations 0 to 59 of @main: the printed program's stretch 0. -/
abbrev ops_0 : List (HloOp τ sig (Elt F)) :=
  [ binary main_arg2 main_arg0 main_v0 (addf : (⟨S1x2000000x3, .f32⟩ : BufTy).Contents (Elt F) → (⟨S1x2000000x3, .f32⟩ : BufTy).Contents (Elt F) → (⟨S1x2000000x3, .f32⟩ : BufTy).Contents (Elt F)),
    reshape main_v0 main_v1 rfl shapeCasts_S1x2000000x3_S2000000x3,
    binary main_arg2 main_arg1 main_v2 (addf : (⟨S1x2000000x3, .f32⟩ : BufTy).Contents (Elt F) → (⟨S1x2000000x3, .f32⟩ : BufTy).Contents (Elt F) → (⟨S1x2000000x3, .f32⟩ : BufTy).Contents (Elt F)),
    reshape main_v2 main_v3 rfl shapeCasts_S1x2000000x3_S2000000x3,
    nullary main_cst (constant S_ .f32 0x3F800000#32),
    unary main_cst main_v4 (broadcastInDim S2000000 ![] bcast_S_S2000000 : (⟨S_, .f32⟩ : BufTy).Contents (Elt F) → (⟨S2000000, .f32⟩ : BufTy).Contents (Elt F)),
    unary main_v1 main_v5 ((extractStridedSlice S2000000x1 ![0, 0] · slices_S2000000x3_S2000000x1_0_0) : (⟨S2000000x3, .f32⟩ : BufTy).Contents (Elt F) → (⟨S2000000x1, .f32⟩ : BufTy).Contents (Elt F)),
    reshape main_v5 main_v6 rfl shapeCasts_S2000000x1_S2000000,
    nullary main_cst_0 (constant S_ .f32 0x3F800000#32),
    unary main_cst_0 main_v7 (broadcastInDim S2000000 ![] bcast_S_S2000000 : (⟨S_, .f32⟩ : BufTy).Contents (Elt F) → (⟨S2000000, .f32⟩ : BufTy).Contents (Elt F)),
    binary main_v6 main_v7 main_v8 (addf : (⟨S2000000, .f32⟩ : BufTy).Contents (Elt F) → (⟨S2000000, .f32⟩ : BufTy).Contents (Elt F) → (⟨S2000000, .f32⟩ : BufTy).Contents (Elt F)),
    nullary main_cst_1 (constant S_ .f32 0x43000000#32),
    unary main_cst_1 main_v9 (broadcastInDim S2000000 ![] bcast_S_S2000000 : (⟨S_, .f32⟩ : BufTy).Contents (Elt F) → (⟨S2000000, .f32⟩ : BufTy).Contents (Elt F)),
    binary main_v8 main_v9 main_v10 (mulf : (⟨S2000000, .f32⟩ : BufTy).Contents (Elt F) → (⟨S2000000, .f32⟩ : BufTy).Contents (Elt F) → (⟨S2000000, .f32⟩ : BufTy).Contents (Elt F)),
    nullary main_cst_2 (constant S_ .f32 0x3F800000#32),
    unary main_cst_2 main_v11 (broadcastInDim S2000000 ![] bcast_S_S2000000 : (⟨S_, .f32⟩ : BufTy).Contents (Elt F) → (⟨S2000000, .f32⟩ : BufTy).Contents (Elt F)),
    binary main_v10 main_v11 main_v12 (subf : (⟨S2000000, .f32⟩ : BufTy).Contents (Elt F) → (⟨S2000000, .f32⟩ : BufTy).Contents (Elt F) → (⟨S2000000, .f32⟩ : BufTy).Contents (Elt F)),
    nullary main_cst_3 (constant S_ .f32 0x3F000000#32),
    unary main_cst_3 main_v13 (broadcastInDim S2000000 ![] bcast_S_S2000000 : (⟨S_, .f32⟩ : BufTy).Contents (Elt F) → (⟨S2000000, .f32⟩ : BufTy).Contents (Elt F)),
    binary main_v12 main_v13 main_v14 (mulf : (⟨S2000000, .f32⟩ : BufTy).Contents (Elt F) → (⟨S2000000, .f32⟩ : BufTy).Contents (Elt F) → (⟨S2000000, .f32⟩ : BufTy).Contents (Elt F)),
    unary main_v1 main_v15 ((extractStridedSlice S2000000x1 ![0, 1] · slices_S2000000x3_S2000000x1_0_1) : (⟨S2000000x3, .f32⟩ : BufTy).Contents (Elt F) → (⟨S2000000x1, .f32⟩ : BufTy).Contents (Elt F)),
    reshape main_v15 main_v16 rfl shapeCasts_S2000000x1_S2000000,
    nullary main_cst_4 (constant S_ .f32 0x3F800000#32),
    unary main_cst_4 main_v17 (broadcastInDim S2000000 ![] bcast_S_S2000000 : (⟨S_, .f32⟩ : BufTy).Contents (Elt F) → (⟨S2000000, .f32⟩ : BufTy).Contents (Elt F)),
    binary main_v16 main_v17 main_v18 (addf : (⟨S2000000, .f32⟩ : BufTy).Contents (Elt F) → (⟨S2000000, .f32⟩ : BufTy).Contents (Elt F) → (⟨S2000000, .f32⟩ : BufTy).Contents (Elt F)),
    nullary main_cst_5 (constant S_ .f32 0x43000000#32),
    unary main_cst_5 main_v19 (broadcastInDim S2000000 ![] bcast_S_S2000000 : (⟨S_, .f32⟩ : BufTy).Contents (Elt F) → (⟨S2000000, .f32⟩ : BufTy).Contents (Elt F)),
    binary main_v18 main_v19 main_v20 (mulf : (⟨S2000000, .f32⟩ : BufTy).Contents (Elt F) → (⟨S2000000, .f32⟩ : BufTy).Contents (Elt F) → (⟨S2000000, .f32⟩ : BufTy).Contents (Elt F)),
    nullary main_cst_6 (constant S_ .f32 0x3F800000#32),
    unary main_cst_6 main_v21 (broadcastInDim S2000000 ![] bcast_S_S2000000 : (⟨S_, .f32⟩ : BufTy).Contents (Elt F) → (⟨S2000000, .f32⟩ : BufTy).Contents (Elt F)),
    binary main_v20 main_v21 main_v22 (subf : (⟨S2000000, .f32⟩ : BufTy).Contents (Elt F) → (⟨S2000000, .f32⟩ : BufTy).Contents (Elt F) → (⟨S2000000, .f32⟩ : BufTy).Contents (Elt F)),
    nullary main_cst_7 (constant S_ .f32 0x3F000000#32),
    unary main_cst_7 main_v23 (broadcastInDim S2000000 ![] bcast_S_S2000000 : (⟨S_, .f32⟩ : BufTy).Contents (Elt F) → (⟨S2000000, .f32⟩ : BufTy).Contents (Elt F)),
    binary main_v22 main_v23 main_v24 (mulf : (⟨S2000000, .f32⟩ : BufTy).Contents (Elt F) → (⟨S2000000, .f32⟩ : BufTy).Contents (Elt F) → (⟨S2000000, .f32⟩ : BufTy).Contents (Elt F)),
    unary main_v1 main_v25 ((extractStridedSlice S2000000x1 ![0, 2] · slices_S2000000x3_S2000000x1_0_2) : (⟨S2000000x3, .f32⟩ : BufTy).Contents (Elt F) → (⟨S2000000x1, .f32⟩ : BufTy).Contents (Elt F)),
    reshape main_v25 main_v26 rfl shapeCasts_S2000000x1_S2000000,
    nullary main_cst_8 (constant S_ .f32 0x3F800000#32),
    unary main_cst_8 main_v27 (broadcastInDim S2000000 ![] bcast_S_S2000000 : (⟨S_, .f32⟩ : BufTy).Contents (Elt F) → (⟨S2000000, .f32⟩ : BufTy).Contents (Elt F)),
    binary main_v26 main_v27 main_v28 (addf : (⟨S2000000, .f32⟩ : BufTy).Contents (Elt F) → (⟨S2000000, .f32⟩ : BufTy).Contents (Elt F) → (⟨S2000000, .f32⟩ : BufTy).Contents (Elt F)),
    nullary main_cst_9 (constant S_ .f32 0x43000000#32),
    unary main_cst_9 main_v29 (broadcastInDim S2000000 ![] bcast_S_S2000000 : (⟨S_, .f32⟩ : BufTy).Contents (Elt F) → (⟨S2000000, .f32⟩ : BufTy).Contents (Elt F)),
    binary main_v28 main_v29 main_v30 (mulf : (⟨S2000000, .f32⟩ : BufTy).Contents (Elt F) → (⟨S2000000, .f32⟩ : BufTy).Contents (Elt F) → (⟨S2000000, .f32⟩ : BufTy).Contents (Elt F)),
    nullary main_cst_10 (constant S_ .f32 0x3F800000#32),
    unary main_cst_10 main_v31 (broadcastInDim S2000000 ![] bcast_S_S2000000 : (⟨S_, .f32⟩ : BufTy).Contents (Elt F) → (⟨S2000000, .f32⟩ : BufTy).Contents (Elt F)),
    binary main_v30 main_v31 main_v32 (subf : (⟨S2000000, .f32⟩ : BufTy).Contents (Elt F) → (⟨S2000000, .f32⟩ : BufTy).Contents (Elt F) → (⟨S2000000, .f32⟩ : BufTy).Contents (Elt F)),
    nullary main_cst_11 (constant S_ .f32 0x3F000000#32),
    unary main_cst_11 main_v33 (broadcastInDim S2000000 ![] bcast_S_S2000000 : (⟨S_, .f32⟩ : BufTy).Contents (Elt F) → (⟨S2000000, .f32⟩ : BufTy).Contents (Elt F)),
    binary main_v32 main_v33 main_v34 (mulf : (⟨S2000000, .f32⟩ : BufTy).Contents (Elt F) → (⟨S2000000, .f32⟩ : BufTy).Contents (Elt F) → (⟨S2000000, .f32⟩ : BufTy).Contents (Elt F)),
    unary main_v14 main_v35 (Host.floor : (⟨S2000000, .f32⟩ : BufTy).Contents (Elt F) → (⟨S2000000, .f32⟩ : BufTy).Contents (Elt F)),
    unary main_v24 main_v36 (Host.floor : (⟨S2000000, .f32⟩ : BufTy).Contents (Elt F) → (⟨S2000000, .f32⟩ : BufTy).Contents (Elt F)),
    unary main_v34 main_v37 (Host.floor : (⟨S2000000, .f32⟩ : BufTy).Contents (Elt F) → (⟨S2000000, .f32⟩ : BufTy).Contents (Elt F)),
    binary main_v14 main_v35 main_v38 (subf : (⟨S2000000, .f32⟩ : BufTy).Contents (Elt F) → (⟨S2000000, .f32⟩ : BufTy).Contents (Elt F) → (⟨S2000000, .f32⟩ : BufTy).Contents (Elt F)),
    binary main_v24 main_v36 main_v39 (subf : (⟨S2000000, .f32⟩ : BufTy).Contents (Elt F) → (⟨S2000000, .f32⟩ : BufTy).Contents (Elt F) → (⟨S2000000, .f32⟩ : BufTy).Contents (Elt F)),
    binary main_v34 main_v37 main_v40 (subf : (⟨S2000000, .f32⟩ : BufTy).Contents (Elt F) → (⟨S2000000, .f32⟩ : BufTy).Contents (Elt F) → (⟨S2000000, .f32⟩ : BufTy).Contents (Elt F)),
    unary main_v35 main_v41 (fptosi 32 : (⟨S2000000, .f32⟩ : BufTy).Contents (Elt F) → (⟨S2000000, .i32⟩ : BufTy).Contents (Elt F)),
    unary main_v36 main_v42 (fptosi 32 : (⟨S2000000, .f32⟩ : BufTy).Contents (Elt F) → (⟨S2000000, .i32⟩ : BufTy).Contents (Elt F)),
    unary main_v37 main_v43 (fptosi 32 : (⟨S2000000, .f32⟩ : BufTy).Contents (Elt F) → (⟨S2000000, .i32⟩ : BufTy).Contents (Elt F)),
    nullary main_cst_12 (constant S_ .f32 0x00000000#32),
    unary main_cst_12 main_v44 (broadcastInDim S2097152 ![] bcast_S_S2097152 : (⟨S_, .f32⟩ : BufTy).Contents (Elt F) → (⟨S2097152, .f32⟩ : BufTy).Contents (Elt F)),
    nullary main_cst_13 (constant S_ .f32 0x3F800000#32) ]
/-- The stretch, as printed, is the line of its operations. -/
theorem part_0_eq (d : Dev nD) : main_part0 (F := F) d = seq ops_0 := rfl
/-- The references they write. -/
abbrev ops_0_W : List (Ref sig .tc) := [main_v0, main_v1, main_v2, main_v3, main_cst, main_v4, main_v5, main_v6, main_cst_0, main_v7, main_v8, main_cst_1, main_v9, main_v10, main_cst_2, main_v11, main_v12, main_cst_3, main_v13, main_v14, main_v15, main_v16, main_cst_4, main_v17, main_v18, main_cst_5, main_v19, main_v20, main_cst_6, main_v21, main_v22, main_cst_7, main_v23, main_v24, main_v25, main_v26, main_cst_8, main_v27, main_v28, main_cst_9, main_v29, main_v30, main_cst_10, main_v31, main_v32, main_cst_11, main_v33, main_v34, main_v35, main_v36, main_v37, main_v38, main_v39, main_v40, main_v41, main_v42, main_v43, main_cst_12, main_v44, main_cst_13]
theorem ops_0_writes : (ops_0 : List (HloOp τ sig (Elt F))).Forall fun op => op.writes ⊆ (ops_0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_0_sub : (ops_0 : List (HloOp τ sig (Elt F))).Forall fun op => op.bufs ⊆ tcRefs τ sig :=
  ⟨binary_bufs_sub .., reshape_bufs_sub .., binary_bufs_sub .., reshape_bufs_sub .., nullary_bufs_sub .., unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., unary_bufs_sub .., unary_bufs_sub .., nullary_bufs_sub .., unary_bufs_sub .., nullary_bufs_sub ..⟩
theorem ops_0_fresh : (ops_0 : List (HloOp τ sig (Elt F))).Forall fun op => op.fresh = ∅ := by
  simp only [List.Forall]; repeat' constructor
theorem skip_0 (W : Valuation τ sig (Elt F)) {r : Ref sig .tc} (h : r ∉ ops_0_W) :
    after (no_index (ops_0 (F := F))) W (no_index (Proc.devRef .tc r)) = W (Proc.devRef .tc r) :=
  after_of_writes_sub ops_0 W ops_0_writes h

/-- Operations 60 to 123 of @main: the printed program's stretch 1. -/
abbrev ops_1 : List (HloOp τ sig (Elt F)) :=
  [ unary main_cst_13 main_v45 (broadcastInDim S2000000 ![] bcast_S_S2000000 : (⟨S_, .f32⟩ : BufTy).Contents (Elt F) → (⟨S2000000, .f32⟩ : BufTy).Contents (Elt F)),
    binary main_v45 main_v40 main_v46 (subf : (⟨S2000000, .f32⟩ : BufTy).Contents (Elt F) → (⟨S2000000, .f32⟩ : BufTy).Contents (Elt F) → (⟨S2000000, .f32⟩ : BufTy).Contents (Elt F)),
    nullary main_cst_14 (constant S_ .f32 0x3F800000#32),
    unary main_cst_14 main_v47 (broadcastInDim S2000000 ![] bcast_S_S2000000 : (⟨S_, .f32⟩ : BufTy).Contents (Elt F) → (⟨S2000000, .f32⟩ : BufTy).Contents (Elt F)),
    binary main_v47 main_v39 main_v48 (subf : (⟨S2000000, .f32⟩ : BufTy).Contents (Elt F) → (⟨S2000000, .f32⟩ : BufTy).Contents (Elt F) → (⟨S2000000, .f32⟩ : BufTy).Contents (Elt F)),
    nullary main_cst_15 (constant S_ .f32 0x3F800000#32),
    unary main_cst_15 main_v49 (broadcastInDim S2000000 ![] bcast_S_S2000000 : (⟨S_, .f32⟩ : BufTy).Contents (Elt F) → (⟨S2000000, .f32⟩ : BufTy).Contents (Elt F)),
    binary main_v49 main_v38 main_v50 (subf : (⟨S2000000, .f32⟩ : BufTy).Contents (Elt F) → (⟨S2000000, .f32⟩ : BufTy).Contents (Elt F) → (⟨S2000000, .f32⟩ : BufTy).Contents (Elt F)),
    nullary main_c (constantI S_ 32 0#32),
    unary main_c main_v51 (broadcastInDim S2000000 ![] bcast_S_S2000000 : (⟨S_, .i32⟩ : BufTy).Contents (Elt F) → (⟨S2000000, .i32⟩ : BufTy).Contents (Elt F)),
    binary main_v41 main_v51 main_v52 (addi : (⟨S2000000, .i32⟩ : BufTy).Contents (Elt F) → (⟨S2000000, .i32⟩ : BufTy).Contents (Elt F) → (⟨S2000000, .i32⟩ : BufTy).Contents (Elt F)),
    nullary main_c_16 (constantI S_ 32 0#32),
    unary main_c_16 main_v53 (broadcastInDim S2000000 ![] bcast_S_S2000000 : (⟨S_, .i32⟩ : BufTy).Contents (Elt F) → (⟨S2000000, .i32⟩ : BufTy).Contents (Elt F)),
    binary main_v42 main_v53 main_v54 (addi : (⟨S2000000, .i32⟩ : BufTy).Contents (Elt F) → (⟨S2000000, .i32⟩ : BufTy).Contents (Elt F) → (⟨S2000000, .i32⟩ : BufTy).Contents (Elt F)),
    nullary main_c_17 (constantI S_ 32 0#32),
    unary main_c_17 main_v55 (broadcastInDim S2000000 ![] bcast_S_S2000000 : (⟨S_, .i32⟩ : BufTy).Contents (Elt F) → (⟨S2000000, .i32⟩ : BufTy).Contents (Elt F)),
    binary main_v43 main_v55 main_v56 (addi : (⟨S2000000, .i32⟩ : BufTy).Contents (Elt F) → (⟨S2000000, .i32⟩ : BufTy).Contents (Elt F) → (⟨S2000000, .i32⟩ : BufTy).Contents (Elt F)),
    nullary main_c_18 (constantI S_ 32 0#32),
    unary main_c_18 main_v57 (broadcastInDim S2000000 ![] bcast_S_S2000000 : (⟨S_, .i32⟩ : BufTy).Contents (Elt F) → (⟨S2000000, .i32⟩ : BufTy).Contents (Elt F)),
    binary main_v52 main_v57 main_v58 (cmpi .sge : (⟨S2000000, .i32⟩ : BufTy).Contents (Elt F) → (⟨S2000000, .i32⟩ : BufTy).Contents (Elt F) → (⟨S2000000, .i1⟩ : BufTy).Contents (Elt F)),
    nullary main_c_19 (constantI S_ 32 128#32),
    unary main_c_19 main_v59 (broadcastInDim S2000000 ![] bcast_S_S2000000 : (⟨S_, .i32⟩ : BufTy).Contents (Elt F) → (⟨S2000000, .i32⟩ : BufTy).Contents (Elt F)),
    binary main_v52 main_v59 main_v60 (cmpi .slt : (⟨S2000000, .i32⟩ : BufTy).Contents (Elt F) → (⟨S2000000, .i32⟩ : BufTy).Contents (Elt F) → (⟨S2000000, .i1⟩ : BufTy).Contents (Elt F)),
    binary main_v58 main_v60 main_v61 (andi : (⟨S2000000, .i1⟩ : BufTy).Contents (Elt F) → (⟨S2000000, .i1⟩ : BufTy).Contents (Elt F) → (⟨S2000000, .i1⟩ : BufTy).Contents (Elt F)),
    nullary main_c_20 (constantI S_ 32 0#32),
    unary main_c_20 main_v62 (broadcastInDim S2000000 ![] bcast_S_S2000000 : (⟨S_, .i32⟩ : BufTy).Contents (Elt F) → (⟨S2000000, .i32⟩ : BufTy).Contents (Elt F)),
    binary main_v54 main_v62 main_v63 (cmpi .sge : (⟨S2000000, .i32⟩ : BufTy).Contents (Elt F) → (⟨S2000000, .i32⟩ : BufTy).Contents (Elt F) → (⟨S2000000, .i1⟩ : BufTy).Contents (Elt F)),
    binary main_v61 main_v63 main_v64 (andi : (⟨S2000000, .i1⟩ : BufTy).Contents (Elt F) → (⟨S2000000, .i1⟩ : BufTy).Contents (Elt F) → (⟨S2000000, .i1⟩ : BufTy).Contents (Elt F)),
    nullary main_c_21 (constantI S_ 32 128#32),
    unary main_c_21 main_v65 (broadcastInDim S2000000 ![] bcast_S_S2000000 : (⟨S_, .i32⟩ : BufTy).Contents (Elt F) → (⟨S2000000, .i32⟩ : BufTy).Contents (Elt F)),
    binary main_v54 main_v65 main_v66 (cmpi .slt : (⟨S2000000, .i32⟩ : BufTy).Contents (Elt F) → (⟨S2000000, .i32⟩ : BufTy).Contents (Elt F) → (⟨S2000000, .i1⟩ : BufTy).Contents (Elt F)),
    binary main_v64 main_v66 main_v67 (andi : (⟨S2000000, .i1⟩ : BufTy).Contents (Elt F) → (⟨S2000000, .i1⟩ : BufTy).Contents (Elt F) → (⟨S2000000, .i1⟩ : BufTy).Contents (Elt F)),
    nullary main_c_22 (constantI S_ 32 0#32),
    unary main_c_22 main_v68 (broadcastInDim S2000000 ![] bcast_S_S2000000 : (⟨S_, .i32⟩ : BufTy).Contents (Elt F) → (⟨S2000000, .i32⟩ : BufTy).Contents (Elt F)),
    binary main_v56 main_v68 main_v69 (cmpi .sge : (⟨S2000000, .i32⟩ : BufTy).Contents (Elt F) → (⟨S2000000, .i32⟩ : BufTy).Contents (Elt F) → (⟨S2000000, .i1⟩ : BufTy).Contents (Elt F)),
    binary main_v67 main_v69 main_v70 (andi : (⟨S2000000, .i1⟩ : BufTy).Contents (Elt F) → (⟨S2000000, .i1⟩ : BufTy).Contents (Elt F) → (⟨S2000000, .i1⟩ : BufTy).Contents (Elt F)),
    nullary main_c_23 (constantI S_ 32 128#32),
    unary main_c_23 main_v71 (broadcastInDim S2000000 ![] bcast_S_S2000000 : (⟨S_, .i32⟩ : BufTy).Contents (Elt F) → (⟨S2000000, .i32⟩ : BufTy).Contents (Elt F)),
    binary main_v56 main_v71 main_v72 (cmpi .slt : (⟨S2000000, .i32⟩ : BufTy).Contents (Elt F) → (⟨S2000000, .i32⟩ : BufTy).Contents (Elt F) → (⟨S2000000, .i1⟩ : BufTy).Contents (Elt F)),
    binary main_v70 main_v72 main_v73 (andi : (⟨S2000000, .i1⟩ : BufTy).Contents (Elt F) → (⟨S2000000, .i1⟩ : BufTy).Contents (Elt F) → (⟨S2000000, .i1⟩ : BufTy).Contents (Elt F)),
    nullary main_c_24 (constantI S_ 32 128#32),
    unary main_c_24 main_v74 (broadcastInDim S2000000 ![] bcast_S_S2000000 : (⟨S_, .i32⟩ : BufTy).Contents (Elt F) → (⟨S2000000, .i32⟩ : BufTy).Contents (Elt F)),
    binary main_v56 main_v74 main_v75 (muli : (⟨S2000000, .i32⟩ : BufTy).Contents (Elt F) → (⟨S2000000, .i32⟩ : BufTy).Contents (Elt F) → (⟨S2000000, .i32⟩ : BufTy).Contents (Elt F)),
    binary main_v75 main_v54 main_v76 (addi : (⟨S2000000, .i32⟩ : BufTy).Contents (Elt F) → (⟨S2000000, .i32⟩ : BufTy).Contents (Elt F) → (⟨S2000000, .i32⟩ : BufTy).Contents (Elt F)),
    nullary main_c_25 (constantI S_ 32 128#32),
    unary main_c_25 main_v77 (broadcastInDim S2000000 ![] bcast_S_S2000000 : (⟨S_, .i32⟩ : BufTy).Contents (Elt F) → (⟨S2000000, .i32⟩ : BufTy).Contents (Elt F)),
    binary main_v76 main_v77 main_v78 (muli : (⟨S2000000, .i32⟩ : BufTy).Contents (Elt F) → (⟨S2000000, .i32⟩ : BufTy).Contents (Elt F) → (⟨S2000000, .i32⟩ : BufTy).Contents (Elt F)),
    binary main_v78 main_v52 main_v79 (addi : (⟨S2000000, .i32⟩ : BufTy).Contents (Elt F) → (⟨S2000000, .i32⟩ : BufTy).Contents (Elt F) → (⟨S2000000, .i32⟩ : BufTy).Contents (Elt F)),
    nullary main_c_26 (constantI S_ 32 0#32),
    TRef.unary (TRef.of (T := ⟨S_, .i32⟩) main_c_26) (TRef.of (T := ⟨S_, .i32⟩) main_call0_v0) id,
    TRef.unary (TRef.of (T := ⟨S_, .i32⟩) main_call0_v0) (TRef.of (T := ⟨S2000000, .i32⟩) main_call0_v1) (broadcastInDim S2000000 ![] bcast_S_S2000000),
    TRef.ternary (TRef.of (T := ⟨S2000000, .i1⟩) main_v73) (TRef.of (T := ⟨S2000000, .i32⟩) main_v79) (TRef.of (T := ⟨S2000000, .i32⟩) main_call0_v1) (TRef.of (T := ⟨S2000000, .i32⟩) main_v80) select,
    binary main_v50 main_v48 main_v81 (mulf : (⟨S2000000, .f32⟩ : BufTy).Contents (Elt F) → (⟨S2000000, .f32⟩ : BufTy).Contents (Elt F) → (⟨S2000000, .f32⟩ : BufTy).Contents (Elt F)),
    binary main_v81 main_v46 main_v82 (mulf : (⟨S2000000, .f32⟩ : BufTy).Contents (Elt F) → (⟨S2000000, .f32⟩ : BufTy).Contents (Elt F) → (⟨S2000000, .f32⟩ : BufTy).Contents (Elt F)),
    binary main_v82 main_v4 main_v83 (mulf : (⟨S2000000, .f32⟩ : BufTy).Contents (Elt F) → (⟨S2000000, .f32⟩ : BufTy).Contents (Elt F) → (⟨S2000000, .f32⟩ : BufTy).Contents (Elt F)),
    nullary main_cst_27 (constant S_ .f32 0x00000000#32),
    TRef.unary (TRef.of (T := ⟨S_, .f32⟩) main_cst_27) (TRef.of (T := ⟨S_, .f32⟩) main_call1_v0) id,
    TRef.unary (TRef.of (T := ⟨S_, .f32⟩) main_call1_v0) (TRef.of (T := ⟨S2000000, .f32⟩) main_call1_v1) (broadcastInDim S2000000 ![] bcast_S_S2000000),
    TRef.ternary (TRef.of (T := ⟨S2000000, .i1⟩) main_v73) (TRef.of (T := ⟨S2000000, .f32⟩) main_v83) (TRef.of (T := ⟨S2000000, .f32⟩) main_call1_v1) (TRef.of (T := ⟨S2000000, .f32⟩) main_v84) select,
    nullary main_c_28 (constantI S_ 32 0#32),
    unary main_c_28 main_v85 (broadcastInDim S2000000 ![] bcast_S_S2000000 : (⟨S_, .i32⟩ : BufTy).Contents (Elt F) → (⟨S2000000, .i32⟩ : BufTy).Contents (Elt F)),
    binary main_v80 main_v85 main_v86 (cmpi .slt : (⟨S2000000, .i32⟩ : BufTy).Contents (Elt F) → (⟨S2000000, .i32⟩ : BufTy).Contents (Elt F) → (⟨S2000000, .i1⟩ : BufTy).Contents (Elt F)),
    nullary main_c_29 (constantI S_ 32 2097152#32),
    unary main_c_29 main_v87 (broadcastInDim S2000000 ![] bcast_S_S2000000 : (⟨S_, .i32⟩ : BufTy).Contents (Elt F) → (⟨S2000000, .i32⟩ : BufTy).Contents (Elt F)) ]
/-- The stretch, as printed, is the line of its operations. -/
theorem part_1_eq (d : Dev nD) : main_part1 (F := F) d = seq ops_1 := rfl
/-- The references they write. -/
abbrev ops_1_W : List (Ref sig .tc) := [main_v45, main_v46, main_cst_14, main_v47, main_v48, main_cst_15, main_v49, main_v50, main_c, main_v51, main_v52, main_c_16, main_v53, main_v54, main_c_17, main_v55, main_v56, main_c_18, main_v57, main_v58, main_c_19, main_v59, main_v60, main_v61, main_c_20, main_v62, main_v63, main_v64, main_c_21, main_v65, main_v66, main_v67, main_c_22, main_v68, main_v69, main_v70, main_c_23, main_v71, main_v72, main_v73, main_c_24, main_v74, main_v75, main_v76, main_c_25, main_v77, main_v78, main_v79, main_c_26, main_call0_v0, main_call0_v1, main_v80, main_v81, main_v82, main_v83, main_cst_27, main_call1_v0, main_call1_v1, main_v84, main_c_28, main_v85, main_v86, main_c_29, main_v87]
theorem ops_1_writes : (ops_1 : List (HloOp τ sig (Elt F))).Forall fun op => op.writes ⊆ (ops_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_1_sub : (ops_1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub ..⟩
theorem ops_1_fresh : (ops_1 : List (HloOp τ sig (Elt F))).Forall fun op => op.fresh = ∅ := by
  simp only [List.Forall]; repeat' constructor
theorem skip_1 (W : Valuation τ sig (Elt F)) {r : Ref sig .tc} (h : r ∉ ops_1_W) :
    after (no_index (ops_1 (F := F))) W (no_index (Proc.devRef .tc r)) = W (Proc.devRef .tc r) :=
  after_of_writes_sub ops_1 W ops_1_writes h

/-- Operations 124 to 187 of @main: the printed program's stretch 2. -/
abbrev ops_2 : List (HloOp τ sig (Elt F)) :=
  [ binary main_v80 main_v87 main_v88 (addi : (⟨S2000000, .i32⟩ : BufTy).Contents (Elt F) → (⟨S2000000, .i32⟩ : BufTy).Contents (Elt F) → (⟨S2000000, .i32⟩ : BufTy).Contents (Elt F)),
    ternary main_v86 main_v88 main_v80 main_v89 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v89 main_v90 (broadcastInDim S2000000x1 ![0] bcast_S2000000_S2000000x1_0 : (⟨S2000000, .i32⟩ : BufTy).Contents (Elt F) → (⟨S2000000x1, .i32⟩ : BufTy).Contents (Elt F)),
    ternary main_v44 main_v90 main_v84 main_v91 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_30 (constantI S_ 32 1#32),
    unary main_c_30 main_v92 (broadcastInDim S2000000 ![] bcast_S_S2000000 : (⟨S_, .i32⟩ : BufTy).Contents (Elt F) → (⟨S2000000, .i32⟩ : BufTy).Contents (Elt F)),
    binary main_v41 main_v92 main_v93 (addi : (⟨S2000000, .i32⟩ : BufTy).Contents (Elt F) → (⟨S2000000, .i32⟩ : BufTy).Contents (Elt F) → (⟨S2000000, .i32⟩ : BufTy).Contents (Elt F)),
    nullary main_c_31 (constantI S_ 32 0#32),
    unary main_c_31 main_v94 (broadcastInDim S2000000 ![] bcast_S_S2000000 : (⟨S_, .i32⟩ : BufTy).Contents (Elt F) → (⟨S2000000, .i32⟩ : BufTy).Contents (Elt F)),
    binary main_v42 main_v94 main_v95 (addi : (⟨S2000000, .i32⟩ : BufTy).Contents (Elt F) → (⟨S2000000, .i32⟩ : BufTy).Contents (Elt F) → (⟨S2000000, .i32⟩ : BufTy).Contents (Elt F)),
    nullary main_c_32 (constantI S_ 32 0#32),
    unary main_c_32 main_v96 (broadcastInDim S2000000 ![] bcast_S_S2000000 : (⟨S_, .i32⟩ : BufTy).Contents (Elt F) → (⟨S2000000, .i32⟩ : BufTy).Contents (Elt F)),
    binary main_v43 main_v96 main_v97 (addi : (⟨S2000000, .i32⟩ : BufTy).Contents (Elt F) → (⟨S2000000, .i32⟩ : BufTy).Contents (Elt F) → (⟨S2000000, .i32⟩ : BufTy).Contents (Elt F)),
    nullary main_c_33 (constantI S_ 32 0#32),
    unary main_c_33 main_v98 (broadcastInDim S2000000 ![] bcast_S_S2000000 : (⟨S_, .i32⟩ : BufTy).Contents (Elt F) → (⟨S2000000, .i32⟩ : BufTy).Contents (Elt F)),
    binary main_v93 main_v98 main_v99 (cmpi .sge : (⟨S2000000, .i32⟩ : BufTy).Contents (Elt F) → (⟨S2000000, .i32⟩ : BufTy).Contents (Elt F) → (⟨S2000000, .i1⟩ : BufTy).Contents (Elt F)),
    nullary main_c_34 (constantI S_ 32 128#32),
    unary main_c_34 main_v100 (broadcastInDim S2000000 ![] bcast_S_S2000000 : (⟨S_, .i32⟩ : BufTy).Contents (Elt F) → (⟨S2000000, .i32⟩ : BufTy).Contents (Elt F)),
    binary main_v93 main_v100 main_v101 (cmpi .slt : (⟨S2000000, .i32⟩ : BufTy).Contents (Elt F) → (⟨S2000000, .i32⟩ : BufTy).Contents (Elt F) → (⟨S2000000, .i1⟩ : BufTy).Contents (Elt F)),
    binary main_v99 main_v101 main_v102 (andi : (⟨S2000000, .i1⟩ : BufTy).Contents (Elt F) → (⟨S2000000, .i1⟩ : BufTy).Contents (Elt F) → (⟨S2000000, .i1⟩ : BufTy).Contents (Elt F)),
    nullary main_c_35 (constantI S_ 32 0#32),
    unary main_c_35 main_v103 (broadcastInDim S2000000 ![] bcast_S_S2000000 : (⟨S_, .i32⟩ : BufTy).Contents (Elt F) → (⟨S2000000, .i32⟩ : BufTy).Contents (Elt F)),
    binary main_v95 main_v103 main_v104 (cmpi .sge : (⟨S2000000, .i32⟩ : BufTy).Contents (Elt F) → (⟨S2000000, .i32⟩ : BufTy).Contents (Elt F) → (⟨S2000000, .i1⟩ : BufTy).Contents (Elt F)),
    binary main_v102 main_v104 main_v105 (andi : (⟨S2000000, .i1⟩ : BufTy).Contents (Elt F) → (⟨S2000000, .i1⟩ : BufTy).Contents (Elt F) → (⟨S2000000, .i1⟩ : BufTy).Contents (Elt F)),
    nullary main_c_36 (constantI S_ 32 128#32),
    unary main_c_36 main_v106 (broadcastInDim S2000000 ![] bcast_S_S2000000 : (⟨S_, .i32⟩ : BufTy).Contents (Elt F) → (⟨S2000000, .i32⟩ : BufTy).Contents (Elt F)),
    binary main_v95 main_v106 main_v107 (cmpi .slt : (⟨S2000000, .i32⟩ : BufTy).Contents (Elt F) → (⟨S2000000, .i32⟩ : BufTy).Contents (Elt F) → (⟨S2000000, .i1⟩ : BufTy).Contents (Elt F)),
    binary main_v105 main_v107 main_v108 (andi : (⟨S2000000, .i1⟩ : BufTy).Contents (Elt F) → (⟨S2000000, .i1⟩ : BufTy).Contents (Elt F) → (⟨S2000000, .i1⟩ : BufTy).Contents (Elt F)),
    nullary main_c_37 (constantI S_ 32 0#32),
    unary main_c_37 main_v109 (broadcastInDim S2000000 ![] bcast_S_S2000000 : (⟨S_, .i32⟩ : BufTy).Contents (Elt F) → (⟨S2000000, .i32⟩ : BufTy).Contents (Elt F)),
    binary main_v97 main_v109 main_v110 (cmpi .sge : (⟨S2000000, .i32⟩ : BufTy).Contents (Elt F) → (⟨S2000000, .i32⟩ : BufTy).Contents (Elt F) → (⟨S2000000, .i1⟩ : BufTy).Contents (Elt F)),
    binary main_v108 main_v110 main_v111 (andi : (⟨S2000000, .i1⟩ : BufTy).Contents (Elt F) → (⟨S2000000, .i1⟩ : BufTy).Contents (Elt F) → (⟨S2000000, .i1⟩ : BufTy).Contents (Elt F)),
    nullary main_c_38 (constantI S_ 32 128#32),
    unary main_c_38 main_v112 (broadcastInDim S2000000 ![] bcast_S_S2000000 : (⟨S_, .i32⟩ : BufTy).Contents (Elt F) → (⟨S2000000, .i32⟩ : BufTy).Contents (Elt F)),
    binary main_v97 main_v112 main_v113 (cmpi .slt : (⟨S2000000, .i32⟩ : BufTy).Contents (Elt F) → (⟨S2000000, .i32⟩ : BufTy).Contents (Elt F) → (⟨S2000000, .i1⟩ : BufTy).Contents (Elt F)),
    binary main_v111 main_v113 main_v114 (andi : (⟨S2000000, .i1⟩ : BufTy).Contents (Elt F) → (⟨S2000000, .i1⟩ : BufTy).Contents (Elt F) → (⟨S2000000, .i1⟩ : BufTy).Contents (Elt F)),
    nullary main_c_39 (constantI S_ 32 128#32),
    unary main_c_39 main_v115 (broadcastInDim S2000000 ![] bcast_S_S2000000 : (⟨S_, .i32⟩ : BufTy).Contents (Elt F) → (⟨S2000000, .i32⟩ : BufTy).Contents (Elt F)),
    binary main_v97 main_v115 main_v116 (muli : (⟨S2000000, .i32⟩ : BufTy).Contents (Elt F) → (⟨S2000000, .i32⟩ : BufTy).Contents (Elt F) → (⟨S2000000, .i32⟩ : BufTy).Contents (Elt F)),
    binary main_v116 main_v95 main_v117 (addi : (⟨S2000000, .i32⟩ : BufTy).Contents (Elt F) → (⟨S2000000, .i32⟩ : BufTy).Contents (Elt F) → (⟨S2000000, .i32⟩ : BufTy).Contents (Elt F)),
    nullary main_c_40 (constantI S_ 32 128#32),
    unary main_c_40 main_v118 (broadcastInDim S2000000 ![] bcast_S_S2000000 : (⟨S_, .i32⟩ : BufTy).Contents (Elt F) → (⟨S2000000, .i32⟩ : BufTy).Contents (Elt F)),
    binary main_v117 main_v118 main_v119 (muli : (⟨S2000000, .i32⟩ : BufTy).Contents (Elt F) → (⟨S2000000, .i32⟩ : BufTy).Contents (Elt F) → (⟨S2000000, .i32⟩ : BufTy).Contents (Elt F)),
    binary main_v119 main_v93 main_v120 (addi : (⟨S2000000, .i32⟩ : BufTy).Contents (Elt F) → (⟨S2000000, .i32⟩ : BufTy).Contents (Elt F) → (⟨S2000000, .i32⟩ : BufTy).Contents (Elt F)),
    nullary main_c_41 (constantI S_ 32 0#32),
    TRef.unary (TRef.of (T := ⟨S_, .i32⟩) main_c_41) (TRef.of (T := ⟨S_, .i32⟩) main_call2_v0) id,
    TRef.unary (TRef.of (T := ⟨S_, .i32⟩) main_call2_v0) (TRef.of (T := ⟨S2000000, .i32⟩) main_call2_v1) (broadcastInDim S2000000 ![] bcast_S_S2000000),
    TRef.ternary (TRef.of (T := ⟨S2000000, .i1⟩) main_v114) (TRef.of (T := ⟨S2000000, .i32⟩) main_v120) (TRef.of (T := ⟨S2000000, .i32⟩) main_call2_v1) (TRef.of (T := ⟨S2000000, .i32⟩) main_v121) select,
    binary main_v38 main_v48 main_v122 (mulf : (⟨S2000000, .f32⟩ : BufTy).Contents (Elt F) → (⟨S2000000, .f32⟩ : BufTy).Contents (Elt F) → (⟨S2000000, .f32⟩ : BufTy).Contents (Elt F)),
    binary main_v122 main_v46 main_v123 (mulf : (⟨S2000000, .f32⟩ : BufTy).Contents (Elt F) → (⟨S2000000, .f32⟩ : BufTy).Contents (Elt F) → (⟨S2000000, .f32⟩ : BufTy).Contents (Elt F)),
    binary main_v123 main_v4 main_v124 (mulf : (⟨S2000000, .f32⟩ : BufTy).Contents (Elt F) → (⟨S2000000, .f32⟩ : BufTy).Contents (Elt F) → (⟨S2000000, .f32⟩ : BufTy).Contents (Elt F)),
    nullary main_cst_42 (constant S_ .f32 0x00000000#32),
    TRef.unary (TRef.of (T := ⟨S_, .f32⟩) main_cst_42) (TRef.of (T := ⟨S_, .f32⟩) main_call3_v0) id,
    TRef.unary (TRef.of (T := ⟨S_, .f32⟩) main_call3_v0) (TRef.of (T := ⟨S2000000, .f32⟩) main_call3_v1) (broadcastInDim S2000000 ![] bcast_S_S2000000),
    TRef.ternary (TRef.of (T := ⟨S2000000, .i1⟩) main_v114) (TRef.of (T := ⟨S2000000, .f32⟩) main_v124) (TRef.of (T := ⟨S2000000, .f32⟩) main_call3_v1) (TRef.of (T := ⟨S2000000, .f32⟩) main_v125) select,
    nullary main_c_43 (constantI S_ 32 0#32),
    unary main_c_43 main_v126 (broadcastInDim S2000000 ![] bcast_S_S2000000 : (⟨S_, .i32⟩ : BufTy).Contents (Elt F) → (⟨S2000000, .i32⟩ : BufTy).Contents (Elt F)),
    binary main_v121 main_v126 main_v127 (cmpi .slt : (⟨S2000000, .i32⟩ : BufTy).Contents (Elt F) → (⟨S2000000, .i32⟩ : BufTy).Contents (Elt F) → (⟨S2000000, .i1⟩ : BufTy).Contents (Elt F)),
    nullary main_c_44 (constantI S_ 32 2097152#32),
    unary main_c_44 main_v128 (broadcastInDim S2000000 ![] bcast_S_S2000000 : (⟨S_, .i32⟩ : BufTy).Contents (Elt F) → (⟨S2000000, .i32⟩ : BufTy).Contents (Elt F)),
    binary main_v121 main_v128 main_v129 (addi : (⟨S2000000, .i32⟩ : BufTy).Contents (Elt F) → (⟨S2000000, .i32⟩ : BufTy).Contents (Elt F) → (⟨S2000000, .i32⟩ : BufTy).Contents (Elt F)),
    ternary main_v127 main_v129 main_v121 main_v130 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v130 main_v131 (broadcastInDim S2000000x1 ![0] bcast_S2000000_S2000000x1_0 : (⟨S2000000, .i32⟩ : BufTy).Contents (Elt F) → (⟨S2000000x1, .i32⟩ : BufTy).Contents (Elt F)),
    ternary main_v91 main_v131 main_v125 main_v132 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)) ]
/-- The stretch, as printed, is the line of its operations. -/
theorem part_2_eq (d : Dev nD) : main_part2 (F := F) d = seq ops_2 := rfl
/-- The references they write. -/
abbrev ops_2_W : List (Ref sig .tc) := [main_v88, main_v89, main_v90, main_v91, main_c_30, main_v92, main_v93, main_c_31, main_v94, main_v95, main_c_32, main_v96, main_v97, main_c_33, main_v98, main_v99, main_c_34, main_v100, main_v101, main_v102, main_c_35, main_v103, main_v104, main_v105, main_c_36, main_v106, main_v107, main_v108, main_c_37, main_v109, main_v110, main_v111, main_c_38, main_v112, main_v113, main_v114, main_c_39, main_v115, main_v116, main_v117, main_c_40, main_v118, main_v119, main_v120, main_c_41, main_call2_v0, main_call2_v1, main_v121, main_v122, main_v123, main_v124, main_cst_42, main_call3_v0, main_call3_v1, main_v125, main_c_43, main_v126, main_v127, main_c_44, main_v128, main_v129, main_v130, main_v131, main_v132]
theorem ops_2_writes : (ops_2 : List (HloOp τ sig (Elt F))).Forall fun op => op.writes ⊆ (ops_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_2_sub : (ops_2 : List (HloOp τ sig (Elt F))).Forall fun op => op.bufs ⊆ tcRefs τ sig :=
  ⟨binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩
theorem ops_2_fresh : (ops_2 : List (HloOp τ sig (Elt F))).Forall fun op => op.fresh = ∅ := by
  simp only [List.Forall]; repeat' constructor
theorem skip_2 (W : Valuation τ sig (Elt F)) {r : Ref sig .tc} (h : r ∉ ops_2_W) :
    after (no_index (ops_2 (F := F))) W (no_index (Proc.devRef .tc r)) = W (Proc.devRef .tc r) :=
  after_of_writes_sub ops_2 W ops_2_writes h

/-- Operations 188 to 251 of @main: the printed program's stretch 3. -/
abbrev ops_3 : List (HloOp τ sig (Elt F)) :=
  [ nullary main_cst_45 (constant S_ .f32 0x3F800000#32),
    unary main_cst_45 main_v133 (broadcastInDim S2000000 ![] bcast_S_S2000000 : (⟨S_, .f32⟩ : BufTy).Contents (Elt F) → (⟨S2000000, .f32⟩ : BufTy).Contents (Elt F)),
    binary main_v133 main_v38 main_v134 (subf : (⟨S2000000, .f32⟩ : BufTy).Contents (Elt F) → (⟨S2000000, .f32⟩ : BufTy).Contents (Elt F) → (⟨S2000000, .f32⟩ : BufTy).Contents (Elt F)),
    nullary main_c_46 (constantI S_ 32 0#32),
    unary main_c_46 main_v135 (broadcastInDim S2000000 ![] bcast_S_S2000000 : (⟨S_, .i32⟩ : BufTy).Contents (Elt F) → (⟨S2000000, .i32⟩ : BufTy).Contents (Elt F)),
    binary main_v41 main_v135 main_v136 (addi : (⟨S2000000, .i32⟩ : BufTy).Contents (Elt F) → (⟨S2000000, .i32⟩ : BufTy).Contents (Elt F) → (⟨S2000000, .i32⟩ : BufTy).Contents (Elt F)),
    nullary main_c_47 (constantI S_ 32 1#32),
    unary main_c_47 main_v137 (broadcastInDim S2000000 ![] bcast_S_S2000000 : (⟨S_, .i32⟩ : BufTy).Contents (Elt F) → (⟨S2000000, .i32⟩ : BufTy).Contents (Elt F)),
    binary main_v42 main_v137 main_v138 (addi : (⟨S2000000, .i32⟩ : BufTy).Contents (Elt F) → (⟨S2000000, .i32⟩ : BufTy).Contents (Elt F) → (⟨S2000000, .i32⟩ : BufTy).Contents (Elt F)),
    nullary main_c_48 (constantI S_ 32 0#32),
    unary main_c_48 main_v139 (broadcastInDim S2000000 ![] bcast_S_S2000000 : (⟨S_, .i32⟩ : BufTy).Contents (Elt F) → (⟨S2000000, .i32⟩ : BufTy).Contents (Elt F)),
    binary main_v43 main_v139 main_v140 (addi : (⟨S2000000, .i32⟩ : BufTy).Contents (Elt F) → (⟨S2000000, .i32⟩ : BufTy).Contents (Elt F) → (⟨S2000000, .i32⟩ : BufTy).Contents (Elt F)),
    nullary main_c_49 (constantI S_ 32 0#32),
    unary main_c_49 main_v141 (broadcastInDim S2000000 ![] bcast_S_S2000000 : (⟨S_, .i32⟩ : BufTy).Contents (Elt F) → (⟨S2000000, .i32⟩ : BufTy).Contents (Elt F)),
    binary main_v136 main_v141 main_v142 (cmpi .sge : (⟨S2000000, .i32⟩ : BufTy).Contents (Elt F) → (⟨S2000000, .i32⟩ : BufTy).Contents (Elt F) → (⟨S2000000, .i1⟩ : BufTy).Contents (Elt F)),
    nullary main_c_50 (constantI S_ 32 128#32),
    unary main_c_50 main_v143 (broadcastInDim S2000000 ![] bcast_S_S2000000 : (⟨S_, .i32⟩ : BufTy).Contents (Elt F) → (⟨S2000000, .i32⟩ : BufTy).Contents (Elt F)),
    binary main_v136 main_v143 main_v144 (cmpi .slt : (⟨S2000000, .i32⟩ : BufTy).Contents (Elt F) → (⟨S2000000, .i32⟩ : BufTy).Contents (Elt F) → (⟨S2000000, .i1⟩ : BufTy).Contents (Elt F)),
    binary main_v142 main_v144 main_v145 (andi : (⟨S2000000, .i1⟩ : BufTy).Contents (Elt F) → (⟨S2000000, .i1⟩ : BufTy).Contents (Elt F) → (⟨S2000000, .i1⟩ : BufTy).Contents (Elt F)),
    nullary main_c_51 (constantI S_ 32 0#32),
    unary main_c_51 main_v146 (broadcastInDim S2000000 ![] bcast_S_S2000000 : (⟨S_, .i32⟩ : BufTy).Contents (Elt F) → (⟨S2000000, .i32⟩ : BufTy).Contents (Elt F)),
    binary main_v138 main_v146 main_v147 (cmpi .sge : (⟨S2000000, .i32⟩ : BufTy).Contents (Elt F) → (⟨S2000000, .i32⟩ : BufTy).Contents (Elt F) → (⟨S2000000, .i1⟩ : BufTy).Contents (Elt F)),
    binary main_v145 main_v147 main_v148 (andi : (⟨S2000000, .i1⟩ : BufTy).Contents (Elt F) → (⟨S2000000, .i1⟩ : BufTy).Contents (Elt F) → (⟨S2000000, .i1⟩ : BufTy).Contents (Elt F)),
    nullary main_c_52 (constantI S_ 32 128#32),
    unary main_c_52 main_v149 (broadcastInDim S2000000 ![] bcast_S_S2000000 : (⟨S_, .i32⟩ : BufTy).Contents (Elt F) → (⟨S2000000, .i32⟩ : BufTy).Contents (Elt F)),
    binary main_v138 main_v149 main_v150 (cmpi .slt : (⟨S2000000, .i32⟩ : BufTy).Contents (Elt F) → (⟨S2000000, .i32⟩ : BufTy).Contents (Elt F) → (⟨S2000000, .i1⟩ : BufTy).Contents (Elt F)),
    binary main_v148 main_v150 main_v151 (andi : (⟨S2000000, .i1⟩ : BufTy).Contents (Elt F) → (⟨S2000000, .i1⟩ : BufTy).Contents (Elt F) → (⟨S2000000, .i1⟩ : BufTy).Contents (Elt F)),
    nullary main_c_53 (constantI S_ 32 0#32),
    unary main_c_53 main_v152 (broadcastInDim S2000000 ![] bcast_S_S2000000 : (⟨S_, .i32⟩ : BufTy).Contents (Elt F) → (⟨S2000000, .i32⟩ : BufTy).Contents (Elt F)),
    binary main_v140 main_v152 main_v153 (cmpi .sge : (⟨S2000000, .i32⟩ : BufTy).Contents (Elt F) → (⟨S2000000, .i32⟩ : BufTy).Contents (Elt F) → (⟨S2000000, .i1⟩ : BufTy).Contents (Elt F)),
    binary main_v151 main_v153 main_v154 (andi : (⟨S2000000, .i1⟩ : BufTy).Contents (Elt F) → (⟨S2000000, .i1⟩ : BufTy).Contents (Elt F) → (⟨S2000000, .i1⟩ : BufTy).Contents (Elt F)),
    nullary main_c_54 (constantI S_ 32 128#32),
    unary main_c_54 main_v155 (broadcastInDim S2000000 ![] bcast_S_S2000000 : (⟨S_, .i32⟩ : BufTy).Contents (Elt F) → (⟨S2000000, .i32⟩ : BufTy).Contents (Elt F)),
    binary main_v140 main_v155 main_v156 (cmpi .slt : (⟨S2000000, .i32⟩ : BufTy).Contents (Elt F) → (⟨S2000000, .i32⟩ : BufTy).Contents (Elt F) → (⟨S2000000, .i1⟩ : BufTy).Contents (Elt F)),
    binary main_v154 main_v156 main_v157 (andi : (⟨S2000000, .i1⟩ : BufTy).Contents (Elt F) → (⟨S2000000, .i1⟩ : BufTy).Contents (Elt F) → (⟨S2000000, .i1⟩ : BufTy).Contents (Elt F)),
    nullary main_c_55 (constantI S_ 32 128#32),
    unary main_c_55 main_v158 (broadcastInDim S2000000 ![] bcast_S_S2000000 : (⟨S_, .i32⟩ : BufTy).Contents (Elt F) → (⟨S2000000, .i32⟩ : BufTy).Contents (Elt F)),
    binary main_v140 main_v158 main_v159 (muli : (⟨S2000000, .i32⟩ : BufTy).Contents (Elt F) → (⟨S2000000, .i32⟩ : BufTy).Contents (Elt F) → (⟨S2000000, .i32⟩ : BufTy).Contents (Elt F)),
    binary main_v159 main_v138 main_v160 (addi : (⟨S2000000, .i32⟩ : BufTy).Contents (Elt F) → (⟨S2000000, .i32⟩ : BufTy).Contents (Elt F) → (⟨S2000000, .i32⟩ : BufTy).Contents (Elt F)),
    nullary main_c_56 (constantI S_ 32 128#32),
    unary main_c_56 main_v161 (broadcastInDim S2000000 ![] bcast_S_S2000000 : (⟨S_, .i32⟩ : BufTy).Contents (Elt F) → (⟨S2000000, .i32⟩ : BufTy).Contents (Elt F)),
    binary main_v160 main_v161 main_v162 (muli : (⟨S2000000, .i32⟩ : BufTy).Contents (Elt F) → (⟨S2000000, .i32⟩ : BufTy).Contents (Elt F) → (⟨S2000000, .i32⟩ : BufTy).Contents (Elt F)),
    binary main_v162 main_v136 main_v163 (addi : (⟨S2000000, .i32⟩ : BufTy).Contents (Elt F) → (⟨S2000000, .i32⟩ : BufTy).Contents (Elt F) → (⟨S2000000, .i32⟩ : BufTy).Contents (Elt F)),
    nullary main_c_57 (constantI S_ 32 0#32),
    TRef.unary (TRef.of (T := ⟨S_, .i32⟩) main_c_57) (TRef.of (T := ⟨S_, .i32⟩) main_call4_v0) id,
    TRef.unary (TRef.of (T := ⟨S_, .i32⟩) main_call4_v0) (TRef.of (T := ⟨S2000000, .i32⟩) main_call4_v1) (broadcastInDim S2000000 ![] bcast_S_S2000000),
    TRef.ternary (TRef.of (T := ⟨S2000000, .i1⟩) main_v157) (TRef.of (T := ⟨S2000000, .i32⟩) main_v163) (TRef.of (T := ⟨S2000000, .i32⟩) main_call4_v1) (TRef.of (T := ⟨S2000000, .i32⟩) main_v164) select,
    binary main_v134 main_v39 main_v165 (mulf : (⟨S2000000, .f32⟩ : BufTy).Contents (Elt F) → (⟨S2000000, .f32⟩ : BufTy).Contents (Elt F) → (⟨S2000000, .f32⟩ : BufTy).Contents (Elt F)),
    binary main_v165 main_v46 main_v166 (mulf : (⟨S2000000, .f32⟩ : BufTy).Contents (Elt F) → (⟨S2000000, .f32⟩ : BufTy).Contents (Elt F) → (⟨S2000000, .f32⟩ : BufTy).Contents (Elt F)),
    binary main_v166 main_v4 main_v167 (mulf : (⟨S2000000, .f32⟩ : BufTy).Contents (Elt F) → (⟨S2000000, .f32⟩ : BufTy).Contents (Elt F) → (⟨S2000000, .f32⟩ : BufTy).Contents (Elt F)),
    nullary main_cst_58 (constant S_ .f32 0x00000000#32),
    TRef.unary (TRef.of (T := ⟨S_, .f32⟩) main_cst_58) (TRef.of (T := ⟨S_, .f32⟩) main_call5_v0) id,
    TRef.unary (TRef.of (T := ⟨S_, .f32⟩) main_call5_v0) (TRef.of (T := ⟨S2000000, .f32⟩) main_call5_v1) (broadcastInDim S2000000 ![] bcast_S_S2000000),
    TRef.ternary (TRef.of (T := ⟨S2000000, .i1⟩) main_v157) (TRef.of (T := ⟨S2000000, .f32⟩) main_v167) (TRef.of (T := ⟨S2000000, .f32⟩) main_call5_v1) (TRef.of (T := ⟨S2000000, .f32⟩) main_v168) select,
    nullary main_c_59 (constantI S_ 32 0#32),
    unary main_c_59 main_v169 (broadcastInDim S2000000 ![] bcast_S_S2000000 : (⟨S_, .i32⟩ : BufTy).Contents (Elt F) → (⟨S2000000, .i32⟩ : BufTy).Contents (Elt F)),
    binary main_v164 main_v169 main_v170 (cmpi .slt : (⟨S2000000, .i32⟩ : BufTy).Contents (Elt F) → (⟨S2000000, .i32⟩ : BufTy).Contents (Elt F) → (⟨S2000000, .i1⟩ : BufTy).Contents (Elt F)),
    nullary main_c_60 (constantI S_ 32 2097152#32),
    unary main_c_60 main_v171 (broadcastInDim S2000000 ![] bcast_S_S2000000 : (⟨S_, .i32⟩ : BufTy).Contents (Elt F) → (⟨S2000000, .i32⟩ : BufTy).Contents (Elt F)),
    binary main_v164 main_v171 main_v172 (addi : (⟨S2000000, .i32⟩ : BufTy).Contents (Elt F) → (⟨S2000000, .i32⟩ : BufTy).Contents (Elt F) → (⟨S2000000, .i32⟩ : BufTy).Contents (Elt F)),
    ternary main_v170 main_v172 main_v164 main_v173 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v173 main_v174 (broadcastInDim S2000000x1 ![0] bcast_S2000000_S2000000x1_0 : (⟨S2000000, .i32⟩ : BufTy).Contents (Elt F) → (⟨S2000000x1, .i32⟩ : BufTy).Contents (Elt F)),
    ternary main_v132 main_v174 main_v168 main_v175 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_61 (constantI S_ 32 1#32) ]
/-- The stretch, as printed, is the line of its operations. -/
theorem part_3_eq (d : Dev nD) : main_part3 (F := F) d = seq ops_3 := rfl
/-- The references they write. -/
abbrev ops_3_W : List (Ref sig .tc) := [main_cst_45, main_v133, main_v134, main_c_46, main_v135, main_v136, main_c_47, main_v137, main_v138, main_c_48, main_v139, main_v140, main_c_49, main_v141, main_v142, main_c_50, main_v143, main_v144, main_v145, main_c_51, main_v146, main_v147, main_v148, main_c_52, main_v149, main_v150, main_v151, main_c_53, main_v152, main_v153, main_v154, main_c_54, main_v155, main_v156, main_v157, main_c_55, main_v158, main_v159, main_v160, main_c_56, main_v161, main_v162, main_v163, main_c_57, main_call4_v0, main_call4_v1, main_v164, main_v165, main_v166, main_v167, main_cst_58, main_call5_v0, main_call5_v1, main_v168, main_c_59, main_v169, main_v170, main_c_60, main_v171, main_v172, main_v173, main_v174, main_v175, main_c_61]
theorem ops_3_writes : (ops_3 : List (HloOp τ sig (Elt F))).Forall fun op => op.writes ⊆ (ops_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_3_sub : (ops_3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub ..⟩
theorem ops_3_fresh : (ops_3 : List (HloOp τ sig (Elt F))).Forall fun op => op.fresh = ∅ := by
  simp only [List.Forall]; repeat' constructor
theorem skip_3 (W : Valuation τ sig (Elt F)) {r : Ref sig .tc} (h : r ∉ ops_3_W) :
    after (no_index (ops_3 (F := F))) W (no_index (Proc.devRef .tc r)) = W (Proc.devRef .tc r) :=
  after_of_writes_sub ops_3 W ops_3_writes h

/-- Operations 252 to 315 of @main: the printed program's stretch 4. -/
abbrev ops_4 : List (HloOp τ sig (Elt F)) :=
  [ unary main_c_61 main_v176 (broadcastInDim S2000000 ![] bcast_S_S2000000 : (⟨S_, .i32⟩ : BufTy).Contents (Elt F) → (⟨S2000000, .i32⟩ : BufTy).Contents (Elt F)),
    binary main_v41 main_v176 main_v177 (addi : (⟨S2000000, .i32⟩ : BufTy).Contents (Elt F) → (⟨S2000000, .i32⟩ : BufTy).Contents (Elt F) → (⟨S2000000, .i32⟩ : BufTy).Contents (Elt F)),
    nullary main_c_62 (constantI S_ 32 1#32),
    unary main_c_62 main_v178 (broadcastInDim S2000000 ![] bcast_S_S2000000 : (⟨S_, .i32⟩ : BufTy).Contents (Elt F) → (⟨S2000000, .i32⟩ : BufTy).Contents (Elt F)),
    binary main_v42 main_v178 main_v179 (addi : (⟨S2000000, .i32⟩ : BufTy).Contents (Elt F) → (⟨S2000000, .i32⟩ : BufTy).Contents (Elt F) → (⟨S2000000, .i32⟩ : BufTy).Contents (Elt F)),
    nullary main_c_63 (constantI S_ 32 0#32),
    unary main_c_63 main_v180 (broadcastInDim S2000000 ![] bcast_S_S2000000 : (⟨S_, .i32⟩ : BufTy).Contents (Elt F) → (⟨S2000000, .i32⟩ : BufTy).Contents (Elt F)),
    binary main_v43 main_v180 main_v181 (addi : (⟨S2000000, .i32⟩ : BufTy).Contents (Elt F) → (⟨S2000000, .i32⟩ : BufTy).Contents (Elt F) → (⟨S2000000, .i32⟩ : BufTy).Contents (Elt F)),
    nullary main_c_64 (constantI S_ 32 0#32),
    unary main_c_64 main_v182 (broadcastInDim S2000000 ![] bcast_S_S2000000 : (⟨S_, .i32⟩ : BufTy).Contents (Elt F) → (⟨S2000000, .i32⟩ : BufTy).Contents (Elt F)),
    binary main_v177 main_v182 main_v183 (cmpi .sge : (⟨S2000000, .i32⟩ : BufTy).Contents (Elt F) → (⟨S2000000, .i32⟩ : BufTy).Contents (Elt F) → (⟨S2000000, .i1⟩ : BufTy).Contents (Elt F)),
    nullary main_c_65 (constantI S_ 32 128#32),
    unary main_c_65 main_v184 (broadcastInDim S2000000 ![] bcast_S_S2000000 : (⟨S_, .i32⟩ : BufTy).Contents (Elt F) → (⟨S2000000, .i32⟩ : BufTy).Contents (Elt F)),
    binary main_v177 main_v184 main_v185 (cmpi .slt : (⟨S2000000, .i32⟩ : BufTy).Contents (Elt F) → (⟨S2000000, .i32⟩ : BufTy).Contents (Elt F) → (⟨S2000000, .i1⟩ : BufTy).Contents (Elt F)),
    binary main_v183 main_v185 main_v186 (andi : (⟨S2000000, .i1⟩ : BufTy).Contents (Elt F) → (⟨S2000000, .i1⟩ : BufTy).Contents (Elt F) → (⟨S2000000, .i1⟩ : BufTy).Contents (Elt F)),
    nullary main_c_66 (constantI S_ 32 0#32),
    unary main_c_66 main_v187 (broadcastInDim S2000000 ![] bcast_S_S2000000 : (⟨S_, .i32⟩ : BufTy).Contents (Elt F) → (⟨S2000000, .i32⟩ : BufTy).Contents (Elt F)),
    binary main_v179 main_v187 main_v188 (cmpi .sge : (⟨S2000000, .i32⟩ : BufTy).Contents (Elt F) → (⟨S2000000, .i32⟩ : BufTy).Contents (Elt F) → (⟨S2000000, .i1⟩ : BufTy).Contents (Elt F)),
    binary main_v186 main_v188 main_v189 (andi : (⟨S2000000, .i1⟩ : BufTy).Contents (Elt F) → (⟨S2000000, .i1⟩ : BufTy).Contents (Elt F) → (⟨S2000000, .i1⟩ : BufTy).Contents (Elt F)),
    nullary main_c_67 (constantI S_ 32 128#32),
    unary main_c_67 main_v190 (broadcastInDim S2000000 ![] bcast_S_S2000000 : (⟨S_, .i32⟩ : BufTy).Contents (Elt F) → (⟨S2000000, .i32⟩ : BufTy).Contents (Elt F)),
    binary main_v179 main_v190 main_v191 (cmpi .slt : (⟨S2000000, .i32⟩ : BufTy).Contents (Elt F) → (⟨S2000000, .i32⟩ : BufTy).Contents (Elt F) → (⟨S2000000, .i1⟩ : BufTy).Contents (Elt F)),
    binary main_v189 main_v191 main_v192 (andi : (⟨S2000000, .i1⟩ : BufTy).Contents (Elt F) → (⟨S2000000, .i1⟩ : BufTy).Contents (Elt F) → (⟨S2000000, .i1⟩ : BufTy).Contents (Elt F)),
    nullary main_c_68 (constantI S_ 32 0#32),
    unary main_c_68 main_v193 (broadcastInDim S2000000 ![] bcast_S_S2000000 : (⟨S_, .i32⟩ : BufTy).Contents (Elt F) → (⟨S2000000, .i32⟩ : BufTy).Contents (Elt F)),
    binary main_v181 main_v193 main_v194 (cmpi .sge : (⟨S2000000, .i32⟩ : BufTy).Contents (Elt F) → (⟨S2000000, .i32⟩ : BufTy).Contents (Elt F) → (⟨S2000000, .i1⟩ : BufTy).Contents (Elt F)),
    binary main_v192 main_v194 main_v195 (andi : (⟨S2000000, .i1⟩ : BufTy).Contents (Elt F) → (⟨S2000000, .i1⟩ : BufTy).Contents (Elt F) → (⟨S2000000, .i1⟩ : BufTy).Contents (Elt F)),
    nullary main_c_69 (constantI S_ 32 128#32),
    unary main_c_69 main_v196 (broadcastInDim S2000000 ![] bcast_S_S2000000 : (⟨S_, .i32⟩ : BufTy).Contents (Elt F) → (⟨S2000000, .i32⟩ : BufTy).Contents (Elt F)),
    binary main_v181 main_v196 main_v197 (cmpi .slt : (⟨S2000000, .i32⟩ : BufTy).Contents (Elt F) → (⟨S2000000, .i32⟩ : BufTy).Contents (Elt F) → (⟨S2000000, .i1⟩ : BufTy).Contents (Elt F)),
    binary main_v195 main_v197 main_v198 (andi : (⟨S2000000, .i1⟩ : BufTy).Contents (Elt F) → (⟨S2000000, .i1⟩ : BufTy).Contents (Elt F) → (⟨S2000000, .i1⟩ : BufTy).Contents (Elt F)),
    nullary main_c_70 (constantI S_ 32 128#32),
    unary main_c_70 main_v199 (broadcastInDim S2000000 ![] bcast_S_S2000000 : (⟨S_, .i32⟩ : BufTy).Contents (Elt F) → (⟨S2000000, .i32⟩ : BufTy).Contents (Elt F)),
    binary main_v181 main_v199 main_v200 (muli : (⟨S2000000, .i32⟩ : BufTy).Contents (Elt F) → (⟨S2000000, .i32⟩ : BufTy).Contents (Elt F) → (⟨S2000000, .i32⟩ : BufTy).Contents (Elt F)),
    binary main_v200 main_v179 main_v201 (addi : (⟨S2000000, .i32⟩ : BufTy).Contents (Elt F) → (⟨S2000000, .i32⟩ : BufTy).Contents (Elt F) → (⟨S2000000, .i32⟩ : BufTy).Contents (Elt F)),
    nullary main_c_71 (constantI S_ 32 128#32),
    unary main_c_71 main_v202 (broadcastInDim S2000000 ![] bcast_S_S2000000 : (⟨S_, .i32⟩ : BufTy).Contents (Elt F) → (⟨S2000000, .i32⟩ : BufTy).Contents (Elt F)),
    binary main_v201 main_v202 main_v203 (muli : (⟨S2000000, .i32⟩ : BufTy).Contents (Elt F) → (⟨S2000000, .i32⟩ : BufTy).Contents (Elt F) → (⟨S2000000, .i32⟩ : BufTy).Contents (Elt F)),
    binary main_v203 main_v177 main_v204 (addi : (⟨S2000000, .i32⟩ : BufTy).Contents (Elt F) → (⟨S2000000, .i32⟩ : BufTy).Contents (Elt F) → (⟨S2000000, .i32⟩ : BufTy).Contents (Elt F)),
    nullary main_c_72 (constantI S_ 32 0#32),
    TRef.unary (TRef.of (T := ⟨S_, .i32⟩) main_c_72) (TRef.of (T := ⟨S_, .i32⟩) main_call6_v0) id,
    TRef.unary (TRef.of (T := ⟨S_, .i32⟩) main_call6_v0) (TRef.of (T := ⟨S2000000, .i32⟩) main_call6_v1) (broadcastInDim S2000000 ![] bcast_S_S2000000),
    TRef.ternary (TRef.of (T := ⟨S2000000, .i1⟩) main_v198) (TRef.of (T := ⟨S2000000, .i32⟩) main_v204) (TRef.of (T := ⟨S2000000, .i32⟩) main_call6_v1) (TRef.of (T := ⟨S2000000, .i32⟩) main_v205) select,
    binary main_v38 main_v39 main_v206 (mulf : (⟨S2000000, .f32⟩ : BufTy).Contents (Elt F) → (⟨S2000000, .f32⟩ : BufTy).Contents (Elt F) → (⟨S2000000, .f32⟩ : BufTy).Contents (Elt F)),
    binary main_v206 main_v46 main_v207 (mulf : (⟨S2000000, .f32⟩ : BufTy).Contents (Elt F) → (⟨S2000000, .f32⟩ : BufTy).Contents (Elt F) → (⟨S2000000, .f32⟩ : BufTy).Contents (Elt F)),
    binary main_v207 main_v4 main_v208 (mulf : (⟨S2000000, .f32⟩ : BufTy).Contents (Elt F) → (⟨S2000000, .f32⟩ : BufTy).Contents (Elt F) → (⟨S2000000, .f32⟩ : BufTy).Contents (Elt F)),
    nullary main_cst_73 (constant S_ .f32 0x00000000#32),
    TRef.unary (TRef.of (T := ⟨S_, .f32⟩) main_cst_73) (TRef.of (T := ⟨S_, .f32⟩) main_call7_v0) id,
    TRef.unary (TRef.of (T := ⟨S_, .f32⟩) main_call7_v0) (TRef.of (T := ⟨S2000000, .f32⟩) main_call7_v1) (broadcastInDim S2000000 ![] bcast_S_S2000000),
    TRef.ternary (TRef.of (T := ⟨S2000000, .i1⟩) main_v198) (TRef.of (T := ⟨S2000000, .f32⟩) main_v208) (TRef.of (T := ⟨S2000000, .f32⟩) main_call7_v1) (TRef.of (T := ⟨S2000000, .f32⟩) main_v209) select,
    nullary main_c_74 (constantI S_ 32 0#32),
    unary main_c_74 main_v210 (broadcastInDim S2000000 ![] bcast_S_S2000000 : (⟨S_, .i32⟩ : BufTy).Contents (Elt F) → (⟨S2000000, .i32⟩ : BufTy).Contents (Elt F)),
    binary main_v205 main_v210 main_v211 (cmpi .slt : (⟨S2000000, .i32⟩ : BufTy).Contents (Elt F) → (⟨S2000000, .i32⟩ : BufTy).Contents (Elt F) → (⟨S2000000, .i1⟩ : BufTy).Contents (Elt F)),
    nullary main_c_75 (constantI S_ 32 2097152#32),
    unary main_c_75 main_v212 (broadcastInDim S2000000 ![] bcast_S_S2000000 : (⟨S_, .i32⟩ : BufTy).Contents (Elt F) → (⟨S2000000, .i32⟩ : BufTy).Contents (Elt F)),
    binary main_v205 main_v212 main_v213 (addi : (⟨S2000000, .i32⟩ : BufTy).Contents (Elt F) → (⟨S2000000, .i32⟩ : BufTy).Contents (Elt F) → (⟨S2000000, .i32⟩ : BufTy).Contents (Elt F)),
    ternary main_v211 main_v213 main_v205 main_v214 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v214 main_v215 (broadcastInDim S2000000x1 ![0] bcast_S2000000_S2000000x1_0 : (⟨S2000000, .i32⟩ : BufTy).Contents (Elt F) → (⟨S2000000x1, .i32⟩ : BufTy).Contents (Elt F)),
    ternary main_v175 main_v215 main_v209 main_v216 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_cst_76 (constant S_ .f32 0x3F800000#32),
    unary main_cst_76 main_v217 (broadcastInDim S2000000 ![] bcast_S_S2000000 : (⟨S_, .f32⟩ : BufTy).Contents (Elt F) → (⟨S2000000, .f32⟩ : BufTy).Contents (Elt F)),
    binary main_v217 main_v39 main_v218 (subf : (⟨S2000000, .f32⟩ : BufTy).Contents (Elt F) → (⟨S2000000, .f32⟩ : BufTy).Contents (Elt F) → (⟨S2000000, .f32⟩ : BufTy).Contents (Elt F)),
    nullary main_cst_77 (constant S_ .f32 0x3F800000#32),
    unary main_cst_77 main_v219 (broadcastInDim S2000000 ![] bcast_S_S2000000 : (⟨S_, .f32⟩ : BufTy).Contents (Elt F) → (⟨S2000000, .f32⟩ : BufTy).Contents (Elt F)) ]
/-- The stretch, as printed, is the line of its operations. -/
theorem part_4_eq (d : Dev nD) : main_part4 (F := F) d = seq ops_4 := rfl
/-- The references they write. -/
abbrev ops_4_W : List (Ref sig .tc) := [main_v176, main_v177, main_c_62, main_v178, main_v179, main_c_63, main_v180, main_v181, main_c_64, main_v182, main_v183, main_c_65, main_v184, main_v185, main_v186, main_c_66, main_v187, main_v188, main_v189, main_c_67, main_v190, main_v191, main_v192, main_c_68, main_v193, main_v194, main_v195, main_c_69, main_v196, main_v197, main_v198, main_c_70, main_v199, main_v200, main_v201, main_c_71, main_v202, main_v203, main_v204, main_c_72, main_call6_v0, main_call6_v1, main_v205, main_v206, main_v207, main_v208, main_cst_73, main_call7_v0, main_call7_v1, main_v209, main_c_74, main_v210, main_v211, main_c_75, main_v212, main_v213, main_v214, main_v215, main_v216, main_cst_76, main_v217, main_v218, main_cst_77, main_v219]
theorem ops_4_writes : (ops_4 : List (HloOp τ sig (Elt F))).Forall fun op => op.writes ⊆ (ops_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_4_sub : (ops_4 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub ..⟩
theorem ops_4_fresh : (ops_4 : List (HloOp τ sig (Elt F))).Forall fun op => op.fresh = ∅ := by
  simp only [List.Forall]; repeat' constructor
theorem skip_4 (W : Valuation τ sig (Elt F)) {r : Ref sig .tc} (h : r ∉ ops_4_W) :
    after (no_index (ops_4 (F := F))) W (no_index (Proc.devRef .tc r)) = W (Proc.devRef .tc r) :=
  after_of_writes_sub ops_4 W ops_4_writes h

/-- Operations 316 to 379 of @main: the printed program's stretch 5. -/
abbrev ops_5 : List (HloOp τ sig (Elt F)) :=
  [ binary main_v219 main_v38 main_v220 (subf : (⟨S2000000, .f32⟩ : BufTy).Contents (Elt F) → (⟨S2000000, .f32⟩ : BufTy).Contents (Elt F) → (⟨S2000000, .f32⟩ : BufTy).Contents (Elt F)),
    nullary main_c_78 (constantI S_ 32 0#32),
    unary main_c_78 main_v221 (broadcastInDim S2000000 ![] bcast_S_S2000000 : (⟨S_, .i32⟩ : BufTy).Contents (Elt F) → (⟨S2000000, .i32⟩ : BufTy).Contents (Elt F)),
    binary main_v41 main_v221 main_v222 (addi : (⟨S2000000, .i32⟩ : BufTy).Contents (Elt F) → (⟨S2000000, .i32⟩ : BufTy).Contents (Elt F) → (⟨S2000000, .i32⟩ : BufTy).Contents (Elt F)),
    nullary main_c_79 (constantI S_ 32 0#32),
    unary main_c_79 main_v223 (broadcastInDim S2000000 ![] bcast_S_S2000000 : (⟨S_, .i32⟩ : BufTy).Contents (Elt F) → (⟨S2000000, .i32⟩ : BufTy).Contents (Elt F)),
    binary main_v42 main_v223 main_v224 (addi : (⟨S2000000, .i32⟩ : BufTy).Contents (Elt F) → (⟨S2000000, .i32⟩ : BufTy).Contents (Elt F) → (⟨S2000000, .i32⟩ : BufTy).Contents (Elt F)),
    nullary main_c_80 (constantI S_ 32 1#32),
    unary main_c_80 main_v225 (broadcastInDim S2000000 ![] bcast_S_S2000000 : (⟨S_, .i32⟩ : BufTy).Contents (Elt F) → (⟨S2000000, .i32⟩ : BufTy).Contents (Elt F)),
    binary main_v43 main_v225 main_v226 (addi : (⟨S2000000, .i32⟩ : BufTy).Contents (Elt F) → (⟨S2000000, .i32⟩ : BufTy).Contents (Elt F) → (⟨S2000000, .i32⟩ : BufTy).Contents (Elt F)),
    nullary main_c_81 (constantI S_ 32 0#32),
    unary main_c_81 main_v227 (broadcastInDim S2000000 ![] bcast_S_S2000000 : (⟨S_, .i32⟩ : BufTy).Contents (Elt F) → (⟨S2000000, .i32⟩ : BufTy).Contents (Elt F)),
    binary main_v222 main_v227 main_v228 (cmpi .sge : (⟨S2000000, .i32⟩ : BufTy).Contents (Elt F) → (⟨S2000000, .i32⟩ : BufTy).Contents (Elt F) → (⟨S2000000, .i1⟩ : BufTy).Contents (Elt F)),
    nullary main_c_82 (constantI S_ 32 128#32),
    unary main_c_82 main_v229 (broadcastInDim S2000000 ![] bcast_S_S2000000 : (⟨S_, .i32⟩ : BufTy).Contents (Elt F) → (⟨S2000000, .i32⟩ : BufTy).Contents (Elt F)),
    binary main_v222 main_v229 main_v230 (cmpi .slt : (⟨S2000000, .i32⟩ : BufTy).Contents (Elt F) → (⟨S2000000, .i32⟩ : BufTy).Contents (Elt F) → (⟨S2000000, .i1⟩ : BufTy).Contents (Elt F)),
    binary main_v228 main_v230 main_v231 (andi : (⟨S2000000, .i1⟩ : BufTy).Contents (Elt F) → (⟨S2000000, .i1⟩ : BufTy).Contents (Elt F) → (⟨S2000000, .i1⟩ : BufTy).Contents (Elt F)),
    nullary main_c_83 (constantI S_ 32 0#32),
    unary main_c_83 main_v232 (broadcastInDim S2000000 ![] bcast_S_S2000000 : (⟨S_, .i32⟩ : BufTy).Contents (Elt F) → (⟨S2000000, .i32⟩ : BufTy).Contents (Elt F)),
    binary main_v224 main_v232 main_v233 (cmpi .sge : (⟨S2000000, .i32⟩ : BufTy).Contents (Elt F) → (⟨S2000000, .i32⟩ : BufTy).Contents (Elt F) → (⟨S2000000, .i1⟩ : BufTy).Contents (Elt F)),
    binary main_v231 main_v233 main_v234 (andi : (⟨S2000000, .i1⟩ : BufTy).Contents (Elt F) → (⟨S2000000, .i1⟩ : BufTy).Contents (Elt F) → (⟨S2000000, .i1⟩ : BufTy).Contents (Elt F)),
    nullary main_c_84 (constantI S_ 32 128#32),
    unary main_c_84 main_v235 (broadcastInDim S2000000 ![] bcast_S_S2000000 : (⟨S_, .i32⟩ : BufTy).Contents (Elt F) → (⟨S2000000, .i32⟩ : BufTy).Contents (Elt F)),
    binary main_v224 main_v235 main_v236 (cmpi .slt : (⟨S2000000, .i32⟩ : BufTy).Contents (Elt F) → (⟨S2000000, .i32⟩ : BufTy).Contents (Elt F) → (⟨S2000000, .i1⟩ : BufTy).Contents (Elt F)),
    binary main_v234 main_v236 main_v237 (andi : (⟨S2000000, .i1⟩ : BufTy).Contents (Elt F) → (⟨S2000000, .i1⟩ : BufTy).Contents (Elt F) → (⟨S2000000, .i1⟩ : BufTy).Contents (Elt F)),
    nullary main_c_85 (constantI S_ 32 0#32),
    unary main_c_85 main_v238 (broadcastInDim S2000000 ![] bcast_S_S2000000 : (⟨S_, .i32⟩ : BufTy).Contents (Elt F) → (⟨S2000000, .i32⟩ : BufTy).Contents (Elt F)),
    binary main_v226 main_v238 main_v239 (cmpi .sge : (⟨S2000000, .i32⟩ : BufTy).Contents (Elt F) → (⟨S2000000, .i32⟩ : BufTy).Contents (Elt F) → (⟨S2000000, .i1⟩ : BufTy).Contents (Elt F)),
    binary main_v237 main_v239 main_v240 (andi : (⟨S2000000, .i1⟩ : BufTy).Contents (Elt F) → (⟨S2000000, .i1⟩ : BufTy).Contents (Elt F) → (⟨S2000000, .i1⟩ : BufTy).Contents (Elt F)),
    nullary main_c_86 (constantI S_ 32 128#32),
    unary main_c_86 main_v241 (broadcastInDim S2000000 ![] bcast_S_S2000000 : (⟨S_, .i32⟩ : BufTy).Contents (Elt F) → (⟨S2000000, .i32⟩ : BufTy).Contents (Elt F)),
    binary main_v226 main_v241 main_v242 (cmpi .slt : (⟨S2000000, .i32⟩ : BufTy).Contents (Elt F) → (⟨S2000000, .i32⟩ : BufTy).Contents (Elt F) → (⟨S2000000, .i1⟩ : BufTy).Contents (Elt F)),
    binary main_v240 main_v242 main_v243 (andi : (⟨S2000000, .i1⟩ : BufTy).Contents (Elt F) → (⟨S2000000, .i1⟩ : BufTy).Contents (Elt F) → (⟨S2000000, .i1⟩ : BufTy).Contents (Elt F)),
    nullary main_c_87 (constantI S_ 32 128#32),
    unary main_c_87 main_v244 (broadcastInDim S2000000 ![] bcast_S_S2000000 : (⟨S_, .i32⟩ : BufTy).Contents (Elt F) → (⟨S2000000, .i32⟩ : BufTy).Contents (Elt F)),
    binary main_v226 main_v244 main_v245 (muli : (⟨S2000000, .i32⟩ : BufTy).Contents (Elt F) → (⟨S2000000, .i32⟩ : BufTy).Contents (Elt F) → (⟨S2000000, .i32⟩ : BufTy).Contents (Elt F)),
    binary main_v245 main_v224 main_v246 (addi : (⟨S2000000, .i32⟩ : BufTy).Contents (Elt F) → (⟨S2000000, .i32⟩ : BufTy).Contents (Elt F) → (⟨S2000000, .i32⟩ : BufTy).Contents (Elt F)),
    nullary main_c_88 (constantI S_ 32 128#32),
    unary main_c_88 main_v247 (broadcastInDim S2000000 ![] bcast_S_S2000000 : (⟨S_, .i32⟩ : BufTy).Contents (Elt F) → (⟨S2000000, .i32⟩ : BufTy).Contents (Elt F)),
    binary main_v246 main_v247 main_v248 (muli : (⟨S2000000, .i32⟩ : BufTy).Contents (Elt F) → (⟨S2000000, .i32⟩ : BufTy).Contents (Elt F) → (⟨S2000000, .i32⟩ : BufTy).Contents (Elt F)),
    binary main_v248 main_v222 main_v249 (addi : (⟨S2000000, .i32⟩ : BufTy).Contents (Elt F) → (⟨S2000000, .i32⟩ : BufTy).Contents (Elt F) → (⟨S2000000, .i32⟩ : BufTy).Contents (Elt F)),
    nullary main_c_89 (constantI S_ 32 0#32),
    TRef.unary (TRef.of (T := ⟨S_, .i32⟩) main_c_89) (TRef.of (T := ⟨S_, .i32⟩) main_call8_v0) id,
    TRef.unary (TRef.of (T := ⟨S_, .i32⟩) main_call8_v0) (TRef.of (T := ⟨S2000000, .i32⟩) main_call8_v1) (broadcastInDim S2000000 ![] bcast_S_S2000000),
    TRef.ternary (TRef.of (T := ⟨S2000000, .i1⟩) main_v243) (TRef.of (T := ⟨S2000000, .i32⟩) main_v249) (TRef.of (T := ⟨S2000000, .i32⟩) main_call8_v1) (TRef.of (T := ⟨S2000000, .i32⟩) main_v250) select,
    binary main_v220 main_v218 main_v251 (mulf : (⟨S2000000, .f32⟩ : BufTy).Contents (Elt F) → (⟨S2000000, .f32⟩ : BufTy).Contents (Elt F) → (⟨S2000000, .f32⟩ : BufTy).Contents (Elt F)),
    binary main_v251 main_v40 main_v252 (mulf : (⟨S2000000, .f32⟩ : BufTy).Contents (Elt F) → (⟨S2000000, .f32⟩ : BufTy).Contents (Elt F) → (⟨S2000000, .f32⟩ : BufTy).Contents (Elt F)),
    binary main_v252 main_v4 main_v253 (mulf : (⟨S2000000, .f32⟩ : BufTy).Contents (Elt F) → (⟨S2000000, .f32⟩ : BufTy).Contents (Elt F) → (⟨S2000000, .f32⟩ : BufTy).Contents (Elt F)),
    nullary main_cst_90 (constant S_ .f32 0x00000000#32),
    TRef.unary (TRef.of (T := ⟨S_, .f32⟩) main_cst_90) (TRef.of (T := ⟨S_, .f32⟩) main_call9_v0) id,
    TRef.unary (TRef.of (T := ⟨S_, .f32⟩) main_call9_v0) (TRef.of (T := ⟨S2000000, .f32⟩) main_call9_v1) (broadcastInDim S2000000 ![] bcast_S_S2000000),
    TRef.ternary (TRef.of (T := ⟨S2000000, .i1⟩) main_v243) (TRef.of (T := ⟨S2000000, .f32⟩) main_v253) (TRef.of (T := ⟨S2000000, .f32⟩) main_call9_v1) (TRef.of (T := ⟨S2000000, .f32⟩) main_v254) select,
    nullary main_c_91 (constantI S_ 32 0#32),
    unary main_c_91 main_v255 (broadcastInDim S2000000 ![] bcast_S_S2000000 : (⟨S_, .i32⟩ : BufTy).Contents (Elt F) → (⟨S2000000, .i32⟩ : BufTy).Contents (Elt F)),
    binary main_v250 main_v255 main_v256 (cmpi .slt : (⟨S2000000, .i32⟩ : BufTy).Contents (Elt F) → (⟨S2000000, .i32⟩ : BufTy).Contents (Elt F) → (⟨S2000000, .i1⟩ : BufTy).Contents (Elt F)),
    nullary main_c_92 (constantI S_ 32 2097152#32),
    unary main_c_92 main_v257 (broadcastInDim S2000000 ![] bcast_S_S2000000 : (⟨S_, .i32⟩ : BufTy).Contents (Elt F) → (⟨S2000000, .i32⟩ : BufTy).Contents (Elt F)),
    binary main_v250 main_v257 main_v258 (addi : (⟨S2000000, .i32⟩ : BufTy).Contents (Elt F) → (⟨S2000000, .i32⟩ : BufTy).Contents (Elt F) → (⟨S2000000, .i32⟩ : BufTy).Contents (Elt F)),
    ternary main_v256 main_v258 main_v250 main_v259 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v259 main_v260 (broadcastInDim S2000000x1 ![0] bcast_S2000000_S2000000x1_0 : (⟨S2000000, .i32⟩ : BufTy).Contents (Elt F) → (⟨S2000000x1, .i32⟩ : BufTy).Contents (Elt F)),
    ternary main_v216 main_v260 main_v254 main_v261 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_93 (constantI S_ 32 1#32),
    unary main_c_93 main_v262 (broadcastInDim S2000000 ![] bcast_S_S2000000 : (⟨S_, .i32⟩ : BufTy).Contents (Elt F) → (⟨S2000000, .i32⟩ : BufTy).Contents (Elt F)),
    binary main_v41 main_v262 main_v263 (addi : (⟨S2000000, .i32⟩ : BufTy).Contents (Elt F) → (⟨S2000000, .i32⟩ : BufTy).Contents (Elt F) → (⟨S2000000, .i32⟩ : BufTy).Contents (Elt F)) ]
/-- The stretch, as printed, is the line of its operations. -/
theorem part_5_eq (d : Dev nD) : main_part5 (F := F) d = seq ops_5 := rfl
/-- The references they write. -/
abbrev ops_5_W : List (Ref sig .tc) := [main_v220, main_c_78, main_v221, main_v222, main_c_79, main_v223, main_v224, main_c_80, main_v225, main_v226, main_c_81, main_v227, main_v228, main_c_82, main_v229, main_v230, main_v231, main_c_83, main_v232, main_v233, main_v234, main_c_84, main_v235, main_v236, main_v237, main_c_85, main_v238, main_v239, main_v240, main_c_86, main_v241, main_v242, main_v243, main_c_87, main_v244, main_v245, main_v246, main_c_88, main_v247, main_v248, main_v249, main_c_89, main_call8_v0, main_call8_v1, main_v250, main_v251, main_v252, main_v253, main_cst_90, main_call9_v0, main_call9_v1, main_v254, main_c_91, main_v255, main_v256, main_c_92, main_v257, main_v258, main_v259, main_v260, main_v261, main_c_93, main_v262, main_v263]
theorem ops_5_writes : (ops_5 : List (HloOp τ sig (Elt F))).Forall fun op => op.writes ⊆ (ops_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_5_sub : (ops_5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub ..⟩
theorem ops_5_fresh : (ops_5 : List (HloOp τ sig (Elt F))).Forall fun op => op.fresh = ∅ := by
  simp only [List.Forall]; repeat' constructor
theorem skip_5 (W : Valuation τ sig (Elt F)) {r : Ref sig .tc} (h : r ∉ ops_5_W) :
    after (no_index (ops_5 (F := F))) W (no_index (Proc.devRef .tc r)) = W (Proc.devRef .tc r) :=
  after_of_writes_sub ops_5 W ops_5_writes h

/-- Operations 380 to 443 of @main: the printed program's stretch 6. -/
abbrev ops_6 : List (HloOp τ sig (Elt F)) :=
  [ nullary main_c_94 (constantI S_ 32 0#32),
    unary main_c_94 main_v264 (broadcastInDim S2000000 ![] bcast_S_S2000000 : (⟨S_, .i32⟩ : BufTy).Contents (Elt F) → (⟨S2000000, .i32⟩ : BufTy).Contents (Elt F)),
    binary main_v42 main_v264 main_v265 (addi : (⟨S2000000, .i32⟩ : BufTy).Contents (Elt F) → (⟨S2000000, .i32⟩ : BufTy).Contents (Elt F) → (⟨S2000000, .i32⟩ : BufTy).Contents (Elt F)),
    nullary main_c_95 (constantI S_ 32 1#32),
    unary main_c_95 main_v266 (broadcastInDim S2000000 ![] bcast_S_S2000000 : (⟨S_, .i32⟩ : BufTy).Contents (Elt F) → (⟨S2000000, .i32⟩ : BufTy).Contents (Elt F)),
    binary main_v43 main_v266 main_v267 (addi : (⟨S2000000, .i32⟩ : BufTy).Contents (Elt F) → (⟨S2000000, .i32⟩ : BufTy).Contents (Elt F) → (⟨S2000000, .i32⟩ : BufTy).Contents (Elt F)),
    nullary main_c_96 (constantI S_ 32 0#32),
    unary main_c_96 main_v268 (broadcastInDim S2000000 ![] bcast_S_S2000000 : (⟨S_, .i32⟩ : BufTy).Contents (Elt F) → (⟨S2000000, .i32⟩ : BufTy).Contents (Elt F)),
    binary main_v263 main_v268 main_v269 (cmpi .sge : (⟨S2000000, .i32⟩ : BufTy).Contents (Elt F) → (⟨S2000000, .i32⟩ : BufTy).Contents (Elt F) → (⟨S2000000, .i1⟩ : BufTy).Contents (Elt F)),
    nullary main_c_97 (constantI S_ 32 128#32),
    unary main_c_97 main_v270 (broadcastInDim S2000000 ![] bcast_S_S2000000 : (⟨S_, .i32⟩ : BufTy).Contents (Elt F) → (⟨S2000000, .i32⟩ : BufTy).Contents (Elt F)),
    binary main_v263 main_v270 main_v271 (cmpi .slt : (⟨S2000000, .i32⟩ : BufTy).Contents (Elt F) → (⟨S2000000, .i32⟩ : BufTy).Contents (Elt F) → (⟨S2000000, .i1⟩ : BufTy).Contents (Elt F)),
    binary main_v269 main_v271 main_v272 (andi : (⟨S2000000, .i1⟩ : BufTy).Contents (Elt F) → (⟨S2000000, .i1⟩ : BufTy).Contents (Elt F) → (⟨S2000000, .i1⟩ : BufTy).Contents (Elt F)),
    nullary main_c_98 (constantI S_ 32 0#32),
    unary main_c_98 main_v273 (broadcastInDim S2000000 ![] bcast_S_S2000000 : (⟨S_, .i32⟩ : BufTy).Contents (Elt F) → (⟨S2000000, .i32⟩ : BufTy).Contents (Elt F)),
    binary main_v265 main_v273 main_v274 (cmpi .sge : (⟨S2000000, .i32⟩ : BufTy).Contents (Elt F) → (⟨S2000000, .i32⟩ : BufTy).Contents (Elt F) → (⟨S2000000, .i1⟩ : BufTy).Contents (Elt F)),
    binary main_v272 main_v274 main_v275 (andi : (⟨S2000000, .i1⟩ : BufTy).Contents (Elt F) → (⟨S2000000, .i1⟩ : BufTy).Contents (Elt F) → (⟨S2000000, .i1⟩ : BufTy).Contents (Elt F)),
    nullary main_c_99 (constantI S_ 32 128#32),
    unary main_c_99 main_v276 (broadcastInDim S2000000 ![] bcast_S_S2000000 : (⟨S_, .i32⟩ : BufTy).Contents (Elt F) → (⟨S2000000, .i32⟩ : BufTy).Contents (Elt F)),
    binary main_v265 main_v276 main_v277 (cmpi .slt : (⟨S2000000, .i32⟩ : BufTy).Contents (Elt F) → (⟨S2000000, .i32⟩ : BufTy).Contents (Elt F) → (⟨S2000000, .i1⟩ : BufTy).Contents (Elt F)),
    binary main_v275 main_v277 main_v278 (andi : (⟨S2000000, .i1⟩ : BufTy).Contents (Elt F) → (⟨S2000000, .i1⟩ : BufTy).Contents (Elt F) → (⟨S2000000, .i1⟩ : BufTy).Contents (Elt F)),
    nullary main_c_100 (constantI S_ 32 0#32),
    unary main_c_100 main_v279 (broadcastInDim S2000000 ![] bcast_S_S2000000 : (⟨S_, .i32⟩ : BufTy).Contents (Elt F) → (⟨S2000000, .i32⟩ : BufTy).Contents (Elt F)),
    binary main_v267 main_v279 main_v280 (cmpi .sge : (⟨S2000000, .i32⟩ : BufTy).Contents (Elt F) → (⟨S2000000, .i32⟩ : BufTy).Contents (Elt F) → (⟨S2000000, .i1⟩ : BufTy).Contents (Elt F)),
    binary main_v278 main_v280 main_v281 (andi : (⟨S2000000, .i1⟩ : BufTy).Contents (Elt F) → (⟨S2000000, .i1⟩ : BufTy).Contents (Elt F) → (⟨S2000000, .i1⟩ : BufTy).Contents (Elt F)),
    nullary main_c_101 (constantI S_ 32 128#32),
    unary main_c_101 main_v282 (broadcastInDim S2000000 ![] bcast_S_S2000000 : (⟨S_, .i32⟩ : BufTy).Contents (Elt F) → (⟨S2000000, .i32⟩ : BufTy).Contents (Elt F)),
    binary main_v267 main_v282 main_v283 (cmpi .slt : (⟨S2000000, .i32⟩ : BufTy).Contents (Elt F) → (⟨S2000000, .i32⟩ : BufTy).Contents (Elt F) → (⟨S2000000, .i1⟩ : BufTy).Contents (Elt F)),
    binary main_v281 main_v283 main_v284 (andi : (⟨S2000000, .i1⟩ : BufTy).Contents (Elt F) → (⟨S2000000, .i1⟩ : BufTy).Contents (Elt F) → (⟨S2000000, .i1⟩ : BufTy).Contents (Elt F)),
    nullary main_c_102 (constantI S_ 32 128#32),
    unary main_c_102 main_v285 (broadcastInDim S2000000 ![] bcast_S_S2000000 : (⟨S_, .i32⟩ : BufTy).Contents (Elt F) → (⟨S2000000, .i32⟩ : BufTy).Contents (Elt F)),
    binary main_v267 main_v285 main_v286 (muli : (⟨S2000000, .i32⟩ : BufTy).Contents (Elt F) → (⟨S2000000, .i32⟩ : BufTy).Contents (Elt F) → (⟨S2000000, .i32⟩ : BufTy).Contents (Elt F)),
    binary main_v286 main_v265 main_v287 (addi : (⟨S2000000, .i32⟩ : BufTy).Contents (Elt F) → (⟨S2000000, .i32⟩ : BufTy).Contents (Elt F) → (⟨S2000000, .i32⟩ : BufTy).Contents (Elt F)),
    nullary main_c_103 (constantI S_ 32 128#32),
    unary main_c_103 main_v288 (broadcastInDim S2000000 ![] bcast_S_S2000000 : (⟨S_, .i32⟩ : BufTy).Contents (Elt F) → (⟨S2000000, .i32⟩ : BufTy).Contents (Elt F)),
    binary main_v287 main_v288 main_v289 (muli : (⟨S2000000, .i32⟩ : BufTy).Contents (Elt F) → (⟨S2000000, .i32⟩ : BufTy).Contents (Elt F) → (⟨S2000000, .i32⟩ : BufTy).Contents (Elt F)),
    binary main_v289 main_v263 main_v290 (addi : (⟨S2000000, .i32⟩ : BufTy).Contents (Elt F) → (⟨S2000000, .i32⟩ : BufTy).Contents (Elt F) → (⟨S2000000, .i32⟩ : BufTy).Contents (Elt F)),
    nullary main_c_104 (constantI S_ 32 0#32),
    TRef.unary (TRef.of (T := ⟨S_, .i32⟩) main_c_104) (TRef.of (T := ⟨S_, .i32⟩) main_call10_v0) id,
    TRef.unary (TRef.of (T := ⟨S_, .i32⟩) main_call10_v0) (TRef.of (T := ⟨S2000000, .i32⟩) main_call10_v1) (broadcastInDim S2000000 ![] bcast_S_S2000000),
    TRef.ternary (TRef.of (T := ⟨S2000000, .i1⟩) main_v284) (TRef.of (T := ⟨S2000000, .i32⟩) main_v290) (TRef.of (T := ⟨S2000000, .i32⟩) main_call10_v1) (TRef.of (T := ⟨S2000000, .i32⟩) main_v291) select,
    binary main_v38 main_v218 main_v292 (mulf : (⟨S2000000, .f32⟩ : BufTy).Contents (Elt F) → (⟨S2000000, .f32⟩ : BufTy).Contents (Elt F) → (⟨S2000000, .f32⟩ : BufTy).Contents (Elt F)),
    binary main_v292 main_v40 main_v293 (mulf : (⟨S2000000, .f32⟩ : BufTy).Contents (Elt F) → (⟨S2000000, .f32⟩ : BufTy).Contents (Elt F) → (⟨S2000000, .f32⟩ : BufTy).Contents (Elt F)),
    binary main_v293 main_v4 main_v294 (mulf : (⟨S2000000, .f32⟩ : BufTy).Contents (Elt F) → (⟨S2000000, .f32⟩ : BufTy).Contents (Elt F) → (⟨S2000000, .f32⟩ : BufTy).Contents (Elt F)),
    nullary main_cst_105 (constant S_ .f32 0x00000000#32),
    TRef.unary (TRef.of (T := ⟨S_, .f32⟩) main_cst_105) (TRef.of (T := ⟨S_, .f32⟩) main_call11_v0) id,
    TRef.unary (TRef.of (T := ⟨S_, .f32⟩) main_call11_v0) (TRef.of (T := ⟨S2000000, .f32⟩) main_call11_v1) (broadcastInDim S2000000 ![] bcast_S_S2000000),
    TRef.ternary (TRef.of (T := ⟨S2000000, .i1⟩) main_v284) (TRef.of (T := ⟨S2000000, .f32⟩) main_v294) (TRef.of (T := ⟨S2000000, .f32⟩) main_call11_v1) (TRef.of (T := ⟨S2000000, .f32⟩) main_v295) select,
    nullary main_c_106 (constantI S_ 32 0#32),
    unary main_c_106 main_v296 (broadcastInDim S2000000 ![] bcast_S_S2000000 : (⟨S_, .i32⟩ : BufTy).Contents (Elt F) → (⟨S2000000, .i32⟩ : BufTy).Contents (Elt F)),
    binary main_v291 main_v296 main_v297 (cmpi .slt : (⟨S2000000, .i32⟩ : BufTy).Contents (Elt F) → (⟨S2000000, .i32⟩ : BufTy).Contents (Elt F) → (⟨S2000000, .i1⟩ : BufTy).Contents (Elt F)),
    nullary main_c_107 (constantI S_ 32 2097152#32),
    unary main_c_107 main_v298 (broadcastInDim S2000000 ![] bcast_S_S2000000 : (⟨S_, .i32⟩ : BufTy).Contents (Elt F) → (⟨S2000000, .i32⟩ : BufTy).Contents (Elt F)),
    binary main_v291 main_v298 main_v299 (addi : (⟨S2000000, .i32⟩ : BufTy).Contents (Elt F) → (⟨S2000000, .i32⟩ : BufTy).Contents (Elt F) → (⟨S2000000, .i32⟩ : BufTy).Contents (Elt F)),
    ternary main_v297 main_v299 main_v291 main_v300 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v300 main_v301 (broadcastInDim S2000000x1 ![0] bcast_S2000000_S2000000x1_0 : (⟨S2000000, .i32⟩ : BufTy).Contents (Elt F) → (⟨S2000000x1, .i32⟩ : BufTy).Contents (Elt F)),
    ternary main_v261 main_v301 main_v295 main_v302 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_cst_108 (constant S_ .f32 0x3F800000#32),
    unary main_cst_108 main_v303 (broadcastInDim S2000000 ![] bcast_S_S2000000 : (⟨S_, .f32⟩ : BufTy).Contents (Elt F) → (⟨S2000000, .f32⟩ : BufTy).Contents (Elt F)),
    binary main_v303 main_v38 main_v304 (subf : (⟨S2000000, .f32⟩ : BufTy).Contents (Elt F) → (⟨S2000000, .f32⟩ : BufTy).Contents (Elt F) → (⟨S2000000, .f32⟩ : BufTy).Contents (Elt F)),
    nullary main_c_109 (constantI S_ 32 0#32),
    unary main_c_109 main_v305 (broadcastInDim S2000000 ![] bcast_S_S2000000 : (⟨S_, .i32⟩ : BufTy).Contents (Elt F) → (⟨S2000000, .i32⟩ : BufTy).Contents (Elt F)),
    binary main_v41 main_v305 main_v306 (addi : (⟨S2000000, .i32⟩ : BufTy).Contents (Elt F) → (⟨S2000000, .i32⟩ : BufTy).Contents (Elt F) → (⟨S2000000, .i32⟩ : BufTy).Contents (Elt F)),
    nullary main_c_110 (constantI S_ 32 1#32) ]
/-- The stretch, as printed, is the line of its operations. -/
theorem part_6_eq (d : Dev nD) : main_part6 (F := F) d = seq ops_6 := rfl
/-- The references they write. -/
abbrev ops_6_W : List (Ref sig .tc) := [main_c_94, main_v264, main_v265, main_c_95, main_v266, main_v267, main_c_96, main_v268, main_v269, main_c_97, main_v270, main_v271, main_v272, main_c_98, main_v273, main_v274, main_v275, main_c_99, main_v276, main_v277, main_v278, main_c_100, main_v279, main_v280, main_v281, main_c_101, main_v282, main_v283, main_v284, main_c_102, main_v285, main_v286, main_v287, main_c_103, main_v288, main_v289, main_v290, main_c_104, main_call10_v0, main_call10_v1, main_v291, main_v292, main_v293, main_v294, main_cst_105, main_call11_v0, main_call11_v1, main_v295, main_c_106, main_v296, main_v297, main_c_107, main_v298, main_v299, main_v300, main_v301, main_v302, main_cst_108, main_v303, main_v304, main_c_109, main_v305, main_v306, main_c_110]
theorem ops_6_writes : (ops_6 : List (HloOp τ sig (Elt F))).Forall fun op => op.writes ⊆ (ops_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_6_sub : (ops_6 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub ..⟩
theorem ops_6_fresh : (ops_6 : List (HloOp τ sig (Elt F))).Forall fun op => op.fresh = ∅ := by
  simp only [List.Forall]; repeat' constructor
theorem skip_6 (W : Valuation τ sig (Elt F)) {r : Ref sig .tc} (h : r ∉ ops_6_W) :
    after (no_index (ops_6 (F := F))) W (no_index (Proc.devRef .tc r)) = W (Proc.devRef .tc r) :=
  after_of_writes_sub ops_6 W ops_6_writes h

/-- Operations 444 to 507 of @main: the printed program's stretch 7. -/
abbrev ops_7 : List (HloOp τ sig (Elt F)) :=
  [ unary main_c_110 main_v307 (broadcastInDim S2000000 ![] bcast_S_S2000000 : (⟨S_, .i32⟩ : BufTy).Contents (Elt F) → (⟨S2000000, .i32⟩ : BufTy).Contents (Elt F)),
    binary main_v42 main_v307 main_v308 (addi : (⟨S2000000, .i32⟩ : BufTy).Contents (Elt F) → (⟨S2000000, .i32⟩ : BufTy).Contents (Elt F) → (⟨S2000000, .i32⟩ : BufTy).Contents (Elt F)),
    nullary main_c_111 (constantI S_ 32 1#32),
    unary main_c_111 main_v309 (broadcastInDim S2000000 ![] bcast_S_S2000000 : (⟨S_, .i32⟩ : BufTy).Contents (Elt F) → (⟨S2000000, .i32⟩ : BufTy).Contents (Elt F)),
    binary main_v43 main_v309 main_v310 (addi : (⟨S2000000, .i32⟩ : BufTy).Contents (Elt F) → (⟨S2000000, .i32⟩ : BufTy).Contents (Elt F) → (⟨S2000000, .i32⟩ : BufTy).Contents (Elt F)),
    nullary main_c_112 (constantI S_ 32 0#32),
    unary main_c_112 main_v311 (broadcastInDim S2000000 ![] bcast_S_S2000000 : (⟨S_, .i32⟩ : BufTy).Contents (Elt F) → (⟨S2000000, .i32⟩ : BufTy).Contents (Elt F)),
    binary main_v306 main_v311 main_v312 (cmpi .sge : (⟨S2000000, .i32⟩ : BufTy).Contents (Elt F) → (⟨S2000000, .i32⟩ : BufTy).Contents (Elt F) → (⟨S2000000, .i1⟩ : BufTy).Contents (Elt F)),
    nullary main_c_113 (constantI S_ 32 128#32),
    unary main_c_113 main_v313 (broadcastInDim S2000000 ![] bcast_S_S2000000 : (⟨S_, .i32⟩ : BufTy).Contents (Elt F) → (⟨S2000000, .i32⟩ : BufTy).Contents (Elt F)),
    binary main_v306 main_v313 main_v314 (cmpi .slt : (⟨S2000000, .i32⟩ : BufTy).Contents (Elt F) → (⟨S2000000, .i32⟩ : BufTy).Contents (Elt F) → (⟨S2000000, .i1⟩ : BufTy).Contents (Elt F)),
    binary main_v312 main_v314 main_v315 (andi : (⟨S2000000, .i1⟩ : BufTy).Contents (Elt F) → (⟨S2000000, .i1⟩ : BufTy).Contents (Elt F) → (⟨S2000000, .i1⟩ : BufTy).Contents (Elt F)),
    nullary main_c_114 (constantI S_ 32 0#32),
    unary main_c_114 main_v316 (broadcastInDim S2000000 ![] bcast_S_S2000000 : (⟨S_, .i32⟩ : BufTy).Contents (Elt F) → (⟨S2000000, .i32⟩ : BufTy).Contents (Elt F)),
    binary main_v308 main_v316 main_v317 (cmpi .sge : (⟨S2000000, .i32⟩ : BufTy).Contents (Elt F) → (⟨S2000000, .i32⟩ : BufTy).Contents (Elt F) → (⟨S2000000, .i1⟩ : BufTy).Contents (Elt F)),
    binary main_v315 main_v317 main_v318 (andi : (⟨S2000000, .i1⟩ : BufTy).Contents (Elt F) → (⟨S2000000, .i1⟩ : BufTy).Contents (Elt F) → (⟨S2000000, .i1⟩ : BufTy).Contents (Elt F)),
    nullary main_c_115 (constantI S_ 32 128#32),
    unary main_c_115 main_v319 (broadcastInDim S2000000 ![] bcast_S_S2000000 : (⟨S_, .i32⟩ : BufTy).Contents (Elt F) → (⟨S2000000, .i32⟩ : BufTy).Contents (Elt F)),
    binary main_v308 main_v319 main_v320 (cmpi .slt : (⟨S2000000, .i32⟩ : BufTy).Contents (Elt F) → (⟨S2000000, .i32⟩ : BufTy).Contents (Elt F) → (⟨S2000000, .i1⟩ : BufTy).Contents (Elt F)),
    binary main_v318 main_v320 main_v321 (andi : (⟨S2000000, .i1⟩ : BufTy).Contents (Elt F) → (⟨S2000000, .i1⟩ : BufTy).Contents (Elt F) → (⟨S2000000, .i1⟩ : BufTy).Contents (Elt F)),
    nullary main_c_116 (constantI S_ 32 0#32),
    unary main_c_116 main_v322 (broadcastInDim S2000000 ![] bcast_S_S2000000 : (⟨S_, .i32⟩ : BufTy).Contents (Elt F) → (⟨S2000000, .i32⟩ : BufTy).Contents (Elt F)),
    binary main_v310 main_v322 main_v323 (cmpi .sge : (⟨S2000000, .i32⟩ : BufTy).Contents (Elt F) → (⟨S2000000, .i32⟩ : BufTy).Contents (Elt F) → (⟨S2000000, .i1⟩ : BufTy).Contents (Elt F)),
    binary main_v321 main_v323 main_v324 (andi : (⟨S2000000, .i1⟩ : BufTy).Contents (Elt F) → (⟨S2000000, .i1⟩ : BufTy).Contents (Elt F) → (⟨S2000000, .i1⟩ : BufTy).Contents (Elt F)),
    nullary main_c_117 (constantI S_ 32 128#32),
    unary main_c_117 main_v325 (broadcastInDim S2000000 ![] bcast_S_S2000000 : (⟨S_, .i32⟩ : BufTy).Contents (Elt F) → (⟨S2000000, .i32⟩ : BufTy).Contents (Elt F)),
    binary main_v310 main_v325 main_v326 (cmpi .slt : (⟨S2000000, .i32⟩ : BufTy).Contents (Elt F) → (⟨S2000000, .i32⟩ : BufTy).Contents (Elt F) → (⟨S2000000, .i1⟩ : BufTy).Contents (Elt F)),
    binary main_v324 main_v326 main_v327 (andi : (⟨S2000000, .i1⟩ : BufTy).Contents (Elt F) → (⟨S2000000, .i1⟩ : BufTy).Contents (Elt F) → (⟨S2000000, .i1⟩ : BufTy).Contents (Elt F)),
    nullary main_c_118 (constantI S_ 32 128#32),
    unary main_c_118 main_v328 (broadcastInDim S2000000 ![] bcast_S_S2000000 : (⟨S_, .i32⟩ : BufTy).Contents (Elt F) → (⟨S2000000, .i32⟩ : BufTy).Contents (Elt F)),
    binary main_v310 main_v328 main_v329 (muli : (⟨S2000000, .i32⟩ : BufTy).Contents (Elt F) → (⟨S2000000, .i32⟩ : BufTy).Contents (Elt F) → (⟨S2000000, .i32⟩ : BufTy).Contents (Elt F)),
    binary main_v329 main_v308 main_v330 (addi : (⟨S2000000, .i32⟩ : BufTy).Contents (Elt F) → (⟨S2000000, .i32⟩ : BufTy).Contents (Elt F) → (⟨S2000000, .i32⟩ : BufTy).Contents (Elt F)),
    nullary main_c_119 (constantI S_ 32 128#32),
    unary main_c_119 main_v331 (broadcastInDim S2000000 ![] bcast_S_S2000000 : (⟨S_, .i32⟩ : BufTy).Contents (Elt F) → (⟨S2000000, .i32⟩ : BufTy).Contents (Elt F)),
    binary main_v330 main_v331 main_v332 (muli : (⟨S2000000, .i32⟩ : BufTy).Contents (Elt F) → (⟨S2000000, .i32⟩ : BufTy).Contents (Elt F) → (⟨S2000000, .i32⟩ : BufTy).Contents (Elt F)),
    binary main_v332 main_v306 main_v333 (addi : (⟨S2000000, .i32⟩ : BufTy).Contents (Elt F) → (⟨S2000000, .i32⟩ : BufTy).Contents (Elt F) → (⟨S2000000, .i32⟩ : BufTy).Contents (Elt F)),
    nullary main_c_120 (constantI S_ 32 0#32),
    TRef.unary (TRef.of (T := ⟨S_, .i32⟩) main_c_120) (TRef.of (T := ⟨S_, .i32⟩) main_call12_v0) id,
    TRef.unary (TRef.of (T := ⟨S_, .i32⟩) main_call12_v0) (TRef.of (T := ⟨S2000000, .i32⟩) main_call12_v1) (broadcastInDim S2000000 ![] bcast_S_S2000000),
    TRef.ternary (TRef.of (T := ⟨S2000000, .i1⟩) main_v327) (TRef.of (T := ⟨S2000000, .i32⟩) main_v333) (TRef.of (T := ⟨S2000000, .i32⟩) main_call12_v1) (TRef.of (T := ⟨S2000000, .i32⟩) main_v334) select,
    binary main_v304 main_v39 main_v335 (mulf : (⟨S2000000, .f32⟩ : BufTy).Contents (Elt F) → (⟨S2000000, .f32⟩ : BufTy).Contents (Elt F) → (⟨S2000000, .f32⟩ : BufTy).Contents (Elt F)),
    binary main_v335 main_v40 main_v336 (mulf : (⟨S2000000, .f32⟩ : BufTy).Contents (Elt F) → (⟨S2000000, .f32⟩ : BufTy).Contents (Elt F) → (⟨S2000000, .f32⟩ : BufTy).Contents (Elt F)),
    binary main_v336 main_v4 main_v337 (mulf : (⟨S2000000, .f32⟩ : BufTy).Contents (Elt F) → (⟨S2000000, .f32⟩ : BufTy).Contents (Elt F) → (⟨S2000000, .f32⟩ : BufTy).Contents (Elt F)),
    nullary main_cst_121 (constant S_ .f32 0x00000000#32),
    TRef.unary (TRef.of (T := ⟨S_, .f32⟩) main_cst_121) (TRef.of (T := ⟨S_, .f32⟩) main_call13_v0) id,
    TRef.unary (TRef.of (T := ⟨S_, .f32⟩) main_call13_v0) (TRef.of (T := ⟨S2000000, .f32⟩) main_call13_v1) (broadcastInDim S2000000 ![] bcast_S_S2000000),
    TRef.ternary (TRef.of (T := ⟨S2000000, .i1⟩) main_v327) (TRef.of (T := ⟨S2000000, .f32⟩) main_v337) (TRef.of (T := ⟨S2000000, .f32⟩) main_call13_v1) (TRef.of (T := ⟨S2000000, .f32⟩) main_v338) select,
    nullary main_c_122 (constantI S_ 32 0#32),
    unary main_c_122 main_v339 (broadcastInDim S2000000 ![] bcast_S_S2000000 : (⟨S_, .i32⟩ : BufTy).Contents (Elt F) → (⟨S2000000, .i32⟩ : BufTy).Contents (Elt F)),
    binary main_v334 main_v339 main_v340 (cmpi .slt : (⟨S2000000, .i32⟩ : BufTy).Contents (Elt F) → (⟨S2000000, .i32⟩ : BufTy).Contents (Elt F) → (⟨S2000000, .i1⟩ : BufTy).Contents (Elt F)),
    nullary main_c_123 (constantI S_ 32 2097152#32),
    unary main_c_123 main_v341 (broadcastInDim S2000000 ![] bcast_S_S2000000 : (⟨S_, .i32⟩ : BufTy).Contents (Elt F) → (⟨S2000000, .i32⟩ : BufTy).Contents (Elt F)),
    binary main_v334 main_v341 main_v342 (addi : (⟨S2000000, .i32⟩ : BufTy).Contents (Elt F) → (⟨S2000000, .i32⟩ : BufTy).Contents (Elt F) → (⟨S2000000, .i32⟩ : BufTy).Contents (Elt F)),
    ternary main_v340 main_v342 main_v334 main_v343 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v343 main_v344 (broadcastInDim S2000000x1 ![0] bcast_S2000000_S2000000x1_0 : (⟨S2000000, .i32⟩ : BufTy).Contents (Elt F) → (⟨S2000000x1, .i32⟩ : BufTy).Contents (Elt F)),
    ternary main_v302 main_v344 main_v338 main_v345 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_124 (constantI S_ 32 1#32),
    unary main_c_124 main_v346 (broadcastInDim S2000000 ![] bcast_S_S2000000 : (⟨S_, .i32⟩ : BufTy).Contents (Elt F) → (⟨S2000000, .i32⟩ : BufTy).Contents (Elt F)),
    binary main_v41 main_v346 main_v347 (addi : (⟨S2000000, .i32⟩ : BufTy).Contents (Elt F) → (⟨S2000000, .i32⟩ : BufTy).Contents (Elt F) → (⟨S2000000, .i32⟩ : BufTy).Contents (Elt F)),
    nullary main_c_125 (constantI S_ 32 1#32),
    unary main_c_125 main_v348 (broadcastInDim S2000000 ![] bcast_S_S2000000 : (⟨S_, .i32⟩ : BufTy).Contents (Elt F) → (⟨S2000000, .i32⟩ : BufTy).Contents (Elt F)),
    binary main_v42 main_v348 main_v349 (addi : (⟨S2000000, .i32⟩ : BufTy).Contents (Elt F) → (⟨S2000000, .i32⟩ : BufTy).Contents (Elt F) → (⟨S2000000, .i32⟩ : BufTy).Contents (Elt F)),
    nullary main_c_126 (constantI S_ 32 1#32),
    unary main_c_126 main_v350 (broadcastInDim S2000000 ![] bcast_S_S2000000 : (⟨S_, .i32⟩ : BufTy).Contents (Elt F) → (⟨S2000000, .i32⟩ : BufTy).Contents (Elt F)) ]
/-- The stretch, as printed, is the line of its operations. -/
theorem part_7_eq (d : Dev nD) : main_part7 (F := F) d = seq ops_7 := rfl
/-- The references they write. -/
abbrev ops_7_W : List (Ref sig .tc) := [main_v307, main_v308, main_c_111, main_v309, main_v310, main_c_112, main_v311, main_v312, main_c_113, main_v313, main_v314, main_v315, main_c_114, main_v316, main_v317, main_v318, main_c_115, main_v319, main_v320, main_v321, main_c_116, main_v322, main_v323, main_v324, main_c_117, main_v325, main_v326, main_v327, main_c_118, main_v328, main_v329, main_v330, main_c_119, main_v331, main_v332, main_v333, main_c_120, main_call12_v0, main_call12_v1, main_v334, main_v335, main_v336, main_v337, main_cst_121, main_call13_v0, main_call13_v1, main_v338, main_c_122, main_v339, main_v340, main_c_123, main_v341, main_v342, main_v343, main_v344, main_v345, main_c_124, main_v346, main_v347, main_c_125, main_v348, main_v349, main_c_126, main_v350]
theorem ops_7_writes : (ops_7 : List (HloOp τ sig (Elt F))).Forall fun op => op.writes ⊆ (ops_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_7_sub : (ops_7 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub ..⟩
theorem ops_7_fresh : (ops_7 : List (HloOp τ sig (Elt F))).Forall fun op => op.fresh = ∅ := by
  simp only [List.Forall]; repeat' constructor
theorem skip_7 (W : Valuation τ sig (Elt F)) {r : Ref sig .tc} (h : r ∉ ops_7_W) :
    after (no_index (ops_7 (F := F))) W (no_index (Proc.devRef .tc r)) = W (Proc.devRef .tc r) :=
  after_of_writes_sub ops_7 W ops_7_writes h

/-- Operations 508 to 571 of @main: the printed program's stretch 8. -/
abbrev ops_8 : List (HloOp τ sig (Elt F)) :=
  [ binary main_v43 main_v350 main_v351 (addi : (⟨S2000000, .i32⟩ : BufTy).Contents (Elt F) → (⟨S2000000, .i32⟩ : BufTy).Contents (Elt F) → (⟨S2000000, .i32⟩ : BufTy).Contents (Elt F)),
    nullary main_c_127 (constantI S_ 32 0#32),
    unary main_c_127 main_v352 (broadcastInDim S2000000 ![] bcast_S_S2000000 : (⟨S_, .i32⟩ : BufTy).Contents (Elt F) → (⟨S2000000, .i32⟩ : BufTy).Contents (Elt F)),
    binary main_v347 main_v352 main_v353 (cmpi .sge : (⟨S2000000, .i32⟩ : BufTy).Contents (Elt F) → (⟨S2000000, .i32⟩ : BufTy).Contents (Elt F) → (⟨S2000000, .i1⟩ : BufTy).Contents (Elt F)),
    nullary main_c_128 (constantI S_ 32 128#32),
    unary main_c_128 main_v354 (broadcastInDim S2000000 ![] bcast_S_S2000000 : (⟨S_, .i32⟩ : BufTy).Contents (Elt F) → (⟨S2000000, .i32⟩ : BufTy).Contents (Elt F)),
    binary main_v347 main_v354 main_v355 (cmpi .slt : (⟨S2000000, .i32⟩ : BufTy).Contents (Elt F) → (⟨S2000000, .i32⟩ : BufTy).Contents (Elt F) → (⟨S2000000, .i1⟩ : BufTy).Contents (Elt F)),
    binary main_v353 main_v355 main_v356 (andi : (⟨S2000000, .i1⟩ : BufTy).Contents (Elt F) → (⟨S2000000, .i1⟩ : BufTy).Contents (Elt F) → (⟨S2000000, .i1⟩ : BufTy).Contents (Elt F)),
    nullary main_c_129 (constantI S_ 32 0#32),
    unary main_c_129 main_v357 (broadcastInDim S2000000 ![] bcast_S_S2000000 : (⟨S_, .i32⟩ : BufTy).Contents (Elt F) → (⟨S2000000, .i32⟩ : BufTy).Contents (Elt F)),
    binary main_v349 main_v357 main_v358 (cmpi .sge : (⟨S2000000, .i32⟩ : BufTy).Contents (Elt F) → (⟨S2000000, .i32⟩ : BufTy).Contents (Elt F) → (⟨S2000000, .i1⟩ : BufTy).Contents (Elt F)),
    binary main_v356 main_v358 main_v359 (andi : (⟨S2000000, .i1⟩ : BufTy).Contents (Elt F) → (⟨S2000000, .i1⟩ : BufTy).Contents (Elt F) → (⟨S2000000, .i1⟩ : BufTy).Contents (Elt F)),
    nullary main_c_130 (constantI S_ 32 128#32),
    unary main_c_130 main_v360 (broadcastInDim S2000000 ![] bcast_S_S2000000 : (⟨S_, .i32⟩ : BufTy).Contents (Elt F) → (⟨S2000000, .i32⟩ : BufTy).Contents (Elt F)),
    binary main_v349 main_v360 main_v361 (cmpi .slt : (⟨S2000000, .i32⟩ : BufTy).Contents (Elt F) → (⟨S2000000, .i32⟩ : BufTy).Contents (Elt F) → (⟨S2000000, .i1⟩ : BufTy).Contents (Elt F)),
    binary main_v359 main_v361 main_v362 (andi : (⟨S2000000, .i1⟩ : BufTy).Contents (Elt F) → (⟨S2000000, .i1⟩ : BufTy).Contents (Elt F) → (⟨S2000000, .i1⟩ : BufTy).Contents (Elt F)),
    nullary main_c_131 (constantI S_ 32 0#32),
    unary main_c_131 main_v363 (broadcastInDim S2000000 ![] bcast_S_S2000000 : (⟨S_, .i32⟩ : BufTy).Contents (Elt F) → (⟨S2000000, .i32⟩ : BufTy).Contents (Elt F)),
    binary main_v351 main_v363 main_v364 (cmpi .sge : (⟨S2000000, .i32⟩ : BufTy).Contents (Elt F) → (⟨S2000000, .i32⟩ : BufTy).Contents (Elt F) → (⟨S2000000, .i1⟩ : BufTy).Contents (Elt F)),
    binary main_v362 main_v364 main_v365 (andi : (⟨S2000000, .i1⟩ : BufTy).Contents (Elt F) → (⟨S2000000, .i1⟩ : BufTy).Contents (Elt F) → (⟨S2000000, .i1⟩ : BufTy).Contents (Elt F)),
    nullary main_c_132 (constantI S_ 32 128#32),
    unary main_c_132 main_v366 (broadcastInDim S2000000 ![] bcast_S_S2000000 : (⟨S_, .i32⟩ : BufTy).Contents (Elt F) → (⟨S2000000, .i32⟩ : BufTy).Contents (Elt F)),
    binary main_v351 main_v366 main_v367 (cmpi .slt : (⟨S2000000, .i32⟩ : BufTy).Contents (Elt F) → (⟨S2000000, .i32⟩ : BufTy).Contents (Elt F) → (⟨S2000000, .i1⟩ : BufTy).Contents (Elt F)),
    binary main_v365 main_v367 main_v368 (andi : (⟨S2000000, .i1⟩ : BufTy).Contents (Elt F) → (⟨S2000000, .i1⟩ : BufTy).Contents (Elt F) → (⟨S2000000, .i1⟩ : BufTy).Contents (Elt F)),
    nullary main_c_133 (constantI S_ 32 128#32),
    unary main_c_133 main_v369 (broadcastInDim S2000000 ![] bcast_S_S2000000 : (⟨S_, .i32⟩ : BufTy).Contents (Elt F) → (⟨S2000000, .i32⟩ : BufTy).Contents (Elt F)),
    binary main_v351 main_v369 main_v370 (muli : (⟨S2000000, .i32⟩ : BufTy).Contents (Elt F) → (⟨S2000000, .i32⟩ : BufTy).Contents (Elt F) → (⟨S2000000, .i32⟩ : BufTy).Contents (Elt F)),
    binary main_v370 main_v349 main_v371 (addi : (⟨S2000000, .i32⟩ : BufTy).Contents (Elt F) → (⟨S2000000, .i32⟩ : BufTy).Contents (Elt F) → (⟨S2000000, .i32⟩ : BufTy).Contents (Elt F)),
    nullary main_c_134 (constantI S_ 32 128#32),
    unary main_c_134 main_v372 (broadcastInDim S2000000 ![] bcast_S_S2000000 : (⟨S_, .i32⟩ : BufTy).Contents (Elt F) → (⟨S2000000, .i32⟩ : BufTy).Contents (Elt F)),
    binary main_v371 main_v372 main_v373 (muli : (⟨S2000000, .i32⟩ : BufTy).Contents (Elt F) → (⟨S2000000, .i32⟩ : BufTy).Contents (Elt F) → (⟨S2000000, .i32⟩ : BufTy).Contents (Elt F)),
    binary main_v373 main_v347 main_v374 (addi : (⟨S2000000, .i32⟩ : BufTy).Contents (Elt F) → (⟨S2000000, .i32⟩ : BufTy).Contents (Elt F) → (⟨S2000000, .i32⟩ : BufTy).Contents (Elt F)),
    nullary main_c_135 (constantI S_ 32 0#32),
    TRef.unary (TRef.of (T := ⟨S_, .i32⟩) main_c_135) (TRef.of (T := ⟨S_, .i32⟩) main_call14_v0) id,
    TRef.unary (TRef.of (T := ⟨S_, .i32⟩) main_call14_v0) (TRef.of (T := ⟨S2000000, .i32⟩) main_call14_v1) (broadcastInDim S2000000 ![] bcast_S_S2000000),
    TRef.ternary (TRef.of (T := ⟨S2000000, .i1⟩) main_v368) (TRef.of (T := ⟨S2000000, .i32⟩) main_v374) (TRef.of (T := ⟨S2000000, .i32⟩) main_call14_v1) (TRef.of (T := ⟨S2000000, .i32⟩) main_v375) select,
    binary main_v38 main_v39 main_v376 (mulf : (⟨S2000000, .f32⟩ : BufTy).Contents (Elt F) → (⟨S2000000, .f32⟩ : BufTy).Contents (Elt F) → (⟨S2000000, .f32⟩ : BufTy).Contents (Elt F)),
    binary main_v376 main_v40 main_v377 (mulf : (⟨S2000000, .f32⟩ : BufTy).Contents (Elt F) → (⟨S2000000, .f32⟩ : BufTy).Contents (Elt F) → (⟨S2000000, .f32⟩ : BufTy).Contents (Elt F)),
    binary main_v377 main_v4 main_v378 (mulf : (⟨S2000000, .f32⟩ : BufTy).Contents (Elt F) → (⟨S2000000, .f32⟩ : BufTy).Contents (Elt F) → (⟨S2000000, .f32⟩ : BufTy).Contents (Elt F)),
    nullary main_cst_136 (constant S_ .f32 0x00000000#32),
    TRef.unary (TRef.of (T := ⟨S_, .f32⟩) main_cst_136) (TRef.of (T := ⟨S_, .f32⟩) main_call15_v0) id,
    TRef.unary (TRef.of (T := ⟨S_, .f32⟩) main_call15_v0) (TRef.of (T := ⟨S2000000, .f32⟩) main_call15_v1) (broadcastInDim S2000000 ![] bcast_S_S2000000),
    TRef.ternary (TRef.of (T := ⟨S2000000, .i1⟩) main_v368) (TRef.of (T := ⟨S2000000, .f32⟩) main_v378) (TRef.of (T := ⟨S2000000, .f32⟩) main_call15_v1) (TRef.of (T := ⟨S2000000, .f32⟩) main_v379) select,
    nullary main_c_137 (constantI S_ 32 0#32),
    unary main_c_137 main_v380 (broadcastInDim S2000000 ![] bcast_S_S2000000 : (⟨S_, .i32⟩ : BufTy).Contents (Elt F) → (⟨S2000000, .i32⟩ : BufTy).Contents (Elt F)),
    binary main_v375 main_v380 main_v381 (cmpi .slt : (⟨S2000000, .i32⟩ : BufTy).Contents (Elt F) → (⟨S2000000, .i32⟩ : BufTy).Contents (Elt F) → (⟨S2000000, .i1⟩ : BufTy).Contents (Elt F)),
    nullary main_c_138 (constantI S_ 32 2097152#32),
    unary main_c_138 main_v382 (broadcastInDim S2000000 ![] bcast_S_S2000000 : (⟨S_, .i32⟩ : BufTy).Contents (Elt F) → (⟨S2000000, .i32⟩ : BufTy).Contents (Elt F)),
    binary main_v375 main_v382 main_v383 (addi : (⟨S2000000, .i32⟩ : BufTy).Contents (Elt F) → (⟨S2000000, .i32⟩ : BufTy).Contents (Elt F) → (⟨S2000000, .i32⟩ : BufTy).Contents (Elt F)),
    ternary main_v381 main_v383 main_v375 main_v384 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v384 main_v385 (broadcastInDim S2000000x1 ![0] bcast_S2000000_S2000000x1_0 : (⟨S2000000, .i32⟩ : BufTy).Contents (Elt F) → (⟨S2000000x1, .i32⟩ : BufTy).Contents (Elt F)),
    ternary main_v345 main_v385 main_v379 main_v386 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    reshape main_v386 main_v387 rfl shapeCasts_S2097152_S128x128x128,
    unary main_v3 main_v388 ((extractStridedSlice S2000000x1 ![0, 0] · slices_S2000000x3_S2000000x1_0_0) : (⟨S2000000x3, .f32⟩ : BufTy).Contents (Elt F) → (⟨S2000000x1, .f32⟩ : BufTy).Contents (Elt F)),
    reshape main_v388 main_v389 rfl shapeCasts_S2000000x1_S2000000,
    nullary main_cst_139 (constant S_ .f32 0x3F800000#32),
    unary main_cst_139 main_v390 (broadcastInDim S2000000 ![] bcast_S_S2000000 : (⟨S_, .f32⟩ : BufTy).Contents (Elt F) → (⟨S2000000, .f32⟩ : BufTy).Contents (Elt F)),
    binary main_v389 main_v390 main_v391 (addf : (⟨S2000000, .f32⟩ : BufTy).Contents (Elt F) → (⟨S2000000, .f32⟩ : BufTy).Contents (Elt F) → (⟨S2000000, .f32⟩ : BufTy).Contents (Elt F)),
    nullary main_cst_140 (constant S_ .f32 0x43000000#32),
    unary main_cst_140 main_v392 (broadcastInDim S2000000 ![] bcast_S_S2000000 : (⟨S_, .f32⟩ : BufTy).Contents (Elt F) → (⟨S2000000, .f32⟩ : BufTy).Contents (Elt F)),
    binary main_v391 main_v392 main_v393 (mulf : (⟨S2000000, .f32⟩ : BufTy).Contents (Elt F) → (⟨S2000000, .f32⟩ : BufTy).Contents (Elt F) → (⟨S2000000, .f32⟩ : BufTy).Contents (Elt F)),
    nullary main_cst_141 (constant S_ .f32 0x3F800000#32),
    unary main_cst_141 main_v394 (broadcastInDim S2000000 ![] bcast_S_S2000000 : (⟨S_, .f32⟩ : BufTy).Contents (Elt F) → (⟨S2000000, .f32⟩ : BufTy).Contents (Elt F)),
    binary main_v393 main_v394 main_v395 (subf : (⟨S2000000, .f32⟩ : BufTy).Contents (Elt F) → (⟨S2000000, .f32⟩ : BufTy).Contents (Elt F) → (⟨S2000000, .f32⟩ : BufTy).Contents (Elt F)) ]
/-- The stretch, as printed, is the line of its operations. -/
theorem part_8_eq (d : Dev nD) : main_part8 (F := F) d = seq ops_8 := rfl
/-- The references they write. -/
abbrev ops_8_W : List (Ref sig .tc) := [main_v351, main_c_127, main_v352, main_v353, main_c_128, main_v354, main_v355, main_v356, main_c_129, main_v357, main_v358, main_v359, main_c_130, main_v360, main_v361, main_v362, main_c_131, main_v363, main_v364, main_v365, main_c_132, main_v366, main_v367, main_v368, main_c_133, main_v369, main_v370, main_v371, main_c_134, main_v372, main_v373, main_v374, main_c_135, main_call14_v0, main_call14_v1, main_v375, main_v376, main_v377, main_v378, main_cst_136, main_call15_v0, main_call15_v1, main_v379, main_c_137, main_v380, main_v381, main_c_138, main_v382, main_v383, main_v384, main_v385, main_v386, main_v387, main_v388, main_v389, main_cst_139, main_v390, main_v391, main_cst_140, main_v392, main_v393, main_cst_141, main_v394, main_v395]
theorem ops_8_writes : (ops_8 : List (HloOp τ sig (Elt F))).Forall fun op => op.writes ⊆ (ops_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_8_sub : (ops_8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub ..⟩
theorem ops_8_fresh : (ops_8 : List (HloOp τ sig (Elt F))).Forall fun op => op.fresh = ∅ := by
  simp only [List.Forall]; repeat' constructor
theorem skip_8 (W : Valuation τ sig (Elt F)) {r : Ref sig .tc} (h : r ∉ ops_8_W) :
    after (no_index (ops_8 (F := F))) W (no_index (Proc.devRef .tc r)) = W (Proc.devRef .tc r) :=
  after_of_writes_sub ops_8 W ops_8_writes h

/-- Operations 572 to 631 of @main: the printed program's stretch 9. -/
abbrev ops_9 : List (HloOp τ sig (Elt F)) :=
  [ nullary main_cst_142 (constant S_ .f32 0x3F000000#32),
    unary main_cst_142 main_v396 (broadcastInDim S2000000 ![] bcast_S_S2000000 : (⟨S_, .f32⟩ : BufTy).Contents (Elt F) → (⟨S2000000, .f32⟩ : BufTy).Contents (Elt F)),
    binary main_v395 main_v396 main_v397 (mulf : (⟨S2000000, .f32⟩ : BufTy).Contents (Elt F) → (⟨S2000000, .f32⟩ : BufTy).Contents (Elt F) → (⟨S2000000, .f32⟩ : BufTy).Contents (Elt F)),
    unary main_v3 main_v398 ((extractStridedSlice S2000000x1 ![0, 1] · slices_S2000000x3_S2000000x1_0_1) : (⟨S2000000x3, .f32⟩ : BufTy).Contents (Elt F) → (⟨S2000000x1, .f32⟩ : BufTy).Contents (Elt F)),
    reshape main_v398 main_v399 rfl shapeCasts_S2000000x1_S2000000,
    nullary main_cst_143 (constant S_ .f32 0x3F800000#32),
    unary main_cst_143 main_v400 (broadcastInDim S2000000 ![] bcast_S_S2000000 : (⟨S_, .f32⟩ : BufTy).Contents (Elt F) → (⟨S2000000, .f32⟩ : BufTy).Contents (Elt F)),
    binary main_v399 main_v400 main_v401 (addf : (⟨S2000000, .f32⟩ : BufTy).Contents (Elt F) → (⟨S2000000, .f32⟩ : BufTy).Contents (Elt F) → (⟨S2000000, .f32⟩ : BufTy).Contents (Elt F)),
    nullary main_cst_144 (constant S_ .f32 0x43000000#32),
    unary main_cst_144 main_v402 (broadcastInDim S2000000 ![] bcast_S_S2000000 : (⟨S_, .f32⟩ : BufTy).Contents (Elt F) → (⟨S2000000, .f32⟩ : BufTy).Contents (Elt F)),
    binary main_v401 main_v402 main_v403 (mulf : (⟨S2000000, .f32⟩ : BufTy).Contents (Elt F) → (⟨S2000000, .f32⟩ : BufTy).Contents (Elt F) → (⟨S2000000, .f32⟩ : BufTy).Contents (Elt F)),
    nullary main_cst_145 (constant S_ .f32 0x3F800000#32),
    unary main_cst_145 main_v404 (broadcastInDim S2000000 ![] bcast_S_S2000000 : (⟨S_, .f32⟩ : BufTy).Contents (Elt F) → (⟨S2000000, .f32⟩ : BufTy).Contents (Elt F)),
    binary main_v403 main_v404 main_v405 (subf : (⟨S2000000, .f32⟩ : BufTy).Contents (Elt F) → (⟨S2000000, .f32⟩ : BufTy).Contents (Elt F) → (⟨S2000000, .f32⟩ : BufTy).Contents (Elt F)),
    nullary main_cst_146 (constant S_ .f32 0x3F000000#32),
    unary main_cst_146 main_v406 (broadcastInDim S2000000 ![] bcast_S_S2000000 : (⟨S_, .f32⟩ : BufTy).Contents (Elt F) → (⟨S2000000, .f32⟩ : BufTy).Contents (Elt F)),
    binary main_v405 main_v406 main_v407 (mulf : (⟨S2000000, .f32⟩ : BufTy).Contents (Elt F) → (⟨S2000000, .f32⟩ : BufTy).Contents (Elt F) → (⟨S2000000, .f32⟩ : BufTy).Contents (Elt F)),
    unary main_v3 main_v408 ((extractStridedSlice S2000000x1 ![0, 2] · slices_S2000000x3_S2000000x1_0_2) : (⟨S2000000x3, .f32⟩ : BufTy).Contents (Elt F) → (⟨S2000000x1, .f32⟩ : BufTy).Contents (Elt F)),
    reshape main_v408 main_v409 rfl shapeCasts_S2000000x1_S2000000,
    nullary main_cst_147 (constant S_ .f32 0x3F800000#32),
    unary main_cst_147 main_v410 (broadcastInDim S2000000 ![] bcast_S_S2000000 : (⟨S_, .f32⟩ : BufTy).Contents (Elt F) → (⟨S2000000, .f32⟩ : BufTy).Contents (Elt F)),
    binary main_v409 main_v410 main_v411 (addf : (⟨S2000000, .f32⟩ : BufTy).Contents (Elt F) → (⟨S2000000, .f32⟩ : BufTy).Contents (Elt F) → (⟨S2000000, .f32⟩ : BufTy).Contents (Elt F)),
    nullary main_cst_148 (constant S_ .f32 0x43000000#32),
    unary main_cst_148 main_v412 (broadcastInDim S2000000 ![] bcast_S_S2000000 : (⟨S_, .f32⟩ : BufTy).Contents (Elt F) → (⟨S2000000, .f32⟩ : BufTy).Contents (Elt F)),
    binary main_v411 main_v412 main_v413 (mulf : (⟨S2000000, .f32⟩ : BufTy).Contents (Elt F) → (⟨S2000000, .f32⟩ : BufTy).Contents (Elt F) → (⟨S2000000, .f32⟩ : BufTy).Contents (Elt F)),
    nullary main_cst_149 (constant S_ .f32 0x3F800000#32),
    unary main_cst_149 main_v414 (broadcastInDim S2000000 ![] bcast_S_S2000000 : (⟨S_, .f32⟩ : BufTy).Contents (Elt F) → (⟨S2000000, .f32⟩ : BufTy).Contents (Elt F)),
    binary main_v413 main_v414 main_v415 (subf : (⟨S2000000, .f32⟩ : BufTy).Contents (Elt F) → (⟨S2000000, .f32⟩ : BufTy).Contents (Elt F) → (⟨S2000000, .f32⟩ : BufTy).Contents (Elt F)),
    nullary main_cst_150 (constant S_ .f32 0x3F000000#32),
    unary main_cst_150 main_v416 (broadcastInDim S2000000 ![] bcast_S_S2000000 : (⟨S_, .f32⟩ : BufTy).Contents (Elt F) → (⟨S2000000, .f32⟩ : BufTy).Contents (Elt F)),
    binary main_v415 main_v416 main_v417 (mulf : (⟨S2000000, .f32⟩ : BufTy).Contents (Elt F) → (⟨S2000000, .f32⟩ : BufTy).Contents (Elt F) → (⟨S2000000, .f32⟩ : BufTy).Contents (Elt F)),
    unary main_v397 main_v418 (Host.floor : (⟨S2000000, .f32⟩ : BufTy).Contents (Elt F) → (⟨S2000000, .f32⟩ : BufTy).Contents (Elt F)),
    unary main_v407 main_v419 (Host.floor : (⟨S2000000, .f32⟩ : BufTy).Contents (Elt F) → (⟨S2000000, .f32⟩ : BufTy).Contents (Elt F)),
    unary main_v417 main_v420 (Host.floor : (⟨S2000000, .f32⟩ : BufTy).Contents (Elt F) → (⟨S2000000, .f32⟩ : BufTy).Contents (Elt F)),
    binary main_v397 main_v418 main_v421 (subf : (⟨S2000000, .f32⟩ : BufTy).Contents (Elt F) → (⟨S2000000, .f32⟩ : BufTy).Contents (Elt F) → (⟨S2000000, .f32⟩ : BufTy).Contents (Elt F)),
    binary main_v407 main_v419 main_v422 (subf : (⟨S2000000, .f32⟩ : BufTy).Contents (Elt F) → (⟨S2000000, .f32⟩ : BufTy).Contents (Elt F) → (⟨S2000000, .f32⟩ : BufTy).Contents (Elt F)),
    binary main_v417 main_v420 main_v423 (subf : (⟨S2000000, .f32⟩ : BufTy).Contents (Elt F) → (⟨S2000000, .f32⟩ : BufTy).Contents (Elt F) → (⟨S2000000, .f32⟩ : BufTy).Contents (Elt F)),
    unary main_v418 main_v424 (fptosi 32 : (⟨S2000000, .f32⟩ : BufTy).Contents (Elt F) → (⟨S2000000, .i32⟩ : BufTy).Contents (Elt F)),
    unary main_v419 main_v425 (fptosi 32 : (⟨S2000000, .f32⟩ : BufTy).Contents (Elt F) → (⟨S2000000, .i32⟩ : BufTy).Contents (Elt F)),
    unary main_v420 main_v426 (fptosi 32 : (⟨S2000000, .f32⟩ : BufTy).Contents (Elt F) → (⟨S2000000, .i32⟩ : BufTy).Contents (Elt F)),
    nullary main_cst_151 (constant S_ .f32 0x00000000#32),
    unary main_cst_151 main_v427 (broadcastInDim S2097152 ![] bcast_S_S2097152 : (⟨S_, .f32⟩ : BufTy).Contents (Elt F) → (⟨S2097152, .f32⟩ : BufTy).Contents (Elt F)),
    nullary main_cst_152 (constant S_ .f32 0x3F800000#32),
    unary main_cst_152 main_v428 (broadcastInDim S2000000 ![] bcast_S_S2000000 : (⟨S_, .f32⟩ : BufTy).Contents (Elt F) → (⟨S2000000, .f32⟩ : BufTy).Contents (Elt F)),
    binary main_v428 main_v423 main_v429 (subf : (⟨S2000000, .f32⟩ : BufTy).Contents (Elt F) → (⟨S2000000, .f32⟩ : BufTy).Contents (Elt F) → (⟨S2000000, .f32⟩ : BufTy).Contents (Elt F)),
    nullary main_cst_153 (constant S_ .f32 0x3F800000#32),
    unary main_cst_153 main_v430 (broadcastInDim S2000000 ![] bcast_S_S2000000 : (⟨S_, .f32⟩ : BufTy).Contents (Elt F) → (⟨S2000000, .f32⟩ : BufTy).Contents (Elt F)),
    binary main_v430 main_v422 main_v431 (subf : (⟨S2000000, .f32⟩ : BufTy).Contents (Elt F) → (⟨S2000000, .f32⟩ : BufTy).Contents (Elt F) → (⟨S2000000, .f32⟩ : BufTy).Contents (Elt F)),
    nullary main_cst_154 (constant S_ .f32 0x3F800000#32),
    unary main_cst_154 main_v432 (broadcastInDim S2000000 ![] bcast_S_S2000000 : (⟨S_, .f32⟩ : BufTy).Contents (Elt F) → (⟨S2000000, .f32⟩ : BufTy).Contents (Elt F)),
    binary main_v432 main_v421 main_v433 (subf : (⟨S2000000, .f32⟩ : BufTy).Contents (Elt F) → (⟨S2000000, .f32⟩ : BufTy).Contents (Elt F) → (⟨S2000000, .f32⟩ : BufTy).Contents (Elt F)),
    nullary main_c_155 (constantI S_ 32 0#32),
    unary main_c_155 main_v434 (broadcastInDim S2000000 ![] bcast_S_S2000000 : (⟨S_, .i32⟩ : BufTy).Contents (Elt F) → (⟨S2000000, .i32⟩ : BufTy).Contents (Elt F)),
    binary main_v424 main_v434 main_v435 (addi : (⟨S2000000, .i32⟩ : BufTy).Contents (Elt F) → (⟨S2000000, .i32⟩ : BufTy).Contents (Elt F) → (⟨S2000000, .i32⟩ : BufTy).Contents (Elt F)),
    nullary main_c_156 (constantI S_ 32 0#32),
    unary main_c_156 main_v436 (broadcastInDim S2000000 ![] bcast_S_S2000000 : (⟨S_, .i32⟩ : BufTy).Contents (Elt F) → (⟨S2000000, .i32⟩ : BufTy).Contents (Elt F)),
    binary main_v425 main_v436 main_v437 (addi : (⟨S2000000, .i32⟩ : BufTy).Contents (Elt F) → (⟨S2000000, .i32⟩ : BufTy).Contents (Elt F) → (⟨S2000000, .i32⟩ : BufTy).Contents (Elt F)),
    nullary main_c_157 (constantI S_ 32 0#32),
    unary main_c_157 main_v438 (broadcastInDim S2000000 ![] bcast_S_S2000000 : (⟨S_, .i32⟩ : BufTy).Contents (Elt F) → (⟨S2000000, .i32⟩ : BufTy).Contents (Elt F)),
    binary main_v426 main_v438 main_v439 (addi : (⟨S2000000, .i32⟩ : BufTy).Contents (Elt F) → (⟨S2000000, .i32⟩ : BufTy).Contents (Elt F) → (⟨S2000000, .i32⟩ : BufTy).Contents (Elt F)) ]
/-- The stretch, as printed, is the line of its operations. -/
theorem part_9_eq (d : Dev nD) : main_part9 (F := F) d = seq ops_9 := rfl
/-- The references they write. -/
abbrev ops_9_W : List (Ref sig .tc) := [main_cst_142, main_v396, main_v397, main_v398, main_v399, main_cst_143, main_v400, main_v401, main_cst_144, main_v402, main_v403, main_cst_145, main_v404, main_v405, main_cst_146, main_v406, main_v407, main_v408, main_v409, main_cst_147, main_v410, main_v411, main_cst_148, main_v412, main_v413, main_cst_149, main_v414, main_v415, main_cst_150, main_v416, main_v417, main_v418, main_v419, main_v420, main_v421, main_v422, main_v423, main_v424, main_v425, main_v426, main_cst_151, main_v427, main_cst_152, main_v428, main_v429, main_cst_153, main_v430, main_v431, main_cst_154, main_v432, main_v433, main_c_155, main_v434, main_v435, main_c_156, main_v436, main_v437, main_c_157, main_v438, main_v439]
theorem ops_9_writes : (ops_9 : List (HloOp τ sig (Elt F))).Forall fun op => op.writes ⊆ (ops_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_9_sub : (ops_9 : List (HloOp τ sig (Elt F))).Forall fun op => op.bufs ⊆ tcRefs τ sig :=
  ⟨nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem ops_9_fresh : (ops_9 : List (HloOp τ sig (Elt F))).Forall fun op => op.fresh = ∅ := by
  simp only [List.Forall]; repeat' constructor
theorem skip_9 (W : Valuation τ sig (Elt F)) {r : Ref sig .tc} (h : r ∉ ops_9_W) :
    after (no_index (ops_9 (F := F))) W (no_index (Proc.devRef .tc r)) = W (Proc.devRef .tc r) :=
  after_of_writes_sub ops_9 W ops_9_writes h

/-- Operations 632 to 695 of @main: the printed program's stretch 10. -/
abbrev ops_10 : List (HloOp τ sig (Elt F)) :=
  [ nullary main_c_158 (constantI S_ 32 0#32),
    unary main_c_158 main_v440 (broadcastInDim S2000000 ![] bcast_S_S2000000 : (⟨S_, .i32⟩ : BufTy).Contents (Elt F) → (⟨S2000000, .i32⟩ : BufTy).Contents (Elt F)),
    binary main_v435 main_v440 main_v441 (cmpi .sge : (⟨S2000000, .i32⟩ : BufTy).Contents (Elt F) → (⟨S2000000, .i32⟩ : BufTy).Contents (Elt F) → (⟨S2000000, .i1⟩ : BufTy).Contents (Elt F)),
    nullary main_c_159 (constantI S_ 32 128#32),
    unary main_c_159 main_v442 (broadcastInDim S2000000 ![] bcast_S_S2000000 : (⟨S_, .i32⟩ : BufTy).Contents (Elt F) → (⟨S2000000, .i32⟩ : BufTy).Contents (Elt F)),
    binary main_v435 main_v442 main_v443 (cmpi .slt : (⟨S2000000, .i32⟩ : BufTy).Contents (Elt F) → (⟨S2000000, .i32⟩ : BufTy).Contents (Elt F) → (⟨S2000000, .i1⟩ : BufTy).Contents (Elt F)),
    binary main_v441 main_v443 main_v444 (andi : (⟨S2000000, .i1⟩ : BufTy).Contents (Elt F) → (⟨S2000000, .i1⟩ : BufTy).Contents (Elt F) → (⟨S2000000, .i1⟩ : BufTy).Contents (Elt F)),
    nullary main_c_160 (constantI S_ 32 0#32),
    unary main_c_160 main_v445 (broadcastInDim S2000000 ![] bcast_S_S2000000 : (⟨S_, .i32⟩ : BufTy).Contents (Elt F) → (⟨S2000000, .i32⟩ : BufTy).Contents (Elt F)),
    binary main_v437 main_v445 main_v446 (cmpi .sge : (⟨S2000000, .i32⟩ : BufTy).Contents (Elt F) → (⟨S2000000, .i32⟩ : BufTy).Contents (Elt F) → (⟨S2000000, .i1⟩ : BufTy).Contents (Elt F)),
    binary main_v444 main_v446 main_v447 (andi : (⟨S2000000, .i1⟩ : BufTy).Contents (Elt F) → (⟨S2000000, .i1⟩ : BufTy).Contents (Elt F) → (⟨S2000000, .i1⟩ : BufTy).Contents (Elt F)),
    nullary main_c_161 (constantI S_ 32 128#32),
    unary main_c_161 main_v448 (broadcastInDim S2000000 ![] bcast_S_S2000000 : (⟨S_, .i32⟩ : BufTy).Contents (Elt F) → (⟨S2000000, .i32⟩ : BufTy).Contents (Elt F)),
    binary main_v437 main_v448 main_v449 (cmpi .slt : (⟨S2000000, .i32⟩ : BufTy).Contents (Elt F) → (⟨S2000000, .i32⟩ : BufTy).Contents (Elt F) → (⟨S2000000, .i1⟩ : BufTy).Contents (Elt F)),
    binary main_v447 main_v449 main_v450 (andi : (⟨S2000000, .i1⟩ : BufTy).Contents (Elt F) → (⟨S2000000, .i1⟩ : BufTy).Contents (Elt F) → (⟨S2000000, .i1⟩ : BufTy).Contents (Elt F)),
    nullary main_c_162 (constantI S_ 32 0#32),
    unary main_c_162 main_v451 (broadcastInDim S2000000 ![] bcast_S_S2000000 : (⟨S_, .i32⟩ : BufTy).Contents (Elt F) → (⟨S2000000, .i32⟩ : BufTy).Contents (Elt F)),
    binary main_v439 main_v451 main_v452 (cmpi .sge : (⟨S2000000, .i32⟩ : BufTy).Contents (Elt F) → (⟨S2000000, .i32⟩ : BufTy).Contents (Elt F) → (⟨S2000000, .i1⟩ : BufTy).Contents (Elt F)),
    binary main_v450 main_v452 main_v453 (andi : (⟨S2000000, .i1⟩ : BufTy).Contents (Elt F) → (⟨S2000000, .i1⟩ : BufTy).Contents (Elt F) → (⟨S2000000, .i1⟩ : BufTy).Contents (Elt F)),
    nullary main_c_163 (constantI S_ 32 128#32),
    unary main_c_163 main_v454 (broadcastInDim S2000000 ![] bcast_S_S2000000 : (⟨S_, .i32⟩ : BufTy).Contents (Elt F) → (⟨S2000000, .i32⟩ : BufTy).Contents (Elt F)),
    binary main_v439 main_v454 main_v455 (cmpi .slt : (⟨S2000000, .i32⟩ : BufTy).Contents (Elt F) → (⟨S2000000, .i32⟩ : BufTy).Contents (Elt F) → (⟨S2000000, .i1⟩ : BufTy).Contents (Elt F)),
    binary main_v453 main_v455 main_v456 (andi : (⟨S2000000, .i1⟩ : BufTy).Contents (Elt F) → (⟨S2000000, .i1⟩ : BufTy).Contents (Elt F) → (⟨S2000000, .i1⟩ : BufTy).Contents (Elt F)),
    nullary main_c_164 (constantI S_ 32 128#32),
    unary main_c_164 main_v457 (broadcastInDim S2000000 ![] bcast_S_S2000000 : (⟨S_, .i32⟩ : BufTy).Contents (Elt F) → (⟨S2000000, .i32⟩ : BufTy).Contents (Elt F)),
    binary main_v439 main_v457 main_v458 (muli : (⟨S2000000, .i32⟩ : BufTy).Contents (Elt F) → (⟨S2000000, .i32⟩ : BufTy).Contents (Elt F) → (⟨S2000000, .i32⟩ : BufTy).Contents (Elt F)),
    binary main_v458 main_v437 main_v459 (addi : (⟨S2000000, .i32⟩ : BufTy).Contents (Elt F) → (⟨S2000000, .i32⟩ : BufTy).Contents (Elt F) → (⟨S2000000, .i32⟩ : BufTy).Contents (Elt F)),
    nullary main_c_165 (constantI S_ 32 128#32),
    unary main_c_165 main_v460 (broadcastInDim S2000000 ![] bcast_S_S2000000 : (⟨S_, .i32⟩ : BufTy).Contents (Elt F) → (⟨S2000000, .i32⟩ : BufTy).Contents (Elt F)),
    binary main_v459 main_v460 main_v461 (muli : (⟨S2000000, .i32⟩ : BufTy).Contents (Elt F) → (⟨S2000000, .i32⟩ : BufTy).Contents (Elt F) → (⟨S2000000, .i32⟩ : BufTy).Contents (Elt F)),
    binary main_v461 main_v435 main_v462 (addi : (⟨S2000000, .i32⟩ : BufTy).Contents (Elt F) → (⟨S2000000, .i32⟩ : BufTy).Contents (Elt F) → (⟨S2000000, .i32⟩ : BufTy).Contents (Elt F)),
    nullary main_c_166 (constantI S_ 32 0#32),
    TRef.unary (TRef.of (T := ⟨S_, .i32⟩) main_c_166) (TRef.of (T := ⟨S_, .i32⟩) main_call16_v0) id,
    TRef.unary (TRef.of (T := ⟨S_, .i32⟩) main_call16_v0) (TRef.of (T := ⟨S2000000, .i32⟩) main_call16_v1) (broadcastInDim S2000000 ![] bcast_S_S2000000),
    TRef.ternary (TRef.of (T := ⟨S2000000, .i1⟩) main_v456) (TRef.of (T := ⟨S2000000, .i32⟩) main_v462) (TRef.of (T := ⟨S2000000, .i32⟩) main_call16_v1) (TRef.of (T := ⟨S2000000, .i32⟩) main_v463) select,
    binary main_v433 main_v431 main_v464 (mulf : (⟨S2000000, .f32⟩ : BufTy).Contents (Elt F) → (⟨S2000000, .f32⟩ : BufTy).Contents (Elt F) → (⟨S2000000, .f32⟩ : BufTy).Contents (Elt F)),
    binary main_v464 main_v429 main_v465 (mulf : (⟨S2000000, .f32⟩ : BufTy).Contents (Elt F) → (⟨S2000000, .f32⟩ : BufTy).Contents (Elt F) → (⟨S2000000, .f32⟩ : BufTy).Contents (Elt F)),
    binary main_v465 main_v4 main_v466 (mulf : (⟨S2000000, .f32⟩ : BufTy).Contents (Elt F) → (⟨S2000000, .f32⟩ : BufTy).Contents (Elt F) → (⟨S2000000, .f32⟩ : BufTy).Contents (Elt F)),
    nullary main_cst_167 (constant S_ .f32 0x00000000#32),
    TRef.unary (TRef.of (T := ⟨S_, .f32⟩) main_cst_167) (TRef.of (T := ⟨S_, .f32⟩) main_call17_v0) id,
    TRef.unary (TRef.of (T := ⟨S_, .f32⟩) main_call17_v0) (TRef.of (T := ⟨S2000000, .f32⟩) main_call17_v1) (broadcastInDim S2000000 ![] bcast_S_S2000000),
    TRef.ternary (TRef.of (T := ⟨S2000000, .i1⟩) main_v456) (TRef.of (T := ⟨S2000000, .f32⟩) main_v466) (TRef.of (T := ⟨S2000000, .f32⟩) main_call17_v1) (TRef.of (T := ⟨S2000000, .f32⟩) main_v467) select,
    nullary main_c_168 (constantI S_ 32 0#32),
    unary main_c_168 main_v468 (broadcastInDim S2000000 ![] bcast_S_S2000000 : (⟨S_, .i32⟩ : BufTy).Contents (Elt F) → (⟨S2000000, .i32⟩ : BufTy).Contents (Elt F)),
    binary main_v463 main_v468 main_v469 (cmpi .slt : (⟨S2000000, .i32⟩ : BufTy).Contents (Elt F) → (⟨S2000000, .i32⟩ : BufTy).Contents (Elt F) → (⟨S2000000, .i1⟩ : BufTy).Contents (Elt F)),
    nullary main_c_169 (constantI S_ 32 2097152#32),
    unary main_c_169 main_v470 (broadcastInDim S2000000 ![] bcast_S_S2000000 : (⟨S_, .i32⟩ : BufTy).Contents (Elt F) → (⟨S2000000, .i32⟩ : BufTy).Contents (Elt F)),
    binary main_v463 main_v470 main_v471 (addi : (⟨S2000000, .i32⟩ : BufTy).Contents (Elt F) → (⟨S2000000, .i32⟩ : BufTy).Contents (Elt F) → (⟨S2000000, .i32⟩ : BufTy).Contents (Elt F)),
    ternary main_v469 main_v471 main_v463 main_v472 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v472 main_v473 (broadcastInDim S2000000x1 ![0] bcast_S2000000_S2000000x1_0 : (⟨S2000000, .i32⟩ : BufTy).Contents (Elt F) → (⟨S2000000x1, .i32⟩ : BufTy).Contents (Elt F)),
    ternary main_v427 main_v473 main_v467 main_v474 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_170 (constantI S_ 32 1#32),
    unary main_c_170 main_v475 (broadcastInDim S2000000 ![] bcast_S_S2000000 : (⟨S_, .i32⟩ : BufTy).Contents (Elt F) → (⟨S2000000, .i32⟩ : BufTy).Contents (Elt F)),
    binary main_v424 main_v475 main_v476 (addi : (⟨S2000000, .i32⟩ : BufTy).Contents (Elt F) → (⟨S2000000, .i32⟩ : BufTy).Contents (Elt F) → (⟨S2000000, .i32⟩ : BufTy).Contents (Elt F)),
    nullary main_c_171 (constantI S_ 32 0#32),
    unary main_c_171 main_v477 (broadcastInDim S2000000 ![] bcast_S_S2000000 : (⟨S_, .i32⟩ : BufTy).Contents (Elt F) → (⟨S2000000, .i32⟩ : BufTy).Contents (Elt F)),
    binary main_v425 main_v477 main_v478 (addi : (⟨S2000000, .i32⟩ : BufTy).Contents (Elt F) → (⟨S2000000, .i32⟩ : BufTy).Contents (Elt F) → (⟨S2000000, .i32⟩ : BufTy).Contents (Elt F)),
    nullary main_c_172 (constantI S_ 32 0#32),
    unary main_c_172 main_v479 (broadcastInDim S2000000 ![] bcast_S_S2000000 : (⟨S_, .i32⟩ : BufTy).Contents (Elt F) → (⟨S2000000, .i32⟩ : BufTy).Contents (Elt F)),
    binary main_v426 main_v479 main_v480 (addi : (⟨S2000000, .i32⟩ : BufTy).Contents (Elt F) → (⟨S2000000, .i32⟩ : BufTy).Contents (Elt F) → (⟨S2000000, .i32⟩ : BufTy).Contents (Elt F)),
    nullary main_c_173 (constantI S_ 32 0#32),
    unary main_c_173 main_v481 (broadcastInDim S2000000 ![] bcast_S_S2000000 : (⟨S_, .i32⟩ : BufTy).Contents (Elt F) → (⟨S2000000, .i32⟩ : BufTy).Contents (Elt F)),
    binary main_v476 main_v481 main_v482 (cmpi .sge : (⟨S2000000, .i32⟩ : BufTy).Contents (Elt F) → (⟨S2000000, .i32⟩ : BufTy).Contents (Elt F) → (⟨S2000000, .i1⟩ : BufTy).Contents (Elt F)),
    nullary main_c_174 (constantI S_ 32 128#32) ]
/-- The stretch, as printed, is the line of its operations. -/
theorem part_10_eq (d : Dev nD) : main_part10 (F := F) d = seq ops_10 := rfl
/-- The references they write. -/
abbrev ops_10_W : List (Ref sig .tc) := [main_c_158, main_v440, main_v441, main_c_159, main_v442, main_v443, main_v444, main_c_160, main_v445, main_v446, main_v447, main_c_161, main_v448, main_v449, main_v450, main_c_162, main_v451, main_v452, main_v453, main_c_163, main_v454, main_v455, main_v456, main_c_164, main_v457, main_v458, main_v459, main_c_165, main_v460, main_v461, main_v462, main_c_166, main_call16_v0, main_call16_v1, main_v463, main_v464, main_v465, main_v466, main_cst_167, main_call17_v0, main_call17_v1, main_v467, main_c_168, main_v468, main_v469, main_c_169, main_v470, main_v471, main_v472, main_v473, main_v474, main_c_170, main_v475, main_v476, main_c_171, main_v477, main_v478, main_c_172, main_v479, main_v480, main_c_173, main_v481, main_v482, main_c_174]
theorem ops_10_writes : (ops_10 : List (HloOp τ sig (Elt F))).Forall fun op => op.writes ⊆ (ops_10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_10_sub : (ops_10 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩
theorem ops_10_fresh : (ops_10 : List (HloOp τ sig (Elt F))).Forall fun op => op.fresh = ∅ := by
  simp only [List.Forall]; repeat' constructor
theorem skip_10 (W : Valuation τ sig (Elt F)) {r : Ref sig .tc} (h : r ∉ ops_10_W) :
    after (no_index (ops_10 (F := F))) W (no_index (Proc.devRef .tc r)) = W (Proc.devRef .tc r) :=
  after_of_writes_sub ops_10 W ops_10_writes h

/-- Operations 696 to 759 of @main: the printed program's stretch 11. -/
abbrev ops_11 : List (HloOp τ sig (Elt F)) :=
  [ unary main_c_174 main_v483 (broadcastInDim S2000000 ![] bcast_S_S2000000 : (⟨S_, .i32⟩ : BufTy).Contents (Elt F) → (⟨S2000000, .i32⟩ : BufTy).Contents (Elt F)),
    binary main_v476 main_v483 main_v484 (cmpi .slt : (⟨S2000000, .i32⟩ : BufTy).Contents (Elt F) → (⟨S2000000, .i32⟩ : BufTy).Contents (Elt F) → (⟨S2000000, .i1⟩ : BufTy).Contents (Elt F)),
    binary main_v482 main_v484 main_v485 (andi : (⟨S2000000, .i1⟩ : BufTy).Contents (Elt F) → (⟨S2000000, .i1⟩ : BufTy).Contents (Elt F) → (⟨S2000000, .i1⟩ : BufTy).Contents (Elt F)),
    nullary main_c_175 (constantI S_ 32 0#32),
    unary main_c_175 main_v486 (broadcastInDim S2000000 ![] bcast_S_S2000000 : (⟨S_, .i32⟩ : BufTy).Contents (Elt F) → (⟨S2000000, .i32⟩ : BufTy).Contents (Elt F)),
    binary main_v478 main_v486 main_v487 (cmpi .sge : (⟨S2000000, .i32⟩ : BufTy).Contents (Elt F) → (⟨S2000000, .i32⟩ : BufTy).Contents (Elt F) → (⟨S2000000, .i1⟩ : BufTy).Contents (Elt F)),
    binary main_v485 main_v487 main_v488 (andi : (⟨S2000000, .i1⟩ : BufTy).Contents (Elt F) → (⟨S2000000, .i1⟩ : BufTy).Contents (Elt F) → (⟨S2000000, .i1⟩ : BufTy).Contents (Elt F)),
    nullary main_c_176 (constantI S_ 32 128#32),
    unary main_c_176 main_v489 (broadcastInDim S2000000 ![] bcast_S_S2000000 : (⟨S_, .i32⟩ : BufTy).Contents (Elt F) → (⟨S2000000, .i32⟩ : BufTy).Contents (Elt F)),
    binary main_v478 main_v489 main_v490 (cmpi .slt : (⟨S2000000, .i32⟩ : BufTy).Contents (Elt F) → (⟨S2000000, .i32⟩ : BufTy).Contents (Elt F) → (⟨S2000000, .i1⟩ : BufTy).Contents (Elt F)),
    binary main_v488 main_v490 main_v491 (andi : (⟨S2000000, .i1⟩ : BufTy).Contents (Elt F) → (⟨S2000000, .i1⟩ : BufTy).Contents (Elt F) → (⟨S2000000, .i1⟩ : BufTy).Contents (Elt F)),
    nullary main_c_177 (constantI S_ 32 0#32),
    unary main_c_177 main_v492 (broadcastInDim S2000000 ![] bcast_S_S2000000 : (⟨S_, .i32⟩ : BufTy).Contents (Elt F) → (⟨S2000000, .i32⟩ : BufTy).Contents (Elt F)),
    binary main_v480 main_v492 main_v493 (cmpi .sge : (⟨S2000000, .i32⟩ : BufTy).Contents (Elt F) → (⟨S2000000, .i32⟩ : BufTy).Contents (Elt F) → (⟨S2000000, .i1⟩ : BufTy).Contents (Elt F)),
    binary main_v491 main_v493 main_v494 (andi : (⟨S2000000, .i1⟩ : BufTy).Contents (Elt F) → (⟨S2000000, .i1⟩ : BufTy).Contents (Elt F) → (⟨S2000000, .i1⟩ : BufTy).Contents (Elt F)),
    nullary main_c_178 (constantI S_ 32 128#32),
    unary main_c_178 main_v495 (broadcastInDim S2000000 ![] bcast_S_S2000000 : (⟨S_, .i32⟩ : BufTy).Contents (Elt F) → (⟨S2000000, .i32⟩ : BufTy).Contents (Elt F)),
    binary main_v480 main_v495 main_v496 (cmpi .slt : (⟨S2000000, .i32⟩ : BufTy).Contents (Elt F) → (⟨S2000000, .i32⟩ : BufTy).Contents (Elt F) → (⟨S2000000, .i1⟩ : BufTy).Contents (Elt F)),
    binary main_v494 main_v496 main_v497 (andi : (⟨S2000000, .i1⟩ : BufTy).Contents (Elt F) → (⟨S2000000, .i1⟩ : BufTy).Contents (Elt F) → (⟨S2000000, .i1⟩ : BufTy).Contents (Elt F)),
    nullary main_c_179 (constantI S_ 32 128#32),
    unary main_c_179 main_v498 (broadcastInDim S2000000 ![] bcast_S_S2000000 : (⟨S_, .i32⟩ : BufTy).Contents (Elt F) → (⟨S2000000, .i32⟩ : BufTy).Contents (Elt F)),
    binary main_v480 main_v498 main_v499 (muli : (⟨S2000000, .i32⟩ : BufTy).Contents (Elt F) → (⟨S2000000, .i32⟩ : BufTy).Contents (Elt F) → (⟨S2000000, .i32⟩ : BufTy).Contents (Elt F)),
    binary main_v499 main_v478 main_v500 (addi : (⟨S2000000, .i32⟩ : BufTy).Contents (Elt F) → (⟨S2000000, .i32⟩ : BufTy).Contents (Elt F) → (⟨S2000000, .i32⟩ : BufTy).Contents (Elt F)),
    nullary main_c_180 (constantI S_ 32 128#32),
    unary main_c_180 main_v501 (broadcastInDim S2000000 ![] bcast_S_S2000000 : (⟨S_, .i32⟩ : BufTy).Contents (Elt F) → (⟨S2000000, .i32⟩ : BufTy).Contents (Elt F)),
    binary main_v500 main_v501 main_v502 (muli : (⟨S2000000, .i32⟩ : BufTy).Contents (Elt F) → (⟨S2000000, .i32⟩ : BufTy).Contents (Elt F) → (⟨S2000000, .i32⟩ : BufTy).Contents (Elt F)),
    binary main_v502 main_v476 main_v503 (addi : (⟨S2000000, .i32⟩ : BufTy).Contents (Elt F) → (⟨S2000000, .i32⟩ : BufTy).Contents (Elt F) → (⟨S2000000, .i32⟩ : BufTy).Contents (Elt F)),
    nullary main_c_181 (constantI S_ 32 0#32),
    TRef.unary (TRef.of (T := ⟨S_, .i32⟩) main_c_181) (TRef.of (T := ⟨S_, .i32⟩) main_call18_v0) id,
    TRef.unary (TRef.of (T := ⟨S_, .i32⟩) main_call18_v0) (TRef.of (T := ⟨S2000000, .i32⟩) main_call18_v1) (broadcastInDim S2000000 ![] bcast_S_S2000000),
    TRef.ternary (TRef.of (T := ⟨S2000000, .i1⟩) main_v497) (TRef.of (T := ⟨S2000000, .i32⟩) main_v503) (TRef.of (T := ⟨S2000000, .i32⟩) main_call18_v1) (TRef.of (T := ⟨S2000000, .i32⟩) main_v504) select,
    binary main_v421 main_v431 main_v505 (mulf : (⟨S2000000, .f32⟩ : BufTy).Contents (Elt F) → (⟨S2000000, .f32⟩ : BufTy).Contents (Elt F) → (⟨S2000000, .f32⟩ : BufTy).Contents (Elt F)),
    binary main_v505 main_v429 main_v506 (mulf : (⟨S2000000, .f32⟩ : BufTy).Contents (Elt F) → (⟨S2000000, .f32⟩ : BufTy).Contents (Elt F) → (⟨S2000000, .f32⟩ : BufTy).Contents (Elt F)),
    binary main_v506 main_v4 main_v507 (mulf : (⟨S2000000, .f32⟩ : BufTy).Contents (Elt F) → (⟨S2000000, .f32⟩ : BufTy).Contents (Elt F) → (⟨S2000000, .f32⟩ : BufTy).Contents (Elt F)),
    nullary main_cst_182 (constant S_ .f32 0x00000000#32),
    TRef.unary (TRef.of (T := ⟨S_, .f32⟩) main_cst_182) (TRef.of (T := ⟨S_, .f32⟩) main_call19_v0) id,
    TRef.unary (TRef.of (T := ⟨S_, .f32⟩) main_call19_v0) (TRef.of (T := ⟨S2000000, .f32⟩) main_call19_v1) (broadcastInDim S2000000 ![] bcast_S_S2000000),
    TRef.ternary (TRef.of (T := ⟨S2000000, .i1⟩) main_v497) (TRef.of (T := ⟨S2000000, .f32⟩) main_v507) (TRef.of (T := ⟨S2000000, .f32⟩) main_call19_v1) (TRef.of (T := ⟨S2000000, .f32⟩) main_v508) select,
    nullary main_c_183 (constantI S_ 32 0#32),
    unary main_c_183 main_v509 (broadcastInDim S2000000 ![] bcast_S_S2000000 : (⟨S_, .i32⟩ : BufTy).Contents (Elt F) → (⟨S2000000, .i32⟩ : BufTy).Contents (Elt F)),
    binary main_v504 main_v509 main_v510 (cmpi .slt : (⟨S2000000, .i32⟩ : BufTy).Contents (Elt F) → (⟨S2000000, .i32⟩ : BufTy).Contents (Elt F) → (⟨S2000000, .i1⟩ : BufTy).Contents (Elt F)),
    nullary main_c_184 (constantI S_ 32 2097152#32),
    unary main_c_184 main_v511 (broadcastInDim S2000000 ![] bcast_S_S2000000 : (⟨S_, .i32⟩ : BufTy).Contents (Elt F) → (⟨S2000000, .i32⟩ : BufTy).Contents (Elt F)),
    binary main_v504 main_v511 main_v512 (addi : (⟨S2000000, .i32⟩ : BufTy).Contents (Elt F) → (⟨S2000000, .i32⟩ : BufTy).Contents (Elt F) → (⟨S2000000, .i32⟩ : BufTy).Contents (Elt F)),
    ternary main_v510 main_v512 main_v504 main_v513 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v513 main_v514 (broadcastInDim S2000000x1 ![0] bcast_S2000000_S2000000x1_0 : (⟨S2000000, .i32⟩ : BufTy).Contents (Elt F) → (⟨S2000000x1, .i32⟩ : BufTy).Contents (Elt F)),
    ternary main_v474 main_v514 main_v508 main_v515 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_cst_185 (constant S_ .f32 0x3F800000#32),
    unary main_cst_185 main_v516 (broadcastInDim S2000000 ![] bcast_S_S2000000 : (⟨S_, .f32⟩ : BufTy).Contents (Elt F) → (⟨S2000000, .f32⟩ : BufTy).Contents (Elt F)),
    binary main_v516 main_v421 main_v517 (subf : (⟨S2000000, .f32⟩ : BufTy).Contents (Elt F) → (⟨S2000000, .f32⟩ : BufTy).Contents (Elt F) → (⟨S2000000, .f32⟩ : BufTy).Contents (Elt F)),
    nullary main_c_186 (constantI S_ 32 0#32),
    unary main_c_186 main_v518 (broadcastInDim S2000000 ![] bcast_S_S2000000 : (⟨S_, .i32⟩ : BufTy).Contents (Elt F) → (⟨S2000000, .i32⟩ : BufTy).Contents (Elt F)),
    binary main_v424 main_v518 main_v519 (addi : (⟨S2000000, .i32⟩ : BufTy).Contents (Elt F) → (⟨S2000000, .i32⟩ : BufTy).Contents (Elt F) → (⟨S2000000, .i32⟩ : BufTy).Contents (Elt F)),
    nullary main_c_187 (constantI S_ 32 1#32),
    unary main_c_187 main_v520 (broadcastInDim S2000000 ![] bcast_S_S2000000 : (⟨S_, .i32⟩ : BufTy).Contents (Elt F) → (⟨S2000000, .i32⟩ : BufTy).Contents (Elt F)),
    binary main_v425 main_v520 main_v521 (addi : (⟨S2000000, .i32⟩ : BufTy).Contents (Elt F) → (⟨S2000000, .i32⟩ : BufTy).Contents (Elt F) → (⟨S2000000, .i32⟩ : BufTy).Contents (Elt F)),
    nullary main_c_188 (constantI S_ 32 0#32),
    unary main_c_188 main_v522 (broadcastInDim S2000000 ![] bcast_S_S2000000 : (⟨S_, .i32⟩ : BufTy).Contents (Elt F) → (⟨S2000000, .i32⟩ : BufTy).Contents (Elt F)),
    binary main_v426 main_v522 main_v523 (addi : (⟨S2000000, .i32⟩ : BufTy).Contents (Elt F) → (⟨S2000000, .i32⟩ : BufTy).Contents (Elt F) → (⟨S2000000, .i32⟩ : BufTy).Contents (Elt F)),
    nullary main_c_189 (constantI S_ 32 0#32),
    unary main_c_189 main_v524 (broadcastInDim S2000000 ![] bcast_S_S2000000 : (⟨S_, .i32⟩ : BufTy).Contents (Elt F) → (⟨S2000000, .i32⟩ : BufTy).Contents (Elt F)),
    binary main_v519 main_v524 main_v525 (cmpi .sge : (⟨S2000000, .i32⟩ : BufTy).Contents (Elt F) → (⟨S2000000, .i32⟩ : BufTy).Contents (Elt F) → (⟨S2000000, .i1⟩ : BufTy).Contents (Elt F)),
    nullary main_c_190 (constantI S_ 32 128#32),
    unary main_c_190 main_v526 (broadcastInDim S2000000 ![] bcast_S_S2000000 : (⟨S_, .i32⟩ : BufTy).Contents (Elt F) → (⟨S2000000, .i32⟩ : BufTy).Contents (Elt F)) ]
/-- The stretch, as printed, is the line of its operations. -/
theorem part_11_eq (d : Dev nD) : main_part11 (F := F) d = seq ops_11 := rfl
/-- The references they write. -/
abbrev ops_11_W : List (Ref sig .tc) := [main_v483, main_v484, main_v485, main_c_175, main_v486, main_v487, main_v488, main_c_176, main_v489, main_v490, main_v491, main_c_177, main_v492, main_v493, main_v494, main_c_178, main_v495, main_v496, main_v497, main_c_179, main_v498, main_v499, main_v500, main_c_180, main_v501, main_v502, main_v503, main_c_181, main_call18_v0, main_call18_v1, main_v504, main_v505, main_v506, main_v507, main_cst_182, main_call19_v0, main_call19_v1, main_v508, main_c_183, main_v509, main_v510, main_c_184, main_v511, main_v512, main_v513, main_v514, main_v515, main_cst_185, main_v516, main_v517, main_c_186, main_v518, main_v519, main_c_187, main_v520, main_v521, main_c_188, main_v522, main_v523, main_c_189, main_v524, main_v525, main_c_190, main_v526]
theorem ops_11_writes : (ops_11 : List (HloOp τ sig (Elt F))).Forall fun op => op.writes ⊆ (ops_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_11_sub : (ops_11 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩
theorem ops_11_fresh : (ops_11 : List (HloOp τ sig (Elt F))).Forall fun op => op.fresh = ∅ := by
  simp only [List.Forall]; repeat' constructor
theorem skip_11 (W : Valuation τ sig (Elt F)) {r : Ref sig .tc} (h : r ∉ ops_11_W) :
    after (no_index (ops_11 (F := F))) W (no_index (Proc.devRef .tc r)) = W (Proc.devRef .tc r) :=
  after_of_writes_sub ops_11 W ops_11_writes h

/-- Operations 760 to 823 of @main: the printed program's stretch 12. -/
abbrev ops_12 : List (HloOp τ sig (Elt F)) :=
  [ binary main_v519 main_v526 main_v527 (cmpi .slt : (⟨S2000000, .i32⟩ : BufTy).Contents (Elt F) → (⟨S2000000, .i32⟩ : BufTy).Contents (Elt F) → (⟨S2000000, .i1⟩ : BufTy).Contents (Elt F)),
    binary main_v525 main_v527 main_v528 (andi : (⟨S2000000, .i1⟩ : BufTy).Contents (Elt F) → (⟨S2000000, .i1⟩ : BufTy).Contents (Elt F) → (⟨S2000000, .i1⟩ : BufTy).Contents (Elt F)),
    nullary main_c_191 (constantI S_ 32 0#32),
    unary main_c_191 main_v529 (broadcastInDim S2000000 ![] bcast_S_S2000000 : (⟨S_, .i32⟩ : BufTy).Contents (Elt F) → (⟨S2000000, .i32⟩ : BufTy).Contents (Elt F)),
    binary main_v521 main_v529 main_v530 (cmpi .sge : (⟨S2000000, .i32⟩ : BufTy).Contents (Elt F) → (⟨S2000000, .i32⟩ : BufTy).Contents (Elt F) → (⟨S2000000, .i1⟩ : BufTy).Contents (Elt F)),
    binary main_v528 main_v530 main_v531 (andi : (⟨S2000000, .i1⟩ : BufTy).Contents (Elt F) → (⟨S2000000, .i1⟩ : BufTy).Contents (Elt F) → (⟨S2000000, .i1⟩ : BufTy).Contents (Elt F)),
    nullary main_c_192 (constantI S_ 32 128#32),
    unary main_c_192 main_v532 (broadcastInDim S2000000 ![] bcast_S_S2000000 : (⟨S_, .i32⟩ : BufTy).Contents (Elt F) → (⟨S2000000, .i32⟩ : BufTy).Contents (Elt F)),
    binary main_v521 main_v532 main_v533 (cmpi .slt : (⟨S2000000, .i32⟩ : BufTy).Contents (Elt F) → (⟨S2000000, .i32⟩ : BufTy).Contents (Elt F) → (⟨S2000000, .i1⟩ : BufTy).Contents (Elt F)),
    binary main_v531 main_v533 main_v534 (andi : (⟨S2000000, .i1⟩ : BufTy).Contents (Elt F) → (⟨S2000000, .i1⟩ : BufTy).Contents (Elt F) → (⟨S2000000, .i1⟩ : BufTy).Contents (Elt F)),
    nullary main_c_193 (constantI S_ 32 0#32),
    unary main_c_193 main_v535 (broadcastInDim S2000000 ![] bcast_S_S2000000 : (⟨S_, .i32⟩ : BufTy).Contents (Elt F) → (⟨S2000000, .i32⟩ : BufTy).Contents (Elt F)),
    binary main_v523 main_v535 main_v536 (cmpi .sge : (⟨S2000000, .i32⟩ : BufTy).Contents (Elt F) → (⟨S2000000, .i32⟩ : BufTy).Contents (Elt F) → (⟨S2000000, .i1⟩ : BufTy).Contents (Elt F)),
    binary main_v534 main_v536 main_v537 (andi : (⟨S2000000, .i1⟩ : BufTy).Contents (Elt F) → (⟨S2000000, .i1⟩ : BufTy).Contents (Elt F) → (⟨S2000000, .i1⟩ : BufTy).Contents (Elt F)),
    nullary main_c_194 (constantI S_ 32 128#32),
    unary main_c_194 main_v538 (broadcastInDim S2000000 ![] bcast_S_S2000000 : (⟨S_, .i32⟩ : BufTy).Contents (Elt F) → (⟨S2000000, .i32⟩ : BufTy).Contents (Elt F)),
    binary main_v523 main_v538 main_v539 (cmpi .slt : (⟨S2000000, .i32⟩ : BufTy).Contents (Elt F) → (⟨S2000000, .i32⟩ : BufTy).Contents (Elt F) → (⟨S2000000, .i1⟩ : BufTy).Contents (Elt F)),
    binary main_v537 main_v539 main_v540 (andi : (⟨S2000000, .i1⟩ : BufTy).Contents (Elt F) → (⟨S2000000, .i1⟩ : BufTy).Contents (Elt F) → (⟨S2000000, .i1⟩ : BufTy).Contents (Elt F)),
    nullary main_c_195 (constantI S_ 32 128#32),
    unary main_c_195 main_v541 (broadcastInDim S2000000 ![] bcast_S_S2000000 : (⟨S_, .i32⟩ : BufTy).Contents (Elt F) → (⟨S2000000, .i32⟩ : BufTy).Contents (Elt F)),
    binary main_v523 main_v541 main_v542 (muli : (⟨S2000000, .i32⟩ : BufTy).Contents (Elt F) → (⟨S2000000, .i32⟩ : BufTy).Contents (Elt F) → (⟨S2000000, .i32⟩ : BufTy).Contents (Elt F)),
    binary main_v542 main_v521 main_v543 (addi : (⟨S2000000, .i32⟩ : BufTy).Contents (Elt F) → (⟨S2000000, .i32⟩ : BufTy).Contents (Elt F) → (⟨S2000000, .i32⟩ : BufTy).Contents (Elt F)),
    nullary main_c_196 (constantI S_ 32 128#32),
    unary main_c_196 main_v544 (broadcastInDim S2000000 ![] bcast_S_S2000000 : (⟨S_, .i32⟩ : BufTy).Contents (Elt F) → (⟨S2000000, .i32⟩ : BufTy).Contents (Elt F)),
    binary main_v543 main_v544 main_v545 (muli : (⟨S2000000, .i32⟩ : BufTy).Contents (Elt F) → (⟨S2000000, .i32⟩ : BufTy).Contents (Elt F) → (⟨S2000000, .i32⟩ : BufTy).Contents (Elt F)),
    binary main_v545 main_v519 main_v546 (addi : (⟨S2000000, .i32⟩ : BufTy).Contents (Elt F) → (⟨S2000000, .i32⟩ : BufTy).Contents (Elt F) → (⟨S2000000, .i32⟩ : BufTy).Contents (Elt F)),
    nullary main_c_197 (constantI S_ 32 0#32),
    TRef.unary (TRef.of (T := ⟨S_, .i32⟩) main_c_197) (TRef.of (T := ⟨S_, .i32⟩) main_call20_v0) id,
    TRef.unary (TRef.of (T := ⟨S_, .i32⟩) main_call20_v0) (TRef.of (T := ⟨S2000000, .i32⟩) main_call20_v1) (broadcastInDim S2000000 ![] bcast_S_S2000000),
    TRef.ternary (TRef.of (T := ⟨S2000000, .i1⟩) main_v540) (TRef.of (T := ⟨S2000000, .i32⟩) main_v546) (TRef.of (T := ⟨S2000000, .i32⟩) main_call20_v1) (TRef.of (T := ⟨S2000000, .i32⟩) main_v547) select,
    binary main_v517 main_v422 main_v548 (mulf : (⟨S2000000, .f32⟩ : BufTy).Contents (Elt F) → (⟨S2000000, .f32⟩ : BufTy).Contents (Elt F) → (⟨S2000000, .f32⟩ : BufTy).Contents (Elt F)),
    binary main_v548 main_v429 main_v549 (mulf : (⟨S2000000, .f32⟩ : BufTy).Contents (Elt F) → (⟨S2000000, .f32⟩ : BufTy).Contents (Elt F) → (⟨S2000000, .f32⟩ : BufTy).Contents (Elt F)),
    binary main_v549 main_v4 main_v550 (mulf : (⟨S2000000, .f32⟩ : BufTy).Contents (Elt F) → (⟨S2000000, .f32⟩ : BufTy).Contents (Elt F) → (⟨S2000000, .f32⟩ : BufTy).Contents (Elt F)),
    nullary main_cst_198 (constant S_ .f32 0x00000000#32),
    TRef.unary (TRef.of (T := ⟨S_, .f32⟩) main_cst_198) (TRef.of (T := ⟨S_, .f32⟩) main_call21_v0) id,
    TRef.unary (TRef.of (T := ⟨S_, .f32⟩) main_call21_v0) (TRef.of (T := ⟨S2000000, .f32⟩) main_call21_v1) (broadcastInDim S2000000 ![] bcast_S_S2000000),
    TRef.ternary (TRef.of (T := ⟨S2000000, .i1⟩) main_v540) (TRef.of (T := ⟨S2000000, .f32⟩) main_v550) (TRef.of (T := ⟨S2000000, .f32⟩) main_call21_v1) (TRef.of (T := ⟨S2000000, .f32⟩) main_v551) select,
    nullary main_c_199 (constantI S_ 32 0#32),
    unary main_c_199 main_v552 (broadcastInDim S2000000 ![] bcast_S_S2000000 : (⟨S_, .i32⟩ : BufTy).Contents (Elt F) → (⟨S2000000, .i32⟩ : BufTy).Contents (Elt F)),
    binary main_v547 main_v552 main_v553 (cmpi .slt : (⟨S2000000, .i32⟩ : BufTy).Contents (Elt F) → (⟨S2000000, .i32⟩ : BufTy).Contents (Elt F) → (⟨S2000000, .i1⟩ : BufTy).Contents (Elt F)),
    nullary main_c_200 (constantI S_ 32 2097152#32),
    unary main_c_200 main_v554 (broadcastInDim S2000000 ![] bcast_S_S2000000 : (⟨S_, .i32⟩ : BufTy).Contents (Elt F) → (⟨S2000000, .i32⟩ : BufTy).Contents (Elt F)),
    binary main_v547 main_v554 main_v555 (addi : (⟨S2000000, .i32⟩ : BufTy).Contents (Elt F) → (⟨S2000000, .i32⟩ : BufTy).Contents (Elt F) → (⟨S2000000, .i32⟩ : BufTy).Contents (Elt F)),
    ternary main_v553 main_v555 main_v547 main_v556 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v556 main_v557 (broadcastInDim S2000000x1 ![0] bcast_S2000000_S2000000x1_0 : (⟨S2000000, .i32⟩ : BufTy).Contents (Elt F) → (⟨S2000000x1, .i32⟩ : BufTy).Contents (Elt F)),
    ternary main_v515 main_v557 main_v551 main_v558 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_201 (constantI S_ 32 1#32),
    unary main_c_201 main_v559 (broadcastInDim S2000000 ![] bcast_S_S2000000 : (⟨S_, .i32⟩ : BufTy).Contents (Elt F) → (⟨S2000000, .i32⟩ : BufTy).Contents (Elt F)),
    binary main_v424 main_v559 main_v560 (addi : (⟨S2000000, .i32⟩ : BufTy).Contents (Elt F) → (⟨S2000000, .i32⟩ : BufTy).Contents (Elt F) → (⟨S2000000, .i32⟩ : BufTy).Contents (Elt F)),
    nullary main_c_202 (constantI S_ 32 1#32),
    unary main_c_202 main_v561 (broadcastInDim S2000000 ![] bcast_S_S2000000 : (⟨S_, .i32⟩ : BufTy).Contents (Elt F) → (⟨S2000000, .i32⟩ : BufTy).Contents (Elt F)),
    binary main_v425 main_v561 main_v562 (addi : (⟨S2000000, .i32⟩ : BufTy).Contents (Elt F) → (⟨S2000000, .i32⟩ : BufTy).Contents (Elt F) → (⟨S2000000, .i32⟩ : BufTy).Contents (Elt F)),
    nullary main_c_203 (constantI S_ 32 0#32),
    unary main_c_203 main_v563 (broadcastInDim S2000000 ![] bcast_S_S2000000 : (⟨S_, .i32⟩ : BufTy).Contents (Elt F) → (⟨S2000000, .i32⟩ : BufTy).Contents (Elt F)),
    binary main_v426 main_v563 main_v564 (addi : (⟨S2000000, .i32⟩ : BufTy).Contents (Elt F) → (⟨S2000000, .i32⟩ : BufTy).Contents (Elt F) → (⟨S2000000, .i32⟩ : BufTy).Contents (Elt F)),
    nullary main_c_204 (constantI S_ 32 0#32),
    unary main_c_204 main_v565 (broadcastInDim S2000000 ![] bcast_S_S2000000 : (⟨S_, .i32⟩ : BufTy).Contents (Elt F) → (⟨S2000000, .i32⟩ : BufTy).Contents (Elt F)),
    binary main_v560 main_v565 main_v566 (cmpi .sge : (⟨S2000000, .i32⟩ : BufTy).Contents (Elt F) → (⟨S2000000, .i32⟩ : BufTy).Contents (Elt F) → (⟨S2000000, .i1⟩ : BufTy).Contents (Elt F)),
    nullary main_c_205 (constantI S_ 32 128#32),
    unary main_c_205 main_v567 (broadcastInDim S2000000 ![] bcast_S_S2000000 : (⟨S_, .i32⟩ : BufTy).Contents (Elt F) → (⟨S2000000, .i32⟩ : BufTy).Contents (Elt F)),
    binary main_v560 main_v567 main_v568 (cmpi .slt : (⟨S2000000, .i32⟩ : BufTy).Contents (Elt F) → (⟨S2000000, .i32⟩ : BufTy).Contents (Elt F) → (⟨S2000000, .i1⟩ : BufTy).Contents (Elt F)),
    binary main_v566 main_v568 main_v569 (andi : (⟨S2000000, .i1⟩ : BufTy).Contents (Elt F) → (⟨S2000000, .i1⟩ : BufTy).Contents (Elt F) → (⟨S2000000, .i1⟩ : BufTy).Contents (Elt F)),
    nullary main_c_206 (constantI S_ 32 0#32),
    unary main_c_206 main_v570 (broadcastInDim S2000000 ![] bcast_S_S2000000 : (⟨S_, .i32⟩ : BufTy).Contents (Elt F) → (⟨S2000000, .i32⟩ : BufTy).Contents (Elt F)) ]
/-- The stretch, as printed, is the line of its operations. -/
theorem part_12_eq (d : Dev nD) : main_part12 (F := F) d = seq ops_12 := rfl
/-- The references they write. -/
abbrev ops_12_W : List (Ref sig .tc) := [main_v527, main_v528, main_c_191, main_v529, main_v530, main_v531, main_c_192, main_v532, main_v533, main_v534, main_c_193, main_v535, main_v536, main_v537, main_c_194, main_v538, main_v539, main_v540, main_c_195, main_v541, main_v542, main_v543, main_c_196, main_v544, main_v545, main_v546, main_c_197, main_call20_v0, main_call20_v1, main_v547, main_v548, main_v549, main_v550, main_cst_198, main_call21_v0, main_call21_v1, main_v551, main_c_199, main_v552, main_v553, main_c_200, main_v554, main_v555, main_v556, main_v557, main_v558, main_c_201, main_v559, main_v560, main_c_202, main_v561, main_v562, main_c_203, main_v563, main_v564, main_c_204, main_v565, main_v566, main_c_205, main_v567, main_v568, main_v569, main_c_206, main_v570]
theorem ops_12_writes : (ops_12 : List (HloOp τ sig (Elt F))).Forall fun op => op.writes ⊆ (ops_12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_12_sub : (ops_12 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub ..⟩
theorem ops_12_fresh : (ops_12 : List (HloOp τ sig (Elt F))).Forall fun op => op.fresh = ∅ := by
  simp only [List.Forall]; repeat' constructor
theorem skip_12 (W : Valuation τ sig (Elt F)) {r : Ref sig .tc} (h : r ∉ ops_12_W) :
    after (no_index (ops_12 (F := F))) W (no_index (Proc.devRef .tc r)) = W (Proc.devRef .tc r) :=
  after_of_writes_sub ops_12 W ops_12_writes h

/-- Operations 824 to 887 of @main: the printed program's stretch 13. -/
abbrev ops_13 : List (HloOp τ sig (Elt F)) :=
  [ binary main_v562 main_v570 main_v571 (cmpi .sge : (⟨S2000000, .i32⟩ : BufTy).Contents (Elt F) → (⟨S2000000, .i32⟩ : BufTy).Contents (Elt F) → (⟨S2000000, .i1⟩ : BufTy).Contents (Elt F)),
    binary main_v569 main_v571 main_v572 (andi : (⟨S2000000, .i1⟩ : BufTy).Contents (Elt F) → (⟨S2000000, .i1⟩ : BufTy).Contents (Elt F) → (⟨S2000000, .i1⟩ : BufTy).Contents (Elt F)),
    nullary main_c_207 (constantI S_ 32 128#32),
    unary main_c_207 main_v573 (broadcastInDim S2000000 ![] bcast_S_S2000000 : (⟨S_, .i32⟩ : BufTy).Contents (Elt F) → (⟨S2000000, .i32⟩ : BufTy).Contents (Elt F)),
    binary main_v562 main_v573 main_v574 (cmpi .slt : (⟨S2000000, .i32⟩ : BufTy).Contents (Elt F) → (⟨S2000000, .i32⟩ : BufTy).Contents (Elt F) → (⟨S2000000, .i1⟩ : BufTy).Contents (Elt F)),
    binary main_v572 main_v574 main_v575 (andi : (⟨S2000000, .i1⟩ : BufTy).Contents (Elt F) → (⟨S2000000, .i1⟩ : BufTy).Contents (Elt F) → (⟨S2000000, .i1⟩ : BufTy).Contents (Elt F)),
    nullary main_c_208 (constantI S_ 32 0#32),
    unary main_c_208 main_v576 (broadcastInDim S2000000 ![] bcast_S_S2000000 : (⟨S_, .i32⟩ : BufTy).Contents (Elt F) → (⟨S2000000, .i32⟩ : BufTy).Contents (Elt F)),
    binary main_v564 main_v576 main_v577 (cmpi .sge : (⟨S2000000, .i32⟩ : BufTy).Contents (Elt F) → (⟨S2000000, .i32⟩ : BufTy).Contents (Elt F) → (⟨S2000000, .i1⟩ : BufTy).Contents (Elt F)),
    binary main_v575 main_v577 main_v578 (andi : (⟨S2000000, .i1⟩ : BufTy).Contents (Elt F) → (⟨S2000000, .i1⟩ : BufTy).Contents (Elt F) → (⟨S2000000, .i1⟩ : BufTy).Contents (Elt F)),
    nullary main_c_209 (constantI S_ 32 128#32),
    unary main_c_209 main_v579 (broadcastInDim S2000000 ![] bcast_S_S2000000 : (⟨S_, .i32⟩ : BufTy).Contents (Elt F) → (⟨S2000000, .i32⟩ : BufTy).Contents (Elt F)),
    binary main_v564 main_v579 main_v580 (cmpi .slt : (⟨S2000000, .i32⟩ : BufTy).Contents (Elt F) → (⟨S2000000, .i32⟩ : BufTy).Contents (Elt F) → (⟨S2000000, .i1⟩ : BufTy).Contents (Elt F)),
    binary main_v578 main_v580 main_v581 (andi : (⟨S2000000, .i1⟩ : BufTy).Contents (Elt F) → (⟨S2000000, .i1⟩ : BufTy).Contents (Elt F) → (⟨S2000000, .i1⟩ : BufTy).Contents (Elt F)),
    nullary main_c_210 (constantI S_ 32 128#32),
    unary main_c_210 main_v582 (broadcastInDim S2000000 ![] bcast_S_S2000000 : (⟨S_, .i32⟩ : BufTy).Contents (Elt F) → (⟨S2000000, .i32⟩ : BufTy).Contents (Elt F)),
    binary main_v564 main_v582 main_v583 (muli : (⟨S2000000, .i32⟩ : BufTy).Contents (Elt F) → (⟨S2000000, .i32⟩ : BufTy).Contents (Elt F) → (⟨S2000000, .i32⟩ : BufTy).Contents (Elt F)),
    binary main_v583 main_v562 main_v584 (addi : (⟨S2000000, .i32⟩ : BufTy).Contents (Elt F) → (⟨S2000000, .i32⟩ : BufTy).Contents (Elt F) → (⟨S2000000, .i32⟩ : BufTy).Contents (Elt F)),
    nullary main_c_211 (constantI S_ 32 128#32),
    unary main_c_211 main_v585 (broadcastInDim S2000000 ![] bcast_S_S2000000 : (⟨S_, .i32⟩ : BufTy).Contents (Elt F) → (⟨S2000000, .i32⟩ : BufTy).Contents (Elt F)),
    binary main_v584 main_v585 main_v586 (muli : (⟨S2000000, .i32⟩ : BufTy).Contents (Elt F) → (⟨S2000000, .i32⟩ : BufTy).Contents (Elt F) → (⟨S2000000, .i32⟩ : BufTy).Contents (Elt F)),
    binary main_v586 main_v560 main_v587 (addi : (⟨S2000000, .i32⟩ : BufTy).Contents (Elt F) → (⟨S2000000, .i32⟩ : BufTy).Contents (Elt F) → (⟨S2000000, .i32⟩ : BufTy).Contents (Elt F)),
    nullary main_c_212 (constantI S_ 32 0#32),
    TRef.unary (TRef.of (T := ⟨S_, .i32⟩) main_c_212) (TRef.of (T := ⟨S_, .i32⟩) main_call22_v0) id,
    TRef.unary (TRef.of (T := ⟨S_, .i32⟩) main_call22_v0) (TRef.of (T := ⟨S2000000, .i32⟩) main_call22_v1) (broadcastInDim S2000000 ![] bcast_S_S2000000),
    TRef.ternary (TRef.of (T := ⟨S2000000, .i1⟩) main_v581) (TRef.of (T := ⟨S2000000, .i32⟩) main_v587) (TRef.of (T := ⟨S2000000, .i32⟩) main_call22_v1) (TRef.of (T := ⟨S2000000, .i32⟩) main_v588) select,
    binary main_v421 main_v422 main_v589 (mulf : (⟨S2000000, .f32⟩ : BufTy).Contents (Elt F) → (⟨S2000000, .f32⟩ : BufTy).Contents (Elt F) → (⟨S2000000, .f32⟩ : BufTy).Contents (Elt F)),
    binary main_v589 main_v429 main_v590 (mulf : (⟨S2000000, .f32⟩ : BufTy).Contents (Elt F) → (⟨S2000000, .f32⟩ : BufTy).Contents (Elt F) → (⟨S2000000, .f32⟩ : BufTy).Contents (Elt F)),
    binary main_v590 main_v4 main_v591 (mulf : (⟨S2000000, .f32⟩ : BufTy).Contents (Elt F) → (⟨S2000000, .f32⟩ : BufTy).Contents (Elt F) → (⟨S2000000, .f32⟩ : BufTy).Contents (Elt F)),
    nullary main_cst_213 (constant S_ .f32 0x00000000#32),
    TRef.unary (TRef.of (T := ⟨S_, .f32⟩) main_cst_213) (TRef.of (T := ⟨S_, .f32⟩) main_call23_v0) id,
    TRef.unary (TRef.of (T := ⟨S_, .f32⟩) main_call23_v0) (TRef.of (T := ⟨S2000000, .f32⟩) main_call23_v1) (broadcastInDim S2000000 ![] bcast_S_S2000000),
    TRef.ternary (TRef.of (T := ⟨S2000000, .i1⟩) main_v581) (TRef.of (T := ⟨S2000000, .f32⟩) main_v591) (TRef.of (T := ⟨S2000000, .f32⟩) main_call23_v1) (TRef.of (T := ⟨S2000000, .f32⟩) main_v592) select,
    nullary main_c_214 (constantI S_ 32 0#32),
    unary main_c_214 main_v593 (broadcastInDim S2000000 ![] bcast_S_S2000000 : (⟨S_, .i32⟩ : BufTy).Contents (Elt F) → (⟨S2000000, .i32⟩ : BufTy).Contents (Elt F)),
    binary main_v588 main_v593 main_v594 (cmpi .slt : (⟨S2000000, .i32⟩ : BufTy).Contents (Elt F) → (⟨S2000000, .i32⟩ : BufTy).Contents (Elt F) → (⟨S2000000, .i1⟩ : BufTy).Contents (Elt F)),
    nullary main_c_215 (constantI S_ 32 2097152#32),
    unary main_c_215 main_v595 (broadcastInDim S2000000 ![] bcast_S_S2000000 : (⟨S_, .i32⟩ : BufTy).Contents (Elt F) → (⟨S2000000, .i32⟩ : BufTy).Contents (Elt F)),
    binary main_v588 main_v595 main_v596 (addi : (⟨S2000000, .i32⟩ : BufTy).Contents (Elt F) → (⟨S2000000, .i32⟩ : BufTy).Contents (Elt F) → (⟨S2000000, .i32⟩ : BufTy).Contents (Elt F)),
    ternary main_v594 main_v596 main_v588 main_v597 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v597 main_v598 (broadcastInDim S2000000x1 ![0] bcast_S2000000_S2000000x1_0 : (⟨S2000000, .i32⟩ : BufTy).Contents (Elt F) → (⟨S2000000x1, .i32⟩ : BufTy).Contents (Elt F)),
    ternary main_v558 main_v598 main_v592 main_v599 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_cst_216 (constant S_ .f32 0x3F800000#32),
    unary main_cst_216 main_v600 (broadcastInDim S2000000 ![] bcast_S_S2000000 : (⟨S_, .f32⟩ : BufTy).Contents (Elt F) → (⟨S2000000, .f32⟩ : BufTy).Contents (Elt F)),
    binary main_v600 main_v422 main_v601 (subf : (⟨S2000000, .f32⟩ : BufTy).Contents (Elt F) → (⟨S2000000, .f32⟩ : BufTy).Contents (Elt F) → (⟨S2000000, .f32⟩ : BufTy).Contents (Elt F)),
    nullary main_cst_217 (constant S_ .f32 0x3F800000#32),
    unary main_cst_217 main_v602 (broadcastInDim S2000000 ![] bcast_S_S2000000 : (⟨S_, .f32⟩ : BufTy).Contents (Elt F) → (⟨S2000000, .f32⟩ : BufTy).Contents (Elt F)),
    binary main_v602 main_v421 main_v603 (subf : (⟨S2000000, .f32⟩ : BufTy).Contents (Elt F) → (⟨S2000000, .f32⟩ : BufTy).Contents (Elt F) → (⟨S2000000, .f32⟩ : BufTy).Contents (Elt F)),
    nullary main_c_218 (constantI S_ 32 0#32),
    unary main_c_218 main_v604 (broadcastInDim S2000000 ![] bcast_S_S2000000 : (⟨S_, .i32⟩ : BufTy).Contents (Elt F) → (⟨S2000000, .i32⟩ : BufTy).Contents (Elt F)),
    binary main_v424 main_v604 main_v605 (addi : (⟨S2000000, .i32⟩ : BufTy).Contents (Elt F) → (⟨S2000000, .i32⟩ : BufTy).Contents (Elt F) → (⟨S2000000, .i32⟩ : BufTy).Contents (Elt F)),
    nullary main_c_219 (constantI S_ 32 0#32),
    unary main_c_219 main_v606 (broadcastInDim S2000000 ![] bcast_S_S2000000 : (⟨S_, .i32⟩ : BufTy).Contents (Elt F) → (⟨S2000000, .i32⟩ : BufTy).Contents (Elt F)),
    binary main_v425 main_v606 main_v607 (addi : (⟨S2000000, .i32⟩ : BufTy).Contents (Elt F) → (⟨S2000000, .i32⟩ : BufTy).Contents (Elt F) → (⟨S2000000, .i32⟩ : BufTy).Contents (Elt F)),
    nullary main_c_220 (constantI S_ 32 1#32),
    unary main_c_220 main_v608 (broadcastInDim S2000000 ![] bcast_S_S2000000 : (⟨S_, .i32⟩ : BufTy).Contents (Elt F) → (⟨S2000000, .i32⟩ : BufTy).Contents (Elt F)),
    binary main_v426 main_v608 main_v609 (addi : (⟨S2000000, .i32⟩ : BufTy).Contents (Elt F) → (⟨S2000000, .i32⟩ : BufTy).Contents (Elt F) → (⟨S2000000, .i32⟩ : BufTy).Contents (Elt F)),
    nullary main_c_221 (constantI S_ 32 0#32),
    unary main_c_221 main_v610 (broadcastInDim S2000000 ![] bcast_S_S2000000 : (⟨S_, .i32⟩ : BufTy).Contents (Elt F) → (⟨S2000000, .i32⟩ : BufTy).Contents (Elt F)),
    binary main_v605 main_v610 main_v611 (cmpi .sge : (⟨S2000000, .i32⟩ : BufTy).Contents (Elt F) → (⟨S2000000, .i32⟩ : BufTy).Contents (Elt F) → (⟨S2000000, .i1⟩ : BufTy).Contents (Elt F)),
    nullary main_c_222 (constantI S_ 32 128#32),
    unary main_c_222 main_v612 (broadcastInDim S2000000 ![] bcast_S_S2000000 : (⟨S_, .i32⟩ : BufTy).Contents (Elt F) → (⟨S2000000, .i32⟩ : BufTy).Contents (Elt F)),
    binary main_v605 main_v612 main_v613 (cmpi .slt : (⟨S2000000, .i32⟩ : BufTy).Contents (Elt F) → (⟨S2000000, .i32⟩ : BufTy).Contents (Elt F) → (⟨S2000000, .i1⟩ : BufTy).Contents (Elt F)),
    binary main_v611 main_v613 main_v614 (andi : (⟨S2000000, .i1⟩ : BufTy).Contents (Elt F) → (⟨S2000000, .i1⟩ : BufTy).Contents (Elt F) → (⟨S2000000, .i1⟩ : BufTy).Contents (Elt F)) ]
/-- The stretch, as printed, is the line of its operations. -/
theorem part_13_eq (d : Dev nD) : main_part13 (F := F) d = seq ops_13 := rfl
/-- The references they write. -/
abbrev ops_13_W : List (Ref sig .tc) := [main_v571, main_v572, main_c_207, main_v573, main_v574, main_v575, main_c_208, main_v576, main_v577, main_v578, main_c_209, main_v579, main_v580, main_v581, main_c_210, main_v582, main_v583, main_v584, main_c_211, main_v585, main_v586, main_v587, main_c_212, main_call22_v0, main_call22_v1, main_v588, main_v589, main_v590, main_v591, main_cst_213, main_call23_v0, main_call23_v1, main_v592, main_c_214, main_v593, main_v594, main_c_215, main_v595, main_v596, main_v597, main_v598, main_v599, main_cst_216, main_v600, main_v601, main_cst_217, main_v602, main_v603, main_c_218, main_v604, main_v605, main_c_219, main_v606, main_v607, main_c_220, main_v608, main_v609, main_c_221, main_v610, main_v611, main_c_222, main_v612, main_v613, main_v614]
theorem ops_13_writes : (ops_13 : List (HloOp τ sig (Elt F))).Forall fun op => op.writes ⊆ (ops_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_13_sub : (ops_13 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
theorem ops_13_fresh : (ops_13 : List (HloOp τ sig (Elt F))).Forall fun op => op.fresh = ∅ := by
  simp only [List.Forall]; repeat' constructor
theorem skip_13 (W : Valuation τ sig (Elt F)) {r : Ref sig .tc} (h : r ∉ ops_13_W) :
    after (no_index (ops_13 (F := F))) W (no_index (Proc.devRef .tc r)) = W (Proc.devRef .tc r) :=
  after_of_writes_sub ops_13 W ops_13_writes h

/-- Operations 888 to 951 of @main: the printed program's stretch 14. -/
abbrev ops_14 : List (HloOp τ sig (Elt F)) :=
  [ nullary main_c_223 (constantI S_ 32 0#32),
    unary main_c_223 main_v615 (broadcastInDim S2000000 ![] bcast_S_S2000000 : (⟨S_, .i32⟩ : BufTy).Contents (Elt F) → (⟨S2000000, .i32⟩ : BufTy).Contents (Elt F)),
    binary main_v607 main_v615 main_v616 (cmpi .sge : (⟨S2000000, .i32⟩ : BufTy).Contents (Elt F) → (⟨S2000000, .i32⟩ : BufTy).Contents (Elt F) → (⟨S2000000, .i1⟩ : BufTy).Contents (Elt F)),
    binary main_v614 main_v616 main_v617 (andi : (⟨S2000000, .i1⟩ : BufTy).Contents (Elt F) → (⟨S2000000, .i1⟩ : BufTy).Contents (Elt F) → (⟨S2000000, .i1⟩ : BufTy).Contents (Elt F)),
    nullary main_c_224 (constantI S_ 32 128#32),
    unary main_c_224 main_v618 (broadcastInDim S2000000 ![] bcast_S_S2000000 : (⟨S_, .i32⟩ : BufTy).Contents (Elt F) → (⟨S2000000, .i32⟩ : BufTy).Contents (Elt F)),
    binary main_v607 main_v618 main_v619 (cmpi .slt : (⟨S2000000, .i32⟩ : BufTy).Contents (Elt F) → (⟨S2000000, .i32⟩ : BufTy).Contents (Elt F) → (⟨S2000000, .i1⟩ : BufTy).Contents (Elt F)),
    binary main_v617 main_v619 main_v620 (andi : (⟨S2000000, .i1⟩ : BufTy).Contents (Elt F) → (⟨S2000000, .i1⟩ : BufTy).Contents (Elt F) → (⟨S2000000, .i1⟩ : BufTy).Contents (Elt F)),
    nullary main_c_225 (constantI S_ 32 0#32),
    unary main_c_225 main_v621 (broadcastInDim S2000000 ![] bcast_S_S2000000 : (⟨S_, .i32⟩ : BufTy).Contents (Elt F) → (⟨S2000000, .i32⟩ : BufTy).Contents (Elt F)),
    binary main_v609 main_v621 main_v622 (cmpi .sge : (⟨S2000000, .i32⟩ : BufTy).Contents (Elt F) → (⟨S2000000, .i32⟩ : BufTy).Contents (Elt F) → (⟨S2000000, .i1⟩ : BufTy).Contents (Elt F)),
    binary main_v620 main_v622 main_v623 (andi : (⟨S2000000, .i1⟩ : BufTy).Contents (Elt F) → (⟨S2000000, .i1⟩ : BufTy).Contents (Elt F) → (⟨S2000000, .i1⟩ : BufTy).Contents (Elt F)),
    nullary main_c_226 (constantI S_ 32 128#32),
    unary main_c_226 main_v624 (broadcastInDim S2000000 ![] bcast_S_S2000000 : (⟨S_, .i32⟩ : BufTy).Contents (Elt F) → (⟨S2000000, .i32⟩ : BufTy).Contents (Elt F)),
    binary main_v609 main_v624 main_v625 (cmpi .slt : (⟨S2000000, .i32⟩ : BufTy).Contents (Elt F) → (⟨S2000000, .i32⟩ : BufTy).Contents (Elt F) → (⟨S2000000, .i1⟩ : BufTy).Contents (Elt F)),
    binary main_v623 main_v625 main_v626 (andi : (⟨S2000000, .i1⟩ : BufTy).Contents (Elt F) → (⟨S2000000, .i1⟩ : BufTy).Contents (Elt F) → (⟨S2000000, .i1⟩ : BufTy).Contents (Elt F)),
    nullary main_c_227 (constantI S_ 32 128#32),
    unary main_c_227 main_v627 (broadcastInDim S2000000 ![] bcast_S_S2000000 : (⟨S_, .i32⟩ : BufTy).Contents (Elt F) → (⟨S2000000, .i32⟩ : BufTy).Contents (Elt F)),
    binary main_v609 main_v627 main_v628 (muli : (⟨S2000000, .i32⟩ : BufTy).Contents (Elt F) → (⟨S2000000, .i32⟩ : BufTy).Contents (Elt F) → (⟨S2000000, .i32⟩ : BufTy).Contents (Elt F)),
    binary main_v628 main_v607 main_v629 (addi : (⟨S2000000, .i32⟩ : BufTy).Contents (Elt F) → (⟨S2000000, .i32⟩ : BufTy).Contents (Elt F) → (⟨S2000000, .i32⟩ : BufTy).Contents (Elt F)),
    nullary main_c_228 (constantI S_ 32 128#32),
    unary main_c_228 main_v630 (broadcastInDim S2000000 ![] bcast_S_S2000000 : (⟨S_, .i32⟩ : BufTy).Contents (Elt F) → (⟨S2000000, .i32⟩ : BufTy).Contents (Elt F)),
    binary main_v629 main_v630 main_v631 (muli : (⟨S2000000, .i32⟩ : BufTy).Contents (Elt F) → (⟨S2000000, .i32⟩ : BufTy).Contents (Elt F) → (⟨S2000000, .i32⟩ : BufTy).Contents (Elt F)),
    binary main_v631 main_v605 main_v632 (addi : (⟨S2000000, .i32⟩ : BufTy).Contents (Elt F) → (⟨S2000000, .i32⟩ : BufTy).Contents (Elt F) → (⟨S2000000, .i32⟩ : BufTy).Contents (Elt F)),
    nullary main_c_229 (constantI S_ 32 0#32),
    TRef.unary (TRef.of (T := ⟨S_, .i32⟩) main_c_229) (TRef.of (T := ⟨S_, .i32⟩) main_call24_v0) id,
    TRef.unary (TRef.of (T := ⟨S_, .i32⟩) main_call24_v0) (TRef.of (T := ⟨S2000000, .i32⟩) main_call24_v1) (broadcastInDim S2000000 ![] bcast_S_S2000000),
    TRef.ternary (TRef.of (T := ⟨S2000000, .i1⟩) main_v626) (TRef.of (T := ⟨S2000000, .i32⟩) main_v632) (TRef.of (T := ⟨S2000000, .i32⟩) main_call24_v1) (TRef.of (T := ⟨S2000000, .i32⟩) main_v633) select,
    binary main_v603 main_v601 main_v634 (mulf : (⟨S2000000, .f32⟩ : BufTy).Contents (Elt F) → (⟨S2000000, .f32⟩ : BufTy).Contents (Elt F) → (⟨S2000000, .f32⟩ : BufTy).Contents (Elt F)),
    binary main_v634 main_v423 main_v635 (mulf : (⟨S2000000, .f32⟩ : BufTy).Contents (Elt F) → (⟨S2000000, .f32⟩ : BufTy).Contents (Elt F) → (⟨S2000000, .f32⟩ : BufTy).Contents (Elt F)),
    binary main_v635 main_v4 main_v636 (mulf : (⟨S2000000, .f32⟩ : BufTy).Contents (Elt F) → (⟨S2000000, .f32⟩ : BufTy).Contents (Elt F) → (⟨S2000000, .f32⟩ : BufTy).Contents (Elt F)),
    nullary main_cst_230 (constant S_ .f32 0x00000000#32),
    TRef.unary (TRef.of (T := ⟨S_, .f32⟩) main_cst_230) (TRef.of (T := ⟨S_, .f32⟩) main_call25_v0) id,
    TRef.unary (TRef.of (T := ⟨S_, .f32⟩) main_call25_v0) (TRef.of (T := ⟨S2000000, .f32⟩) main_call25_v1) (broadcastInDim S2000000 ![] bcast_S_S2000000),
    TRef.ternary (TRef.of (T := ⟨S2000000, .i1⟩) main_v626) (TRef.of (T := ⟨S2000000, .f32⟩) main_v636) (TRef.of (T := ⟨S2000000, .f32⟩) main_call25_v1) (TRef.of (T := ⟨S2000000, .f32⟩) main_v637) select,
    nullary main_c_231 (constantI S_ 32 0#32),
    unary main_c_231 main_v638 (broadcastInDim S2000000 ![] bcast_S_S2000000 : (⟨S_, .i32⟩ : BufTy).Contents (Elt F) → (⟨S2000000, .i32⟩ : BufTy).Contents (Elt F)),
    binary main_v633 main_v638 main_v639 (cmpi .slt : (⟨S2000000, .i32⟩ : BufTy).Contents (Elt F) → (⟨S2000000, .i32⟩ : BufTy).Contents (Elt F) → (⟨S2000000, .i1⟩ : BufTy).Contents (Elt F)),
    nullary main_c_232 (constantI S_ 32 2097152#32),
    unary main_c_232 main_v640 (broadcastInDim S2000000 ![] bcast_S_S2000000 : (⟨S_, .i32⟩ : BufTy).Contents (Elt F) → (⟨S2000000, .i32⟩ : BufTy).Contents (Elt F)),
    binary main_v633 main_v640 main_v641 (addi : (⟨S2000000, .i32⟩ : BufTy).Contents (Elt F) → (⟨S2000000, .i32⟩ : BufTy).Contents (Elt F) → (⟨S2000000, .i32⟩ : BufTy).Contents (Elt F)),
    ternary main_v639 main_v641 main_v633 main_v642 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v642 main_v643 (broadcastInDim S2000000x1 ![0] bcast_S2000000_S2000000x1_0 : (⟨S2000000, .i32⟩ : BufTy).Contents (Elt F) → (⟨S2000000x1, .i32⟩ : BufTy).Contents (Elt F)),
    ternary main_v599 main_v643 main_v637 main_v644 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_233 (constantI S_ 32 1#32),
    unary main_c_233 main_v645 (broadcastInDim S2000000 ![] bcast_S_S2000000 : (⟨S_, .i32⟩ : BufTy).Contents (Elt F) → (⟨S2000000, .i32⟩ : BufTy).Contents (Elt F)),
    binary main_v424 main_v645 main_v646 (addi : (⟨S2000000, .i32⟩ : BufTy).Contents (Elt F) → (⟨S2000000, .i32⟩ : BufTy).Contents (Elt F) → (⟨S2000000, .i32⟩ : BufTy).Contents (Elt F)),
    nullary main_c_234 (constantI S_ 32 0#32),
    unary main_c_234 main_v647 (broadcastInDim S2000000 ![] bcast_S_S2000000 : (⟨S_, .i32⟩ : BufTy).Contents (Elt F) → (⟨S2000000, .i32⟩ : BufTy).Contents (Elt F)),
    binary main_v425 main_v647 main_v648 (addi : (⟨S2000000, .i32⟩ : BufTy).Contents (Elt F) → (⟨S2000000, .i32⟩ : BufTy).Contents (Elt F) → (⟨S2000000, .i32⟩ : BufTy).Contents (Elt F)),
    nullary main_c_235 (constantI S_ 32 1#32),
    unary main_c_235 main_v649 (broadcastInDim S2000000 ![] bcast_S_S2000000 : (⟨S_, .i32⟩ : BufTy).Contents (Elt F) → (⟨S2000000, .i32⟩ : BufTy).Contents (Elt F)),
    binary main_v426 main_v649 main_v650 (addi : (⟨S2000000, .i32⟩ : BufTy).Contents (Elt F) → (⟨S2000000, .i32⟩ : BufTy).Contents (Elt F) → (⟨S2000000, .i32⟩ : BufTy).Contents (Elt F)),
    nullary main_c_236 (constantI S_ 32 0#32),
    unary main_c_236 main_v651 (broadcastInDim S2000000 ![] bcast_S_S2000000 : (⟨S_, .i32⟩ : BufTy).Contents (Elt F) → (⟨S2000000, .i32⟩ : BufTy).Contents (Elt F)),
    binary main_v646 main_v651 main_v652 (cmpi .sge : (⟨S2000000, .i32⟩ : BufTy).Contents (Elt F) → (⟨S2000000, .i32⟩ : BufTy).Contents (Elt F) → (⟨S2000000, .i1⟩ : BufTy).Contents (Elt F)),
    nullary main_c_237 (constantI S_ 32 128#32),
    unary main_c_237 main_v653 (broadcastInDim S2000000 ![] bcast_S_S2000000 : (⟨S_, .i32⟩ : BufTy).Contents (Elt F) → (⟨S2000000, .i32⟩ : BufTy).Contents (Elt F)),
    binary main_v646 main_v653 main_v654 (cmpi .slt : (⟨S2000000, .i32⟩ : BufTy).Contents (Elt F) → (⟨S2000000, .i32⟩ : BufTy).Contents (Elt F) → (⟨S2000000, .i1⟩ : BufTy).Contents (Elt F)),
    binary main_v652 main_v654 main_v655 (andi : (⟨S2000000, .i1⟩ : BufTy).Contents (Elt F) → (⟨S2000000, .i1⟩ : BufTy).Contents (Elt F) → (⟨S2000000, .i1⟩ : BufTy).Contents (Elt F)),
    nullary main_c_238 (constantI S_ 32 0#32),
    unary main_c_238 main_v656 (broadcastInDim S2000000 ![] bcast_S_S2000000 : (⟨S_, .i32⟩ : BufTy).Contents (Elt F) → (⟨S2000000, .i32⟩ : BufTy).Contents (Elt F)),
    binary main_v648 main_v656 main_v657 (cmpi .sge : (⟨S2000000, .i32⟩ : BufTy).Contents (Elt F) → (⟨S2000000, .i32⟩ : BufTy).Contents (Elt F) → (⟨S2000000, .i1⟩ : BufTy).Contents (Elt F)),
    binary main_v655 main_v657 main_v658 (andi : (⟨S2000000, .i1⟩ : BufTy).Contents (Elt F) → (⟨S2000000, .i1⟩ : BufTy).Contents (Elt F) → (⟨S2000000, .i1⟩ : BufTy).Contents (Elt F)) ]
/-- The stretch, as printed, is the line of its operations: the called functions' bodies unfolded and the sequencing
    re-associated. -/
theorem part_14_eq (d : Dev nD) : main_part14 (F := F) d = seq ops_14 := by
  simp only [main_part14, fn_where.body, fn_where_0.body, fn_where_1.body, seq, bind_assoc, pure_bind, bind_pure_unit]
/-- The references they write. -/
abbrev ops_14_W : List (Ref sig .tc) := [main_c_223, main_v615, main_v616, main_v617, main_c_224, main_v618, main_v619, main_v620, main_c_225, main_v621, main_v622, main_v623, main_c_226, main_v624, main_v625, main_v626, main_c_227, main_v627, main_v628, main_v629, main_c_228, main_v630, main_v631, main_v632, main_c_229, main_call24_v0, main_call24_v1, main_v633, main_v634, main_v635, main_v636, main_cst_230, main_call25_v0, main_call25_v1, main_v637, main_c_231, main_v638, main_v639, main_c_232, main_v640, main_v641, main_v642, main_v643, main_v644, main_c_233, main_v645, main_v646, main_c_234, main_v647, main_v648, main_c_235, main_v649, main_v650, main_c_236, main_v651, main_v652, main_c_237, main_v653, main_v654, main_v655, main_c_238, main_v656, main_v657, main_v658]
theorem ops_14_writes : (ops_14 : List (HloOp τ sig (Elt F))).Forall fun op => op.writes ⊆ (ops_14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_14_sub : (ops_14 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩
theorem ops_14_fresh : (ops_14 : List (HloOp τ sig (Elt F))).Forall fun op => op.fresh = ∅ := by
  simp only [List.Forall]; repeat' constructor
theorem skip_14 (W : Valuation τ sig (Elt F)) {r : Ref sig .tc} (h : r ∉ ops_14_W) :
    after (no_index (ops_14 (F := F))) W (no_index (Proc.devRef .tc r)) = W (Proc.devRef .tc r) :=
  after_of_writes_sub ops_14 W ops_14_writes h

/-- Operations 952 to 1015 of @main: the printed program's stretch 15. -/
abbrev ops_15 : List (HloOp τ sig (Elt F)) :=
  [ nullary main_c_239 (constantI S_ 32 128#32),
    unary main_c_239 main_v659 (broadcastInDim S2000000 ![] bcast_S_S2000000 : (⟨S_, .i32⟩ : BufTy).Contents (Elt F) → (⟨S2000000, .i32⟩ : BufTy).Contents (Elt F)),
    binary main_v648 main_v659 main_v660 (cmpi .slt : (⟨S2000000, .i32⟩ : BufTy).Contents (Elt F) → (⟨S2000000, .i32⟩ : BufTy).Contents (Elt F) → (⟨S2000000, .i1⟩ : BufTy).Contents (Elt F)),
    binary main_v658 main_v660 main_v661 (andi : (⟨S2000000, .i1⟩ : BufTy).Contents (Elt F) → (⟨S2000000, .i1⟩ : BufTy).Contents (Elt F) → (⟨S2000000, .i1⟩ : BufTy).Contents (Elt F)),
    nullary main_c_240 (constantI S_ 32 0#32),
    unary main_c_240 main_v662 (broadcastInDim S2000000 ![] bcast_S_S2000000 : (⟨S_, .i32⟩ : BufTy).Contents (Elt F) → (⟨S2000000, .i32⟩ : BufTy).Contents (Elt F)),
    binary main_v650 main_v662 main_v663 (cmpi .sge : (⟨S2000000, .i32⟩ : BufTy).Contents (Elt F) → (⟨S2000000, .i32⟩ : BufTy).Contents (Elt F) → (⟨S2000000, .i1⟩ : BufTy).Contents (Elt F)),
    binary main_v661 main_v663 main_v664 (andi : (⟨S2000000, .i1⟩ : BufTy).Contents (Elt F) → (⟨S2000000, .i1⟩ : BufTy).Contents (Elt F) → (⟨S2000000, .i1⟩ : BufTy).Contents (Elt F)),
    nullary main_c_241 (constantI S_ 32 128#32),
    unary main_c_241 main_v665 (broadcastInDim S2000000 ![] bcast_S_S2000000 : (⟨S_, .i32⟩ : BufTy).Contents (Elt F) → (⟨S2000000, .i32⟩ : BufTy).Contents (Elt F)),
    binary main_v650 main_v665 main_v666 (cmpi .slt : (⟨S2000000, .i32⟩ : BufTy).Contents (Elt F) → (⟨S2000000, .i32⟩ : BufTy).Contents (Elt F) → (⟨S2000000, .i1⟩ : BufTy).Contents (Elt F)),
    binary main_v664 main_v666 main_v667 (andi : (⟨S2000000, .i1⟩ : BufTy).Contents (Elt F) → (⟨S2000000, .i1⟩ : BufTy).Contents (Elt F) → (⟨S2000000, .i1⟩ : BufTy).Contents (Elt F)),
    nullary main_c_242 (constantI S_ 32 128#32),
    unary main_c_242 main_v668 (broadcastInDim S2000000 ![] bcast_S_S2000000 : (⟨S_, .i32⟩ : BufTy).Contents (Elt F) → (⟨S2000000, .i32⟩ : BufTy).Contents (Elt F)),
    binary main_v650 main_v668 main_v669 (muli : (⟨S2000000, .i32⟩ : BufTy).Contents (Elt F) → (⟨S2000000, .i32⟩ : BufTy).Contents (Elt F) → (⟨S2000000, .i32⟩ : BufTy).Contents (Elt F)),
    binary main_v669 main_v648 main_v670 (addi : (⟨S2000000, .i32⟩ : BufTy).Contents (Elt F) → (⟨S2000000, .i32⟩ : BufTy).Contents (Elt F) → (⟨S2000000, .i32⟩ : BufTy).Contents (Elt F)),
    nullary main_c_243 (constantI S_ 32 128#32),
    unary main_c_243 main_v671 (broadcastInDim S2000000 ![] bcast_S_S2000000 : (⟨S_, .i32⟩ : BufTy).Contents (Elt F) → (⟨S2000000, .i32⟩ : BufTy).Contents (Elt F)),
    binary main_v670 main_v671 main_v672 (muli : (⟨S2000000, .i32⟩ : BufTy).Contents (Elt F) → (⟨S2000000, .i32⟩ : BufTy).Contents (Elt F) → (⟨S2000000, .i32⟩ : BufTy).Contents (Elt F)),
    binary main_v672 main_v646 main_v673 (addi : (⟨S2000000, .i32⟩ : BufTy).Contents (Elt F) → (⟨S2000000, .i32⟩ : BufTy).Contents (Elt F) → (⟨S2000000, .i32⟩ : BufTy).Contents (Elt F)),
    nullary main_c_244 (constantI S_ 32 0#32),
    TRef.unary (TRef.of (T := ⟨S_, .i32⟩) main_c_244) (TRef.of (T := ⟨S_, .i32⟩) main_call26_v0) id,
    TRef.unary (TRef.of (T := ⟨S_, .i32⟩) main_call26_v0) (TRef.of (T := ⟨S2000000, .i32⟩) main_call26_v1) (broadcastInDim S2000000 ![] bcast_S_S2000000),
    TRef.ternary (TRef.of (T := ⟨S2000000, .i1⟩) main_v667) (TRef.of (T := ⟨S2000000, .i32⟩) main_v673) (TRef.of (T := ⟨S2000000, .i32⟩) main_call26_v1) (TRef.of (T := ⟨S2000000, .i32⟩) main_v674) select,
    binary main_v421 main_v601 main_v675 (mulf : (⟨S2000000, .f32⟩ : BufTy).Contents (Elt F) → (⟨S2000000, .f32⟩ : BufTy).Contents (Elt F) → (⟨S2000000, .f32⟩ : BufTy).Contents (Elt F)),
    binary main_v675 main_v423 main_v676 (mulf : (⟨S2000000, .f32⟩ : BufTy).Contents (Elt F) → (⟨S2000000, .f32⟩ : BufTy).Contents (Elt F) → (⟨S2000000, .f32⟩ : BufTy).Contents (Elt F)),
    binary main_v676 main_v4 main_v677 (mulf : (⟨S2000000, .f32⟩ : BufTy).Contents (Elt F) → (⟨S2000000, .f32⟩ : BufTy).Contents (Elt F) → (⟨S2000000, .f32⟩ : BufTy).Contents (Elt F)),
    nullary main_cst_245 (constant S_ .f32 0x00000000#32),
    TRef.unary (TRef.of (T := ⟨S_, .f32⟩) main_cst_245) (TRef.of (T := ⟨S_, .f32⟩) main_call27_v0) id,
    TRef.unary (TRef.of (T := ⟨S_, .f32⟩) main_call27_v0) (TRef.of (T := ⟨S2000000, .f32⟩) main_call27_v1) (broadcastInDim S2000000 ![] bcast_S_S2000000),
    TRef.ternary (TRef.of (T := ⟨S2000000, .i1⟩) main_v667) (TRef.of (T := ⟨S2000000, .f32⟩) main_v677) (TRef.of (T := ⟨S2000000, .f32⟩) main_call27_v1) (TRef.of (T := ⟨S2000000, .f32⟩) main_v678) select,
    nullary main_c_246 (constantI S_ 32 0#32),
    unary main_c_246 main_v679 (broadcastInDim S2000000 ![] bcast_S_S2000000 : (⟨S_, .i32⟩ : BufTy).Contents (Elt F) → (⟨S2000000, .i32⟩ : BufTy).Contents (Elt F)),
    binary main_v674 main_v679 main_v680 (cmpi .slt : (⟨S2000000, .i32⟩ : BufTy).Contents (Elt F) → (⟨S2000000, .i32⟩ : BufTy).Contents (Elt F) → (⟨S2000000, .i1⟩ : BufTy).Contents (Elt F)),
    nullary main_c_247 (constantI S_ 32 2097152#32),
    unary main_c_247 main_v681 (broadcastInDim S2000000 ![] bcast_S_S2000000 : (⟨S_, .i32⟩ : BufTy).Contents (Elt F) → (⟨S2000000, .i32⟩ : BufTy).Contents (Elt F)),
    binary main_v674 main_v681 main_v682 (addi : (⟨S2000000, .i32⟩ : BufTy).Contents (Elt F) → (⟨S2000000, .i32⟩ : BufTy).Contents (Elt F) → (⟨S2000000, .i32⟩ : BufTy).Contents (Elt F)),
    ternary main_v680 main_v682 main_v674 main_v683 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v683 main_v684 (broadcastInDim S2000000x1 ![0] bcast_S2000000_S2000000x1_0 : (⟨S2000000, .i32⟩ : BufTy).Contents (Elt F) → (⟨S2000000x1, .i32⟩ : BufTy).Contents (Elt F)),
    ternary main_v644 main_v684 main_v678 main_v685 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_cst_248 (constant S_ .f32 0x3F800000#32),
    unary main_cst_248 main_v686 (broadcastInDim S2000000 ![] bcast_S_S2000000 : (⟨S_, .f32⟩ : BufTy).Contents (Elt F) → (⟨S2000000, .f32⟩ : BufTy).Contents (Elt F)),
    binary main_v686 main_v421 main_v687 (subf : (⟨S2000000, .f32⟩ : BufTy).Contents (Elt F) → (⟨S2000000, .f32⟩ : BufTy).Contents (Elt F) → (⟨S2000000, .f32⟩ : BufTy).Contents (Elt F)),
    nullary main_c_249 (constantI S_ 32 0#32),
    unary main_c_249 main_v688 (broadcastInDim S2000000 ![] bcast_S_S2000000 : (⟨S_, .i32⟩ : BufTy).Contents (Elt F) → (⟨S2000000, .i32⟩ : BufTy).Contents (Elt F)),
    binary main_v424 main_v688 main_v689 (addi : (⟨S2000000, .i32⟩ : BufTy).Contents (Elt F) → (⟨S2000000, .i32⟩ : BufTy).Contents (Elt F) → (⟨S2000000, .i32⟩ : BufTy).Contents (Elt F)),
    nullary main_c_250 (constantI S_ 32 1#32),
    unary main_c_250 main_v690 (broadcastInDim S2000000 ![] bcast_S_S2000000 : (⟨S_, .i32⟩ : BufTy).Contents (Elt F) → (⟨S2000000, .i32⟩ : BufTy).Contents (Elt F)),
    binary main_v425 main_v690 main_v691 (addi : (⟨S2000000, .i32⟩ : BufTy).Contents (Elt F) → (⟨S2000000, .i32⟩ : BufTy).Contents (Elt F) → (⟨S2000000, .i32⟩ : BufTy).Contents (Elt F)),
    nullary main_c_251 (constantI S_ 32 1#32),
    unary main_c_251 main_v692 (broadcastInDim S2000000 ![] bcast_S_S2000000 : (⟨S_, .i32⟩ : BufTy).Contents (Elt F) → (⟨S2000000, .i32⟩ : BufTy).Contents (Elt F)),
    binary main_v426 main_v692 main_v693 (addi : (⟨S2000000, .i32⟩ : BufTy).Contents (Elt F) → (⟨S2000000, .i32⟩ : BufTy).Contents (Elt F) → (⟨S2000000, .i32⟩ : BufTy).Contents (Elt F)),
    nullary main_c_252 (constantI S_ 32 0#32),
    unary main_c_252 main_v694 (broadcastInDim S2000000 ![] bcast_S_S2000000 : (⟨S_, .i32⟩ : BufTy).Contents (Elt F) → (⟨S2000000, .i32⟩ : BufTy).Contents (Elt F)),
    binary main_v689 main_v694 main_v695 (cmpi .sge : (⟨S2000000, .i32⟩ : BufTy).Contents (Elt F) → (⟨S2000000, .i32⟩ : BufTy).Contents (Elt F) → (⟨S2000000, .i1⟩ : BufTy).Contents (Elt F)),
    nullary main_c_253 (constantI S_ 32 128#32),
    unary main_c_253 main_v696 (broadcastInDim S2000000 ![] bcast_S_S2000000 : (⟨S_, .i32⟩ : BufTy).Contents (Elt F) → (⟨S2000000, .i32⟩ : BufTy).Contents (Elt F)),
    binary main_v689 main_v696 main_v697 (cmpi .slt : (⟨S2000000, .i32⟩ : BufTy).Contents (Elt F) → (⟨S2000000, .i32⟩ : BufTy).Contents (Elt F) → (⟨S2000000, .i1⟩ : BufTy).Contents (Elt F)),
    binary main_v695 main_v697 main_v698 (andi : (⟨S2000000, .i1⟩ : BufTy).Contents (Elt F) → (⟨S2000000, .i1⟩ : BufTy).Contents (Elt F) → (⟨S2000000, .i1⟩ : BufTy).Contents (Elt F)),
    nullary main_c_254 (constantI S_ 32 0#32),
    unary main_c_254 main_v699 (broadcastInDim S2000000 ![] bcast_S_S2000000 : (⟨S_, .i32⟩ : BufTy).Contents (Elt F) → (⟨S2000000, .i32⟩ : BufTy).Contents (Elt F)),
    binary main_v691 main_v699 main_v700 (cmpi .sge : (⟨S2000000, .i32⟩ : BufTy).Contents (Elt F) → (⟨S2000000, .i32⟩ : BufTy).Contents (Elt F) → (⟨S2000000, .i1⟩ : BufTy).Contents (Elt F)),
    binary main_v698 main_v700 main_v701 (andi : (⟨S2000000, .i1⟩ : BufTy).Contents (Elt F) → (⟨S2000000, .i1⟩ : BufTy).Contents (Elt F) → (⟨S2000000, .i1⟩ : BufTy).Contents (Elt F)),
    nullary main_c_255 (constantI S_ 32 128#32) ]
/-- The stretch, as printed, is the line of its operations. -/
theorem part_15_eq (d : Dev nD) : main_part15 (F := F) d = seq ops_15 := by
  simp only [main_part15, fn_where.body, fn_where_0.body, fn_where_1.body, seq, bind_assoc, pure_bind, bind_pure_unit]
/-- The references they write. -/
abbrev ops_15_W : List (Ref sig .tc) := [main_c_239, main_v659, main_v660, main_v661, main_c_240, main_v662, main_v663, main_v664, main_c_241, main_v665, main_v666, main_v667, main_c_242, main_v668, main_v669, main_v670, main_c_243, main_v671, main_v672, main_v673, main_c_244, main_call26_v0, main_call26_v1, main_v674, main_v675, main_v676, main_v677, main_cst_245, main_call27_v0, main_call27_v1, main_v678, main_c_246, main_v679, main_v680, main_c_247, main_v681, main_v682, main_v683, main_v684, main_v685, main_cst_248, main_v686, main_v687, main_c_249, main_v688, main_v689, main_c_250, main_v690, main_v691, main_c_251, main_v692, main_v693, main_c_252, main_v694, main_v695, main_c_253, main_v696, main_v697, main_v698, main_c_254, main_v699, main_v700, main_v701, main_c_255]
theorem ops_15_writes : (ops_15 : List (HloOp τ sig (Elt F))).Forall fun op => op.writes ⊆ (ops_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_15_sub : (ops_15 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩
theorem ops_15_fresh : (ops_15 : List (HloOp τ sig (Elt F))).Forall fun op => op.fresh = ∅ := by
  simp only [List.Forall]; repeat' constructor
theorem skip_15 (W : Valuation τ sig (Elt F)) {r : Ref sig .tc} (h : r ∉ ops_15_W) :
    after (no_index (ops_15 (F := F))) W (no_index (Proc.devRef .tc r)) = W (Proc.devRef .tc r) :=
  after_of_writes_sub ops_15 W ops_15_writes h

/-- Operations 1016 to 1079 of @main: the printed program's stretch 16. -/
abbrev ops_16 : List (HloOp τ sig (Elt F)) :=
  [ unary main_c_255 main_v702 (broadcastInDim S2000000 ![] bcast_S_S2000000 : (⟨S_, .i32⟩ : BufTy).Contents (Elt F) → (⟨S2000000, .i32⟩ : BufTy).Contents (Elt F)),
    binary main_v691 main_v702 main_v703 (cmpi .slt : (⟨S2000000, .i32⟩ : BufTy).Contents (Elt F) → (⟨S2000000, .i32⟩ : BufTy).Contents (Elt F) → (⟨S2000000, .i1⟩ : BufTy).Contents (Elt F)),
    binary main_v701 main_v703 main_v704 (andi : (⟨S2000000, .i1⟩ : BufTy).Contents (Elt F) → (⟨S2000000, .i1⟩ : BufTy).Contents (Elt F) → (⟨S2000000, .i1⟩ : BufTy).Contents (Elt F)),
    nullary main_c_256 (constantI S_ 32 0#32),
    unary main_c_256 main_v705 (broadcastInDim S2000000 ![] bcast_S_S2000000 : (⟨S_, .i32⟩ : BufTy).Contents (Elt F) → (⟨S2000000, .i32⟩ : BufTy).Contents (Elt F)),
    binary main_v693 main_v705 main_v706 (cmpi .sge : (⟨S2000000, .i32⟩ : BufTy).Contents (Elt F) → (⟨S2000000, .i32⟩ : BufTy).Contents (Elt F) → (⟨S2000000, .i1⟩ : BufTy).Contents (Elt F)),
    binary main_v704 main_v706 main_v707 (andi : (⟨S2000000, .i1⟩ : BufTy).Contents (Elt F) → (⟨S2000000, .i1⟩ : BufTy).Contents (Elt F) → (⟨S2000000, .i1⟩ : BufTy).Contents (Elt F)),
    nullary main_c_257 (constantI S_ 32 128#32),
    unary main_c_257 main_v708 (broadcastInDim S2000000 ![] bcast_S_S2000000 : (⟨S_, .i32⟩ : BufTy).Contents (Elt F) → (⟨S2000000, .i32⟩ : BufTy).Contents (Elt F)),
    binary main_v693 main_v708 main_v709 (cmpi .slt : (⟨S2000000, .i32⟩ : BufTy).Contents (Elt F) → (⟨S2000000, .i32⟩ : BufTy).Contents (Elt F) → (⟨S2000000, .i1⟩ : BufTy).Contents (Elt F)),
    binary main_v707 main_v709 main_v710 (andi : (⟨S2000000, .i1⟩ : BufTy).Contents (Elt F) → (⟨S2000000, .i1⟩ : BufTy).Contents (Elt F) → (⟨S2000000, .i1⟩ : BufTy).Contents (Elt F)),
    nullary main_c_258 (constantI S_ 32 128#32),
    unary main_c_258 main_v711 (broadcastInDim S2000000 ![] bcast_S_S2000000 : (⟨S_, .i32⟩ : BufTy).Contents (Elt F) → (⟨S2000000, .i32⟩ : BufTy).Contents (Elt F)),
    binary main_v693 main_v711 main_v712 (muli : (⟨S2000000, .i32⟩ : BufTy).Contents (Elt F) → (⟨S2000000, .i32⟩ : BufTy).Contents (Elt F) → (⟨S2000000, .i32⟩ : BufTy).Contents (Elt F)),
    binary main_v712 main_v691 main_v713 (addi : (⟨S2000000, .i32⟩ : BufTy).Contents (Elt F) → (⟨S2000000, .i32⟩ : BufTy).Contents (Elt F) → (⟨S2000000, .i32⟩ : BufTy).Contents (Elt F)),
    nullary main_c_259 (constantI S_ 32 128#32),
    unary main_c_259 main_v714 (broadcastInDim S2000000 ![] bcast_S_S2000000 : (⟨S_, .i32⟩ : BufTy).Contents (Elt F) → (⟨S2000000, .i32⟩ : BufTy).Contents (Elt F)),
    binary main_v713 main_v714 main_v715 (muli : (⟨S2000000, .i32⟩ : BufTy).Contents (Elt F) → (⟨S2000000, .i32⟩ : BufTy).Contents (Elt F) → (⟨S2000000, .i32⟩ : BufTy).Contents (Elt F)),
    binary main_v715 main_v689 main_v716 (addi : (⟨S2000000, .i32⟩ : BufTy).Contents (Elt F) → (⟨S2000000, .i32⟩ : BufTy).Contents (Elt F) → (⟨S2000000, .i32⟩ : BufTy).Contents (Elt F)),
    nullary main_c_260 (constantI S_ 32 0#32),
    TRef.unary (TRef.of (T := ⟨S_, .i32⟩) main_c_260) (TRef.of (T := ⟨S_, .i32⟩) main_call28_v0) id,
    TRef.unary (TRef.of (T := ⟨S_, .i32⟩) main_call28_v0) (TRef.of (T := ⟨S2000000, .i32⟩) main_call28_v1) (broadcastInDim S2000000 ![] bcast_S_S2000000),
    TRef.ternary (TRef.of (T := ⟨S2000000, .i1⟩) main_v710) (TRef.of (T := ⟨S2000000, .i32⟩) main_v716) (TRef.of (T := ⟨S2000000, .i32⟩) main_call28_v1) (TRef.of (T := ⟨S2000000, .i32⟩) main_v717) select,
    binary main_v687 main_v422 main_v718 (mulf : (⟨S2000000, .f32⟩ : BufTy).Contents (Elt F) → (⟨S2000000, .f32⟩ : BufTy).Contents (Elt F) → (⟨S2000000, .f32⟩ : BufTy).Contents (Elt F)),
    binary main_v718 main_v423 main_v719 (mulf : (⟨S2000000, .f32⟩ : BufTy).Contents (Elt F) → (⟨S2000000, .f32⟩ : BufTy).Contents (Elt F) → (⟨S2000000, .f32⟩ : BufTy).Contents (Elt F)),
    binary main_v719 main_v4 main_v720 (mulf : (⟨S2000000, .f32⟩ : BufTy).Contents (Elt F) → (⟨S2000000, .f32⟩ : BufTy).Contents (Elt F) → (⟨S2000000, .f32⟩ : BufTy).Contents (Elt F)),
    nullary main_cst_261 (constant S_ .f32 0x00000000#32),
    TRef.unary (TRef.of (T := ⟨S_, .f32⟩) main_cst_261) (TRef.of (T := ⟨S_, .f32⟩) main_call29_v0) id,
    TRef.unary (TRef.of (T := ⟨S_, .f32⟩) main_call29_v0) (TRef.of (T := ⟨S2000000, .f32⟩) main_call29_v1) (broadcastInDim S2000000 ![] bcast_S_S2000000),
    TRef.ternary (TRef.of (T := ⟨S2000000, .i1⟩) main_v710) (TRef.of (T := ⟨S2000000, .f32⟩) main_v720) (TRef.of (T := ⟨S2000000, .f32⟩) main_call29_v1) (TRef.of (T := ⟨S2000000, .f32⟩) main_v721) select,
    nullary main_c_262 (constantI S_ 32 0#32),
    unary main_c_262 main_v722 (broadcastInDim S2000000 ![] bcast_S_S2000000 : (⟨S_, .i32⟩ : BufTy).Contents (Elt F) → (⟨S2000000, .i32⟩ : BufTy).Contents (Elt F)),
    binary main_v717 main_v722 main_v723 (cmpi .slt : (⟨S2000000, .i32⟩ : BufTy).Contents (Elt F) → (⟨S2000000, .i32⟩ : BufTy).Contents (Elt F) → (⟨S2000000, .i1⟩ : BufTy).Contents (Elt F)),
    nullary main_c_263 (constantI S_ 32 2097152#32),
    unary main_c_263 main_v724 (broadcastInDim S2000000 ![] bcast_S_S2000000 : (⟨S_, .i32⟩ : BufTy).Contents (Elt F) → (⟨S2000000, .i32⟩ : BufTy).Contents (Elt F)),
    binary main_v717 main_v724 main_v725 (addi : (⟨S2000000, .i32⟩ : BufTy).Contents (Elt F) → (⟨S2000000, .i32⟩ : BufTy).Contents (Elt F) → (⟨S2000000, .i32⟩ : BufTy).Contents (Elt F)),
    ternary main_v723 main_v725 main_v717 main_v726 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v726 main_v727 (broadcastInDim S2000000x1 ![0] bcast_S2000000_S2000000x1_0 : (⟨S2000000, .i32⟩ : BufTy).Contents (Elt F) → (⟨S2000000x1, .i32⟩ : BufTy).Contents (Elt F)),
    ternary main_v685 main_v727 main_v721 main_v728 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    nullary main_c_264 (constantI S_ 32 1#32),
    unary main_c_264 main_v729 (broadcastInDim S2000000 ![] bcast_S_S2000000 : (⟨S_, .i32⟩ : BufTy).Contents (Elt F) → (⟨S2000000, .i32⟩ : BufTy).Contents (Elt F)),
    binary main_v424 main_v729 main_v730 (addi : (⟨S2000000, .i32⟩ : BufTy).Contents (Elt F) → (⟨S2000000, .i32⟩ : BufTy).Contents (Elt F) → (⟨S2000000, .i32⟩ : BufTy).Contents (Elt F)),
    nullary main_c_265 (constantI S_ 32 1#32),
    unary main_c_265 main_v731 (broadcastInDim S2000000 ![] bcast_S_S2000000 : (⟨S_, .i32⟩ : BufTy).Contents (Elt F) → (⟨S2000000, .i32⟩ : BufTy).Contents (Elt F)),
    binary main_v425 main_v731 main_v732 (addi : (⟨S2000000, .i32⟩ : BufTy).Contents (Elt F) → (⟨S2000000, .i32⟩ : BufTy).Contents (Elt F) → (⟨S2000000, .i32⟩ : BufTy).Contents (Elt F)),
    nullary main_c_266 (constantI S_ 32 1#32),
    unary main_c_266 main_v733 (broadcastInDim S2000000 ![] bcast_S_S2000000 : (⟨S_, .i32⟩ : BufTy).Contents (Elt F) → (⟨S2000000, .i32⟩ : BufTy).Contents (Elt F)),
    binary main_v426 main_v733 main_v734 (addi : (⟨S2000000, .i32⟩ : BufTy).Contents (Elt F) → (⟨S2000000, .i32⟩ : BufTy).Contents (Elt F) → (⟨S2000000, .i32⟩ : BufTy).Contents (Elt F)),
    nullary main_c_267 (constantI S_ 32 0#32),
    unary main_c_267 main_v735 (broadcastInDim S2000000 ![] bcast_S_S2000000 : (⟨S_, .i32⟩ : BufTy).Contents (Elt F) → (⟨S2000000, .i32⟩ : BufTy).Contents (Elt F)),
    binary main_v730 main_v735 main_v736 (cmpi .sge : (⟨S2000000, .i32⟩ : BufTy).Contents (Elt F) → (⟨S2000000, .i32⟩ : BufTy).Contents (Elt F) → (⟨S2000000, .i1⟩ : BufTy).Contents (Elt F)),
    nullary main_c_268 (constantI S_ 32 128#32),
    unary main_c_268 main_v737 (broadcastInDim S2000000 ![] bcast_S_S2000000 : (⟨S_, .i32⟩ : BufTy).Contents (Elt F) → (⟨S2000000, .i32⟩ : BufTy).Contents (Elt F)),
    binary main_v730 main_v737 main_v738 (cmpi .slt : (⟨S2000000, .i32⟩ : BufTy).Contents (Elt F) → (⟨S2000000, .i32⟩ : BufTy).Contents (Elt F) → (⟨S2000000, .i1⟩ : BufTy).Contents (Elt F)),
    binary main_v736 main_v738 main_v739 (andi : (⟨S2000000, .i1⟩ : BufTy).Contents (Elt F) → (⟨S2000000, .i1⟩ : BufTy).Contents (Elt F) → (⟨S2000000, .i1⟩ : BufTy).Contents (Elt F)),
    nullary main_c_269 (constantI S_ 32 0#32),
    unary main_c_269 main_v740 (broadcastInDim S2000000 ![] bcast_S_S2000000 : (⟨S_, .i32⟩ : BufTy).Contents (Elt F) → (⟨S2000000, .i32⟩ : BufTy).Contents (Elt F)),
    binary main_v732 main_v740 main_v741 (cmpi .sge : (⟨S2000000, .i32⟩ : BufTy).Contents (Elt F) → (⟨S2000000, .i32⟩ : BufTy).Contents (Elt F) → (⟨S2000000, .i1⟩ : BufTy).Contents (Elt F)),
    binary main_v739 main_v741 main_v742 (andi : (⟨S2000000, .i1⟩ : BufTy).Contents (Elt F) → (⟨S2000000, .i1⟩ : BufTy).Contents (Elt F) → (⟨S2000000, .i1⟩ : BufTy).Contents (Elt F)),
    nullary main_c_270 (constantI S_ 32 128#32),
    unary main_c_270 main_v743 (broadcastInDim S2000000 ![] bcast_S_S2000000 : (⟨S_, .i32⟩ : BufTy).Contents (Elt F) → (⟨S2000000, .i32⟩ : BufTy).Contents (Elt F)),
    binary main_v732 main_v743 main_v744 (cmpi .slt : (⟨S2000000, .i32⟩ : BufTy).Contents (Elt F) → (⟨S2000000, .i32⟩ : BufTy).Contents (Elt F) → (⟨S2000000, .i1⟩ : BufTy).Contents (Elt F)),
    binary main_v742 main_v744 main_v745 (andi : (⟨S2000000, .i1⟩ : BufTy).Contents (Elt F) → (⟨S2000000, .i1⟩ : BufTy).Contents (Elt F) → (⟨S2000000, .i1⟩ : BufTy).Contents (Elt F)),
    nullary main_c_271 (constantI S_ 32 0#32) ]
/-- The stretch, as printed, is the line of its operations. -/
theorem part_16_eq (d : Dev nD) : main_part16 (F := F) d = seq ops_16 := by
  simp only [main_part16, fn_where.body, fn_where_0.body, fn_where_1.body, seq, bind_assoc, pure_bind, bind_pure_unit]
/-- The references they write. -/
abbrev ops_16_W : List (Ref sig .tc) := [main_v702, main_v703, main_v704, main_c_256, main_v705, main_v706, main_v707, main_c_257, main_v708, main_v709, main_v710, main_c_258, main_v711, main_v712, main_v713, main_c_259, main_v714, main_v715, main_v716, main_c_260, main_call28_v0, main_call28_v1, main_v717, main_v718, main_v719, main_v720, main_cst_261, main_call29_v0, main_call29_v1, main_v721, main_c_262, main_v722, main_v723, main_c_263, main_v724, main_v725, main_v726, main_v727, main_v728, main_c_264, main_v729, main_v730, main_c_265, main_v731, main_v732, main_c_266, main_v733, main_v734, main_c_267, main_v735, main_v736, main_c_268, main_v737, main_v738, main_v739, main_c_269, main_v740, main_v741, main_v742, main_c_270, main_v743, main_v744, main_v745, main_c_271]
theorem ops_16_writes : (ops_16 : List (HloOp τ sig (Elt F))).Forall fun op => op.writes ⊆ (ops_16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_16_sub : (ops_16 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩
theorem ops_16_fresh : (ops_16 : List (HloOp τ sig (Elt F))).Forall fun op => op.fresh = ∅ := by
  simp only [List.Forall]; repeat' constructor
theorem skip_16 (W : Valuation τ sig (Elt F)) {r : Ref sig .tc} (h : r ∉ ops_16_W) :
    after (no_index (ops_16 (F := F))) W (no_index (Proc.devRef .tc r)) = W (Proc.devRef .tc r) :=
  after_of_writes_sub ops_16 W ops_16_writes h

/-- Operations 1080 to 1133 of @main: the printed program's stretch 17. -/
abbrev ops_17 : List (HloOp τ sig (Elt F)) :=
  [ unary main_c_271 main_v746 (broadcastInDim S2000000 ![] bcast_S_S2000000 : (⟨S_, .i32⟩ : BufTy).Contents (Elt F) → (⟨S2000000, .i32⟩ : BufTy).Contents (Elt F)),
    binary main_v734 main_v746 main_v747 (cmpi .sge : (⟨S2000000, .i32⟩ : BufTy).Contents (Elt F) → (⟨S2000000, .i32⟩ : BufTy).Contents (Elt F) → (⟨S2000000, .i1⟩ : BufTy).Contents (Elt F)),
    binary main_v745 main_v747 main_v748 (andi : (⟨S2000000, .i1⟩ : BufTy).Contents (Elt F) → (⟨S2000000, .i1⟩ : BufTy).Contents (Elt F) → (⟨S2000000, .i1⟩ : BufTy).Contents (Elt F)),
    nullary main_c_272 (constantI S_ 32 128#32),
    unary main_c_272 main_v749 (broadcastInDim S2000000 ![] bcast_S_S2000000 : (⟨S_, .i32⟩ : BufTy).Contents (Elt F) → (⟨S2000000, .i32⟩ : BufTy).Contents (Elt F)),
    binary main_v734 main_v749 main_v750 (cmpi .slt : (⟨S2000000, .i32⟩ : BufTy).Contents (Elt F) → (⟨S2000000, .i32⟩ : BufTy).Contents (Elt F) → (⟨S2000000, .i1⟩ : BufTy).Contents (Elt F)),
    binary main_v748 main_v750 main_v751 (andi : (⟨S2000000, .i1⟩ : BufTy).Contents (Elt F) → (⟨S2000000, .i1⟩ : BufTy).Contents (Elt F) → (⟨S2000000, .i1⟩ : BufTy).Contents (Elt F)),
    nullary main_c_273 (constantI S_ 32 128#32),
    unary main_c_273 main_v752 (broadcastInDim S2000000 ![] bcast_S_S2000000 : (⟨S_, .i32⟩ : BufTy).Contents (Elt F) → (⟨S2000000, .i32⟩ : BufTy).Contents (Elt F)),
    binary main_v734 main_v752 main_v753 (muli : (⟨S2000000, .i32⟩ : BufTy).Contents (Elt F) → (⟨S2000000, .i32⟩ : BufTy).Contents (Elt F) → (⟨S2000000, .i32⟩ : BufTy).Contents (Elt F)),
    binary main_v753 main_v732 main_v754 (addi : (⟨S2000000, .i32⟩ : BufTy).Contents (Elt F) → (⟨S2000000, .i32⟩ : BufTy).Contents (Elt F) → (⟨S2000000, .i32⟩ : BufTy).Contents (Elt F)),
    nullary main_c_274 (constantI S_ 32 128#32),
    unary main_c_274 main_v755 (broadcastInDim S2000000 ![] bcast_S_S2000000 : (⟨S_, .i32⟩ : BufTy).Contents (Elt F) → (⟨S2000000, .i32⟩ : BufTy).Contents (Elt F)),
    binary main_v754 main_v755 main_v756 (muli : (⟨S2000000, .i32⟩ : BufTy).Contents (Elt F) → (⟨S2000000, .i32⟩ : BufTy).Contents (Elt F) → (⟨S2000000, .i32⟩ : BufTy).Contents (Elt F)),
    binary main_v756 main_v730 main_v757 (addi : (⟨S2000000, .i32⟩ : BufTy).Contents (Elt F) → (⟨S2000000, .i32⟩ : BufTy).Contents (Elt F) → (⟨S2000000, .i32⟩ : BufTy).Contents (Elt F)),
    nullary main_c_275 (constantI S_ 32 0#32),
    TRef.unary (TRef.of (T := ⟨S_, .i32⟩) main_c_275) (TRef.of (T := ⟨S_, .i32⟩) main_call30_v0) id,
    TRef.unary (TRef.of (T := ⟨S_, .i32⟩) main_call30_v0) (TRef.of (T := ⟨S2000000, .i32⟩) main_call30_v1) (broadcastInDim S2000000 ![] bcast_S_S2000000),
    TRef.ternary (TRef.of (T := ⟨S2000000, .i1⟩) main_v751) (TRef.of (T := ⟨S2000000, .i32⟩) main_v757) (TRef.of (T := ⟨S2000000, .i32⟩) main_call30_v1) (TRef.of (T := ⟨S2000000, .i32⟩) main_v758) select,
    binary main_v421 main_v422 main_v759 (mulf : (⟨S2000000, .f32⟩ : BufTy).Contents (Elt F) → (⟨S2000000, .f32⟩ : BufTy).Contents (Elt F) → (⟨S2000000, .f32⟩ : BufTy).Contents (Elt F)),
    binary main_v759 main_v423 main_v760 (mulf : (⟨S2000000, .f32⟩ : BufTy).Contents (Elt F) → (⟨S2000000, .f32⟩ : BufTy).Contents (Elt F) → (⟨S2000000, .f32⟩ : BufTy).Contents (Elt F)),
    binary main_v760 main_v4 main_v761 (mulf : (⟨S2000000, .f32⟩ : BufTy).Contents (Elt F) → (⟨S2000000, .f32⟩ : BufTy).Contents (Elt F) → (⟨S2000000, .f32⟩ : BufTy).Contents (Elt F)),
    nullary main_cst_276 (constant S_ .f32 0x00000000#32),
    TRef.unary (TRef.of (T := ⟨S_, .f32⟩) main_cst_276) (TRef.of (T := ⟨S_, .f32⟩) main_call31_v0) id,
    TRef.unary (TRef.of (T := ⟨S_, .f32⟩) main_call31_v0) (TRef.of (T := ⟨S2000000, .f32⟩) main_call31_v1) (broadcastInDim S2000000 ![] bcast_S_S2000000),
    TRef.ternary (TRef.of (T := ⟨S2000000, .i1⟩) main_v751) (TRef.of (T := ⟨S2000000, .f32⟩) main_v761) (TRef.of (T := ⟨S2000000, .f32⟩) main_call31_v1) (TRef.of (T := ⟨S2000000, .f32⟩) main_v762) select,
    nullary main_c_277 (constantI S_ 32 0#32),
    unary main_c_277 main_v763 (broadcastInDim S2000000 ![] bcast_S_S2000000 : (⟨S_, .i32⟩ : BufTy).Contents (Elt F) → (⟨S2000000, .i32⟩ : BufTy).Contents (Elt F)),
    binary main_v758 main_v763 main_v764 (cmpi .slt : (⟨S2000000, .i32⟩ : BufTy).Contents (Elt F) → (⟨S2000000, .i32⟩ : BufTy).Contents (Elt F) → (⟨S2000000, .i1⟩ : BufTy).Contents (Elt F)),
    nullary main_c_278 (constantI S_ 32 2097152#32),
    unary main_c_278 main_v765 (broadcastInDim S2000000 ![] bcast_S_S2000000 : (⟨S_, .i32⟩ : BufTy).Contents (Elt F) → (⟨S2000000, .i32⟩ : BufTy).Contents (Elt F)),
    binary main_v758 main_v765 main_v766 (addi : (⟨S2000000, .i32⟩ : BufTy).Contents (Elt F) → (⟨S2000000, .i32⟩ : BufTy).Contents (Elt F) → (⟨S2000000, .i32⟩ : BufTy).Contents (Elt F)),
    ternary main_v764 main_v766 main_v758 main_v767 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v767 main_v768 (broadcastInDim S2000000x1 ![0] bcast_S2000000_S2000000x1_0 : (⟨S2000000, .i32⟩ : BufTy).Contents (Elt F) → (⟨S2000000x1, .i32⟩ : BufTy).Contents (Elt F)),
    ternary main_v728 main_v768 main_v762 main_v769 ((fun x i u => Host.scatterAdd scatter_S2097152_S2000000x1_S2000000_n_0_0_1 x i u) : (⟨S2097152, .f32⟩ : BufTy).Contents (Elt F) → (⟨S2000000x1, .i32⟩ : BufTy).Contents (Elt F) → (⟨S2000000, .f32⟩ : BufTy).Contents (Elt F) → (⟨S2097152, .f32⟩ : BufTy).Contents (Elt F)),
    reshape main_v769 main_v770 rfl shapeCasts_S2097152_S128x128x128,
    binary main_v387 main_v770 main_v771 (subf : (⟨S128x128x128, .f32⟩ : BufTy).Contents (Elt F) → (⟨S128x128x128, .f32⟩ : BufTy).Contents (Elt F) → (⟨S128x128x128, .f32⟩ : BufTy).Contents (Elt F)),
    unary main_v771 main_v772 (Host.absf : (⟨S128x128x128, .f32⟩ : BufTy).Contents (Elt F) → (⟨S128x128x128, .f32⟩ : BufTy).Contents (Elt F)),
    nullary main_cst_279 (constant S_ .f32 0x3F800000#32),
    unary main_cst_279 main_v773 (broadcastInDim S128x128x128 ![] bcast_S_S128x128x128 : (⟨S_, .f32⟩ : BufTy).Contents (Elt F) → (⟨S128x128x128, .f32⟩ : BufTy).Contents (Elt F)),
    binary main_v772 main_v773 main_v774 (cmpf .ole : (⟨S128x128x128, .f32⟩ : BufTy).Contents (Elt F) → (⟨S128x128x128, .f32⟩ : BufTy).Contents (Elt F) → (⟨S128x128x128, .i1⟩ : BufTy).Contents (Elt F)),
    nullary main_cst_280 (constant S_ .f32 0x3F000000#32),
    unary main_cst_280 main_v775 (broadcastInDim S128x128x128 ![] bcast_S_S128x128x128 : (⟨S_, .f32⟩ : BufTy).Contents (Elt F) → (⟨S128x128x128, .f32⟩ : BufTy).Contents (Elt F)),
    binary main_v775 main_v771 main_v776 (mulf : (⟨S128x128x128, .f32⟩ : BufTy).Contents (Elt F) → (⟨S128x128x128, .f32⟩ : BufTy).Contents (Elt F) → (⟨S128x128x128, .f32⟩ : BufTy).Contents (Elt F)),
    binary main_v776 main_v771 main_v777 (mulf : (⟨S128x128x128, .f32⟩ : BufTy).Contents (Elt F) → (⟨S128x128x128, .f32⟩ : BufTy).Contents (Elt F) → (⟨S128x128x128, .f32⟩ : BufTy).Contents (Elt F)),
    nullary main_cst_281 (constant S_ .f32 0x3F000000#32),
    unary main_cst_281 main_v778 (broadcastInDim S128x128x128 ![] bcast_S_S128x128x128 : (⟨S_, .f32⟩ : BufTy).Contents (Elt F) → (⟨S128x128x128, .f32⟩ : BufTy).Contents (Elt F)),
    binary main_v772 main_v778 main_v779 (subf : (⟨S128x128x128, .f32⟩ : BufTy).Contents (Elt F) → (⟨S128x128x128, .f32⟩ : BufTy).Contents (Elt F) → (⟨S128x128x128, .f32⟩ : BufTy).Contents (Elt F)),
    nullary main_cst_282 (constant S_ .f32 0x3F800000#32),
    unary main_cst_282 main_v780 (broadcastInDim S128x128x128 ![] bcast_S_S128x128x128 : (⟨S_, .f32⟩ : BufTy).Contents (Elt F) → (⟨S128x128x128, .f32⟩ : BufTy).Contents (Elt F)),
    binary main_v780 main_v779 main_v781 (mulf : (⟨S128x128x128, .f32⟩ : BufTy).Contents (Elt F) → (⟨S128x128x128, .f32⟩ : BufTy).Contents (Elt F) → (⟨S128x128x128, .f32⟩ : BufTy).Contents (Elt F)),
    TRef.ternary (TRef.of (T := ⟨S128x128x128, .i1⟩) main_v774) (TRef.of (T := ⟨S128x128x128, .f32⟩) main_v777) (TRef.of (T := ⟨S128x128x128, .f32⟩) main_v781) (TRef.of (T := ⟨S128x128x128, .f32⟩) main_v782) select,
    nullary main_cst_283 (constant S_ .f32 0x00000000#32),
    binary main_v782 main_cst_283 main_v783 ((fun x v => Host.reduceAdd x v reducesTo_S128x128x128_S_d0_1_2 h_S_) : (⟨S128x128x128, .f32⟩ : BufTy).Contents (Elt F) → (⟨S_, .f32⟩ : BufTy).Contents (Elt F) → (⟨S_, .f32⟩ : BufTy).Contents (Elt F)) ]
/-- The stretch, as printed, is the line of its operations. -/
theorem part_17_eq (d : Dev nD) : main_part17 (F := F) d = seq ops_17 := rfl
/-- The references they write. -/
abbrev ops_17_W : List (Ref sig .tc) := [main_v746, main_v747, main_v748, main_c_272, main_v749, main_v750, main_v751, main_c_273, main_v752, main_v753, main_v754, main_c_274, main_v755, main_v756, main_v757, main_c_275, main_call30_v0, main_call30_v1, main_v758, main_v759, main_v760, main_v761, main_cst_276, main_call31_v0, main_call31_v1, main_v762, main_c_277, main_v763, main_v764, main_c_278, main_v765, main_v766, main_v767, main_v768, main_v769, main_v770, main_v771, main_v772, main_cst_279, main_v773, main_v774, main_cst_280, main_v775, main_v776, main_v777, main_cst_281, main_v778, main_v779, main_cst_282, main_v780, main_v781, main_v782, main_cst_283, main_v783]
theorem ops_17_writes : (ops_17 : List (HloOp τ sig (Elt F))).Forall fun op => op.writes ⊆ (ops_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem ops_17_sub : (ops_17 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., reshape_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub ..⟩
theorem ops_17_fresh : (ops_17 : List (HloOp τ sig (Elt F))).Forall fun op => op.fresh = ∅ := by
  simp only [List.Forall]; repeat' constructor
theorem skip_17 (W : Valuation τ sig (Elt F)) {r : Ref sig .tc} (h : r ∉ ops_17_W) :
    after (no_index (ops_17 (F := F))) W (no_index (Proc.devRef .tc r)) = W (Proc.devRef .tc r) :=
  after_of_writes_sub ops_17 W ops_17_writes h

/-- @main's 1134 operations, in order. -/
abbrev ops : List (HloOp τ sig (Elt F)) := ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17)))))))))))))))))

/-- @main is its eighteen stretches one after the other, and lines run one after the other are their concatenation run as one. -/
theorem main_eq (c : Dev nD) : main (F := F) c = seq ops := by
  unfold main
  simp only [ops, seq_append, part_0_eq, part_1_eq, part_2_eq, part_3_eq, part_4_eq, part_5_eq, part_6_eq, part_7_eq, part_8_eq, part_9_eq, part_10_eq, part_11_eq, part_12_eq, part_13_eq, part_14_eq, part_15_eq, part_16_eq, part_17_eq]
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, List.forall_append]
  exact ⟨ops_0_sub, ops_1_sub, ops_2_sub, ops_3_sub, ops_4_sub, ops_5_sub, ops_6_sub, ops_7_sub, ops_8_sub, ops_9_sub, ops_10_sub, ops_11_sub, ops_12_sub, ops_13_sub, ops_14_sub, ops_15_sub, ops_16_sub, ops_17_sub⟩
theorem ops_fresh : ∀ op ∈ (ops : List (HloOp τ sig (Elt F))), op.fresh = ∅ := by
  refine List.forall_iff_forall_mem.mp ?_
  simp only [ops, List.forall_append]
  exact ⟨ops_0_fresh, ops_1_fresh, ops_2_fresh, ops_3_fresh, ops_4_fresh, ops_5_fresh, ops_6_fresh, ops_7_fresh, ops_8_fresh, ops_9_fresh, ops_10_fresh, ops_11_fresh, ops_12_fresh, ops_13_fresh, ops_14_fresh, ops_15_fresh, ops_16_fresh, ops_17_fresh⟩

/-- Reads a buffer after the stretches: whole stretches that do not write it are passed in one step, the others
    operation by operation. -/
macro "ref_read" : tactic =>
  `(tactic| (simp (disch := decide) only [after_append_app, ↓skip_0, ↓skip_1, ↓skip_2, ↓skip_3, ↓skip_4, ↓skip_5, ↓skip_6, ↓skip_7, ↓skip_8, ↓skip_9, ↓skip_10, ↓skip_11, ↓skip_12, ↓skip_13, ↓skip_14, ↓skip_15, ↓skip_16, ↓skip_17,
      after_cons_app, after_nil_app,
      nullary_result', unary_result', binary_result', ternary_result', quaternary_result', reshape_result', nary_result',
      nullary_result_ne', unary_result_ne', binary_result_ne', ternary_result_ne', quaternary_result_ne', reshape_result_ne',
      nary_result_ne']))

/-- No operation writes an argument array. -/
theorem kept_arg0 (V : Valuation τ sig (Elt F)) : after ops V (Proc.devRef .tc main_arg0) = V (Proc.devRef .tc main_arg0) := by
  unfold ops; ref_read
theorem kept_arg1 (V : Valuation τ sig (Elt F)) : after ops V (Proc.devRef .tc main_arg1) = V (Proc.devRef .tc main_arg1) := by
  unfold ops; ref_read
theorem kept_arg2 (V : Valuation τ sig (Elt F)) : after ops V (Proc.devRef .tc main_arg2) = V (Proc.devRef .tc main_arg2) := by
  unfold ops; ref_read

set_option maxHeartbeats 2000000000 in
/-- The result buffer after the 1134 operations is the result stage of the three argument arrays. -/
theorem value (V : Valuation τ sig (Elt F)) :
    (after ops V (Proc.devRef .tc main_v783) : (⟨S_, .f32⟩ : BufTy).Contents (Elt F))
      = val_main_v783 (F := F) (V (Proc.devRef .tc main_arg0)) (V (Proc.devRef .tc main_arg1)) (V (Proc.devRef .tc main_arg2)) := by
  unfold ops
  ref_read
  rfl

/-- On every device, for any float values, from any memory with zero counters: every weakly fair execution of @main
    terminates with the result buffer at the result stage of the three argument arrays as launched, and the argument
    arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v783)
        = val_main_v783 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v783).trans (value (launchContents m c)),
      (h c main_arg0).trans (kept_arg0 (launchContents m c)),
      (h c main_arg1).trans (kept_arg1 (launchContents m c)),
      (h c main_arg2).trans (kept_arg2 (launchContents m c))⟩)
    (run_seq scopedRefs_eq scopedSems_eq defs main (fun _ => ops) main_eq (fun _ => ops_sub) m ρ (fun _ => ops_fresh))

end Cert.ReferenceIdeal.RunH

end
-- ==== Proof.RefAxis.lean ====
/-
  The reference's per-axis chain at one point.

  Point p of a point set has normalized coordinate u = c + d on axis a (c the base coordinates, d the displacement),
  read from entry (0, p, a) of the two argument arrays through the reshape to [N, 3], the column slice and the
  reshape to [N]. The reference unnormalizes it to t = ((u + 1)·128 − 1)·½, takes the floor, the fraction t − ⌊t⌋ and
  the floor converted to a signed word: the specification's tco, frac and base of the two entries.
-/
import proofs.«106138_j14714557956152_2_alg».proof.Proof.RefReadP
import proofs.«106138_j14714557956152_2_alg».proof.Proof.Spec

noncomputable section

namespace Cert.RefRead

open Cert.ReferenceIdeal Cert.ReferenceIdeal.Gen Cert.ReferenceIdeal.ReadP Idealize.ShloMosaic Idealize.ShloMosaic.ValueIdx Cert.Spec

/-- The point whose base coordinates are read from c and displacements from d, at row p. -/
def pt (c d : S1x2000000x3.Idx → Ideal .f32) (p : Fin 2000000) : Pt :=
  mkPt (c (ix3 0 p 0)) (d (ix3 0 p 0)) (c (ix3 0 p 1)) (d (ix3 0 p 1)) (c (ix3 0 p 2)) (d (ix3 0 p 2))

/-- Row p of column 0 of the [N, 3] view is entry (0, p, 0) of the argument. -/
theorem ixA0 (p : Fin 2000000) : idx_main_v1 (idx_main_v5 (idx_main_v6 (ix1 p))) = ix3 0 p 0 := by
  funext a
  match a with
  | ⟨0, _⟩ => rfl
  | ⟨1, _⟩ => exact Fin.ext (by show (p.val / 1 * 3 + 0) / 3 % 2000000 = p.val; omega)
  | ⟨2, _⟩ => exact Fin.ext (by show (p.val / 1 * 3 + 0) % 3 = 0; omega)

/-- The unnormalized coordinate on axis 0. -/
theorem tA0 (x0 x2 : (⟨S1x2000000x3, .f32⟩ : BufTy).Contents (Elt Ideal)) (p : Fin 2000000) :
    val_main_v14 (F := Ideal) x0 x2 (ix1 p) = tco (x2 (ix3 0 p 0)) (x0 (ix3 0 p 0)) := by
  simp only [val_main_v14_apply, val_main_v12_apply, val_main_v10_apply, val_main_v8_apply, val_main_v6_apply,
      val_main_v5_apply, val_main_v1_apply, val_main_v0_apply, val_main_v7_apply, val_main_cst_0_apply,
      val_main_v9_apply, val_main_cst_1_apply, val_main_v11_apply, val_main_cst_2_apply, val_main_v13_apply,
      val_main_cst_3_apply]
  rw [ixA0 p]
  rfl

/-- The base cell coordinate on axis 0. -/
theorem baseA0 (x0 x2 : (⟨S1x2000000x3, .f32⟩ : BufTy).Contents (Elt Ideal)) (p : Fin 2000000) :
    val_main_v41 (F := Ideal) x0 x2 (ix1 p) = base (x2 (ix3 0 p 0)) (x0 (ix3 0 p 0)) := by
  rw [val_main_v41_apply, val_main_v35_apply, tA0]
  rfl

/-- The fraction on axis 0. -/
theorem fracA0 (x0 x2 : (⟨S1x2000000x3, .f32⟩ : BufTy).Contents (Elt Ideal)) (p : Fin 2000000) :
    val_main_v38 (F := Ideal) x0 x2 (ix1 p) = frac (x2 (ix3 0 p 0)) (x0 (ix3 0 p 0)) := by
  rw [val_main_v38_apply, val_main_v35_apply, tA0]
  rfl

/-- Row p of column 1 of the [N, 3] view is entry (0, p, 1) of the argument. -/
theorem ixA1 (p : Fin 2000000) : idx_main_v1 (idx_main_v15 (idx_main_v16 (ix1 p))) = ix3 0 p 1 := by
  funext a
  match a with
  | ⟨0, _⟩ => rfl
  | ⟨1, _⟩ => exact Fin.ext (by show (p.val / 1 * 3 + (1 + 0)) / 3 % 2000000 = p.val; omega)
  | ⟨2, _⟩ => exact Fin.ext (by show (p.val / 1 * 3 + (1 + 0)) % 3 = 1; omega)

/-- The unnormalized coordinate on axis 1. -/
theorem tA1 (x0 x2 : (⟨S1x2000000x3, .f32⟩ : BufTy).Contents (Elt Ideal)) (p : Fin 2000000) :
    val_main_v24 (F := Ideal) x0 x2 (ix1 p) = tco (x2 (ix3 0 p 1)) (x0 (ix3 0 p 1)) := by
  simp only [val_main_v24_apply, val_main_v22_apply, val_main_v20_apply, val_main_v18_apply, val_main_v16_apply,
      val_main_v15_apply, val_main_v1_apply, val_main_v0_apply, val_main_v17_apply, val_main_cst_4_apply,
      val_main_v19_apply, val_main_cst_5_apply, val_main_v21_apply, val_main_cst_6_apply, val_main_v23_apply,
      val_main_cst_7_apply]
  rw [ixA1 p]
  rfl

/-- The base cell coordinate on axis 1. -/
theorem baseA1 (x0 x2 : (⟨S1x2000000x3, .f32⟩ : BufTy).Contents (Elt Ideal)) (p : Fin 2000000) :
    val_main_v42 (F := Ideal) x0 x2 (ix1 p) = base (x2 (ix3 0 p 1)) (x0 (ix3 0 p 1)) := by
  rw [val_main_v42_apply, val_main_v36_apply, tA1]
  rfl

/-- The fraction on axis 1. -/
theorem fracA1 (x0 x2 : (⟨S1x2000000x3, .f32⟩ : BufTy).Contents (Elt Ideal)) (p : Fin 2000000) :
    val_main_v39 (F := Ideal) x0 x2 (ix1 p) = frac (x2 (ix3 0 p 1)) (x0 (ix3 0 p 1)) := by
  rw [val_main_v39_apply, val_main_v36_apply, tA1]
  rfl

/-- Row p of column 2 of the [N, 3] view is entry (0, p, 2) of the argument. -/
theorem ixA2 (p : Fin 2000000) : idx_main_v1 (idx_main_v25 (idx_main_v26 (ix1 p))) = ix3 0 p 2 := by
  funext a
  match a with
  | ⟨0, _⟩ => rfl
  | ⟨1, _⟩ => exact Fin.ext (by show (p.val / 1 * 3 + (2 + 0)) / 3 % 2000000 = p.val; omega)
  | ⟨2, _⟩ => exact Fin.ext (by show (p.val / 1 * 3 + (2 + 0)) % 3 = 2; omega)

/-- The unnormalized coordinate on axis 2. -/
theorem tA2 (x0 x2 : (⟨S1x2000000x3, .f32⟩ : BufTy).Contents (Elt Ideal)) (p : Fin 2000000) :
    val_main_v34 (F := Ideal) x0 x2 (ix1 p) = tco (x2 (ix3 0 p 2)) (x0 (ix3 0 p 2)) := by
  simp only [val_main_v34_apply, val_main_v32_apply, val_main_v30_apply, val_main_v28_apply, val_main_v26_apply,
      val_main_v25_apply, val_main_v1_apply, val_main_v0_apply, val_main_v27_apply, val_main_cst_8_apply,
      val_main_v29_apply, val_main_cst_9_apply, val_main_v31_apply, val_main_cst_10_apply, val_main_v33_apply,
      val_main_cst_11_apply]
  rw [ixA2 p]
  rfl

/-- The base cell coordinate on axis 2. -/
theorem baseA2 (x0 x2 : (⟨S1x2000000x3, .f32⟩ : BufTy).Contents (Elt Ideal)) (p : Fin 2000000) :
    val_main_v43 (F := Ideal) x0 x2 (ix1 p) = base (x2 (ix3 0 p 2)) (x0 (ix3 0 p 2)) := by
  rw [val_main_v43_apply, val_main_v37_apply, tA2]
  rfl

/-- The fraction on axis 2. -/
theorem fracA2 (x0 x2 : (⟨S1x2000000x3, .f32⟩ : BufTy).Contents (Elt Ideal)) (p : Fin 2000000) :
    val_main_v40 (F := Ideal) x0 x2 (ix1 p) = frac (x2 (ix3 0 p 2)) (x0 (ix3 0 p 2)) := by
  rw [val_main_v40_apply, val_main_v37_apply, tA2]
  rfl

/-- Row p of column 0 of the [N, 3] view is entry (0, p, 0) of the argument. -/
theorem ixB0 (p : Fin 2000000) : idx_main_v3 (idx_main_v388 (idx_main_v389 (ix1 p))) = ix3 0 p 0 := by
  funext a
  match a with
  | ⟨0, _⟩ => rfl
  | ⟨1, _⟩ => exact Fin.ext (by show (p.val / 1 * 3 + 0) / 3 % 2000000 = p.val; omega)
  | ⟨2, _⟩ => exact Fin.ext (by show (p.val / 1 * 3 + 0) % 3 = 0; omega)

/-- The unnormalized coordinate on axis 0. -/
theorem tB0 (x1 x2 : (⟨S1x2000000x3, .f32⟩ : BufTy).Contents (Elt Ideal)) (p : Fin 2000000) :
    val_main_v397 (F := Ideal) x1 x2 (ix1 p) = tco (x2 (ix3 0 p 0)) (x1 (ix3 0 p 0)) := by
  simp only [val_main_v397_apply, val_main_v395_apply, val_main_v393_apply, val_main_v391_apply,
      val_main_v389_apply, val_main_v388_apply, val_main_v3_apply, val_main_v2_apply, val_main_v390_apply,
      val_main_cst_139_apply, val_main_v392_apply, val_main_cst_140_apply, val_main_v394_apply,
      val_main_cst_141_apply, val_main_v396_apply, val_main_cst_142_apply]
  rw [ixB0 p]
  rfl

/-- The base cell coordinate on axis 0. -/
theorem baseB0 (x1 x2 : (⟨S1x2000000x3, .f32⟩ : BufTy).Contents (Elt Ideal)) (p : Fin 2000000) :
    val_main_v424 (F := Ideal) x1 x2 (ix1 p) = base (x2 (ix3 0 p 0)) (x1 (ix3 0 p 0)) := by
  rw [val_main_v424_apply, val_main_v418_apply, tB0]
  rfl

/-- The fraction on axis 0. -/
theorem fracB0 (x1 x2 : (⟨S1x2000000x3, .f32⟩ : BufTy).Contents (Elt Ideal)) (p : Fin 2000000) :
    val_main_v421 (F := Ideal) x1 x2 (ix1 p) = frac (x2 (ix3 0 p 0)) (x1 (ix3 0 p 0)) := by
  rw [val_main_v421_apply, val_main_v418_apply, tB0]
  rfl

/-- Row p of column 1 of the [N, 3] view is entry (0, p, 1) of the argument. -/
theorem ixB1 (p : Fin 2000000) : idx_main_v3 (idx_main_v398 (idx_main_v399 (ix1 p))) = ix3 0 p 1 := by
  funext a
  match a with
  | ⟨0, _⟩ => rfl
  | ⟨1, _⟩ => exact Fin.ext (by show (p.val / 1 * 3 + (1 + 0)) / 3 % 2000000 = p.val; omega)
  | ⟨2, _⟩ => exact Fin.ext (by show (p.val / 1 * 3 + (1 + 0)) % 3 = 1; omega)

/-- The unnormalized coordinate on axis 1. -/
theorem tB1 (x1 x2 : (⟨S1x2000000x3, .f32⟩ : BufTy).Contents (Elt Ideal)) (p : Fin 2000000) :
    val_main_v407 (F := Ideal) x1 x2 (ix1 p) = tco (x2 (ix3 0 p 1)) (x1 (ix3 0 p 1)) := by
  simp only [val_main_v407_apply, val_main_v405_apply, val_main_v403_apply, val_main_v401_apply,
      val_main_v399_apply, val_main_v398_apply, val_main_v3_apply, val_main_v2_apply, val_main_v400_apply,
      val_main_cst_143_apply, val_main_v402_apply, val_main_cst_144_apply, val_main_v404_apply,
      val_main_cst_145_apply, val_main_v406_apply, val_main_cst_146_apply]
  rw [ixB1 p]
  rfl

/-- The base cell coordinate on axis 1. -/
theorem baseB1 (x1 x2 : (⟨S1x2000000x3, .f32⟩ : BufTy).Contents (Elt Ideal)) (p : Fin 2000000) :
    val_main_v425 (F := Ideal) x1 x2 (ix1 p) = base (x2 (ix3 0 p 1)) (x1 (ix3 0 p 1)) := by
  rw [val_main_v425_apply, val_main_v419_apply, tB1]
  rfl

/-- The fraction on axis 1. -/
theorem fracB1 (x1 x2 : (⟨S1x2000000x3, .f32⟩ : BufTy).Contents (Elt Ideal)) (p : Fin 2000000) :
    val_main_v422 (F := Ideal) x1 x2 (ix1 p) = frac (x2 (ix3 0 p 1)) (x1 (ix3 0 p 1)) := by
  rw [val_main_v422_apply, val_main_v419_apply, tB1]
  rfl

/-- Row p of column 2 of the [N, 3] view is entry (0, p, 2) of the argument. -/
theorem ixB2 (p : Fin 2000000) : idx_main_v3 (idx_main_v408 (idx_main_v409 (ix1 p))) = ix3 0 p 2 := by
  funext a
  match a with
  | ⟨0, _⟩ => rfl
  | ⟨1, _⟩ => exact Fin.ext (by show (p.val / 1 * 3 + (2 + 0)) / 3 % 2000000 = p.val; omega)
  | ⟨2, _⟩ => exact Fin.ext (by show (p.val / 1 * 3 + (2 + 0)) % 3 = 2; omega)

/-- The unnormalized coordinate on axis 2. -/
theorem tB2 (x1 x2 : (⟨S1x2000000x3, .f32⟩ : BufTy).Contents (Elt Ideal)) (p : Fin 2000000) :
    val_main_v417 (F := Ideal) x1 x2 (ix1 p) = tco (x2 (ix3 0 p 2)) (x1 (ix3 0 p 2)) := by
  simp only [val_main_v417_apply, val_main_v415_apply, val_main_v413_apply, val_main_v411_apply,
      val_main_v409_apply, val_main_v408_apply, val_main_v3_apply, val_main_v2_apply, val_main_v410_apply,
      val_main_cst_147_apply, val_main_v412_apply, val_main_cst_148_apply, val_main_v414_apply,
      val_main_cst_149_apply, val_main_v416_apply, val_main_cst_150_apply]
  rw [ixB2 p]
  rfl

/-- The base cell coordinate on axis 2. -/
theorem baseB2 (x1 x2 : (⟨S1x2000000x3, .f32⟩ : BufTy).Contents (Elt Ideal)) (p : Fin 2000000) :
    val_main_v426 (F := Ideal) x1 x2 (ix1 p) = base (x2 (ix3 0 p 2)) (x1 (ix3 0 p 2)) := by
  rw [val_main_v426_apply, val_main_v420_apply, tB2]
  rfl

/-- The fraction on axis 2. -/
theorem fracB2 (x1 x2 : (⟨S1x2000000x3, .f32⟩ : BufTy).Contents (Elt Ideal)) (p : Fin 2000000) :
    val_main_v423 (F := Ideal) x1 x2 (ix1 p) = frac (x2 (ix3 0 p 2)) (x1 (ix3 0 p 2)) := by
  rw [val_main_v423_apply, val_main_v420_apply, tB2]
  rfl

end Cert.RefRead

end
-- ==== Proof.RefScalar.lean ====
/-
  The reference's per-point arithmetic, as scalar facts.

  At one point the reference forms, for corner k with offsets (ox, oy, oz) ∈ {0,1}³ added to the base cell (x, y, z):
  the validity bit as the left-nested conjunction x ≥ 0, x < 128, y ≥ 0, y < 128, z ≥ 0, z < 128; the flat index
  (z·128 + y)·128 + x when valid and 0 otherwise, then normalized as a possibly negative index (add 2097152 when
  negative); and the weight (wx·wy)·wz·1 when valid and 0 otherwise. These are the specification's corner index and
  corner weight: the conjunction is the same six bits regrouped, the normalization leaves a non-negative index alone,
  and the trailing factor is the real one.
-/
import proofs.«106138_j14714557956152_2_alg».proof.Proof.Spec
import proofs.«106138_j14714557956152_2_alg».proof.Proof.SpecFacts
import Idealize.ShloMosaic.Lib.IdealHost

noncomputable section

namespace Cert.RefRead

open Idealize.ShloMosaic Cert.Spec

/-- The reference's validity chain: x, then y, then z, each as 0 ≤ · and · < 128, nested to the left. -/
def rvalid (x y z : BitVec 32) : BitVec 1 :=
  IntOp.andi (IntOp.andi (IntOp.andi (IntOp.andi (IntOp.andi (IntOp.cmpi .sge x 0#32) (IntOp.cmpi .slt x 128#32))
    (IntOp.cmpi .sge y 0#32)) (IntOp.cmpi .slt y 128#32)) (IntOp.cmpi .sge z 0#32)) (IntOp.cmpi .slt z 128#32)

/-- The same six bits grouped per axis, z first. -/
theorem rvalid_eq (x y z : BitVec 32) : rvalid x y z = (inGrid z &&& inGrid y) &&& inGrid x := by
  unfold rvalid inGrid Scalar.cmpi IntOp.andi
  generalize IntOp.cmpi .sge x 0#32 = a
  generalize IntOp.cmpi .slt x 128#32 = b
  generalize IntOp.cmpi .sge y 0#32 = c
  generalize IntOp.cmpi .slt y 128#32 = d
  generalize IntOp.cmpi .sge z 0#32 = e
  generalize IntOp.cmpi .slt z 128#32 = f
  ac_rfl

/-- The reference's flat index of a corner with cell (x, y, z). -/
def ridx (x y z : BitVec 32) : BitVec 32 :=
  Scalar.select (rvalid x y z) (IntOp.addi (IntOp.muli (IntOp.addi (IntOp.muli z 128#32) y) 128#32) x) 0#32

/-- The normalization of a possibly negative index into an axis of 2097152 entries. -/
def rnorm (i : BitVec 32) : BitVec 32 :=
  Scalar.select (IntOp.cmpi .slt i 0#32) (IntOp.addi i 2097152#32) i

/-- The reference's normalized corner index is the specification's corner index. -/
theorem corner_idx (k : Fin 8) (P : Pt) (ox oy oz : BitVec 32)
    (hx : ox = off (dxOf k)) (hy : oy = off (dyOf k)) (hz : oz = off (dzOf k)) :
    rnorm (ridx (IntOp.addi P.x0 ox) (IntOp.addi P.y0 oy) (IntOp.addi P.z0 oz)) = cidx k P := by
  subst hx hy hz
  have h : ridx (IntOp.addi P.x0 (off (dxOf k))) (IntOp.addi P.y0 (off (dyOf k))) (IntOp.addi P.z0 (off (dzOf k)))
      = cidx k P := by
    unfold ridx cidx cvalid
    rw [rvalid_eq]
    rfl
  rw [h]
  exact cidx_norm k P 2097152#32

/-- The reference's corner weight is the specification's corner weight. -/
theorem corner_w (k : Fin 8) (P : Pt) (ox oy oz : BitVec 32)
    (hx : ox = off (dxOf k)) (hy : oy = off (dyOf k)) (hz : oz = off (dzOf k))
    (wx wy wz : Ideal .f32)
    (hwx : wx = wsel (dxOf k) P.fx) (hwy : wy = wsel (dyOf k) P.fy) (hwz : wz = wsel (dzOf k) P.fz) :
    Scalar.select (rvalid (IntOp.addi P.x0 ox) (IntOp.addi P.y0 oy) (IntOp.addi P.z0 oz))
        (FloatOps.mulf (FloatOps.mulf (FloatOps.mulf wx wy) wz) (FloatOps.ofBits .f32 0x3F800000#32))
        (FloatOps.ofBits .f32 0x00000000#32)
      = cw k P := by
  subst hx hy hz hwx hwy hwz
  unfold cw cvalid
  rw [rvalid_eq]
  show Scalar.select _ ((wsel (dxOf k) P.fx * wsel (dyOf k) P.fy * wsel (dzOf k) P.fz) * Ideal.ofBits .f32 0x3F800000#32) _ = _
  rw [Ideal.ofBits_one_f32, mul_one]
  rfl

/-- The Huber stage of the reference at one voxel is the specification's Huber function. -/
theorem huber_eq (d : Ideal .f32) :
    Scalar.select (FloatOps.cmpf .ole (FloatOps.hostAbsf d) (FloatOps.ofBits .f32 0x3F800000#32))
        (FloatOps.mulf (FloatOps.mulf (FloatOps.ofBits .f32 0x3F000000#32) d) d)
        (FloatOps.mulf (FloatOps.ofBits .f32 0x3F800000#32)
          (FloatOps.subf (FloatOps.hostAbsf d) (FloatOps.ofBits .f32 0x3F000000#32)))
      = hub d := rfl

end Cert.RefRead

end
-- ==== Proof.RefCornersA.lean ====
/-
  The reference's eight corner indices and weights of one point set, at one point: each corner's scattered index
  column and update vector, read at row p, are the specification's corner index and corner weight of the point.
-/
import proofs.«106138_j14714557956152_2_alg».proof.Proof.RefAxis
import proofs.«106138_j14714557956152_2_alg».proof.Proof.RefScalar

noncomputable section

namespace Cert.RefRead

open Cert.ReferenceIdeal Cert.ReferenceIdeal.Gen Cert.ReferenceIdeal.ReadP Idealize.ShloMosaic Idealize.ShloMosaic.ValueIdx Cert.Spec

/-- Corner 0 (dz, dy, dx) = (0, 0, 0): the index column at row p. -/
theorem idxA0 (x0 x2 : (⟨S1x2000000x3, .f32⟩ : BufTy).Contents (Elt Ideal)) (p : Fin 2000000) :
    val_main_v90 (F := Ideal) x0 x2 (ix2 p 0) = cidx 0 (pt x2 x0 p) := by
  have hrow : idx_main_v90 (ix2 p (0 : Fin 1)) = ix1 p := funext fun a => match a with | ⟨0, _⟩ => rfl
  rw [val_main_v90_apply, hrow]
  simp only [val_main_v89_apply, val_main_v86_apply, val_main_v80_apply, val_main_v73_apply, val_main_v70_apply,
      val_main_v67_apply, val_main_v64_apply, val_main_v61_apply, val_main_v58_apply, val_main_v52_apply,
      val_main_v51_apply, val_main_c_apply, val_main_v57_apply, val_main_c_18_apply, val_main_v60_apply,
      val_main_v59_apply, val_main_c_19_apply, val_main_v63_apply, val_main_v54_apply, val_main_v53_apply,
      val_main_c_16_apply, val_main_v62_apply, val_main_c_20_apply, val_main_v66_apply, val_main_v65_apply,
      val_main_c_21_apply, val_main_v69_apply, val_main_v56_apply, val_main_v55_apply, val_main_c_17_apply,
      val_main_v68_apply, val_main_c_22_apply, val_main_v72_apply, val_main_v71_apply, val_main_c_23_apply,
      val_main_v79_apply, val_main_v78_apply, val_main_v76_apply, val_main_v75_apply, val_main_v74_apply,
      val_main_c_24_apply, val_main_v77_apply, val_main_c_25_apply, val_main_call0_v1_apply,
      val_main_call0_v0_apply, val_main_c_26_apply, val_main_v85_apply, val_main_c_28_apply, val_main_v88_apply,
      val_main_v87_apply, val_main_c_29_apply, baseA0, baseA1, baseA2]
  exact corner_idx 0 (pt x2 x0 p) 0#32 0#32 0#32 rfl rfl rfl

/-- Corner 0: the weight at row p. -/
theorem wA0 (x0 x2 : (⟨S1x2000000x3, .f32⟩ : BufTy).Contents (Elt Ideal)) (p : Fin 2000000) :
    val_main_v84 (F := Ideal) x0 x2 (ix1 p) = cw 0 (pt x2 x0 p) := by
  simp only [val_main_v84_apply, val_main_v73_apply, val_main_v70_apply, val_main_v67_apply, val_main_v64_apply,
      val_main_v61_apply, val_main_v58_apply, val_main_v52_apply, val_main_v51_apply, val_main_c_apply,
      val_main_v57_apply, val_main_c_18_apply, val_main_v60_apply, val_main_v59_apply, val_main_c_19_apply,
      val_main_v63_apply, val_main_v54_apply, val_main_v53_apply, val_main_c_16_apply, val_main_v62_apply,
      val_main_c_20_apply, val_main_v66_apply, val_main_v65_apply, val_main_c_21_apply, val_main_v69_apply,
      val_main_v56_apply, val_main_v55_apply, val_main_c_17_apply, val_main_v68_apply, val_main_c_22_apply,
      val_main_v72_apply, val_main_v71_apply, val_main_c_23_apply, val_main_v83_apply, val_main_v82_apply,
      val_main_v81_apply, val_main_v50_apply, val_main_v49_apply, val_main_cst_15_apply, val_main_v48_apply,
      val_main_v47_apply, val_main_cst_14_apply, val_main_v46_apply, val_main_v45_apply, val_main_cst_13_apply,
      val_main_v4_apply, val_main_cst_apply, val_main_call1_v1_apply, val_main_call1_v0_apply,
      val_main_cst_27_apply, baseA0, baseA1, baseA2, fracA0, fracA1, fracA2]
  exact corner_w 0 (pt x2 x0 p) 0#32 0#32 0#32 rfl rfl rfl _ _ _ rfl rfl rfl

/-- Corner 1 (dz, dy, dx) = (0, 0, 1): the index column at row p. -/
theorem idxA1 (x0 x2 : (⟨S1x2000000x3, .f32⟩ : BufTy).Contents (Elt Ideal)) (p : Fin 2000000) :
    val_main_v131 (F := Ideal) x0 x2 (ix2 p 0) = cidx 1 (pt x2 x0 p) := by
  have hrow : idx_main_v131 (ix2 p (0 : Fin 1)) = ix1 p := funext fun a => match a with | ⟨0, _⟩ => rfl
  rw [val_main_v131_apply, hrow]
  simp only [val_main_v130_apply, val_main_v127_apply, val_main_v121_apply, val_main_v114_apply,
      val_main_v111_apply, val_main_v108_apply, val_main_v105_apply, val_main_v102_apply, val_main_v99_apply,
      val_main_v93_apply, val_main_v92_apply, val_main_c_30_apply, val_main_v98_apply, val_main_c_33_apply,
      val_main_v101_apply, val_main_v100_apply, val_main_c_34_apply, val_main_v104_apply, val_main_v95_apply,
      val_main_v94_apply, val_main_c_31_apply, val_main_v103_apply, val_main_c_35_apply, val_main_v107_apply,
      val_main_v106_apply, val_main_c_36_apply, val_main_v110_apply, val_main_v97_apply, val_main_v96_apply,
      val_main_c_32_apply, val_main_v109_apply, val_main_c_37_apply, val_main_v113_apply, val_main_v112_apply,
      val_main_c_38_apply, val_main_v120_apply, val_main_v119_apply, val_main_v117_apply, val_main_v116_apply,
      val_main_v115_apply, val_main_c_39_apply, val_main_v118_apply, val_main_c_40_apply, val_main_call2_v1_apply,
      val_main_call2_v0_apply, val_main_c_41_apply, val_main_v126_apply, val_main_c_43_apply, val_main_v129_apply,
      val_main_v128_apply, val_main_c_44_apply, baseA0, baseA1, baseA2]
  exact corner_idx 1 (pt x2 x0 p) 1#32 0#32 0#32 rfl rfl rfl

/-- Corner 1: the weight at row p. -/
theorem wA1 (x0 x2 : (⟨S1x2000000x3, .f32⟩ : BufTy).Contents (Elt Ideal)) (p : Fin 2000000) :
    val_main_v125 (F := Ideal) x0 x2 (ix1 p) = cw 1 (pt x2 x0 p) := by
  simp only [val_main_v125_apply, val_main_v114_apply, val_main_v111_apply, val_main_v108_apply,
      val_main_v105_apply, val_main_v102_apply, val_main_v99_apply, val_main_v93_apply, val_main_v92_apply,
      val_main_c_30_apply, val_main_v98_apply, val_main_c_33_apply, val_main_v101_apply, val_main_v100_apply,
      val_main_c_34_apply, val_main_v104_apply, val_main_v95_apply, val_main_v94_apply, val_main_c_31_apply,
      val_main_v103_apply, val_main_c_35_apply, val_main_v107_apply, val_main_v106_apply, val_main_c_36_apply,
      val_main_v110_apply, val_main_v97_apply, val_main_v96_apply, val_main_c_32_apply, val_main_v109_apply,
      val_main_c_37_apply, val_main_v113_apply, val_main_v112_apply, val_main_c_38_apply, val_main_v124_apply,
      val_main_v123_apply, val_main_v122_apply, val_main_v48_apply, val_main_v47_apply, val_main_cst_14_apply,
      val_main_v46_apply, val_main_v45_apply, val_main_cst_13_apply, val_main_v4_apply, val_main_cst_apply,
      val_main_call3_v1_apply, val_main_call3_v0_apply, val_main_cst_42_apply, baseA0, baseA1, baseA2, fracA0,
      fracA1, fracA2]
  exact corner_w 1 (pt x2 x0 p) 1#32 0#32 0#32 rfl rfl rfl _ _ _ rfl rfl rfl

/-- Corner 2 (dz, dy, dx) = (0, 1, 0): the index column at row p. -/
theorem idxA2 (x0 x2 : (⟨S1x2000000x3, .f32⟩ : BufTy).Contents (Elt Ideal)) (p : Fin 2000000) :
    val_main_v174 (F := Ideal) x0 x2 (ix2 p 0) = cidx 2 (pt x2 x0 p) := by
  have hrow : idx_main_v174 (ix2 p (0 : Fin 1)) = ix1 p := funext fun a => match a with | ⟨0, _⟩ => rfl
  rw [val_main_v174_apply, hrow]
  simp only [val_main_v173_apply, val_main_v170_apply, val_main_v164_apply, val_main_v157_apply,
      val_main_v154_apply, val_main_v151_apply, val_main_v148_apply, val_main_v145_apply, val_main_v142_apply,
      val_main_v136_apply, val_main_v135_apply, val_main_c_46_apply, val_main_v141_apply, val_main_c_49_apply,
      val_main_v144_apply, val_main_v143_apply, val_main_c_50_apply, val_main_v147_apply, val_main_v138_apply,
      val_main_v137_apply, val_main_c_47_apply, val_main_v146_apply, val_main_c_51_apply, val_main_v150_apply,
      val_main_v149_apply, val_main_c_52_apply, val_main_v153_apply, val_main_v140_apply, val_main_v139_apply,
      val_main_c_48_apply, val_main_v152_apply, val_main_c_53_apply, val_main_v156_apply, val_main_v155_apply,
      val_main_c_54_apply, val_main_v163_apply, val_main_v162_apply, val_main_v160_apply, val_main_v159_apply,
      val_main_v158_apply, val_main_c_55_apply, val_main_v161_apply, val_main_c_56_apply, val_main_call4_v1_apply,
      val_main_call4_v0_apply, val_main_c_57_apply, val_main_v169_apply, val_main_c_59_apply, val_main_v172_apply,
      val_main_v171_apply, val_main_c_60_apply, baseA0, baseA1, baseA2]
  exact corner_idx 2 (pt x2 x0 p) 0#32 1#32 0#32 rfl rfl rfl

/-- Corner 2: the weight at row p. -/
theorem wA2 (x0 x2 : (⟨S1x2000000x3, .f32⟩ : BufTy).Contents (Elt Ideal)) (p : Fin 2000000) :
    val_main_v168 (F := Ideal) x0 x2 (ix1 p) = cw 2 (pt x2 x0 p) := by
  simp only [val_main_v168_apply, val_main_v157_apply, val_main_v154_apply, val_main_v151_apply,
      val_main_v148_apply, val_main_v145_apply, val_main_v142_apply, val_main_v136_apply, val_main_v135_apply,
      val_main_c_46_apply, val_main_v141_apply, val_main_c_49_apply, val_main_v144_apply, val_main_v143_apply,
      val_main_c_50_apply, val_main_v147_apply, val_main_v138_apply, val_main_v137_apply, val_main_c_47_apply,
      val_main_v146_apply, val_main_c_51_apply, val_main_v150_apply, val_main_v149_apply, val_main_c_52_apply,
      val_main_v153_apply, val_main_v140_apply, val_main_v139_apply, val_main_c_48_apply, val_main_v152_apply,
      val_main_c_53_apply, val_main_v156_apply, val_main_v155_apply, val_main_c_54_apply, val_main_v167_apply,
      val_main_v166_apply, val_main_v165_apply, val_main_v134_apply, val_main_v133_apply, val_main_cst_45_apply,
      val_main_v46_apply, val_main_v45_apply, val_main_cst_13_apply, val_main_v4_apply, val_main_cst_apply,
      val_main_call5_v1_apply, val_main_call5_v0_apply, val_main_cst_58_apply, baseA0, baseA1, baseA2, fracA0,
      fracA1, fracA2]
  exact corner_w 2 (pt x2 x0 p) 0#32 1#32 0#32 rfl rfl rfl _ _ _ rfl rfl rfl

/-- Corner 3 (dz, dy, dx) = (0, 1, 1): the index column at row p. -/
theorem idxA3 (x0 x2 : (⟨S1x2000000x3, .f32⟩ : BufTy).Contents (Elt Ideal)) (p : Fin 2000000) :
    val_main_v215 (F := Ideal) x0 x2 (ix2 p 0) = cidx 3 (pt x2 x0 p) := by
  have hrow : idx_main_v215 (ix2 p (0 : Fin 1)) = ix1 p := funext fun a => match a with | ⟨0, _⟩ => rfl
  rw [val_main_v215_apply, hrow]
  simp only [val_main_v214_apply, val_main_v211_apply, val_main_v205_apply, val_main_v198_apply,
      val_main_v195_apply, val_main_v192_apply, val_main_v189_apply, val_main_v186_apply, val_main_v183_apply,
      val_main_v177_apply, val_main_v176_apply, val_main_c_61_apply, val_main_v182_apply, val_main_c_64_apply,
      val_main_v185_apply, val_main_v184_apply, val_main_c_65_apply, val_main_v188_apply, val_main_v179_apply,
      val_main_v178_apply, val_main_c_62_apply, val_main_v187_apply, val_main_c_66_apply, val_main_v191_apply,
      val_main_v190_apply, val_main_c_67_apply, val_main_v194_apply, val_main_v181_apply, val_main_v180_apply,
      val_main_c_63_apply, val_main_v193_apply, val_main_c_68_apply, val_main_v197_apply, val_main_v196_apply,
      val_main_c_69_apply, val_main_v204_apply, val_main_v203_apply, val_main_v201_apply, val_main_v200_apply,
      val_main_v199_apply, val_main_c_70_apply, val_main_v202_apply, val_main_c_71_apply, val_main_call6_v1_apply,
      val_main_call6_v0_apply, val_main_c_72_apply, val_main_v210_apply, val_main_c_74_apply, val_main_v213_apply,
      val_main_v212_apply, val_main_c_75_apply, baseA0, baseA1, baseA2]
  exact corner_idx 3 (pt x2 x0 p) 1#32 1#32 0#32 rfl rfl rfl

/-- Corner 3: the weight at row p. -/
theorem wA3 (x0 x2 : (⟨S1x2000000x3, .f32⟩ : BufTy).Contents (Elt Ideal)) (p : Fin 2000000) :
    val_main_v209 (F := Ideal) x0 x2 (ix1 p) = cw 3 (pt x2 x0 p) := by
  simp only [val_main_v209_apply, val_main_v198_apply, val_main_v195_apply, val_main_v192_apply,
      val_main_v189_apply, val_main_v186_apply, val_main_v183_apply, val_main_v177_apply, val_main_v176_apply,
      val_main_c_61_apply, val_main_v182_apply, val_main_c_64_apply, val_main_v185_apply, val_main_v184_apply,
      val_main_c_65_apply, val_main_v188_apply, val_main_v179_apply, val_main_v178_apply, val_main_c_62_apply,
      val_main_v187_apply, val_main_c_66_apply, val_main_v191_apply, val_main_v190_apply, val_main_c_67_apply,
      val_main_v194_apply, val_main_v181_apply, val_main_v180_apply, val_main_c_63_apply, val_main_v193_apply,
      val_main_c_68_apply, val_main_v197_apply, val_main_v196_apply, val_main_c_69_apply, val_main_v208_apply,
      val_main_v207_apply, val_main_v206_apply, val_main_v46_apply, val_main_v45_apply, val_main_cst_13_apply,
      val_main_v4_apply, val_main_cst_apply, val_main_call7_v1_apply, val_main_call7_v0_apply,
      val_main_cst_73_apply, baseA0, baseA1, baseA2, fracA0, fracA1, fracA2]
  exact corner_w 3 (pt x2 x0 p) 1#32 1#32 0#32 rfl rfl rfl _ _ _ rfl rfl rfl

/-- Corner 4 (dz, dy, dx) = (1, 0, 0): the index column at row p. -/
theorem idxA4 (x0 x2 : (⟨S1x2000000x3, .f32⟩ : BufTy).Contents (Elt Ideal)) (p : Fin 2000000) :
    val_main_v260 (F := Ideal) x0 x2 (ix2 p 0) = cidx 4 (pt x2 x0 p) := by
  have hrow : idx_main_v260 (ix2 p (0 : Fin 1)) = ix1 p := funext fun a => match a with | ⟨0, _⟩ => rfl
  rw [val_main_v260_apply, hrow]
  simp only [val_main_v259_apply, val_main_v256_apply, val_main_v250_apply, val_main_v243_apply,
      val_main_v240_apply, val_main_v237_apply, val_main_v234_apply, val_main_v231_apply, val_main_v228_apply,
      val_main_v222_apply, val_main_v221_apply, val_main_c_78_apply, val_main_v227_apply, val_main_c_81_apply,
      val_main_v230_apply, val_main_v229_apply, val_main_c_82_apply, val_main_v233_apply, val_main_v224_apply,
      val_main_v223_apply, val_main_c_79_apply, val_main_v232_apply, val_main_c_83_apply, val_main_v236_apply,
      val_main_v235_apply, val_main_c_84_apply, val_main_v239_apply, val_main_v226_apply, val_main_v225_apply,
      val_main_c_80_apply, val_main_v238_apply, val_main_c_85_apply, val_main_v242_apply, val_main_v241_apply,
      val_main_c_86_apply, val_main_v249_apply, val_main_v248_apply, val_main_v246_apply, val_main_v245_apply,
      val_main_v244_apply, val_main_c_87_apply, val_main_v247_apply, val_main_c_88_apply, val_main_call8_v1_apply,
      val_main_call8_v0_apply, val_main_c_89_apply, val_main_v255_apply, val_main_c_91_apply, val_main_v258_apply,
      val_main_v257_apply, val_main_c_92_apply, baseA0, baseA1, baseA2]
  exact corner_idx 4 (pt x2 x0 p) 0#32 0#32 1#32 rfl rfl rfl

/-- Corner 4: the weight at row p. -/
theorem wA4 (x0 x2 : (⟨S1x2000000x3, .f32⟩ : BufTy).Contents (Elt Ideal)) (p : Fin 2000000) :
    val_main_v254 (F := Ideal) x0 x2 (ix1 p) = cw 4 (pt x2 x0 p) := by
  simp only [val_main_v254_apply, val_main_v243_apply, val_main_v240_apply, val_main_v237_apply,
      val_main_v234_apply, val_main_v231_apply, val_main_v228_apply, val_main_v222_apply, val_main_v221_apply,
      val_main_c_78_apply, val_main_v227_apply, val_main_c_81_apply, val_main_v230_apply, val_main_v229_apply,
      val_main_c_82_apply, val_main_v233_apply, val_main_v224_apply, val_main_v223_apply, val_main_c_79_apply,
      val_main_v232_apply, val_main_c_83_apply, val_main_v236_apply, val_main_v235_apply, val_main_c_84_apply,
      val_main_v239_apply, val_main_v226_apply, val_main_v225_apply, val_main_c_80_apply, val_main_v238_apply,
      val_main_c_85_apply, val_main_v242_apply, val_main_v241_apply, val_main_c_86_apply, val_main_v253_apply,
      val_main_v252_apply, val_main_v251_apply, val_main_v220_apply, val_main_v219_apply, val_main_cst_77_apply,
      val_main_v218_apply, val_main_v217_apply, val_main_cst_76_apply, val_main_v4_apply, val_main_cst_apply,
      val_main_call9_v1_apply, val_main_call9_v0_apply, val_main_cst_90_apply, baseA0, baseA1, baseA2, fracA0,
      fracA1, fracA2]
  exact corner_w 4 (pt x2 x0 p) 0#32 0#32 1#32 rfl rfl rfl _ _ _ rfl rfl rfl

/-- Corner 5 (dz, dy, dx) = (1, 0, 1): the index column at row p. -/
theorem idxA5 (x0 x2 : (⟨S1x2000000x3, .f32⟩ : BufTy).Contents (Elt Ideal)) (p : Fin 2000000) :
    val_main_v301 (F := Ideal) x0 x2 (ix2 p 0) = cidx 5 (pt x2 x0 p) := by
  have hrow : idx_main_v301 (ix2 p (0 : Fin 1)) = ix1 p := funext fun a => match a with | ⟨0, _⟩ => rfl
  rw [val_main_v301_apply, hrow]
  simp only [val_main_v300_apply, val_main_v297_apply, val_main_v291_apply, val_main_v284_apply,
      val_main_v281_apply, val_main_v278_apply, val_main_v275_apply, val_main_v272_apply, val_main_v269_apply,
      val_main_v263_apply, val_main_v262_apply, val_main_c_93_apply, val_main_v268_apply, val_main_c_96_apply,
      val_main_v271_apply, val_main_v270_apply, val_main_c_97_apply, val_main_v274_apply, val_main_v265_apply,
      val_main_v264_apply, val_main_c_94_apply, val_main_v273_apply, val_main_c_98_apply, val_main_v277_apply,
      val_main_v276_apply, val_main_c_99_apply, val_main_v280_apply, val_main_v267_apply, val_main_v266_apply,
      val_main_c_95_apply, val_main_v279_apply, val_main_c_100_apply, val_main_v283_apply, val_main_v282_apply,
      val_main_c_101_apply, val_main_v290_apply, val_main_v289_apply, val_main_v287_apply, val_main_v286_apply,
      val_main_v285_apply, val_main_c_102_apply, val_main_v288_apply, val_main_c_103_apply,
      val_main_call10_v1_apply, val_main_call10_v0_apply, val_main_c_104_apply, val_main_v296_apply,
      val_main_c_106_apply, val_main_v299_apply, val_main_v298_apply, val_main_c_107_apply, baseA0, baseA1,
      baseA2]
  exact corner_idx 5 (pt x2 x0 p) 1#32 0#32 1#32 rfl rfl rfl

/-- Corner 5: the weight at row p. -/
theorem wA5 (x0 x2 : (⟨S1x2000000x3, .f32⟩ : BufTy).Contents (Elt Ideal)) (p : Fin 2000000) :
    val_main_v295 (F := Ideal) x0 x2 (ix1 p) = cw 5 (pt x2 x0 p) := by
  simp only [val_main_v295_apply, val_main_v284_apply, val_main_v281_apply, val_main_v278_apply,
      val_main_v275_apply, val_main_v272_apply, val_main_v269_apply, val_main_v263_apply, val_main_v262_apply,
      val_main_c_93_apply, val_main_v268_apply, val_main_c_96_apply, val_main_v271_apply, val_main_v270_apply,
      val_main_c_97_apply, val_main_v274_apply, val_main_v265_apply, val_main_v264_apply, val_main_c_94_apply,
      val_main_v273_apply, val_main_c_98_apply, val_main_v277_apply, val_main_v276_apply, val_main_c_99_apply,
      val_main_v280_apply, val_main_v267_apply, val_main_v266_apply, val_main_c_95_apply, val_main_v279_apply,
      val_main_c_100_apply, val_main_v283_apply, val_main_v282_apply, val_main_c_101_apply, val_main_v294_apply,
      val_main_v293_apply, val_main_v292_apply, val_main_v218_apply, val_main_v217_apply, val_main_cst_76_apply,
      val_main_v4_apply, val_main_cst_apply, val_main_call11_v1_apply, val_main_call11_v0_apply,
      val_main_cst_105_apply, baseA0, baseA1, baseA2, fracA0, fracA1, fracA2]
  exact corner_w 5 (pt x2 x0 p) 1#32 0#32 1#32 rfl rfl rfl _ _ _ rfl rfl rfl

/-- Corner 6 (dz, dy, dx) = (1, 1, 0): the index column at row p. -/
theorem idxA6 (x0 x2 : (⟨S1x2000000x3, .f32⟩ : BufTy).Contents (Elt Ideal)) (p : Fin 2000000) :
    val_main_v344 (F := Ideal) x0 x2 (ix2 p 0) = cidx 6 (pt x2 x0 p) := by
  have hrow : idx_main_v344 (ix2 p (0 : Fin 1)) = ix1 p := funext fun a => match a with | ⟨0, _⟩ => rfl
  rw [val_main_v344_apply, hrow]
  simp only [val_main_v343_apply, val_main_v340_apply, val_main_v334_apply, val_main_v327_apply,
      val_main_v324_apply, val_main_v321_apply, val_main_v318_apply, val_main_v315_apply, val_main_v312_apply,
      val_main_v306_apply, val_main_v305_apply, val_main_c_109_apply, val_main_v311_apply, val_main_c_112_apply,
      val_main_v314_apply, val_main_v313_apply, val_main_c_113_apply, val_main_v317_apply, val_main_v308_apply,
      val_main_v307_apply, val_main_c_110_apply, val_main_v316_apply, val_main_c_114_apply, val_main_v320_apply,
      val_main_v319_apply, val_main_c_115_apply, val_main_v323_apply, val_main_v310_apply, val_main_v309_apply,
      val_main_c_111_apply, val_main_v322_apply, val_main_c_116_apply, val_main_v326_apply, val_main_v325_apply,
      val_main_c_117_apply, val_main_v333_apply, val_main_v332_apply, val_main_v330_apply, val_main_v329_apply,
      val_main_v328_apply, val_main_c_118_apply, val_main_v331_apply, val_main_c_119_apply,
      val_main_call12_v1_apply, val_main_call12_v0_apply, val_main_c_120_apply, val_main_v339_apply,
      val_main_c_122_apply, val_main_v342_apply, val_main_v341_apply, val_main_c_123_apply, baseA0, baseA1,
      baseA2]
  exact corner_idx 6 (pt x2 x0 p) 0#32 1#32 1#32 rfl rfl rfl

/-- Corner 6: the weight at row p. -/
theorem wA6 (x0 x2 : (⟨S1x2000000x3, .f32⟩ : BufTy).Contents (Elt Ideal)) (p : Fin 2000000) :
    val_main_v338 (F := Ideal) x0 x2 (ix1 p) = cw 6 (pt x2 x0 p) := by
  simp only [val_main_v338_apply, val_main_v327_apply, val_main_v324_apply, val_main_v321_apply,
      val_main_v318_apply, val_main_v315_apply, val_main_v312_apply, val_main_v306_apply, val_main_v305_apply,
      val_main_c_109_apply, val_main_v311_apply, val_main_c_112_apply, val_main_v314_apply, val_main_v313_apply,
      val_main_c_113_apply, val_main_v317_apply, val_main_v308_apply, val_main_v307_apply, val_main_c_110_apply,
      val_main_v316_apply, val_main_c_114_apply, val_main_v320_apply, val_main_v319_apply, val_main_c_115_apply,
      val_main_v323_apply, val_main_v310_apply, val_main_v309_apply, val_main_c_111_apply, val_main_v322_apply,
      val_main_c_116_apply, val_main_v326_apply, val_main_v325_apply, val_main_c_117_apply, val_main_v337_apply,
      val_main_v336_apply, val_main_v335_apply, val_main_v304_apply, val_main_v303_apply, val_main_cst_108_apply,
      val_main_v4_apply, val_main_cst_apply, val_main_call13_v1_apply, val_main_call13_v0_apply,
      val_main_cst_121_apply, baseA0, baseA1, baseA2, fracA0, fracA1, fracA2]
  exact corner_w 6 (pt x2 x0 p) 0#32 1#32 1#32 rfl rfl rfl _ _ _ rfl rfl rfl

/-- Corner 7 (dz, dy, dx) = (1, 1, 1): the index column at row p. -/
theorem idxA7 (x0 x2 : (⟨S1x2000000x3, .f32⟩ : BufTy).Contents (Elt Ideal)) (p : Fin 2000000) :
    val_main_v385 (F := Ideal) x0 x2 (ix2 p 0) = cidx 7 (pt x2 x0 p) := by
  have hrow : idx_main_v385 (ix2 p (0 : Fin 1)) = ix1 p := funext fun a => match a with | ⟨0, _⟩ => rfl
  rw [val_main_v385_apply, hrow]
  simp only [val_main_v384_apply, val_main_v381_apply, val_main_v375_apply, val_main_v368_apply,
      val_main_v365_apply, val_main_v362_apply, val_main_v359_apply, val_main_v356_apply, val_main_v353_apply,
      val_main_v347_apply, val_main_v346_apply, val_main_c_124_apply, val_main_v352_apply, val_main_c_127_apply,
      val_main_v355_apply, val_main_v354_apply, val_main_c_128_apply, val_main_v358_apply, val_main_v349_apply,
      val_main_v348_apply, val_main_c_125_apply, val_main_v357_apply, val_main_c_129_apply, val_main_v361_apply,
      val_main_v360_apply, val_main_c_130_apply, val_main_v364_apply, val_main_v351_apply, val_main_v350_apply,
      val_main_c_126_apply, val_main_v363_apply, val_main_c_131_apply, val_main_v367_apply, val_main_v366_apply,
      val_main_c_132_apply, val_main_v374_apply, val_main_v373_apply, val_main_v371_apply, val_main_v370_apply,
      val_main_v369_apply, val_main_c_133_apply, val_main_v372_apply, val_main_c_134_apply,
      val_main_call14_v1_apply, val_main_call14_v0_apply, val_main_c_135_apply, val_main_v380_apply,
      val_main_c_137_apply, val_main_v383_apply, val_main_v382_apply, val_main_c_138_apply, baseA0, baseA1,
      baseA2]
  exact corner_idx 7 (pt x2 x0 p) 1#32 1#32 1#32 rfl rfl rfl

/-- Corner 7: the weight at row p. -/
theorem wA7 (x0 x2 : (⟨S1x2000000x3, .f32⟩ : BufTy).Contents (Elt Ideal)) (p : Fin 2000000) :
    val_main_v379 (F := Ideal) x0 x2 (ix1 p) = cw 7 (pt x2 x0 p) := by
  simp only [val_main_v379_apply, val_main_v368_apply, val_main_v365_apply, val_main_v362_apply,
      val_main_v359_apply, val_main_v356_apply, val_main_v353_apply, val_main_v347_apply, val_main_v346_apply,
      val_main_c_124_apply, val_main_v352_apply, val_main_c_127_apply, val_main_v355_apply, val_main_v354_apply,
      val_main_c_128_apply, val_main_v358_apply, val_main_v349_apply, val_main_v348_apply, val_main_c_125_apply,
      val_main_v357_apply, val_main_c_129_apply, val_main_v361_apply, val_main_v360_apply, val_main_c_130_apply,
      val_main_v364_apply, val_main_v351_apply, val_main_v350_apply, val_main_c_126_apply, val_main_v363_apply,
      val_main_c_131_apply, val_main_v367_apply, val_main_v366_apply, val_main_c_132_apply, val_main_v378_apply,
      val_main_v377_apply, val_main_v376_apply, val_main_v4_apply, val_main_cst_apply, val_main_call15_v1_apply,
      val_main_call15_v0_apply, val_main_cst_136_apply, baseA0, baseA1, baseA2, fracA0, fracA1, fracA2]
  exact corner_w 7 (pt x2 x0 p) 1#32 1#32 1#32 rfl rfl rfl _ _ _ rfl rfl rfl

end Cert.RefRead

end
-- ==== Proof.RefCornersB.lean ====
/-
  The reference's eight corner indices and weights of one point set, at one point: each corner's scattered index
  column and update vector, read at row p, are the specification's corner index and corner weight of the point.
-/
import proofs.«106138_j14714557956152_2_alg».proof.Proof.RefAxis
import proofs.«106138_j14714557956152_2_alg».proof.Proof.RefScalar

noncomputable section

namespace Cert.RefRead

open Cert.ReferenceIdeal Cert.ReferenceIdeal.Gen Cert.ReferenceIdeal.ReadP Idealize.ShloMosaic Idealize.ShloMosaic.ValueIdx Cert.Spec

/-- Corner 0 (dz, dy, dx) = (0, 0, 0): the index column at row p. -/
theorem idxB0 (x1 x2 : (⟨S1x2000000x3, .f32⟩ : BufTy).Contents (Elt Ideal)) (p : Fin 2000000) :
    val_main_v473 (F := Ideal) x1 x2 (ix2 p 0) = cidx 0 (pt x2 x1 p) := by
  have hrow : idx_main_v473 (ix2 p (0 : Fin 1)) = ix1 p := funext fun a => match a with | ⟨0, _⟩ => rfl
  rw [val_main_v473_apply, hrow]
  simp only [val_main_v472_apply, val_main_v469_apply, val_main_v463_apply, val_main_v456_apply,
      val_main_v453_apply, val_main_v450_apply, val_main_v447_apply, val_main_v444_apply, val_main_v441_apply,
      val_main_v435_apply, val_main_v434_apply, val_main_c_155_apply, val_main_v440_apply, val_main_c_158_apply,
      val_main_v443_apply, val_main_v442_apply, val_main_c_159_apply, val_main_v446_apply, val_main_v437_apply,
      val_main_v436_apply, val_main_c_156_apply, val_main_v445_apply, val_main_c_160_apply, val_main_v449_apply,
      val_main_v448_apply, val_main_c_161_apply, val_main_v452_apply, val_main_v439_apply, val_main_v438_apply,
      val_main_c_157_apply, val_main_v451_apply, val_main_c_162_apply, val_main_v455_apply, val_main_v454_apply,
      val_main_c_163_apply, val_main_v462_apply, val_main_v461_apply, val_main_v459_apply, val_main_v458_apply,
      val_main_v457_apply, val_main_c_164_apply, val_main_v460_apply, val_main_c_165_apply,
      val_main_call16_v1_apply, val_main_call16_v0_apply, val_main_c_166_apply, val_main_v468_apply,
      val_main_c_168_apply, val_main_v471_apply, val_main_v470_apply, val_main_c_169_apply, baseB0, baseB1,
      baseB2]
  exact corner_idx 0 (pt x2 x1 p) 0#32 0#32 0#32 rfl rfl rfl

/-- Corner 0: the weight at row p. -/
theorem wB0 (x1 x2 : (⟨S1x2000000x3, .f32⟩ : BufTy).Contents (Elt Ideal)) (p : Fin 2000000) :
    val_main_v467 (F := Ideal) x1 x2 (ix1 p) = cw 0 (pt x2 x1 p) := by
  simp only [val_main_v467_apply, val_main_v456_apply, val_main_v453_apply, val_main_v450_apply,
      val_main_v447_apply, val_main_v444_apply, val_main_v441_apply, val_main_v435_apply, val_main_v434_apply,
      val_main_c_155_apply, val_main_v440_apply, val_main_c_158_apply, val_main_v443_apply, val_main_v442_apply,
      val_main_c_159_apply, val_main_v446_apply, val_main_v437_apply, val_main_v436_apply, val_main_c_156_apply,
      val_main_v445_apply, val_main_c_160_apply, val_main_v449_apply, val_main_v448_apply, val_main_c_161_apply,
      val_main_v452_apply, val_main_v439_apply, val_main_v438_apply, val_main_c_157_apply, val_main_v451_apply,
      val_main_c_162_apply, val_main_v455_apply, val_main_v454_apply, val_main_c_163_apply, val_main_v466_apply,
      val_main_v465_apply, val_main_v464_apply, val_main_v433_apply, val_main_v432_apply, val_main_cst_154_apply,
      val_main_v431_apply, val_main_v430_apply, val_main_cst_153_apply, val_main_v429_apply, val_main_v428_apply,
      val_main_cst_152_apply, val_main_v4_apply, val_main_cst_apply, val_main_call17_v1_apply,
      val_main_call17_v0_apply, val_main_cst_167_apply, baseB0, baseB1, baseB2, fracB0, fracB1, fracB2]
  exact corner_w 0 (pt x2 x1 p) 0#32 0#32 0#32 rfl rfl rfl _ _ _ rfl rfl rfl

/-- Corner 1 (dz, dy, dx) = (0, 0, 1): the index column at row p. -/
theorem idxB1 (x1 x2 : (⟨S1x2000000x3, .f32⟩ : BufTy).Contents (Elt Ideal)) (p : Fin 2000000) :
    val_main_v514 (F := Ideal) x1 x2 (ix2 p 0) = cidx 1 (pt x2 x1 p) := by
  have hrow : idx_main_v514 (ix2 p (0 : Fin 1)) = ix1 p := funext fun a => match a with | ⟨0, _⟩ => rfl
  rw [val_main_v514_apply, hrow]
  simp only [val_main_v513_apply, val_main_v510_apply, val_main_v504_apply, val_main_v497_apply,
      val_main_v494_apply, val_main_v491_apply, val_main_v488_apply, val_main_v485_apply, val_main_v482_apply,
      val_main_v476_apply, val_main_v475_apply, val_main_c_170_apply, val_main_v481_apply, val_main_c_173_apply,
      val_main_v484_apply, val_main_v483_apply, val_main_c_174_apply, val_main_v487_apply, val_main_v478_apply,
      val_main_v477_apply, val_main_c_171_apply, val_main_v486_apply, val_main_c_175_apply, val_main_v490_apply,
      val_main_v489_apply, val_main_c_176_apply, val_main_v493_apply, val_main_v480_apply, val_main_v479_apply,
      val_main_c_172_apply, val_main_v492_apply, val_main_c_177_apply, val_main_v496_apply, val_main_v495_apply,
      val_main_c_178_apply, val_main_v503_apply, val_main_v502_apply, val_main_v500_apply, val_main_v499_apply,
      val_main_v498_apply, val_main_c_179_apply, val_main_v501_apply, val_main_c_180_apply,
      val_main_call18_v1_apply, val_main_call18_v0_apply, val_main_c_181_apply, val_main_v509_apply,
      val_main_c_183_apply, val_main_v512_apply, val_main_v511_apply, val_main_c_184_apply, baseB0, baseB1,
      baseB2]
  exact corner_idx 1 (pt x2 x1 p) 1#32 0#32 0#32 rfl rfl rfl

/-- Corner 1: the weight at row p. -/
theorem wB1 (x1 x2 : (⟨S1x2000000x3, .f32⟩ : BufTy).Contents (Elt Ideal)) (p : Fin 2000000) :
    val_main_v508 (F := Ideal) x1 x2 (ix1 p) = cw 1 (pt x2 x1 p) := by
  simp only [val_main_v508_apply, val_main_v497_apply, val_main_v494_apply, val_main_v491_apply,
      val_main_v488_apply, val_main_v485_apply, val_main_v482_apply, val_main_v476_apply, val_main_v475_apply,
      val_main_c_170_apply, val_main_v481_apply, val_main_c_173_apply, val_main_v484_apply, val_main_v483_apply,
      val_main_c_174_apply, val_main_v487_apply, val_main_v478_apply, val_main_v477_apply, val_main_c_171_apply,
      val_main_v486_apply, val_main_c_175_apply, val_main_v490_apply, val_main_v489_apply, val_main_c_176_apply,
      val_main_v493_apply, val_main_v480_apply, val_main_v479_apply, val_main_c_172_apply, val_main_v492_apply,
      val_main_c_177_apply, val_main_v496_apply, val_main_v495_apply, val_main_c_178_apply, val_main_v507_apply,
      val_main_v506_apply, val_main_v505_apply, val_main_v431_apply, val_main_v430_apply, val_main_cst_153_apply,
      val_main_v429_apply, val_main_v428_apply, val_main_cst_152_apply, val_main_v4_apply, val_main_cst_apply,
      val_main_call19_v1_apply, val_main_call19_v0_apply, val_main_cst_182_apply, baseB0, baseB1, baseB2, fracB0,
      fracB1, fracB2]
  exact corner_w 1 (pt x2 x1 p) 1#32 0#32 0#32 rfl rfl rfl _ _ _ rfl rfl rfl

/-- Corner 2 (dz, dy, dx) = (0, 1, 0): the index column at row p. -/
theorem idxB2 (x1 x2 : (⟨S1x2000000x3, .f32⟩ : BufTy).Contents (Elt Ideal)) (p : Fin 2000000) :
    val_main_v557 (F := Ideal) x1 x2 (ix2 p 0) = cidx 2 (pt x2 x1 p) := by
  have hrow : idx_main_v557 (ix2 p (0 : Fin 1)) = ix1 p := funext fun a => match a with | ⟨0, _⟩ => rfl
  rw [val_main_v557_apply, hrow]
  simp only [val_main_v556_apply, val_main_v553_apply, val_main_v547_apply, val_main_v540_apply,
      val_main_v537_apply, val_main_v534_apply, val_main_v531_apply, val_main_v528_apply, val_main_v525_apply,
      val_main_v519_apply, val_main_v518_apply, val_main_c_186_apply, val_main_v524_apply, val_main_c_189_apply,
      val_main_v527_apply, val_main_v526_apply, val_main_c_190_apply, val_main_v530_apply, val_main_v521_apply,
      val_main_v520_apply, val_main_c_187_apply, val_main_v529_apply, val_main_c_191_apply, val_main_v533_apply,
      val_main_v532_apply, val_main_c_192_apply, val_main_v536_apply, val_main_v523_apply, val_main_v522_apply,
      val_main_c_188_apply, val_main_v535_apply, val_main_c_193_apply, val_main_v539_apply, val_main_v538_apply,
      val_main_c_194_apply, val_main_v546_apply, val_main_v545_apply, val_main_v543_apply, val_main_v542_apply,
      val_main_v541_apply, val_main_c_195_apply, val_main_v544_apply, val_main_c_196_apply,
      val_main_call20_v1_apply, val_main_call20_v0_apply, val_main_c_197_apply, val_main_v552_apply,
      val_main_c_199_apply, val_main_v555_apply, val_main_v554_apply, val_main_c_200_apply, baseB0, baseB1,
      baseB2]
  exact corner_idx 2 (pt x2 x1 p) 0#32 1#32 0#32 rfl rfl rfl

/-- Corner 2: the weight at row p. -/
theorem wB2 (x1 x2 : (⟨S1x2000000x3, .f32⟩ : BufTy).Contents (Elt Ideal)) (p : Fin 2000000) :
    val_main_v551 (F := Ideal) x1 x2 (ix1 p) = cw 2 (pt x2 x1 p) := by
  simp only [val_main_v551_apply, val_main_v540_apply, val_main_v537_apply, val_main_v534_apply,
      val_main_v531_apply, val_main_v528_apply, val_main_v525_apply, val_main_v519_apply, val_main_v518_apply,
      val_main_c_186_apply, val_main_v524_apply, val_main_c_189_apply, val_main_v527_apply, val_main_v526_apply,
      val_main_c_190_apply, val_main_v530_apply, val_main_v521_apply, val_main_v520_apply, val_main_c_187_apply,
      val_main_v529_apply, val_main_c_191_apply, val_main_v533_apply, val_main_v532_apply, val_main_c_192_apply,
      val_main_v536_apply, val_main_v523_apply, val_main_v522_apply, val_main_c_188_apply, val_main_v535_apply,
      val_main_c_193_apply, val_main_v539_apply, val_main_v538_apply, val_main_c_194_apply, val_main_v550_apply,
      val_main_v549_apply, val_main_v548_apply, val_main_v517_apply, val_main_v516_apply, val_main_cst_185_apply,
      val_main_v429_apply, val_main_v428_apply, val_main_cst_152_apply, val_main_v4_apply, val_main_cst_apply,
      val_main_call21_v1_apply, val_main_call21_v0_apply, val_main_cst_198_apply, baseB0, baseB1, baseB2, fracB0,
      fracB1, fracB2]
  exact corner_w 2 (pt x2 x1 p) 0#32 1#32 0#32 rfl rfl rfl _ _ _ rfl rfl rfl

/-- Corner 3 (dz, dy, dx) = (0, 1, 1): the index column at row p. -/
theorem idxB3 (x1 x2 : (⟨S1x2000000x3, .f32⟩ : BufTy).Contents (Elt Ideal)) (p : Fin 2000000) :
    val_main_v598 (F := Ideal) x1 x2 (ix2 p 0) = cidx 3 (pt x2 x1 p) := by
  have hrow : idx_main_v598 (ix2 p (0 : Fin 1)) = ix1 p := funext fun a => match a with | ⟨0, _⟩ => rfl
  rw [val_main_v598_apply, hrow]
  simp only [val_main_v597_apply, val_main_v594_apply, val_main_v588_apply, val_main_v581_apply,
      val_main_v578_apply, val_main_v575_apply, val_main_v572_apply, val_main_v569_apply, val_main_v566_apply,
      val_main_v560_apply, val_main_v559_apply, val_main_c_201_apply, val_main_v565_apply, val_main_c_204_apply,
      val_main_v568_apply, val_main_v567_apply, val_main_c_205_apply, val_main_v571_apply, val_main_v562_apply,
      val_main_v561_apply, val_main_c_202_apply, val_main_v570_apply, val_main_c_206_apply, val_main_v574_apply,
      val_main_v573_apply, val_main_c_207_apply, val_main_v577_apply, val_main_v564_apply, val_main_v563_apply,
      val_main_c_203_apply, val_main_v576_apply, val_main_c_208_apply, val_main_v580_apply, val_main_v579_apply,
      val_main_c_209_apply, val_main_v587_apply, val_main_v586_apply, val_main_v584_apply, val_main_v583_apply,
      val_main_v582_apply, val_main_c_210_apply, val_main_v585_apply, val_main_c_211_apply,
      val_main_call22_v1_apply, val_main_call22_v0_apply, val_main_c_212_apply, val_main_v593_apply,
      val_main_c_214_apply, val_main_v596_apply, val_main_v595_apply, val_main_c_215_apply, baseB0, baseB1,
      baseB2]
  exact corner_idx 3 (pt x2 x1 p) 1#32 1#32 0#32 rfl rfl rfl

/-- Corner 3: the weight at row p. -/
theorem wB3 (x1 x2 : (⟨S1x2000000x3, .f32⟩ : BufTy).Contents (Elt Ideal)) (p : Fin 2000000) :
    val_main_v592 (F := Ideal) x1 x2 (ix1 p) = cw 3 (pt x2 x1 p) := by
  simp only [val_main_v592_apply, val_main_v581_apply, val_main_v578_apply, val_main_v575_apply,
      val_main_v572_apply, val_main_v569_apply, val_main_v566_apply, val_main_v560_apply, val_main_v559_apply,
      val_main_c_201_apply, val_main_v565_apply, val_main_c_204_apply, val_main_v568_apply, val_main_v567_apply,
      val_main_c_205_apply, val_main_v571_apply, val_main_v562_apply, val_main_v561_apply, val_main_c_202_apply,
      val_main_v570_apply, val_main_c_206_apply, val_main_v574_apply, val_main_v573_apply, val_main_c_207_apply,
      val_main_v577_apply, val_main_v564_apply, val_main_v563_apply, val_main_c_203_apply, val_main_v576_apply,
      val_main_c_208_apply, val_main_v580_apply, val_main_v579_apply, val_main_c_209_apply, val_main_v591_apply,
      val_main_v590_apply, val_main_v589_apply, val_main_v429_apply, val_main_v428_apply, val_main_cst_152_apply,
      val_main_v4_apply, val_main_cst_apply, val_main_call23_v1_apply, val_main_call23_v0_apply,
      val_main_cst_213_apply, baseB0, baseB1, baseB2, fracB0, fracB1, fracB2]
  exact corner_w 3 (pt x2 x1 p) 1#32 1#32 0#32 rfl rfl rfl _ _ _ rfl rfl rfl

/-- Corner 4 (dz, dy, dx) = (1, 0, 0): the index column at row p. -/
theorem idxB4 (x1 x2 : (⟨S1x2000000x3, .f32⟩ : BufTy).Contents (Elt Ideal)) (p : Fin 2000000) :
    val_main_v643 (F := Ideal) x1 x2 (ix2 p 0) = cidx 4 (pt x2 x1 p) := by
  have hrow : idx_main_v643 (ix2 p (0 : Fin 1)) = ix1 p := funext fun a => match a with | ⟨0, _⟩ => rfl
  rw [val_main_v643_apply, hrow]
  simp only [val_main_v642_apply, val_main_v639_apply, val_main_v633_apply, val_main_v626_apply,
      val_main_v623_apply, val_main_v620_apply, val_main_v617_apply, val_main_v614_apply, val_main_v611_apply,
      val_main_v605_apply, val_main_v604_apply, val_main_c_218_apply, val_main_v610_apply, val_main_c_221_apply,
      val_main_v613_apply, val_main_v612_apply, val_main_c_222_apply, val_main_v616_apply, val_main_v607_apply,
      val_main_v606_apply, val_main_c_219_apply, val_main_v615_apply, val_main_c_223_apply, val_main_v619_apply,
      val_main_v618_apply, val_main_c_224_apply, val_main_v622_apply, val_main_v609_apply, val_main_v608_apply,
      val_main_c_220_apply, val_main_v621_apply, val_main_c_225_apply, val_main_v625_apply, val_main_v624_apply,
      val_main_c_226_apply, val_main_v632_apply, val_main_v631_apply, val_main_v629_apply, val_main_v628_apply,
      val_main_v627_apply, val_main_c_227_apply, val_main_v630_apply, val_main_c_228_apply,
      val_main_call24_v1_apply, val_main_call24_v0_apply, val_main_c_229_apply, val_main_v638_apply,
      val_main_c_231_apply, val_main_v641_apply, val_main_v640_apply, val_main_c_232_apply, baseB0, baseB1,
      baseB2]
  exact corner_idx 4 (pt x2 x1 p) 0#32 0#32 1#32 rfl rfl rfl

/-- Corner 4: the weight at row p. -/
theorem wB4 (x1 x2 : (⟨S1x2000000x3, .f32⟩ : BufTy).Contents (Elt Ideal)) (p : Fin 2000000) :
    val_main_v637 (F := Ideal) x1 x2 (ix1 p) = cw 4 (pt x2 x1 p) := by
  simp only [val_main_v637_apply, val_main_v626_apply, val_main_v623_apply, val_main_v620_apply,
      val_main_v617_apply, val_main_v614_apply, val_main_v611_apply, val_main_v605_apply, val_main_v604_apply,
      val_main_c_218_apply, val_main_v610_apply, val_main_c_221_apply, val_main_v613_apply, val_main_v612_apply,
      val_main_c_222_apply, val_main_v616_apply, val_main_v607_apply, val_main_v606_apply, val_main_c_219_apply,
      val_main_v615_apply, val_main_c_223_apply, val_main_v619_apply, val_main_v618_apply, val_main_c_224_apply,
      val_main_v622_apply, val_main_v609_apply, val_main_v608_apply, val_main_c_220_apply, val_main_v621_apply,
      val_main_c_225_apply, val_main_v625_apply, val_main_v624_apply, val_main_c_226_apply, val_main_v636_apply,
      val_main_v635_apply, val_main_v634_apply, val_main_v603_apply, val_main_v602_apply, val_main_cst_217_apply,
      val_main_v601_apply, val_main_v600_apply, val_main_cst_216_apply, val_main_v4_apply, val_main_cst_apply,
      val_main_call25_v1_apply, val_main_call25_v0_apply, val_main_cst_230_apply, baseB0, baseB1, baseB2, fracB0,
      fracB1, fracB2]
  exact corner_w 4 (pt x2 x1 p) 0#32 0#32 1#32 rfl rfl rfl _ _ _ rfl rfl rfl

/-- Corner 5 (dz, dy, dx) = (1, 0, 1): the index column at row p. -/
theorem idxB5 (x1 x2 : (⟨S1x2000000x3, .f32⟩ : BufTy).Contents (Elt Ideal)) (p : Fin 2000000) :
    val_main_v684 (F := Ideal) x1 x2 (ix2 p 0) = cidx 5 (pt x2 x1 p) := by
  have hrow : idx_main_v684 (ix2 p (0 : Fin 1)) = ix1 p := funext fun a => match a with | ⟨0, _⟩ => rfl
  rw [val_main_v684_apply, hrow]
  simp only [val_main_v683_apply, val_main_v680_apply, val_main_v674_apply, val_main_v667_apply,
      val_main_v664_apply, val_main_v661_apply, val_main_v658_apply, val_main_v655_apply, val_main_v652_apply,
      val_main_v646_apply, val_main_v645_apply, val_main_c_233_apply, val_main_v651_apply, val_main_c_236_apply,
      val_main_v654_apply, val_main_v653_apply, val_main_c_237_apply, val_main_v657_apply, val_main_v648_apply,
      val_main_v647_apply, val_main_c_234_apply, val_main_v656_apply, val_main_c_238_apply, val_main_v660_apply,
      val_main_v659_apply, val_main_c_239_apply, val_main_v663_apply, val_main_v650_apply, val_main_v649_apply,
      val_main_c_235_apply, val_main_v662_apply, val_main_c_240_apply, val_main_v666_apply, val_main_v665_apply,
      val_main_c_241_apply, val_main_v673_apply, val_main_v672_apply, val_main_v670_apply, val_main_v669_apply,
      val_main_v668_apply, val_main_c_242_apply, val_main_v671_apply, val_main_c_243_apply,
      val_main_call26_v1_apply, val_main_call26_v0_apply, val_main_c_244_apply, val_main_v679_apply,
      val_main_c_246_apply, val_main_v682_apply, val_main_v681_apply, val_main_c_247_apply, baseB0, baseB1,
      baseB2]
  exact corner_idx 5 (pt x2 x1 p) 1#32 0#32 1#32 rfl rfl rfl

/-- Corner 5: the weight at row p. -/
theorem wB5 (x1 x2 : (⟨S1x2000000x3, .f32⟩ : BufTy).Contents (Elt Ideal)) (p : Fin 2000000) :
    val_main_v678 (F := Ideal) x1 x2 (ix1 p) = cw 5 (pt x2 x1 p) := by
  simp only [val_main_v678_apply, val_main_v667_apply, val_main_v664_apply, val_main_v661_apply,
      val_main_v658_apply, val_main_v655_apply, val_main_v652_apply, val_main_v646_apply, val_main_v645_apply,
      val_main_c_233_apply, val_main_v651_apply, val_main_c_236_apply, val_main_v654_apply, val_main_v653_apply,
      val_main_c_237_apply, val_main_v657_apply, val_main_v648_apply, val_main_v647_apply, val_main_c_234_apply,
      val_main_v656_apply, val_main_c_238_apply, val_main_v660_apply, val_main_v659_apply, val_main_c_239_apply,
      val_main_v663_apply, val_main_v650_apply, val_main_v649_apply, val_main_c_235_apply, val_main_v662_apply,
      val_main_c_240_apply, val_main_v666_apply, val_main_v665_apply, val_main_c_241_apply, val_main_v677_apply,
      val_main_v676_apply, val_main_v675_apply, val_main_v601_apply, val_main_v600_apply, val_main_cst_216_apply,
      val_main_v4_apply, val_main_cst_apply, val_main_call27_v1_apply, val_main_call27_v0_apply,
      val_main_cst_245_apply, baseB0, baseB1, baseB2, fracB0, fracB1, fracB2]
  exact corner_w 5 (pt x2 x1 p) 1#32 0#32 1#32 rfl rfl rfl _ _ _ rfl rfl rfl

/-- Corner 6 (dz, dy, dx) = (1, 1, 0): the index column at row p. -/
theorem idxB6 (x1 x2 : (⟨S1x2000000x3, .f32⟩ : BufTy).Contents (Elt Ideal)) (p : Fin 2000000) :
    val_main_v727 (F := Ideal) x1 x2 (ix2 p 0) = cidx 6 (pt x2 x1 p) := by
  have hrow : idx_main_v727 (ix2 p (0 : Fin 1)) = ix1 p := funext fun a => match a with | ⟨0, _⟩ => rfl
  rw [val_main_v727_apply, hrow]
  simp only [val_main_v726_apply, val_main_v723_apply, val_main_v717_apply, val_main_v710_apply,
      val_main_v707_apply, val_main_v704_apply, val_main_v701_apply, val_main_v698_apply, val_main_v695_apply,
      val_main_v689_apply, val_main_v688_apply, val_main_c_249_apply, val_main_v694_apply, val_main_c_252_apply,
      val_main_v697_apply, val_main_v696_apply, val_main_c_253_apply, val_main_v700_apply, val_main_v691_apply,
      val_main_v690_apply, val_main_c_250_apply, val_main_v699_apply, val_main_c_254_apply, val_main_v703_apply,
      val_main_v702_apply, val_main_c_255_apply, val_main_v706_apply, val_main_v693_apply, val_main_v692_apply,
      val_main_c_251_apply, val_main_v705_apply, val_main_c_256_apply, val_main_v709_apply, val_main_v708_apply,
      val_main_c_257_apply, val_main_v716_apply, val_main_v715_apply, val_main_v713_apply, val_main_v712_apply,
      val_main_v711_apply, val_main_c_258_apply, val_main_v714_apply, val_main_c_259_apply,
      val_main_call28_v1_apply, val_main_call28_v0_apply, val_main_c_260_apply, val_main_v722_apply,
      val_main_c_262_apply, val_main_v725_apply, val_main_v724_apply, val_main_c_263_apply, baseB0, baseB1,
      baseB2]
  exact corner_idx 6 (pt x2 x1 p) 0#32 1#32 1#32 rfl rfl rfl

/-- Corner 6: the weight at row p. -/
theorem wB6 (x1 x2 : (⟨S1x2000000x3, .f32⟩ : BufTy).Contents (Elt Ideal)) (p : Fin 2000000) :
    val_main_v721 (F := Ideal) x1 x2 (ix1 p) = cw 6 (pt x2 x1 p) := by
  simp only [val_main_v721_apply, val_main_v710_apply, val_main_v707_apply, val_main_v704_apply,
      val_main_v701_apply, val_main_v698_apply, val_main_v695_apply, val_main_v689_apply, val_main_v688_apply,
      val_main_c_249_apply, val_main_v694_apply, val_main_c_252_apply, val_main_v697_apply, val_main_v696_apply,
      val_main_c_253_apply, val_main_v700_apply, val_main_v691_apply, val_main_v690_apply, val_main_c_250_apply,
      val_main_v699_apply, val_main_c_254_apply, val_main_v703_apply, val_main_v702_apply, val_main_c_255_apply,
      val_main_v706_apply, val_main_v693_apply, val_main_v692_apply, val_main_c_251_apply, val_main_v705_apply,
      val_main_c_256_apply, val_main_v709_apply, val_main_v708_apply, val_main_c_257_apply, val_main_v720_apply,
      val_main_v719_apply, val_main_v718_apply, val_main_v687_apply, val_main_v686_apply, val_main_cst_248_apply,
      val_main_v4_apply, val_main_cst_apply, val_main_call29_v1_apply, val_main_call29_v0_apply,
      val_main_cst_261_apply, baseB0, baseB1, baseB2, fracB0, fracB1, fracB2]
  exact corner_w 6 (pt x2 x1 p) 0#32 1#32 1#32 rfl rfl rfl _ _ _ rfl rfl rfl

/-- Corner 7 (dz, dy, dx) = (1, 1, 1): the index column at row p. -/
theorem idxB7 (x1 x2 : (⟨S1x2000000x3, .f32⟩ : BufTy).Contents (Elt Ideal)) (p : Fin 2000000) :
    val_main_v768 (F := Ideal) x1 x2 (ix2 p 0) = cidx 7 (pt x2 x1 p) := by
  have hrow : idx_main_v768 (ix2 p (0 : Fin 1)) = ix1 p := funext fun a => match a with | ⟨0, _⟩ => rfl
  rw [val_main_v768_apply, hrow]
  simp only [val_main_v767_apply, val_main_v764_apply, val_main_v758_apply, val_main_v751_apply,
      val_main_v748_apply, val_main_v745_apply, val_main_v742_apply, val_main_v739_apply, val_main_v736_apply,
      val_main_v730_apply, val_main_v729_apply, val_main_c_264_apply, val_main_v735_apply, val_main_c_267_apply,
      val_main_v738_apply, val_main_v737_apply, val_main_c_268_apply, val_main_v741_apply, val_main_v732_apply,
      val_main_v731_apply, val_main_c_265_apply, val_main_v740_apply, val_main_c_269_apply, val_main_v744_apply,
      val_main_v743_apply, val_main_c_270_apply, val_main_v747_apply, val_main_v734_apply, val_main_v733_apply,
      val_main_c_266_apply, val_main_v746_apply, val_main_c_271_apply, val_main_v750_apply, val_main_v749_apply,
      val_main_c_272_apply, val_main_v757_apply, val_main_v756_apply, val_main_v754_apply, val_main_v753_apply,
      val_main_v752_apply, val_main_c_273_apply, val_main_v755_apply, val_main_c_274_apply,
      val_main_call30_v1_apply, val_main_call30_v0_apply, val_main_c_275_apply, val_main_v763_apply,
      val_main_c_277_apply, val_main_v766_apply, val_main_v765_apply, val_main_c_278_apply, baseB0, baseB1,
      baseB2]
  exact corner_idx 7 (pt x2 x1 p) 1#32 1#32 1#32 rfl rfl rfl

/-- Corner 7: the weight at row p. -/
theorem wB7 (x1 x2 : (⟨S1x2000000x3, .f32⟩ : BufTy).Contents (Elt Ideal)) (p : Fin 2000000) :
    val_main_v762 (F := Ideal) x1 x2 (ix1 p) = cw 7 (pt x2 x1 p) := by
  simp only [val_main_v762_apply, val_main_v751_apply, val_main_v748_apply, val_main_v745_apply,
      val_main_v742_apply, val_main_v739_apply, val_main_v736_apply, val_main_v730_apply, val_main_v729_apply,
      val_main_c_264_apply, val_main_v735_apply, val_main_c_267_apply, val_main_v738_apply, val_main_v737_apply,
      val_main_c_268_apply, val_main_v741_apply, val_main_v732_apply, val_main_v731_apply, val_main_c_265_apply,
      val_main_v740_apply, val_main_c_269_apply, val_main_v744_apply, val_main_v743_apply, val_main_c_270_apply,
      val_main_v747_apply, val_main_v734_apply, val_main_v733_apply, val_main_c_266_apply, val_main_v746_apply,
      val_main_c_271_apply, val_main_v750_apply, val_main_v749_apply, val_main_c_272_apply, val_main_v761_apply,
      val_main_v760_apply, val_main_v759_apply, val_main_v4_apply, val_main_cst_apply, val_main_call31_v1_apply,
      val_main_call31_v0_apply, val_main_cst_276_apply, baseB0, baseB1, baseB2, fracB0, fracB1, fracB2]
  exact corner_w 7 (pt x2 x1 p) 1#32 1#32 1#32 rfl rfl rfl _ _ _ rfl rfl rfl

end Cert.RefRead

end
-- ==== Proof.RefGrid.lean ====
/-
  Eight scatter-adds in sequence from the zero grid are the splat.

  A scatter-add of N scalars through an [N, 1] index column adds to entry v of its operand the updates whose signed
  index is v. Eight of them in sequence from the zero grid leave at v the sum over the eight corners of those sums,
  in the order the scatters ran; with each corner's indices and updates the specification's corner index and weight,
  that is the splat at v — a finite sum in a commutative monoid, so no condition on the values is needed.
-/
import proofs.«106138_j14714557956152_2_alg».proof.Proof.RefCornersA
import proofs.«106138_j14714557956152_2_alg».proof.Proof.RefCornersB
import proofs.«106138_j14714557956152_2_alg».proof.Proof.LibScatterColumnRead

noncomputable section

open scoped BigOperators

namespace Cert.RefRead

open Cert.ReferenceIdeal Cert.ReferenceIdeal.Gen Cert.ReferenceIdeal.ReadP Idealize.ShloMosaic Idealize.ShloMosaic.ValueIdx Cert.Spec

/-- One scatter-add of two million scalars through an index column into the grid of 128³ entries. -/
local notation "scat" => Host.scatterAdd (F := Ideal) (φ := FTy.f32) scatter_S2097152_S2000000x1_S2000000_n_0_0_1

/-- What one scatter-add contributes to entry v: the updates whose signed index word is v. -/
def contrib (I : IVec S2000000x1 32) (U : S2000000.Idx → EReal) (v : Fin 2097152) : EReal :=
  ∑ e : Fin 2000000, if (I (ix2 e 0)).toInt = (v.val : ℤ) then U (ix1 e) else 0

/-- One scatter-add read at entry v. -/
theorem scatter_read (z : S2097152.Idx → EReal) (I : IVec S2000000x1 32) (U : S2000000.Idx → EReal) (v : Fin 2097152) :
    scat z I U (ix1 v) = z (ix1 v) + contrib I U v :=
  Cert.LibScatterColumnRead.scatterAdd_column_apply scatter_S2097152_S2000000x1_S2000000_n_0_0_1_wf z I U v

/-- Eight scatter-adds in sequence read at entry v. -/
theorem eight_read (z : S2097152.Idx → EReal)
    (I0 I1 I2 I3 I4 I5 I6 I7 : IVec S2000000x1 32)
    (U0 U1 U2 U3 U4 U5 U6 U7 : S2000000.Idx → EReal) (v : Fin 2097152) :
    (scat (scat (scat (scat (scat (scat (scat (scat z I0 U0) I1 U1) I2 U2) I3 U3) I4 U4) I5 U5) I6 U6) I7 U7) (ix1 v)
      = z (ix1 v) + contrib I0 U0 v + contrib I1 U1 v + contrib I2 U2 v + contrib I3 U3 v
          + contrib I4 U4 v + contrib I5 U5 v + contrib I6 U6 v + contrib I7 U7 v := by
  rw [scatter_read, scatter_read, scatter_read, scatter_read, scatter_read, scatter_read, scatter_read, scatter_read]

/-- The grid of point set one (the predicted registration) after its eight scatters, at voxel v. -/
theorem gridA (x0 x2 : (⟨S1x2000000x3, .f32⟩ : BufTy).Contents (Elt Ideal)) (v : Fin 2097152) :
    val_main_v386 (F := Ideal) x0 x2 (ix1 v) = splat (fun p => pt x2 x0 p) v := by
  unfold val_main_v386 val_main_v345 val_main_v302 val_main_v261 val_main_v216 val_main_v175 val_main_v132
      val_main_v91
  rw [eight_read, val_main_v44_apply, val_main_cst_12_apply, Ideal.ofBits_def, Ideal.ofBits_zero_f32, zero_add]
  unfold splat contrib
  rw [Fin.sum_univ_eight]
  simp only [idxA0, idxA1, idxA2, idxA3, idxA4, idxA5, idxA6, idxA7, wA0, wA1, wA2, wA3, wA4, wA5, wA6, wA7]

/-- The grid of point set two (the ground-truth registration) after its eight scatters, at voxel v. -/
theorem gridB (x1 x2 : (⟨S1x2000000x3, .f32⟩ : BufTy).Contents (Elt Ideal)) (v : Fin 2097152) :
    val_main_v769 (F := Ideal) x1 x2 (ix1 v) = splat (fun p => pt x2 x1 p) v := by
  unfold val_main_v769 val_main_v728 val_main_v685 val_main_v644 val_main_v599 val_main_v558 val_main_v515
      val_main_v474
  rw [eight_read, val_main_v427_apply, val_main_cst_151_apply, Ideal.ofBits_def, Ideal.ofBits_zero_f32, zero_add]
  unfold splat contrib
  rw [Fin.sum_univ_eight]
  simp only [idxB0, idxB1, idxB2, idxB3, idxB4, idxB5, idxB6, idxB7, wB0, wB1, wB2, wB3, wB4, wB5, wB6, wB7]

end Cert.RefRead

end
-- ==== Proof.RefRead.lean ====
/-
  The reference's result is the loss of the two point sets' splats.

  The two grids, viewed as [128, 128, 128] in row-major order, are subtracted entry by entry, the Huber function is
  applied, and everything is summed from zero. Entry (i, j, k) of a viewed grid is entry (i·128 + j)·128 + k of the
  grid, and (i, j, k) ↦ (i·128 + j)·128 + k is a bijection onto the 128³ voxels, so the sum over the three
  coordinates is the sum over the voxels: a reindexing of a finite sum, with no condition on the values.
-/
import proofs.«106138_j14714557956152_2_alg».proof.Proof.RefGrid

noncomputable section

open scoped BigOperators

namespace Cert.RefRead

open Cert.ReferenceIdeal Cert.ReferenceIdeal.Gen Cert.ReferenceIdeal.ReadP Idealize.ShloMosaic Idealize.ShloMosaic.ValueIdx Cert.Spec

/-- The row-major position of a [128, 128, 128] index among the 128³ voxels. -/
def vox : S128x128x128.Idx ≃ Fin 2097152 where
  toFun j := ⟨((j 0).val * 128 + (j 1).val) * 128 + (j 2).val, by
    have h0 : (j 0).val < 128 := (j 0).isLt
    have h1 : (j 1).val < 128 := (j 1).isLt
    have h2 : (j 2).val < 128 := (j 2).isLt
    omega⟩
  invFun v := ix3 ⟨v.val / 16384, by have := v.isLt; omega⟩ ⟨v.val / 128 % 128, by omega⟩ ⟨v.val % 128, by omega⟩
  left_inv j := by
    have h0 : (j 0).val < 128 := (j 0).isLt
    have h1 : (j 1).val < 128 := (j 1).isLt
    have h2 : (j 2).val < 128 := (j 2).isLt
    funext a
    match a with
    | ⟨0, _⟩ => exact Fin.ext (by show (((j 0).val * 128 + (j 1).val) * 128 + (j 2).val) / 16384 = (j 0).val; omega)
    | ⟨1, _⟩ => exact Fin.ext (by show (((j 0).val * 128 + (j 1).val) * 128 + (j 2).val) / 128 % 128 = (j 1).val; omega)
    | ⟨2, _⟩ => exact Fin.ext (by show (((j 0).val * 128 + (j 1).val) * 128 + (j 2).val) % 128 = (j 2).val; omega)
  right_inv v := Fin.ext (by
    show (v.val / 16384 * 128 + v.val / 128 % 128) * 128 + v.val % 128 = v.val
    omega)

/-- The reshape of a grid reads entry vox j. -/
theorem viewA (j : S128x128x128.Idx) : idx_main_v387 j = ix1 (vox j) :=
  funext fun a => match a with | ⟨0, _⟩ => rfl

theorem viewB (j : S128x128x128.Idx) : idx_main_v770 j = ix1 (vox j) :=
  funext fun a => match a with | ⟨0, _⟩ => rfl

/-- The Huber stage at one entry of the viewed grids. -/
theorem huber_at (x0 x1 x2 : (⟨S1x2000000x3, .f32⟩ : BufTy).Contents (Elt Ideal)) (j : S128x128x128.Idx) :
    val_main_v782 (F := Ideal) x0 x1 x2 j
      = hub (splat (fun p => pt x2 x0 p) (vox j) - splat (fun p => pt x2 x1 p) (vox j)) := by
  rw [val_main_v782_apply, val_main_v774_apply, val_main_v777_apply, val_main_v781_apply, val_main_v776_apply,
      val_main_v779_apply, val_main_v772_apply, val_main_v771_apply, val_main_v773_apply, val_main_cst_279_apply,
      val_main_v775_apply, val_main_cst_280_apply, val_main_v780_apply, val_main_cst_282_apply,
      val_main_v778_apply, val_main_cst_281_apply,
    val_main_v387_apply, val_main_v770_apply, viewA, viewB, gridA, gridB]
  generalize splat (fun p => pt x2 x0 p) (vox j) = a
  generalize splat (fun p => pt x2 x1 p) (vox j) = b
  exact huber_eq _

/-- The reference's result stage, as a function of the three argument arrays, is the loss. -/
theorem ref_value_pt (x0 x1 x2 : (⟨S1x2000000x3, .f32⟩ : BufTy).Contents (Elt Ideal)) :
    val_main_v783 (F := Ideal) x0 x1 x2 = fun _ => loss (fun p => pt x2 x0 p) (fun p => pt x2 x1 p) := by
  funext i
  rw [val_main_v783_apply, val_main_cst_283_apply, Ideal.ofBits_def, Ideal.ofBits_zero_f32, zero_add]
  unfold loss
  rw [← Equiv.sum_comp vox]
  exact Finset.sum_congr rfl (fun j _ => huber_at x0 x1 x2 j)

/-- The same with the points written out: point p of a set has base coordinates A2 (0, p, ·) and displacements
    A0 (0, p, ·), respectively A1 (0, p, ·). -/
theorem ref_value (A0 A1 A2 : S1x2000000x3.Idx → Ideal .f32) :
    (val_main_v783 (F := Ideal) A0 A1 A2 : S_.Idx → Ideal .f32) = fun _ =>
      Cert.Spec.loss
        (fun p : Fin 2000000 => Cert.Spec.mkPt (A2 (ix3 0 p 0)) (A0 (ix3 0 p 0)) (A2 (ix3 0 p 1)) (A0 (ix3 0 p 1)) (A2 (ix3 0 p 2)) (A0 (ix3 0 p 2)))
        (fun p : Fin 2000000 => Cert.Spec.mkPt (A2 (ix3 0 p 0)) (A1 (ix3 0 p 0)) (A2 (ix3 0 p 1)) (A1 (ix3 0 p 1)) (A2 (ix3 0 p 2)) (A1 (ix3 0 p 2))) :=
  ref_value_pt A0 A1 A2

end Cert.RefRead

end
-- ==== Proof.lean ====
/-
  The proof of the certificate's claim: the word-level kernel program, the same program read over the extended reals,
  and the reference each run and leave their three argument arrays unchanged; the reading over the extended reals rewrote
  no operation; and over the extended reals the kernel program and the reference end with one and the same result.

  Both programs take a base array and two displacement arrays of 2,000,000 points. Each point set is splatted on a
  128 × 128 × 128 grid — every point adds trilinear weights at the eight corners of its base cell, a corner outside the grid
  adding nothing —, and the result is the Huber function of the difference of the two splats, summed over the voxels
  (the specification: Proof/Spec.lean). The kernel program pads the points to whole blocks with a point all of whose
  corners are invalid, computes base cells and fractions in a first kernel call, rebuilds the corners on the host, adds
  both sets' weights in one scatter-add, and sums the Huber function in a second kernel call that accumulates over
  four blocks; the reference adds the eight corners of each set one scatter-add after another. Over the extended reals
  addition is associative and commutative, so both splats are the specification's sums, and the two results are the
  specification's loss of the same two point sets.
-/
import proofs.«106138_j14714557956152_2_alg».proof.Defs
import proofs.«106138_j14714557956152_2_alg».proof.Proof.Gen.Kernel
import proofs.«106138_j14714557956152_2_alg».proof.Proof.Gen.KernelIdeal
import proofs.«106138_j14714557956152_2_alg».proof.Proof.Gen.ReferenceIdeal
import proofs.«106138_j14714557956152_2_alg».proof.Proof.Gen.Pre_finite_inputs
import proofs.«106138_j14714557956152_2_alg».proof.Proof.KRun
import proofs.«106138_j14714557956152_2_alg».proof.Proof.KIRun
import proofs.«106138_j14714557956152_2_alg».proof.Proof.KIValue
import proofs.«106138_j14714557956152_2_alg».proof.Proof.RefRunH
import proofs.«106138_j14714557956152_2_alg».proof.Proof.RefReadP
import proofs.«106138_j14714557956152_2_alg».proof.Proof.RefRead
import proofs.«106138_j14714557956152_2_alg».proof.Proof.Spec
import Idealize.ShloMosaic.Adequacy
import Idealize.ShloMosaic.Init

noncomputable section

/-! ## The claims -/

namespace Cert.Proof

open Idealize.ShloMosaic Idealize.SL.Sem

/-- The word-level program runs and leaves its three argument arrays as launched. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- The reference runs and leaves its arguments: its run's post, the result's conjunct dropped. -/
theorem frame_ri : Cert.frame_ReferenceIdeal := fun m ρ _ =>
  (θ_run Cert.ReferenceIdeal.defs _ _).mono (fun _ h c => (h c).2) (Cert.ReferenceIdeal.RunH.run (F := Ideal) m ρ)

/-- Over the extended reals both programs end with the loss of the two point sets' splats — the Huber function of the
    difference of the two splats summed over the voxels — of arguments that agree: the kernel program's result buffer
    holds it after its last host stretch, and the reference's result term is it, index by index. -/
theorem algebraic : Cert.algebraic_KernelIdeal_ReferenceIdeal := by
  intro m ρ m' ρ' _ hagree
  refine ⟨fun c => fun _ => Cert.Spec.loss (Cert.KernelIdeal.Hand.ptsP m c) (Cert.KernelIdeal.Hand.ptsG m c), ?_, ?_⟩
  · exact (θ_run Cert.KernelIdeal.defs _ _).mono
      (fun _ h c => ⟨(h c).1.trans (Cert.KernelIdeal.Hand.kernel_value m c), (h c).2⟩)
      (Cert.KernelIdeal.Hand.run_value m ρ)
  · refine (θ_run Cert.ReferenceIdeal.defs _ _).mono (fun _ h c => ⟨(h c).1.trans ?_, (h c).2⟩)
      (Cert.ReferenceIdeal.RunH.run (F := Ideal) m' ρ')
    rw [(hagree c).1, (hagree c).2.1, (hagree c).2.2]
    exact Cert.RefRead.ref_value _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
